-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x32 : Shape := ⟨2, ![100000, 32]⟩
abbrev S16x4 : Shape := ⟨2, ![16, 4]⟩
abbrev S_ : Shape := ⟨0, ![]⟩

class Facts : Prop where
  bcast_S_S16x4 : S_.BroadcastsInDim S16x4 (![] : Fin 0 → Fin S16x4.rank)
  reducesTo_S16x4_S_d0_1 : S16x4.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_
  bcast_S_S100000x32 : S_.BroadcastsInDim S100000x32 (![] : Fin 0 → Fin S100000x32.rank)
  reducesTo_S100000x32_S_d0_1 : S100000x32.ReducesTo [0, 1] S_

variable [Facts]

def fn_part1 {F : FTy → Type} [FloatOps F] (main_v10 : IVec S_ 1) (main_v15 : IVec S100000x32 1) (main_c_5 : IVec S_ 1) : IVec S_ 1 :=
  let main_v16 : IVec S_ 1 := (fun x v => Host.reduce IntOp.andi x v reducesTo_S100000x32_S_d0_1 h_S_) main_v15 main_c_5
  let main_v17 : IVec S_ 1 := andi main_v10 main_v16
  main_v17

def fn {F : FTy → Type} [FloatOps F] (main_arg0 : IVec S4096x50 32) (main_arg1 : IVec S100000x32 32) (main_arg2 : FVec F S16x4 .f32) : IVec S_ 1 :=
  let main_v0 : FVec F S16x4 .f32 := Host.absf main_arg2
  let main_cst : FVec F S_ .f32 := constant S_ .f32 0x7F800000#32
  let main_v1 : FVec F S16x4 .f32 := broadcastInDim S16x4 ![] bcast_S_S16x4 main_cst
  let main_v2 : IVec S16x4 1 := cmpf .olt main_v0 main_v1
  let main_c : IVec S_ 1 := constantI S_ 1 1#1
  let main_v3 : IVec S_ 1 := (fun x v => Host.reduce IntOp.andi x v reducesTo_S16x4_S_d0_1 h_S_) main_v2 main_c
  let main_c_0 : IVec S_ 32 := constantI S_ 32 0#32
  let main_v4 : IVec S4096x50 32 := broadcastInDim S4096x50 ![] bcast_S_S4096x50 main_c_0
  let main_v5 : IVec S4096x50 1 := cmpi .sge main_arg0 main_v4
  let main_c_1 : IVec S_ 32 := constantI S_ 32 99999#32
  let main_v6 : IVec S4096x50 32 := broadcastInDim S4096x50 ![] bcast_S_S4096x50 main_c_1
  let main_v7 : IVec S4096x50 1 := cmpi .sle main_arg0 main_v6
  let main_v8 : IVec S4096x50 1 := andi main_v5 main_v7
  let main_c_2 : IVec S_ 1 := constantI S_ 1 1#1
  let main_v9 : IVec S_ 1 := (fun x v => Host.reduce IntOp.andi x v reducesTo_S4096x50_S_d0_1 h_S_) main_v8 main_c_2
  let main_v10 : IVec S_ 1 := andi main_v3 main_v9
  let main_c_3 : IVec S_ 32 := constantI S_ 32 0#32
  let main_v11 : IVec S100000x32 32 := broadcastInDim S100000x32 ![] bcast_S_S100000x32 main_c_3
  let main_v12 : IVec S100000x32 1 := cmpi .sge main_arg1 main_v11
  let main_c_4 : IVec S_ 32 := constantI S_ 32 15#32
  let main_v13 : IVec S100000x32 32 := broadcastInDim S100000x32 ![] bcast_S_S100000x32 main_c_4
  let main_v14 : IVec S100000x32 1 := cmpi .sle main_arg1 main_v13
  let main_v15 : IVec S100000x32 1 := andi main_v12 main_v14
  let main_c_5 : IVec S_ 1 := constantI S_ 1 1#1
  fn_part1 (F := F) main_v10 main_v15 main_c_5
-- ==== Kernel.lean ====
abbrev S4096x50 : Shape := ⟨2, ![4096, 50]⟩
abbrev S100000x32 : Shape := ⟨2, ![100000, 32]⟩
abbrev S16x4 : Shape := ⟨2, ![16, 4]⟩
abbrev S204800 : Shape := ⟨1, ![204800]⟩
abbrev S25000x128 : Shape := ⟨2, ![25000, 128]⟩
abbrev S64 : Shape := ⟨1, ![64]⟩
abbrev S204800x128 : Shape := ⟨2, ![204800, 128]⟩
abbrev S128 : Shape := ⟨1, ![128]⟩
abbrev S128x128 : Shape := ⟨2, ![128, 128]⟩
abbrev S16 : Shape := ⟨1, ![16]⟩
abbrev S_ : Shape := ⟨0, ![]⟩
abbrev S1x16 : Shape := ⟨2, ![1, 16]⟩
abbrev S4096x50x128 : Shape := ⟨3, ![4096, 50, 128]⟩

abbrev nBuf : Table → Nat
  | .hbm => 8
  | .local .scVector .vmem => 10
  | _ => 0

abbrev bufTy : (tb : Table) → Fin (nBuf tb) → BufTy
  | .hbm, ⟨0, _⟩ => ⟨S4096x50, .i32⟩
  | .hbm, ⟨1, _⟩ => ⟨S100000x32, .i32⟩
  | .hbm, ⟨2, _⟩ => ⟨S16x4, .f32⟩
  | .hbm, ⟨3, _⟩ => ⟨S204800, .i32⟩
  | .hbm, ⟨4, _⟩ => ⟨S25000x128, .i32⟩
  | .hbm, ⟨5, _⟩ => ⟨S64, .f32⟩
  | .hbm, ⟨6, _⟩ => ⟨S204800x128, .f32⟩
  | .hbm, ⟨7, _⟩ => ⟨S4096x50x128, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .i32⟩
  | .local .scVector .vmem, ⟨5, _⟩ => ⟨S128x128, .i32⟩
  | .local .scVector .vmem, ⟨6, _⟩ => ⟨S128x128, .f32⟩
  | .local .scVector .vmem, ⟨7, _⟩ => ⟨S128x128, .f32⟩
  | .local .scVector .vmem, ⟨8, _⟩ => ⟨S64, .f32⟩
  | .local .scVector .vmem, ⟨9, _⟩ => ⟨S16, .i32⟩
  | _, _ => ⟨S4096x50, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev main_v3_scv : Ref sig .scVector := ⟨.hbm, 6, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v3 : BitVec 32 := Scalar.addi v2 c0_i32
  ![v3.toNat]
@[reducible] def k0_t1_loop : Scf.Loop 32 :=
  let c0_i32_0 : BitVec 32 := 0#32
  let c8_i32 : BitVec 32 := 8#32
  let v4 : BitVec 32 := Scalar.addi c0_i32_0 c8_i32
  let c1_i32 : BitVec 32 := 1#32
  ⟨c0_i32_0, v4, c1_i32⟩
def k0_off2 (k0_t1 : Fin k0_t1_loop.trips) : Fin 1 → Nat :=
  let c0_i32_18 : BitVec 32 := 0#32
  let c0_i32_0 : BitVec 32 := 0#32
  let c1_i32 : BitVec 32 := 1#32
  let arg20 : BitVec 32 := Scf.iv c0_i32_0 c1_i32 k0_t1
  let c1_i32_17 : BitVec 32 := 1#32
  let v16 : BitVec 32 := Scalar.muli arg20 c1_i32_17
  let v17 : BitVec 32 := Scalar.addi c0_i32_18 v16
  let c16_i32 : BitVec 32 := 16#32
  let v18 : BitVec 32 := Scalar.muli v17 c16_i32
  let v19 : Index := Scalar.indexCast v18
  ![v19.toNat]
@[reducible] def k0_t2_loop : Scf.Loop 32 :=
  let c0_i32_4 : BitVec 32 := 0#32
  let c8_i32_5 : BitVec 32 := 8#32
  let v7 : BitVec 32 := Scalar.addi c0_i32_4 c8_i32_5
  let c1_i32_6 : BitVec 32 := 1#32
  ⟨c0_i32_4, v7, c1_i32_6⟩
def k0_off3 (k0_t2 : Fin k0_t2_loop.trips) : Fin 1 → Nat :=
  let c0_i32_18 : BitVec 32 := 0#32
  let c0_i32_4 : BitVec 32 := 0#32
  let c1_i32_6 : BitVec 32 := 1#32
  let arg20 : BitVec 32 := Scf.iv c0_i32_4 c1_i32_6 k0_t2
  let c1_i32_17 : BitVec 32 := 1#32
  let v16 : BitVec 32 := Scalar.muli arg20 c1_i32_17
  let v17 : BitVec 32 := Scalar.addi c0_i32_18 v16
  let c16_i32 : BitVec 32 := 16#32
  let v18 : BitVec 32 := Scalar.muli v17 c16_i32
  let v19 : Index := Scalar.indexCast v18
  ![v19.toNat]
@[reducible] def k0_t3_loop : Scf.Loop 32 :=
  let c0_i32_10 : BitVec 32 := 0#32
  let c25_i32 : BitVec 32 := 25#32
  let v9 : BitVec 32 := Scalar.addi c0_i32_10 c25_i32
  let c1_i32_11 : BitVec 32 := 1#32
  ⟨c0_i32_10, v9, c1_i32_11⟩
def k0_cond1 (k0_t3 : Fin k0_t3_loop.trips) : BitVec 1 :=
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c0_i32_23 : BitVec 32 := 0#32
  let v22 : BitVec 1 := Scalar.cmpi .sgt v17 c0_i32_23
  let v23 : BitVec 32 := Scalar.extui v22
  let c0_i32_24 : BitVec 32 := 0#32
  let v24 : BitVec 1 := Scalar.cmpi .ne v23 c0_i32_24
  v24

def k0_off4 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c0_i32_19 : BitVec 32 := 0#32
  let v18 : BitVec 32 := Scalar.addi v17 c0_i32_19
  let c128_i32_20 : BitVec 32 := 128#32
  let v19 : BitVec 32 := Scalar.muli v18 c128_i32_20
  let v20 : BitVec 32 := Scalar.addi v2 v19
  let c256_i32 : BitVec 32 := 256#32
  let v52 : BitVec 32 := Scalar.subi v20 c256_i32
  let c0_i32_53 : BitVec 32 := 0#32
  ![v52.toNat, 0]
@[reducible] def k0_t4_loop : Scf.Loop 32 :=
  let c0_i32_26 : BitVec 32 := 0#32
  let c128_i32_27 : BitVec 32 := 128#32
  let v27 : BitVec 32 := Scalar.addi c0_i32_26 c128_i32_27
  let c1_i32_28 : BitVec 32 := 1#32
  ⟨c0_i32_26, v27, c1_i32_28⟩

def k0_chk1 (v59 : IVec S16 32) : Prop :=
  (∀ a x, ((![v59] : Fin 1 → IVec S16 32) a x).toNat < S128.size a)
instance k0_chk1.dec : ∀ (v59 : IVec S16 32), Decidable (k0_chk1 v59) := fun v59 => decidable_of_iff' _ (Iff.of_eq (k0_chk1.eq_1 v59))
theorem k0_idx1_inb : ∀ (v59 : IVec S16 32) (k0_hw1 : k0_chk1 v59), ∀ a x, ((![v59] : Fin 1 → IVec S16 32) a x).toNat < S128.size a := fun v59 k0_hw1 => k0_hw1

def k0_chk2 (v59 : IVec S16 32) (v67 : IVec S16 32) : Prop :=
  (∀ a x, ((![v59, v67] : Fin 2 → IVec S16 32) a x).toNat < S128x128.size a)
instance k0_chk2.dec : ∀ (v59 : IVec S16 32) (v67 : IVec S16 32), Decidable (k0_chk2 v59 v67) := fun v59 v67 => decidable_of_iff' _ (Iff.of_eq (k0_chk2.eq_1 v59 v67))
theorem k0_idx2_inb : ∀ (v59 : IVec S16 32) (v67 : IVec S16 32) (k0_hw2 : k0_chk2 v59 v67), ∀ a x, ((![v59, v67] : Fin 2 → IVec S16 32) a x).toNat < S128x128.size a := fun v59 v67 k0_hw2 => k0_hw2

def k0_chk3 (v59 : IVec S16 32) (v71 : IVec S16 32) : Prop :=
  (∀ a x, ((![v59, v71] : Fin 2 → IVec S16 32) a x).toNat < S128x128.size a)
instance k0_chk3.dec : ∀ (v59 : IVec S16 32) (v71 : IVec S16 32), Decidable (k0_chk3 v59 v71) := fun v59 v71 => decidable_of_iff' _ (Iff.of_eq (k0_chk3.eq_1 v59 v71))
theorem k0_idx3_inb : ∀ (v59 : IVec S16 32) (v71 : IVec S16 32) (k0_hw3 : k0_chk3 v59 v71), ∀ a x, ((![v59, v71] : Fin 2 → IVec S16 32) a x).toNat < S128x128.size a := fun v59 v71 k0_hw3 => k0_hw3

def k0_chk4 (v59 : IVec S16 32) (v75 : IVec S16 32) : Prop :=
  (∀ a x, ((![v59, v75] : Fin 2 → IVec S16 32) a x).toNat < S128x128.size a)
instance k0_chk4.dec : ∀ (v59 : IVec S16 32) (v75 : IVec S16 32), Decidable (k0_chk4 v59 v75) := fun v59 v75 => decidable_of_iff' _ (Iff.of_eq (k0_chk4.eq_1 v59 v75))
theorem k0_idx4_inb : ∀ (v59 : IVec S16 32) (v75 : IVec S16 32) (k0_hw4 : k0_chk4 v59 v75), ∀ a x, ((![v59, v75] : Fin 2 → IVec S16 32) a x).toNat < S128x128.size a := fun v59 v75 k0_hw4 => k0_hw4

def k0_chk5 (v59 : IVec S16 32) (v79 : IVec S16 32) : Prop :=
  (∀ a x, ((![v59, v79] : Fin 2 → IVec S16 32) a x).toNat < S128x128.size a)
instance k0_chk5.dec : ∀ (v59 : IVec S16 32) (v79 : IVec S16 32), Decidable (k0_chk5 v59 v79) := fun v59 v79 => decidable_of_iff' _ (Iff.of_eq (k0_chk5.eq_1 v59 v79))
theorem k0_idx5_inb : ∀ (v59 : IVec S16 32) (v79 : IVec S16 32) (k0_hw5 : k0_chk5 v59 v79), ∀ a x, ((![v59, v79] : Fin 2 → IVec S16 32) a x).toNat < S128x128.size a := fun v59 v79 k0_hw5 => k0_hw5

def k0_chk6 (v59 : IVec S16 32) (v83 : IVec S16 32) : Prop :=
  (∀ a x, ((![v59, v83] : Fin 2 → IVec S16 32) a x).toNat < S128x128.size a)
instance k0_chk6.dec : ∀ (v59 : IVec S16 32) (v83 : IVec S16 32), Decidable (k0_chk6 v59 v83) := fun v59 v83 => decidable_of_iff' _ (Iff.of_eq (k0_chk6.eq_1 v59 v83))
theorem k0_idx6_inb : ∀ (v59 : IVec S16 32) (v83 : IVec S16 32) (k0_hw6 : k0_chk6 v59 v83), ∀ a x, ((![v59, v83] : Fin 2 → IVec S16 32) a x).toNat < S128x128.size a := fun v59 v83 k0_hw6 => k0_hw6

def k0_chk7 (v59 : IVec S16 32) (v87 : IVec S16 32) : Prop :=
  (∀ a x, ((![v59, v87] : Fin 2 → IVec S16 32) a x).toNat < S128x128.size a)
instance k0_chk7.dec : ∀ (v59 : IVec S16 32) (v87 : IVec S16 32), Decidable (k0_chk7 v59 v87) := fun v59 v87 => decidable_of_iff' _ (Iff.of_eq (k0_chk7.eq_1 v59 v87))
theorem k0_idx7_inb : ∀ (v59 : IVec S16 32) (v87 : IVec S16 32) (k0_hw7 : k0_chk7 v59 v87), ∀ a x, ((![v59, v87] : Fin 2 → IVec S16 32) a x).toNat < S128x128.size a := fun v59 v87 k0_hw7 => k0_hw7

def k0_chk8 (v59 : IVec S16 32) (v91 : IVec S16 32) : Prop :=
  (∀ a x, ((![v59, v91] : Fin 2 → IVec S16 32) a x).toNat < S128x128.size a)
instance k0_chk8.dec : ∀ (v59 : IVec S16 32) (v91 : IVec S16 32), Decidable (k0_chk8 v59 v91) := fun v59 v91 => decidable_of_iff' _ (Iff.of_eq (k0_chk8.eq_1 v59 v91))
theorem k0_idx8_inb : ∀ (v59 : IVec S16 32) (v91 : IVec S16 32) (k0_hw8 : k0_chk8 v59 v91), ∀ a x, ((![v59, v91] : Fin 2 → IVec S16 32) a x).toNat < S128x128.size a := fun v59 v91 k0_hw8 => k0_hw8

def k0_chk9 (v59 : IVec S16 32) (v95 : IVec S16 32) : Prop :=
  (∀ a x, ((![v59, v95] : Fin 2 → IVec S16 32) a x).toNat < S128x128.size a)
instance k0_chk9.dec : ∀ (v59 : IVec S16 32) (v95 : IVec S16 32), Decidable (k0_chk9 v59 v95) := fun v59 v95 => decidable_of_iff' _ (Iff.of_eq (k0_chk9.eq_1 v59 v95))
theorem k0_idx9_inb : ∀ (v59 : IVec S16 32) (v95 : IVec S16 32) (k0_hw9 : k0_chk9 v59 v95), ∀ a x, ((![v59, v95] : Fin 2 → IVec S16 32) a x).toNat < S128x128.size a := fun v59 v95 k0_hw9 => k0_hw9

def k0_chk10 (v99 : IVec S16 32) : Prop :=
  (∀ a x, ((![v99] : Fin 1 → IVec S16 32) a x).toNat < S64.size a)
instance k0_chk10.dec : ∀ (v99 : IVec S16 32), Decidable (k0_chk10 v99) := fun v99 => decidable_of_iff' _ (Iff.of_eq (k0_chk10.eq_1 v99))
theorem k0_idx10_inb : ∀ (v99 : IVec S16 32) (k0_hw10 : k0_chk10 v99), ∀ a x, ((![v99] : Fin 1 → IVec S16 32) a x).toNat < S64.size a := fun v99 k0_hw10 => k0_hw10

def k0_chk11 (v103 : IVec S16 32) : Prop :=
  (∀ a x, ((![v103] : Fin 1 → IVec S16 32) a x).toNat < S64.size a)
instance k0_chk11.dec : ∀ (v103 : IVec S16 32), Decidable (k0_chk11 v103) := fun v103 => decidable_of_iff' _ (Iff.of_eq (k0_chk11.eq_1 v103))
theorem k0_idx11_inb : ∀ (v103 : IVec S16 32) (k0_hw11 : k0_chk11 v103), ∀ a x, ((![v103] : Fin 1 → IVec S16 32) a x).toNat < S64.size a := fun v103 k0_hw11 => k0_hw11

def k0_chk12 (v107 : IVec S16 32) : Prop :=
  (∀ a x, ((![v107] : Fin 1 → IVec S16 32) a x).toNat < S64.size a)
instance k0_chk12.dec : ∀ (v107 : IVec S16 32), Decidable (k0_chk12 v107) := fun v107 => decidable_of_iff' _ (Iff.of_eq (k0_chk12.eq_1 v107))
theorem k0_idx12_inb : ∀ (v107 : IVec S16 32) (k0_hw12 : k0_chk12 v107), ∀ a x, ((![v107] : Fin 1 → IVec S16 32) a x).toNat < S64.size a := fun v107 k0_hw12 => k0_hw12

def k0_chk13 (v111 : IVec S16 32) : Prop :=
  (∀ a x, ((![v111] : Fin 1 → IVec S16 32) a x).toNat < S64.size a)
instance k0_chk13.dec : ∀ (v111 : IVec S16 32), Decidable (k0_chk13 v111) := fun v111 => decidable_of_iff' _ (Iff.of_eq (k0_chk13.eq_1 v111))
theorem k0_idx13_inb : ∀ (v111 : IVec S16 32) (k0_hw13 : k0_chk13 v111), ∀ a x, ((![v111] : Fin 1 → IVec S16 32) a x).toNat < S64.size a := fun v111 k0_hw13 => k0_hw13

def k0_chk14 (v115 : IVec S16 32) : Prop :=
  (∀ a x, ((![v115] : Fin 1 → IVec S16 32) a x).toNat < S64.size a)
instance k0_chk14.dec : ∀ (v115 : IVec S16 32), Decidable (k0_chk14 v115) := fun v115 => decidable_of_iff' _ (Iff.of_eq (k0_chk14.eq_1 v115))
theorem k0_idx14_inb : ∀ (v115 : IVec S16 32) (k0_hw14 : k0_chk14 v115), ∀ a x, ((![v115] : Fin 1 → IVec S16 32) a x).toNat < S64.size a := fun v115 k0_hw14 => k0_hw14

def k0_chk15 (v119 : IVec S16 32) : Prop :=
  (∀ a x, ((![v119] : Fin 1 → IVec S16 32) a x).toNat < S64.size a)
instance k0_chk15.dec : ∀ (v119 : IVec S16 32), Decidable (k0_chk15 v119) := fun v119 => decidable_of_iff' _ (Iff.of_eq (k0_chk15.eq_1 v119))
theorem k0_idx15_inb : ∀ (v119 : IVec S16 32) (k0_hw15 : k0_chk15 v119), ∀ a x, ((![v119] : Fin 1 → IVec S16 32) a x).toNat < S64.size a := fun v119 k0_hw15 => k0_hw15

def k0_chk16 (v123 : IVec S16 32) : Prop :=
  (∀ a x, ((![v123] : Fin 1 → IVec S16 32) a x).toNat < S64.size a)
instance k0_chk16.dec : ∀ (v123 : IVec S16 32), Decidable (k0_chk16 v123) := fun v123 => decidable_of_iff' _ (Iff.of_eq (k0_chk16.eq_1 v123))
theorem k0_idx16_inb : ∀ (v123 : IVec S16 32) (k0_hw16 : k0_chk16 v123), ∀ a x, ((![v123] : Fin 1 → IVec S16 32) a x).toNat < S64.size a := fun v123 k0_hw16 => k0_hw16

def k0_chk17 (v127 : IVec S16 32) : Prop :=
  (∀ a x, ((![v127] : Fin 1 → IVec S16 32) a x).toNat < S64.size a)
instance k0_chk17.dec : ∀ (v127 : IVec S16 32), Decidable (k0_chk17 v127) := fun v127 => decidable_of_iff' _ (Iff.of_eq (k0_chk17.eq_1 v127))
theorem k0_idx17_inb : ∀ (v127 : IVec S16 32) (k0_hw17 : k0_chk17 v127), ∀ a x, ((![v127] : Fin 1 → IVec S16 32) a x).toNat < S64.size a := fun v127 k0_hw17 => k0_hw17
def k0_off5 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v129 : Index := Scalar.indexCast v53
  let c0_68 : Index := 0#32
  ![v129.toNat, 0]
def k0_off6 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v131 : Index := Scalar.indexCast v53
  let c16 : Index := 16#32
  ![v131.toNat, 16]
def k0_off7 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v133 : Index := Scalar.indexCast v53
  let c32 : Index := 32#32
  ![v133.toNat, 32]
def k0_off8 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v135 : Index := Scalar.indexCast v53
  let c48 : Index := 48#32
  ![v135.toNat, 48]
def k0_off9 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v137 : Index := Scalar.indexCast v53
  let c64 : Index := 64#32
  ![v137.toNat, 64]
def k0_off10 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v139 : Index := Scalar.indexCast v53
  let c80 : Index := 80#32
  ![v139.toNat, 80]
def k0_off11 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v141 : Index := Scalar.indexCast v53
  let c96 : Index := 96#32
  ![v141.toNat, 96]
def k0_off12 (k0_t4 : Fin k0_t4_loop.trips) : Fin 2 → Nat :=
  let c0_i32_54 : BitVec 32 := 0#32
  let c0_i32_26 : BitVec 32 := 0#32
  let c1_i32_28 : BitVec 32 := 1#32
  let arg21 : BitVec 32 := Scf.iv c0_i32_26 c1_i32_28 k0_t4
  let c1_i32_53 : BitVec 32 := 1#32
  let v52 : BitVec 32 := Scalar.muli arg21 c1_i32_53
  let v53 : BitVec 32 := Scalar.addi c0_i32_54 v52
  let v143 : Index := Scalar.indexCast v53
  let c112 : Index := 112#32
  ![v143.toNat, 112]
def k0_cond2 (k0_t3 : Fin k0_t3_loop.trips) : BitVec 1 :=
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c0_i32_30 : BitVec 32 := 0#32
  let v28 : BitVec 32 := Scalar.addi v17 c0_i32_30
  let c2_i32_31 : BitVec 32 := 2#32
  let v29 : BitVec 32 := Scalar.addi v28 c2_i32_31
  let c50_i32 : BitVec 32 := 50#32
  let v30 : BitVec 1 := Scalar.cmpi .slt v29 c50_i32
  let v31 : BitVec 32 := Scalar.extui v30
  let c0_i32_32 : BitVec 32 := 0#32
  let v32 : BitVec 1 := Scalar.cmpi .ne v31 c0_i32_32
  v32

def k0_off13 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c0_i32_19 : BitVec 32 := 0#32
  let v18 : BitVec 32 := Scalar.addi v17 c0_i32_19
  let c128_i32_20 : BitVec 32 := 128#32
  let v19 : BitVec 32 := Scalar.muli v18 c128_i32_20
  let v20 : BitVec 32 := Scalar.addi v2 v19
  let c256_i32 : BitVec 32 := 256#32
  let v52 : BitVec 32 := Scalar.addi v20 c256_i32
  ![v52.toNat]
@[reducible] def k0_t5_loop : Scf.Loop 32 :=
  let c0_i32_53 : BitVec 32 := 0#32
  let c8_i32_54 : BitVec 32 := 8#32
  let v53 : BitVec 32 := Scalar.addi c0_i32_53 c8_i32_54
  let c1_i32_55 : BitVec 32 := 1#32
  ⟨c0_i32_53, v53, c1_i32_55⟩
def k0_off14 (k0_t5 : Fin k0_t5_loop.trips) : Fin 1 → Nat :=
  let c0_i32_60 : BitVec 32 := 0#32
  let c0_i32_53 : BitVec 32 := 0#32
  let c1_i32_55 : BitVec 32 := 1#32
  let arg21 : BitVec 32 := Scf.iv c0_i32_53 c1_i32_55 k0_t5
  let c1_i32_59 : BitVec 32 := 1#32
  let v55 : BitVec 32 := Scalar.muli arg21 c1_i32_59
  let v56 : BitVec 32 := Scalar.addi c0_i32_60 v55
  let c16_i32 : BitVec 32 := 16#32
  let v57 : BitVec 32 := Scalar.muli v56 c16_i32
  let v58 : Index := Scalar.indexCast v57
  ![v58.toNat]
def k0_off15 (i : grid0.Coords) (k0_t3 : Fin k0_t3_loop.trips) (c0_i32_19 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let v18 : BitVec 32 := Scalar.addi v17 c0_i32_19
  let c128_i32_20 : BitVec 32 := 128#32
  let v19 : BitVec 32 := Scalar.muli v18 c128_i32_20
  let v20 : BitVec 32 := Scalar.addi v2 v19
  let c0_i32_33 : BitVec 32 := 0#32
  ![v20.toNat, 0]
def k0_cond3 (k0_t3 : Fin k0_t3_loop.trips) : BitVec 1 :=
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c0_i32_39 : BitVec 32 := 0#32
  let v39 : BitVec 1 := Scalar.cmpi .sgt v17 c0_i32_39
  let v40 : BitVec 32 := Scalar.extui v39
  let c0_i32_40 : BitVec 32 := 0#32
  let v41 : BitVec 1 := Scalar.cmpi .ne v40 c0_i32_40
  v41

def k0_off16 (i : grid0.Coords) (k0_t3 : Fin k0_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c1_i32_35 : BitVec 32 := 1#32
  let v35 : BitVec 32 := Scalar.addi v17 c1_i32_35
  let c128_i32_36 : BitVec 32 := 128#32
  let v36 : BitVec 32 := Scalar.muli v35 c128_i32_36
  let v37 : BitVec 32 := Scalar.addi v2 v36
  let c256_i32 : BitVec 32 := 256#32
  let v52 : BitVec 32 := Scalar.subi v37 c256_i32
  let c0_i32_53 : BitVec 32 := 0#32
  ![v52.toNat, 0]
@[reducible] def k0_t6_loop : Scf.Loop 32 :=
  let c0_i32_43 : BitVec 32 := 0#32
  let c128_i32_44 : BitVec 32 := 128#32
  let v44 : BitVec 32 := Scalar.addi c0_i32_43 c128_i32_44
  let c1_i32_45 : BitVec 32 := 1#32
  ⟨c0_i32_43, v44, c1_i32_45⟩

def k0_chk18 (v59 : IVec S16 32) : Prop :=
  (∀ a x, ((![v59] : Fin 1 → IVec S16 32) a x).toNat < S128.size a)
instance k0_chk18.dec : ∀ (v59 : IVec S16 32), Decidable (k0_chk18 v59) := fun v59 => decidable_of_iff' _ (Iff.of_eq (k0_chk18.eq_1 v59))
theorem k0_idx18_inb : ∀ (v59 : IVec S16 32) (k0_hw18 : k0_chk18 v59), ∀ a x, ((![v59] : Fin 1 → IVec S16 32) a x).toNat < S128.size a := fun v59 k0_hw18 => k0_hw18

def k0_chk19 (v59 : IVec S16 32) (v67 : IVec S16 32) : Prop :=
  (∀ a x, ((![v59, v67] : Fin 2 → IVec S16 32) a x).toNat < S128x128.size a)
instance k0_chk19.dec : ∀ (v59 : IVec S16 32) (v67 : IVec S16 32), Decidable (k0_chk19 v59 v67) := fun v59 v67 => decidable_of_iff' _ (Iff.of_eq (k0_chk19.eq_1 v59 v67))
theorem k0_idx19_inb : ∀ (v59 : IVec S16 32) (v67 : IVec S16 32) (k0_hw19 : k0_chk19 v59 v67), ∀ a x, ((![v59, v67] : Fin 2 → IVec S16 32) a x).toNat < S128x128.size a := fun v59 v67 k0_hw19 => k0_hw19

def k0_chk20 (v59 : IVec S16 32) (v71 : IVec S16 32) : Prop :=
  (∀ a x, ((![v59, v71] : Fin 2 → IVec S16 32) a x).toNat < S128x128.size a)
instance k0_chk20.dec : ∀ (v59 : IVec S16 32) (v71 : IVec S16 32), Decidable (k0_chk20 v59 v71) := fun v59 v71 => decidable_of_iff' _ (Iff.of_eq (k0_chk20.eq_1 v59 v71))
theorem k0_idx20_inb : ∀ (v59 : IVec S16 32) (v71 : IVec S16 32) (k0_hw20 : k0_chk20 v59 v71), ∀ a x, ((![v59, v71] : Fin 2 → IVec S16 32) a x).toNat < S128x128.size a := fun v59 v71 k0_hw20 => k0_hw20

def k0_chk21 (v59 : IVec S16 32) (v75 : IVec S16 32) : Prop :=
  (∀ a x, ((![v59, v75] : Fin 2 → IVec S16 32) a x).toNat < S128x128.size a)
instance k0_chk21.dec : ∀ (v59 : IVec S16 32) (v75 : IVec S16 32), Decidable (k0_chk21 v59 v75) := fun v59 v75 => decidable_of_iff' _ (Iff.of_eq (k0_chk21.eq_1 v59 v75))
theorem k0_idx21_inb : ∀ (v59 : IVec S16 32) (v75 : IVec S16 32) (k0_hw21 : k0_chk21 v59 v75), ∀ a x, ((![v59, v75] : Fin 2 → IVec S16 32) a x).toNat < S128x128.size a := fun v59 v75 k0_hw21 => k0_hw21

def k0_chk22 (v59 : IVec S16 32) (v79 : IVec S16 32) : Prop :=
  (∀ a x, ((![v59, v79] : Fin 2 → IVec S16 32) a x).toNat < S128x128.size a)
instance k0_chk22.dec : ∀ (v59 : IVec S16 32) (v79 : IVec S16 32), Decidable (k0_chk22 v59 v79) := fun v59 v79 => decidable_of_iff' _ (Iff.of_eq (k0_chk22.eq_1 v59 v79))
theorem k0_idx22_inb : ∀ (v59 : IVec S16 32) (v79 : IVec S16 32) (k0_hw22 : k0_chk22 v59 v79), ∀ a x, ((![v59, v79] : Fin 2 → IVec S16 32) a x).toNat < S128x128.size a := fun v59 v79 k0_hw22 => k0_hw22

def k0_chk23 (v59 : IVec S16 32) (v83 : IVec S16 32) : Prop :=
  (∀ a x, ((![v59, v83] : Fin 2 → IVec S16 32) a x).toNat < S128x128.size a)
instance k0_chk23.dec : ∀ (v59 : IVec S16 32) (v83 : IVec S16 32), Decidable (k0_chk23 v59 v83) := fun v59 v83 => decidable_of_iff' _ (Iff.of_eq (k0_chk23.eq_1 v59 v83))
theorem k0_idx23_inb : ∀ (v59 : IVec S16 32) (v83 : IVec S16 32) (k0_hw23 : k0_chk23 v59 v83), ∀ a x, ((![v59, v83] : Fin 2 → IVec S16 32) a x).toNat < S128x128.size a := fun v59 v83 k0_hw23 => k0_hw23

def k0_chk24 (v59 : IVec S16 32) (v87 : IVec S16 32) : Prop :=
  (∀ a x, ((![v59, v87] : Fin 2 → IVec S16 32) a x).toNat < S128x128.size a)
instance k0_chk24.dec : ∀ (v59 : IVec S16 32) (v87 : IVec S16 32), Decidable (k0_chk24 v59 v87) := fun v59 v87 => decidable_of_iff' _ (Iff.of_eq (k0_chk24.eq_1 v59 v87))
theorem k0_idx24_inb : ∀ (v59 : IVec S16 32) (v87 : IVec S16 32) (k0_hw24 : k0_chk24 v59 v87), ∀ a x, ((![v59, v87] : Fin 2 → IVec S16 32) a x).toNat < S128x128.size a := fun v59 v87 k0_hw24 => k0_hw24

def k0_chk25 (v59 : IVec S16 32) (v91 : IVec S16 32) : Prop :=
  (∀ a x, ((![v59, v91] : Fin 2 → IVec S16 32) a x).toNat < S128x128.size a)
instance k0_chk25.dec : ∀ (v59 : IVec S16 32) (v91 : IVec S16 32), Decidable (k0_chk25 v59 v91) := fun v59 v91 => decidable_of_iff' _ (Iff.of_eq (k0_chk25.eq_1 v59 v91))
theorem k0_idx25_inb : ∀ (v59 : IVec S16 32) (v91 : IVec S16 32) (k0_hw25 : k0_chk25 v59 v91), ∀ a x, ((![v59, v91] : Fin 2 → IVec S16 32) a x).toNat < S128x128.size a := fun v59 v91 k0_hw25 => k0_hw25

def k0_chk26 (v59 : IVec S16 32) (v95 : IVec S16 32) : Prop :=
  (∀ a x, ((![v59, v95] : Fin 2 → IVec S16 32) a x).toNat < S128x128.size a)
instance k0_chk26.dec : ∀ (v59 : IVec S16 32) (v95 : IVec S16 32), Decidable (k0_chk26 v59 v95) := fun v59 v95 => decidable_of_iff' _ (Iff.of_eq (k0_chk26.eq_1 v59 v95))
theorem k0_idx26_inb : ∀ (v59 : IVec S16 32) (v95 : IVec S16 32) (k0_hw26 : k0_chk26 v59 v95), ∀ a x, ((![v59, v95] : Fin 2 → IVec S16 32) a x).toNat < S128x128.size a := fun v59 v95 k0_hw26 => k0_hw26

def k0_chk27 (v99 : IVec S16 32) : Prop :=
  (∀ a x, ((![v99] : Fin 1 → IVec S16 32) a x).toNat < S64.size a)
instance k0_chk27.dec : ∀ (v99 : IVec S16 32), Decidable (k0_chk27 v99) := fun v99 => decidable_of_iff' _ (Iff.of_eq (k0_chk27.eq_1 v99))
theorem k0_idx27_inb : ∀ (v99 : IVec S16 32) (k0_hw27 : k0_chk27 v99), ∀ a x, ((![v99] : Fin 1 → IVec S16 32) a x).toNat < S64.size a := fun v99 k0_hw27 => k0_hw27

def k0_chk28 (v103 : IVec S16 32) : Prop :=
  (∀ a x, ((![v103] : Fin 1 → IVec S16 32) a x).toNat < S64.size a)
instance k0_chk28.dec : ∀ (v103 : IVec S16 32), Decidable (k0_chk28 v103) := fun v103 => decidable_of_iff' _ (Iff.of_eq (k0_chk28.eq_1 v103))
theorem k0_idx28_inb : ∀ (v103 : IVec S16 32) (k0_hw28 : k0_chk28 v103), ∀ a x, ((![v103] : Fin 1 → IVec S16 32) a x).toNat < S64.size a := fun v103 k0_hw28 => k0_hw28

def k0_chk29 (v107 : IVec S16 32) : Prop :=
  (∀ a x, ((![v107] : Fin 1 → IVec S16 32) a x).toNat < S64.size a)
instance k0_chk29.dec : ∀ (v107 : IVec S16 32), Decidable (k0_chk29 v107) := fun v107 => decidable_of_iff' _ (Iff.of_eq (k0_chk29.eq_1 v107))
theorem k0_idx29_inb : ∀ (v107 : IVec S16 32) (k0_hw29 : k0_chk29 v107), ∀ a x, ((![v107] : Fin 1 → IVec S16 32) a x).toNat < S64.size a := fun v107 k0_hw29 => k0_hw29

def k0_chk30 (v111 : IVec S16 32) : Prop :=
  (∀ a x, ((![v111] : Fin 1 → IVec S16 32) a x).toNat < S64.size a)
instance k0_chk30.dec : ∀ (v111 : IVec S16 32), Decidable (k0_chk30 v111) := fun v111 => decidable_of_iff' _ (Iff.of_eq (k0_chk30.eq_1 v111))
theorem k0_idx30_inb : ∀ (v111 : IVec S16 32) (k0_hw30 : k0_chk30 v111), ∀ a x, ((![v111] : Fin 1 → IVec S16 32) a x).toNat < S64.size a := fun v111 k0_hw30 => k0_hw30

def k0_chk31 (v115 : IVec S16 32) : Prop :=
  (∀ a x, ((![v115] : Fin 1 → IVec S16 32) a x).toNat < S64.size a)
instance k0_chk31.dec : ∀ (v115 : IVec S16 32), Decidable (k0_chk31 v115) := fun v115 => decidable_of_iff' _ (Iff.of_eq (k0_chk31.eq_1 v115))
theorem k0_idx31_inb : ∀ (v115 : IVec S16 32) (k0_hw31 : k0_chk31 v115), ∀ a x, ((![v115] : Fin 1 → IVec S16 32) a x).toNat < S64.size a := fun v115 k0_hw31 => k0_hw31

def k0_chk32 (v119 : IVec S16 32) : Prop :=
  (∀ a x, ((![v119] : Fin 1 → IVec S16 32) a x).toNat < S64.size a)
instance k0_chk32.dec : ∀ (v119 : IVec S16 32), Decidable (k0_chk32 v119) := fun v119 => decidable_of_iff' _ (Iff.of_eq (k0_chk32.eq_1 v119))
theorem k0_idx32_inb : ∀ (v119 : IVec S16 32) (k0_hw32 : k0_chk32 v119), ∀ a x, ((![v119] : Fin 1 → IVec S16 32) a x).toNat < S64.size a := fun v119 k0_hw32 => k0_hw32

def k0_chk33 (v123 : IVec S16 32) : Prop :=
  (∀ a x, ((![v123] : Fin 1 → IVec S16 32) a x).toNat < S64.size a)
instance k0_chk33.dec : ∀ (v123 : IVec S16 32), Decidable (k0_chk33 v123) := fun v123 => decidable_of_iff' _ (Iff.of_eq (k0_chk33.eq_1 v123))
theorem k0_idx33_inb : ∀ (v123 : IVec S16 32) (k0_hw33 : k0_chk33 v123), ∀ a x, ((![v123] : Fin 1 → IVec S16 32) a x).toNat < S64.size a := fun v123 k0_hw33 => k0_hw33

def k0_chk34 (v127 : IVec S16 32) : Prop :=
  (∀ a x, ((![v127] : Fin 1 → IVec S16 32) a x).toNat < S64.size a)
instance k0_chk34.dec : ∀ (v127 : IVec S16 32), Decidable (k0_chk34 v127) := fun v127 => decidable_of_iff' _ (Iff.of_eq (k0_chk34.eq_1 v127))
theorem k0_idx34_inb : ∀ (v127 : IVec S16 32) (k0_hw34 : k0_chk34 v127), ∀ a x, ((![v127] : Fin 1 → IVec S16 32) a x).toNat < S64.size a := fun v127 k0_hw34 => k0_hw34
def k0_off17 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v129 : Index := Scalar.indexCast v53
  let c0_68 : Index := 0#32
  ![v129.toNat, 0]
def k0_off18 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v131 : Index := Scalar.indexCast v53
  let c16 : Index := 16#32
  ![v131.toNat, 16]
def k0_off19 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v133 : Index := Scalar.indexCast v53
  let c32 : Index := 32#32
  ![v133.toNat, 32]
def k0_off20 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v135 : Index := Scalar.indexCast v53
  let c48 : Index := 48#32
  ![v135.toNat, 48]
def k0_off21 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v137 : Index := Scalar.indexCast v53
  let c64 : Index := 64#32
  ![v137.toNat, 64]
def k0_off22 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v139 : Index := Scalar.indexCast v53
  let c80 : Index := 80#32
  ![v139.toNat, 80]
def k0_off23 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v141 : Index := Scalar.indexCast v53
  let c96 : Index := 96#32
  ![v141.toNat, 96]
def k0_off24 (k0_t6 : Fin k0_t6_loop.trips) : Fin 2 → Nat :=
  let c0_i32_54 : BitVec 32 := 0#32
  let c0_i32_43 : BitVec 32 := 0#32
  let c1_i32_45 : BitVec 32 := 1#32
  let arg21 : BitVec 32 := Scf.iv c0_i32_43 c1_i32_45 k0_t6
  let c1_i32_53 : BitVec 32 := 1#32
  let v52 : BitVec 32 := Scalar.muli arg21 c1_i32_53
  let v53 : BitVec 32 := Scalar.addi c0_i32_54 v52
  let v143 : Index := Scalar.indexCast v53
  let c112 : Index := 112#32
  ![v143.toNat, 112]
def k0_cond4 (k0_t3 : Fin k0_t3_loop.trips) : BitVec 1 :=
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c1_i32_47 : BitVec 32 := 1#32
  let v45 : BitVec 32 := Scalar.addi v17 c1_i32_47
  let c2_i32_48 : BitVec 32 := 2#32
  let v46 : BitVec 32 := Scalar.addi v45 c2_i32_48
  let c50_i32_49 : BitVec 32 := 50#32
  let v47 : BitVec 1 := Scalar.cmpi .slt v46 c50_i32_49
  let v48 : BitVec 32 := Scalar.extui v47
  let c0_i32_50 : BitVec 32 := 0#32
  let v49 : BitVec 1 := Scalar.cmpi .ne v48 c0_i32_50
  v49

def k0_off25 (i : grid0.Coords) (k0_t3 : Fin k0_t3_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_18 : BitVec 32 := 0#32
  let c0_i32_10 : BitVec 32 := 0#32
  let c1_i32_11 : BitVec 32 := 1#32
  let arg20 : BitVec 32 := Scf.iv c0_i32_10 c1_i32_11 k0_t3
  let c2_i32_17 : BitVec 32 := 2#32
  let v16 : BitVec 32 := Scalar.muli arg20 c2_i32_17
  let v17 : BitVec 32 := Scalar.addi c0_i32_18 v16
  let c1_i32_35 : BitVec 32 := 1#32
  let v35 : BitVec 32 := Scalar.addi v17 c1_i32_35
  let c128_i32_36 : BitVec 32 := 128#32
  let v36 : BitVec 32 := Scalar.muli v35 c128_i32_36
  let v37 : BitVec 32 := Scalar.addi v2 v36
  let c256_i32 : BitVec 32 := 256#32
  let v52 : BitVec 32 := Scalar.addi v37 c256_i32
  ![v52.toNat]
@[reducible] def k0_t7_loop : Scf.Loop 32 :=
  let c0_i32_53 : BitVec 32 := 0#32
  let c8_i32_54 : BitVec 32 := 8#32
  let v53 : BitVec 32 := Scalar.addi c0_i32_53 c8_i32_54
  let c1_i32_55 : BitVec 32 := 1#32
  ⟨c0_i32_53, v53, c1_i32_55⟩
def k0_off26 (k0_t7 : Fin k0_t7_loop.trips) : Fin 1 → Nat :=
  let c0_i32_60 : BitVec 32 := 0#32
  let c0_i32_53 : BitVec 32 := 0#32
  let c1_i32_55 : BitVec 32 := 1#32
  let arg21 : BitVec 32 := Scf.iv c0_i32_53 c1_i32_55 k0_t7
  let c1_i32_59 : BitVec 32 := 1#32
  let v55 : BitVec 32 := Scalar.muli arg21 c1_i32_59
  let v56 : BitVec 32 := Scalar.addi c0_i32_60 v55
  let c16_i32 : BitVec 32 := 16#32
  let v57 : BitVec 32 := Scalar.muli v56 c16_i32
  let v58 : Index := Scalar.indexCast v57
  ![v58.toNat]
def k0_off27 (i : grid0.Coords) (c6144_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let v10 : BitVec 32 := Scalar.addi v2 c6144_i32
  let c0_i32_13 : BitVec 32 := 0#32
  ![v10.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S204800 : S4096x50.ShapeCasts S204800
  shapeCasts_S100000x32_S25000x128 : S100000x32.ShapeCasts S25000x128
  shapeCasts_S16x4_S64 : S16x4.ShapeCasts S64
  h_S16 : 0 < S16.numel
  inb_S25000x128_S25000x128_0_0 : ∀ a, (![0, 0] : Fin 2 → Nat) a + S25000x128.size a ≤ S25000x128.size a
  gathers_S25000x128_S128x128 : S25000x128.Gathers 0 S128x128
  inb_S16_S16_0 : ∀ a, (![0] : Fin 1 → Nat) a + S16.size a ≤ S16.size a
  iota_S16_d0_w32_scVector : S16.Iotas .scVector 32 [0]
  h_S128 : 0 < S128.numel
  h_S128x128 : 0 < S128x128.numel
  h_S64 : 0 < S64.numel
  h_S1x16 : 0 < S1x16.numel
  shapeCasts_S1x16_S16 : S1x16.ShapeCasts S16
  shapeCasts_S16_S1x16 : S16.ShapeCasts S1x16
  shapeCasts_S204800x128_S4096x50x128 : S204800x128.ShapeCasts S4096x50x128
  hcc0_scratch10 : 0 + S_.numel ≤ 9
  hcc0_scratch11 : 1 + S_.numel ≤ 9
  hcc0_scratch12 : 2 + S_.numel ≤ 9
  hcc0_scratch13 : 3 + S_.numel ≤ 9
  hcc0_scoped0 : 4 + S_.numel ≤ 9
  hcc0_scoped1 : 5 + S_.numel ≤ 9
  hcc0_scoped2 : 6 + S_.numel ≤ 9
  hcc0_scoped3 : 7 + S_.numel ≤ 9
  hcc0_scoped4 : 8 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (128 * r.val))) a + S128.size a ≤ S204800.size a
  k0_t1_ok : k0_t1_loop.OK
  k0_off2_inb : ∀ k0_t1 : Fin k0_t1_loop.trips, ∀ a, (k0_off2 k0_t1) a + S16.size a ≤ S128.size a
  k0_t2_ok : k0_t2_loop.OK
  k0_off3_inb : ∀ k0_t2 : Fin k0_t2_loop.trips, ∀ a, (k0_off3 k0_t2) a + S16.size a ≤ S128.size a
  k0_t3_ok : k0_t3_loop.OK
  k0_off4_inb : ∀ (i : grid0.Coords) (k0_t3 : Fin k0_t3_loop.trips), ∀ (k0_h1 : k0_cond1 k0_t3 = 1#1), ∀ a, (k0_off4 i k0_t3) a + S128x128.size a ≤ S204800x128.size a
  k0_t4_ok : k0_t4_loop.OK
  k0_off5_inb : ∀ k0_t4 : Fin k0_t4_loop.trips, ∀ a, (k0_off5 k0_t4) a + S1x16.size a ≤ S128x128.size a
  k0_off6_inb : ∀ k0_t4 : Fin k0_t4_loop.trips, ∀ a, (k0_off6 k0_t4) a + S1x16.size a ≤ S128x128.size a
  k0_off7_inb : ∀ k0_t4 : Fin k0_t4_loop.trips, ∀ a, (k0_off7 k0_t4) a + S1x16.size a ≤ S128x128.size a
  k0_off8_inb : ∀ k0_t4 : Fin k0_t4_loop.trips, ∀ a, (k0_off8 k0_t4) a + S1x16.size a ≤ S128x128.size a
  k0_off9_inb : ∀ k0_t4 : Fin k0_t4_loop.trips, ∀ a, (k0_off9 k0_t4) a + S1x16.size a ≤ S128x128.size a
  k0_off10_inb : ∀ k0_t4 : Fin k0_t4_loop.trips, ∀ a, (k0_off10 k0_t4) a + S1x16.size a ≤ S128x128.size a
  k0_off11_inb : ∀ k0_t4 : Fin k0_t4_loop.trips, ∀ a, (k0_off11 k0_t4) a + S1x16.size a ≤ S128x128.size a
  k0_off12_inb : ∀ k0_t4 : Fin k0_t4_loop.trips, ∀ a, (k0_off12 k0_t4) a + S1x16.size a ≤ S128x128.size a
  k0_off13_inb : ∀ (i : grid0.Coords) (k0_t3 : Fin k0_t3_loop.trips), ∀ (k0_h2 : k0_cond2 k0_t3 = 1#1), ∀ a, (k0_off13 i k0_t3) a + S128.size a ≤ S204800.size a
  k0_t5_ok : ∀ k0_t3 : Fin k0_t3_loop.trips, ∀ (k0_h2 : k0_cond2 k0_t3 = 1#1), k0_t5_loop.OK
  k0_off14_inb : ∀ (k0_t3 : Fin k0_t3_loop.trips) (k0_t5 : Fin k0_t5_loop.trips), ∀ (k0_h2 : k0_cond2 k0_t3 = 1#1), ∀ a, (k0_off14 k0_t5) a + S16.size a ≤ S128.size a
  k0_off15_inb : ∀ (i : grid0.Coords) (k0_t3 : Fin k0_t3_loop.trips), ∀ (r : Fin 2), ∀ a, (k0_off15 i k0_t3 (BitVec.ofNat 32 r.val)) a + S128x128.size a ≤ S204800x128.size a
  k0_off16_inb : ∀ (i : grid0.Coords) (k0_t3 : Fin k0_t3_loop.trips), ∀ (k0_h3 : k0_cond3 k0_t3 = 1#1), ∀ a, (k0_off16 i k0_t3) a + S128x128.size a ≤ S204800x128.size a
  k0_t6_ok : k0_t6_loop.OK
  k0_off17_inb : ∀ k0_t6 : Fin k0_t6_loop.trips, ∀ a, (k0_off17 k0_t6) a + S1x16.size a ≤ S128x128.size a
  k0_off18_inb : ∀ k0_t6 : Fin k0_t6_loop.trips, ∀ a, (k0_off18 k0_t6) a + S1x16.size a ≤ S128x128.size a
  k0_off19_inb : ∀ k0_t6 : Fin k0_t6_loop.trips, ∀ a, (k0_off19 k0_t6) a + S1x16.size a ≤ S128x128.size a
  k0_off20_inb : ∀ k0_t6 : Fin k0_t6_loop.trips, ∀ a, (k0_off20 k0_t6) a + S1x16.size a ≤ S128x128.size a
  k0_off21_inb : ∀ k0_t6 : Fin k0_t6_loop.trips, ∀ a, (k0_off21 k0_t6) a + S1x16.size a ≤ S128x128.size a
  k0_off22_inb : ∀ k0_t6 : Fin k0_t6_loop.trips, ∀ a, (k0_off22 k0_t6) a + S1x16.size a ≤ S128x128.size a
  k0_off23_inb : ∀ k0_t6 : Fin k0_t6_loop.trips, ∀ a, (k0_off23 k0_t6) a + S1x16.size a ≤ S128x128.size a
  k0_off24_inb : ∀ k0_t6 : Fin k0_t6_loop.trips, ∀ a, (k0_off24 k0_t6) a + S1x16.size a ≤ S128x128.size a
  k0_off25_inb : ∀ (i : grid0.Coords) (k0_t3 : Fin k0_t3_loop.trips), ∀ (k0_h4 : k0_cond4 k0_t3 = 1#1), ∀ a, (k0_off25 i k0_t3) a + S128.size a ≤ S204800.size a
  k0_t7_ok : ∀ k0_t3 : Fin k0_t3_loop.trips, ∀ (k0_h4 : k0_cond4 k0_t3 = 1#1), k0_t7_loop.OK
  k0_off26_inb : ∀ (k0_t3 : Fin k0_t3_loop.trips) (k0_t7 : Fin k0_t7_loop.trips), ∀ (k0_h4 : k0_cond4 k0_t3 = 1#1), ∀ a, (k0_off26 k0_t7) a + S16.size a ≤ S128.size a
  k0_off27_inb : ∀ i : grid0.Coords, ∀ (r : Fin 2), ∀ a, (k0_off27 i (BitVec.ofNat 32 (6144 + 128 * r.val))) a + S128x128.size a ≤ S204800x128.size a

variable [Facts₀]

abbrev cc0_scratch10 : DmaSems sig S_ := SemArray.consecutive 0 S_ hcc0_scratch10
abbrev cc0_scratch11 : DmaSems sig S_ := SemArray.consecutive 1 S_ hcc0_scratch11
abbrev cc0_scratch12 : DmaSems sig S_ := SemArray.consecutive 2 S_ hcc0_scratch12
abbrev cc0_scratch13 : DmaSems sig S_ := SemArray.consecutive 3 S_ hcc0_scratch13
abbrev cc0_scoped0 : DmaSems sig S_ := SemArray.consecutive 4 S_ hcc0_scoped0
abbrev cc0_scoped1 : DmaSems sig S_ := SemArray.consecutive 5 S_ hcc0_scoped1
abbrev cc0_scoped2 : DmaSems sig S_ := SemArray.consecutive 6 S_ hcc0_scoped2
abbrev cc0_scoped3 : DmaSems sig S_ := SemArray.consecutive 7 S_ hcc0_scoped3
abbrev cc0_scoped4 : DmaSems sig S_ := SemArray.consecutive 8 S_ hcc0_scoped4

class Facts : Prop extends Facts₀ where

variable [Facts]
-- ==== ReferenceIdeal.lean ====
abbrev S4096x50 : Shape := ⟨2, ![4096, 50]⟩
abbrev S100000x32 : Shape := ⟨2, ![100000, 32]⟩
abbrev S16x4 : Shape := ⟨2, ![16, 4]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x32 : Shape := ⟨3, ![4096, 50, 32]⟩
abbrev S4096x50x32x1 : Shape := ⟨4, ![4096, 50, 32, 1]⟩
abbrev S1x1x1x1 : Shape := ⟨4, ![1, 1, 1, 1]⟩
abbrev S4096x50x32x4 : Shape := ⟨4, ![4096, 50, 32, 4]⟩
abbrev S4096x50x128 : Shape := ⟨3, ![4096, 50, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x32, .i32⟩
  | .hbm, ⟨2, _⟩ => ⟨S16x4, .f32⟩
  | .hbm, ⟨3, _⟩ => ⟨S_, .i32⟩
  | .hbm, ⟨4, _⟩ => ⟨S4096x50, .i32⟩
  | .hbm, ⟨5, _⟩ => ⟨S4096x50, .i1⟩
  | .hbm, ⟨6, _⟩ => ⟨S_, .i32⟩
  | .hbm, ⟨7, _⟩ => ⟨S4096x50, .i32⟩
  | .hbm, ⟨8, _⟩ => ⟨S4096x50, .i32⟩
  | .hbm, ⟨9, _⟩ => ⟨S4096x50, .i32⟩
  | .hbm, ⟨10, _⟩ => ⟨S4096x50x1, .i32⟩
  | .hbm, ⟨11, _⟩ => ⟨S1, .i32⟩
  | .hbm, ⟨12, _⟩ => ⟨S_, .i32⟩
  | .hbm, ⟨13, _⟩ => ⟨S4096x50x1, .i32⟩
  | .hbm, ⟨14, _⟩ => ⟨S4096x50x1, .i1⟩
  | .hbm, ⟨15, _⟩ => ⟨S1x1x1, .i32⟩
  | .hbm, ⟨16, _⟩ => ⟨S4096x50x1, .i32⟩
  | .hbm, ⟨17, _⟩ => ⟨S4096x50x1, .i1⟩
  | .hbm, ⟨18, _⟩ => ⟨S4096x50x1, .i1⟩
  | .hbm, ⟨19, _⟩ => ⟨S_, .i1⟩
  | .hbm, ⟨20, _⟩ => ⟨S4096x50, .i1⟩
  | .hbm, ⟨21, _⟩ => ⟨S4096x50x32, .i32⟩
  | .hbm, ⟨22, _⟩ => ⟨S4096x50x32, .i1⟩
  | .hbm, ⟨23, _⟩ => ⟨S_, .i32⟩
  | .hbm, ⟨24, _⟩ => ⟨S4096x50x32, .i32⟩
  | .hbm, ⟨25, _⟩ => ⟨S4096x50x32, .i32⟩
  | .hbm, ⟨26, _⟩ => ⟨S_, .i32⟩
  | .hbm, ⟨27, _⟩ => ⟨S4096x50x32, .i32⟩
  | .hbm, ⟨28, _⟩ => ⟨S4096x50x32, .i1⟩
  | .hbm, ⟨29, _⟩ => ⟨S_, .i32⟩
  | .hbm, ⟨30, _⟩ => ⟨S4096x50x32, .i32⟩
  | .hbm, ⟨31, _⟩ => ⟨S4096x50x32, .i32⟩
  | .hbm, ⟨32, _⟩ => ⟨S4096x50x32, .i32⟩
  | .hbm, ⟨33, _⟩ => ⟨S4096x50x32x1, .i32⟩
  | .hbm, ⟨34, _⟩ => ⟨S1, .i32⟩
  | .hbm, ⟨35, _⟩ => ⟨S_, .i32⟩
  | .hbm, ⟨36, _⟩ => ⟨S4096x50x32x1, .i32⟩
  | .hbm, ⟨37, _⟩ => ⟨S4096x50x32x1, .i1⟩
  | .hbm, ⟨38, _⟩ => ⟨S1x1x1x1, .i32⟩
  | .hbm, ⟨39, _⟩ => ⟨S4096x50x32x1, .i32⟩
  | .hbm, ⟨40, _⟩ => ⟨S4096x50x32x1, .i1⟩
  | .hbm, ⟨41, _⟩ => ⟨S4096x50x32x1, .i1⟩
  | .hbm, ⟨42, _⟩ => ⟨S_, .i1⟩
  | .hbm, ⟨43, _⟩ => ⟨S4096x50x32, .i1⟩
  | .hbm, ⟨44, _⟩ => ⟨S4096x50x32x4, .f32⟩
  | .hbm, ⟨45, _⟩ => ⟨S4096x50x32x4, .i1⟩
  | .hbm, ⟨46, _⟩ => ⟨S_, .f32⟩
  | .hbm, ⟨47, _⟩ => ⟨S4096x50x32x4, .f32⟩
  | .hbm, ⟨48, _⟩ => ⟨S4096x50x32x4, .f32⟩
  | .hbm, ⟨49, _⟩ => ⟨S4096x50x128, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_4 : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x32_0_1 : S4096x50.BroadcastsInDim S4096x50x32 (![0, 1] : Fin 2 → Fin S4096x50x32.rank)
  bcast_S_S4096x50x32 : S_.BroadcastsInDim S4096x50x32 (![] : Fin 0 → Fin S4096x50x32.rank)
  bcast_S4096x50x32_S4096x50x32x1_0_1_2 : S4096x50x32.BroadcastsInDim S4096x50x32x1 (![0, 1, 2] : Fin 3 → Fin S4096x50x32x1.rank)
  bcast_S_S4096x50x32x1 : S_.BroadcastsInDim S4096x50x32x1 (![] : Fin 0 → Fin S4096x50x32x1.rank)
  bcast_S1_S1x1x1x1_3 : S1.BroadcastsInDim S1x1x1x1 (![3] : Fin 1 → Fin S1x1x1x1.rank)
  bcast_S1x1x1x1_S4096x50x32x1_0_1_2_3 : S1x1x1x1.BroadcastsInDim S4096x50x32x1 (![0, 1, 2, 3] : Fin 4 → Fin S4096x50x32x1.rank)
  reducesTo_S4096x50x32x1_S4096x50x32_d3 : S4096x50x32x1.ReducesTo [3] S4096x50x32
  bcast_S4096x50x32_S4096x50x32x4_0_1_2 : S4096x50x32.BroadcastsInDim S4096x50x32x4 (![0, 1, 2] : Fin 3 → Fin S4096x50x32x4.rank)
  bcast_S_S4096x50x32x4 : S_.BroadcastsInDim S4096x50x32x4 (![] : Fin 0 → Fin S4096x50x32x4.rank)
  shapeCasts_S4096x50x32x4_S4096x50x128 : S4096x50x32x4.ShapeCasts S4096x50x128
  gather_S100000x32_S4096x50x1_S4096x50x32_2_0_n_n_0_2_132_wf : GatherDims.WF S100000x32 S4096x50x1 S4096x50x32 [2] [0] [] [0] [] 2 ![1, 32]
  gather_S16x4_S4096x50x32x1_S4096x50x32x4_3_0_n_n_0_3_14_wf : GatherDims.WF S16x4 S4096x50x32x1 S4096x50x32x4 [3] [0] [] [0] [] 3 ![1, 4]

variable [Facts₀]

def gather_S100000x32_S4096x50x1_S4096x50x32_2_0_n_n_0_2_132 : GatherDims S100000x32 S4096x50x1 S4096x50x32 where
  offsetDims := [2]
  collapsedSliceDims := [0]
  operandBatchingDims := []
  startIndicesBatchingDims := []
  startIndexMap := [0]
  indexVectorDim := 2
  sliceSizes := ![1, 32]
  wf := gather_S100000x32_S4096x50x1_S4096x50x32_2_0_n_n_0_2_132_wf
def gather_S16x4_S4096x50x32x1_S4096x50x32x4_3_0_n_n_0_3_14 : GatherDims S16x4 S4096x50x32x1 S4096x50x32x4 where
  offsetDims := [3]
  collapsedSliceDims := [0]
  operandBatchingDims := []
  startIndicesBatchingDims := []
  startIndexMap := [0]
  indexVectorDim := 3
  sliceSizes := ![1, 4]
  wf := gather_S16x4_S4096x50x32x1_S4096x50x32x4_3_0_n_n_0_3_14_wf

class Facts : Prop extends Facts₀ where

variable [Facts]
-- ==== Proof.Spec.lean ====
/-
  The function both programs compute.

  An embedding table is stored compressed: row `v` of `codes` holds, for each of the 32 blocks of an
  embedding vector, the number of a centroid, and `book` holds 16 centroids of 4 floats each. The
  decoded vector of row `v` has 128 entries; entry `e` lies in block `e / 4` at place `e % 4`, so
  it is `book[codes[v, e / 4], e % 4]`. A query array `inp` of row numbers is decoded entry by entry:
  `out[a, b, e] = book[codes[inp[a, b], e / 4], e % 4]`.

  Both row numbers are read as signed words and clamped into the table they index (which is what a
  gather does with a start index); on words that already name a row the clamp is the word's value.
-/
import Idealize.ShloMosaic.Lib.ValueIdx

noncomputable section

namespace Cert.Decode

open Idealize.ShloMosaic Idealize.ShloMosaic.ValueIdx

abbrev SIn : Shape := ⟨2, ![4096, 50]⟩
abbrev SCodes : Shape := ⟨2, ![100000, 32]⟩
abbrev SBook : Shape := ⟨2, ![16, 4]⟩
abbrev SOut : Shape := ⟨3, ![4096, 50, 128]⟩

/-- A word read signed and clamped into `[0, N - 1]`: the row of an `N`-row table it names. -/
def clampRow (N : Nat) (hN : 0 < N) (v : BitVec 32) : Fin N := ⟨min v.toInt.toNat (N - 1), by omega⟩

/-- On a word whose unsigned value is already below `N` (and below `2^31`) the clamp is that value. -/
theorem clampRow_val_of_lt {N : Nat} (hN : 0 < N) (hN' : N ≤ 2 ^ 31) {v : BitVec 32} (h : v.toNat < N) :
    (clampRow N hN v).val = v.toNat := by
  unfold clampRow
  have hv : v.toInt = (v.toNat : Int) := by
    rw [BitVec.toInt_eq_toNat_cond]; split
    · rfl
    · omega
  show min v.toInt.toNat (N - 1) = v.toNat
  rw [hv, Int.toNat_natCast]; omega

/-- Block `e / 4` of a decoded vector's entry `e`. -/
def blockOf (e : Fin 128) : Fin 32 := ⟨e.val / 4, by omega⟩
/-- Place `e % 4` inside its block of a decoded vector's entry `e`. -/
def placeOf (e : Fin 128) : Fin 4 := ⟨e.val % 4, by omega⟩

/-- Entry `e` of the decoded vector of query `(a, b)`. -/
def decodeAt {α : Type} (inp : IVec SIn 32) (codes : IVec SCodes 32) (book : SBook.Idx → α)
    (a : Fin 4096) (b : Fin 50) (e : Fin 128) : α :=
  book (ix2 (clampRow 16 (by decide) (codes (ix2 (clampRow 100000 (by decide) (inp (ix2 a b))) (blockOf e)))) (placeOf e))

/-- The decoded array, index by index. -/
def decode {α : Type} (inp : IVec SIn 32) (codes : IVec SCodes 32) (book : SBook.Idx → α) : SOut.Idx → α :=
  fun i => decodeAt inp codes book (i 0) (i 1) (i 2)

theorem decode_ix3 {α : Type} (inp : IVec SIn 32) (codes : IVec SCodes 32) (book : SBook.Idx → α)
    (a : Fin 4096) (b : Fin 50) (e : Fin 128) : decode inp codes book (ix3 a b e) = decodeAt inp codes book a b e := rfl

/-- What the proof asks of the integer inputs: every query names a row of the code table and every
    code names a centroid. -/
structure InRange (inp : IVec SIn 32) (codes : IVec SCodes 32) : Prop where
  inp_le : ∀ j, (inp j).toNat ≤ 99999
  codes_le : ∀ j, (codes j).toNat ≤ 15

end Cert.Decode

end
-- ==== Proof.Flat.lean ====
/-
  The kernel's view of the same function: over the inputs flattened.

  The kernel sees the queries as one list of 204800 words, the code table with four rows packed into
  one (row `v` of the 100000 × 32 table is columns `32 (v % 4) ‥ 32 (v % 4) + 32` of row `v / 4` of a
  25000 × 128 table), and the centroids as one list of 64 floats (centroid `c`, place `p` at `4 c + p`).
  Entry `e` of the decoded row of query word `w` is then
  `book1[4 * codes2[w / 4, 32 (w % 4) + e / 4] + e % 4]`.
-/
import Idealize.ShloMosaic.Lib.ValueIdx
import proofs.«215948_g88356067214102_cont_sun_c4_674_26_alg».proof.Proof.Spec

noncomputable section

namespace Cert.Decode

open Idealize.ShloMosaic Idealize.ShloMosaic.ValueIdx

abbrev SQ : Shape := ⟨1, ![204800]⟩
abbrev SC2 : Shape := ⟨2, ![25000, 128]⟩
abbrev SB1 : Shape := ⟨1, ![64]⟩
abbrev SFlat : Shape := ⟨2, ![204800, 128]⟩

/-- The packed table's row of query word `w` (clamped into the table). -/
def packRow (w : Nat) : Fin 25000 := ⟨min (w / 4) 24999, by omega⟩
/-- The packed table's column of block `e / 4` of query word `w`. -/
def packCol (w : Nat) (e : Fin 128) : Fin 128 := ⟨32 * (w % 4) + e.val / 4, by have := e.isLt; omega⟩
/-- The flat centroid list's position of place `e % 4` of centroid `c` (clamped into the list). -/
def bookPos (c : Nat) (e : Fin 128) : Fin 64 := ⟨min (4 * c + e.val % 4) 63, by omega⟩

/-- Entry `e` of the decoded row of flat query `R`. -/
def flatAt {α : Type} (xq : IVec SQ 32) (xc : IVec SC2 32) (xb : SB1.Idx → α) (R : Fin 204800) (e : Fin 128) : α :=
  xb (ix1 (bookPos (xc (ix2 (packRow (xq (ix1 R)).toNat) (packCol (xq (ix1 R)).toNat e))).toNat e))

/-- The flat decoded array, index by index. -/
def flat {α : Type} (xq : IVec SQ 32) (xc : IVec SC2 32) (xb : SB1.Idx → α) : SFlat.Idx → α :=
  fun i => flatAt xq xc xb (i 0) (i 1)

theorem flat_ix2 {α : Type} (xq : IVec SQ 32) (xc : IVec SC2 32) (xb : SB1.Idx → α) (R : Fin 204800) (e : Fin 128) :
    flat xq xc xb (ix2 R e) = flatAt xq xc xb R e := rfl

end Cert.Decode

end
-- ==== Proof.KISetup.lean ====
/-
  What the tile proofs and the launch share: the program as the launch theorem sees it, the ghost state, the arrays'
  locations, the contents of the three flattened inputs, the result's flat contents, the tiles' shares of the inputs
  and their blocks of the result, and what the handshakes carry.

  The kernel decodes 204800 queries on 32 tiles. Tile `(c, s)` (SparseCore `c`, vector subcore `s`) has number
  `2 s + c` and decodes the 6400 queries `[6400 (2 s + c), 6400 (2 s + c) + 6400)`, in 50 chunks of 128. It only reads
  the three inputs, each held whole at a thirty-second share, and owns its 50 blocks of 128 rows of the result.
-/
import proofs.«215948_g88356067214102_cont_sun_c4_674_26_alg».proof.KernelIdeal
import proofs.«215948_g88356067214102_cont_sun_c4_674_26_alg».proof.Proof.Gen.KernelIdeal
import proofs.«215948_g88356067214102_cont_sun_c4_674_26_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215948_g88356067214102_cont_sun_c4_674_26_alg».proof.Proof.Flat

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev qLoc (d : Dev nD) : Loc nD τ sig := (SparseCore.T d).loc main_v0
abbrev cLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-! ## Contents: the flattened inputs, the flat result, the result -/

/-- The three inputs as the host reshapes leave them before the call: the queries as one list, the code table with
    four rows packed into one, the centroids as one list. -/
def Xq (d : Dev nD) : Buf (Elt F) (qLoc d) := fun i => shapeCast S204800 (m (a0Loc d)) shapeCasts_S4096x50_S204800 i
def Xc (d : Dev nD) : Buf (Elt F) (cLoc d) := fun i => shapeCast S25000x128 (m (a1Loc d)) shapeCasts_S100000x32_S25000x128 i
def Xb (d : Dev nD) : Buf (Elt F) (bLoc d) := fun i => shapeCast S64 (m (a2Loc d)) shapeCasts_S16x4_S64 i

/-- What the call leaves in the flat result: every query's decoded row. -/
def Go (d : Dev nD) : Buf (Elt F) (oLoc d) := Cert.Decode.flat (Xq m d) (Xc m d) (Xb m d)

/-- What @main leaves in its result: the flat result at the result's shape. -/
def Res (d : Dev nD) : Buf (Elt F) (rLoc d) := fun i => shapeCast S4096x50x128 (Go m d) shapeCasts_S204800x128_S4096x50x128 i

/-- What the proofs ask of the launch memory: every query names a row of the code table, every code a centroid. -/
def PreOK : Prop := ∀ d : Dev nD, Cert.Decode.InRange (m (a0Loc d)) (m (a1Loc d))

/-! ## The result's blocks and the inputs' read shares -/

/-- The flat result in 1600 blocks of 128 rows. Tile `(c, i)` writes blocks `100 i + 50 c + j`, `j < 50`. -/
theorem odiv : 1600 ∣ S204800x128.size 0 := ⟨128, rfl⟩
abbrev blk (b : Fin 1600) : Rect S204800x128 := Rect.part (s := S204800x128) (a₀ := 0) odiv b
abbrev blkSet (b : Fin 1600) : Finset S204800x128.Idx :=
  ((Memref.whole main_v3_scv : Memref sig .scVector .hbm S204800x128 .f32).view.slice (blk b)).set
def blkOf (c : Fin 2) (i : Fin 16) (j : Fin 50) : Fin 1600 := ⟨100 * i.val + 50 * c.val + j.val, by omega⟩

/-- The tiles numbered `16 c + i` for their read shares of the inputs: the full share is split into 32 read tokens and
    a remainder. -/
def tnum (c : Fin 2) (i : Fin 16) : Fin 32 := ⟨16 * c.val + i.val, by omega⟩
abbrev tok (c : Fin 2) (i : Fin 16) : PosShare TreeShare := Transfers.shareTok fullShare 32 (tnum c i)

/-! ## What the handshakes carry -/

/-- Tile `(c, i)`'s read shares of the three inputs, whole. -/
abbrev inPts (d : Dev nD) (c : Fin 2) (i : Fin 16) : sProp 𝕄 :=
  iprop((qLoc d ↦{tok c i} Xq m d) ∗ (cLoc d ↦{tok c i} Xc m d) ∗ (bLoc d ↦{tok c i} Xb m d))
/-- Tile `(c, i)`'s fifty blocks of the flat result, at contents `f`. -/
abbrev outPts (d : Dev nD) (c : Fin 2) (i : Fin 16) (f : Buf (Elt F) (oLoc d)) : sProp 𝕄 :=
  bigSep Finset.univ fun j : Fin 50 => oLoc d ↦[blkSet (blkOf c i j)]{fullShare} f

/-- What a tile is handed and what it hands back: its read shares; its blocks, first at what the launch memory holds,
    then at the decoded rows. -/
abbrev goRes (d : Dev nD) (c : Fin 2) (i : Fin 16) : sProp 𝕄 := iprop(inPts m d c i ∗ outPts d c i (m (oLoc d)))
abbrev tdRes (d : Dev nD) (c : Fin 2) (i : Fin 16) : sProp 𝕄 := iprop(inPts m d c i ∗ outPts d c i (Go m d))

/-- The one call: each SparseCore takes its sixteen tiles' shares and blocks and brings them back decoded. -/
def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdRes m d (Fin.cast nCore_zero c) i
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KI

end
-- ==== Proof.KILaunchSplit.lean ====
/-
  The launch of the one SparseCore call, all but @main's own run: how a SparseCore's shares and blocks go to its
  sixteen tiles and come back, the launch element of the ghost state, how the final memory reads the claim, and the
  launch theorem applied, with @main's run on the TensorCore as a hypothesis.
-/
import proofs.«215948_g88356067214102_cont_sun_c4_674_26_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the call carries, as equations -/

theorem st0_eq (d : Dev nD) (c : Fin ((K (F := F)).nCore 0)) :
    (P m).st 0 d c = bigSep Finset.univ fun i : Fin 16 => goRes m d (Fin.cast nCore_zero c) i := rfl
theorem dn0_eq (d : Dev nD) (c : Fin ((K (F := F)).nCore 0)) :
    (P m).dn 0 d c = bigSep Finset.univ fun i : Fin 16 => tdRes m d (Fin.cast nCore_zero c) i := rfl
theorem go0_eq (d : Dev nD) (c : Fin ((K (F := F)).nCore 0)) (i : Fin ((K (F := F)).nSub 0)) :
    (P m).go 0 d c i = goRes m d (Fin.cast nCore_zero c) (Fin.cast nSub_zero i) := rfl
theorem td0_eq (d : Dev nD) (c : Fin ((K (F := F)).nCore 0)) (i : Fin ((K (F := F)).nSub 0)) :
    (P m).td 0 d c i = tdRes m d (Fin.cast nCore_zero c) (Fin.cast nSub_zero i) := rfl
theorem x_eq (q : Fin 1) (thr : Thread nD τ) : (P m).x q thr = iprop(emp) := rfl

/-! ## A SparseCore's operands are its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is already the sixteen tiles' shares and blocks side by side: they go out and come
    back as they are. -/
theorem vecSplit : (K (F := F)).VecSplit' (P m) 0 := by
  intro d c
  simp only [go0_eq, td0_eq]
  rw [st0_eq, dn0_eq, bigSep_tasks (F := F) (fun i => goRes m d (Fin.cast nCore_zero c) i),
    bigSep_tasks (F := F) (fun i => tdRes m d (Fin.cast nCore_zero c) i)]
  iintro H; imodintro
  isplitl [H]; · iexact H
  iintro H; iexact H

/-! ## The launch element: the handshakes' rounds; the counters are not used -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [x_eq]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- The result whole at the decoded rows reshaped, the three arguments whole at their launch contents. -/
abbrev FIN (d : Dev nD) : sProp 𝕄 :=
  iprop((rLoc d ↦{fullShare} Res m d) ∗ (a0Loc d ↦{fullShare} m (a0Loc d)) ∗ (a1Loc d ↦{fullShare} m (a1Loc d)) ∗ a2Loc d ↦{fullShare} m (a2Loc d))

def fq (d : Dev nD) (s' : Phys nD τ sig (Elt F)) : Prop :=
  s'.mem.mem (rLoc d) = Res m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hr, H0, H1, H2⟩, HSI⟩
  ihave H := (persistent_entails_right (SI_pointsTo_agree (st := s') (ℓ := rLoc d) (I := Finset.univ) (q := fullShare) (f := Res m d))) $$ [HSI Hr]
  · isplitl [HSI] <;> iassumption
  icases H with ⟨%hr, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := a2Loc d) (I := Finset.univ) (q := fullShare) (f := m (a2Loc d))) $$ [HSI H2]
  · isplitl [HSI] <;> iassumption
  icases H with %h2
  ipureintro
  exact ⟨funext fun i => hr i (Finset.mem_univ i), funext fun i => h0 i (Finset.mem_univ i), funext fun i => h1 i (Finset.mem_univ i),
    funext fun i => h2 i (Finset.mem_univ i)⟩

/-! ## The program's run, from @main's on the TensorCore and a tile's task -/

def QC : PUnit × MemSt nD τ sig (Elt F) → Prop := fun r => ∀ c : Dev nD,
    r.2.mem (rLoc c) = Res m c ∧ r.2.mem (a0Loc c) = m (a0Loc c) ∧ r.2.mem (a1Loc c) = m (a1Loc c) ∧ r.2.mem (a2Loc c) = m (a2Loc c)

variable [FloatOps F]

/-- What is asked of @main's run on device `d`'s TensorCore. -/
def MainRun : Prop := ∀ (κ : GSem nD τ sig → ℕ) (d : Dev nD),
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d)

theorem run_main_of [∀ e, Nonempty (Elt F e)] (hmain : MainRun m ρ) (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) hmain (fq m) (hfin m) (QC m) (fun _ h => h)

end Cert.Proof.KI

end
-- ==== Proof.KILaunchRegroup.lean ====
/-
  The two SparseCores' shares and blocks, regrouped: the thirty-two tiles' read tokens of an input are the input's
  thirty-two tokens, and the tiles' fifty blocks each of the flat result are its 1600 blocks, which are the result whole.
-/
import proofs.«215948_g88356067214102_cont_sun_c4_674_26_alg».proof.Proof.KILaunchSplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The thirty-two tiles and the 1600 blocks, renumbered -/

/-- Tile `(c, i)` has number `16 c + i`. -/
def tnumEquiv : Fin 2 × Fin 16 ≃ Fin 32 where
  toFun p := tnum p.1 p.2
  invFun t := (⟨t.val / 16, by have := t.isLt; omega⟩, ⟨t.val % 16, by omega⟩)
  left_inv := by
    rintro ⟨c, i⟩
    have hc := c.isLt; have hi := i.isLt
    refine Prod.ext (Fin.ext ?_) (Fin.ext ?_) <;> simp only [tnum] <;> omega
  right_inv := by
    intro t; have ht := t.isLt; apply Fin.ext; simp only [tnum]; omega

/-- Block `j` of tile `(c, i)` is block `100 i + 50 c + j` of the flat result. -/
def blkEquiv : Fin 2 × Fin 16 × Fin 50 ≃ Fin 1600 where
  toFun p := blkOf p.1 p.2.1 p.2.2
  invFun b := (⟨b.val % 100 / 50, by omega⟩, ⟨b.val / 100, by have := b.isLt; omega⟩, ⟨b.val % 50, by omega⟩)
  left_inv := by
    rintro ⟨c, i, j⟩
    have hc := c.isLt; have hi := i.isLt; have hj := j.isLt
    refine Prod.ext (Fin.ext ?_) (Prod.ext (Fin.ext ?_) (Fin.ext ?_)) <;> simp only [blkOf] <;> omega
  right_inv := by
    intro b; have hb := b.isLt; apply Fin.ext; simp only [blkOf]; omega

theorem bigSep_tiles (Ψ : Fin 32 → sProp 𝕄) :
    (bigSep Finset.univ fun c : Fin 2 => bigSep Finset.univ fun i : Fin 16 => Ψ (tnum c i)) = bigSep Finset.univ Ψ := by
  refine ((bigSep_univ_equiv tnumEquiv Ψ).trans ((bigSep_univ_prod _).trans ?_)).symm
  rfl

theorem bigSep_blocks (Ψ : Fin 1600 → sProp 𝕄) :
    (bigSep Finset.univ fun c : Fin 2 => bigSep Finset.univ fun i : Fin 16 => bigSep Finset.univ fun j : Fin 50 => Ψ (blkOf c i j))
      = bigSep Finset.univ Ψ := by
  refine ((bigSep_univ_equiv blkEquiv Ψ).trans ((bigSep_univ_prod _).trans ?_)).symm
  refine bigSep_congr fun c _ => ?_
  refine (bigSep_univ_prod _).trans ?_
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The flat result is its 1600 blocks -/

theorem blkSet_eq (b : Fin 1600) : blkSet b = (blk b).set := by
  show ((View.whole (main_v3_scv : Ref sig .scVector)).slice (blk b)).set = _
  rw [View.set_slice]; exact Finset.map_refl
theorem blks_disjoint : ∀ b ∈ (Finset.univ : Finset (Fin 1600)), ∀ b' ∈ (Finset.univ : Finset (Fin 1600)), b ≠ b' → Disjoint (blkSet b) (blkSet b') :=
  fun b _ b' _ h => by rw [blkSet_eq, blkSet_eq]; exact Rect.part_disjoint odiv h
theorem blks_cover : (Finset.univ : Finset (Fin 1600)).biUnion blkSet = Finset.univ :=
  (Finset.biUnion_congr rfl fun b _ => blkSet_eq b).trans (Rect.biUnion_part odiv)

theorem oPts_blocks (d : Dev nD) (f : Buf (Elt F) (oLoc d)) :
    (oLoc d ↦{fullShare} f : sProp 𝕄) = bigSep Finset.univ fun b : Fin 1600 => oLoc d ↦[blkSet b]{fullShare} f := by
  rw [← pointsTo_biUnion Finset.univ (ℓ := oLoc d) blkSet blks_disjoint, blks_cover]; try rfl

/-! ## What the two SparseCores take and bring back, regrouped -/

/-- An input's thirty-two read tokens. -/
abbrev toks {ℓ : Loc nD τ sig} (f : Buf (Elt F) ℓ) : sProp 𝕄 :=
  bigSep Finset.univ fun t : Fin 32 => ℓ ↦{Transfers.shareTok fullShare 32 t} f

/-- The thirty-two tiles' shares and blocks are the three inputs' tokens and the flat result whole. -/
theorem cores_eq (d : Dev nD) (f : Buf (Elt F) (oLoc d)) :
    (bigSep Finset.univ fun c : Fin 2 => bigSep Finset.univ fun i : Fin 16 => iprop(inPts m d c i ∗ outPts d c i f))
      = iprop((toks (Xq m d) ∗ toks (Xc m d) ∗ toks (Xb m d)) ∗ oLoc d ↦{fullShare} f) := by
  rw [oPts_blocks, ← bigSep_blocks (F := F) (fun b => oLoc d ↦[blkSet b]{fullShare} f)]
  unfold toks
  rw [← bigSep_tiles (F := F) (fun t => qLoc d ↦{Transfers.shareTok fullShare 32 t} Xq m d),
    ← bigSep_tiles (F := F) (fun t => cLoc d ↦{Transfers.shareTok fullShare 32 t} Xc m d),
    ← bigSep_tiles (F := F) (fun t => bLoc d ↦{Transfers.shareTok fullShare 32 t} Xb m d)]
  simp only [bigSep_sep']

theorem stAll_eq (d : Dev nD) :
    (bigSep Finset.univ fun c : Fin ((K (F := F)).nCore 0) => (P m).st 0 d c)
      = iprop((toks (Xq m d) ∗ toks (Xc m d) ∗ toks (Xb m d)) ∗ oLoc d ↦{fullShare} m (oLoc d)) := by
  simp only [st0_eq]
  rw [bigSep_cores (F := F) (fun c => bigSep Finset.univ fun i : Fin 16 => goRes m d c i)]
  exact cores_eq m d (m (oLoc d))
theorem dnAll_eq (d : Dev nD) :
    (bigSep Finset.univ fun c : Fin ((K (F := F)).nCore 0) => (P m).dn 0 d c)
      = iprop((toks (Xq m d) ∗ toks (Xc m d) ∗ toks (Xb m d)) ∗ oLoc d ↦{fullShare} Go m d) := by
  simp only [dn0_eq]
  rw [bigSep_cores (F := F) (fun c => bigSep Finset.univ fun i : Fin 16 => tdRes m d c i)]
  exact cores_eq m d (Go m d)

end Cert.Proof.KI

end
-- ==== Proof.KILaunch.lean ====
/-
  @main on a device's TensorCore: the three host reshapes that flatten the inputs, the one SparseCore call — each
  input's full share cut into thirty-two read tokens, the flat result into its 1600 blocks, both regrouped by tile —,
  and the host reshape of the flat result; then the program's run.
-/
import proofs.«215948_g88356067214102_cont_sun_c4_674_26_alg».proof.Proof.KILaunchRegroup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's arrays and host operations -/

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rQ : DevRef τ sig := Proc.devRef .tc (main_v0 : Ref sig .tc)
abbrev rC : DevRef τ sig := Proc.devRef .tc (main_v1 : Ref sig .tc)
abbrev rB : DevRef τ sig := Proc.devRef .tc (main_v2 : Ref sig .tc)
abbrev rO : DevRef τ sig := Proc.devRef .tc (main_v3 : Ref sig .tc)
abbrev rR : DevRef τ sig := Proc.devRef .tc (main_v4 : Ref sig .tc)

abbrev op0 : HloOp τ sig (Elt F) := StableHlo.reshape main_arg0 main_v0 rfl shapeCasts_S4096x50_S204800
abbrev op1 : HloOp τ sig (Elt F) := StableHlo.reshape main_arg1 main_v1 rfl shapeCasts_S100000x32_S25000x128
abbrev op2 : HloOp τ sig (Elt F) := StableHlo.reshape main_arg2 main_v2 rfl shapeCasts_S16x4_S64
abbrev op3 : HloOp τ sig (Elt F) := StableHlo.reshape main_v3 main_v4 rfl shapeCasts_S204800x128_S4096x50x128

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (qLoc d ↦{fullShare} W main_v0) ∗ (cLoc d ↦{fullShare} W main_v1) ∗ (bLoc d ↦{fullShare} W main_v2)
          ∗ (oLoc d ↦{fullShare} W main_v3) ∗ rLoc d ↦{fullShare} W main_v4) := by
  unfold unscopedBufs
  rw [show (Finset.univ.filter fun b : Ref sig .tc => ¬ b.isScoped)
      = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Two of the device's arrays held whole. -/
theorem held_pair (d : Dev nD) {x y : DevRef τ sig} (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (by simpa using h), bigSep_singleton]

/-- The launch valuation; and with the flat result at the decoded rows. -/
def V0 (d : Dev nD) : Valuation τ sig (Elt F) := fun b => m (d, b)
def V4 (d : Dev nD) : Valuation τ sig (Elt F) := Function.update (V0 m d) rO (Go m d)

theorem V4_o (d : Dev nD) : V4 m d rO = Go m d := Function.update_self _ _ _
theorem V4_r (d : Dev nD) : V4 m d rR = m (rLoc d) := Function.update_of_ne (show rR ≠ rO by decide) _ _

theorem res0_a (d : Dev nD) : (op0 (F := F)).result (V0 m d) rA0 = m (a0Loc d) :=
  StableHlo.reshape_result_ne _ _ _ _ _ _ (V0 m d) (show (main_arg0 : Ref sig .tc) ≠ main_v0 by decide)
theorem res0_q (d : Dev nD) : (op0 (F := F)).result (V0 m d) rQ = Xq m d :=
  StableHlo.reshape_result _ _ _ _ _ _ (V0 m d)
theorem res1_a (d : Dev nD) : (op1 (F := F)).result (V0 m d) rA1 = m (a1Loc d) :=
  StableHlo.reshape_result_ne _ _ _ _ _ _ (V0 m d) (show (main_arg1 : Ref sig .tc) ≠ main_v1 by decide)
theorem res1_c (d : Dev nD) : (op1 (F := F)).result (V0 m d) rC = Xc m d :=
  StableHlo.reshape_result _ _ _ _ _ _ (V0 m d)
theorem res2_a (d : Dev nD) : (op2 (F := F)).result (V0 m d) rA2 = m (a2Loc d) :=
  StableHlo.reshape_result_ne _ _ _ _ _ _ (V0 m d) (show (main_arg2 : Ref sig .tc) ≠ main_v2 by decide)
theorem res2_b (d : Dev nD) : (op2 (F := F)).result (V0 m d) rB = Xb m d :=
  StableHlo.reshape_result _ _ _ _ _ _ (V0 m d)
theorem res3_o (d : Dev nD) : (op3 (F := F)).result (V4 m d) rO = Go m d :=
  (StableHlo.reshape_result_ne _ _ _ _ _ _ (V4 m d) (show (main_v3 : Ref sig .tc) ≠ main_v4 by decide)).trans (V4_o m d)
theorem res3_r (d : Dev nD) : (op3 (F := F)).result (V4 m d) rR = Res m d := by
  refine (StableHlo.reshape_result _ _ _ _ _ _ (V4 m d)).trans ?_
  show (fun i => shapeCast S4096x50x128 (V4 m d rO) shapeCasts_S204800x128_S4096x50x128 i) = Res m d
  rw [V4_o]; rfl

theorem before0 (d : Dev nD) : (held (T d) {rA0, rQ} (V0 m d) : sProp 𝕄) = iprop((a0Loc d ↦{fullShare} m (a0Loc d)) ∗ qLoc d ↦{fullShare} m (qLoc d)) :=
  held_pair d (show rA0 ≠ rQ by decide) _
theorem after0 (d : Dev nD) : (held (T d) {rA0, rQ} ((op0 (F := F)).result (V0 m d)) : sProp 𝕄) = iprop((a0Loc d ↦{fullShare} m (a0Loc d)) ∗ qLoc d ↦{fullShare} Xq m d) := by
  rw [held_pair d (show rA0 ≠ rQ by decide), res0_a, res0_q]
theorem before1 (d : Dev nD) : (held (T d) {rA1, rC} (V0 m d) : sProp 𝕄) = iprop((a1Loc d ↦{fullShare} m (a1Loc d)) ∗ cLoc d ↦{fullShare} m (cLoc d)) :=
  held_pair d (show rA1 ≠ rC by decide) _
theorem after1 (d : Dev nD) : (held (T d) {rA1, rC} ((op1 (F := F)).result (V0 m d)) : sProp 𝕄) = iprop((a1Loc d ↦{fullShare} m (a1Loc d)) ∗ cLoc d ↦{fullShare} Xc m d) := by
  rw [held_pair d (show rA1 ≠ rC by decide), res1_a, res1_c]
theorem before2 (d : Dev nD) : (held (T d) {rA2, rB} (V0 m d) : sProp 𝕄) = iprop((a2Loc d ↦{fullShare} m (a2Loc d)) ∗ bLoc d ↦{fullShare} m (bLoc d)) :=
  held_pair d (show rA2 ≠ rB by decide) _
theorem after2 (d : Dev nD) : (held (T d) {rA2, rB} ((op2 (F := F)).result (V0 m d)) : sProp 𝕄) = iprop((a2Loc d ↦{fullShare} m (a2Loc d)) ∗ bLoc d ↦{fullShare} Xb m d) := by
  rw [held_pair d (show rA2 ≠ rB by decide), res2_a, res2_b]
theorem before3 (d : Dev nD) : (held (T d) {rO, rR} (V4 m d) : sProp 𝕄) = iprop((oLoc d ↦{fullShare} Go m d) ∗ rLoc d ↦{fullShare} m (rLoc d)) := by
  rw [held_pair d (show rO ≠ rR by decide), V4_o, V4_r]
theorem after3 (d : Dev nD) : (held (T d) {rO, rR} ((op3 (F := F)).result (V4 m d)) : sProp 𝕄) = iprop((oLoc d ↦{fullShare} Go m d) ∗ rLoc d ↦{fullShare} Res m d) := by
  rw [held_pair d (show rO ≠ rR by decide), res3_o, res3_r]

variable [FloatOps F]

/-- @main on device `d`'s TensorCore. -/
theorem hmain : MainRun m ρ := by
  intro κ d
  unfold SparseCore.Cfg.tcRes
  rw [unscopedBufs_eq]
  simp only [main, wp_bind, wp_pure]
  iintro ⟨#Hctx, Hst, ⟨Hb, ⟨H0, H1, H2, Hq, Hc, Hbb, Ho, Hr⟩, -, -⟩, -⟩
  -- the queries flattened
  iapply (wp_hlo_within 𝒱 (SparseCore.T d) none Set.univ (op := op0) (S := {rA0, rQ}) (Finset.Subset.refl _) (V := V0 m d)) $$ [Hb H0 Hq]
  · isplitl [Hb]; · iexact Hb
    rw [before0]
    isplitl [H0]; · iexact H0
    iexact Hq
  iintro ⟨Hb, Hh⟩
  ihave Hh' := (Entails.of_eq (after0 (F := F) m d)) $$ Hh
  icases Hh' with ⟨H0, Hq⟩
  rw [wp_ret]; imodintro
  -- the code table flattened
  iapply (wp_hlo_within 𝒱 (SparseCore.T d) none Set.univ (op := op1) (S := {rA1, rC}) (Finset.Subset.refl _) (V := V0 m d)) $$ [Hb H1 Hc]
  · isplitl [Hb]; · iexact Hb
    rw [before1]
    isplitl [H1]; · iexact H1
    iexact Hc
  iintro ⟨Hb, Hh⟩
  ihave Hh' := (Entails.of_eq (after1 (F := F) m d)) $$ Hh
  icases Hh' with ⟨H1, Hc⟩
  rw [wp_ret]; imodintro
  -- the centroids flattened
  iapply (wp_hlo_within 𝒱 (SparseCore.T d) none Set.univ (op := op2) (S := {rA2, rB}) (Finset.Subset.refl _) (V := V0 m d)) $$ [Hb H2 Hbb]
  · isplitl [Hb]; · iexact Hb
    rw [before2]
    isplitl [H2]; · iexact H2
    iexact Hbb
  iintro ⟨Hb, Hh⟩
  ihave Hh' := (Entails.of_eq (after2 (F := F) m d)) $$ Hh
  icases Hh' with ⟨H2, Hbb⟩
  rw [wp_ret]; imodintro
  -- the call: each input's thirty-two read tokens and the flat result to the two SparseCores, and back
  ihave Hq' := (Transfers.pointsTo_toks_split fullShare 32) $$ Hq
  icases Hq' with ⟨-, Hqt⟩
  ihave Hc' := (Transfers.pointsTo_toks_split fullShare 32) $$ Hc
  icases Hc' with ⟨-, Hct⟩
  ihave Hb' := (Transfers.pointsTo_toks_split fullShare 32) $$ Hbb
  icases Hb' with ⟨-, Hbt⟩
  iapply ((K (F := F)).wp_run (D (F := F)) 𝒱 (EH := EH) (P := P m) κ d 0) $$ [Hst Hqt Hct Hbt Ho Hb H0 H1 H2 Hr]
  isplitr; · iexact Hctx
  isplitl [Hst]; · iexact Hst
  isplitl [Hqt Hct Hbt Ho]
  · rw [stAll_eq]
    isplitl [Hqt Hct Hbt]
    · isplitl [Hqt]; · iexact Hqt
      isplitl [Hct]; · iexact Hct
      iexact Hbt
    iexact Ho
  iintro ⟨Hst, Hdn⟩
  ihave Hdn' := (Entails.of_eq (dnAll_eq m d)) $$ Hdn
  icases Hdn' with ⟨-, Ho⟩
  -- the flat result reshaped
  iapply (wp_hlo_within 𝒱 (SparseCore.T d) none Set.univ (op := op3) (S := {rO, rR}) (Finset.Subset.refl _) (V := V4 m d)) $$ [Hb Ho Hr]
  · isplitl [Hb]; · iexact Hb
    rw [before3]
    isplitl [Ho]; · iexact Ho
    iexact Hr
  iintro ⟨Hb, Hh⟩
  ihave Hh' := (Entails.of_eq (after3 (F := F) m d)) $$ Hh
  icases Hh' with ⟨-, Hr⟩
  rw [wp_ret]; imodintro; imodintro
  isplitl [Hst]; · iexact Hst
  isplitl [Hr]; · iexact Hr
  isplitl [H0]; · iexact H0
  isplitl [H1]; · iexact H1
  iexact H2

/-! ## The program's run -/

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  run_main_of m ρ (hmain m ρ) hT

end Cert.Proof.KI

end
-- ==== Proof.FlatDecode.lean ====
/-
  The flattened form of the decoding function agrees with the decoding function.

  Flattening an array row-major keeps every element at its row-major position, so reading a flattened
  array at an index is reading the original at the index with the same position. Four such readings
  are needed:

  * query `(a, b)` of the `4096 × 50` query array is flat query `50 a + b`;
  * row `w`, column `k` of the `100000 × 32` code table sits at position `32 w + k`, and
    `32 w + k = 128 (w / 4) + (32 (w % 4) + k)`, which is row `w / 4`, column `32 (w % 4) + k` of the
    `25000 × 128` packed table;
  * place `p` of centroid `c` of the `16 × 4` book is position `4 c + p` of the flat list of 64;
  * entry `e` of flat query `50 a + b` of the `204800 × 128` result is entry `(a, b, e)` of the
    `4096 × 50 × 128` result.

  On inputs in range every clamp is vacuous: a query word `w ≤ 99999` names row `w` itself and has
  `w / 4 ≤ 24999`; a code `c ≤ 15` names centroid `c` itself and has `4 c + p ≤ 63`.
-/
import Idealize.ShloMosaic.Lib.ValueIdx
import Idealize.ShloMosaic.Lib.Pipeline.Value
import proofs.«215948_g88356067214102_cont_sun_c4_674_26_alg».proof.Proof.Spec
import proofs.«215948_g88356067214102_cont_sun_c4_674_26_alg».proof.Proof.Flat

noncomputable section

namespace Cert.Decode

open Idealize.ShloMosaic Idealize.ShloMosaic.ValueIdx

/-! ## The four flattenings, read at an index given by its coordinates -/

/-- Flat query `50 a + b` is query `(a, b)`. -/
theorem castQ_apply {α : Type} (inp : SIn.Idx → α) (h0 : SIn.ShapeCasts SQ) (a : Fin 4096) (b : Fin 50)
    (hR : 50 * a.val + b.val < 204800) :
    shapeCast SQ inp h0 (ix1 ⟨50 * a.val + b.val, hR⟩) = inp (ix2 a b) := by
  refine shapeCast_apply inp h0 _ (ix2 a b) ?_
  rw [Shape.rowMajor_val_two, Shape.rowMajor_val_one]
  show a.val * 50 + b.val = 50 * a.val + b.val
  omega

/-- Row `r`, column `c` of the packed table is row `w`, column `k` of the code table whenever the two
    row-major positions agree. -/
theorem castC_apply {α : Type} (codes : SCodes.Idx → α) (h1 : SCodes.ShapeCasts SC2) (r : Fin 25000) (c : Fin 128)
    (w : Fin 100000) (k : Fin 32) (hpos : r.val * 128 + c.val = w.val * 32 + k.val) :
    shapeCast SC2 codes h1 (ix2 r c) = codes (ix2 w k) := by
  refine shapeCast_apply codes h1 _ (ix2 w k) ?_
  rw [Shape.rowMajor_val_two, Shape.rowMajor_val_two]
  show w.val * 32 + k.val = r.val * 128 + c.val
  omega

/-- Position `p` of the flat centroid list is place `q` of centroid `c` whenever `p = 4 c + q`. -/
theorem castB_apply {α : Type} (book : SBook.Idx → α) (h2 : SBook.ShapeCasts SB1) (p : Fin 64) (c : Fin 16) (q : Fin 4)
    (hpos : p.val = c.val * 4 + q.val) :
    shapeCast SB1 book h2 (ix1 p) = book (ix2 c q) := by
  refine shapeCast_apply book h2 _ (ix2 c q) ?_
  rw [Shape.rowMajor_val_two, Shape.rowMajor_val_one]
  show c.val * 4 + q.val = p.val
  omega

/-- Entry `(a, b, e)` of the result is entry `e` of flat query `50 a + b`. -/
theorem castOut_apply {α : Type} (y : SFlat.Idx → α) (h3 : SFlat.ShapeCasts SOut) (a : Fin 4096) (b : Fin 50) (e : Fin 128)
    (hR : 50 * a.val + b.val < 204800) :
    shapeCast SOut y h3 (ix3 a b e) = y (ix2 ⟨50 * a.val + b.val, hR⟩ e) := by
  refine shapeCast_apply y h3 _ (ix2 ⟨50 * a.val + b.val, hR⟩ e) ?_
  rw [Shape.rowMajor_val_two, Shape.rowMajor_val_three]
  show (50 * a.val + b.val) * 128 + e.val = (a.val * 50 + b.val) * 128 + e.val
  omega

/-- A query's flat number is below the number of flat queries. -/
theorem flatQuery_lt (a : Fin 4096) (b : Fin 50) : 50 * a.val + b.val < 204800 := by
  have := a.isLt; have := b.isLt; omega

/-! ## One entry -/

/-- On inputs in range, entry `e` of flat query `50 a + b` over the flattened inputs is entry `e` of the
    decoded vector of query `(a, b)`. -/
theorem flatAt_of_inRange {α : Type} (inp : IVec SIn 32) (codes : IVec SCodes 32) (book : SBook.Idx → α)
    (h : InRange inp codes) (h0 : SIn.ShapeCasts SQ) (h1 : SCodes.ShapeCasts SC2) (h2 : SBook.ShapeCasts SB1)
    (a : Fin 4096) (b : Fin 50) (e : Fin 128) :
    flatAt (shapeCast SQ inp h0) (shapeCast SC2 codes h1) (shapeCast SB1 book h2)
        ⟨50 * a.val + b.val, flatQuery_lt a b⟩ e
      = decodeAt inp codes book a b e := by
  unfold flatAt decodeAt
  -- the query word, and the row of the code table it names
  rw [castQ_apply inp h0 a b (flatQuery_lt a b)]
  have hw : (inp (ix2 a b)).toNat ≤ 99999 := h.inp_le _
  have hW : (clampRow 100000 (by decide) (inp (ix2 a b))).val = (inp (ix2 a b)).toNat :=
    clampRow_val_of_lt (by decide) (by decide) (by omega)
  -- the code: the packed table at (w / 4, 32 (w % 4) + e / 4) is the code table at (w, e / 4)
  have he : e.val < 128 := e.isLt
  rw [castC_apply codes h1 (packRow (inp (ix2 a b)).toNat) (packCol (inp (ix2 a b)).toNat e)
    (clampRow 100000 (by decide) (inp (ix2 a b))) (blockOf e) (by
      rw [hW]
      show min ((inp (ix2 a b)).toNat / 4) 24999 * 128 + (32 * ((inp (ix2 a b)).toNat % 4) + e.val / 4)
        = (inp (ix2 a b)).toNat * 32 + e.val / 4
      omega)]
  -- the centroid: position 4 c + e % 4 of the flat list is place e % 4 of centroid c
  have hc : (codes (ix2 (clampRow 100000 (by decide) (inp (ix2 a b))) (blockOf e))).toNat ≤ 15 := h.codes_le _
  have hC : (clampRow 16 (by decide) (codes (ix2 (clampRow 100000 (by decide) (inp (ix2 a b))) (blockOf e)))).val
      = (codes (ix2 (clampRow 100000 (by decide) (inp (ix2 a b))) (blockOf e))).toNat :=
    clampRow_val_of_lt (by decide) (by decide) (by omega)
  exact castB_apply book h2 _ _ (placeOf e) (by
    rw [hC]
    show min (4 * (codes (ix2 (clampRow 100000 (by decide) (inp (ix2 a b))) (blockOf e))).toNat + e.val % 4) 63
      = (codes (ix2 (clampRow 100000 (by decide) (inp (ix2 a b))) (blockOf e))).toNat * 4 + e.val % 4
    omega)

/-! ## The whole array -/

/-- On inputs in range, the flat decoded array of the flattened inputs, reshaped to `4096 × 50 × 128`,
    is the decoded array. -/
theorem flat_decode {α : Type} (inp : IVec SIn 32) (codes : IVec SCodes 32) (book : SBook.Idx → α) (h : InRange inp codes)
    (h0 : SIn.ShapeCasts SQ) (h1 : SCodes.ShapeCasts SC2) (h2 : SBook.ShapeCasts SB1) (h3 : SFlat.ShapeCasts SOut) :
    shapeCast SOut (flat (shapeCast SQ inp h0) (shapeCast SC2 codes h1) (shapeCast SB1 book h2)) h3 = decode inp codes book := by
  funext j
  -- every index is the index of its three coordinates
  obtain ⟨a, b, e, rfl⟩ : ∃ (a : Fin 4096) (b : Fin 50) (e : Fin 128), j = ix3 a b e :=
    ⟨j 0, j 1, j 2, eq_ix3 (n0 := 4096) (n1 := 50) (n2 := 128) j⟩
  refine (castOut_apply _ h3 a b e (flatQuery_lt a b)).trans ?_
  rw [flat_ix2, decode_ix3]
  exact flatAt_of_inRange inp codes book h h0 h1 h2 a b e

end Cert.Decode

end
-- ==== Proof.PreFacts.lean ====
/-
  What the precondition says of the two integer inputs.

  The precondition is a conjunction of three statements, each an `and` over every entry of one
  input: the centroids are finite, every query lies in `[0, 99999]` as a signed word, and every code
  lies in `[0, 15]` as a signed word. A signed word between `0` and a bound below `2^31` has that same
  unsigned value, so the last two conjuncts bound the unsigned values of the entries.
-/
import proofs.«215948_g88356067214102_cont_sun_c4_674_26_alg».proof.Pre_input_domain
import proofs.«215948_g88356067214102_cont_sun_c4_674_26_alg».proof.Proof.Gen.Pre_input_domain
import proofs.«215948_g88356067214102_cont_sun_c4_674_26_alg».proof.Proof.Spec
import Idealize.ShloMosaic.Lib.ReduceAll

namespace Cert.Proof.PreFacts

open Idealize.ShloMosaic Idealize.ShloMosaic.ValueIdx

instance : Subsingleton Cert.Pre_input_domain.S_.Idx := ⟨fun a b => funext fun d => d.elim0⟩

/-- A signed word in `[0, n]` with `n < 2^31` has unsigned value at most `n`. -/
theorem toNat_le_of_signed {v : BitVec 32} {n : Nat} (hn : n < 2 ^ 31) (h0 : (0 : Int) ≤ v.toInt) (h1 : v.toInt ≤ (n : Int)) :
    v.toNat ≤ n := by
  rw [BitVec.toInt_eq_toNat_cond] at h0 h1
  split at h0 <;> omega

theorem inRange {F : FTy → Type} [FloatOps F] [Cert.Pre_input_domain.Facts]
    (a0 : IVec Cert.Decode.SIn 32) (a1 : IVec Cert.Decode.SCodes 32) (a2 : FVec F Cert.Decode.SBook .f32)
    (h : Cert.Pre_input_domain.fn (F := F) a0 a1 a2 = fun _ => 1#1) : Cert.Decode.InRange a0 a1 := by
  have h0 := congrFun h ValueIdx.ix0
  dsimp only [Cert.Pre_input_domain.fn, Cert.Pre_input_domain.fn_part1] at h0
  obtain ⟨h01, h2⟩ := IntOp.andi_eq_one.1 h0
  obtain ⟨_, h1⟩ := IntOp.andi_eq_one.1 h01
  have z : (0#32 : BitVec 32).toInt = 0 := by decide
  refine ⟨fun j => ?_, fun j => ?_⟩
  · have e : IntOp.andi (IntOp.cmpi .sge (a0 j) 0#32) (IntOp.cmpi .sle (a0 j) 99999#32) = 1#1 :=
      Host.reduce_andi_all _ _ _ _ _ h1 j
    obtain ⟨e1, e2⟩ := IntOp.andi_eq_one.1 e
    rw [IntOp.cmpi_sge, z] at e1
    rw [IntOp.cmpi_sle, show (99999#32 : BitVec 32).toInt = ((99999 : Nat) : Int) from by decide] at e2
    exact toNat_le_of_signed (by decide) e1 e2
  · have e : IntOp.andi (IntOp.cmpi .sge (a1 j) 0#32) (IntOp.cmpi .sle (a1 j) 15#32) = 1#1 :=
      Host.reduce_andi_all _ _ _ _ _ h2 j
    obtain ⟨e1, e2⟩ := IntOp.andi_eq_one.1 e
    rw [IntOp.cmpi_sge, z] at e1
    rw [IntOp.cmpi_sle, show (15#32 : BitVec 32).toInt = ((15 : Nat) : Int) from by decide] at e2
    exact toNat_le_of_signed (by decide) e1 e2

end Cert.Proof.PreFacts
-- ==== Proof.KIFinal.lean ====
/-
  The kernel's result is the decoded array.

  The program flattens its three inputs, decodes every flat query over the flattened inputs, and gives the
  flat result the result's shape. Flattening keeps every element at its row-major position, so on inputs
  in range that is the decoded array of the inputs themselves. The precondition bounds the two integer
  inputs, which is what "in range" asks.
-/
import proofs.«215948_g88356067214102_cont_sun_c4_674_26_alg».proof.Proof.KILaunch
import proofs.«215948_g88356067214102_cont_sun_c4_674_26_alg».proof.Proof.FlatDecode
import proofs.«215948_g88356067214102_cont_sun_c4_674_26_alg».proof.Proof.PreFacts

noncomputable section

namespace Cert.Proof.KI

open Cert.KernelIdeal Cert.KernelIdeal.Gen
open Idealize.ShloMosaic Idealize.SL.Sem

variable {F : FTy → Type}

/-- On inputs in range, what the program leaves in its result is the decoded array of its three inputs. -/
theorem res_eq_decode (m : (ℓ : Loc nD τ sig) → Buf (Elt F) ℓ) (hpre : PreOK m) (d : Dev nD) :
    Res m d = Cert.Decode.decode (m (a0Loc d)) (m (a1Loc d)) (m (a2Loc d)) := by
  unfold Res Go Xq Xc Xb
  exact Cert.Decode.flat_decode (m (a0Loc d)) (m (a1Loc d)) (m (a2Loc d)) (hpre d)
    shapeCasts_S4096x50_S204800 shapeCasts_S100000x32_S25000x128 shapeCasts_S16x4_S64 shapeCasts_S204800x128_S4096x50x128

/-- The precondition, holding on every device, puts the two integer inputs in range. -/
theorem preOK_of_pre [FloatOps F] [Cert.Pre_input_domain.Facts] (m : (ℓ : Loc nD τ sig) → Buf (Elt F) ℓ)
    (h : ∀ c : Dev nD, Cert.Pre_input_domain.fn (F := F) (m (a0Loc c)) (m (a1Loc c)) (m (a2Loc c)) = fun _ => 1#1) :
    PreOK m :=
  fun d => Cert.Proof.PreFacts.inRange (F := F) (m (a0Loc d)) (m (a1Loc d)) (m (a2Loc d)) (h d)

/-- The program's run with its result as the decoded array: from a memory whose integer inputs are in range,
    every weakly fair execution terminates with the result at the decoded array and the inputs unchanged. -/
theorem run_value [FloatOps F] [∀ e, Nonempty (Elt F e)] (m : (ℓ : Loc nD τ sig) → Buf (Elt F) ℓ) (ρ : Dev nD → PrngReg)
    (hpre : PreOK m) (hT : (K (F := F)).TileObl (D (F := F)) 𝒱 (P m) v₀ 0) :
    θ_run (Cert.KernelIdeal.defs (F := F)) (Cert.KernelIdeal.threads (F := F)) ⟨m, fun _ => 0, ρ⟩
      (fun r => ∀ c : Dev nD,
        r.2.mem (rLoc c) = Cert.Decode.decode (m (a0Loc c)) (m (a1Loc c)) (m (a2Loc c))
        ∧ r.2.mem (a0Loc c) = m (a0Loc c) ∧ r.2.mem (a1Loc c) = m (a1Loc c) ∧ r.2.mem (a2Loc c) = m (a2Loc c)) :=
  (θ_run (Cert.KernelIdeal.defs (F := F)) _ _).mono
    (fun _ h c => ⟨(h c).1.trans (res_eq_decode m hpre c), (h c).2⟩) (run_main m ρ hT)

end Cert.Proof.KI

end
-- ==== Proof.KIChunk.lean ====
/-
  A tile's chunks, as pure statements about scratch contents.

  Tile `L` decodes the queries `base L + 128 n + r` (`n < 50` the chunk, `r < 128` the row inside it). For chunk `n`
  its scratches hold, in turn: the 128 query words; the words shifted right by two (the rows of the packed code table
  they name); those 128 rows of the packed table; and at last the 128 decoded rows.
-/
import proofs.«215948_g88356067214102_cont_sun_c4_674_26_alg».proof.Proof.KISetup

noncomputable section

namespace Cert.Proof.KI

open Cert.KernelIdeal Cert.KernelIdeal.Gen
open Idealize.ShloMosaic Idealize.ShloMosaic.ValueIdx

variable {F : FTy → Type}

/-- The first query of tile `L`. -/
def base (L : grid0.Coords) : Nat := 12800 * (L 1).val + 6400 * (L 0).val

/-- Flat query `R`'s word (the index clamped into the list, so that the function is total). -/
def qAt (xq : Vec F S204800 .i32) (R : Nat) : BitVec 32 := xq (ix1 (⟨min R 204799, by omega⟩ : Fin 204800))

/-- Entry `e` of the decoded row of flat query `R` (clamped likewise). -/
def oAt (xq : Vec F S204800 .i32) (xc : Vec F S25000x128 .i32) (xb : Vec F S64 .f32) (R : Nat) (e : Fin 128) : Elt F .f32 :=
  Cert.Decode.flatAt xq xc xb (⟨min R 204799, by omega⟩ : Fin 204800) e

/-- The index scratch holds chunk `n`'s query words. -/
def ChunkI (xq : Vec F S204800 .i32) (L : grid0.Coords) (n : Nat) (fI : Vec F S128 .i32) : Prop :=
  ∀ j : Fin 128, fI (ix1 j) = qAt xq (base L + 128 * n + j.val)
/-- The list scratch holds chunk `n`'s words shifted right by two. -/
def ChunkQ (xq : Vec F S204800 .i32) (L : grid0.Coords) (n : Nat) (fQ : Vec F S128 .i32) : Prop :=
  ∀ j : Fin 128, fQ (ix1 j) = IntOp.shrsi .vector (qAt xq (base L + 128 * n + j.val)) 2#32
/-- The code scratch holds the packed table's rows chunk `n`'s words name. -/
def ChunkC (xq : Vec F S204800 .i32) (xc : Vec F S25000x128 .i32) (L : grid0.Coords) (n : Nat) (fC : Vec F S128x128 .i32) : Prop :=
  ∀ r col : Fin 128, fC (ix2 r col) = xc (ix2 (Cert.Decode.packRow (qAt xq (base L + 128 * n + r.val)).toNat) col)
/-- The out scratch holds chunk `n`'s decoded rows. -/
def ChunkO (xq : Vec F S204800 .i32) (xc : Vec F S25000x128 .i32) (xb : Vec F S64 .f32) (L : grid0.Coords) (n : Nat) (fO : Vec F S128x128 .f32) : Prop :=
  ∀ r e : Fin 128, fO (ix2 r e) = oAt xq xc xb (base L + 128 * n + r.val) e

theorem base_le (L : grid0.Coords) : base L + 6400 ≤ 204800 := by
  have h1 : (L 1).val < 16 := (L 1).isLt
  have h0 : (L 0).val < 2 := (L 0).isLt
  unfold base; omega

end Cert.Proof.KI

end
-- ==== Proof.KICore.lean ====
import proofs.«215948_g88356067214102_cont_sun_c4_674_26_alg».proof.Proof.KISetup
import proofs.«215948_g88356067214102_cont_sun_c4_674_26_alg».proof.Proof.KIChunk

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sQ0" => (Memref.whole Cert.KernelIdeal.cc0_scratch2 : Memref Cert.KernelIdeal.sig Kind.scVector Space.vmem Cert.KernelIdeal.S128 EltTy.i32)
local notation "sQ1" => (Memref.whole Cert.KernelIdeal.cc0_scratch3 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)
local notation "qV" => (Memref.whole Cert.KernelIdeal.main_v0_scv : Memref Cert.KernelIdeal.sig Kind.scVector Space.hbm Cert.KernelIdeal.S204800 EltTy.i32)
local notation "cVm" => (Memref.whole Cert.KernelIdeal.main_v1_scv : Memref Cert.KernelIdeal.sig Kind.scVector Space.hbm Cert.KernelIdeal.S25000x128 EltTy.i32)
local notation "bV" => (Memref.whole Cert.KernelIdeal.main_v2_scv : Memref Cert.KernelIdeal.sig Kind.scVector Space.hbm Cert.KernelIdeal.S64 EltTy.f32)
local notation "oV" => (Memref.whole Cert.KernelIdeal.main_v3_scv : Memref Cert.KernelIdeal.sig Kind.scVector Space.hbm Cert.KernelIdeal.S204800x128 EltTy.f32)

variable [FloatOps F]

/-! What the tile's run is stated over: its thread, its blocks of the flat result, what its transfers deliver, and the
    run itself as one statement over the tile's resources laid out one by one. -/

/-- The tile's thread. -/
abbrev tth (d : Dev nD) (L : grid0.Coords) : Thread nD τ := V d ((L 0).castLE hcore0) ((L 1).castLE hsub0)

/-- Block `n` of tile `L` in the flat result (`n < 50`). -/
def bk (L : grid0.Coords) (n : Nat) : Fin 1600 := ⟨(100 * (L 1).val + 50 * (L 0).val + n) % 1600, Nat.mod_lt _ (by decide)⟩

/-- All of the packed code table, as the gathers slice it. -/
abbrev cAll : Memref sig .scVector .hbm S25000x128 .i32 :=
  (cVm).slice (Rect.unit (s := S25000x128) ![0, 0] S25000x128.size inb_S25000x128_S25000x128_0_0) (fun _ => rfl)

variable (d : Dev nD) (L : grid0.Coords)
variable (xq : Buf (Elt F) (qLoc d)) (xc : Buf (Elt F) (cLoc d)) (xb : Buf (Elt F) (bLoc d)) (go : Buf (Elt F) (oLoc d))

/-- What a slot's gather delivers for chunk `n`: the gathered code rows, the row list back, the table's share back. -/
def GD0 (n : Nat) (qa : PosShare TreeShare) : sProp 𝕄 :=
  iprop((∃ fC : Buf (Elt F) ((tth d L).loc cc0_scratch4), ((sC0).view.loc (tth d L) ↦{fullShare} fC) ∗ ⌜ChunkC xq xc L n fC⌝)
    ∗ (∃ fQ : Buf (Elt F) ((tth d L).loc cc0_scratch2), (sQ0).view.loc (tth d L) ↦{fullShare} fQ)
    ∗ ((cVm).view.loc (tth d L) ↦[(cAll).view.set]{qa} xc))
def GD1 (n : Nat) (qb : PosShare TreeShare) : sProp 𝕄 :=
  iprop((∃ fC : Buf (Elt F) ((tth d L).loc cc0_scratch5), ((sC1).view.loc (tth d L) ↦{fullShare} fC) ∗ ⌜ChunkC xq xc L n fC⌝)
    ∗ (∃ fQ : Buf (Elt F) ((tth d L).loc cc0_scratch3), (sQ1).view.loc (tth d L) ↦{fullShare} fQ)
    ∗ ((cVm).view.loc (tth d L) ↦[(cAll).view.set]{qb} xc))
/-- What a slot's write-out delivers for chunk `n`: the out scratch back, the block decoded. -/
def OD0 (n : Nat) : sProp 𝕄 :=
  iprop((∃ fO : Buf (Elt F) ((tth d L).loc cc0_scratch6), (sO0).view.loc (tth d L) ↦{fullShare} fO) ∗ (oLoc d ↦[blkSet (bk L n)]{fullShare} go))
def OD1 (n : Nat) : sProp 𝕄 :=
  iprop((∃ fO : Buf (Elt F) ((tth d L).loc cc0_scratch7), (sO1).view.loc (tth d L) ↦{fullShare} fO) ∗ (oLoc d ↦[blkSet (bk L n)]{fullShare} go))

/-- The tile's run over its resources one by one: its shares of the three inputs (the packed table's in two halves, one
    per gather in flight), its fifty blocks, its ten scratch buffers and its nine semaphores at zero; the blocks come
    back decoded, everything else as it was handed in (the scratch at some contents). -/
def TileCore : Prop :=
  ∀ (m0 : Buf (Elt F) (oLoc d)) (qq qa qb : PosShare TreeShare) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (f0 : Buf (Elt F) ((tth d L).loc cc0_scratch0)) (f1 : Buf (Elt F) ((tth d L).loc cc0_scratch1)) (f2 : Buf (Elt F) ((tth d L).loc cc0_scratch2)) (f3 : Buf (Elt F) ((tth d L).loc cc0_scratch3)) (f4 : Buf (Elt F) ((tth d L).loc cc0_scratch4)) (f5 : Buf (Elt F) ((tth d L).loc cc0_scratch5)) (f6 : Buf (Elt F) ((tth d L).loc cc0_scratch6)) (f7 : Buf (Elt F) ((tth d L).loc cc0_scratch7)) (f8 : Buf (Elt F) ((tth d L).loc cc0_scratch8)) (f9 : Buf (Elt F) ((tth d L).loc cc0_scratch9)),
    iprop(levAts (K (F := F)).L (K (F := F)).lev ∗ owes (tth d L) O W
        ∗ (qLoc d ↦{qq} xq) ∗ (cLoc d ↦{qa} xc) ∗ (cLoc d ↦{qb} xc) ∗ (bLoc d ↦{qq} xb)
        ∗ (bigSep Finset.univ fun j : Fin 50 => oLoc d ↦[blkSet (bk L j.val)]{fullShare} m0)
        ∗ ((tth d L).loc cc0_scratch0 ↦{fullShare} f0)
        ∗ ((tth d L).loc cc0_scratch1 ↦{fullShare} f1)
        ∗ ((tth d L).loc cc0_scratch2 ↦{fullShare} f2)
        ∗ ((tth d L).loc cc0_scratch3 ↦{fullShare} f3)
        ∗ ((tth d L).loc cc0_scratch4 ↦{fullShare} f4)
        ∗ ((tth d L).loc cc0_scratch5 ↦{fullShare} f5)
        ∗ ((tth d L).loc cc0_scratch6 ↦{fullShare} f6)
        ∗ ((tth d L).loc cc0_scratch7 ↦{fullShare} f7)
        ∗ ((tth d L).loc cc0_scratch8 ↦{fullShare} f8)
        ∗ ((tth d L).loc cc0_scratch9 ↦{fullShare} f9)
        ∗ semVal (tth d L, .dma cc0_scratch10.sem) 0
        ∗ semVal (tth d L, .dma cc0_scratch11.sem) 0
        ∗ semVal (tth d L, .dma cc0_scratch12.sem) 0
        ∗ semVal (tth d L, .dma cc0_scratch13.sem) 0
        ∗ semVal (tth d L, .dma cc0_scoped0.sem) 0
        ∗ semVal (tth d L, .dma cc0_scoped1.sem) 0
        ∗ semVal (tth d L, .dma cc0_scoped2.sem) 0
        ∗ semVal (tth d L, .dma cc0_scoped3.sem) 0
        ∗ semVal (tth d L, .dma cc0_scoped4.sem) 0)
      ⊢ (wp frame (wpE (defs₀ (F := F)) 𝒱₀ (tth d L) none) Set.univ
          (cc0__decode_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)
          fun _ => iprop((qLoc d ↦{qq} xq) ∗ (cLoc d ↦{qa} xc) ∗ (cLoc d ↦{qb} xc) ∗ (bLoc d ↦{qq} xb)
            ∗ (bigSep Finset.univ fun j : Fin 50 => oLoc d ↦[blkSet (bk L j.val)]{fullShare} go)
            ∗ (∃ f, (tth d L).loc cc0_scratch0 ↦{fullShare} f)
        ∗ (∃ f, (tth d L).loc cc0_scratch1 ↦{fullShare} f)
        ∗ (∃ f, (tth d L).loc cc0_scratch2 ↦{fullShare} f)
        ∗ (∃ f, (tth d L).loc cc0_scratch3 ↦{fullShare} f)
        ∗ (∃ f, (tth d L).loc cc0_scratch4 ↦{fullShare} f)
        ∗ (∃ f, (tth d L).loc cc0_scratch5 ↦{fullShare} f)
        ∗ (∃ f, (tth d L).loc cc0_scratch6 ↦{fullShare} f)
        ∗ (∃ f, (tth d L).loc cc0_scratch7 ↦{fullShare} f)
        ∗ (∃ f, (tth d L).loc cc0_scratch8 ↦{fullShare} f)
        ∗ (∃ f, (tth d L).loc cc0_scratch9 ↦{fullShare} f)
            ∗ semVal (tth d L, .dma cc0_scratch10.sem) 0
            ∗ semVal (tth d L, .dma cc0_scratch11.sem) 0
            ∗ semVal (tth d L, .dma cc0_scratch12.sem) 0
            ∗ semVal (tth d L, .dma cc0_scratch13.sem) 0
            ∗ semVal (tth d L, .dma cc0_scoped0.sem) 0
            ∗ semVal (tth d L, .dma cc0_scoped1.sem) 0
            ∗ semVal (tth d L, .dma cc0_scoped2.sem) 0
            ∗ semVal (tth d L, .dma cc0_scoped3.sem) 0
            ∗ semVal (tth d L, .dma cc0_scoped4.sem) 0
            ∗ ∃ W', ⌜∀ p ∈ W', p ∈ W ∨ p.2 = none⌝ ∗ owes (tth d L) O W') : sProp 𝕄)

end Cert.Proof.KI

end
-- ==== Proof.KIOwn.lean ====
/-
  What a tile owns, peeled open: its ten scratch buffers, each whole at some contents, and its nine DMA semaphores,
  each at zero, taken out of the big separating conjunctions over everything the tile owns.
-/
import proofs.«215948_g88356067214102_cont_sun_c4_674_26_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The SparseCore and the vector subcore that grid point `L` names. -/
abbrev cV (L : grid0.Coords) : Fin τ.nSC := (L 0).castLE hcore0
abbrev jV (L : grid0.Coords) : Fin τ.nSub := (L 1).castLE hsub0
/-- The tile at grid point `L`, as a processor. -/
abbrev pV (L : grid0.Coords) : Proc τ := .scVector (cV L) (jV L)

/-- One member taken out of a big separating conjunction: the member, and the rest over the set without it. -/
theorem peel {M : Type} [URA M] {I : Type} [DecidableEq I] {s : Finset I} (i : I) {Φ : I → sProp M} {A R : sProp M}
    (hi : i ∈ s) (hA : Φ i = A) (hR : bigSep (s.erase i) Φ = R) : bigSep s Φ = iprop(A ∗ R) := by
  rw [SparseCore.bigSep_erase' hi, hA, hR]

/-- Distinct references of one tile are distinct buffers of the device. -/
theorem ref_ne (c : Fin τ.nSC) (j : Fin τ.nSub) {r r' : Ref sig .scVector} (h : r ≠ r') :
    (Proc.scVector c j).devRef r ≠ (Proc.scVector c j).devRef r' :=
  fun e => h (Proc.devRef_injective (Proc.scVector c j) e)

/-- A DMA semaphore is, on a tile, one of the tile's own scoped cells: off the TensorCore every DMA semaphore is scoped. -/
theorem cell_mem (d : Dev nD) (c : Fin τ.nSC) (j : Fin τ.nSub) (a : DmaSem sig) :
    ((V d c j, .dma a) : GSem nD τ sig) ∈ ownCells (sig := sig) (V d c j) :=
  mem_ownCells.mpr ⟨rfl, sig.sc_scopedDmaSem .scVector a (by decide)⟩

/-- DMA semaphores of one thread with different numbers are distinct cells. -/
theorem cell_ne (thr : Thread nD τ) {a b : DmaSem sig} (h : a.val ≠ b.val) :
    ((thr, .dma a) : GSem nD τ sig) ≠ (thr, .dma b) :=
  fun e => h (congrArg Fin.val (SemLoc.dma.inj (Prod.mk.inj e).2))

/-- The one semaphore of a rank-zero array laid on the pool from `base` has number `base`. -/
theorem dmaSem_val (base : Nat) (h : base + S_.numel ≤ sig.nDmaSem) :
    ((SemArray.consecutive base S_ h : DmaSems sig S_).sem).val = base := by
  show base + (Shape.rowMajorPi S_.size _).val = base
  rw [Shape.rowMajorPi_zero]; rfl

/-- A reference of the tile is among its own buffers less some others, all different from it. -/
macro "own_ref_mem" : tactic => `(tactic|
  (repeat (with_reducible refine Finset.mem_erase.mpr ⟨ref_ne _ _ (by decide), ?_⟩)
   exact SparseCore.Cfg.mem_ownRefs_of_owner (by rfl)))

/-- A scoped semaphore of the tile is among its own cells less some others, all different from it. -/
macro "own_cell_mem" : tactic => `(tactic|
  (repeat (with_reducible refine Finset.mem_erase.mpr ⟨cell_ne _ (by simp only [dmaSem_val]; decide), ?_⟩)
   exact cell_mem _ _ _ _))

/-- The tile's own buffers other than the ten scratch buffers. -/
abbrev restRefs (L : grid0.Coords) : Finset (DevRef τ sig) :=
  (((((((((((ownRefs (τ := τ) (sig := sig) (pV L)).erase ((pV L).devRef cc0_scratch0)).erase ((pV L).devRef cc0_scratch1)).erase ((pV L).devRef cc0_scratch2)).erase ((pV L).devRef cc0_scratch3)).erase ((pV L).devRef cc0_scratch4)).erase ((pV L).devRef cc0_scratch5)).erase ((pV L).devRef cc0_scratch6)).erase ((pV L).devRef cc0_scratch7)).erase ((pV L).devRef cc0_scratch8)).erase ((pV L).devRef cc0_scratch9))

/-- The tile's own scoped semaphores other than the nine DMA semaphores. -/
abbrev restCells (d : Dev nD) (L : grid0.Coords) : Finset (GSem nD τ sig) :=
  ((((((((((ownCells (sig := sig) (V d (cV L) (jV L))).erase (V d (cV L) (jV L), .dma cc0_scratch10.sem)).erase (V d (cV L) (jV L), .dma cc0_scratch11.sem)).erase (V d (cV L) (jV L), .dma cc0_scratch12.sem)).erase (V d (cV L) (jV L), .dma cc0_scratch13.sem)).erase (V d (cV L) (jV L), .dma cc0_scoped0.sem)).erase (V d (cV L) (jV L), .dma cc0_scoped1.sem)).erase (V d (cV L) (jV L), .dma cc0_scoped2.sem)).erase (V d (cV L) (jV L), .dma cc0_scoped3.sem)).erase (V d (cV L) (jV L), .dma cc0_scoped4.sem))

variable (d : Dev nD) (L : grid0.Coords)

/-- The ten scratch buffers are among the tile's own: they are them, each at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ bigSep (restRefs L) fun b => iprop(∃ f, ((d, b) : Loc nD τ sig) ↦{fullShare} f)) := by
  unfold SparseCore.Cfg.ownBufs
  refine peel ((pV L).devRef cc0_scratch0) (by own_ref_mem) (by rfl) ?_
  refine peel ((pV L).devRef cc0_scratch1) (by own_ref_mem) (by rfl) ?_
  refine peel ((pV L).devRef cc0_scratch2) (by own_ref_mem) (by rfl) ?_
  refine peel ((pV L).devRef cc0_scratch3) (by own_ref_mem) (by rfl) ?_
  refine peel ((pV L).devRef cc0_scratch4) (by own_ref_mem) (by rfl) ?_
  refine peel ((pV L).devRef cc0_scratch5) (by own_ref_mem) (by rfl) ?_
  refine peel ((pV L).devRef cc0_scratch6) (by own_ref_mem) (by rfl) ?_
  refine peel ((pV L).devRef cc0_scratch7) (by own_ref_mem) (by rfl) ?_
  refine peel ((pV L).devRef cc0_scratch8) (by own_ref_mem) (by rfl) ?_
  refine peel ((pV L).devRef cc0_scratch9) (by own_ref_mem) (by rfl) ?_
  rfl

/-- The nine DMA semaphores are among the tile's own scoped cells: they are them, each at zero, and the rest. -/
theorem ownSems0_V :
    (ownSems0 (V d (cV L) (jV L)) : sProp 𝕄)
      = iprop(semVal (V d (cV L) (jV L), .dma cc0_scratch10.sem) 0
          ∗ semVal (V d (cV L) (jV L), .dma cc0_scratch11.sem) 0
          ∗ semVal (V d (cV L) (jV L), .dma cc0_scratch12.sem) 0
          ∗ semVal (V d (cV L) (jV L), .dma cc0_scratch13.sem) 0
          ∗ semVal (V d (cV L) (jV L), .dma cc0_scoped0.sem) 0
          ∗ semVal (V d (cV L) (jV L), .dma cc0_scoped1.sem) 0
          ∗ semVal (V d (cV L) (jV L), .dma cc0_scoped2.sem) 0
          ∗ semVal (V d (cV L) (jV L), .dma cc0_scoped3.sem) 0
          ∗ semVal (V d (cV L) (jV L), .dma cc0_scoped4.sem) 0
          ∗ bigSep (restCells d L) fun g => semVal g 0) := by
  unfold SparseCore.Cfg.ownSems0
  refine peel (V d (cV L) (jV L), .dma cc0_scratch10.sem) (by own_cell_mem) (by rfl) ?_
  refine peel (V d (cV L) (jV L), .dma cc0_scratch11.sem) (by own_cell_mem) (by rfl) ?_
  refine peel (V d (cV L) (jV L), .dma cc0_scratch12.sem) (by own_cell_mem) (by rfl) ?_
  refine peel (V d (cV L) (jV L), .dma cc0_scratch13.sem) (by own_cell_mem) (by rfl) ?_
  refine peel (V d (cV L) (jV L), .dma cc0_scoped0.sem) (by own_cell_mem) (by rfl) ?_
  refine peel (V d (cV L) (jV L), .dma cc0_scoped1.sem) (by own_cell_mem) (by rfl) ?_
  refine peel (V d (cV L) (jV L), .dma cc0_scoped2.sem) (by own_cell_mem) (by rfl) ?_
  refine peel (V d (cV L) (jV L), .dma cc0_scoped3.sem) (by own_cell_mem) (by rfl) ?_
  refine peel (V d (cV L) (jV L), .dma cc0_scoped4.sem) (by own_cell_mem) (by rfl) ?_
  rfl

end Cert.Proof.KI

end
-- ==== Proof.KITile.lean ====
/-
  A tile's task as the launch theorem asks for it, from the tile's run stated over its resources one by one: the
  tile's scoped storage is opened into its ten scratch buffers and nine semaphores, its read share of the packed
  code table is halved (one half per gather in flight), its blocks are renumbered, and everything is put back at the end.
-/
import proofs.«215948_g88356067214102_cont_sun_c4_674_26_alg».proof.Proof.KILaunchSplit
import proofs.«215948_g88356067214102_cont_sun_c4_674_26_alg».proof.Proof.KICore
import proofs.«215948_g88356067214102_cont_sun_c4_674_26_alg».proof.Proof.KIOwn

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The tile at a grid point -/

theorem bound_zero : grid0.bound 0 = 2 := rfl
theorem bound_one : grid0.bound 1 = 16 := rfl
/-- The SparseCore and the vector subcore of grid point `L`, as the launch numbers them. -/
abbrev cL (L : grid0.Coords) : Fin 2 := Fin.cast bound_zero (L 0)
abbrev jL (L : grid0.Coords) : Fin 16 := Fin.cast bound_one (L 1)

/-- The kernel's body at grid point `L`, over the program's arrays, scratch buffers and semaphores. -/
abbrev tileProg (L : grid0.Coords) :=
  cc0__decode_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4

/-- Block `j` of tile `L`, numbered both ways. -/
theorem blkOf_bk (L : grid0.Coords) (j : Fin 50) : blkOf (cL L) (jL L) j = bk L j.val := by
  have h0 : (L 0).val < 2 := (L 0).isLt
  have h1 : (L 1).val < 16 := (L 1).isLt
  have hj := j.isLt
  apply Fin.ext
  show 100 * (L 1).val + 50 * (L 0).val + j.val = (100 * (L 1).val + 50 * (L 0).val + j.val) % 1600
  omega

theorem outPts_bk (d : Dev nD) (L : grid0.Coords) (f : Buf (Elt F) (oLoc d)) :
    (outPts d (cL L) (jL L) f : sProp 𝕄) = bigSep Finset.univ fun j : Fin 50 => oLoc d ↦[blkSet (bk L j.val)]{fullShare} f :=
  bigSep_congr fun j _ => by rw [blkOf_bk]

/-! ## What the tile's run asks of the flattened inputs -/

theorem xq_le (hpre : PreOK m) (d : Dev nD) (j : Idx (qLoc d)) : (Xq m d j).toNat ≤ 99999 := (hpre d).inp_le _
theorem xc_le (hpre : PreOK m) (d : Dev nD) (j : Idx (cLoc d)) : (Xc m d j).toNat ≤ 15 := (hpre d).codes_le _

/-! ## The task -/

section Tile

variable (d : Dev nD) (L : grid0.Coords)

/-- What the tile's run hands back, with the rest of the tile's own storage, is what the task hands back. -/
theorem tile_post (O : CellTallies nD τ sig (HIx 1)) (W : Waits sig (HIx 1)) (q : PosShare TreeShare) :
    iprop(((qLoc d ↦{q} Xq m d) ∗ (cLoc d ↦{q.left} Xc m d) ∗ (cLoc d ↦{q.right} Xc m d) ∗ (bLoc d ↦{q} Xb m d)
          ∗ (bigSep Finset.univ fun j : Fin 50 => oLoc d ↦[blkSet (bk L j.val)]{fullShare} Go m d)
          ∗ (∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ semVal (V d (cV L) (jV L), .dma cc0_scratch10.sem) 0
          ∗ semVal (V d (cV L) (jV L), .dma cc0_scratch11.sem) 0
          ∗ semVal (V d (cV L) (jV L), .dma cc0_scratch12.sem) 0
          ∗ semVal (V d (cV L) (jV L), .dma cc0_scratch13.sem) 0
          ∗ semVal (V d (cV L) (jV L), .dma cc0_scoped0.sem) 0
          ∗ semVal (V d (cV L) (jV L), .dma cc0_scoped1.sem) 0
          ∗ semVal (V d (cV L) (jV L), .dma cc0_scoped2.sem) 0
          ∗ semVal (V d (cV L) (jV L), .dma cc0_scoped3.sem) 0
          ∗ semVal (V d (cV L) (jV L), .dma cc0_scoped4.sem) 0
          ∗ ∃ W', ⌜∀ p ∈ W', p ∈ W ∨ p.2 = none⌝ ∗ owes (V d (cV L) (jV L)) O W')
        ∗ (bigSep (restRefs L) fun b => iprop(∃ f, ((d, b) : Loc nD τ sig) ↦{fullShare} f))
        ∗ (bigSep (restCells d L) fun g => semVal g 0))
      ⊢ (iprop((((qLoc d ↦{q} Xq m d) ∗ (cLoc d ↦{q} Xc m d) ∗ (bLoc d ↦{q} Xb m d)) ∗ outPts d (cL L) (jL L) (Go m d))
          ∗ ((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ bigSep (restRefs L) fun b => iprop(∃ f, ((d, b) : Loc nD τ sig) ↦{fullShare} f))
          ∗ (semVal (V d (cV L) (jV L), .dma cc0_scratch10.sem) 0
          ∗ semVal (V d (cV L) (jV L), .dma cc0_scratch11.sem) 0
          ∗ semVal (V d (cV L) (jV L), .dma cc0_scratch12.sem) 0
          ∗ semVal (V d (cV L) (jV L), .dma cc0_scratch13.sem) 0
          ∗ semVal (V d (cV L) (jV L), .dma cc0_scoped0.sem) 0
          ∗ semVal (V d (cV L) (jV L), .dma cc0_scoped1.sem) 0
          ∗ semVal (V d (cV L) (jV L), .dma cc0_scoped2.sem) 0
          ∗ semVal (V d (cV L) (jV L), .dma cc0_scoped3.sem) 0
          ∗ semVal (V d (cV L) (jV L), .dma cc0_scoped4.sem) 0
          ∗ bigSep (restCells d L) fun g => semVal g 0)
          ∗ ∃ W', ⌜∀ p ∈ W', p ∈ W ∨ p.2 = none⌝ ∗ owes (V d (cV L) (jV L)) O W') : sProp 𝕄) := by
  iintro ⟨⟨Hq, Hca, Hcb, Hb, Hout, Hs0, Hs1, Hs2, Hs3, Hs4, Hs5, Hs6, Hs7, Hs8, Hs9, Hm10, Hm11, Hm12, Hm13, Hp0, Hp1, Hp2, Hp3, Hp4, HW⟩, Hbufs, Hsems⟩
  ihave Hc := (pointsTo_share (PosShare.mem_left_op_right q)).2 $$ [Hca Hcb]
  · isplitl [Hca] <;> iassumption
  isplitl [Hq Hc Hb Hout]
  · isplitl [Hq Hc Hb]
    · isplitl [Hq]; · iexact Hq
      isplitl [Hc]; · iexact Hc
      iexact Hb
    · rw [outPts_bk]; iexact Hout
  isplitl [Hs0 Hs1 Hs2 Hs3 Hs4 Hs5 Hs6 Hs7 Hs8 Hs9 Hbufs]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hbufs
  isplitl [Hm10 Hm11 Hm12 Hm13 Hp0 Hp1 Hp2 Hp3 Hp4 Hsems]
  · isplitl [Hm10]; · iexact Hm10
    isplitl [Hm11]; · iexact Hm11
    isplitl [Hm12]; · iexact Hm12
    isplitl [Hm13]; · iexact Hm13
    isplitl [Hp0]; · iexact Hp0
    isplitl [Hp1]; · iexact Hp1
    isplitl [Hp2]; · iexact Hp2
    isplitl [Hp3]; · iexact Hp3
    isplitl [Hp4]; · iexact Hp4
    iexact Hsems
  iexact HW

/-- The task on the vector subcore grid point `L` names, from the tile's run. -/
theorem tile_body (hF : (K (F := F)).Facts) (hpre : PreOK m) (hcore : TileCore d L (Xq m d) (Xc m d) (Xb m d) (Go m d))
    (O : CellTallies nD τ sig (HIx 1)) (W : Waits sig (HIx 1)) (hO : ∀ g, O g none = 0) :
    iprop(levAts (K (F := F)).L (K (F := F)).lev ∗ emp ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tdRes m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hq, Hc, Hb⟩, Hout⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, Hbufs⟩, ⟨Hm10, Hm11, Hm12, Hm13, Hp0, Hp1, Hp2, Hp3, Hp4, Hsems⟩, HO⟩
  ihave Hc' := (pointsTo_share (PosShare.mem_left_op_right (tok (cL L) (jL L)))).1 $$ Hc
  icases Hc' with ⟨Hca, Hcb⟩
  ihave Hout' := (Entails.of_eq (outPts_bk (F := F) d L (m (oLoc d)))) $$ Hout
  ihave Hwp := (hcore (m (oLoc d)) (tok (cL L) (jL L)) (tok (cL L) (jL L)).left (tok (cL L) (jL L)).right O W hO (xq_le m hpre d) (xc_le m hpre d)
      (fun _ _ => rfl) f0 f1 f2 f3 f4 f5 f6 f7 f8 f9) $$ [HO Hq Hca Hcb Hb Hout' Hs0 Hs1 Hs2 Hs3 Hs4 Hs5 Hs6 Hs7 Hs8 Hs9 Hm10 Hm11 Hm12 Hm13 Hp0 Hp1 Hp2 Hp3 Hp4]
  · isplitr; · iexact Hlv
    isplitl [HO]; · iexact HO
    isplitl [Hq]; · iexact Hq
    isplitl [Hca]; · iexact Hca
    isplitl [Hcb]; · iexact Hcb
    isplitl [Hb]; · iexact Hb
    isplitl [Hout']; · iexact Hout'
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hm10]; · iexact Hm10
    isplitl [Hm11]; · iexact Hm11
    isplitl [Hm12]; · iexact Hm12
    isplitl [Hm13]; · iexact Hm13
    isplitl [Hp0]; · iexact Hp0
    isplitl [Hp1]; · iexact Hp1
    isplitl [Hp2]; · iexact Hp2
    isplitl [Hp3]; · iexact Hp3
    iexact Hp4
  iapply (wp_mono frame _ Set.univ fun _ => tile_post m d L O W (tok (cL L) (jL L)))
  iapply (wp_frame_r frame _ Set.univ)
  isplitl [Hwp]; · iexact Hwp
  isplitl [Hbufs]; · iexact Hbufs
  iexact Hsems

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task, from every tile's run. -/
theorem tileObl_of (hpre : PreOK m)
    (hcore : ∀ (d : Dev nD) (L : grid0.Coords), TileCore d L (Xq m d) (Xc m d) (Xb m d) (Go m d)) :
    (K (F := F)).TileObl (D (F := F)) 𝒱 (P m) v₀ 0 := by
  intro d c i O W hO _ _
  -- the kernel owes nothing for a protocol of its own
  simp only [show (P m).ox = fun _ _ => 0 from rfl, add_zero]
  rw [x_eq, go0_eq, td0_eq]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre (hcore d _) O W hO).trans (wp_mono frame _ _ fun _ => obl_post)

end Cert.Proof.KI

end
-- ==== Proof.KIOuterStmt.lean ====
import proofs.«215948_g88356067214102_cont_sun_c4_674_26_alg».proof.Proof.KISetup
import proofs.«215948_g88356067214102_cont_sun_c4_674_26_alg».proof.Proof.KIChunk
import proofs.«215948_g88356067214102_cont_sun_c4_674_26_alg».proof.Proof.KICore

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sQ0" => (Memref.whole Cert.KernelIdeal.cc0_scratch2 : Memref Cert.KernelIdeal.sig Kind.scVector Space.vmem Cert.KernelIdeal.S128 EltTy.i32)
local notation "sQ1" => (Memref.whole Cert.KernelIdeal.cc0_scratch3 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)
local notation "qV" => (Memref.whole Cert.KernelIdeal.main_v0_scv : Memref Cert.KernelIdeal.sig Kind.scVector Space.hbm Cert.KernelIdeal.S204800 EltTy.i32)
local notation "cVm" => (Memref.whole Cert.KernelIdeal.main_v1_scv : Memref Cert.KernelIdeal.sig Kind.scVector Space.hbm Cert.KernelIdeal.S25000x128 EltTy.i32)
local notation "bV" => (Memref.whole Cert.KernelIdeal.main_v2_scv : Memref Cert.KernelIdeal.sig Kind.scVector Space.hbm Cert.KernelIdeal.S64 EltTy.f32)
local notation "oV" => (Memref.whole Cert.KernelIdeal.main_v3_scv : Memref Cert.KernelIdeal.sig Kind.scVector Space.hbm Cert.KernelIdeal.S204800x128 EltTy.f32)

variable [FloatOps F]

/-! The chunk loop's three kinds of trip, as statements: what each is handed and what it hands on. -/

/-- Trip `k` of the chunk loop at \`k = 0\` (nothing written out yet): from the two gathers in flight to the next two. -/
def OuterFirst (d : Dev nD) (L : grid0.Coords) (xq : Buf (Elt F) (qLoc d)) (xc : Buf (Elt F) (cLoc d)) (xb : Buf (Elt F) (bLoc d)) (go : Buf (Elt F) (oLoc d))
    (qq qa qb : PosShare TreeShare) : Prop :=
  ∀ (m0 : Buf (Elt F) (oLoc d)) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (k : Fin k0_t3_loop.trips) (_hk0 : k.val = 0) (v2 : BitVec 32)
    (fI0 : Buf (Elt F) ((tth d L).loc cc0_scratch0)) (_hI0 : ChunkI xq L (2 * k.val) fI0)
    (fI1 : Buf (Elt F) ((tth d L).loc cc0_scratch1)) (_hI1 : ChunkI xq L (2 * k.val + 1) fI1)
    (fR : Buf (Elt F) ((tth d L).loc cc0_scratch9)) (fO0 : Buf (Elt F) ((tth d L).loc cc0_scratch6)) (fO1 : Buf (Elt F) ((tth d L).loc cc0_scratch7)),
    iprop(levAts (K (F := F)).L (K (F := F)).lev
        ∗ owes (tth d L) O W
        ∗ (qLoc d ↦{qq} xq)
        ∗ ((tth d L).loc cc0_scratch8 ↦{fullShare} xb)
        ∗ ((tth d L).loc cc0_scratch9 ↦{fullShare} fR)
        ∗ semVal (tth d L, .dma cc0_scoped3.sem) 0
        ∗ semVal (tth d L, .dma cc0_scoped4.sem) 0
        ∗ ((tth d L).loc cc0_scratch0 ↦{fullShare} fI0)
        ∗ ((tth d L).loc cc0_scratch1 ↦{fullShare} fI1)
        ∗ Transfers.Flight countersEmb (tth d L) (.dma cc0_scratch10.sem) (default : HIx 1) 524288 (GD0 d L xq xc (2 * k.val) qa)
        ∗ ((cVm).view.loc (tth d L) ↦[Finset.univ \ (cAll).view.set]{qa} xc)
        ∗ Transfers.Flight countersEmb (tth d L) (.dma cc0_scratch11.sem) (default : HIx 1) 524288 (GD1 d L xq xc (2 * k.val + 1) qb)
        ∗ ((cVm).view.loc (tth d L) ↦[Finset.univ \ (cAll).view.set]{qb} xc)
        ∗ ((tth d L).loc cc0_scratch6 ↦{fullShare} fO0)
        ∗ semVal (tth d L, .dma cc0_scratch12.sem) 0
        ∗ ((tth d L).loc cc0_scratch7 ↦{fullShare} fO1)
        ∗ semVal (tth d L, .dma cc0_scratch13.sem) 0
        ∗ (oLoc d ↦[blkSet (bk L (2 * k.val))]{fullShare} m0)
        ∗ (oLoc d ↦[blkSet (bk L (2 * k.val + 1))]{fullShare} m0))
      ⊢ (wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          fun _ => iprop((∃ W', ⌜∀ p ∈ W', p ∈ W ∨ p.2 = none⌝ ∗ owes (tth d L) O W')
            ∗ (qLoc d ↦{qq} xq)
            ∗ ((tth d L).loc cc0_scratch8 ↦{fullShare} xb)
            ∗ (∃ fR', (tth d L).loc cc0_scratch9 ↦{fullShare} fR')
            ∗ semVal (tth d L, .dma cc0_scoped3.sem) 0
            ∗ semVal (tth d L, .dma cc0_scoped4.sem) 0
            ∗ (∃ fI0', ((tth d L).loc cc0_scratch0 ↦{fullShare} fI0') ∗ ⌜ChunkI xq L (2 * (k.val + 1)) fI0'⌝)
            ∗ (∃ fI1', ((tth d L).loc cc0_scratch1 ↦{fullShare} fI1') ∗ ⌜ChunkI xq L (2 * (k.val + 1) + 1) fI1'⌝)
            ∗ Transfers.Flight countersEmb (tth d L) (.dma cc0_scratch10.sem) (default : HIx 1) 524288 (GD0 d L xq xc (2 * (k.val + 1)) qa)
            ∗ ((cVm).view.loc (tth d L) ↦[Finset.univ \ (cAll).view.set]{qa} xc)
            ∗ Transfers.Flight countersEmb (tth d L) (.dma cc0_scratch11.sem) (default : HIx 1) 524288 (GD1 d L xq xc (2 * (k.val + 1) + 1) qb)
            ∗ ((cVm).view.loc (tth d L) ↦[Finset.univ \ (cAll).view.set]{qb} xc)
            ∗ Transfers.Flight countersEmb (tth d L) (.dma cc0_scratch12.sem) (default : HIx 1) 524288 (OD0 d L go (2 * k.val))
            ∗ Transfers.Flight countersEmb (tth d L) (.dma cc0_scratch13.sem) (default : HIx 1) 524288 (OD1 d L go (2 * k.val + 1))) : sProp 𝕄)

/-- Trip `k` of the chunk loop for \`0 < k < 24\`: from the two gathers in flight and the two write-outs in flight to the next two. -/
def OuterMid (d : Dev nD) (L : grid0.Coords) (xq : Buf (Elt F) (qLoc d)) (xc : Buf (Elt F) (cLoc d)) (xb : Buf (Elt F) (bLoc d)) (go : Buf (Elt F) (oLoc d))
    (qq qa qb : PosShare TreeShare) : Prop :=
  ∀ (m0 : Buf (Elt F) (oLoc d)) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (k : Fin k0_t3_loop.trips) (_hk0 : 0 < k.val) (_hk24 : k.val < 24) (v2 : BitVec 32)
    (fI0 : Buf (Elt F) ((tth d L).loc cc0_scratch0)) (_hI0 : ChunkI xq L (2 * k.val) fI0)
    (fI1 : Buf (Elt F) ((tth d L).loc cc0_scratch1)) (_hI1 : ChunkI xq L (2 * k.val + 1) fI1)
    (fR : Buf (Elt F) ((tth d L).loc cc0_scratch9)),
    iprop(levAts (K (F := F)).L (K (F := F)).lev
        ∗ owes (tth d L) O W
        ∗ (qLoc d ↦{qq} xq)
        ∗ ((tth d L).loc cc0_scratch8 ↦{fullShare} xb)
        ∗ ((tth d L).loc cc0_scratch9 ↦{fullShare} fR)
        ∗ semVal (tth d L, .dma cc0_scoped3.sem) 0
        ∗ semVal (tth d L, .dma cc0_scoped4.sem) 0
        ∗ ((tth d L).loc cc0_scratch0 ↦{fullShare} fI0)
        ∗ ((tth d L).loc cc0_scratch1 ↦{fullShare} fI1)
        ∗ Transfers.Flight countersEmb (tth d L) (.dma cc0_scratch10.sem) (default : HIx 1) 524288 (GD0 d L xq xc (2 * k.val) qa)
        ∗ ((cVm).view.loc (tth d L) ↦[Finset.univ \ (cAll).view.set]{qa} xc)
        ∗ Transfers.Flight countersEmb (tth d L) (.dma cc0_scratch11.sem) (default : HIx 1) 524288 (GD1 d L xq xc (2 * k.val + 1) qb)
        ∗ ((cVm).view.loc (tth d L) ↦[Finset.univ \ (cAll).view.set]{qb} xc)
        ∗ Transfers.Flight countersEmb (tth d L) (.dma cc0_scratch12.sem) (default : HIx 1) 524288 (OD0 d L go (2 * k.val - 2))
        ∗ Transfers.Flight countersEmb (tth d L) (.dma cc0_scratch13.sem) (default : HIx 1) 524288 (OD1 d L go (2 * k.val - 1))
        ∗ (oLoc d ↦[blkSet (bk L (2 * k.val))]{fullShare} m0)
        ∗ (oLoc d ↦[blkSet (bk L (2 * k.val + 1))]{fullShare} m0))
      ⊢ (wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          fun _ => iprop((∃ W', ⌜∀ p ∈ W', p ∈ W ∨ p.2 = none⌝ ∗ owes (tth d L) O W')
            ∗ (qLoc d ↦{qq} xq)
            ∗ ((tth d L).loc cc0_scratch8 ↦{fullShare} xb)
            ∗ (∃ fR', (tth d L).loc cc0_scratch9 ↦{fullShare} fR')
            ∗ semVal (tth d L, .dma cc0_scoped3.sem) 0
            ∗ semVal (tth d L, .dma cc0_scoped4.sem) 0
            ∗ (∃ fI0', ((tth d L).loc cc0_scratch0 ↦{fullShare} fI0') ∗ ⌜ChunkI xq L (2 * (k.val + 1)) fI0'⌝)
            ∗ (∃ fI1', ((tth d L).loc cc0_scratch1 ↦{fullShare} fI1') ∗ ⌜ChunkI xq L (2 * (k.val + 1) + 1) fI1'⌝)
            ∗ Transfers.Flight countersEmb (tth d L) (.dma cc0_scratch10.sem) (default : HIx 1) 524288 (GD0 d L xq xc (2 * (k.val + 1)) qa)
            ∗ ((cVm).view.loc (tth d L) ↦[Finset.univ \ (cAll).view.set]{qa} xc)
            ∗ Transfers.Flight countersEmb (tth d L) (.dma cc0_scratch11.sem) (default : HIx 1) 524288 (GD1 d L xq xc (2 * (k.val + 1) + 1) qb)
            ∗ ((cVm).view.loc (tth d L) ↦[Finset.univ \ (cAll).view.set]{qb} xc)
            ∗ Transfers.Flight countersEmb (tth d L) (.dma cc0_scratch12.sem) (default : HIx 1) 524288 (OD0 d L go (2 * k.val))
            ∗ Transfers.Flight countersEmb (tth d L) (.dma cc0_scratch13.sem) (default : HIx 1) 524288 (OD1 d L go (2 * k.val + 1))
            ∗ (oLoc d ↦[blkSet (bk L (2 * k.val - 2))]{fullShare} go)
            ∗ (oLoc d ↦[blkSet (bk L (2 * k.val - 1))]{fullShare} go)) : sProp 𝕄)

/-- Trip `k` of the chunk loop at \`k = 24\` (no chunk left to fetch): from the two gathers in flight and the two write-outs in flight to the next two write-outs. -/
def OuterLast (d : Dev nD) (L : grid0.Coords) (xq : Buf (Elt F) (qLoc d)) (xc : Buf (Elt F) (cLoc d)) (xb : Buf (Elt F) (bLoc d)) (go : Buf (Elt F) (oLoc d))
    (qq qa qb : PosShare TreeShare) : Prop :=
  ∀ (m0 : Buf (Elt F) (oLoc d)) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (k : Fin k0_t3_loop.trips) (_hk24 : k.val = 24) (v2 : BitVec 32)
    (fI0 : Buf (Elt F) ((tth d L).loc cc0_scratch0)) (_hI0 : ChunkI xq L (2 * k.val) fI0)
    (fI1 : Buf (Elt F) ((tth d L).loc cc0_scratch1)) (_hI1 : ChunkI xq L (2 * k.val + 1) fI1)
    (fR : Buf (Elt F) ((tth d L).loc cc0_scratch9)),
    iprop(levAts (K (F := F)).L (K (F := F)).lev
        ∗ owes (tth d L) O W
        ∗ (qLoc d ↦{qq} xq)
        ∗ ((tth d L).loc cc0_scratch8 ↦{fullShare} xb)
        ∗ ((tth d L).loc cc0_scratch9 ↦{fullShare} fR)
        ∗ semVal (tth d L, .dma cc0_scoped3.sem) 0
        ∗ semVal (tth d L, .dma cc0_scoped4.sem) 0
        ∗ ((tth d L).loc cc0_scratch0 ↦{fullShare} fI0)
        ∗ ((tth d L).loc cc0_scratch1 ↦{fullShare} fI1)
        ∗ Transfers.Flight countersEmb (tth d L) (.dma cc0_scratch10.sem) (default : HIx 1) 524288 (GD0 d L xq xc (2 * k.val) qa)
        ∗ ((cVm).view.loc (tth d L) ↦[Finset.univ \ (cAll).view.set]{qa} xc)
        ∗ Transfers.Flight countersEmb (tth d L) (.dma cc0_scratch11.sem) (default : HIx 1) 524288 (GD1 d L xq xc (2 * k.val + 1) qb)
        ∗ ((cVm).view.loc (tth d L) ↦[Finset.univ \ (cAll).view.set]{qb} xc)
        ∗ Transfers.Flight countersEmb (tth d L) (.dma cc0_scratch12.sem) (default : HIx 1) 524288 (OD0 d L go (2 * k.val - 2))
        ∗ Transfers.Flight countersEmb (tth d L) (.dma cc0_scratch13.sem) (default : HIx 1) 524288 (OD1 d L go (2 * k.val - 1))
        ∗ (oLoc d ↦[blkSet (bk L (2 * k.val))]{fullShare} m0)
        ∗ (oLoc d ↦[blkSet (bk L (2 * k.val + 1))]{fullShare} m0))
      ⊢ (wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          fun _ => iprop((∃ W', ⌜∀ p ∈ W', p ∈ W ∨ p.2 = none⌝ ∗ owes (tth d L) O W')
            ∗ (qLoc d ↦{qq} xq)
            ∗ ((tth d L).loc cc0_scratch8 ↦{fullShare} xb)
            ∗ (∃ fR', (tth d L).loc cc0_scratch9 ↦{fullShare} fR')
            ∗ semVal (tth d L, .dma cc0_scoped3.sem) 0
            ∗ semVal (tth d L, .dma cc0_scoped4.sem) 0
            ∗ (∃ f, (tth d L).loc cc0_scratch0 ↦{fullShare} f)
            ∗ (∃ f, (tth d L).loc cc0_scratch1 ↦{fullShare} f)
            ∗ (∃ f, (tth d L).loc cc0_scratch2 ↦{fullShare} f)
            ∗ (∃ f, (tth d L).loc cc0_scratch3 ↦{fullShare} f)
            ∗ (∃ f, (tth d L).loc cc0_scratch4 ↦{fullShare} f)
            ∗ (∃ f, (tth d L).loc cc0_scratch5 ↦{fullShare} f)
            ∗ semVal (tth d L, .dma cc0_scratch10.sem) 0
            ∗ semVal (tth d L, .dma cc0_scratch11.sem) 0
            ∗ ((cVm).view.loc (tth d L) ↦{qa} xc)
            ∗ ((cVm).view.loc (tth d L) ↦{qb} xc)
            ∗ Transfers.Flight countersEmb (tth d L) (.dma cc0_scratch12.sem) (default : HIx 1) 524288 (OD0 d L go (2 * k.val))
            ∗ Transfers.Flight countersEmb (tth d L) (.dma cc0_scratch13.sem) (default : HIx 1) 524288 (OD1 d L go (2 * k.val + 1))
            ∗ (oLoc d ↦[blkSet (bk L (2 * k.val - 2))]{fullShare} go)
            ∗ (oLoc d ↦[blkSet (bk L (2 * k.val - 1))]{fullShare} go)) : sProp 𝕄)

end Cert.Proof.KI

end
-- ==== Proof.KIBlocks.lean ====
/-
  A tile's fifty blocks of the result through its loop.

  The tile writes its blocks two per trip of a 25-trip loop, and a block's write-out is only collected one
  trip later. So at the head of trip `k` the blocks fall in three runs: block `j` with `j + 2 < 2k` is written
  and back in hand at the decoded contents; blocks `2k - 2` and `2k - 1` (when `k ≥ 1`) are on their way out
  and in nobody's hand; block `j` with `2k ≤ j` is still in hand at what the launch memory held.

  A trip takes blocks `2k` and `2k + 1` out and, given back the two blocks of the trip before, is at the head
  of trip `k + 1`. Entry by entry: what trip `k` holds of block `j` is "the two it takes" times "the rest",
  and what trip `k + 1` holds is that same rest times "the two it is given"; a product over all fifty blocks of
  a product is the product of the products, and a product of fifty factors of which all but two are trivial
  is the product of those two.
-/
import proofs.«215948_g88356067214102_cont_sun_c4_674_26_alg».proof.Proof.KICore

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Products with trivial factors -/

section Products

variable {M : Type} [URA M]

/-- The trivial assertion is a unit of the product, on the left … -/
theorem emp_sep_eq (P : sProp M) : iprop(emp ∗ P) = P := Idealize.SL.BI.equiv_iff.mp Idealize.SL.BI.emp_sep
/-- … and on the right. -/
theorem sep_emp_eq (P : sProp M) : iprop(P ∗ emp) = P := Idealize.SL.BI.equiv_iff.mp Idealize.SL.BI.sep_emp

/-- A product whose factors off a set are trivial is the product over the set. -/
theorem bigSep_ite_eq {I : Type} (s : Finset I) (p : I → Prop) [DecidablePred p] (Φ : I → sProp M) :
    (bigSep s fun i => if p i then Φ i else iprop(emp)) = bigSep (s.filter p) Φ :=
  (Idealize.SL.BI.bigSep_filter s p Φ).symm

/-- A product over `Fin n` whose factors are trivial except at two places `a ≠ b` is the product of those two. -/
theorem bigSep_fin_pair {n : Nat} (a b : Nat) (ha : a < n) (hb : b < n) (hab : a ≠ b) (p : Fin n → Prop) [DecidablePred p]
    (hp : ∀ j, p j ↔ (j.val = a ∨ j.val = b)) (Φ : Nat → sProp M) :
    (bigSep Finset.univ fun j : Fin n => if p j then Φ j.val else iprop(emp)) = iprop(Φ a ∗ Φ b) := by
  rw [bigSep_ite_eq Finset.univ p fun j : Fin n => Φ j.val]
  have hs : Finset.univ.filter p = {(⟨a, ha⟩ : Fin n), ⟨b, hb⟩} := by
    ext j
    simp only [Finset.mem_filter, Finset.mem_univ, true_and, Finset.mem_insert, Finset.mem_singleton, Fin.ext_iff, hp]
  rw [hs, SparseCore.bigSep_insert' (by simp only [Finset.mem_singleton, Fin.ext_iff]; exact hab), bigSep_singleton]

/-- A product all of whose factors are trivial is trivial. -/
theorem bigSep_ite_none {I : Type} (s : Finset I) (p : I → Prop) [DecidablePred p] (hp : ∀ j, ¬p j) (Φ : I → sProp M) :
    (bigSep s fun j => if p j then Φ j else iprop(emp)) = iprop(emp) := by
  rw [bigSep_congr (Ψ := fun _ => iprop(emp)) fun j _ => if_neg (hp j)]
  exact bigSep_emp_const s

/-! ## The three runs, for any two families of block assertions -/

variable (A G : Nat → sProp M)

/-- What is in hand of block `j` at the head of trip `k`: `G j` once written and collected, `A j` while untouched,
    nothing while on its way out. -/
def res (k : Nat) (j : Fin 50) : sProp M :=
  if j.val + 2 < 2 * k then G j.val else if 2 * k ≤ j.val then A j.val else iprop(emp)

/-- The two blocks trip `k` takes. -/
def resT (k : Nat) (j : Fin 50) : sProp M := if j.val = 2 * k ∨ j.val = 2 * k + 1 then A j.val else iprop(emp)
/-- What trip `k` holds besides them. -/
def resR (k : Nat) (j : Fin 50) : sProp M := if j.val = 2 * k ∨ j.val = 2 * k + 1 then iprop(emp) else res A G k j
/-- The two blocks trip `k` is given back: those of the trip before. -/
def resE (k : Nat) (j : Fin 50) : sProp M := if j.val + 2 = 2 * k ∨ j.val + 1 = 2 * k then G j.val else iprop(emp)

theorem res_eq_take (k : Nat) (j : Fin 50) : res A G k j = iprop(resT A k j ∗ resR A G k j) := by
  have := j.isLt
  unfold resT resR res
  split_ifs <;> first | rfl | omega | simp only [emp_sep_eq, sep_emp_eq]

theorem res_succ_eq (k : Nat) (j : Fin 50) : res A G (k + 1) j = iprop(resR A G k j ∗ resE G k j) := by
  have := j.isLt
  unfold resR resE res
  split_ifs <;> first | rfl | omega | simp only [emp_sep_eq, sep_emp_eq]

theorem bigSep_resT (k : Nat) (hk : k < 25) : bigSep Finset.univ (resT A k) = iprop(A (2 * k) ∗ A (2 * k + 1)) :=
  bigSep_fin_pair (2 * k) (2 * k + 1) (by omega) (by omega) (by omega) (fun j : Fin 50 => j.val = 2 * k ∨ j.val = 2 * k + 1)
    (fun _ => Iff.rfl) A

theorem bigSep_resE (k : Nat) (hk : k < 25) :
    bigSep Finset.univ (resE G k) = (if 0 < k then iprop(G (2 * k - 2) ∗ G (2 * k - 1)) else iprop(emp)) := by
  by_cases hk0 : 0 < k
  · rw [if_pos hk0]
    exact bigSep_fin_pair (2 * k - 2) (2 * k - 1) (by omega) (by omega) (by omega)
      (fun j : Fin 50 => j.val + 2 = 2 * k ∨ j.val + 1 = 2 * k) (fun j => by constructor <;> intro h <;> omega) G
  · rw [if_neg hk0]
    exact bigSep_ite_none Finset.univ (fun j : Fin 50 => j.val + 2 = 2 * k ∨ j.val + 1 = 2 * k) (fun j => by omega)
      fun j : Fin 50 => G j.val

/-- At the head of the first trip every block is untouched. -/
theorem res_init : (bigSep Finset.univ fun j : Fin 50 => A j.val) ⊢ bigSep Finset.univ (res A G 0) := by
  refine Entails.of_eq (bigSep_congr fun j _ => ?_)
  unfold res
  rw [if_neg (by omega), if_pos (by omega)]

/-- A trip takes its two blocks out, and given back the two of the trip before is at the head of the next trip. -/
theorem res_take (k : Nat) (hk : k < 25) :
    bigSep Finset.univ (res A G k)
      ⊢ iprop(A (2 * k) ∗ A (2 * k + 1)
          ∗ ((if 0 < k then iprop(G (2 * k - 2) ∗ G (2 * k - 1)) else iprop(emp)) -∗ bigSep Finset.univ (res A G (k + 1)))) := by
  have e1 : bigSep Finset.univ (res A G k) = iprop((A (2 * k) ∗ A (2 * k + 1)) ∗ bigSep Finset.univ (resR A G k)) :=
    (bigSep_congr fun j _ => res_eq_take A G k j).trans
      ((bigSep_sep' Finset.univ (resT A k) (resR A G k)).trans
        (congrArg (fun X => iprop(X ∗ bigSep Finset.univ (resR A G k))) (bigSep_resT A k hk)))
  have e2 : bigSep Finset.univ (res A G (k + 1))
      = iprop(bigSep Finset.univ (resR A G k) ∗ (if 0 < k then iprop(G (2 * k - 2) ∗ G (2 * k - 1)) else iprop(emp))) :=
    (bigSep_congr fun j _ => res_succ_eq A G k j).trans
      ((bigSep_sep' Finset.univ (resR A G k) (resE G k)).trans
        (congrArg (fun X => iprop(bigSep Finset.univ (resR A G k) ∗ X)) (bigSep_resE G k hk)))
  rw [e1, e2]
  exact Laws.sep_assoc.1.trans (Laws.sep_mono_right (Laws.sep_mono_right (Laws.wand_intro .rfl)))

/-- After the last trip, with its two blocks collected, every block is written. -/
theorem res_final : iprop(bigSep Finset.univ (res A G 25) ∗ G 48 ∗ G 49) ⊢ bigSep Finset.univ fun j : Fin 50 => G j.val := by
  have h : ∀ j : Fin 50, G j.val = iprop(res A G 25 j ∗ (if j.val = 48 ∨ j.val = 49 then G j.val else iprop(emp))) := by
    intro j
    have := j.isLt
    unfold res
    split_ifs <;> first | rfl | omega | simp only [emp_sep_eq, sep_emp_eq]
  refine Entails.of_eq (Eq.symm ?_)
  exact (bigSep_congr fun j _ => h j).trans
    ((bigSep_sep' Finset.univ (res A G 25) fun j : Fin 50 => if j.val = 48 ∨ j.val = 49 then G j.val else iprop(emp)).trans
      (congrArg (fun X => iprop(bigSep Finset.univ (res A G 25) ∗ X))
        (bigSep_fin_pair 48 49 (by omega) (by omega) (by omega) (fun j : Fin 50 => j.val = 48 ∨ j.val = 49) (fun _ => Iff.rfl) G)))

end Products

/-! ## The tile's blocks -/

variable (d : Dev nD) (L : grid0.Coords) (go m0 : Buf (Elt F) (oLoc d))

/-- What the tile owns of block j at the head of trip k. -/
def blockRes (k : Nat) (j : Fin 50) : sProp 𝕄 :=
  if j.val + 2 < 2 * k then (oLoc d ↦[blkSet (bk L j.val)]{fullShare} go)
  else if 2 * k ≤ j.val then (oLoc d ↦[blkSet (bk L j.val)]{fullShare} m0)
  else iprop(emp)

theorem blocks_init :
    (bigSep Finset.univ fun j : Fin 50 => oLoc d ↦[blkSet (bk L j.val)]{fullShare} m0)
      ⊢ (bigSep Finset.univ (blockRes d L go m0 0) : sProp 𝕄) :=
  res_init (fun n => oLoc d ↦[blkSet (bk L n)]{fullShare} m0) (fun n => oLoc d ↦[blkSet (bk L n)]{fullShare} go)

theorem blocks_take (k : Nat) (hk : k < 25) :
    (bigSep Finset.univ (blockRes d L go m0 k) : sProp 𝕄)
      ⊢ iprop((oLoc d ↦[blkSet (bk L (2 * k))]{fullShare} m0) ∗ (oLoc d ↦[blkSet (bk L (2 * k + 1))]{fullShare} m0)
          ∗ ((if 0 < k then iprop((oLoc d ↦[blkSet (bk L (2 * k - 2))]{fullShare} go) ∗ (oLoc d ↦[blkSet (bk L (2 * k - 1))]{fullShare} go)) else iprop(emp))
              -∗ bigSep Finset.univ (blockRes d L go m0 (k + 1)))) :=
  res_take (fun n => oLoc d ↦[blkSet (bk L n)]{fullShare} m0) (fun n => oLoc d ↦[blkSet (bk L n)]{fullShare} go) k hk

theorem blocks_final :
    iprop((bigSep Finset.univ (blockRes d L go m0 25) : sProp 𝕄) ∗ (oLoc d ↦[blkSet (bk L 48)]{fullShare} go) ∗ (oLoc d ↦[blkSet (bk L 49)]{fullShare} go))
      ⊢ (bigSep Finset.univ fun j : Fin 50 => oLoc d ↦[blkSet (bk L j.val)]{fullShare} go) :=
  res_final (fun n => oLoc d ↦[blkSet (bk L n)]{fullShare} m0) (fun n => oLoc d ↦[blkSet (bk L n)]{fullShare} go)

end Cert.Proof.KI

end
-- ==== Proof.KIOuter.lean ====
import proofs.«215948_g88356067214102_cont_sun_c4_674_26_alg».proof.Proof.KIOuterStmt
import proofs.«215948_g88356067214102_cont_sun_c4_674_26_alg».proof.Proof.KIBlocks

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sQ0" => (Memref.whole Cert.KernelIdeal.cc0_scratch2 : Memref Cert.KernelIdeal.sig Kind.scVector Space.vmem Cert.KernelIdeal.S128 EltTy.i32)
local notation "sQ1" => (Memref.whole Cert.KernelIdeal.cc0_scratch3 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)
local notation "qV" => (Memref.whole Cert.KernelIdeal.main_v0_scv : Memref Cert.KernelIdeal.sig Kind.scVector Space.hbm Cert.KernelIdeal.S204800 EltTy.i32)
local notation "cVm" => (Memref.whole Cert.KernelIdeal.main_v1_scv : Memref Cert.KernelIdeal.sig Kind.scVector Space.hbm Cert.KernelIdeal.S25000x128 EltTy.i32)
local notation "bV" => (Memref.whole Cert.KernelIdeal.main_v2_scv : Memref Cert.KernelIdeal.sig Kind.scVector Space.hbm Cert.KernelIdeal.S64 EltTy.f32)
local notation "oV" => (Memref.whole Cert.KernelIdeal.main_v3_scv : Memref Cert.KernelIdeal.sig Kind.scVector Space.hbm Cert.KernelIdeal.S204800x128 EltTy.f32)

variable [FloatOps F]

/-! The chunk loop's invariant, and that each of the three kinds of trip carries it from one trip's head to the next. -/

/-- The chunk loop's invariant at the head of trip `k` (`0 ≤ k ≤ 25`). -/
def oInv (d : Dev nD) (L : grid0.Coords) (xq : Buf (Elt F) (qLoc d)) (xc : Buf (Elt F) (cLoc d)) (xb : Buf (Elt F) (bLoc d)) (go m0 : Buf (Elt F) (oLoc d))
    (qq qa qb : PosShare TreeShare) (O : CellTallies nD τ sig (HIx 1)) (W : Waits sig (HIx 1)) (k : Nat) (_ : PUnit) : sProp 𝕄 :=
  iprop((∃ W', ⌜∀ p ∈ W', p ∈ W ∨ p.2 = none⌝ ∗ owes (tth d L) O W')
    ∗ (qLoc d ↦{qq} xq) ∗ ((tth d L).loc cc0_scratch8 ↦{fullShare} xb) ∗ (∃ fR, (tth d L).loc cc0_scratch9 ↦{fullShare} fR)
    ∗ semVal (tth d L, .dma cc0_scoped3.sem) 0 ∗ semVal (tth d L, .dma cc0_scoped4.sem) 0
    ∗ (if k < 25 then
        iprop((∃ fI0, ((tth d L).loc cc0_scratch0 ↦{fullShare} fI0) ∗ ⌜ChunkI xq L (2 * k) fI0⌝)
          ∗ (∃ fI1, ((tth d L).loc cc0_scratch1 ↦{fullShare} fI1) ∗ ⌜ChunkI xq L (2 * k + 1) fI1⌝)
          ∗ Transfers.Flight countersEmb (tth d L) (.dma cc0_scratch10.sem) (default : HIx 1) 524288 (GD0 d L xq xc (2 * k) qa)
          ∗ ((cVm).view.loc (tth d L) ↦[Finset.univ \ (cAll).view.set]{qa} xc)
          ∗ Transfers.Flight countersEmb (tth d L) (.dma cc0_scratch11.sem) (default : HIx 1) 524288 (GD1 d L xq xc (2 * k + 1) qb)
          ∗ ((cVm).view.loc (tth d L) ↦[Finset.univ \ (cAll).view.set]{qb} xc))
      else
        iprop((∃ f, (tth d L).loc cc0_scratch0 ↦{fullShare} f)
          ∗ (∃ f, (tth d L).loc cc0_scratch1 ↦{fullShare} f)
          ∗ (∃ f, (tth d L).loc cc0_scratch2 ↦{fullShare} f)
          ∗ (∃ f, (tth d L).loc cc0_scratch3 ↦{fullShare} f)
          ∗ (∃ f, (tth d L).loc cc0_scratch4 ↦{fullShare} f)
          ∗ (∃ f, (tth d L).loc cc0_scratch5 ↦{fullShare} f)
          ∗ semVal (tth d L, .dma cc0_scratch10.sem) 0
          ∗ semVal (tth d L, .dma cc0_scratch11.sem) 0
          ∗ ((cVm).view.loc (tth d L) ↦{qa} xc)
          ∗ ((cVm).view.loc (tth d L) ↦{qb} xc)))
    ∗ (if 0 < k then
        iprop(Transfers.Flight countersEmb (tth d L) (.dma cc0_scratch12.sem) (default : HIx 1) 524288 (OD0 d L go (2 * k - 2))
          ∗ Transfers.Flight countersEmb (tth d L) (.dma cc0_scratch13.sem) (default : HIx 1) 524288 (OD1 d L go (2 * k - 1)))
      else
        iprop((∃ fO0, (tth d L).loc cc0_scratch6 ↦{fullShare} fO0)
          ∗ semVal (tth d L, .dma cc0_scratch12.sem) 0
          ∗ (∃ fO1, (tth d L).loc cc0_scratch7 ↦{fullShare} fO1)
          ∗ semVal (tth d L, .dma cc0_scratch13.sem) 0))
    ∗ bigSep Finset.univ (blockRes d L go m0 k))

/-- The invariant with the level facts beside it: what the loop carries from trip to trip. -/
def oInvL (d : Dev nD) (L : grid0.Coords) (xq : Buf (Elt F) (qLoc d)) (xc : Buf (Elt F) (cLoc d)) (xb : Buf (Elt F) (bLoc d)) (go m0 : Buf (Elt F) (oLoc d))
    (qq qa qb : PosShare TreeShare) (O : CellTallies nD τ sig (HIx 1)) (W : Waits sig (HIx 1)) (k : Nat) (u : PUnit) : sProp 𝕄 :=
  iprop(levAts (K (F := F)).L (K (F := F)).lev ∗ oInv d L xq xc xb go m0 qq qa qb O W k u)

variable (d : Dev nD) (L : grid0.Coords) (xq : Buf (Elt F) (qLoc d)) (xc : Buf (Elt F) (cLoc d)) (xb : Buf (Elt F) (bLoc d)) (go m0 : Buf (Elt F) (oLoc d))
  (qq qa qb : PosShare TreeShare) (O : CellTallies nD τ sig (HIx 1)) (W : Waits sig (HIx 1))

theorem oInv_eq (k : Nat) :
    oInv d L xq xc xb go m0 qq qa qb O W k ⟨⟩
      = iprop((∃ W', ⌜∀ p ∈ W', p ∈ W ∨ p.2 = none⌝ ∗ owes (tth d L) O W')
        ∗ (qLoc d ↦{qq} xq) ∗ ((tth d L).loc cc0_scratch8 ↦{fullShare} xb) ∗ (∃ fR, (tth d L).loc cc0_scratch9 ↦{fullShare} fR)
        ∗ semVal (tth d L, .dma cc0_scoped3.sem) 0 ∗ semVal (tth d L, .dma cc0_scoped4.sem) 0
        ∗ (if k < 25 then
            iprop((∃ fI0, ((tth d L).loc cc0_scratch0 ↦{fullShare} fI0) ∗ ⌜ChunkI xq L (2 * k) fI0⌝)
              ∗ (∃ fI1, ((tth d L).loc cc0_scratch1 ↦{fullShare} fI1) ∗ ⌜ChunkI xq L (2 * k + 1) fI1⌝)
              ∗ Transfers.Flight countersEmb (tth d L) (.dma cc0_scratch10.sem) (default : HIx 1) 524288 (GD0 d L xq xc (2 * k) qa)
              ∗ ((cVm).view.loc (tth d L) ↦[Finset.univ \ (cAll).view.set]{qa} xc)
              ∗ Transfers.Flight countersEmb (tth d L) (.dma cc0_scratch11.sem) (default : HIx 1) 524288 (GD1 d L xq xc (2 * k + 1) qb)
              ∗ ((cVm).view.loc (tth d L) ↦[Finset.univ \ (cAll).view.set]{qb} xc))
          else
            iprop((∃ f, (tth d L).loc cc0_scratch0 ↦{fullShare} f)
              ∗ (∃ f, (tth d L).loc cc0_scratch1 ↦{fullShare} f)
              ∗ (∃ f, (tth d L).loc cc0_scratch2 ↦{fullShare} f)
              ∗ (∃ f, (tth d L).loc cc0_scratch3 ↦{fullShare} f)
              ∗ (∃ f, (tth d L).loc cc0_scratch4 ↦{fullShare} f)
              ∗ (∃ f, (tth d L).loc cc0_scratch5 ↦{fullShare} f)
              ∗ semVal (tth d L, .dma cc0_scratch10.sem) 0
              ∗ semVal (tth d L, .dma cc0_scratch11.sem) 0
              ∗ ((cVm).view.loc (tth d L) ↦{qa} xc)
              ∗ ((cVm).view.loc (tth d L) ↦{qb} xc)))
        ∗ (if 0 < k then
            iprop(Transfers.Flight countersEmb (tth d L) (.dma cc0_scratch12.sem) (default : HIx 1) 524288 (OD0 d L go (2 * k - 2))
              ∗ Transfers.Flight countersEmb (tth d L) (.dma cc0_scratch13.sem) (default : HIx 1) 524288 (OD1 d L go (2 * k - 1)))
          else
            iprop((∃ fO0, (tth d L).loc cc0_scratch6 ↦{fullShare} fO0)
              ∗ semVal (tth d L, .dma cc0_scratch12.sem) 0
              ∗ (∃ fO1, (tth d L).loc cc0_scratch7 ↦{fullShare} fO1)
              ∗ semVal (tth d L, .dma cc0_scratch13.sem) 0))
        ∗ bigSep Finset.univ (blockRes d L go m0 k)) := rfl

/-- What a trip that fetches again leaves, with the blocks of the next trip's head, is the invariant there. -/
theorem oInv_succ_lt (k : Nat) (hk : k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ fI0', ((tth d L).loc cc0_scratch0 ↦{fullShare} fI0') ∗ ⌜ChunkI xq L (2 * (k + 1)) fI0'⌝)
        ∗ (∃ fI1', ((tth d L).loc cc0_scratch1 ↦{fullShare} fI1') ∗ ⌜ChunkI xq L (2 * (k + 1) + 1) fI1'⌝)
        ∗ Transfers.Flight countersEmb (tth d L) (.dma cc0_scratch10.sem) (default : HIx 1) 524288 (GD0 d L xq xc (2 * (k + 1)) qa)
        ∗ ((cVm).view.loc (tth d L) ↦[Finset.univ \ (cAll).view.set]{qa} xc)
        ∗ Transfers.Flight countersEmb (tth d L) (.dma cc0_scratch11.sem) (default : HIx 1) 524288 (GD1 d L xq xc (2 * (k + 1) + 1) qb)
        ∗ ((cVm).view.loc (tth d L) ↦[Finset.univ \ (cAll).view.set]{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1)))
        ∗ bigSep Finset.univ (blockRes d L go m0 (k + 1)))
      ⊢ oInv d L xq xc xb go m0 qq qa qb O W (k + 1) ⟨⟩ := by
  rw [oInv_eq, if_pos hk, if_pos (by omega : 0 < k + 1), show 2 * (k + 1) - 2 = 2 * k from by omega, show 2 * (k + 1) - 1 = 2 * k + 1 from by omega]
  iintro ⟨⟨⟨%W', %hW', HO⟩, Hq, Hs8, HR, Hp3, Hp4, HI0, HI1, F10, Ca, F11, Cb, F12, F13⟩, Hblk⟩
  isplitl [HO]
  · iexists W'; isplitr
    · ipureintro; exact fun p hp => (hW' p hp).elim (hW'' p) Or.inr
    · iexact HO
  isplitl [Hq]; · iexact Hq
  isplitl [Hs8]; · iexact Hs8
  isplitl [HR]; · iexact HR
  isplitl [Hp3]; · iexact Hp3
  isplitl [Hp4]; · iexact Hp4
  isplitl [HI0 HI1 F10 Ca F11 Cb]
  · isplitl [HI0]; · iexact HI0
    isplitl [HI1]; · iexact HI1
    isplitl [F10]; · iexact F10
    isplitl [Ca]; · iexact Ca
    isplitl [F11]; · iexact F11
    iexact Cb
  isplitl [F12 F13]
  · isplitl [F12]; · iexact F12
    iexact F13
  iexact Hblk

/-- What the last trip leaves, with the blocks after it, is the invariant after the loop. -/
theorem oInv_succ_last (k : Nat) (hk : ¬ k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ f, (tth d L).loc cc0_scratch0 ↦{fullShare} f)
        ∗ (∃ f, (tth d L).loc cc0_scratch1 ↦{fullShare} f)
        ∗ (∃ f, (tth d L).loc cc0_scratch2 ↦{fullShare} f)
        ∗ (∃ f, (tth d L).loc cc0_scratch3 ↦{fullShare} f)
        ∗ (∃ f, (tth d L).loc cc0_scratch4 ↦{fullShare} f)
        ∗ (∃ f, (tth d L).loc cc0_scratch5 ↦{fullShare} f)
        ∗ semVal (tth d L, .dma cc0_scratch10.sem) 0
        ∗ semVal (tth d L, .dma cc0_scratch11.sem) 0
        ∗ ((cVm).view.loc (tth d L) ↦{qa} xc)
        ∗ ((cVm).view.loc (tth d L) ↦{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1)))
        ∗ bigSep Finset.univ (blockRes d L go m0 (k + 1)))
      ⊢ oInv d L xq xc xb go m0 qq qa qb O W (k + 1) ⟨⟩ := by
  rw [oInv_eq, if_neg hk, if_pos (by omega : 0 < k + 1), show 2 * (k + 1) - 2 = 2 * k from by omega, show 2 * (k + 1) - 1 = 2 * k + 1 from by omega]
  iintro ⟨⟨⟨%W', %hW', HO⟩, Hq, Hs8, HR, Hp3, Hp4, E0, E1, E2, E3, E4, E5, Hm10, Hm11, HcA, HcB, F12, F13⟩, Hblk⟩
  isplitl [HO]
  · iexists W'; isplitr
    · ipureintro; exact fun p hp => (hW' p hp).elim (hW'' p) Or.inr
    · iexact HO
  isplitl [Hq]; · iexact Hq
  isplitl [Hs8]; · iexact Hs8
  isplitl [HR]; · iexact HR
  isplitl [Hp3]; · iexact Hp3
  isplitl [Hp4]; · iexact Hp4
  isplitl [E0 E1 E2 E3 E4 E5 Hm10 Hm11 HcA HcB]
  · isplitl [E0]; · iexact E0
    isplitl [E1]; · iexact E1
    isplitl [E2]; · iexact E2
    isplitl [E3]; · iexact E3
    isplitl [E4]; · iexact E4
    isplitl [E5]; · iexact E5
    isplitl [Hm10]; · iexact Hm10
    isplitl [Hm11]; · iexact Hm11
    isplitl [HcA]; · iexact HcA
    iexact HcB
  isplitl [F12 F13]
  · isplitl [F12]; · iexact F12
    iexact F13
  iexact Hblk

/-- The first trip's post, and nothing owed for the blocks: the invariant at the second trip's head. -/
theorem post_first (k : Nat) (hk : k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ fI0', ((tth d L).loc cc0_scratch0 ↦{fullShare} fI0') ∗ ⌜ChunkI xq L (2 * (k + 1)) fI0'⌝)
        ∗ (∃ fI1', ((tth d L).loc cc0_scratch1 ↦{fullShare} fI1') ∗ ⌜ChunkI xq L (2 * (k + 1) + 1) fI1'⌝)
        ∗ Transfers.Flight countersEmb (tth d L) (.dma cc0_scratch10.sem) (default : HIx 1) 524288 (GD0 d L xq xc (2 * (k + 1)) qa)
        ∗ ((cVm).view.loc (tth d L) ↦[Finset.univ \ (cAll).view.set]{qa} xc)
        ∗ Transfers.Flight countersEmb (tth d L) (.dma cc0_scratch11.sem) (default : HIx 1) 524288 (GD1 d L xq xc (2 * (k + 1) + 1) qb)
        ∗ ((cVm).view.loc (tth d L) ↦[Finset.univ \ (cAll).view.set]{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1)))
        ∗ (iprop(emp) -∗ bigSep Finset.univ (blockRes d L go m0 (k + 1))))
      ⊢ oInv d L xq xc xb go m0 qq qa qb O W (k + 1) ⟨⟩ := by
  iintro ⟨H, Hwand⟩
  iapply (oInv_succ_lt d L xq xc xb go m0 qq qa qb O W k hk W'' hW'')
  isplitl [H]; · iexact H
  iapply Hwand; iempintro

/-- A middle trip's post, its two returned blocks paying for the next head's blocks. -/
theorem post_mid (k : Nat) (hk : k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ fI0', ((tth d L).loc cc0_scratch0 ↦{fullShare} fI0') ∗ ⌜ChunkI xq L (2 * (k + 1)) fI0'⌝)
        ∗ (∃ fI1', ((tth d L).loc cc0_scratch1 ↦{fullShare} fI1') ∗ ⌜ChunkI xq L (2 * (k + 1) + 1) fI1'⌝)
        ∗ Transfers.Flight countersEmb (tth d L) (.dma cc0_scratch10.sem) (default : HIx 1) 524288 (GD0 d L xq xc (2 * (k + 1)) qa)
        ∗ ((cVm).view.loc (tth d L) ↦[Finset.univ \ (cAll).view.set]{qa} xc)
        ∗ Transfers.Flight countersEmb (tth d L) (.dma cc0_scratch11.sem) (default : HIx 1) 524288 (GD1 d L xq xc (2 * (k + 1) + 1) qb)
        ∗ ((cVm).view.loc (tth d L) ↦[Finset.univ \ (cAll).view.set]{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1))
        ∗ (oLoc d ↦[blkSet (bk L (2 * k - 2))]{fullShare} go)
        ∗ (oLoc d ↦[blkSet (bk L (2 * k - 1))]{fullShare} go))
        ∗ (iprop((oLoc d ↦[blkSet (bk L (2 * k - 2))]{fullShare} go) ∗ (oLoc d ↦[blkSet (bk L (2 * k - 1))]{fullShare} go)) -∗ bigSep Finset.univ (blockRes d L go m0 (k + 1))))
      ⊢ oInv d L xq xc xb go m0 qq qa qb O W (k + 1) ⟨⟩ := by
  iintro ⟨⟨HA, Hq, Hs8, HR, Hp3, Hp4, HI0, HI1, F10, Ca, F11, Cb, F12, F13, Hg0, Hg1⟩, Hwand⟩
  iapply (oInv_succ_lt d L xq xc xb go m0 qq qa qb O W k hk W'' hW'')
  isplitl [HA Hq Hs8 HR Hp3 Hp4 HI0 HI1 F10 Ca F11 Cb F12 F13]
  · isplitl [HA]; · iexact HA
    isplitl [Hq]; · iexact Hq
    isplitl [Hs8]; · iexact Hs8
    isplitl [HR]; · iexact HR
    isplitl [Hp3]; · iexact Hp3
    isplitl [Hp4]; · iexact Hp4
    isplitl [HI0]; · iexact HI0
    isplitl [HI1]; · iexact HI1
    isplitl [F10]; · iexact F10
    isplitl [Ca]; · iexact Ca
    isplitl [F11]; · iexact F11
    isplitl [Cb]; · iexact Cb
    isplitl [F12]; · iexact F12
    iexact F13
  iapply Hwand
  isplitl [Hg0]; · iexact Hg0
  iexact Hg1

/-- The last trip's post, its two returned blocks paying for the blocks after the loop. -/
theorem post_last (k : Nat) (hk : ¬ k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ f, (tth d L).loc cc0_scratch0 ↦{fullShare} f)
        ∗ (∃ f, (tth d L).loc cc0_scratch1 ↦{fullShare} f)
        ∗ (∃ f, (tth d L).loc cc0_scratch2 ↦{fullShare} f)
        ∗ (∃ f, (tth d L).loc cc0_scratch3 ↦{fullShare} f)
        ∗ (∃ f, (tth d L).loc cc0_scratch4 ↦{fullShare} f)
        ∗ (∃ f, (tth d L).loc cc0_scratch5 ↦{fullShare} f)
        ∗ semVal (tth d L, .dma cc0_scratch10.sem) 0
        ∗ semVal (tth d L, .dma cc0_scratch11.sem) 0
        ∗ ((cVm).view.loc (tth d L) ↦{qa} xc)
        ∗ ((cVm).view.loc (tth d L) ↦{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1))
        ∗ (oLoc d ↦[blkSet (bk L (2 * k - 2))]{fullShare} go)
        ∗ (oLoc d ↦[blkSet (bk L (2 * k - 1))]{fullShare} go))
        ∗ (iprop((oLoc d ↦[blkSet (bk L (2 * k - 2))]{fullShare} go) ∗ (oLoc d ↦[blkSet (bk L (2 * k - 1))]{fullShare} go)) -∗ bigSep Finset.univ (blockRes d L go m0 (k + 1))))
      ⊢ oInv d L xq xc xb go m0 qq qa qb O W (k + 1) ⟨⟩ := by
  iintro ⟨⟨HA, Hq, Hs8, HR, Hp3, Hp4, E0, E1, E2, E3, E4, E5, Hm10, Hm11, HcA, HcB, F12, F13, Hg0, Hg1⟩, Hwand⟩
  iapply (oInv_succ_last d L xq xc xb go m0 qq qa qb O W k hk W'' hW'')
  isplitl [HA Hq Hs8 HR Hp3 Hp4 E0 E1 E2 E3 E4 E5 Hm10 Hm11 HcA HcB F12 F13]
  · isplitl [HA]; · iexact HA
    isplitl [Hq]; · iexact Hq
    isplitl [Hs8]; · iexact Hs8
    isplitl [HR]; · iexact HR
    isplitl [Hp3]; · iexact Hp3
    isplitl [Hp4]; · iexact Hp4
    isplitl [E0]; · iexact E0
    isplitl [E1]; · iexact E1
    isplitl [E2]; · iexact E2
    isplitl [E3]; · iexact E3
    isplitl [E4]; · iexact E4
    isplitl [E5]; · iexact E5
    isplitl [Hm10]; · iexact Hm10
    isplitl [Hm11]; · iexact Hm11
    isplitl [HcA]; · iexact HcA
    isplitl [HcB]; · iexact HcB
    isplitl [F12]; · iexact F12
    iexact F13
  iapply Hwand
  isplitl [Hg0]; · iexact Hg0
  iexact Hg1

/-- A trip of the chunk loop carries the invariant from its head to the next trip's. -/
theorem outer_step (hO : ∀ g, O g none = 0) (hle : ∀ j, (xq j).toNat ≤ 99999) (hcl : ∀ j, (xc j).toNat ≤ 15)
    (hgo : ∀ R e, go (ix2 R e) = Cert.Decode.flatAt xq xc xb R e)
    (h1 : OuterFirst d L xq xc xb go qq qa qb) (h2 : OuterMid d L xq xc xb go qq qa qb) (h3 : OuterLast d L xq xc xb go qq qa qb)
    (v2 : BitVec 32) (k : Fin k0_t3_loop.trips) :
    iprop(levAts (K (F := F)).L (K (F := F)).lev ∗ oInv d L xq xc xb go m0 qq qa qb O W k.val ⟨⟩)
      ⊢ wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          (fun _ => oInv d L xq xc xb go m0 qq qa qb O W (k.val + 1) ⟨⟩) := by
  have hk25 : k.val < 25 := k.isLt
  have bt := blocks_take d L go m0 k.val hk25
  by_cases hk0 : k.val = 0
  · -- the first trip: nothing is on its way out yet
    have hn : ¬ 0 < k.val := by omega
    rw [if_neg hn] at bt
    rw [oInv_eq d L xq xc xb go m0 qq qa qb O W k.val, if_pos hk25, if_neg hn]
    iintro ⟨#Hlv, ⟨%W'', %hW'', HO⟩, Hq, Hs8, ⟨%fR, Hs9⟩, Hp3, Hp4, ⟨⟨%fI0, Hs0, %hI0⟩, ⟨%fI1, Hs1, %hI1⟩, F10, Ca, F11, Cb⟩, ⟨⟨%fO0, Hs6⟩, Hm12, ⟨%fO1, Hs7⟩, Hm13⟩, Hblk⟩
    ihave Hb := bt $$ Hblk
    icases Hb with ⟨Hb0, Hb1, Hwand⟩
    ihave Hwp := (h1 m0 O W'' hO hle hcl hgo k hk0 v2 fI0 hI0 fI1 hI1 fR fO0 fO1) $$ [HO Hq Hs8 Hs9 Hp3 Hp4 Hs0 Hs1 F10 Ca F11 Cb Hs6 Hm12 Hs7 Hm13 Hb0 Hb1]
    · isplitr; · iexact Hlv
      isplitl [HO]; · iexact HO
      isplitl [Hq]; · iexact Hq
      isplitl [Hs8]; · iexact Hs8
      isplitl [Hs9]; · iexact Hs9
      isplitl [Hp3]; · iexact Hp3
      isplitl [Hp4]; · iexact Hp4
      isplitl [Hs0]; · iexact Hs0
      isplitl [Hs1]; · iexact Hs1
      isplitl [F10]; · iexact F10
      isplitl [Ca]; · iexact Ca
      isplitl [F11]; · iexact F11
      isplitl [Cb]; · iexact Cb
      isplitl [Hs6]; · iexact Hs6
      isplitl [Hm12]; · iexact Hm12
      isplitl [Hs7]; · iexact Hs7
      isplitl [Hm13]; · iexact Hm13
      isplitl [Hb0]; · iexact Hb0
      iexact Hb1
    iapply (wp_mono frame _ Set.univ fun _ => post_first d L xq xc xb go m0 qq qa qb O W k.val (by omega) W'' hW'')
    iapply (wp_frame_r frame _ Set.univ)
    isplitl [Hwp]; · iexact Hwp
    iexact Hwand
  · have hp : 0 < k.val := by omega
    rw [if_pos hp] at bt
    rw [oInv_eq d L xq xc xb go m0 qq qa qb O W k.val, if_pos hk25, if_pos hp]
    iintro ⟨#Hlv, ⟨%W'', %hW'', HO⟩, Hq, Hs8, ⟨%fR, Hs9⟩, Hp3, Hp4, ⟨⟨%fI0, Hs0, %hI0⟩, ⟨%fI1, Hs1, %hI1⟩, F10, Ca, F11, Cb⟩, ⟨F12, F13⟩, Hblk⟩
    ihave Hb := bt $$ Hblk
    icases Hb with ⟨Hb0, Hb1, Hwand⟩
    by_cases hk24 : k.val = 24
    · -- the last trip: nothing left to fetch
      ihave Hwp := (h3 m0 O W'' hO hle hcl hgo k hk24 v2 fI0 hI0 fI1 hI1 fR) $$ [HO Hq Hs8 Hs9 Hp3 Hp4 Hs0 Hs1 F10 Ca F11 Cb F12 F13 Hb0 Hb1]
      · isplitr; · iexact Hlv
        isplitl [HO]; · iexact HO
        isplitl [Hq]; · iexact Hq
        isplitl [Hs8]; · iexact Hs8
        isplitl [Hs9]; · iexact Hs9
        isplitl [Hp3]; · iexact Hp3
        isplitl [Hp4]; · iexact Hp4
        isplitl [Hs0]; · iexact Hs0
        isplitl [Hs1]; · iexact Hs1
        isplitl [F10]; · iexact F10
        isplitl [Ca]; · iexact Ca
        isplitl [F11]; · iexact F11
        isplitl [Cb]; · iexact Cb
        isplitl [F12]; · iexact F12
        isplitl [F13]; · iexact F13
        isplitl [Hb0]; · iexact Hb0
        iexact Hb1
      iapply (wp_mono frame _ Set.univ fun _ => post_last d L xq xc xb go m0 qq qa qb O W k.val (by omega) W'' hW'')
      iapply (wp_frame_r frame _ Set.univ)
      isplitl [Hwp]; · iexact Hwp
      iexact Hwand
    · -- a middle trip
      ihave Hwp := (h2 m0 O W'' hO hle hcl hgo k hp (by omega) v2 fI0 hI0 fI1 hI1 fR) $$ [HO Hq Hs8 Hs9 Hp3 Hp4 Hs0 Hs1 F10 Ca F11 Cb F12 F13 Hb0 Hb1]
      · isplitr; · iexact Hlv
        isplitl [HO]; · iexact HO
        isplitl [Hq]; · iexact Hq
        isplitl [Hs8]; · iexact Hs8
        isplitl [Hs9]; · iexact Hs9
        isplitl [Hp3]; · iexact Hp3
        isplitl [Hp4]; · iexact Hp4
        isplitl [Hs0]; · iexact Hs0
        isplitl [Hs1]; · iexact Hs1
        isplitl [F10]; · iexact F10
        isplitl [Ca]; · iexact Ca
        isplitl [F11]; · iexact F11
        isplitl [Cb]; · iexact Cb
        isplitl [F12]; · iexact F12
        isplitl [F13]; · iexact F13
        isplitl [Hb0]; · iexact Hb0
        iexact Hb1
      iapply (wp_mono frame _ Set.univ fun _ => post_mid d L xq xc xb go m0 qq qa qb O W k.val (by omega) W'' hW'')
      iapply (wp_frame_r frame _ Set.univ)
      isplitl [Hwp]; · iexact Hwp
      iexact Hwand

/-- The same, the level facts carried along. -/
theorem outer_step' (hO : ∀ g, O g none = 0) (hle : ∀ j, (xq j).toNat ≤ 99999) (hcl : ∀ j, (xc j).toNat ≤ 15)
    (hgo : ∀ R e, go (ix2 R e) = Cert.Decode.flatAt xq xc xb R e)
    (h1 : OuterFirst d L xq xc xb go qq qa qb) (h2 : OuterMid d L xq xc xb go qq qa qb) (h3 : OuterLast d L xq xc xb go qq qa qb)
    (v2 : BitVec 32) (k : Fin k0_t3_loop.trips) :
    iprop(levAts (K (F := F)).L (K (F := F)).lev ∗ oInv d L xq xc xb go m0 qq qa qb O W k.val ⟨⟩)
      ⊢ wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          (fun _ => iprop(levAts (K (F := F)).L (K (F := F)).lev ∗ oInv d L xq xc xb go m0 qq qa qb O W (k.val + 1) ⟨⟩)) := by
  iintro ⟨#Hlv, H⟩
  iapply (wp_frame_l frame _ Set.univ)
  isplitr; · iexact Hlv
  iapply (outer_step d L xq xc xb go m0 qq qa qb O W hO hle hcl hgo h1 h2 h3 v2 k)
  isplitr; · iexact Hlv
  iexact H

/-- A trip of the chunk loop carries the loop's invariant, level facts and all, from its head to the next trip's. -/
theorem outer_stepL (hO : ∀ g, O g none = 0) (hle : ∀ j, (xq j).toNat ≤ 99999) (hcl : ∀ j, (xc j).toNat ≤ 15)
    (hgo : ∀ R e, go (ix2 R e) = Cert.Decode.flatAt xq xc xb R e)
    (h1 : OuterFirst d L xq xc xb go qq qa qb) (h2 : OuterMid d L xq xc xb go qq qa qb) (h3 : OuterLast d L xq xc xb go qq qa qb)
    (v2 : BitVec 32) (k : Fin k0_t3_loop.trips) :
    oInvL d L xq xc xb go m0 qq qa qb O W k.val ⟨⟩
      ⊢ wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          (fun _ => oInvL d L xq xc xb go m0 qq qa qb O W (k.val + 1) ⟨⟩) :=
  outer_step' d L xq xc xb go m0 qq qa qb O W hO hle hcl hgo h1 h2 h3 v2 k

end Cert.Proof.KI

end
-- ==== Proof.Words.lean ====
import Idealize.ShloMosaic.PureOps

/-! Word arithmetic for table positions.

The positions are computed with 32-bit integer operations (add, and, shift left,
arithmetic shift right). Every operand that occurs is small, so no addition wraps and
no shifted word has its sign bit set; the unsigned value of each result is then the
plain natural-number expression. The lemmas below state exactly that. -/

namespace Cert.Words
open Idealize.ShloMosaic

/-- a word below `2^31` has a clear sign bit -/
theorem msb_false_of_lt (x : BitVec 32) (hx : x.toNat < 2 ^ 31) : x.msb = false := by
  rw [BitVec.msb_eq_false_iff_two_mul_lt]; omega

/-- masking with `3` keeps the value modulo `4` -/
theorem andi3_toNat (w : BitVec 32) : (IntOp.andi w 3#32).toNat = w.toNat % 4 := by
  simp only [IntOp.andi, BitVec.toNat_and, BitVec.toNat_ofNat]
  have h : (3 % 2 ^ 32 : Nat) = 2 ^ 2 - 1 := by decide
  rw [h, Nat.and_two_pow_sub_one_eq_mod]

/-- a left shift by a literal amount below the width multiplies, modulo `2^32` -/
theorem shli_toNat (x : BitVec 32) (k : Nat) (hk : k < 32) :
    (IntOp.shli .vector x (BitVec.ofNat 32 k)).toNat = (x.toNat * 2 ^ k) % 2 ^ 32 := by
  have hk' : (BitVec.ofNat 32 k).toNat = k := by
    simp only [BitVec.toNat_ofNat]; omega
  simp only [IntOp.shli, hk', hk, if_true, BitVec.shiftLeft_eq', BitVec.toNat_shiftLeft,
    Nat.shiftLeft_eq]

/-- an arithmetic right shift of a word with clear sign bit, by a literal amount below
    the width, divides -/
theorem shrsi_toNat (x : BitVec 32) (hx : x.toNat < 2 ^ 31) (k : Nat) (hk : k < 32) :
    (IntOp.shrsi .vector x (BitVec.ofNat 32 k)).toNat = x.toNat / 2 ^ k := by
  have hk' : (BitVec.ofNat 32 k).toNat = k := by
    simp only [BitVec.toNat_ofNat]; omega
  simp only [IntOp.shrsi, hk', hk, if_true, BitVec.sshiftRight_eq',
    BitVec.sshiftRight_eq_of_msb_false (msb_false_of_lt x hx), BitVec.toNat_ushiftRight,
    Nat.shiftRight_eq_div_pow]

theorem ofNat_toNat_lt (r : Nat) (hr : r < 128) : (BitVec.ofNat 32 r).toNat = r := by
  simp only [BitVec.toNat_ofNat]; omega

/-- the row counter's step -/
theorem succ_word (r : Nat) (hr : r < 128) :
    IntOp.addi (BitVec.ofNat 32 r) 1#32 = BitVec.ofNat 32 (r + 1) := by
  simp only [IntOp.addi, BitVec.ofNat_add]

/-- the packed-table row: `w >> 2` (arithmetic shift), for a query word `0 ≤ w ≤ 99999` -/
theorem row_toNat (w : BitVec 32) (hw : w.toNat ≤ 99999) :
    (IntOp.shrsi .vector w 2#32).toNat = w.toNat / 4 := by
  have := shrsi_toNat w (by omega) 2 (by omega)
  simpa using this

theorem row_lt (w : BitVec 32) (hw : w.toNat ≤ 99999) :
    (IntOp.shrsi .vector w 2#32).toNat < 25000 := by
  rw [row_toNat w hw]; omega

/-- the flat centroid position: `(c << 2) + (lane & 3)`, for a code `c ≤ 15` -/
theorem pos_toNat (c : BitVec 32) (hc : c.toNat ≤ 15) (l : Fin 16) :
    (IntOp.addi (IntOp.shli .vector c 2#32) (IntOp.andi (BitVec.ofNat 32 l.val) 3#32)).toNat
      = 4 * c.toNat + l.val % 4 := by
  have h1 : (IntOp.shli .vector c 2#32).toNat = (c.toNat * 2 ^ 2) % 2 ^ 32 :=
    shli_toNat c 2 (by omega)
  have h2 := andi3_toNat (BitVec.ofNat 32 l.val)
  have hl : (BitVec.ofNat 32 l.val).toNat = l.val := ofNat_toNat_lt _ (by omega)
  rw [hl] at h2
  simp only [IntOp.addi, BitVec.toNat_add] at *
  rw [h1, h2]; omega

theorem pos_lt (c : BitVec 32) (hc : c.toNat ≤ 15) (l : Fin 16) :
    (IntOp.addi (IntOp.shli .vector c 2#32) (IntOp.andi (BitVec.ofNat 32 l.val) 3#32)).toNat
      < 64 := by
  rw [pos_toNat c hc l]; omega

/-- the packed-table column with the block offset given as a word `k = 4 t` -/
theorem col_toNat' (k : BitVec 32) (t : Nat) (ht : t < 8) (hk : k = BitVec.ofNat 32 (4 * t))
    (w : BitVec 32) (l : Fin 16) :
    (IntOp.addi (IntOp.shli .vector (IntOp.andi w 3#32) 5#32)
        (IntOp.addi k (IntOp.shrsi .vector (BitVec.ofNat 32 l.val) 2#32))).toNat
      = 32 * (w.toNat % 4) + 4 * t + l.val / 4 := by
  have h1 : (IntOp.shli .vector (IntOp.andi w 3#32) 5#32).toNat
      = ((IntOp.andi w 3#32).toNat * 2 ^ 5) % 2 ^ 32 := shli_toNat _ 5 (by omega)
  have h2 := andi3_toNat w
  have hl : (BitVec.ofNat 32 l.val).toNat = l.val := ofNat_toNat_lt _ (by omega)
  have h3 : (IntOp.shrsi .vector (BitVec.ofNat 32 l.val) 2#32).toNat
      = (BitVec.ofNat 32 l.val).toNat / 2 ^ 2 := shrsi_toNat _ (by omega) 2 (by omega)
  have h4 : k.toNat = 4 * t := by rw [hk]; exact ofNat_toNat_lt _ (by omega)
  rw [hl] at h3
  simp only [IntOp.addi, BitVec.toNat_add] at *
  rw [h1, h2, h3, h4]; omega

/-- the packed-table column: `((w & 3) << 5) + (4 t + (lane >> 2))` -/
theorem col_toNat (t : Nat) (ht : t < 8) (w : BitVec 32) (l : Fin 16) :
    (IntOp.addi (IntOp.shli .vector (IntOp.andi w 3#32) 5#32)
        (IntOp.addi (BitVec.ofNat 32 (4 * t))
          (IntOp.shrsi .vector (BitVec.ofNat 32 l.val) 2#32))).toNat
      = 32 * (w.toNat % 4) + 4 * t + l.val / 4 :=
  col_toNat' _ t ht rfl w l

theorem col_lt (t : Nat) (ht : t < 8) (w : BitVec 32) (l : Fin 16) :
    (IntOp.addi (IntOp.shli .vector (IntOp.andi w 3#32) 5#32)
        (IntOp.addi (BitVec.ofNat 32 (4 * t))
          (IntOp.shrsi .vector (BitVec.ofNat 32 l.val) 2#32))).toNat < 128 := by
  rw [col_toNat t ht w l]; omega

theorem col_lt' (k : BitVec 32) (t : Nat) (ht : t < 8) (hk : k = BitVec.ofNat 32 (4 * t))
    (w : BitVec 32) (l : Fin 16) :
    (IntOp.addi (IntOp.shli .vector (IntOp.andi w 3#32) 5#32)
        (IntOp.addi k (IntOp.shrsi .vector (BitVec.ofNat 32 l.val) 2#32))).toNat < 128 := by
  rw [col_toNat' k t ht hk w l]; omega

end Cert.Words
-- ==== Proof.KIRow.lean ====
/-
  One row of a decoded chunk.

  A tile holds a chunk of 128 query words `gI`, the 128 rows `gC` of the packed code table those words
  name (row `r` of `gC` is row `gI[r] / 4` of the packed table, every entry a code `≤ 15`) and the flat
  list `gB` of 64 centroid floats. Entry `e` of the decoded vector of query `r` of the chunk is

      gB[4 * gC[r, 32 (gI[r] % 4) + e / 4] + e % 4].

  It is produced sixteen entries at a time. Piece `t < 8` covers entries `16 t ‥ 16 t + 15`; lane `l` of
  the piece is entry `e = 16 t + l`, for which `e / 4 = 4 t + l / 4` and `e % 4 = l % 4`. So lane `l`
  reads the code at column `32 (gI[r] % 4) + 4 t + l / 4` of row `r`, and then the centroid float at
  position `4 code + l % 4`. The column is computed as `((w & 3) << 5) + (4 t + (l >> 2))` and the
  position as `(code << 2) + (l & 3)` in 32-bit words; no operand is large enough for a sum to wrap.

  This file states what each index vector holds lane by lane, that every index is inside the array it
  reads, and that each piece is the sixteen entries of the decoded row it should be.
-/
import Idealize.ShloMosaic.Lib.Pipeline.Value
import proofs.«215948_g88356067214102_cont_sun_c4_674_26_alg».proof.Proof.KISetup
import proofs.«215948_g88356067214102_cont_sun_c4_674_26_alg».proof.Proof.Words

noncomputable section

namespace Cert.Proof.KI

open Cert.KernelIdeal Cert.KernelIdeal.Gen Idealize.ShloMosaic Idealize.ShloMosaic.ValueIdx

variable {F : FTy → Type} [FloatOps F]

/-! ## The decoded row -/

/-- Entry `e` of the decoded vector of query `r` of a chunk. -/
def rowGAt (gI : Vec F S128 .i32) (gC : Vec F S128x128 .i32) (gB : Vec F S64 .f32) (r e : Fin 128) : Elt F .f32 :=
  gB (ix1 (Cert.Decode.bookPos (gC (ix2 r (Cert.Decode.packCol (gI (ix1 r)).toNat e))).toNat e))

/-- The decoded chunk, index by index. -/
def rowG (gI : Vec F S128 .i32) (gC : Vec F S128x128 .i32) (gB : Vec F S64 .f32) : S128x128.Idx → Elt F .f32 :=
  fun y => rowGAt gI gC gB (y 0) (y 1)

theorem rowG_ix2 (gI : Vec F S128 .i32) (gC : Vec F S128x128 .i32) (gB : Vec F S64 .f32) (r e : Fin 128) :
    rowG gI gC gB (ix2 r e) = rowGAt gI gC gB r e := rfl

/-! ## Lanes, and a gather read at a lane -/

/-- Every index of a sixteen-lane vector is the index of its lane. -/
theorem exists_lane (x : S16.Idx) : ∃ l : Fin 16, x = ix1 l := ⟨x 0, eq_ix1 (n := 16) x⟩

/-- A gather from a list, read at `x`: the list at the word the index vector holds at `x`. -/
theorem loadIdx1_eq {e : EltTy} {n : Nat} (f : Vec F ⟨1, ![n]⟩ e) (v : IVec S16 32)
    (h : ∀ a x, ((![v] : Fin 1 → IVec S16 32) a x).toNat < (⟨1, ![n]⟩ : Shape).size a) (x : S16.Idx) (p : Fin n)
    (hp : (v x).toNat = p.val) : loadIdx f ![v] h x = f (ix1 p) := by
  unfold loadIdx
  refine congrArg f (funext fun a => ?_)
  match a with
  | ⟨0, _⟩ => exact Fin.ext hp

/-- A gather from a table, read at `x`: the table at the row and column the two index vectors hold at `x`. -/
theorem loadIdx2_eq {e : EltTy} {n0 n1 : Nat} (f : Vec F ⟨2, ![n0, n1]⟩ e) (u v : IVec S16 32)
    (h : ∀ a x, ((![u, v] : Fin 2 → IVec S16 32) a x).toNat < (⟨2, ![n0, n1]⟩ : Shape).size a) (x : S16.Idx)
    (p : Fin n0) (q : Fin n1) (hp : (u x).toNat = p.val) (hq : (v x).toNat = q.val) :
    loadIdx f ![u, v] h x = f (ix2 p q) := by
  unfold loadIdx
  refine congrArg f (funext fun a => ?_)
  match a with
  | ⟨0, _⟩ => exact Fin.ext hp
  | ⟨1, _⟩ => exact Fin.ext hq

/-- A gather from an array of codes holds codes. -/
theorem loadIdx_le15 {s t : Shape} (f : Vec F s .i32) (hf : ∀ j, (f j).toNat ≤ 15) (idxs : Fin s.rank → IVec t 32)
    (h : ∀ a x, (idxs a x).toNat < s.size a) (x : t.Idx) : (loadIdx f idxs h x).toNat ≤ 15 := hf _

/-- A gather from the chunk's query words through an index vector whose every lane is `r` holds the
    query word `r` in every lane. -/
theorem loadIdx1_splat (f : Vec F S128 .i32) (r : Fin 128) (v59 : IVec S16 32) (h59 : ∀ x, v59 x = BitVec.ofNat 32 r.val)
    (h : ∀ a x, ((![v59] : Fin 1 → IVec S16 32) a x).toNat < S128.size a) (x : S16.Idx) :
    loadIdx f ![v59] h x = f (ix1 r) :=
  loadIdx1_eq f v59 h x r (by rw [h59 x]; exact Cert.Words.ofNat_toNat_lt r.val r.isLt)

/-- An index vector whose every lane is a row number `r < 128` is inside a 128-row array. -/
theorem splat_lt (r : Fin 128) (v59 : IVec S16 32) (h59 : ∀ x, v59 x = BitVec.ofNat 32 r.val) (x : S16.Idx) :
    (v59 x).toNat < 128 := by
  rw [h59 x, Cert.Words.ofNat_toNat_lt r.val r.isLt]; exact r.isLt

/-! ## The in-range conditions in general form -/

/-- One index vector into the 128 query words. -/
theorem chk_idx (v59 : IVec S16 32) (h59 : ∀ x, (v59 x).toNat < 128) :
    ∀ (a : Fin 1) (x : S16.Idx), ((![v59] : Fin 1 → IVec S16 32) a x).toNat < S128.size a := by
  intro a x
  match a with
  | ⟨0, _⟩ => exact h59 x

/-- A row vector and a column vector into the 128 × 128 codes. -/
theorem chk_col (v59 col : IVec S16 32) (h59 : ∀ x, (v59 x).toNat < 128) (hcol : ∀ x, (col x).toNat < 128) :
    ∀ (a : Fin 2) (x : S16.Idx), ((![v59, col] : Fin 2 → IVec S16 32) a x).toNat < S128x128.size a := by
  intro a x
  match a with
  | ⟨0, _⟩ => exact h59 x
  | ⟨1, _⟩ => exact hcol x

/-- One index vector into the 64 centroid floats. -/
theorem chk_pos (pos : IVec S16 32) (hpos : ∀ x, (pos x).toNat < 64) :
    ∀ (a : Fin 1) (x : S16.Idx), ((![pos] : Fin 1 → IVec S16 32) a x).toNat < S64.size a := by
  intro a x
  match a with
  | ⟨0, _⟩ => exact hpos x

/-! ## One piece, in general form -/

/-- Piece `t` of row `r`: if lane `l` of the column vector holds `32 (gI[r] % 4) + 4 t + l / 4` and lane
    `l` of the position vector is `(code << 2) + (l & 3)` of the code gathered at that column of row
    `r`, then lane `l` of the floats gathered at the positions is entry `16 t + l` of the decoded row. -/
theorem piece_generic (gI : Vec F S128 .i32) (gC : Vec F S128x128 .i32) (gB : Vec F S64 .f32) (r : Fin 128)
    (t : Nat) (ht : t < 8) (v59 col pos : IVec S16 32)
    (h59 : ∀ x, v59 x = BitVec.ofNat 32 r.val) (hC : ∀ j, (gC j).toNat ≤ 15)
    (h2 : ∀ a x, ((![v59, col] : Fin 2 → IVec S16 32) a x).toNat < S128x128.size a)
    (h3 : ∀ a x, ((![pos] : Fin 1 → IVec S16 32) a x).toNat < S64.size a)
    (hcol : ∀ l : Fin 16, (col (ix1 l)).toNat = 32 * ((gI (ix1 r)).toNat % 4) + 4 * t + l.val / 4)
    (hpos : ∀ l : Fin 16, pos (ix1 l)
      = IntOp.addi (IntOp.shli .vector (loadIdx gC ![v59, col] h2 (ix1 l)) 2#32) (IntOp.andi (BitVec.ofNat 32 l.val) 3#32))
    (l : Fin 16) (he : 16 * t + l.val < 128) :
    loadIdx gB ![pos] h3 (ix1 l) = rowGAt gI gC gB r ⟨16 * t + l.val, he⟩ := by
  have hl := l.isLt
  -- the code this lane reads: column 32 (w % 4) + (16 t + l) / 4 of row r
  have hc : loadIdx gC ![v59, col] h2 (ix1 l)
      = gC (ix2 r (Cert.Decode.packCol (gI (ix1 r)).toNat ⟨16 * t + l.val, he⟩)) :=
    loadIdx2_eq gC v59 col h2 (ix1 l) r _ (by rw [h59]; exact Cert.Words.ofNat_toNat_lt r.val r.isLt)
      (by rw [hcol l]
          show _ = 32 * ((gI (ix1 r)).toNat % 4) + (16 * t + l.val) / 4
          omega)
  have hle : (loadIdx gC ![v59, col] h2 (ix1 l)).toNat ≤ 15 := loadIdx_le15 gC hC _ h2 _
  unfold rowGAt
  rw [← hc]
  -- the float this lane reads: position 4 code + (16 t + l) % 4, below 64
  refine loadIdx1_eq gB pos h3 (ix1 l) _ ?_
  rw [hpos l, Cert.Words.pos_toNat _ hle l]
  show _ = min (4 * (loadIdx gC ![v59, col] h2 (ix1 l)).toNat + (16 * t + l.val) % 4) 63
  omega

/-! ## The index vectors lane by lane -/

/-- Lane `l` of the shifted lane numbers: `l >> 2`. -/
theorem laneQuarter_apply (l : Fin 16) : k0_pay1 (ix1 l) = IntOp.shrsi .vector (BitVec.ofNat 32 l.val) 2#32 := by
  show IntOp.shrsi .vector (BitVec.ofNat 32 (0 * 16 + l.val)) 2#32 = _
  rw [Nat.zero_mul, Nat.zero_add]

/-- Lane `l` of the masked lane numbers: `l & 3`. -/
theorem laneRem_apply (l : Fin 16) : k0_pay2 (ix1 l) = IntOp.andi (BitVec.ofNat 32 l.val) 3#32 := by
  show IntOp.andi (BitVec.ofNat 32 (0 * 16 + l.val)) 3#32 = _
  rw [Nat.zero_mul, Nat.zero_add]

/-- The column vector of piece 0, lane `l`: `32 (w % 4) + 0 + l / 4` for the query word `w` in that lane. -/
theorem col0_toNat (v60 : Vec F S16 .i32) (l : Fin 16) :
    ((k0_pay4 v60) (ix1 l)).toNat = 32 * ((v60 (ix1 l)).toNat % 4) + 4 * 0 + l.val / 4 := by
  show (IntOp.addi (IntOp.shli .vector (IntOp.andi (v60 (ix1 l)) 3#32) 5#32) (IntOp.addi 0#32 (k0_pay1 (ix1 l)))).toNat = _
  rw [laneQuarter_apply]
  exact Cert.Words.col_toNat' 0#32 0 (by omega) rfl (v60 (ix1 l)) l

theorem col0_lt (v60 : Vec F S16 .i32) (x : S16.Idx) : ((k0_pay4 v60) x).toNat < 128 := by
  obtain ⟨l, rfl⟩ := exists_lane x
  rw [col0_toNat]
  have := l.isLt
  omega

/-- The column vector of piece 1, lane `l`: `32 (w % 4) + 4 + l / 4` for the query word `w` in that lane. -/
theorem col1_toNat (v60 : Vec F S16 .i32) (l : Fin 16) :
    ((k0_pay5 v60) (ix1 l)).toNat = 32 * ((v60 (ix1 l)).toNat % 4) + 4 * 1 + l.val / 4 := by
  show (IntOp.addi (IntOp.shli .vector (IntOp.andi (v60 (ix1 l)) 3#32) 5#32) (IntOp.addi 4#32 (k0_pay1 (ix1 l)))).toNat = _
  rw [laneQuarter_apply]
  exact Cert.Words.col_toNat' 4#32 1 (by omega) rfl (v60 (ix1 l)) l

theorem col1_lt (v60 : Vec F S16 .i32) (x : S16.Idx) : ((k0_pay5 v60) x).toNat < 128 := by
  obtain ⟨l, rfl⟩ := exists_lane x
  rw [col1_toNat]
  have := l.isLt
  omega

/-- The column vector of piece 2, lane `l`: `32 (w % 4) + 8 + l / 4` for the query word `w` in that lane. -/
theorem col2_toNat (v60 : Vec F S16 .i32) (l : Fin 16) :
    ((k0_pay6 v60) (ix1 l)).toNat = 32 * ((v60 (ix1 l)).toNat % 4) + 4 * 2 + l.val / 4 := by
  show (IntOp.addi (IntOp.shli .vector (IntOp.andi (v60 (ix1 l)) 3#32) 5#32) (IntOp.addi 8#32 (k0_pay1 (ix1 l)))).toNat = _
  rw [laneQuarter_apply]
  exact Cert.Words.col_toNat' 8#32 2 (by omega) rfl (v60 (ix1 l)) l

theorem col2_lt (v60 : Vec F S16 .i32) (x : S16.Idx) : ((k0_pay6 v60) x).toNat < 128 := by
  obtain ⟨l, rfl⟩ := exists_lane x
  rw [col2_toNat]
  have := l.isLt
  omega

/-- The column vector of piece 3, lane `l`: `32 (w % 4) + 12 + l / 4` for the query word `w` in that lane. -/
theorem col3_toNat (v60 : Vec F S16 .i32) (l : Fin 16) :
    ((k0_pay7 v60) (ix1 l)).toNat = 32 * ((v60 (ix1 l)).toNat % 4) + 4 * 3 + l.val / 4 := by
  show (IntOp.addi (IntOp.shli .vector (IntOp.andi (v60 (ix1 l)) 3#32) 5#32) (IntOp.addi 12#32 (k0_pay1 (ix1 l)))).toNat = _
  rw [laneQuarter_apply]
  exact Cert.Words.col_toNat' 12#32 3 (by omega) rfl (v60 (ix1 l)) l

theorem col3_lt (v60 : Vec F S16 .i32) (x : S16.Idx) : ((k0_pay7 v60) x).toNat < 128 := by
  obtain ⟨l, rfl⟩ := exists_lane x
  rw [col3_toNat]
  have := l.isLt
  omega

/-- The column vector of piece 4, lane `l`: `32 (w % 4) + 16 + l / 4` for the query word `w` in that lane. -/
theorem col4_toNat (v60 : Vec F S16 .i32) (l : Fin 16) :
    ((k0_pay8 v60) (ix1 l)).toNat = 32 * ((v60 (ix1 l)).toNat % 4) + 4 * 4 + l.val / 4 := by
  show (IntOp.addi (IntOp.shli .vector (IntOp.andi (v60 (ix1 l)) 3#32) 5#32) (IntOp.addi 16#32 (k0_pay1 (ix1 l)))).toNat = _
  rw [laneQuarter_apply]
  exact Cert.Words.col_toNat' 16#32 4 (by omega) rfl (v60 (ix1 l)) l

theorem col4_lt (v60 : Vec F S16 .i32) (x : S16.Idx) : ((k0_pay8 v60) x).toNat < 128 := by
  obtain ⟨l, rfl⟩ := exists_lane x
  rw [col4_toNat]
  have := l.isLt
  omega

/-- The column vector of piece 5, lane `l`: `32 (w % 4) + 20 + l / 4` for the query word `w` in that lane. -/
theorem col5_toNat (v60 : Vec F S16 .i32) (l : Fin 16) :
    ((k0_pay9 v60) (ix1 l)).toNat = 32 * ((v60 (ix1 l)).toNat % 4) + 4 * 5 + l.val / 4 := by
  show (IntOp.addi (IntOp.shli .vector (IntOp.andi (v60 (ix1 l)) 3#32) 5#32) (IntOp.addi 20#32 (k0_pay1 (ix1 l)))).toNat = _
  rw [laneQuarter_apply]
  exact Cert.Words.col_toNat' 20#32 5 (by omega) rfl (v60 (ix1 l)) l

theorem col5_lt (v60 : Vec F S16 .i32) (x : S16.Idx) : ((k0_pay9 v60) x).toNat < 128 := by
  obtain ⟨l, rfl⟩ := exists_lane x
  rw [col5_toNat]
  have := l.isLt
  omega

/-- The column vector of piece 6, lane `l`: `32 (w % 4) + 24 + l / 4` for the query word `w` in that lane. -/
theorem col6_toNat (v60 : Vec F S16 .i32) (l : Fin 16) :
    ((k0_pay11 k0_pay1 (k0_pay3 v60) k0_pay10) (ix1 l)).toNat = 32 * ((v60 (ix1 l)).toNat % 4) + 4 * 6 + l.val / 4 := by
  show (IntOp.addi (IntOp.shli .vector (IntOp.andi (v60 (ix1 l)) 3#32) 5#32) (IntOp.addi 24#32 (k0_pay1 (ix1 l)))).toNat = _
  rw [laneQuarter_apply]
  exact Cert.Words.col_toNat' 24#32 6 (by omega) rfl (v60 (ix1 l)) l

theorem col6_lt (v60 : Vec F S16 .i32) (x : S16.Idx) : ((k0_pay11 k0_pay1 (k0_pay3 v60) k0_pay10) x).toNat < 128 := by
  obtain ⟨l, rfl⟩ := exists_lane x
  rw [col6_toNat]
  have := l.isLt
  omega

/-- The column vector of piece 7, lane `l`: `32 (w % 4) + 28 + l / 4` for the query word `w` in that lane. -/
theorem col7_toNat (v60 : Vec F S16 .i32) (l : Fin 16) :
    ((k0_pay12 k0_pay1 (k0_pay3 v60)) (ix1 l)).toNat = 32 * ((v60 (ix1 l)).toNat % 4) + 4 * 7 + l.val / 4 := by
  show (IntOp.addi (IntOp.shli .vector (IntOp.andi (v60 (ix1 l)) 3#32) 5#32) (IntOp.addi 28#32 (k0_pay1 (ix1 l)))).toNat = _
  rw [laneQuarter_apply]
  exact Cert.Words.col_toNat' 28#32 7 (by omega) rfl (v60 (ix1 l)) l

theorem col7_lt (v60 : Vec F S16 .i32) (x : S16.Idx) : ((k0_pay12 k0_pay1 (k0_pay3 v60)) x).toNat < 128 := by
  obtain ⟨l, rfl⟩ := exists_lane x
  rw [col7_toNat]
  have := l.isLt
  omega

/-- The position vector of piece 0, lane `l`: `(code << 2) + (l & 3)` for the code in that lane. -/
theorem pos0_apply (v68 : Vec F S16 .i32) (l : Fin 16) :
    k0_pay13 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos0_lt (v68 : Vec F S16 .i32) (h : ∀ x, (v68 x).toNat ≤ 15) (x : S16.Idx) : (k0_pay13 k0_pay2 v68 x).toNat < 64 := by
  obtain ⟨l, rfl⟩ := exists_lane x
  rw [pos0_apply]
  exact Cert.Words.pos_lt _ (h _) l

/-- The position vector of piece 1, lane `l`: `(code << 2) + (l & 3)` for the code in that lane. -/
theorem pos1_apply (v68 : Vec F S16 .i32) (l : Fin 16) :
    k0_pay14 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos1_lt (v68 : Vec F S16 .i32) (h : ∀ x, (v68 x).toNat ≤ 15) (x : S16.Idx) : (k0_pay14 k0_pay2 v68 x).toNat < 64 := by
  obtain ⟨l, rfl⟩ := exists_lane x
  rw [pos1_apply]
  exact Cert.Words.pos_lt _ (h _) l

/-- The position vector of piece 2, lane `l`: `(code << 2) + (l & 3)` for the code in that lane. -/
theorem pos2_apply (v68 : Vec F S16 .i32) (l : Fin 16) :
    k0_pay15 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos2_lt (v68 : Vec F S16 .i32) (h : ∀ x, (v68 x).toNat ≤ 15) (x : S16.Idx) : (k0_pay15 k0_pay2 v68 x).toNat < 64 := by
  obtain ⟨l, rfl⟩ := exists_lane x
  rw [pos2_apply]
  exact Cert.Words.pos_lt _ (h _) l

/-- The position vector of piece 3, lane `l`: `(code << 2) + (l & 3)` for the code in that lane. -/
theorem pos3_apply (v68 : Vec F S16 .i32) (l : Fin 16) :
    k0_pay16 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos3_lt (v68 : Vec F S16 .i32) (h : ∀ x, (v68 x).toNat ≤ 15) (x : S16.Idx) : (k0_pay16 k0_pay2 v68 x).toNat < 64 := by
  obtain ⟨l, rfl⟩ := exists_lane x
  rw [pos3_apply]
  exact Cert.Words.pos_lt _ (h _) l

/-- The position vector of piece 4, lane `l`: `(code << 2) + (l & 3)` for the code in that lane. -/
theorem pos4_apply (v68 : Vec F S16 .i32) (l : Fin 16) :
    k0_pay17 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos4_lt (v68 : Vec F S16 .i32) (h : ∀ x, (v68 x).toNat ≤ 15) (x : S16.Idx) : (k0_pay17 k0_pay2 v68 x).toNat < 64 := by
  obtain ⟨l, rfl⟩ := exists_lane x
  rw [pos4_apply]
  exact Cert.Words.pos_lt _ (h _) l

/-- The position vector of piece 5, lane `l`: `(code << 2) + (l & 3)` for the code in that lane. -/
theorem pos5_apply (v68 : Vec F S16 .i32) (l : Fin 16) :
    k0_pay18 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos5_lt (v68 : Vec F S16 .i32) (h : ∀ x, (v68 x).toNat ≤ 15) (x : S16.Idx) : (k0_pay18 k0_pay2 v68 x).toNat < 64 := by
  obtain ⟨l, rfl⟩ := exists_lane x
  rw [pos5_apply]
  exact Cert.Words.pos_lt _ (h _) l

/-- The position vector of piece 6, lane `l`: `(code << 2) + (l & 3)` for the code in that lane. -/
theorem pos6_apply (v68 : Vec F S16 .i32) (l : Fin 16) :
    k0_pay19 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos6_lt (v68 : Vec F S16 .i32) (h : ∀ x, (v68 x).toNat ≤ 15) (x : S16.Idx) : (k0_pay19 k0_pay2 v68 x).toNat < 64 := by
  obtain ⟨l, rfl⟩ := exists_lane x
  rw [pos6_apply]
  exact Cert.Words.pos_lt _ (h _) l

/-- The position vector of piece 7, lane `l`: `(code << 2) + (l & 3)` for the code in that lane. -/
theorem pos7_apply (v68 : Vec F S16 .i32) (l : Fin 16) :
    k0_pay20 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos7_lt (v68 : Vec F S16 .i32) (h : ∀ x, (v68 x).toNat ≤ 15) (x : S16.Idx) : (k0_pay20 k0_pay2 v68 x).toNat < 64 := by
  obtain ⟨l, rfl⟩ := exists_lane x
  rw [pos7_apply]
  exact Cert.Words.pos_lt _ (h _) l

/-! ## Every index is inside the array it reads -/

theorem chk1_of (v59 : IVec S16 32) (h : ∀ x, (v59 x).toNat < 128) : k0_chk1 v59 := chk_idx v59 h
theorem chk2_of (v59 : IVec S16 32) (v60 : Vec F S16 .i32) (h : ∀ x, (v59 x).toNat < 128) :
    k0_chk2 v59 (k0_pay4 v60) := chk_col v59 _ h (col0_lt v60)
theorem chk3_of (v59 : IVec S16 32) (v60 : Vec F S16 .i32) (h : ∀ x, (v59 x).toNat < 128) :
    k0_chk3 v59 (k0_pay5 v60) := chk_col v59 _ h (col1_lt v60)
theorem chk4_of (v59 : IVec S16 32) (v60 : Vec F S16 .i32) (h : ∀ x, (v59 x).toNat < 128) :
    k0_chk4 v59 (k0_pay6 v60) := chk_col v59 _ h (col2_lt v60)
theorem chk5_of (v59 : IVec S16 32) (v60 : Vec F S16 .i32) (h : ∀ x, (v59 x).toNat < 128) :
    k0_chk5 v59 (k0_pay7 v60) := chk_col v59 _ h (col3_lt v60)
theorem chk6_of (v59 : IVec S16 32) (v60 : Vec F S16 .i32) (h : ∀ x, (v59 x).toNat < 128) :
    k0_chk6 v59 (k0_pay8 v60) := chk_col v59 _ h (col4_lt v60)
theorem chk7_of (v59 : IVec S16 32) (v60 : Vec F S16 .i32) (h : ∀ x, (v59 x).toNat < 128) :
    k0_chk7 v59 (k0_pay9 v60) := chk_col v59 _ h (col5_lt v60)
theorem chk8_of (v59 : IVec S16 32) (v60 : Vec F S16 .i32) (h : ∀ x, (v59 x).toNat < 128) :
    k0_chk8 v59 (k0_pay11 k0_pay1 (k0_pay3 v60) k0_pay10) := chk_col v59 _ h (col6_lt v60)
theorem chk9_of (v59 : IVec S16 32) (v60 : Vec F S16 .i32) (h : ∀ x, (v59 x).toNat < 128) :
    k0_chk9 v59 (k0_pay12 k0_pay1 (k0_pay3 v60)) := chk_col v59 _ h (col7_lt v60)
theorem chk10_of (v68 : Vec F S16 .i32) (h : ∀ x, (v68 x).toNat ≤ 15) :
    k0_chk10 (k0_pay13 k0_pay2 v68) := chk_pos _ (pos0_lt v68 h)
theorem chk11_of (v68 : Vec F S16 .i32) (h : ∀ x, (v68 x).toNat ≤ 15) :
    k0_chk11 (k0_pay14 k0_pay2 v68) := chk_pos _ (pos1_lt v68 h)
theorem chk12_of (v68 : Vec F S16 .i32) (h : ∀ x, (v68 x).toNat ≤ 15) :
    k0_chk12 (k0_pay15 k0_pay2 v68) := chk_pos _ (pos2_lt v68 h)
theorem chk13_of (v68 : Vec F S16 .i32) (h : ∀ x, (v68 x).toNat ≤ 15) :
    k0_chk13 (k0_pay16 k0_pay2 v68) := chk_pos _ (pos3_lt v68 h)
theorem chk14_of (v68 : Vec F S16 .i32) (h : ∀ x, (v68 x).toNat ≤ 15) :
    k0_chk14 (k0_pay17 k0_pay2 v68) := chk_pos _ (pos4_lt v68 h)
theorem chk15_of (v68 : Vec F S16 .i32) (h : ∀ x, (v68 x).toNat ≤ 15) :
    k0_chk15 (k0_pay18 k0_pay2 v68) := chk_pos _ (pos5_lt v68 h)
theorem chk16_of (v68 : Vec F S16 .i32) (h : ∀ x, (v68 x).toNat ≤ 15) :
    k0_chk16 (k0_pay19 k0_pay2 v68) := chk_pos _ (pos6_lt v68 h)
theorem chk17_of (v68 : Vec F S16 .i32) (h : ∀ x, (v68 x).toNat ≤ 15) :
    k0_chk17 (k0_pay20 k0_pay2 v68) := chk_pos _ (pos7_lt v68 h)

/-! ## The eight pieces -/

/-- Piece 0 of row `r` is entries `0 ‥ 15` of the decoded row. -/
theorem piece0_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay4 (loadIdx gI ![v59] h1)] : Fin 2 → IVec S16 32) a x).toNat < S128x128.size a)
    (h3 : ∀ a x, ((![k0_pay13 k0_pay2 (loadIdx gC ![v59, k0_pay4 (loadIdx gI ![v59] h1)] h2)] : Fin 1 → IVec S16 32) a x).toNat < S64.size a)
    (l : Fin 16) :
    loadIdx gB ![k0_pay13 k0_pay2 (loadIdx gC ![v59, k0_pay4 (loadIdx gI ![v59] h1)] h2)] h3 (ix1 l)
      = rowGAt gI gC gB r ⟨16 * 0 + l.val, by have := l.isLt; omega⟩ :=
  piece_generic gI gC gB r 0 (by omega) v59 _ _ h59 hC h2 h3
    (fun l => by rw [col0_toNat, loadIdx1_splat gI r v59 h59 h1])
    (fun l => pos0_apply _ l) l _

/-- Piece 1 of row `r` is entries `16 ‥ 31` of the decoded row. -/
theorem piece1_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay5 (loadIdx gI ![v59] h1)] : Fin 2 → IVec S16 32) a x).toNat < S128x128.size a)
    (h3 : ∀ a x, ((![k0_pay14 k0_pay2 (loadIdx gC ![v59, k0_pay5 (loadIdx gI ![v59] h1)] h2)] : Fin 1 → IVec S16 32) a x).toNat < S64.size a)
    (l : Fin 16) :
    loadIdx gB ![k0_pay14 k0_pay2 (loadIdx gC ![v59, k0_pay5 (loadIdx gI ![v59] h1)] h2)] h3 (ix1 l)
      = rowGAt gI gC gB r ⟨16 * 1 + l.val, by have := l.isLt; omega⟩ :=
  piece_generic gI gC gB r 1 (by omega) v59 _ _ h59 hC h2 h3
    (fun l => by rw [col1_toNat, loadIdx1_splat gI r v59 h59 h1])
    (fun l => pos1_apply _ l) l _

/-- Piece 2 of row `r` is entries `32 ‥ 47` of the decoded row. -/
theorem piece2_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay6 (loadIdx gI ![v59] h1)] : Fin 2 → IVec S16 32) a x).toNat < S128x128.size a)
    (h3 : ∀ a x, ((![k0_pay15 k0_pay2 (loadIdx gC ![v59, k0_pay6 (loadIdx gI ![v59] h1)] h2)] : Fin 1 → IVec S16 32) a x).toNat < S64.size a)
    (l : Fin 16) :
    loadIdx gB ![k0_pay15 k0_pay2 (loadIdx gC ![v59, k0_pay6 (loadIdx gI ![v59] h1)] h2)] h3 (ix1 l)
      = rowGAt gI gC gB r ⟨16 * 2 + l.val, by have := l.isLt; omega⟩ :=
  piece_generic gI gC gB r 2 (by omega) v59 _ _ h59 hC h2 h3
    (fun l => by rw [col2_toNat, loadIdx1_splat gI r v59 h59 h1])
    (fun l => pos2_apply _ l) l _

/-- Piece 3 of row `r` is entries `48 ‥ 63` of the decoded row. -/
theorem piece3_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay7 (loadIdx gI ![v59] h1)] : Fin 2 → IVec S16 32) a x).toNat < S128x128.size a)
    (h3 : ∀ a x, ((![k0_pay16 k0_pay2 (loadIdx gC ![v59, k0_pay7 (loadIdx gI ![v59] h1)] h2)] : Fin 1 → IVec S16 32) a x).toNat < S64.size a)
    (l : Fin 16) :
    loadIdx gB ![k0_pay16 k0_pay2 (loadIdx gC ![v59, k0_pay7 (loadIdx gI ![v59] h1)] h2)] h3 (ix1 l)
      = rowGAt gI gC gB r ⟨16 * 3 + l.val, by have := l.isLt; omega⟩ :=
  piece_generic gI gC gB r 3 (by omega) v59 _ _ h59 hC h2 h3
    (fun l => by rw [col3_toNat, loadIdx1_splat gI r v59 h59 h1])
    (fun l => pos3_apply _ l) l _

/-- Piece 4 of row `r` is entries `64 ‥ 79` of the decoded row. -/
theorem piece4_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay8 (loadIdx gI ![v59] h1)] : Fin 2 → IVec S16 32) a x).toNat < S128x128.size a)
    (h3 : ∀ a x, ((![k0_pay17 k0_pay2 (loadIdx gC ![v59, k0_pay8 (loadIdx gI ![v59] h1)] h2)] : Fin 1 → IVec S16 32) a x).toNat < S64.size a)
    (l : Fin 16) :
    loadIdx gB ![k0_pay17 k0_pay2 (loadIdx gC ![v59, k0_pay8 (loadIdx gI ![v59] h1)] h2)] h3 (ix1 l)
      = rowGAt gI gC gB r ⟨16 * 4 + l.val, by have := l.isLt; omega⟩ :=
  piece_generic gI gC gB r 4 (by omega) v59 _ _ h59 hC h2 h3
    (fun l => by rw [col4_toNat, loadIdx1_splat gI r v59 h59 h1])
    (fun l => pos4_apply _ l) l _

/-- Piece 5 of row `r` is entries `80 ‥ 95` of the decoded row. -/
theorem piece5_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay9 (loadIdx gI ![v59] h1)] : Fin 2 → IVec S16 32) a x).toNat < S128x128.size a)
    (h3 : ∀ a x, ((![k0_pay18 k0_pay2 (loadIdx gC ![v59, k0_pay9 (loadIdx gI ![v59] h1)] h2)] : Fin 1 → IVec S16 32) a x).toNat < S64.size a)
    (l : Fin 16) :
    loadIdx gB ![k0_pay18 k0_pay2 (loadIdx gC ![v59, k0_pay9 (loadIdx gI ![v59] h1)] h2)] h3 (ix1 l)
      = rowGAt gI gC gB r ⟨16 * 5 + l.val, by have := l.isLt; omega⟩ :=
  piece_generic gI gC gB r 5 (by omega) v59 _ _ h59 hC h2 h3
    (fun l => by rw [col5_toNat, loadIdx1_splat gI r v59 h59 h1])
    (fun l => pos5_apply _ l) l _

/-- Piece 6 of row `r` is entries `96 ‥ 111` of the decoded row. -/
theorem piece6_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay11 k0_pay1 (k0_pay3 (loadIdx gI ![v59] h1)) k0_pay10] : Fin 2 → IVec S16 32) a x).toNat < S128x128.size a)
    (h3 : ∀ a x, ((![k0_pay19 k0_pay2 (loadIdx gC ![v59, k0_pay11 k0_pay1 (k0_pay3 (loadIdx gI ![v59] h1)) k0_pay10] h2)] : Fin 1 → IVec S16 32) a x).toNat < S64.size a)
    (l : Fin 16) :
    loadIdx gB ![k0_pay19 k0_pay2 (loadIdx gC ![v59, k0_pay11 k0_pay1 (k0_pay3 (loadIdx gI ![v59] h1)) k0_pay10] h2)] h3 (ix1 l)
      = rowGAt gI gC gB r ⟨16 * 6 + l.val, by have := l.isLt; omega⟩ :=
  piece_generic gI gC gB r 6 (by omega) v59 _ _ h59 hC h2 h3
    (fun l => by rw [col6_toNat, loadIdx1_splat gI r v59 h59 h1])
    (fun l => pos6_apply _ l) l _

/-- Piece 7 of row `r` is entries `112 ‥ 127` of the decoded row. -/
theorem piece7_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay12 k0_pay1 (k0_pay3 (loadIdx gI ![v59] h1))] : Fin 2 → IVec S16 32) a x).toNat < S128x128.size a)
    (h3 : ∀ a x, ((![k0_pay20 k0_pay2 (loadIdx gC ![v59, k0_pay12 k0_pay1 (k0_pay3 (loadIdx gI ![v59] h1))] h2)] : Fin 1 → IVec S16 32) a x).toNat < S64.size a)
    (l : Fin 16) :
    loadIdx gB ![k0_pay20 k0_pay2 (loadIdx gC ![v59, k0_pay12 k0_pay1 (k0_pay3 (loadIdx gI ![v59] h1))] h2)] h3 (ix1 l)
      = rowGAt gI gC gB r ⟨16 * 7 + l.val, by have := l.isLt; omega⟩ :=
  piece_generic gI gC gB r 7 (by omega) v59 _ _ h59 hC h2 h3
    (fun l => by rw [col7_toNat, loadIdx1_splat gI r v59 h59 h1])
    (fun l => pos7_apply _ l) l _

/-! ## The index vectors lane by lane (second buffer) -/

/-- Lane `l` of the shifted lane numbers: `l >> 2`. -/
theorem laneQuarter'_apply (l : Fin 16) : k0_pay21 (ix1 l) = IntOp.shrsi .vector (BitVec.ofNat 32 l.val) 2#32 := by
  show IntOp.shrsi .vector (BitVec.ofNat 32 (0 * 16 + l.val)) 2#32 = _
  rw [Nat.zero_mul, Nat.zero_add]

/-- Lane `l` of the masked lane numbers: `l & 3`. -/
theorem laneRem'_apply (l : Fin 16) : k0_pay22 (ix1 l) = IntOp.andi (BitVec.ofNat 32 l.val) 3#32 := by
  show IntOp.andi (BitVec.ofNat 32 (0 * 16 + l.val)) 3#32 = _
  rw [Nat.zero_mul, Nat.zero_add]

/-- The column vector of piece 0, lane `l`: `32 (w % 4) + 0 + l / 4` for the query word `w` in that lane. -/
theorem col0'_toNat (v60 : Vec F S16 .i32) (l : Fin 16) :
    ((k0_pay24 v60) (ix1 l)).toNat = 32 * ((v60 (ix1 l)).toNat % 4) + 4 * 0 + l.val / 4 := by
  show (IntOp.addi (IntOp.shli .vector (IntOp.andi (v60 (ix1 l)) 3#32) 5#32) (IntOp.addi 0#32 (k0_pay21 (ix1 l)))).toNat = _
  rw [laneQuarter'_apply]
  exact Cert.Words.col_toNat' 0#32 0 (by omega) rfl (v60 (ix1 l)) l

theorem col0'_lt (v60 : Vec F S16 .i32) (x : S16.Idx) : ((k0_pay24 v60) x).toNat < 128 := by
  obtain ⟨l, rfl⟩ := exists_lane x
  rw [col0'_toNat]
  have := l.isLt
  omega

/-- The column vector of piece 1, lane `l`: `32 (w % 4) + 4 + l / 4` for the query word `w` in that lane. -/
theorem col1'_toNat (v60 : Vec F S16 .i32) (l : Fin 16) :
    ((k0_pay25 v60) (ix1 l)).toNat = 32 * ((v60 (ix1 l)).toNat % 4) + 4 * 1 + l.val / 4 := by
  show (IntOp.addi (IntOp.shli .vector (IntOp.andi (v60 (ix1 l)) 3#32) 5#32) (IntOp.addi 4#32 (k0_pay21 (ix1 l)))).toNat = _
  rw [laneQuarter'_apply]
  exact Cert.Words.col_toNat' 4#32 1 (by omega) rfl (v60 (ix1 l)) l

theorem col1'_lt (v60 : Vec F S16 .i32) (x : S16.Idx) : ((k0_pay25 v60) x).toNat < 128 := by
  obtain ⟨l, rfl⟩ := exists_lane x
  rw [col1'_toNat]
  have := l.isLt
  omega

/-- The column vector of piece 2, lane `l`: `32 (w % 4) + 8 + l / 4` for the query word `w` in that lane. -/
theorem col2'_toNat (v60 : Vec F S16 .i32) (l : Fin 16) :
    ((k0_pay26 v60) (ix1 l)).toNat = 32 * ((v60 (ix1 l)).toNat % 4) + 4 * 2 + l.val / 4 := by
  show (IntOp.addi (IntOp.shli .vector (IntOp.andi (v60 (ix1 l)) 3#32) 5#32) (IntOp.addi 8#32 (k0_pay21 (ix1 l)))).toNat = _
  rw [laneQuarter'_apply]
  exact Cert.Words.col_toNat' 8#32 2 (by omega) rfl (v60 (ix1 l)) l

theorem col2'_lt (v60 : Vec F S16 .i32) (x : S16.Idx) : ((k0_pay26 v60) x).toNat < 128 := by
  obtain ⟨l, rfl⟩ := exists_lane x
  rw [col2'_toNat]
  have := l.isLt
  omega

/-- The column vector of piece 3, lane `l`: `32 (w % 4) + 12 + l / 4` for the query word `w` in that lane. -/
theorem col3'_toNat (v60 : Vec F S16 .i32) (l : Fin 16) :
    ((k0_pay27 v60) (ix1 l)).toNat = 32 * ((v60 (ix1 l)).toNat % 4) + 4 * 3 + l.val / 4 := by
  show (IntOp.addi (IntOp.shli .vector (IntOp.andi (v60 (ix1 l)) 3#32) 5#32) (IntOp.addi 12#32 (k0_pay21 (ix1 l)))).toNat = _
  rw [laneQuarter'_apply]
  exact Cert.Words.col_toNat' 12#32 3 (by omega) rfl (v60 (ix1 l)) l

theorem col3'_lt (v60 : Vec F S16 .i32) (x : S16.Idx) : ((k0_pay27 v60) x).toNat < 128 := by
  obtain ⟨l, rfl⟩ := exists_lane x
  rw [col3'_toNat]
  have := l.isLt
  omega

/-- The column vector of piece 4, lane `l`: `32 (w % 4) + 16 + l / 4` for the query word `w` in that lane. -/
theorem col4'_toNat (v60 : Vec F S16 .i32) (l : Fin 16) :
    ((k0_pay28 v60) (ix1 l)).toNat = 32 * ((v60 (ix1 l)).toNat % 4) + 4 * 4 + l.val / 4 := by
  show (IntOp.addi (IntOp.shli .vector (IntOp.andi (v60 (ix1 l)) 3#32) 5#32) (IntOp.addi 16#32 (k0_pay21 (ix1 l)))).toNat = _
  rw [laneQuarter'_apply]
  exact Cert.Words.col_toNat' 16#32 4 (by omega) rfl (v60 (ix1 l)) l

theorem col4'_lt (v60 : Vec F S16 .i32) (x : S16.Idx) : ((k0_pay28 v60) x).toNat < 128 := by
  obtain ⟨l, rfl⟩ := exists_lane x
  rw [col4'_toNat]
  have := l.isLt
  omega

/-- The column vector of piece 5, lane `l`: `32 (w % 4) + 20 + l / 4` for the query word `w` in that lane. -/
theorem col5'_toNat (v60 : Vec F S16 .i32) (l : Fin 16) :
    ((k0_pay29 v60) (ix1 l)).toNat = 32 * ((v60 (ix1 l)).toNat % 4) + 4 * 5 + l.val / 4 := by
  show (IntOp.addi (IntOp.shli .vector (IntOp.andi (v60 (ix1 l)) 3#32) 5#32) (IntOp.addi 20#32 (k0_pay21 (ix1 l)))).toNat = _
  rw [laneQuarter'_apply]
  exact Cert.Words.col_toNat' 20#32 5 (by omega) rfl (v60 (ix1 l)) l

theorem col5'_lt (v60 : Vec F S16 .i32) (x : S16.Idx) : ((k0_pay29 v60) x).toNat < 128 := by
  obtain ⟨l, rfl⟩ := exists_lane x
  rw [col5'_toNat]
  have := l.isLt
  omega

/-- The column vector of piece 6, lane `l`: `32 (w % 4) + 24 + l / 4` for the query word `w` in that lane. -/
theorem col6'_toNat (v60 : Vec F S16 .i32) (l : Fin 16) :
    ((k0_pay31 k0_pay21 (k0_pay23 v60) k0_pay30) (ix1 l)).toNat = 32 * ((v60 (ix1 l)).toNat % 4) + 4 * 6 + l.val / 4 := by
  show (IntOp.addi (IntOp.shli .vector (IntOp.andi (v60 (ix1 l)) 3#32) 5#32) (IntOp.addi 24#32 (k0_pay21 (ix1 l)))).toNat = _
  rw [laneQuarter'_apply]
  exact Cert.Words.col_toNat' 24#32 6 (by omega) rfl (v60 (ix1 l)) l

theorem col6'_lt (v60 : Vec F S16 .i32) (x : S16.Idx) : ((k0_pay31 k0_pay21 (k0_pay23 v60) k0_pay30) x).toNat < 128 := by
  obtain ⟨l, rfl⟩ := exists_lane x
  rw [col6'_toNat]
  have := l.isLt
  omega

/-- The column vector of piece 7, lane `l`: `32 (w % 4) + 28 + l / 4` for the query word `w` in that lane. -/
theorem col7'_toNat (v60 : Vec F S16 .i32) (l : Fin 16) :
    ((k0_pay32 k0_pay21 (k0_pay23 v60)) (ix1 l)).toNat = 32 * ((v60 (ix1 l)).toNat % 4) + 4 * 7 + l.val / 4 := by
  show (IntOp.addi (IntOp.shli .vector (IntOp.andi (v60 (ix1 l)) 3#32) 5#32) (IntOp.addi 28#32 (k0_pay21 (ix1 l)))).toNat = _
  rw [laneQuarter'_apply]
  exact Cert.Words.col_toNat' 28#32 7 (by omega) rfl (v60 (ix1 l)) l

theorem col7'_lt (v60 : Vec F S16 .i32) (x : S16.Idx) : ((k0_pay32 k0_pay21 (k0_pay23 v60)) x).toNat < 128 := by
  obtain ⟨l, rfl⟩ := exists_lane x
  rw [col7'_toNat]
  have := l.isLt
  omega

/-- The position vector of piece 0, lane `l`: `(code << 2) + (l & 3)` for the code in that lane. -/
theorem pos0'_apply (v68 : Vec F S16 .i32) (l : Fin 16) :
    k0_pay33 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos0'_lt (v68 : Vec F S16 .i32) (h : ∀ x, (v68 x).toNat ≤ 15) (x : S16.Idx) : (k0_pay33 k0_pay22 v68 x).toNat < 64 := by
  obtain ⟨l, rfl⟩ := exists_lane x
  rw [pos0'_apply]
  exact Cert.Words.pos_lt _ (h _) l

/-- The position vector of piece 1, lane `l`: `(code << 2) + (l & 3)` for the code in that lane. -/
theorem pos1'_apply (v68 : Vec F S16 .i32) (l : Fin 16) :
    k0_pay34 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos1'_lt (v68 : Vec F S16 .i32) (h : ∀ x, (v68 x).toNat ≤ 15) (x : S16.Idx) : (k0_pay34 k0_pay22 v68 x).toNat < 64 := by
  obtain ⟨l, rfl⟩ := exists_lane x
  rw [pos1'_apply]
  exact Cert.Words.pos_lt _ (h _) l

/-- The position vector of piece 2, lane `l`: `(code << 2) + (l & 3)` for the code in that lane. -/
theorem pos2'_apply (v68 : Vec F S16 .i32) (l : Fin 16) :
    k0_pay35 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos2'_lt (v68 : Vec F S16 .i32) (h : ∀ x, (v68 x).toNat ≤ 15) (x : S16.Idx) : (k0_pay35 k0_pay22 v68 x).toNat < 64 := by
  obtain ⟨l, rfl⟩ := exists_lane x
  rw [pos2'_apply]
  exact Cert.Words.pos_lt _ (h _) l

/-- The position vector of piece 3, lane `l`: `(code << 2) + (l & 3)` for the code in that lane. -/
theorem pos3'_apply (v68 : Vec F S16 .i32) (l : Fin 16) :
    k0_pay36 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos3'_lt (v68 : Vec F S16 .i32) (h : ∀ x, (v68 x).toNat ≤ 15) (x : S16.Idx) : (k0_pay36 k0_pay22 v68 x).toNat < 64 := by
  obtain ⟨l, rfl⟩ := exists_lane x
  rw [pos3'_apply]
  exact Cert.Words.pos_lt _ (h _) l

/-- The position vector of piece 4, lane `l`: `(code << 2) + (l & 3)` for the code in that lane. -/
theorem pos4'_apply (v68 : Vec F S16 .i32) (l : Fin 16) :
    k0_pay37 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos4'_lt (v68 : Vec F S16 .i32) (h : ∀ x, (v68 x).toNat ≤ 15) (x : S16.Idx) : (k0_pay37 k0_pay22 v68 x).toNat < 64 := by
  obtain ⟨l, rfl⟩ := exists_lane x
  rw [pos4'_apply]
  exact Cert.Words.pos_lt _ (h _) l

/-- The position vector of piece 5, lane `l`: `(code << 2) + (l & 3)` for the code in that lane. -/
theorem pos5'_apply (v68 : Vec F S16 .i32) (l : Fin 16) :
    k0_pay38 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos5'_lt (v68 : Vec F S16 .i32) (h : ∀ x, (v68 x).toNat ≤ 15) (x : S16.Idx) : (k0_pay38 k0_pay22 v68 x).toNat < 64 := by
  obtain ⟨l, rfl⟩ := exists_lane x
  rw [pos5'_apply]
  exact Cert.Words.pos_lt _ (h _) l

/-- The position vector of piece 6, lane `l`: `(code << 2) + (l & 3)` for the code in that lane. -/
theorem pos6'_apply (v68 : Vec F S16 .i32) (l : Fin 16) :
    k0_pay39 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos6'_lt (v68 : Vec F S16 .i32) (h : ∀ x, (v68 x).toNat ≤ 15) (x : S16.Idx) : (k0_pay39 k0_pay22 v68 x).toNat < 64 := by
  obtain ⟨l, rfl⟩ := exists_lane x
  rw [pos6'_apply]
  exact Cert.Words.pos_lt _ (h _) l

/-- The position vector of piece 7, lane `l`: `(code << 2) + (l & 3)` for the code in that lane. -/
theorem pos7'_apply (v68 : Vec F S16 .i32) (l : Fin 16) :
    k0_pay40 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos7'_lt (v68 : Vec F S16 .i32) (h : ∀ x, (v68 x).toNat ≤ 15) (x : S16.Idx) : (k0_pay40 k0_pay22 v68 x).toNat < 64 := by
  obtain ⟨l, rfl⟩ := exists_lane x
  rw [pos7'_apply]
  exact Cert.Words.pos_lt _ (h _) l

/-! ## Every index is inside the array it reads (second buffer) -/

theorem chk18_of (v59 : IVec S16 32) (h : ∀ x, (v59 x).toNat < 128) : k0_chk18 v59 := chk_idx v59 h
theorem chk19_of (v59 : IVec S16 32) (v60 : Vec F S16 .i32) (h : ∀ x, (v59 x).toNat < 128) :
    k0_chk19 v59 (k0_pay24 v60) := chk_col v59 _ h (col0'_lt v60)
theorem chk20_of (v59 : IVec S16 32) (v60 : Vec F S16 .i32) (h : ∀ x, (v59 x).toNat < 128) :
    k0_chk20 v59 (k0_pay25 v60) := chk_col v59 _ h (col1'_lt v60)
theorem chk21_of (v59 : IVec S16 32) (v60 : Vec F S16 .i32) (h : ∀ x, (v59 x).toNat < 128) :
    k0_chk21 v59 (k0_pay26 v60) := chk_col v59 _ h (col2'_lt v60)
theorem chk22_of (v59 : IVec S16 32) (v60 : Vec F S16 .i32) (h : ∀ x, (v59 x).toNat < 128) :
    k0_chk22 v59 (k0_pay27 v60) := chk_col v59 _ h (col3'_lt v60)
theorem chk23_of (v59 : IVec S16 32) (v60 : Vec F S16 .i32) (h : ∀ x, (v59 x).toNat < 128) :
    k0_chk23 v59 (k0_pay28 v60) := chk_col v59 _ h (col4'_lt v60)
theorem chk24_of (v59 : IVec S16 32) (v60 : Vec F S16 .i32) (h : ∀ x, (v59 x).toNat < 128) :
    k0_chk24 v59 (k0_pay29 v60) := chk_col v59 _ h (col5'_lt v60)
theorem chk25_of (v59 : IVec S16 32) (v60 : Vec F S16 .i32) (h : ∀ x, (v59 x).toNat < 128) :
    k0_chk25 v59 (k0_pay31 k0_pay21 (k0_pay23 v60) k0_pay30) := chk_col v59 _ h (col6'_lt v60)
theorem chk26_of (v59 : IVec S16 32) (v60 : Vec F S16 .i32) (h : ∀ x, (v59 x).toNat < 128) :
    k0_chk26 v59 (k0_pay32 k0_pay21 (k0_pay23 v60)) := chk_col v59 _ h (col7'_lt v60)
theorem chk27_of (v68 : Vec F S16 .i32) (h : ∀ x, (v68 x).toNat ≤ 15) :
    k0_chk27 (k0_pay33 k0_pay22 v68) := chk_pos _ (pos0'_lt v68 h)
theorem chk28_of (v68 : Vec F S16 .i32) (h : ∀ x, (v68 x).toNat ≤ 15) :
    k0_chk28 (k0_pay34 k0_pay22 v68) := chk_pos _ (pos1'_lt v68 h)
theorem chk29_of (v68 : Vec F S16 .i32) (h : ∀ x, (v68 x).toNat ≤ 15) :
    k0_chk29 (k0_pay35 k0_pay22 v68) := chk_pos _ (pos2'_lt v68 h)
theorem chk30_of (v68 : Vec F S16 .i32) (h : ∀ x, (v68 x).toNat ≤ 15) :
    k0_chk30 (k0_pay36 k0_pay22 v68) := chk_pos _ (pos3'_lt v68 h)
theorem chk31_of (v68 : Vec F S16 .i32) (h : ∀ x, (v68 x).toNat ≤ 15) :
    k0_chk31 (k0_pay37 k0_pay22 v68) := chk_pos _ (pos4'_lt v68 h)
theorem chk32_of (v68 : Vec F S16 .i32) (h : ∀ x, (v68 x).toNat ≤ 15) :
    k0_chk32 (k0_pay38 k0_pay22 v68) := chk_pos _ (pos5'_lt v68 h)
theorem chk33_of (v68 : Vec F S16 .i32) (h : ∀ x, (v68 x).toNat ≤ 15) :
    k0_chk33 (k0_pay39 k0_pay22 v68) := chk_pos _ (pos6'_lt v68 h)
theorem chk34_of (v68 : Vec F S16 .i32) (h : ∀ x, (v68 x).toNat ≤ 15) :
    k0_chk34 (k0_pay40 k0_pay22 v68) := chk_pos _ (pos7'_lt v68 h)

/-! ## The eight pieces (second buffer) -/

/-- Piece 0 of row `r` is entries `0 ‥ 15` of the decoded row. -/
theorem piece0'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay24 (loadIdx gI ![v59] h1)] : Fin 2 → IVec S16 32) a x).toNat < S128x128.size a)
    (h3 : ∀ a x, ((![k0_pay33 k0_pay22 (loadIdx gC ![v59, k0_pay24 (loadIdx gI ![v59] h1)] h2)] : Fin 1 → IVec S16 32) a x).toNat < S64.size a)
    (l : Fin 16) :
    loadIdx gB ![k0_pay33 k0_pay22 (loadIdx gC ![v59, k0_pay24 (loadIdx gI ![v59] h1)] h2)] h3 (ix1 l)
      = rowGAt gI gC gB r ⟨16 * 0 + l.val, by have := l.isLt; omega⟩ :=
  piece_generic gI gC gB r 0 (by omega) v59 _ _ h59 hC h2 h3
    (fun l => by rw [col0'_toNat, loadIdx1_splat gI r v59 h59 h1])
    (fun l => pos0'_apply _ l) l _

/-- Piece 1 of row `r` is entries `16 ‥ 31` of the decoded row. -/
theorem piece1'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay25 (loadIdx gI ![v59] h1)] : Fin 2 → IVec S16 32) a x).toNat < S128x128.size a)
    (h3 : ∀ a x, ((![k0_pay34 k0_pay22 (loadIdx gC ![v59, k0_pay25 (loadIdx gI ![v59] h1)] h2)] : Fin 1 → IVec S16 32) a x).toNat < S64.size a)
    (l : Fin 16) :
    loadIdx gB ![k0_pay34 k0_pay22 (loadIdx gC ![v59, k0_pay25 (loadIdx gI ![v59] h1)] h2)] h3 (ix1 l)
      = rowGAt gI gC gB r ⟨16 * 1 + l.val, by have := l.isLt; omega⟩ :=
  piece_generic gI gC gB r 1 (by omega) v59 _ _ h59 hC h2 h3
    (fun l => by rw [col1'_toNat, loadIdx1_splat gI r v59 h59 h1])
    (fun l => pos1'_apply _ l) l _

/-- Piece 2 of row `r` is entries `32 ‥ 47` of the decoded row. -/
theorem piece2'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay26 (loadIdx gI ![v59] h1)] : Fin 2 → IVec S16 32) a x).toNat < S128x128.size a)
    (h3 : ∀ a x, ((![k0_pay35 k0_pay22 (loadIdx gC ![v59, k0_pay26 (loadIdx gI ![v59] h1)] h2)] : Fin 1 → IVec S16 32) a x).toNat < S64.size a)
    (l : Fin 16) :
    loadIdx gB ![k0_pay35 k0_pay22 (loadIdx gC ![v59, k0_pay26 (loadIdx gI ![v59] h1)] h2)] h3 (ix1 l)
      = rowGAt gI gC gB r ⟨16 * 2 + l.val, by have := l.isLt; omega⟩ :=
  piece_generic gI gC gB r 2 (by omega) v59 _ _ h59 hC h2 h3
    (fun l => by rw [col2'_toNat, loadIdx1_splat gI r v59 h59 h1])
    (fun l => pos2'_apply _ l) l _

/-- Piece 3 of row `r` is entries `48 ‥ 63` of the decoded row. -/
theorem piece3'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay27 (loadIdx gI ![v59] h1)] : Fin 2 → IVec S16 32) a x).toNat < S128x128.size a)
    (h3 : ∀ a x, ((![k0_pay36 k0_pay22 (loadIdx gC ![v59, k0_pay27 (loadIdx gI ![v59] h1)] h2)] : Fin 1 → IVec S16 32) a x).toNat < S64.size a)
    (l : Fin 16) :
    loadIdx gB ![k0_pay36 k0_pay22 (loadIdx gC ![v59, k0_pay27 (loadIdx gI ![v59] h1)] h2)] h3 (ix1 l)
      = rowGAt gI gC gB r ⟨16 * 3 + l.val, by have := l.isLt; omega⟩ :=
  piece_generic gI gC gB r 3 (by omega) v59 _ _ h59 hC h2 h3
    (fun l => by rw [col3'_toNat, loadIdx1_splat gI r v59 h59 h1])
    (fun l => pos3'_apply _ l) l _

/-- Piece 4 of row `r` is entries `64 ‥ 79` of the decoded row. -/
theorem piece4'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay28 (loadIdx gI ![v59] h1)] : Fin 2 → IVec S16 32) a x).toNat < S128x128.size a)
    (h3 : ∀ a x, ((![k0_pay37 k0_pay22 (loadIdx gC ![v59, k0_pay28 (loadIdx gI ![v59] h1)] h2)] : Fin 1 → IVec S16 32) a x).toNat < S64.size a)
    (l : Fin 16) :
    loadIdx gB ![k0_pay37 k0_pay22 (loadIdx gC ![v59, k0_pay28 (loadIdx gI ![v59] h1)] h2)] h3 (ix1 l)
      = rowGAt gI gC gB r ⟨16 * 4 + l.val, by have := l.isLt; omega⟩ :=
  piece_generic gI gC gB r 4 (by omega) v59 _ _ h59 hC h2 h3
    (fun l => by rw [col4'_toNat, loadIdx1_splat gI r v59 h59 h1])
    (fun l => pos4'_apply _ l) l _

/-- Piece 5 of row `r` is entries `80 ‥ 95` of the decoded row. -/
theorem piece5'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay29 (loadIdx gI ![v59] h1)] : Fin 2 → IVec S16 32) a x).toNat < S128x128.size a)
    (h3 : ∀ a x, ((![k0_pay38 k0_pay22 (loadIdx gC ![v59, k0_pay29 (loadIdx gI ![v59] h1)] h2)] : Fin 1 → IVec S16 32) a x).toNat < S64.size a)
    (l : Fin 16) :
    loadIdx gB ![k0_pay38 k0_pay22 (loadIdx gC ![v59, k0_pay29 (loadIdx gI ![v59] h1)] h2)] h3 (ix1 l)
      = rowGAt gI gC gB r ⟨16 * 5 + l.val, by have := l.isLt; omega⟩ :=
  piece_generic gI gC gB r 5 (by omega) v59 _ _ h59 hC h2 h3
    (fun l => by rw [col5'_toNat, loadIdx1_splat gI r v59 h59 h1])
    (fun l => pos5'_apply _ l) l _

/-- Piece 6 of row `r` is entries `96 ‥ 111` of the decoded row. -/
theorem piece6'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay31 k0_pay21 (k0_pay23 (loadIdx gI ![v59] h1)) k0_pay30] : Fin 2 → IVec S16 32) a x).toNat < S128x128.size a)
    (h3 : ∀ a x, ((![k0_pay39 k0_pay22 (loadIdx gC ![v59, k0_pay31 k0_pay21 (k0_pay23 (loadIdx gI ![v59] h1)) k0_pay30] h2)] : Fin 1 → IVec S16 32) a x).toNat < S64.size a)
    (l : Fin 16) :
    loadIdx gB ![k0_pay39 k0_pay22 (loadIdx gC ![v59, k0_pay31 k0_pay21 (k0_pay23 (loadIdx gI ![v59] h1)) k0_pay30] h2)] h3 (ix1 l)
      = rowGAt gI gC gB r ⟨16 * 6 + l.val, by have := l.isLt; omega⟩ :=
  piece_generic gI gC gB r 6 (by omega) v59 _ _ h59 hC h2 h3
    (fun l => by rw [col6'_toNat, loadIdx1_splat gI r v59 h59 h1])
    (fun l => pos6'_apply _ l) l _

/-- Piece 7 of row `r` is entries `112 ‥ 127` of the decoded row. -/
theorem piece7'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay32 k0_pay21 (k0_pay23 (loadIdx gI ![v59] h1))] : Fin 2 → IVec S16 32) a x).toNat < S128x128.size a)
    (h3 : ∀ a x, ((![k0_pay40 k0_pay22 (loadIdx gC ![v59, k0_pay32 k0_pay21 (k0_pay23 (loadIdx gI ![v59] h1))] h2)] : Fin 1 → IVec S16 32) a x).toNat < S64.size a)
    (l : Fin 16) :
    loadIdx gB ![k0_pay40 k0_pay22 (loadIdx gC ![v59, k0_pay32 k0_pay21 (k0_pay23 (loadIdx gI ![v59] h1))] h2)] h3 (ix1 l)
      = rowGAt gI gC gB r ⟨16 * 7 + l.val, by have := l.isLt; omega⟩ :=
  piece_generic gI gC gB r 7 (by omega) v59 _ _ h59 hC h2 h3
    (fun l => by rw [col7'_toNat, loadIdx1_splat gI r v59 h59 h1])
    (fun l => pos7'_apply _ l) l _

/-! ## What the eight stores of a row leave

  The pieces of row `r` are stored through the sixteen-entry rectangles at `(r, 16 t)`, `t < 8`. An
  index is under the rectangle at `(r, c)` exactly when its row is `r` and its column lies in
  `[c, c + 16)`; the eight rectangles together are row `r`, and no other row is touched. -/

/-- The indices under the sixteen-entry rectangle at row `R`, column `c`. -/
theorem mem_rowRect (off : Fin 2 → Nat) (R c : Nat) (hoff : off = ![R, c])
    (inb : ∀ a, off a + S1x16.size a ≤ S128x128.size a) (y : S128x128.Idx) :
    y ∈ (Rect.unit (s := S128x128) off S1x16.size inb).set ↔ (y 0).val = R ∧ c ≤ (y 1).val ∧ (y 1).val < c + 16 := by
  subst hoff
  rw [Rect.mem_set_unit]
  constructor
  · intro h
    have h0 : R ≤ (y 0).val ∧ (y 0).val < R + 1 := h 0
    have h1 : c ≤ (y 1).val ∧ (y 1).val < c + 16 := h 1
    omega
  · rintro ⟨h0, h1, h2⟩ a
    match a with
    | ⟨0, _⟩ => show R ≤ (y 0).val ∧ (y 0).val < R + 1; omega
    | ⟨1, _⟩ => show c ≤ (y 1).val ∧ (y 1).val < c + 16; omega

/-- A piece whose lane `l` is entry `16 t + l` of row `R` of `G`, stored as a one-row block at
    `(R, 16 t)`, agrees with `G` at every index it is stored to. -/
theorem piece_agrees (G : S128x128.Idx → Elt F .f32) (R : Fin 128) (t : Nat) (ht : t < 8) (off : Fin 2 → Nat)
    (hoff : off = ![R.val, 16 * t]) (inb : ∀ a, off a + S1x16.size a ≤ S128x128.size a) (p : Vec F S16 .f32)
    (hp : ∀ l : Fin 16, p (ix1 l) = G (ix2 R ⟨16 * t + l.val, by have := l.isLt; omega⟩))
    (x : (Rect.unit (s := S128x128) off S1x16.size inb).shape.Idx) :
    shapeCast S1x16 p shapeCasts_S16_S1x16 x = G ((Rect.unit (s := S128x128) off S1x16.size inb).emb x) := by
  subst hoff
  have h0 : (x 0).val < 1 := (x 0).isLt
  have h1 : (x 1).val < 16 := (x 1).isLt
  -- the one-row block at (0, l) is lane l of the piece
  rw [shapeCast_apply p shapeCasts_S16_S1x16 x (ix1 ⟨(x 1).val, h1⟩) (by
    rw [Shape.rowMajor_val_one, Shape.rowMajor_val_two]
    show (x 1).val = (x 0).val * 16 + (x 1).val
    omega)]
  rw [hp ⟨(x 1).val, h1⟩]
  -- and it is stored at (R + 0, 16 t + l)
  congr 1
  funext a
  apply Fin.ext
  match a with
  | ⟨0, _⟩ => show R.val = R.val + 1 * (x 0).val; omega
  | ⟨1, _⟩ => show 16 * t + (x 1).val = 16 * t + 1 * (x 1).val; omega

/-- Eight pieces stored at `(R, 0), (R, 16), …, (R, 112)`, each sixteen entries of row `R` of `G`: after
    the stores row `R` reads `G`, and every other row reads what it read before. -/
theorem row_stored_gen {σ : RefSig} {κ : Kind} {sp : Space} (v : View σ κ sp S128x128 .f32) (fO : v.ty.Contents (Elt F))
    (R : Fin 128) (o0 o1 o2 o3 o4 o5 o6 o7 : Fin 2 → Nat)
    (ho0 : o0 = ![R.val, 16 * 0])
    (ho1 : o1 = ![R.val, 16 * 1])
    (ho2 : o2 = ![R.val, 16 * 2])
    (ho3 : o3 = ![R.val, 16 * 3])
    (ho4 : o4 = ![R.val, 16 * 4])
    (ho5 : o5 = ![R.val, 16 * 5])
    (ho6 : o6 = ![R.val, 16 * 6])
    (ho7 : o7 = ![R.val, 16 * 7])
    (i0 : ∀ a, o0 a + S1x16.size a ≤ S128x128.size a)
    (i1 : ∀ a, o1 a + S1x16.size a ≤ S128x128.size a)
    (i2 : ∀ a, o2 a + S1x16.size a ≤ S128x128.size a)
    (i3 : ∀ a, o3 a + S1x16.size a ≤ S128x128.size a)
    (i4 : ∀ a, o4 a + S1x16.size a ≤ S128x128.size a)
    (i5 : ∀ a, o5 a + S1x16.size a ≤ S128x128.size a)
    (i6 : ∀ a, o6 a + S1x16.size a ≤ S128x128.size a)
    (i7 : ∀ a, o7 a + S1x16.size a ≤ S128x128.size a)
    (p0 p1 p2 p3 p4 p5 p6 p7 : Vec F S16 .f32) (G : S128x128.Idx → Elt F .f32)
    (hp0 : ∀ l : Fin 16, p0 (ix1 l) = G (ix2 (R) ⟨16 * 0 + l.val, by have := l.isLt; omega⟩))
    (hp1 : ∀ l : Fin 16, p1 (ix1 l) = G (ix2 (R) ⟨16 * 1 + l.val, by have := l.isLt; omega⟩))
    (hp2 : ∀ l : Fin 16, p2 (ix1 l) = G (ix2 (R) ⟨16 * 2 + l.val, by have := l.isLt; omega⟩))
    (hp3 : ∀ l : Fin 16, p3 (ix1 l) = G (ix2 (R) ⟨16 * 3 + l.val, by have := l.isLt; omega⟩))
    (hp4 : ∀ l : Fin 16, p4 (ix1 l) = G (ix2 (R) ⟨16 * 4 + l.val, by have := l.isLt; omega⟩))
    (hp5 : ∀ l : Fin 16, p5 (ix1 l) = G (ix2 (R) ⟨16 * 5 + l.val, by have := l.isLt; omega⟩))
    (hp6 : ∀ l : Fin 16, p6 (ix1 l) = G (ix2 (R) ⟨16 * 6 + l.val, by have := l.isLt; omega⟩))
    (hp7 : ∀ l : Fin 16, p7 (ix1 l) = G (ix2 (R) ⟨16 * 7 + l.val, by have := l.isLt; omega⟩)) :
    (∀ e : Fin 128, v.read (Elt F) (v.writes (Elt F) fO
        [⟨Rect.unit (s := S128x128) (o7) S1x16.size (i7), shapeCast S1x16 p7 shapeCasts_S16_S1x16⟩,
        ⟨Rect.unit (s := S128x128) (o6) S1x16.size (i6), shapeCast S1x16 p6 shapeCasts_S16_S1x16⟩,
        ⟨Rect.unit (s := S128x128) (o5) S1x16.size (i5), shapeCast S1x16 p5 shapeCasts_S16_S1x16⟩,
        ⟨Rect.unit (s := S128x128) (o4) S1x16.size (i4), shapeCast S1x16 p4 shapeCasts_S16_S1x16⟩,
        ⟨Rect.unit (s := S128x128) (o3) S1x16.size (i3), shapeCast S1x16 p3 shapeCasts_S16_S1x16⟩,
        ⟨Rect.unit (s := S128x128) (o2) S1x16.size (i2), shapeCast S1x16 p2 shapeCasts_S16_S1x16⟩,
        ⟨Rect.unit (s := S128x128) (o1) S1x16.size (i1), shapeCast S1x16 p1 shapeCasts_S16_S1x16⟩,
        ⟨Rect.unit (s := S128x128) (o0) S1x16.size (i0), shapeCast S1x16 p0 shapeCasts_S16_S1x16⟩]) (ix2 R e) = G (ix2 R e))
    ∧ (∀ r' e : Fin 128, r'.val ≠ R.val → v.read (Elt F) (v.writes (Elt F) fO
        [⟨Rect.unit (s := S128x128) (o7) S1x16.size (i7), shapeCast S1x16 p7 shapeCasts_S16_S1x16⟩,
        ⟨Rect.unit (s := S128x128) (o6) S1x16.size (i6), shapeCast S1x16 p6 shapeCasts_S16_S1x16⟩,
        ⟨Rect.unit (s := S128x128) (o5) S1x16.size (i5), shapeCast S1x16 p5 shapeCasts_S16_S1x16⟩,
        ⟨Rect.unit (s := S128x128) (o4) S1x16.size (i4), shapeCast S1x16 p4 shapeCasts_S16_S1x16⟩,
        ⟨Rect.unit (s := S128x128) (o3) S1x16.size (i3), shapeCast S1x16 p3 shapeCasts_S16_S1x16⟩,
        ⟨Rect.unit (s := S128x128) (o2) S1x16.size (i2), shapeCast S1x16 p2 shapeCasts_S16_S1x16⟩,
        ⟨Rect.unit (s := S128x128) (o1) S1x16.size (i1), shapeCast S1x16 p1 shapeCasts_S16_S1x16⟩,
        ⟨Rect.unit (s := S128x128) (o0) S1x16.size (i0), shapeCast S1x16 p0 shapeCasts_S16_S1x16⟩]) (ix2 r' e) = v.read (Elt F) fO (ix2 r' e)) := by
  constructor
  · intro e
    refine View.read_writes_apply_of_pieces v fO G _ ?_ _ ?_
    · -- every piece agrees with G where it is stored
      intro p hp
      simp only [List.mem_cons, List.not_mem_nil, or_false] at hp
      rcases hp with rfl | rfl | rfl | rfl | rfl | rfl | rfl | rfl
      · exact piece_agrees G R 7 (by omega) o7 ho7 i7 p7 hp7
      · exact piece_agrees G R 6 (by omega) o6 ho6 i6 p6 hp6
      · exact piece_agrees G R 5 (by omega) o5 ho5 i5 p5 hp5
      · exact piece_agrees G R 4 (by omega) o4 ho4 i4 p4 hp4
      · exact piece_agrees G R 3 (by omega) o3 ho3 i3 p3 hp3
      · exact piece_agrees G R 2 (by omega) o2 ho2 i2 p2 hp2
      · exact piece_agrees G R 1 (by omega) o1 ho1 i1 p1 hp1
      · exact piece_agrees G R 0 (by omega) o0 ho0 i0 p0 hp0
    · -- column e lies under piece e / 16
      have he := e.isLt
      have hcases : e.val / 16 = 0 ∨ e.val / 16 = 1 ∨ e.val / 16 = 2 ∨ e.val / 16 = 3 ∨ e.val / 16 = 4 ∨ e.val / 16 = 5 ∨ e.val / 16 = 6 ∨ e.val / 16 = 7 := by omega
      rcases hcases with h | h | h | h | h | h | h | h
      · exact ⟨⟨Rect.unit (s := S128x128) o0 S1x16.size i0, shapeCast S1x16 p0 shapeCasts_S16_S1x16⟩, List.mem_cons_of_mem _ (List.mem_cons_of_mem _ (List.mem_cons_of_mem _ (List.mem_cons_of_mem _ (List.mem_cons_of_mem _ (List.mem_cons_of_mem _ (List.mem_cons_of_mem _ (List.mem_cons_self))))))),
          (mem_rowRect o0 R.val (16 * 0) ho0 i0 (ix2 R e)).mpr ⟨rfl, by show 16 * 0 ≤ e.val; omega, by show e.val < 16 * 0 + 16; omega⟩⟩
      · exact ⟨⟨Rect.unit (s := S128x128) o1 S1x16.size i1, shapeCast S1x16 p1 shapeCasts_S16_S1x16⟩, List.mem_cons_of_mem _ (List.mem_cons_of_mem _ (List.mem_cons_of_mem _ (List.mem_cons_of_mem _ (List.mem_cons_of_mem _ (List.mem_cons_of_mem _ (List.mem_cons_self)))))),
          (mem_rowRect o1 R.val (16 * 1) ho1 i1 (ix2 R e)).mpr ⟨rfl, by show 16 * 1 ≤ e.val; omega, by show e.val < 16 * 1 + 16; omega⟩⟩
      · exact ⟨⟨Rect.unit (s := S128x128) o2 S1x16.size i2, shapeCast S1x16 p2 shapeCasts_S16_S1x16⟩, List.mem_cons_of_mem _ (List.mem_cons_of_mem _ (List.mem_cons_of_mem _ (List.mem_cons_of_mem _ (List.mem_cons_of_mem _ (List.mem_cons_self))))),
          (mem_rowRect o2 R.val (16 * 2) ho2 i2 (ix2 R e)).mpr ⟨rfl, by show 16 * 2 ≤ e.val; omega, by show e.val < 16 * 2 + 16; omega⟩⟩
      · exact ⟨⟨Rect.unit (s := S128x128) o3 S1x16.size i3, shapeCast S1x16 p3 shapeCasts_S16_S1x16⟩, List.mem_cons_of_mem _ (List.mem_cons_of_mem _ (List.mem_cons_of_mem _ (List.mem_cons_of_mem _ (List.mem_cons_self)))),
          (mem_rowRect o3 R.val (16 * 3) ho3 i3 (ix2 R e)).mpr ⟨rfl, by show 16 * 3 ≤ e.val; omega, by show e.val < 16 * 3 + 16; omega⟩⟩
      · exact ⟨⟨Rect.unit (s := S128x128) o4 S1x16.size i4, shapeCast S1x16 p4 shapeCasts_S16_S1x16⟩, List.mem_cons_of_mem _ (List.mem_cons_of_mem _ (List.mem_cons_of_mem _ (List.mem_cons_self))),
          (mem_rowRect o4 R.val (16 * 4) ho4 i4 (ix2 R e)).mpr ⟨rfl, by show 16 * 4 ≤ e.val; omega, by show e.val < 16 * 4 + 16; omega⟩⟩
      · exact ⟨⟨Rect.unit (s := S128x128) o5 S1x16.size i5, shapeCast S1x16 p5 shapeCasts_S16_S1x16⟩, List.mem_cons_of_mem _ (List.mem_cons_of_mem _ (List.mem_cons_self)),
          (mem_rowRect o5 R.val (16 * 5) ho5 i5 (ix2 R e)).mpr ⟨rfl, by show 16 * 5 ≤ e.val; omega, by show e.val < 16 * 5 + 16; omega⟩⟩
      · exact ⟨⟨Rect.unit (s := S128x128) o6 S1x16.size i6, shapeCast S1x16 p6 shapeCasts_S16_S1x16⟩, List.mem_cons_of_mem _ (List.mem_cons_self),
          (mem_rowRect o6 R.val (16 * 6) ho6 i6 (ix2 R e)).mpr ⟨rfl, by show 16 * 6 ≤ e.val; omega, by show e.val < 16 * 6 + 16; omega⟩⟩
      · exact ⟨⟨Rect.unit (s := S128x128) o7 S1x16.size i7, shapeCast S1x16 p7 shapeCasts_S16_S1x16⟩, List.mem_cons_self,
          (mem_rowRect o7 R.val (16 * 7) ho7 i7 (ix2 R e)).mpr ⟨rfl, by show 16 * 7 ≤ e.val; omega, by show e.val < 16 * 7 + 16; omega⟩⟩
  · -- a different row is under no piece
    intro r' e hne
    refine View.read_writes_apply_of_forall_not_mem v fO _ _ ?_
    intro p hp
    simp only [List.mem_cons, List.not_mem_nil, or_false] at hp
    rcases hp with rfl | rfl | rfl | rfl | rfl | rfl | rfl | rfl
    · exact fun hm => hne ((mem_rowRect o7 R.val (16 * 7) ho7 i7 (ix2 r' e)).mp hm).1
    · exact fun hm => hne ((mem_rowRect o6 R.val (16 * 6) ho6 i6 (ix2 r' e)).mp hm).1
    · exact fun hm => hne ((mem_rowRect o5 R.val (16 * 5) ho5 i5 (ix2 r' e)).mp hm).1
    · exact fun hm => hne ((mem_rowRect o4 R.val (16 * 4) ho4 i4 (ix2 r' e)).mp hm).1
    · exact fun hm => hne ((mem_rowRect o3 R.val (16 * 3) ho3 i3 (ix2 r' e)).mp hm).1
    · exact fun hm => hne ((mem_rowRect o2 R.val (16 * 2) ho2 i2 (ix2 r' e)).mp hm).1
    · exact fun hm => hne ((mem_rowRect o1 R.val (16 * 1) ho1 i1 (ix2 r' e)).mp hm).1
    · exact fun hm => hne ((mem_rowRect o0 R.val (16 * 0) ho0 i0 (ix2 r' e)).mp hm).1

/-- The row a trip of the first buffer's row loop decodes. -/
abbrev rowOf (r : Fin k0_t4_loop.trips) : Fin 128 := ⟨r.val, Nat.lt_of_lt_of_le r.isLt k0_t4_abs.2.1⟩

/-- Trip `r` of the first buffer's row loop, read through any view of a 128 × 128 float array. -/
theorem row_stored_view {σ : RefSig} {κ : Kind} {sp : Space} (v : View σ κ sp S128x128 .f32) (fO : v.ty.Contents (Elt F))
    (r : Fin k0_t4_loop.trips) (p0 p1 p2 p3 p4 p5 p6 p7 : Vec F S16 .f32) (G : S128x128.Idx → Elt F .f32)
    (hp0 : ∀ l : Fin 16, p0 (ix1 l) = G (ix2 (rowOf r) ⟨16 * 0 + l.val, by have := l.isLt; omega⟩))
    (hp1 : ∀ l : Fin 16, p1 (ix1 l) = G (ix2 (rowOf r) ⟨16 * 1 + l.val, by have := l.isLt; omega⟩))
    (hp2 : ∀ l : Fin 16, p2 (ix1 l) = G (ix2 (rowOf r) ⟨16 * 2 + l.val, by have := l.isLt; omega⟩))
    (hp3 : ∀ l : Fin 16, p3 (ix1 l) = G (ix2 (rowOf r) ⟨16 * 3 + l.val, by have := l.isLt; omega⟩))
    (hp4 : ∀ l : Fin 16, p4 (ix1 l) = G (ix2 (rowOf r) ⟨16 * 4 + l.val, by have := l.isLt; omega⟩))
    (hp5 : ∀ l : Fin 16, p5 (ix1 l) = G (ix2 (rowOf r) ⟨16 * 5 + l.val, by have := l.isLt; omega⟩))
    (hp6 : ∀ l : Fin 16, p6 (ix1 l) = G (ix2 (rowOf r) ⟨16 * 6 + l.val, by have := l.isLt; omega⟩))
    (hp7 : ∀ l : Fin 16, p7 (ix1 l) = G (ix2 (rowOf r) ⟨16 * 7 + l.val, by have := l.isLt; omega⟩)) :
    (∀ e : Fin 128, v.read (Elt F) (v.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩]) (ix2 (rowOf r) e) = G (ix2 (rowOf r) e))
    ∧ (∀ r' e : Fin 128, r'.val ≠ r.val → v.read (Elt F) (v.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩]) (ix2 r' e) = v.read (Elt F) fO (ix2 r' e)) :=
  row_stored_gen v fO (rowOf r) _ _ _ _ _ _ _ _
    (k0_off5_eq r) (k0_off6_eq r) (k0_off7_eq r) (k0_off8_eq r) (k0_off9_eq r) (k0_off10_eq r) (k0_off11_eq r) (k0_off12_eq r)
    (k0_off5_inb r) (k0_off6_inb r) (k0_off7_inb r) (k0_off8_inb r) (k0_off9_inb r) (k0_off10_inb r) (k0_off11_inb r) (k0_off12_inb r)
    p0 p1 p2 p3 p4 p5 p6 p7 G hp0 hp1 hp2 hp3 hp4 hp5 hp6 hp7

/-- Trip `r` of the first buffer's row loop on the buffer itself: row `r` holds `G`, the other rows are unchanged. -/
theorem row_stored (fO : (Memref.whole cc0_scratch6 : Memref sig .scVector .vmem S128x128 .f32).view.ty.Contents (Elt F))
    (r : Fin k0_t4_loop.trips) (p0 p1 p2 p3 p4 p5 p6 p7 : Vec F S16 .f32) (G : S128x128.Idx → Elt F .f32)
    (hp0 : ∀ l : Fin 16, p0 (ix1 l) = G (ix2 (rowOf r) ⟨16 * 0 + l.val, by have := l.isLt; omega⟩))
    (hp1 : ∀ l : Fin 16, p1 (ix1 l) = G (ix2 (rowOf r) ⟨16 * 1 + l.val, by have := l.isLt; omega⟩))
    (hp2 : ∀ l : Fin 16, p2 (ix1 l) = G (ix2 (rowOf r) ⟨16 * 2 + l.val, by have := l.isLt; omega⟩))
    (hp3 : ∀ l : Fin 16, p3 (ix1 l) = G (ix2 (rowOf r) ⟨16 * 3 + l.val, by have := l.isLt; omega⟩))
    (hp4 : ∀ l : Fin 16, p4 (ix1 l) = G (ix2 (rowOf r) ⟨16 * 4 + l.val, by have := l.isLt; omega⟩))
    (hp5 : ∀ l : Fin 16, p5 (ix1 l) = G (ix2 (rowOf r) ⟨16 * 5 + l.val, by have := l.isLt; omega⟩))
    (hp6 : ∀ l : Fin 16, p6 (ix1 l) = G (ix2 (rowOf r) ⟨16 * 6 + l.val, by have := l.isLt; omega⟩))
    (hp7 : ∀ l : Fin 16, p7 (ix1 l) = G (ix2 (rowOf r) ⟨16 * 7 + l.val, by have := l.isLt; omega⟩)) :
    (∀ e : Fin 128, (Memref.whole cc0_scratch6 : Memref sig .scVector .vmem S128x128 .f32).view.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩] (ix2 (rowOf r) e) = G (ix2 (rowOf r) e))
    ∧ (∀ r' e : Fin 128, r'.val ≠ r.val → (Memref.whole cc0_scratch6 : Memref sig .scVector .vmem S128x128 .f32).view.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩] (ix2 r' e) = fO (ix2 r' e)) :=
  row_stored_view (Memref.whole cc0_scratch6 : Memref sig .scVector .vmem S128x128 .f32).view fO r p0 p1 p2 p3 p4 p5 p6 p7 G hp0 hp1 hp2 hp3 hp4 hp5 hp6 hp7

/-- The row a trip of the second buffer's row loop decodes. -/
abbrev rowOf' (r : Fin k0_t6_loop.trips) : Fin 128 := ⟨r.val, Nat.lt_of_lt_of_le r.isLt k0_t6_abs.2.1⟩

/-- Trip `r` of the second buffer's row loop, read through any view of a 128 × 128 float array. -/
theorem row_stored'_view {σ : RefSig} {κ : Kind} {sp : Space} (v : View σ κ sp S128x128 .f32) (fO : v.ty.Contents (Elt F))
    (r : Fin k0_t6_loop.trips) (p0 p1 p2 p3 p4 p5 p6 p7 : Vec F S16 .f32) (G : S128x128.Idx → Elt F .f32)
    (hp0 : ∀ l : Fin 16, p0 (ix1 l) = G (ix2 (rowOf' r) ⟨16 * 0 + l.val, by have := l.isLt; omega⟩))
    (hp1 : ∀ l : Fin 16, p1 (ix1 l) = G (ix2 (rowOf' r) ⟨16 * 1 + l.val, by have := l.isLt; omega⟩))
    (hp2 : ∀ l : Fin 16, p2 (ix1 l) = G (ix2 (rowOf' r) ⟨16 * 2 + l.val, by have := l.isLt; omega⟩))
    (hp3 : ∀ l : Fin 16, p3 (ix1 l) = G (ix2 (rowOf' r) ⟨16 * 3 + l.val, by have := l.isLt; omega⟩))
    (hp4 : ∀ l : Fin 16, p4 (ix1 l) = G (ix2 (rowOf' r) ⟨16 * 4 + l.val, by have := l.isLt; omega⟩))
    (hp5 : ∀ l : Fin 16, p5 (ix1 l) = G (ix2 (rowOf' r) ⟨16 * 5 + l.val, by have := l.isLt; omega⟩))
    (hp6 : ∀ l : Fin 16, p6 (ix1 l) = G (ix2 (rowOf' r) ⟨16 * 6 + l.val, by have := l.isLt; omega⟩))
    (hp7 : ∀ l : Fin 16, p7 (ix1 l) = G (ix2 (rowOf' r) ⟨16 * 7 + l.val, by have := l.isLt; omega⟩)) :
    (∀ e : Fin 128, v.read (Elt F) (v.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩]) (ix2 (rowOf' r) e) = G (ix2 (rowOf' r) e))
    ∧ (∀ r' e : Fin 128, r'.val ≠ r.val → v.read (Elt F) (v.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩]) (ix2 r' e) = v.read (Elt F) fO (ix2 r' e)) :=
  row_stored_gen v fO (rowOf' r) _ _ _ _ _ _ _ _
    (k0_off17_eq r) (k0_off18_eq r) (k0_off19_eq r) (k0_off20_eq r) (k0_off21_eq r) (k0_off22_eq r) (k0_off23_eq r) (k0_off24_eq r)
    (k0_off17_inb r) (k0_off18_inb r) (k0_off19_inb r) (k0_off20_inb r) (k0_off21_inb r) (k0_off22_inb r) (k0_off23_inb r) (k0_off24_inb r)
    p0 p1 p2 p3 p4 p5 p6 p7 G hp0 hp1 hp2 hp3 hp4 hp5 hp6 hp7

/-- Trip `r` of the second buffer's row loop on the buffer itself: row `r` holds `G`, the other rows are unchanged. -/
theorem row_stored' (fO : (Memref.whole cc0_scratch7 : Memref sig .scVector .vmem S128x128 .f32).view.ty.Contents (Elt F))
    (r : Fin k0_t6_loop.trips) (p0 p1 p2 p3 p4 p5 p6 p7 : Vec F S16 .f32) (G : S128x128.Idx → Elt F .f32)
    (hp0 : ∀ l : Fin 16, p0 (ix1 l) = G (ix2 (rowOf' r) ⟨16 * 0 + l.val, by have := l.isLt; omega⟩))
    (hp1 : ∀ l : Fin 16, p1 (ix1 l) = G (ix2 (rowOf' r) ⟨16 * 1 + l.val, by have := l.isLt; omega⟩))
    (hp2 : ∀ l : Fin 16, p2 (ix1 l) = G (ix2 (rowOf' r) ⟨16 * 2 + l.val, by have := l.isLt; omega⟩))
    (hp3 : ∀ l : Fin 16, p3 (ix1 l) = G (ix2 (rowOf' r) ⟨16 * 3 + l.val, by have := l.isLt; omega⟩))
    (hp4 : ∀ l : Fin 16, p4 (ix1 l) = G (ix2 (rowOf' r) ⟨16 * 4 + l.val, by have := l.isLt; omega⟩))
    (hp5 : ∀ l : Fin 16, p5 (ix1 l) = G (ix2 (rowOf' r) ⟨16 * 5 + l.val, by have := l.isLt; omega⟩))
    (hp6 : ∀ l : Fin 16, p6 (ix1 l) = G (ix2 (rowOf' r) ⟨16 * 6 + l.val, by have := l.isLt; omega⟩))
    (hp7 : ∀ l : Fin 16, p7 (ix1 l) = G (ix2 (rowOf' r) ⟨16 * 7 + l.val, by have := l.isLt; omega⟩)) :
    (∀ e : Fin 128, (Memref.whole cc0_scratch7 : Memref sig .scVector .vmem S128x128 .f32).view.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩] (ix2 (rowOf' r) e) = G (ix2 (rowOf' r) e))
    ∧ (∀ r' e : Fin 128, r'.val ≠ r.val → (Memref.whole cc0_scratch7 : Memref sig .scVector .vmem S128x128 .f32).view.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩] (ix2 r' e) = fO (ix2 r' e)) :=
  row_stored'_view (Memref.whole cc0_scratch7 : Memref sig .scVector .vmem S128x128 .f32).view fO r p0 p1 p2 p3 p4 p5 p6 p7 G hp0 hp1 hp2 hp3 hp4 hp5 hp6 hp7

end Cert.Proof.KI

end
-- ==== Proof.KIGather.lean ====
/-
  The indirect gather's payload read at an index: row `k` of the gathered block is the row of the packed table that
  word `k` of the offset list names, column by column.
-/
import proofs.«215948_g88356067214102_cont_sun_c4_674_26_alg».proof.Proof.KISetup
import Idealize.ShloMosaic.Lib.SparseCore.Stream
import Idealize.ShloMosaic.Lib.ValueIdx

noncomputable section

namespace Cert.Proof.KI

open Cert.KernelIdeal Cert.KernelIdeal.Gen

open Idealize.ShloMosaic
open Idealize.ShloMosaic.ValueIdx

variable {F : FTy → Type}

/-- On a list of 128 words the row-major numbering is the coordinate itself: entry `k` is at index `k`. -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- The gathered block at row `k`, column `col`, is the table at the row word `k` of the list names, same column:
    on the indexed axis the source index is the named row, off it the destination's own coordinate. -/
theorem gathered_apply' (hg : S25000x128.Gathers 0 S128x128) (g : Vec F S25000x128 .i32) (idx : Vec F S128 .i32)
    (hn : S128.numel = S128x128.size hg.axis') (hin : ∀ x, (idx x).toNat < S25000x128.size hg.axis) (k col : Fin 128) :
    SparseCore.gatherPayload hg g (SparseCore.rows idx hn hin) (ix2 k col)
      = g (ix2 (⟨(idx (ix1 k)).toNat, hin (ix1 k)⟩ : Fin 25000) col) := by
  unfold SparseCore.gatherPayload
  refine congrArg g ?_
  funext b
  match b with
  | ⟨0, h0⟩ =>
    refine (Shape.Gathers.idx_axis hg _ _).trans ?_
    apply Fin.ext
    show (idx (S128.rowMajor.symm _)).toNat = (idx (ix1 k)).toNat
    rw [rowMajor_symm_S128]
    rfl
  | ⟨1, h1⟩ =>
    apply Fin.ext
    rw [Shape.Gathers.idx_of_ne hg _ _ ⟨1, h1⟩ Nat.one_ne_zero]
    rfl

/-- The same, at the program's own evidence that the table gathers into the block. -/
theorem gathered_apply (g : Vec F S25000x128 .i32) (idx : Vec F S128 .i32)
    (hn : S128.numel = S128x128.size (gathers_S25000x128_S128x128).axis')
    (hin : ∀ x, (idx x).toNat < S25000x128.size (gathers_S25000x128_S128x128).axis) (k col : Fin 128) :
    SparseCore.gatherPayload gathers_S25000x128_S128x128 g (SparseCore.rows idx hn hin) (ix2 k col)
      = g (ix2 (⟨(idx (ix1 k)).toNat, hin (ix1 k)⟩ : Fin 25000) col) :=
  gathered_apply' _ g idx hn hin k col

end Cert.Proof.KI

end
-- ==== Proof.KIGlue.lean ====
/-
  Scratch contents, read and written: small pure facts.

  A tile's scratch buffers are rewritten whole (a transfer landing, a gather landing) or sixteen words at a time
  (a store of one lane vector). Each fact below reads such contents at one index: a whole buffer reads as itself;
  a block of sixteen words at offset `16 k` holds, at its lane `x`, the word `16 k + x` of the list; a chunk of the
  query list landed whole holds the chunk's words; the rows a gather landed are the table's rows the list names.
-/
import proofs.«215948_g88356067214102_cont_sun_c4_674_26_alg».proof.Proof.KIChunk
import proofs.«215948_g88356067214102_cont_sun_c4_674_26_alg».proof.Proof.KIRow
import proofs.«215948_g88356067214102_cont_sun_c4_674_26_alg».proof.Proof.Words
import proofs.«215948_g88356067214102_cont_sun_c4_674_26_alg».proof.Proof.Flat
import proofs.«215948_g88356067214102_cont_sun_c4_674_26_alg».proof.Proof.KIGather
import Idealize.ShloMosaic.Lib.SparseCore.Stream
import Idealize.ShloMosaic.Lib.Writes
import Idealize.ShloMosaic.Lib.ValueIdx

noncomputable section

namespace Cert.Proof.KI

open Cert.KernelIdeal Cert.KernelIdeal.Gen Idealize.ShloMosaic Idealize.ShloMosaic.ValueIdx

variable {F : FTy → Type} [FloatOps F]

/-! ## A whole scratch read whole -/

/-- A load through the whole of a buffer reads its contents. -/
theorem readAt_whole_ref (b : Ref sig .scVector) (f : b.ty.Contents (Elt F)) :
    View.readAt (Elt F) (Memref.whole b).view (LoadRect.whole _) f = f :=
  Memref.readAt_whole (Elt F) b f

theorem readAt_whole_s0 (f : Vec F S128 .i32) :
    View.readAt (Elt F) (Memref.whole cc0_scratch0).view (LoadRect.whole S128) f = f :=
  Memref.readAt_whole (Elt F) cc0_scratch0 f
theorem readAt_whole_s1 (f : Vec F S128 .i32) :
    View.readAt (Elt F) (Memref.whole cc0_scratch1).view (LoadRect.whole S128) f = f :=
  Memref.readAt_whole (Elt F) cc0_scratch1 f
theorem readAt_whole_s4 (f : Vec F S128x128 .i32) :
    View.readAt (Elt F) (Memref.whole cc0_scratch4).view (LoadRect.whole S128x128) f = f :=
  Memref.readAt_whole (Elt F) cc0_scratch4 f
theorem readAt_whole_s5 (f : Vec F S128x128 .i32) :
    View.readAt (Elt F) (Memref.whole cc0_scratch5).view (LoadRect.whole S128x128) f = f :=
  Memref.readAt_whole (Elt F) cc0_scratch5 f
theorem readAt_whole_s8 (f : Vec F S64 .f32) :
    View.readAt (Elt F) (Memref.whole cc0_scratch8).view (LoadRect.whole S64) f = f :=
  Memref.readAt_whole (Elt F) cc0_scratch8 f

/-! ## The lane vector that holds the row counter -/

/-- The sixteen-word rectangle at offset zero of a sixteen-word buffer places each index at itself. -/
theorem unit16_idx (x : S16.Idx) :
    (Rect.unit (s := S16) ![0] S16.size inb_S16_S16_0).toLoadRect.idx x = x := by
  funext a; apply Fin.ext
  rw [LoadRect.idx_apply, Subsingleton.elim a 0]
  show 0 + 1 * (x 0).val = (x 0).val
  omega

/-- A load of the counter's vector reads the buffer. -/
theorem rsplat_read (f : Vec F S16 .i32) (x : S16.Idx) :
    View.readAt (Elt F) (Memref.whole cc0_scratch9).view (Rect.unit ![0] S16.size inb_S16_S16_0).toLoadRect f x = f x := by
  show View.read (Elt F) (View.whole cc0_scratch9) f _ = f x
  rw [View.read_whole, unit16_idx]

/-- A store of the counter's vector replaces the buffer. -/
theorem rsplat_stored (f w : Vec F S16 .i32) (x : S16.Idx) :
    (Memref.whole cc0_scratch9).view.writes (Elt F) f [⟨Rect.unit ![0] S16.size inb_S16_S16_0, w⟩] x = w x := by
  have h := View.read_writes_cons_emb (View.whole cc0_scratch9) (Val := Elt F) f (Rect.unit ![0] S16.size inb_S16_S16_0) w [] x
  rw [View.read_whole] at h
  have e : (Rect.unit (s := S16) ![0] S16.size inb_S16_S16_0).emb x = x := unit16_idx x
  rw [e] at h
  exact h

/-- The counter's step: every lane holds `r`, so every lane of the sum holds `r + 1`. -/
theorem splat_succ (r : Nat) (hr : r < 128) (v59 : Vec F S16 .i32) (h : ∀ x, v59 x = BitVec.ofNat 32 r) (x : S16.Idx) :
    k0_pay42 v59 x = BitVec.ofNat 32 (r + 1) := by
  show IntOp.addi (v59 x) 1#32 = _
  rw [h x]; exact Cert.Words.succ_word r hr
theorem splat_succ' (r : Nat) (hr : r < 128) (v59 : Vec F S16 .i32) (h : ∀ x, v59 x = BitVec.ofNat 32 r) (x : S16.Idx) :
    k0_pay47 v59 x = BitVec.ofNat 32 (r + 1) := by
  show IntOp.addi (v59 x) 1#32 = _
  rw [h x]; exact Cert.Words.succ_word r hr

/-- The counter's start: every lane holds zero. -/
theorem splat_zero (x : S16.Idx) : (k0_pay41 : IVec S16 32) x = BitVec.ofNat 32 0 := rfl
theorem splat_zero' (x : S16.Idx) : (k0_pay46 : IVec S16 32) x = BitVec.ofNat 32 0 := rfl

/-! ## A block of sixteen words of a list of 128 -/

/-- The sixteen-word rectangle at offset `N` of a list of 128 places its lane `x` at word `N + x`. -/
theorem block16_idx (off : Fin 1 → Nat) (inb : ∀ a, off a + S16.size a ≤ S128.size a) (N : Nat) (hoff : off = ![N])
    (hN : N + 16 ≤ 128) (x : Fin 16) :
    (Rect.unit (s := S128) off S16.size inb).toLoadRect.idx (ix1 x) = ix1 (⟨N + x.val, by omega⟩ : Fin 128) := by
  subst hoff
  funext a; apply Fin.ext
  rw [LoadRect.idx_apply, Subsingleton.elim a 0]
  show N + 1 * x.val = N + x.val
  omega

/-- Word `j` of the list is in the block exactly when `N ≤ j < N + 16`. -/
theorem mem_block16 (off : Fin 1 → Nat) (inb : ∀ a, off a + S16.size a ≤ S128.size a) (N : Nat) (hoff : off = ![N])
    (j : Fin 128) : ix1 j ∈ (Rect.unit (s := S128) off S16.size inb).set ↔ N ≤ j.val ∧ j.val < N + 16 := by
  subst hoff
  rw [Rect.mem_set_unit]
  constructor
  · intro h; exact h 0
  · intro h a; rw [Subsingleton.elim a 0]; exact h

/-- A load of the block from the first index scratch reads the list's words `N ‥ N + 15`. -/
theorem block_read0 (fI : Vec F S128 .i32) (off : Fin 1 → Nat) (inb : ∀ a, off a + S16.size a ≤ S128.size a) (N : Nat)
    (hoff : off = ![N]) (hN : N + 16 ≤ 128) (x : Fin 16) :
    View.readAt (Elt F) (Memref.whole cc0_scratch0).view (Rect.unit (s := S128) off S16.size inb).toLoadRect fI (ix1 x)
      = fI (ix1 (⟨N + x.val, by omega⟩ : Fin 128)) := by
  show View.read (Elt F) (View.whole cc0_scratch0) fI _ = _
  rw [View.read_whole, block16_idx off inb N hoff hN x]
/-- The same from the second index scratch. -/
theorem block_read1 (fI : Vec F S128 .i32) (off : Fin 1 → Nat) (inb : ∀ a, off a + S16.size a ≤ S128.size a) (N : Nat)
    (hoff : off = ![N]) (hN : N + 16 ≤ 128) (x : Fin 16) :
    View.readAt (Elt F) (Memref.whole cc0_scratch1).view (Rect.unit (s := S128) off S16.size inb).toLoadRect fI (ix1 x)
      = fI (ix1 (⟨N + x.val, by omega⟩ : Fin 128)) := by
  show View.read (Elt F) (View.whole cc0_scratch1) fI _ = _
  rw [View.read_whole, block16_idx off inb N hoff hN x]

/-- A store of the block into the first list scratch: if the list agreed with `g` below `N` and the stored vector is
    `g` on `N ‥ N + 15`, the list agrees with `g` below `N + 16`. -/
theorem block_stored2 (fQ : Vec F S128 .i32) (off : Fin 1 → Nat) (inb : ∀ a, off a + S16.size a ≤ S128.size a) (N : Nat)
    (hoff : off = ![N]) (hN : N + 16 ≤ 128) (w : Vec F S16 .i32) (g : Fin 128 → BitVec 32)
    (hQ : ∀ j : Fin 128, j.val < N → fQ (ix1 j) = g j)
    (hw : ∀ x : Fin 16, w (ix1 x) = g (⟨N + x.val, by omega⟩ : Fin 128)) :
    ∀ j : Fin 128, j.val < N + 16 →
      (Memref.whole cc0_scratch2).view.writes (Elt F) fQ [⟨Rect.unit (s := S128) off S16.size inb, w⟩] (ix1 j) = g j := by
  intro j hj
  by_cases hlo : N ≤ j.val
  · have h := View.read_writes_cons_emb (View.whole cc0_scratch2) (Val := Elt F) fQ (Rect.unit (s := S128) off S16.size inb) w []
      (ix1 (⟨j.val - N, by omega⟩ : Fin 16))
    rw [View.read_whole] at h
    have e : (Rect.unit (s := S128) off S16.size inb).emb (ix1 (⟨j.val - N, by omega⟩ : Fin 16)) = ix1 j := by
      refine (block16_idx off inb N hoff hN _).trans ?_
      congr 1; apply Fin.ext; show N + (j.val - N) = j.val; omega
    rw [e] at h
    refine h.trans ((hw _).trans ?_)
    congr 1; apply Fin.ext; show N + (j.val - N) = j.val; omega
  · have h := View.read_writes_apply_of_forall_not_mem (View.whole cc0_scratch2) (Val := Elt F) fQ (ix1 j)
      [⟨Rect.unit (s := S128) off S16.size inb, w⟩] (by
        intro p hp
        rw [List.mem_singleton] at hp; subst hp
        rw [mem_block16 off inb N hoff j]; omega)
    rw [View.read_whole, View.read_whole] at h
    exact h.trans (hQ j (by omega))
/-- The same into the second list scratch. -/
theorem block_stored3 (fQ : Vec F S128 .i32) (off : Fin 1 → Nat) (inb : ∀ a, off a + S16.size a ≤ S128.size a) (N : Nat)
    (hoff : off = ![N]) (hN : N + 16 ≤ 128) (w : Vec F S16 .i32) (g : Fin 128 → BitVec 32)
    (hQ : ∀ j : Fin 128, j.val < N → fQ (ix1 j) = g j)
    (hw : ∀ x : Fin 16, w (ix1 x) = g (⟨N + x.val, by omega⟩ : Fin 128)) :
    ∀ j : Fin 128, j.val < N + 16 →
      (Memref.whole cc0_scratch3).view.writes (Elt F) fQ [⟨Rect.unit (s := S128) off S16.size inb, w⟩] (ix1 j) = g j := by
  intro j hj
  by_cases hlo : N ≤ j.val
  · have h := View.read_writes_cons_emb (View.whole cc0_scratch3) (Val := Elt F) fQ (Rect.unit (s := S128) off S16.size inb) w []
      (ix1 (⟨j.val - N, by omega⟩ : Fin 16))
    rw [View.read_whole] at h
    have e : (Rect.unit (s := S128) off S16.size inb).emb (ix1 (⟨j.val - N, by omega⟩ : Fin 16)) = ix1 j := by
      refine (block16_idx off inb N hoff hN _).trans ?_
      congr 1; apply Fin.ext; show N + (j.val - N) = j.val; omega
    rw [e] at h
    refine h.trans ((hw _).trans ?_)
    congr 1; apply Fin.ext; show N + (j.val - N) = j.val; omega
  · have h := View.read_writes_apply_of_forall_not_mem (View.whole cc0_scratch3) (Val := Elt F) fQ (ix1 j)
      [⟨Rect.unit (s := S128) off S16.size inb, w⟩] (by
        intro p hp
        rw [List.mem_singleton] at hp; subst hp
        rw [mem_block16 off inb N hoff j]; omega)
    rw [View.read_whole, View.read_whole] at h
    exact h.trans (hQ j (by omega))

/-! ## One trip of the loop that shifts the query words into the row list

Trip `k` of eight loads words `16 k ‥ 16 k + 15` of the index scratch, shifts each right by two and stores them
at the same places of the list scratch. -/

theorem trips1_lt (k : Fin k0_t1_loop.trips) : k.val < 8 := lt_of_lt_of_le k.isLt k0_t1_abs.2.1
theorem trips2_lt (k : Fin k0_t2_loop.trips) : k.val < 8 := lt_of_lt_of_le k.isLt k0_t2_abs.2.1
theorem trips5_lt (k : Fin k0_t5_loop.trips) : k.val < 8 := lt_of_lt_of_le k.isLt k0_t5_abs.2.1
theorem trips7_lt (k : Fin k0_t7_loop.trips) : k.val < 8 := lt_of_lt_of_le k.isLt k0_t7_abs.2.1

/-- The first slot's trip before the main loop. -/
theorem q_stored0 (fI fQ : Vec F S128 .i32) (k : Fin k0_t1_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch2).view.writes (Elt F) fQ
        [⟨Rect.unit (s := S128) (k0_off2 k) S16.size (k0_off2_inb k),
          k0_pay44 (View.readAt (Elt F) (Memref.whole cc0_scratch0).view (Rect.unit (s := S128) (k0_off2 k) S16.size (k0_off2_inb k)).toLoadRect fI)⟩] (ix1 j)
        = IntOp.shrsi .vector (fI (ix1 j)) 2#32 := by
  have hk := trips1_lt k
  intro j hj
  have h1 : 16 * k.val + 16 ≤ 128 := by omega
  have h2 : j.val < 16 * k.val + 16 := by omega
  refine block_stored2 fQ (k0_off2 k) (k0_off2_inb k) (16 * k.val) (k0_off2_eq k) h1 _
    (fun j => IntOp.shrsi .vector (fI (ix1 j)) 2#32) hQ (fun x => ?_) j h2
  have hb := block_read0 fI (k0_off2 k) (k0_off2_inb k) (16 * k.val) (k0_off2_eq k) h1 x
  exact congrArg (fun t => IntOp.shrsi .vector t 2#32) hb
/-- The second slot's trip before the main loop. -/
theorem q_stored1 (fI fQ : Vec F S128 .i32) (k : Fin k0_t2_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch3).view.writes (Elt F) fQ
        [⟨Rect.unit (s := S128) (k0_off3 k) S16.size (k0_off3_inb k),
          k0_pay45 (View.readAt (Elt F) (Memref.whole cc0_scratch1).view (Rect.unit (s := S128) (k0_off3 k) S16.size (k0_off3_inb k)).toLoadRect fI)⟩] (ix1 j)
        = IntOp.shrsi .vector (fI (ix1 j)) 2#32 := by
  have hk := trips2_lt k
  intro j hj
  have h1 : 16 * k.val + 16 ≤ 128 := by omega
  have h2 : j.val < 16 * k.val + 16 := by omega
  refine block_stored3 fQ (k0_off3 k) (k0_off3_inb k) (16 * k.val) (k0_off3_eq k) h1 _
    (fun j => IntOp.shrsi .vector (fI (ix1 j)) 2#32) hQ (fun x => ?_) j h2
  have hb := block_read1 fI (k0_off3 k) (k0_off3_inb k) (16 * k.val) (k0_off3_eq k) h1 x
  exact congrArg (fun t => IntOp.shrsi .vector t 2#32) hb
/-- The first slot's trip inside the main loop. -/
theorem q_stored0' (fI fQ : Vec F S128 .i32) (k0_t3 : Fin k0_t3_loop.trips) (k0_h2 : k0_cond2 k0_t3 = 1#1) (k : Fin k0_t5_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch2).view.writes (Elt F) fQ
        [⟨Rect.unit (s := S128) (k0_off14 k) S16.size (k0_off14_inb k0_t3 k k0_h2),
          k0_pay43 (View.readAt (Elt F) (Memref.whole cc0_scratch0).view (Rect.unit (s := S128) (k0_off14 k) S16.size (k0_off14_inb k0_t3 k k0_h2)).toLoadRect fI)⟩] (ix1 j)
        = IntOp.shrsi .vector (fI (ix1 j)) 2#32 := by
  have hk := trips5_lt k
  intro j hj
  have h1 : 16 * k.val + 16 ≤ 128 := by omega
  have h2 : j.val < 16 * k.val + 16 := by omega
  refine block_stored2 fQ (k0_off14 k) (k0_off14_inb k0_t3 k k0_h2) (16 * k.val) (k0_off14_eq k) h1 _
    (fun j => IntOp.shrsi .vector (fI (ix1 j)) 2#32) hQ (fun x => ?_) j h2
  have hb := block_read0 fI (k0_off14 k) (k0_off14_inb k0_t3 k k0_h2) (16 * k.val) (k0_off14_eq k) h1 x
  exact congrArg (fun t => IntOp.shrsi .vector t 2#32) hb
/-- The second slot's trip inside the main loop. -/
theorem q_stored1' (fI fQ : Vec F S128 .i32) (k0_t3 : Fin k0_t3_loop.trips) (k0_h4 : k0_cond4 k0_t3 = 1#1) (k : Fin k0_t7_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch3).view.writes (Elt F) fQ
        [⟨Rect.unit (s := S128) (k0_off26 k) S16.size (k0_off26_inb k0_t3 k k0_h4),
          k0_pay48 (View.readAt (Elt F) (Memref.whole cc0_scratch1).view (Rect.unit (s := S128) (k0_off26 k) S16.size (k0_off26_inb k0_t3 k k0_h4)).toLoadRect fI)⟩] (ix1 j)
        = IntOp.shrsi .vector (fI (ix1 j)) 2#32 := by
  have hk := trips7_lt k
  intro j hj
  have h1 : 16 * k.val + 16 ≤ 128 := by omega
  have h2 : j.val < 16 * k.val + 16 := by omega
  refine block_stored3 fQ (k0_off26 k) (k0_off26_inb k0_t3 k k0_h4) (16 * k.val) (k0_off26_eq k) h1 _
    (fun j => IntOp.shrsi .vector (fI (ix1 j)) 2#32) hQ (fun x => ?_) j h2
  have hb := block_read1 fI (k0_off26 k) (k0_off26_inb k0_t3 k k0_h4) (16 * k.val) (k0_off26_eq k) h1 x
  exact congrArg (fun t => IntOp.shrsi .vector t 2#32) hb

/-! ## A chunk of query words landed, and the centroids landed -/

/-- A rank-one array read through the 128-word window at offset `N`: lane `j` of the window is word `N + j`. -/
theorem window_read (xq : Vec F S204800 .i32) (off : Fin 1 → Nat) (h : ∀ a, off a + S128.size a ≤ S204800.size a) (N : Nat)
    (hoff : off = ![N]) (hN : N + 128 ≤ 204800) (j : Fin 128) :
    View.read (Elt F) ((Memref.whole main_v0_scv).slice (Rect.unit (s := S204800) off S128.size h) (fun _ => rfl)).view xq (ix1 j)
      = xq (ix1 (⟨N + j.val, by omega⟩ : Fin 204800)) := by
  subst hoff
  show _root_.cast rfl (xq ((Rect.unit (s := S204800) ![N] S128.size h).emb (ix1 j))) = _
  rw [cast_eq]
  refine congrArg xq ?_
  funext a; apply Fin.ext
  rw [Subsingleton.elim a 0]
  show N + 1 * j.val = N + j.val
  omega

/-- The transfer of the window into the first index scratch leaves the window's words there. -/
theorem chunk_landed0 (xq : Vec F S204800 .i32) (off : Fin 1 → Nat) (h : ∀ a, off a + S128.size a ≤ S204800.size a) (N : Nat)
    (hoff : off = ![N]) (hN : N + 128 ≤ 204800) (f0 : Vec F S128 .i32) (j : Fin 128) :
    View.write (Elt F) (Memref.whole cc0_scratch0).view f0
        (ReadAs.same.apply (View.read (Elt F) ((Memref.whole main_v0_scv).slice (Rect.unit (s := S204800) off S128.size h) (fun _ => rfl)).view xq))
        Finset.univ (ix1 j)
      = xq (ix1 (⟨N + j.val, by omega⟩ : Fin 204800)) :=
  (congrFun (View.write_whole_univ (Val := Elt F) cc0_scratch0 f0 _) (ix1 j)).trans (window_read xq off h N hoff hN j)
/-- The same into the second index scratch. -/
theorem chunk_landed1 (xq : Vec F S204800 .i32) (off : Fin 1 → Nat) (h : ∀ a, off a + S128.size a ≤ S204800.size a) (N : Nat)
    (hoff : off = ![N]) (hN : N + 128 ≤ 204800) (f0 : Vec F S128 .i32) (j : Fin 128) :
    View.write (Elt F) (Memref.whole cc0_scratch1).view f0
        (ReadAs.same.apply (View.read (Elt F) ((Memref.whole main_v0_scv).slice (Rect.unit (s := S204800) off S128.size h) (fun _ => rfl)).view xq))
        Finset.univ (ix1 j)
      = xq (ix1 (⟨N + j.val, by omega⟩ : Fin 204800)) :=
  (congrFun (View.write_whole_univ (Val := Elt F) cc0_scratch1 f0 _) (ix1 j)).trans (window_read xq off h N hoff hN j)

/-- Inside a tile's 6400 queries the clamp of `qAt` is vacuous. -/
theorem qAt_eq (xq : Vec F S204800 .i32) (R : Nat) (hR : R < 204800) : qAt xq R = xq (ix1 (⟨R, hR⟩ : Fin 204800)) := by
  unfold qAt
  congr 2; apply Fin.ext; show min R 204799 = R; omega

/-- Chunk `n` of tile `L` landed in the first index scratch. -/
theorem chunkI_landed0 (xq : Vec F S204800 .i32) (off : Fin 1 → Nat) (h : ∀ a, off a + S128.size a ≤ S204800.size a)
    (L : grid0.Coords) (n : Nat) (hn : n < 50) (hoff : off = ![base L + 128 * n]) (f0 : Vec F S128 .i32) :
    ChunkI xq L n (View.write (Elt F) (Memref.whole cc0_scratch0).view f0
        (ReadAs.same.apply (View.read (Elt F) ((Memref.whole main_v0_scv).slice (Rect.unit (s := S204800) off S128.size h) (fun _ => rfl)).view xq))
        Finset.univ) := by
  intro j
  have hb := base_le L
  have hj := j.isLt
  rw [chunk_landed0 xq off h (base L + 128 * n) hoff (by omega) f0 j, qAt_eq xq _ (by omega)]
/-- Chunk `n` of tile `L` landed in the second index scratch. -/
theorem chunkI_landed1 (xq : Vec F S204800 .i32) (off : Fin 1 → Nat) (h : ∀ a, off a + S128.size a ≤ S204800.size a)
    (L : grid0.Coords) (n : Nat) (hn : n < 50) (hoff : off = ![base L + 128 * n]) (f0 : Vec F S128 .i32) :
    ChunkI xq L n (View.write (Elt F) (Memref.whole cc0_scratch1).view f0
        (ReadAs.same.apply (View.read (Elt F) ((Memref.whole main_v0_scv).slice (Rect.unit (s := S204800) off S128.size h) (fun _ => rfl)).view xq))
        Finset.univ) := by
  intro j
  have hb := base_le L
  have hj := j.isLt
  rw [chunk_landed1 xq off h (base L + 128 * n) hoff (by omega) f0 j, qAt_eq xq _ (by omega)]

/-- The transfer of the whole centroid list into its scratch leaves the list there. -/
theorem book_landed (xb f8 : Vec F S64 .f32) :
    View.write (Elt F) (Memref.whole cc0_scratch8).view f8
        (ReadAs.same.apply (View.read (Elt F) (Memref.whole main_v2_scv).view xb)) Finset.univ = xb :=
  View.write_whole_univ (Val := Elt F) cc0_scratch8 f8 _

/-! ## From the scratches' contents to the decoded rows -/

/-- A chunk's decoded row computed from the scratches is the decoded row of the flat query it stands for. -/
theorem chunk_value (xq : Vec F S204800 .i32) (xc : Vec F S25000x128 .i32) (xb : Vec F S64 .f32) (L : grid0.Coords) (n : Nat)
    (fI : Vec F S128 .i32) (fC : Vec F S128x128 .i32) (hI : ChunkI xq L n fI) (hC : ChunkC xq xc L n fC) (r e : Fin 128) :
    rowGAt fI fC xb r e = oAt xq xc xb (base L + 128 * n + r.val) e := by
  unfold rowGAt oAt Cert.Decode.flatAt
  rw [hC r _, hI r]
  rfl

/-- The gathered rows hold codes when the table does. -/
theorem codes_le (xq : Vec F S204800 .i32) (xc : Vec F S25000x128 .i32) (L : grid0.Coords) (n : Nat) (fC : Vec F S128x128 .i32)
    (hC : ChunkC xq xc L n fC) (hle : ∀ j, (xc j).toNat ≤ 15) : ∀ j, (fC j).toNat ≤ 15 := by
  intro j
  obtain ⟨a, b, rfl⟩ : ∃ a b : Fin 128, j = ix2 a b := ⟨j 0, j 1, eq_ix2 (n0 := 128) (n1 := 128) j⟩
  rw [hC a b]
  exact hle _

/-- After the eight trips the list scratch holds the chunk's words shifted. -/
theorem chunkQ_of (xq : Vec F S204800 .i32) (L : grid0.Coords) (n : Nat) (fI fQ : Vec F S128 .i32) (hI : ChunkI xq L n fI)
    (hQ : ∀ j : Fin 128, j.val < 16 * 8 → fQ (ix1 j) = IntOp.shrsi .vector (fI (ix1 j)) 2#32) : ChunkQ xq L n fQ := by
  intro j
  rw [hQ j (by have := j.isLt; omega), hI j]

/-! ## The gathered rows landed -/

/-- The packed table read through the window that is all of it is the table. -/
theorem table_read (xc : Vec F S25000x128 .i32) :
    View.read (Elt F) ((Memref.whole main_v1_scv).slice (Rect.unit (s := S25000x128) ![0, 0] S25000x128.size inb_S25000x128_S25000x128_0_0) (fun _ => rfl)).view xc = xc :=
  Memref.read_access_unit_zero (Elt F) main_v1_scv (by funext a; match a with | ⟨0, _⟩ => rfl | ⟨1, _⟩ => rfl) _ xc

/-- The gather through the first row list landed: row `r` of the code scratch is the table's row that word `r` of the list names. -/
theorem gather_landed0 (xc : Vec F S25000x128 .i32) (fQ : Vec F S128 .i32)
    (hn : S128.numel = S128x128.size (gathers_S25000x128_S128x128).axis')
    (hin : ∀ x, (View.read (Elt F) (Memref.whole cc0_scratch2).view fQ x).toNat < S25000x128.size (gathers_S25000x128_S128x128).axis)
    (f4 : Vec F S128x128 .i32) (r col : Fin 128) (hr : (fQ (ix1 r)).toNat < 25000) :
    (Memref.whole cc0_scratch4).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch2).view fQ) hn hin)⟩] (ix2 r col)
      = xc (ix2 (⟨(fQ (ix1 r)).toNat, hr⟩ : Fin 25000) col) := by
  refine (congrFun (Memref.write_access_whole_univ (Elt F) cc0_scratch4 f4 _) (ix2 r col)).trans ?_
  rw [table_read xc]
  exact gathered_apply xc _ hn hin r col

/-- Every word of a shifted chunk names a row of the packed table. -/
theorem hin_of_chunkQ0 (xq : Vec F S204800 .i32) (L : grid0.Coords) (n : Nat) (fQ : Vec F S128 .i32) (hq : ChunkQ xq L n fQ)
    (hle : ∀ j, (xq j).toNat ≤ 99999) :
    ∀ x, (View.read (Elt F) (Memref.whole cc0_scratch2).view fQ x).toNat < S25000x128.size (gathers_S25000x128_S128x128).axis := by
  have key : ∀ y : S128.Idx, (fQ y).toNat < 25000 := by
    intro y
    obtain ⟨l, rfl⟩ : ∃ l : Fin 128, y = ix1 l := ⟨y 0, eq_ix1 (n := 128) y⟩
    rw [hq l]
    exact Cert.Words.row_lt _ (hle _)
  exact fun x => key x

/-- The gathered rows are the chunk's rows of the packed table. -/
theorem chunkC_landed0 (xq : Vec F S204800 .i32) (xc : Vec F S25000x128 .i32) (L : grid0.Coords) (n : Nat) (fQ : Vec F S128 .i32)
    (hq : ChunkQ xq L n fQ) (hle : ∀ j, (xq j).toNat ≤ 99999)
    (hn : S128.numel = S128x128.size (gathers_S25000x128_S128x128).axis')
    (hin : ∀ x, (View.read (Elt F) (Memref.whole cc0_scratch2).view fQ x).toNat < S25000x128.size (gathers_S25000x128_S128x128).axis)
    (f4 : Vec F S128x128 .i32) :
    ChunkC xq xc L n ((Memref.whole cc0_scratch4).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch2).view fQ) hn hin)⟩]) := by
  intro r col
  have hw : (qAt xq (base L + 128 * n + r.val)).toNat ≤ 99999 := hle _
  have hr : (fQ (ix1 r)).toNat < 25000 := by rw [hq r]; exact Cert.Words.row_lt _ hw
  rw [gather_landed0 xc fQ hn hin f4 r col hr]
  refine congrArg (fun t => xc (ix2 t col)) (Fin.ext ?_)
  show (fQ (ix1 r)).toNat = min ((qAt xq (base L + 128 * n + r.val)).toNat / 4) 24999
  rw [hq r, Cert.Words.row_toNat _ hw]
  omega

/-- The gather through the second row list landed: row `r` of the code scratch is the table's row that word `r` of the list names. -/
theorem gather_landed1 (xc : Vec F S25000x128 .i32) (fQ : Vec F S128 .i32)
    (hn : S128.numel = S128x128.size (gathers_S25000x128_S128x128).axis')
    (hin : ∀ x, (View.read (Elt F) (Memref.whole cc0_scratch3).view fQ x).toNat < S25000x128.size (gathers_S25000x128_S128x128).axis)
    (f4 : Vec F S128x128 .i32) (r col : Fin 128) (hr : (fQ (ix1 r)).toNat < 25000) :
    (Memref.whole cc0_scratch5).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch3).view fQ) hn hin)⟩] (ix2 r col)
      = xc (ix2 (⟨(fQ (ix1 r)).toNat, hr⟩ : Fin 25000) col) := by
  refine (congrFun (Memref.write_access_whole_univ (Elt F) cc0_scratch5 f4 _) (ix2 r col)).trans ?_
  rw [table_read xc]
  exact gathered_apply xc _ hn hin r col

/-- Every word of a shifted chunk names a row of the packed table. -/
theorem hin_of_chunkQ1 (xq : Vec F S204800 .i32) (L : grid0.Coords) (n : Nat) (fQ : Vec F S128 .i32) (hq : ChunkQ xq L n fQ)
    (hle : ∀ j, (xq j).toNat ≤ 99999) :
    ∀ x, (View.read (Elt F) (Memref.whole cc0_scratch3).view fQ x).toNat < S25000x128.size (gathers_S25000x128_S128x128).axis := by
  have key : ∀ y : S128.Idx, (fQ y).toNat < 25000 := by
    intro y
    obtain ⟨l, rfl⟩ : ∃ l : Fin 128, y = ix1 l := ⟨y 0, eq_ix1 (n := 128) y⟩
    rw [hq l]
    exact Cert.Words.row_lt _ (hle _)
  exact fun x => key x

/-- The gathered rows are the chunk's rows of the packed table. -/
theorem chunkC_landed1 (xq : Vec F S204800 .i32) (xc : Vec F S25000x128 .i32) (L : grid0.Coords) (n : Nat) (fQ : Vec F S128 .i32)
    (hq : ChunkQ xq L n fQ) (hle : ∀ j, (xq j).toNat ≤ 99999)
    (hn : S128.numel = S128x128.size (gathers_S25000x128_S128x128).axis')
    (hin : ∀ x, (View.read (Elt F) (Memref.whole cc0_scratch3).view fQ x).toNat < S25000x128.size (gathers_S25000x128_S128x128).axis)
    (f4 : Vec F S128x128 .i32) :
    ChunkC xq xc L n ((Memref.whole cc0_scratch5).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch3).view fQ) hn hin)⟩]) := by
  intro r col
  have hw : (qAt xq (base L + 128 * n + r.val)).toNat ≤ 99999 := hle _
  have hr : (fQ (ix1 r)).toNat < 25000 := by rw [hq r]; exact Cert.Words.row_lt _ hw
  rw [gather_landed1 xc fQ hn hin f4 r col hr]
  refine congrArg (fun t => xc (ix2 t col)) (Fin.ext ?_)
  show (fQ (ix1 r)).toNat = min ((qAt xq (base L + 128 * n + r.val)).toNat / 4) 24999
  rw [hq r, Cert.Words.row_toNat _ hw]
  omega

end Cert.Proof.KI

end
-- ==== Proof.KIQTrip.lean ====
/-
  One trip of the loops that turn a chunk's query words into its row list: the trip reads sixteen query words, shifts
  each right by two, and stores them at the same places of the list. Run against the invariant "the first 16 k
  entries of the list are the shifted words", a trip extends it to the first 16 (k + 1).
-/
import proofs.«215948_g88356067214102_cont_sun_c4_674_26_alg».proof.Proof.KICore
import proofs.«215948_g88356067214102_cont_sun_c4_674_26_alg».proof.Proof.KIGlue

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sQ0" => (Memref.whole Cert.KernelIdeal.cc0_scratch2 : Memref Cert.KernelIdeal.sig Kind.scVector Space.vmem Cert.KernelIdeal.S128 EltTy.i32)
local notation "sQ1" => (Memref.whole Cert.KernelIdeal.cc0_scratch3 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)
local notation "qV" => (Memref.whole Cert.KernelIdeal.main_v0_scv : Memref Cert.KernelIdeal.sig Kind.scVector Space.hbm Cert.KernelIdeal.S204800 EltTy.i32)
local notation "cVm" => (Memref.whole Cert.KernelIdeal.main_v1_scv : Memref Cert.KernelIdeal.sig Kind.scVector Space.hbm Cert.KernelIdeal.S25000x128 EltTy.i32)
local notation "bV" => (Memref.whole Cert.KernelIdeal.main_v2_scv : Memref Cert.KernelIdeal.sig Kind.scVector Space.hbm Cert.KernelIdeal.S64 EltTy.f32)
local notation "oV" => (Memref.whole Cert.KernelIdeal.main_v3_scv : Memref Cert.KernelIdeal.sig Kind.scVector Space.hbm Cert.KernelIdeal.S204800x128 EltTy.f32)

variable [FloatOps F]

/-- The list loop's invariant (slot 0): the query words untouched; the first `16 k` list entries are the words shifted
    right by two. -/
def qInv0 (d : Dev nD) (L : grid0.Coords) (fI : Buf (Elt F) ((tth d L).loc cc0_scratch0)) (k : Nat) (_ : PUnit) : sProp 𝕄 :=
  iprop(((sI0).view.loc (tth d L) ↦{fullShare} fI)
    ∗ ∃ fQ : Buf (Elt F) ((tth d L).loc cc0_scratch2), ((sQ0).view.loc (tth d L) ↦{fullShare} fQ)
      ∗ ⌜∀ j : Fin 128, j.val < 16 * k → fQ (ix1 j) = IntOp.shrsi .vector (fI (ix1 j)) 2#32⌝)

/-- The list loop's invariant (slot 1): the same over the second query scratch and the second list. -/
def qInv1 (d : Dev nD) (L : grid0.Coords) (fI : Buf (Elt F) ((tth d L).loc cc0_scratch1)) (k : Nat) (_ : PUnit) : sProp 𝕄 :=
  iprop(((sI1).view.loc (tth d L) ↦{fullShare} fI)
    ∗ ∃ fQ : Buf (Elt F) ((tth d L).loc cc0_scratch3), ((sQ1).view.loc (tth d L) ↦{fullShare} fQ)
      ∗ ⌜∀ j : Fin 128, j.val < 16 * k → fQ (ix1 j) = IntOp.shrsi .vector (fI (ix1 j)) 2#32⌝)

set_option maxHeartbeats 1000000 in
/-- Slot 0's trip before the main loop. -/
theorem q_trip0 (d : Dev nD) (L : grid0.Coords) (fI : Buf (Elt F) ((tth d L).loc cc0_scratch0)) (k : Fin k0_t1_loop.trips) :
    qInv0 d L fI k.val ⟨⟩
      ⊢ wp frame (wpE (defs₀ (F := F)) 𝒱₀ (tth d L) none) Set.univ
          (k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 k ())
          (fun _ => qInv0 d L fI (k.val + 1) ⟨⟩) := by
  unfold qInv0 k0_t1_body
  iintro ⟨HI, %fQ, HQ, %hQ⟩
  sl_exec
  sl_step
  isplitl [HI]; · iexact HI
  iexists _; isplitl [HQ]; · iexact HQ
  ipureintro
  exact q_stored0 fI fQ k hQ

set_option maxHeartbeats 1000000 in
/-- Slot 1's trip before the main loop. -/
theorem q_trip1 (d : Dev nD) (L : grid0.Coords) (fI : Buf (Elt F) ((tth d L).loc cc0_scratch1)) (k : Fin k0_t2_loop.trips) :
    qInv1 d L fI k.val ⟨⟩
      ⊢ wp frame (wpE (defs₀ (F := F)) 𝒱₀ (tth d L) none) Set.univ
          (k0_t2_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 k ())
          (fun _ => qInv1 d L fI (k.val + 1) ⟨⟩) := by
  unfold qInv1 k0_t2_body
  iintro ⟨HI, %fQ, HQ, %hQ⟩
  sl_exec
  sl_step
  isplitl [HI]; · iexact HI
  iexists _; isplitl [HQ]; · iexact HQ
  ipureintro
  exact q_stored1 fI fQ k hQ

set_option maxHeartbeats 1000000 in
/-- Slot 0's trip inside the main loop. -/
theorem q_trip0' (d : Dev nD) (L : grid0.Coords) (fI : Buf (Elt F) ((tth d L).loc cc0_scratch0)) (v2 : BitVec 32) (k0_t3 : Fin k0_t3_loop.trips) (k0_h2 : k0_cond2 k0_t3 = 1#1) (k : Fin k0_t5_loop.trips) :
    qInv0 d L fI k.val ⟨⟩
      ⊢ wp frame (wpE (defs₀ (F := F)) 𝒱₀ (tth d L) none) Set.univ
          (k0_t5_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 0#32 1#32 k0_t3 k0_h2 k ())
          (fun _ => qInv0 d L fI (k.val + 1) ⟨⟩) := by
  unfold qInv0 k0_t5_body
  iintro ⟨HI, %fQ, HQ, %hQ⟩
  sl_exec
  sl_step
  isplitl [HI]; · iexact HI
  iexists _; isplitl [HQ]; · iexact HQ
  ipureintro
  exact q_stored0' fI fQ k0_t3 k0_h2 k hQ

set_option maxHeartbeats 1000000 in
/-- Slot 1's trip inside the main loop. -/
theorem q_trip1' (d : Dev nD) (L : grid0.Coords) (fI : Buf (Elt F) ((tth d L).loc cc0_scratch1)) (k0_t3 : Fin k0_t3_loop.trips) (k0_h4 : k0_cond4 k0_t3 = 1#1) (k : Fin k0_t7_loop.trips) :
    qInv1 d L fI k.val ⟨⟩
      ⊢ wp frame (wpE (defs₀ (F := F)) 𝒱₀ (tth d L) none) Set.univ
          (k0_t7_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 k0_t3 k0_h4 k ())
          (fun _ => qInv1 d L fI (k.val + 1) ⟨⟩) := by
  unfold qInv1 k0_t7_body
  iintro ⟨HI, %fQ, HQ, %hQ⟩
  sl_exec
  sl_step
  isplitl [HI]; · iexact HI
  iexists _; isplitl [HQ]; · iexact HQ
  ipureintro
  exact q_stored1' fI fQ k0_t3 k0_h4 k hQ

end Cert.Proof.KI

end
-- ==== Proof.KIGlue2.lean ====
/-
  The write-out's block.

  Tile `L` writes chunk `n` of its decoded rows to rows `base L + 128 n ‥ base L + 128 n + 127` of the flat result.
  The flat result is cut into 1600 blocks of 128 rows, block `b` being rows `128 b ‥ 128 b + 127`; the tile's chunk
  `n` is block `100 (L 1) + 50 (L 0) + n`, since `base L = 128 (100 (L 1) + 50 (L 0))`. So the window a write-out goes
  through is one of these blocks, and what lands there is the decoded rows of the block's flat queries.
-/
import proofs.«215948_g88356067214102_cont_sun_c4_674_26_alg».proof.Proof.KICore
import proofs.«215948_g88356067214102_cont_sun_c4_674_26_alg».proof.Proof.KILaunchRegroup
import Idealize.ShloMosaic.Lib.ValueIdx

noncomputable section

namespace Cert.Proof.KI

open Cert.KernelIdeal Cert.KernelIdeal.Gen Idealize.ShloMosaic Idealize.ShloMosaic.ValueIdx

variable {F : FTy → Type} [FloatOps F]

/-! ## Blocks and windows as ranges of rows -/

theorem partIx_row (b : Nat) : Shape.partIx S204800x128 0 b 0 = b := rfl
theorem partSize_row : Shape.partSize S204800x128 0 1600 0 = 128 := rfl
theorem partIx_col (b : Nat) : Shape.partIx S204800x128 0 b 1 = 0 := rfl
theorem partSize_col : Shape.partSize S204800x128 0 1600 1 = 128 := rfl

/-- An index of the flat result is in block `b` exactly when its row is one of the block's 128. -/
theorem mem_blk (b : Fin 1600) (i : S204800x128.Idx) :
    i ∈ (blk b).set ↔ 128 * b.val ≤ (i 0).val ∧ (i 0).val < 128 * b.val + 128 := by
  rw [Rect.mem_set_unit]
  constructor
  · intro h
    have h0 : Shape.partIx S204800x128 0 b.val 0 * Shape.partSize S204800x128 0 1600 0 ≤ (i 0).val
        ∧ (i 0).val < Shape.partIx S204800x128 0 b.val 0 * Shape.partSize S204800x128 0 1600 0 + Shape.partSize S204800x128 0 1600 0 := h 0
    rw [partIx_row, partSize_row] at h0
    omega
  · intro h a
    match a with
    | ⟨0, _⟩ =>
      show Shape.partIx S204800x128 0 b.val 0 * Shape.partSize S204800x128 0 1600 0 ≤ (i 0).val
        ∧ (i 0).val < Shape.partIx S204800x128 0 b.val 0 * Shape.partSize S204800x128 0 1600 0 + Shape.partSize S204800x128 0 1600 0
      rw [partIx_row, partSize_row]
      omega
    | ⟨1, _⟩ =>
      show Shape.partIx S204800x128 0 b.val 1 * Shape.partSize S204800x128 0 1600 1 ≤ (i 1).val
        ∧ (i 1).val < Shape.partIx S204800x128 0 b.val 1 * Shape.partSize S204800x128 0 1600 1 + Shape.partSize S204800x128 0 1600 1
      rw [partIx_col, partSize_col]
      have hi : (i 1).val < 128 := (i 1).isLt
      omega

/-- An index of the flat result is under the 128-row window at row `N` exactly when its row is one of those 128. -/
theorem mem_window (off : Fin 2 → Nat) (inb : ∀ a, off a + S128x128.size a ≤ S204800x128.size a) (N : Nat) (hoff : off = ![N, 0])
    (i : S204800x128.Idx) :
    i ∈ (Rect.unit (s := S204800x128) off S128x128.size inb).set ↔ N ≤ (i 0).val ∧ (i 0).val < N + 128 := by
  subst hoff
  rw [Rect.mem_set_unit]
  constructor
  · intro h; exact h 0
  · intro h a
    match a with
    | ⟨0, _⟩ => exact h
    | ⟨1, _⟩ =>
      have hi : (i 1).val < 128 := (i 1).isLt
      show 0 ≤ (i 1).val ∧ (i 1).val < 0 + 128
      omega

/-- The window at the first row of block `b` is block `b`. -/
theorem window_set (off : Fin 2 → Nat) (inb : ∀ a, off a + S128x128.size a ≤ S204800x128.size a) (b : Fin 1600)
    (hoff : off = ![128 * b.val, 0]) :
    ((Memref.whole main_v3_scv : Memref sig .scVector .hbm S204800x128 .f32).slice (Rect.unit (s := S204800x128) off S128x128.size inb) (fun _ => rfl)).view.set
      = blkSet b := by
  rw [blkSet_eq]
  show ((View.whole (main_v3_scv : Ref sig .scVector)).slice (Rect.unit (s := S204800x128) off S128x128.size inb)).set = _
  rw [View.set_slice_whole]
  ext i
  rw [mem_window off inb (128 * b.val) hoff i, mem_blk b i]

/-! ## The tile's blocks -/

theorem trips3_lt (k : Fin k0_t3_loop.trips) : k.val < 25 := lt_of_lt_of_le k.isLt k0_t3_abs.2.1

/-- For `n < 50` the tile's block number does not wrap. -/
theorem bk_val (L : grid0.Coords) (n : Nat) (hn : n < 50) : (bk L n).val = 100 * (L 1).val + 50 * (L 0).val + n := by
  have h1 : (L 1).val < 16 := (L 1).isLt
  have h0 : (L 0).val < 2 := (L 0).isLt
  show (100 * (L 1).val + 50 * (L 0).val + n) % 1600 = _
  exact Nat.mod_eq_of_lt (by omega)

/-- Its first row is the first query of the tile's chunk `n`. -/
theorem bk_row (L : grid0.Coords) (n : Nat) (hn : n < 50) : 128 * (bk L n).val = base L + 128 * n := by
  rw [bk_val L n hn]; unfold base; omega

/-- The launch side numbers the same block by the tile's two coordinates. -/
theorem bk_eq_blkOf (L : grid0.Coords) (j : Fin 50) : bk L j.val = blkOf (Fin.cast rfl (L 0)) (Fin.cast rfl (L 1)) j := by
  apply Fin.ext
  rw [bk_val L j.val j.isLt]
  rfl

/-- The write-outs' offsets in closed form: trip `k` writes the tile's chunks `2 k` and `2 k + 1`. -/
theorem off15_eq0 (L : grid0.Coords) (k : Fin k0_t3_loop.trips) : k0_off15 L k 0#32 = ![base L + 128 * (2 * k.val), 0] := by
  have e : 12800 * (L 1).val + 6400 * (L 0).val + 256 * k.val + 128 * ((⟨0, by decide⟩ : Fin 2)).val = base L + 128 * (2 * k.val) := by
    show 12800 * (L 1).val + 6400 * (L 0).val + 256 * k.val + 128 * 0 = _
    unfold base; omega
  exact (k0_off15_eq L k ⟨0, by decide⟩).trans (congrArg (fun t => (![t, 0] : Fin 2 → Nat)) e)
theorem off15_eq1 (L : grid0.Coords) (k : Fin k0_t3_loop.trips) : k0_off15 L k 1#32 = ![base L + 128 * (2 * k.val + 1), 0] := by
  have e : 12800 * (L 1).val + 6400 * (L 0).val + 256 * k.val + 128 * ((⟨1, by decide⟩ : Fin 2)).val = base L + 128 * (2 * k.val + 1) := by
    show 12800 * (L 1).val + 6400 * (L 0).val + 256 * k.val + 128 * 1 = _
    unfold base; omega
  exact (k0_off15_eq L k ⟨1, by decide⟩).trans (congrArg (fun t => (![t, 0] : Fin 2 → Nat)) e)

/-! ## A write through a window -/

/-- An unmasked write of a 128 × 128 block through the window at row `N` leaves entry `(r, e)` of the block at `(N + r, e)`. -/
theorem window_write (off : Fin 2 → Nat) (inb : ∀ a, off a + S128x128.size a ≤ S204800x128.size a) (N : Nat) (hoff : off = ![N, 0])
    (hN : N + 128 ≤ 204800) (f0 : Vec F S204800x128 .f32) (w : Vec F S128x128 .f32) (r e : Fin 128) :
    View.write (Elt F) ((Memref.whole main_v3_scv).slice (Rect.unit (s := S204800x128) off S128x128.size inb) (fun _ => rfl)).view f0 w Finset.univ
        (ix2 (⟨N + r.val, by omega⟩ : Fin 204800) e) = w (ix2 r e) := by
  subst hoff
  have h := View.write_emb_of_mem (Val := Elt F)
    (v := ((Memref.whole main_v3_scv).slice (Rect.unit (s := S204800x128) ![N, 0] S128x128.size inb) (fun _ => rfl)).view) f0 w
    (M := Finset.univ) (x := ix2 r e) (Finset.mem_univ _)
  have he : ((Memref.whole main_v3_scv).slice (Rect.unit (s := S204800x128) ![N, 0] S128x128.size inb) (fun _ => rfl)).view.emb (ix2 r e)
      = ix2 (⟨N + r.val, by omega⟩ : Fin 204800) e := by
    funext a
    match a with
    | ⟨0, _⟩ => exact Fin.ext (show N + 1 * r.val = N + r.val by omega)
    | ⟨1, _⟩ => exact Fin.ext (show 0 + 1 * e.val = e.val by omega)
  rw [he] at h
  exact h.trans (cast_eq _ _)

/-! ## The two write-outs of a trip of the main loop -/

/-- The first slot's write-out of trip `k` goes through the tile's block `2 * k`. -/
theorem oslice_set0 (L : grid0.Coords) (k : Fin k0_t3_loop.trips) :
    ((Memref.whole main_v3_scv : Memref sig .scVector .hbm S204800x128 .f32).slice
        (Rect.unit (s := S204800x128) (k0_off15 L k 0#32) S128x128.size (k0_off15_inb L k 0)) (fun _ => rfl)).view.set
      = blkSet (bk L (2 * k.val)) := by
  have hk := trips3_lt k
  refine window_set _ _ (bk L (2 * k.val)) ?_
  rw [bk_row L _ (by omega)]
  exact off15_eq0 L k

/-- What it lands there is the decoded rows of the block's flat queries. -/
theorem out_landed0 (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val) fO) (f0 : Vec F S204800x128 .f32) :
    ∀ i ∈ blkSet (bk L (2 * k.val)),
      View.write (Elt F) ((Memref.whole main_v3_scv).slice
          (Rect.unit (s := S204800x128) (k0_off15 L k 0#32) S128x128.size (k0_off15_inb L k 0)) (fun _ => rfl)).view f0
        (ReadAs.same.apply (View.read (Elt F) (Memref.whole cc0_scratch6).view fO)) Finset.univ i = go i := by
  have hk := trips3_lt k
  have hb := base_le L
  intro i hi
  rw [blkSet_eq, mem_blk, bk_row L _ (by omega)] at hi
  have hN : base L + 128 * (2 * k.val) + 128 ≤ 204800 := by omega
  have hi' : i = ix2 (⟨base L + 128 * (2 * k.val) + ((i 0).val - (base L + 128 * (2 * k.val))), by omega⟩ : Fin 204800)
      (⟨(i 1).val, (i 1).isLt⟩ : Fin 128) := by
    funext a
    match a with
    | ⟨0, _⟩ => exact Fin.ext (show (i 0).val = base L + 128 * (2 * k.val) + ((i 0).val - (base L + 128 * (2 * k.val))) by omega)
    | ⟨1, _⟩ => rfl
  rw [hi']
  refine (window_write _ (k0_off15_inb L k 0) (base L + 128 * (2 * k.val)) (off15_eq0 L k) hN f0 _
    (⟨(i 0).val - (base L + 128 * (2 * k.val)), by omega⟩ : Fin 128) (⟨(i 1).val, (i 1).isLt⟩ : Fin 128)).trans ?_
  refine (hO _ _).trans ((congrArg (fun t => Cert.Decode.flatAt xq xc xb t (⟨(i 1).val, (i 1).isLt⟩ : Fin 128)) (Fin.ext ?_)).trans (hgo _ _).symm)
  show min (base L + 128 * (2 * k.val) + ((i 0).val - (base L + 128 * (2 * k.val)))) 204799 = base L + 128 * (2 * k.val) + ((i 0).val - (base L + 128 * (2 * k.val)))
  omega

/-- The second slot's write-out of trip `k` goes through the tile's block `2 * k + 1`. -/
theorem oslice_set1 (L : grid0.Coords) (k : Fin k0_t3_loop.trips) :
    ((Memref.whole main_v3_scv : Memref sig .scVector .hbm S204800x128 .f32).slice
        (Rect.unit (s := S204800x128) (k0_off15 L k 1#32) S128x128.size (k0_off15_inb L k 1)) (fun _ => rfl)).view.set
      = blkSet (bk L (2 * k.val + 1)) := by
  have hk := trips3_lt k
  refine window_set _ _ (bk L (2 * k.val + 1)) ?_
  rw [bk_row L _ (by omega)]
  exact off15_eq1 L k

/-- What it lands there is the decoded rows of the block's flat queries. -/
theorem out_landed1 (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val + 1) fO) (f0 : Vec F S204800x128 .f32) :
    ∀ i ∈ blkSet (bk L (2 * k.val + 1)),
      View.write (Elt F) ((Memref.whole main_v3_scv).slice
          (Rect.unit (s := S204800x128) (k0_off15 L k 1#32) S128x128.size (k0_off15_inb L k 1)) (fun _ => rfl)).view f0
        (ReadAs.same.apply (View.read (Elt F) (Memref.whole cc0_scratch7).view fO)) Finset.univ i = go i := by
  have hk := trips3_lt k
  have hb := base_le L
  intro i hi
  rw [blkSet_eq, mem_blk, bk_row L _ (by omega)] at hi
  have hN : base L + 128 * (2 * k.val + 1) + 128 ≤ 204800 := by omega
  have hi' : i = ix2 (⟨base L + 128 * (2 * k.val + 1) + ((i 0).val - (base L + 128 * (2 * k.val + 1))), by omega⟩ : Fin 204800)
      (⟨(i 1).val, (i 1).isLt⟩ : Fin 128) := by
    funext a
    match a with
    | ⟨0, _⟩ => exact Fin.ext (show (i 0).val = base L + 128 * (2 * k.val + 1) + ((i 0).val - (base L + 128 * (2 * k.val + 1))) by omega)
    | ⟨1, _⟩ => rfl
  rw [hi']
  refine (window_write _ (k0_off15_inb L k 1) (base L + 128 * (2 * k.val + 1)) (off15_eq1 L k) hN f0 _
    (⟨(i 0).val - (base L + 128 * (2 * k.val + 1)), by omega⟩ : Fin 128) (⟨(i 1).val, (i 1).isLt⟩ : Fin 128)).trans ?_
  refine (hO _ _).trans ((congrArg (fun t => Cert.Decode.flatAt xq xc xb t (⟨(i 1).val, (i 1).isLt⟩ : Fin 128)) (Fin.ext ?_)).trans (hgo _ _).symm)
  show min (base L + 128 * (2 * k.val + 1) + ((i 0).val - (base L + 128 * (2 * k.val + 1)))) 204799 = base L + 128 * (2 * k.val + 1) + ((i 0).val - (base L + 128 * (2 * k.val + 1)))
  omega

end Cert.Proof.KI

end
-- ==== Proof.KIGlue3.lean ====
/-
  Where each chunk of query words is fetched from.

  Tile `L` fetches its chunk `n` from words `base L + 128 n ‥ base L + 128 n + 127` of the query list. Before the
  main loop it fetches chunks `0` and `1`; trip `k` of the main loop fetches chunks `2 k + 2` and `2 k + 3` when
  they exist, that is when `k < 24`.
-/
import proofs.«215948_g88356067214102_cont_sun_c4_674_26_alg».proof.Proof.KIGlue
import proofs.«215948_g88356067214102_cont_sun_c4_674_26_alg».proof.Proof.KIGlue2

noncomputable section

namespace Cert.Proof.KI

open Cert.KernelIdeal Cert.KernelIdeal.Gen Idealize.ShloMosaic Idealize.ShloMosaic.ValueIdx

variable {F : FTy → Type} [FloatOps F]

/-! ## The fetches' offsets in closed form -/

theorem off1_eq0 (L : grid0.Coords) : k0_off1 L 0#32 = ![base L + 128 * 0] := by
  have e : 12800 * (L 1).val + 6400 * (L 0).val + 128 * ((⟨0, by decide⟩ : Fin 2)).val = base L + 128 * 0 := by
    show 12800 * (L 1).val + 6400 * (L 0).val + 128 * 0 = _
    unfold base; omega
  exact (k0_off1_eq L ⟨0, by decide⟩).trans (congrArg (fun t => (![t] : Fin 1 → Nat)) e)
theorem off1_eq1 (L : grid0.Coords) : k0_off1 L 128#32 = ![base L + 128 * 1] := by
  have e : 12800 * (L 1).val + 6400 * (L 0).val + 128 * ((⟨1, by decide⟩ : Fin 2)).val = base L + 128 * 1 := by
    show 12800 * (L 1).val + 6400 * (L 0).val + 128 * 1 = _
    unfold base; omega
  exact (k0_off1_eq L ⟨1, by decide⟩).trans (congrArg (fun t => (![t] : Fin 1 → Nat)) e)
theorem off13_eq (L : grid0.Coords) (k : Fin k0_t3_loop.trips) : k0_off13 L k = ![base L + 128 * (2 * k.val + 2)] :=
  (k0_off13_eq L k).trans (congrArg (fun t => (![t] : Fin 1 → Nat)) (by unfold base; omega))
theorem off25_eq (L : grid0.Coords) (k : Fin k0_t3_loop.trips) : k0_off25 L k = ![base L + 128 * (2 * k.val + 1 + 2)] :=
  (k0_off25_eq L k).trans (congrArg (fun t => (![t] : Fin 1 → Nat)) (by unfold base; omega))

/-! ## When the main loop fetches -/

/-- The first slot fetches in trip `k` only when chunk `2 k + 2` exists. -/
theorem cond2_lt : ∀ k : Fin k0_t3_loop.trips, k0_cond2 k = 1#1 → k.val < 24 := by decide +kernel
/-- The second slot fetches in trip `k` only when chunk `2 k + 3` exists. -/
theorem cond4_lt : ∀ k : Fin k0_t3_loop.trips, k0_cond4 k = 1#1 → k.val < 24 := by decide +kernel

/-! ## The chunks landed -/

/-- Chunk `0` landed in the first index scratch, -/
theorem chunkI_first0 (xq : Vec F S204800 .i32) (L : grid0.Coords) (f0 : Vec F S128 .i32) :
    ChunkI xq L 0 (View.write (Elt F) (Memref.whole cc0_scratch0).view f0
      (ReadAs.same.apply (View.read (Elt F) ((Memref.whole main_v0_scv).slice (Rect.unit (s := S204800) (k0_off1 L 0#32) S128.size (k0_off1_inb L 0)) (fun _ => rfl)).view xq))
      Finset.univ) :=
  chunkI_landed0 xq (k0_off1 L 0#32) (k0_off1_inb L 0) L 0 (by omega) (off1_eq0 L) f0
/-- and chunk `1` in the second. -/
theorem chunkI_first1 (xq : Vec F S204800 .i32) (L : grid0.Coords) (f0 : Vec F S128 .i32) :
    ChunkI xq L 1 (View.write (Elt F) (Memref.whole cc0_scratch1).view f0
      (ReadAs.same.apply (View.read (Elt F) ((Memref.whole main_v0_scv).slice (Rect.unit (s := S204800) (k0_off1 L 128#32) S128.size (k0_off1_inb L 1)) (fun _ => rfl)).view xq))
      Finset.univ) :=
  chunkI_landed1 xq (k0_off1 L 128#32) (k0_off1_inb L 1) L 1 (by omega) (off1_eq1 L) f0

/-- Trip `k`'s fetch into the first index scratch lands chunk `2 k + 2`, -/
theorem chunkI_next0 (xq : Vec F S204800 .i32) (L : grid0.Coords) (k : Fin k0_t3_loop.trips) (k0_h2 : k0_cond2 k = 1#1)
    (f0 : Vec F S128 .i32) :
    ChunkI xq L (2 * k.val + 2) (View.write (Elt F) (Memref.whole cc0_scratch0).view f0
      (ReadAs.same.apply (View.read (Elt F) ((Memref.whole main_v0_scv).slice (Rect.unit (s := S204800) (k0_off13 L k) S128.size (k0_off13_inb L k k0_h2)) (fun _ => rfl)).view xq))
      Finset.univ) :=
  chunkI_landed0 xq (k0_off13 L k) (k0_off13_inb L k k0_h2) L (2 * k.val + 2) (by have := cond2_lt k k0_h2; omega) (off13_eq L k) f0
/-- and its fetch into the second lands chunk `2 k + 3`. -/
theorem chunkI_next1 (xq : Vec F S204800 .i32) (L : grid0.Coords) (k : Fin k0_t3_loop.trips) (k0_h4 : k0_cond4 k = 1#1)
    (f0 : Vec F S128 .i32) :
    ChunkI xq L (2 * k.val + 1 + 2) (View.write (Elt F) (Memref.whole cc0_scratch1).view f0
      (ReadAs.same.apply (View.read (Elt F) ((Memref.whole main_v0_scv).slice (Rect.unit (s := S204800) (k0_off25 L k) S128.size (k0_off25_inb L k k0_h4)) (fun _ => rfl)).view xq))
      Finset.univ) :=
  chunkI_landed1 xq (k0_off25 L k) (k0_off25_inb L k k0_h4) L (2 * k.val + 1 + 2) (by have := cond4_lt k k0_h4; omega) (off25_eq L k) f0

/-! ## The write-out's landing as a one-piece list -/

/-- Contents that hold the chunk's decoded rows at the rows of the tile's block `n` agree with the flat result there. -/
theorem out_core (xq : Vec F S204800 .i32) (xc : Vec F S25000x128 .i32) (xb : Vec F S64 .f32) (go : Vec F S204800x128 .f32)
    (hgo : ∀ R e, go (ix2 R e) = Cert.Decode.flatAt xq xc xb R e) (L : grid0.Coords) (n : Nat) (hn : n < 50)
    (fO : Vec F S128x128 .f32) (hO : ChunkO xq xc xb L n fO) (W : Vec F S204800x128 .f32)
    (hW : ∀ r e : Fin 128, W (ix2 (⟨base L + 128 * n + r.val, by have := base_le L; have := r.isLt; omega⟩ : Fin 204800) e) = fO (ix2 r e)) :
    ∀ i ∈ blkSet (bk L n), W i = go i := by
  have hb := base_le L
  intro i hi
  rw [blkSet_eq, mem_blk, bk_row L n hn] at hi
  have hi' : i = ix2 (⟨base L + 128 * n + ((i 0).val - (base L + 128 * n)), by omega⟩ : Fin 204800)
      (⟨(i 1).val, (i 1).isLt⟩ : Fin 128) := by
    funext a
    match a with
    | ⟨0, _⟩ => exact Fin.ext (show (i 0).val = base L + 128 * n + ((i 0).val - (base L + 128 * n)) by omega)
    | ⟨1, _⟩ => rfl
  rw [hi']
  refine (hW (⟨(i 0).val - (base L + 128 * n), by omega⟩ : Fin 128) (⟨(i 1).val, (i 1).isLt⟩ : Fin 128)).trans ?_
  refine (hO _ _).trans ((congrArg (fun t => Cert.Decode.flatAt xq xc xb t (⟨(i 1).val, (i 1).isLt⟩ : Fin 128)) (Fin.ext ?_)).trans (hgo _ _).symm)
  show min (base L + 128 * n + ((i 0).val - (base L + 128 * n))) 204799 = base L + 128 * n + ((i 0).val - (base L + 128 * n))
  omega

/-- A one-piece list of writes through the whole rectangle of the window at row `N` leaves entry `(r, e)` of the
    piece at `(N + r, e)`. -/
theorem window_writes (off : Fin 2 → Nat) (inb : ∀ a, off a + S128x128.size a ≤ S204800x128.size a) (N : Nat) (hoff : off = ![N, 0])
    (hN : N + 128 ≤ 204800) (f0 : Vec F S204800x128 .f32) (w : Vec F S128x128 .f32) (r e : Fin 128) :
    ((Memref.whole main_v3_scv).slice (Rect.unit (s := S204800x128) off S128x128.size inb) (fun _ => rfl)).view.writes (Elt F) f0
        [⟨Rect.whole (Rect.unit (s := S204800x128) off S128x128.size inb).shape, w⟩]
        (ix2 (⟨N + r.val, by omega⟩ : Fin 204800) e) = w (ix2 r e) := by
  subst hoff
  have h := View.write_emb_of_mem (Val := Elt F)
    (v := (((Memref.whole main_v3_scv).slice (Rect.unit (s := S204800x128) ![N, 0] S128x128.size inb) (fun _ => rfl)).view.slice
      (Rect.whole (Rect.unit (s := S204800x128) ![N, 0] S128x128.size inb).shape))) f0 w
    (M := Finset.univ) (x := ix2 r e) (Finset.mem_univ _)
  have he : (((Memref.whole main_v3_scv).slice (Rect.unit (s := S204800x128) ![N, 0] S128x128.size inb) (fun _ => rfl)).view.slice
      (Rect.whole (Rect.unit (s := S204800x128) ![N, 0] S128x128.size inb).shape)).emb (ix2 r e)
      = ix2 (⟨N + r.val, by omega⟩ : Fin 204800) e := by
    funext a
    match a with
    | ⟨0, _⟩ => exact Fin.ext (show N + 1 * (0 + 1 * r.val) = N + r.val by omega)
    | ⟨1, _⟩ => exact Fin.ext (show 0 + 1 * (0 + 1 * e.val) = e.val by omega)
  rw [he] at h
  exact h.trans (cast_eq _ _)

/-- The first slot's write-out of trip `k`, the landing spelt as a one-piece list through the window's whole rectangle. -/
theorem out_landed0' (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val) fO) (f0 : Vec F S204800x128 .f32) :
    ∀ i ∈ blkSet (bk L (2 * k.val)),
      ((Memref.whole main_v3_scv).slice
          (Rect.unit (s := S204800x128) (k0_off15 L k 0#32) S128x128.size (k0_off15_inb L k 0)) (fun _ => rfl)).view.writes (Elt F) f0
        [⟨Rect.whole (Rect.unit (s := S204800x128) (k0_off15 L k 0#32) S128x128.size (k0_off15_inb L k 0)).shape,
          ReadAs.same.apply (View.read (Elt F) (Memref.whole cc0_scratch6).view fO)⟩] i = go i := by
  have hk := trips3_lt k
  have hb := base_le L
  refine out_core xq xc xb go hgo L (2 * k.val) (by omega) fO hO _ (fun r e => ?_)
  exact window_writes _ (k0_off15_inb L k 0) (base L + 128 * (2 * k.val)) (off15_eq0 L k) (by omega) f0 _ r e

/-- The second slot's write-out of trip `k`, the landing spelt as a one-piece list through the window's whole rectangle. -/
theorem out_landed1' (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val + 1) fO) (f0 : Vec F S204800x128 .f32) :
    ∀ i ∈ blkSet (bk L (2 * k.val + 1)),
      ((Memref.whole main_v3_scv).slice
          (Rect.unit (s := S204800x128) (k0_off15 L k 1#32) S128x128.size (k0_off15_inb L k 1)) (fun _ => rfl)).view.writes (Elt F) f0
        [⟨Rect.whole (Rect.unit (s := S204800x128) (k0_off15 L k 1#32) S128x128.size (k0_off15_inb L k 1)).shape,
          ReadAs.same.apply (View.read (Elt F) (Memref.whole cc0_scratch7).view fO)⟩] i = go i := by
  have hk := trips3_lt k
  have hb := base_le L
  refine out_core xq xc xb go hgo L (2 * k.val + 1) (by omega) fO hO _ (fun r e => ?_)
  exact window_writes _ (k0_off15_inb L k 1) (base L + 128 * (2 * k.val + 1)) (off15_eq1 L k) (by omega) f0 _ r e

end Cert.Proof.KI

end
-- ==== Proof.KITileCore.lean ====
/-
  The tile's run, assembled. The tile fetches its first two chunks of query words and the centroid list, turns each
  chunk into its row list, starts the two gathers, runs the 25 trips of the chunk loop under the loop's invariant,
  and collects the last two blocks it wrote out; every block has then been written at the decoded rows, and
  everything the tile was handed comes back.
-/
import proofs.«215948_g88356067214102_cont_sun_c4_674_26_alg».proof.Proof.KIOuter
import proofs.«215948_g88356067214102_cont_sun_c4_674_26_alg».proof.Proof.KIQTrip
import proofs.«215948_g88356067214102_cont_sun_c4_674_26_alg».proof.Proof.KIGlue3

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sQ0" => (Memref.whole Cert.KernelIdeal.cc0_scratch2 : Memref Cert.KernelIdeal.sig Kind.scVector Space.vmem Cert.KernelIdeal.S128 EltTy.i32)
local notation "sQ1" => (Memref.whole Cert.KernelIdeal.cc0_scratch3 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)
local notation "qV" => (Memref.whole Cert.KernelIdeal.main_v0_scv : Memref Cert.KernelIdeal.sig Kind.scVector Space.hbm Cert.KernelIdeal.S204800 EltTy.i32)
local notation "cVm" => (Memref.whole Cert.KernelIdeal.main_v1_scv : Memref Cert.KernelIdeal.sig Kind.scVector Space.hbm Cert.KernelIdeal.S25000x128 EltTy.i32)
local notation "bV" => (Memref.whole Cert.KernelIdeal.main_v2_scv : Memref Cert.KernelIdeal.sig Kind.scVector Space.hbm Cert.KernelIdeal.S64 EltTy.f32)
local notation "oV" => (Memref.whole Cert.KernelIdeal.main_v3_scv : Memref Cert.KernelIdeal.sig Kind.scVector Space.hbm Cert.KernelIdeal.S204800x128 EltTy.f32)

variable [FloatOps F]

set_option maxHeartbeats 4000000 in
/-- The tile's run, from the three kinds of trip of its chunk loop. -/
theorem tile_core (d : Dev nD) (L : grid0.Coords) (xq : Buf (Elt F) (qLoc d)) (xc : Buf (Elt F) (cLoc d)) (xb : Buf (Elt F) (bLoc d)) (go : Buf (Elt F) (oLoc d))
    (h1 : ∀ qq qa qb, OuterFirst d L xq xc xb go qq qa qb) (h2 : ∀ qq qa qb, OuterMid d L xq xc xb go qq qa qb)
    (h3 : ∀ qq qa qb, OuterLast d L xq xc xb go qq qa qb) : TileCore d L xq xc xb go := by
  intro m0 qq qa qb O W hO hle hcl hgo f0 f1 f2 f3 f4 f5 f6 f7 f8 f9
  simp only [cc0__decode_body_eq_skeleton]; unfold cc0__decode_body_skel
  simp only [k0_part6_eq_skeleton]; unfold k0_part6_skel
  simp only [bind_assoc, pure_bind]
  iintro ⟨#Hlv, HO, Hq, Hc, Hc', Hb, Hblk, H0, H1, H2, H3, H4, H5, H6, H7, H8, H9, Hg0, Hg1, Ho0, Ho1, Hr0, Hr1, Hr2, Hr3, Hr4⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave Hc := (Entails.of_eq (rfl : ((cVm).view.loc (tth d L) ↦{qa} xc : sProp 𝕄) = (cLoc d ↦{qa} xc))) $$ Hc
  ihave Hc' := (Entails.of_eq (rfl : ((cVm).view.loc (tth d L) ↦{qb} xc : sProp 𝕄) = (cLoc d ↦{qb} xc))) $$ Hc'
  ihave Hb := (Entails.of_eq (rfl : ((bV).view.loc (tth d L) ↦{qq} xb : sProp 𝕄) = (bLoc d ↦{qq} xb))) $$ Hb
  ihave H0 := (Entails.of_eq (rfl : ((sI0).view.loc (tth d L) ↦{fullShare} f0 : sProp 𝕄) = _)) $$ H0
  ihave H1 := (Entails.of_eq (rfl : ((sI1).view.loc (tth d L) ↦{fullShare} f1 : sProp 𝕄) = _)) $$ H1
  ihave H2 := (Entails.of_eq (rfl : ((sQ0).view.loc (tth d L) ↦{fullShare} f2 : sProp 𝕄) = _)) $$ H2
  ihave H3 := (Entails.of_eq (rfl : ((sQ1).view.loc (tth d L) ↦{fullShare} f3 : sProp 𝕄) = _)) $$ H3
  ihave H4 := (Entails.of_eq (rfl : ((sC0).view.loc (tth d L) ↦{fullShare} f4 : sProp 𝕄) = _)) $$ H4
  ihave H5 := (Entails.of_eq (rfl : ((sC1).view.loc (tth d L) ↦{fullShare} f5 : sProp 𝕄) = _)) $$ H5
  ihave H6 := (Entails.of_eq (rfl : ((sO0).view.loc (tth d L) ↦{fullShare} f6 : sProp 𝕄) = _)) $$ H6
  ihave H7 := (Entails.of_eq (rfl : ((sO1).view.loc (tth d L) ↦{fullShare} f7 : sProp 𝕄) = _)) $$ H7
  ihave H8 := (Entails.of_eq (rfl : ((sB).view.loc (tth d L) ↦{fullShare} f8 : sProp 𝕄) = _)) $$ H8
  ihave H9 := (Entails.of_eq (rfl : ((sR).view.loc (tth d L) ↦{fullShare} f9 : sProp 𝕄) = _)) $$ H9
  sl_exec
  generalize hfI : View.write (Elt F) (Memref.whole cc0_scratch0).view f0 _ Finset.univ = fI
  generalize hfB : View.write (Elt F) (Memref.whole cc0_scratch8).view f8 _ Finset.univ = fB
  have hI0 : ChunkI xq L 0 fI := by rw [← hfI]; exact chunkI_first0 xq L f0
  have hB : fB = xb := hfB.symm.trans (book_landed xb f8)
  rw [hB]
  sl_for (qInv0 d L fI) $$ [H0 H2]
  case region =>
    intro k _
    exact q_trip0 d L fI k
  · unfold qInv0
    isplitl [H0]; · iexact H0
    iexists _; isplitl [H2]; · iexact H2
    ipureintro; intro j hj; omega
  iintro %_ HI
  unfold qInv0
  icases HI with ⟨H0, %fQ, H2, %hQ⟩
  have hQ' : ChunkQ xq L 0 fQ := chunkQ_of xq L 0 fI fQ hI0 hQ
  have hin : ∀ x, ((Memref.whole cc0_scratch2).view.read (Elt F) fQ x).toNat < S25000x128.size gathers_S25000x128_S128x128.axis :=
    hin_of_chunkQ0 xq L 0 fQ hQ' hle
  sl_exec
  generalize hfI1 : View.write (Elt F) (Memref.whole cc0_scratch1).view f1 _ Finset.univ = fI1
  have hI1 : ChunkI xq L 1 fI1 := by rw [← hfI1]; exact chunkI_first1 xq L f1
  sl_for (qInv1 d L fI1) $$ [H1 H3]
  case region =>
    intro k _
    exact q_trip1 d L fI1 k
  · unfold qInv1
    isplitl [H1]; · iexact H1
    iexists _; isplitl [H3]; · iexact H3
    ipureintro; intro j hj; omega
  iintro %_ HI
  unfold qInv1
  icases HI with ⟨H1, %fQ1, H3, %hQ1⟩
  have hQ1' : ChunkQ xq L 1 fQ1 := chunkQ_of xq L 1 fI1 fQ1 hI1 hQ1
  have hin1 : ∀ x, ((Memref.whole cc0_scratch3).view.read (Elt F) fQ1 x).toNat < S25000x128.size gathers_S25000x128_S128x128.axis :=
    hin_of_chunkQ1 xq L 1 fQ1 hQ1' hle
  sl_exec
  -- the chunk loop
  sl_for (oInvL d L xq xc xb go m0 qq qa qb O W) $$ [HO Hq H8 H9 Hr3 Hr4 H0 H1 Hg0 Hc Hg1 Hc' H6 Ho0 H7 Ho1 Hblk]
  case region =>
    intro k _
    exact outer_stepL d L xq xc xb go m0 qq qa qb O W hO hle hcl hgo (h1 qq qa qb) (h2 qq qa qb) (h3 qq qa qb) _ k
  · unfold oInvL
    isplitr; · iexact Hlv
    rw [oInv_eq, if_pos (by decide : (0 : ℕ) < 25), if_neg (Nat.lt_irrefl 0)]
    isplitl [HO]
    · iexists _; isplitr
      rotate_left
      · iexact HO
      · ipureintro; intro p hp; simp only [Finset.mem_insert] at hp; casesm* _ ∨ _ <;> first | exact Or.inl ‹_› | (subst_vars; exact Or.inr rfl)
    isplitl [Hq]; · iexact Hq
    isplitl [H8]; · iexact H8
    isplitl [H9]; · iexists _; iexact H9
    isplitl [Hr3]; · iexact Hr3
    isplitl [Hr4]; · iexact Hr4
    isplitl [H0 H1 Hg0 Hc Hg1 Hc']
    · isplitl [H0]
      · iexists _; isplitl [H0]; · iexact H0
        ipureintro; exact hI0
      isplitl [H1]
      · iexists _; isplitl [H1]; · iexact H1
        ipureintro; exact hI1
      isplitl [Hg0]
      · iapply (Transfers.Flight_mono countersEmb (tth d L) ?hg0) $$ Hg0
        unfold GD0
        iintro ⟨⟨H4, H2⟩, Hc⟩
        isplitl [H4]
        · iexists _; isplitl [H4]; · iexact H4
          ipureintro; exact chunkC_landed0 xq xc L 0 fQ hQ' hle _ hin f4
        isplitl [H2]; · iexists _; iexact H2
        iexact Hc
      isplitl [Hc]; · iexact Hc
      isplitl [Hg1]
      · iapply (Transfers.Flight_mono countersEmb (tth d L) ?hg1) $$ Hg1
        unfold GD1
        iintro ⟨⟨H5, H3⟩, Hc⟩
        isplitl [H5]
        · iexists _; isplitl [H5]; · iexact H5
          ipureintro; exact chunkC_landed1 xq xc L 1 fQ1 hQ1' hle _ hin1 f5
        isplitl [H3]; · iexists _; iexact H3
        iexact Hc
      iexact Hc'
    isplitl [H6 Ho0 H7 Ho1]
    · isplitl [H6]; · iexists _; iexact H6
      isplitl [Ho0]; · iexact Ho0
      isplitl [H7]; · iexists _; iexact H7
      iexact Ho1
    iapply (blocks_init d L go m0); iexact Hblk
  iintro %_ HI
  have ht3 : Scf.trips k0_t3_loop.lb k0_t3_loop.ub k0_t3_loop.st = 25 := by decide
  unfold oInvL oInv
  rw [ht3, if_neg (by decide : ¬ (25 : ℕ) < 25), if_pos (by decide : (0 : ℕ) < 25)]
  icases HI with ⟨-, ⟨%W'', %hW'', HO⟩, Hq, H8, ⟨%fR, H9⟩, Hr3, Hr4, ⟨⟨%g0, H0⟩, ⟨%g1, H1⟩, ⟨%g2, H2⟩, ⟨%g3, H3⟩, ⟨%g4, H4⟩, ⟨%g5, H5⟩, Hg0, Hg1, Hc, Hc'⟩, ⟨Ho0, Ho1⟩, Hblk⟩
  unfold tile_core.sl.prog.cont_3
  simp (config := {proj := false}) only [bind_assoc, pure_bind, Prog.lift, Prog.bind_op, Prog.bind_ret]
  -- the last two blocks written out
  iapply (Transfers.wp_waitLocalO countersEmb 𝒱₀ (tth d L) none (default : HIx 1) (N := 524288) rfl) $$ [Ho0 HO]
  · isplitl [Ho0]; · iexact Ho0
    isplitl [HO]; · iexact HO
    iapply ((K (F := F)).mayWait_none (SemLoc.dma cc0_scratch12.sem) hO); iexact Hlv
  iintro ⟨HD, Ho0, HO⟩
  unfold OD0
  icases HD with ⟨⟨%fO0, H6⟩, B48⟩
  iapply (Transfers.wp_waitLocalO countersEmb 𝒱₀ (tth d L) none (default : HIx 1) (N := 524288) rfl) $$ [Ho1 HO]
  · isplitl [Ho1]; · iexact Ho1
    isplitl [HO]; · iexact HO
    iapply ((K (F := F)).mayWait_none (SemLoc.dma cc0_scratch13.sem) hO); iexact Hlv
  iintro ⟨HD, Ho1, HO⟩
  unfold OD1
  icases HD with ⟨⟨%fO1, H7⟩, B49⟩
  first | sl_step | (rw [wp_pure]; imodintro)
  isplitl [Hq]; · iexact Hq
  isplitl [Hc]; · iexact Hc
  isplitl [Hc']; · iexact Hc'
  isplitl [Hb]; · iexact Hb
  isplitl [Hblk B48 B49]
  · iapply (blocks_final d L go m0)
    isplitl [Hblk]; · iexact Hblk
    isplitl [B48]; · iexact B48
    iexact B49
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [Hg0]; · iexact Hg0
  isplitl [Hg1]; · iexact Hg1
  isplitl [Ho0]; · iexact Ho0
  isplitl [Ho1]; · iexact Ho1
  isplitl [Hr0]; · iexact Hr0
  isplitl [Hr1]; · iexact Hr1
  isplitl [Hr2]; · iexact Hr2
  isplitl [Hr3]; · iexact Hr3
  isplitl [Hr4]; · iexact Hr4
  iexists _; isplitr
  rotate_left
  · iexact HO
  · ipureintro; intro p hp
    simp only [Finset.mem_insert] at hp
    rcases hp with rfl | rfl | hp
    · exact Or.inr rfl
    · exact Or.inr rfl
    · exact hW'' p hp

end Cert.Proof.KI

end
-- ==== Proof.KIRowTrip.lean ====
/-
  One trip of a tile's row loop.

  A tile decodes a chunk of 128 queries one row per trip. At trip `r` a sixteen-lane vector that holds
  `r` in every lane is read back from scratch; through it the row's query word is gathered into every
  lane; for each of the eight pieces the sixteen codes of the piece are gathered from row `r` of the
  chunk's code rows, the sixteen floats at those codes' positions are gathered from the flat centroid
  list, and the piece is stored at row `r`, columns `16 t ‥ 16 t + 15` of the out scratch; last the
  counter vector is stored back with one added to every lane.

  The loop's invariant at `r`: the three inputs of the chunk are untouched, rows below `r` of the out
  scratch hold the decoded rows, and the counter vector holds `r` in every lane. Every index vector of
  the trip is inside the array it reads because the counter is below 128 and every code is at most 15;
  the eight stores leave row `r` decoded and no other row changed; and `r + 1` does not wrap.
-/
import proofs.«215948_g88356067214102_cont_sun_c4_674_26_alg».proof.Proof.KIGlue

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)

/-! ## The pieces of a row as terms

  With the in-range conditions supplied from the two facts that make them true — every lane of the
  row vector is below 128, every code is at most 15 — the words, codes and floats a trip gathers are
  terms of the chunk's three arrays and the row vector alone. -/

section
variable (gI : Vec F S128 .i32) (gC : Vec F S128x128 .i32) (gB : Vec F S64 .f32) (v59 : IVec S16 32)
  (h59 : ∀ x, (v59 x).toNat < 128) (hC : ∀ j, (gC j).toNat ≤ 15)

/-- The query word of the row, in every lane. -/
abbrev rowWord : Vec F S16 .i32 := loadIdx gI ![v59] (chk1_of v59 h59)
/-- The sixteen codes piece 0 reads. -/
abbrev rowCodes0 : Vec F S16 .i32 := loadIdx gC ![v59, k0_pay4 (rowWord gI v59 h59)] (chk2_of (F := F) v59 (rowWord gI v59 h59) h59)
/-- Piece 0: the sixteen floats at those codes' positions. -/
abbrev rowPiece0 : Vec F S16 .f32 :=
  loadIdx gB ![k0_pay13 k0_pay2 (rowCodes0 gI gC v59 h59)]
    (chk10_of (F := F) (rowCodes0 gI gC v59 h59) (fun x => loadIdx_le15 (F := F) gC hC _ _ x))
/-- Piece 0 is entries `0 ‥ 15` of the decoded row. -/
theorem rowPiece0_eq (r : Fin 128) (hv59 : ∀ x, v59 x = BitVec.ofNat 32 r.val) (l : Fin 16) :
    rowPiece0 gI gC gB v59 h59 hC (ix1 l) = rowGAt gI gC gB r ⟨16 * 0 + l.val, by have := l.isLt; omega⟩ :=
  piece0_eq gI gC gB r v59 hv59 hC _ _ _ l
/-- The sixteen codes piece 1 reads. -/
abbrev rowCodes1 : Vec F S16 .i32 := loadIdx gC ![v59, k0_pay5 (rowWord gI v59 h59)] (chk3_of (F := F) v59 (rowWord gI v59 h59) h59)
/-- Piece 1: the sixteen floats at those codes' positions. -/
abbrev rowPiece1 : Vec F S16 .f32 :=
  loadIdx gB ![k0_pay14 k0_pay2 (rowCodes1 gI gC v59 h59)]
    (chk11_of (F := F) (rowCodes1 gI gC v59 h59) (fun x => loadIdx_le15 (F := F) gC hC _ _ x))
/-- Piece 1 is entries `16 ‥ 31` of the decoded row. -/
theorem rowPiece1_eq (r : Fin 128) (hv59 : ∀ x, v59 x = BitVec.ofNat 32 r.val) (l : Fin 16) :
    rowPiece1 gI gC gB v59 h59 hC (ix1 l) = rowGAt gI gC gB r ⟨16 * 1 + l.val, by have := l.isLt; omega⟩ :=
  piece1_eq gI gC gB r v59 hv59 hC _ _ _ l
/-- The sixteen codes piece 2 reads. -/
abbrev rowCodes2 : Vec F S16 .i32 := loadIdx gC ![v59, k0_pay6 (rowWord gI v59 h59)] (chk4_of (F := F) v59 (rowWord gI v59 h59) h59)
/-- Piece 2: the sixteen floats at those codes' positions. -/
abbrev rowPiece2 : Vec F S16 .f32 :=
  loadIdx gB ![k0_pay15 k0_pay2 (rowCodes2 gI gC v59 h59)]
    (chk12_of (F := F) (rowCodes2 gI gC v59 h59) (fun x => loadIdx_le15 (F := F) gC hC _ _ x))
/-- Piece 2 is entries `32 ‥ 47` of the decoded row. -/
theorem rowPiece2_eq (r : Fin 128) (hv59 : ∀ x, v59 x = BitVec.ofNat 32 r.val) (l : Fin 16) :
    rowPiece2 gI gC gB v59 h59 hC (ix1 l) = rowGAt gI gC gB r ⟨16 * 2 + l.val, by have := l.isLt; omega⟩ :=
  piece2_eq gI gC gB r v59 hv59 hC _ _ _ l
/-- The sixteen codes piece 3 reads. -/
abbrev rowCodes3 : Vec F S16 .i32 := loadIdx gC ![v59, k0_pay7 (rowWord gI v59 h59)] (chk5_of (F := F) v59 (rowWord gI v59 h59) h59)
/-- Piece 3: the sixteen floats at those codes' positions. -/
abbrev rowPiece3 : Vec F S16 .f32 :=
  loadIdx gB ![k0_pay16 k0_pay2 (rowCodes3 gI gC v59 h59)]
    (chk13_of (F := F) (rowCodes3 gI gC v59 h59) (fun x => loadIdx_le15 (F := F) gC hC _ _ x))
/-- Piece 3 is entries `48 ‥ 63` of the decoded row. -/
theorem rowPiece3_eq (r : Fin 128) (hv59 : ∀ x, v59 x = BitVec.ofNat 32 r.val) (l : Fin 16) :
    rowPiece3 gI gC gB v59 h59 hC (ix1 l) = rowGAt gI gC gB r ⟨16 * 3 + l.val, by have := l.isLt; omega⟩ :=
  piece3_eq gI gC gB r v59 hv59 hC _ _ _ l
/-- The sixteen codes piece 4 reads. -/
abbrev rowCodes4 : Vec F S16 .i32 := loadIdx gC ![v59, k0_pay8 (rowWord gI v59 h59)] (chk6_of (F := F) v59 (rowWord gI v59 h59) h59)
/-- Piece 4: the sixteen floats at those codes' positions. -/
abbrev rowPiece4 : Vec F S16 .f32 :=
  loadIdx gB ![k0_pay17 k0_pay2 (rowCodes4 gI gC v59 h59)]
    (chk14_of (F := F) (rowCodes4 gI gC v59 h59) (fun x => loadIdx_le15 (F := F) gC hC _ _ x))
/-- Piece 4 is entries `64 ‥ 79` of the decoded row. -/
theorem rowPiece4_eq (r : Fin 128) (hv59 : ∀ x, v59 x = BitVec.ofNat 32 r.val) (l : Fin 16) :
    rowPiece4 gI gC gB v59 h59 hC (ix1 l) = rowGAt gI gC gB r ⟨16 * 4 + l.val, by have := l.isLt; omega⟩ :=
  piece4_eq gI gC gB r v59 hv59 hC _ _ _ l
/-- The sixteen codes piece 5 reads. -/
abbrev rowCodes5 : Vec F S16 .i32 := loadIdx gC ![v59, k0_pay9 (rowWord gI v59 h59)] (chk7_of (F := F) v59 (rowWord gI v59 h59) h59)
/-- Piece 5: the sixteen floats at those codes' positions. -/
abbrev rowPiece5 : Vec F S16 .f32 :=
  loadIdx gB ![k0_pay18 k0_pay2 (rowCodes5 gI gC v59 h59)]
    (chk15_of (F := F) (rowCodes5 gI gC v59 h59) (fun x => loadIdx_le15 (F := F) gC hC _ _ x))
/-- Piece 5 is entries `80 ‥ 95` of the decoded row. -/
theorem rowPiece5_eq (r : Fin 128) (hv59 : ∀ x, v59 x = BitVec.ofNat 32 r.val) (l : Fin 16) :
    rowPiece5 gI gC gB v59 h59 hC (ix1 l) = rowGAt gI gC gB r ⟨16 * 5 + l.val, by have := l.isLt; omega⟩ :=
  piece5_eq gI gC gB r v59 hv59 hC _ _ _ l
/-- The sixteen codes piece 6 reads. -/
abbrev rowCodes6 : Vec F S16 .i32 := loadIdx gC ![v59, k0_pay11 k0_pay1 (k0_pay3 (rowWord gI v59 h59)) k0_pay10] (chk8_of (F := F) v59 (rowWord gI v59 h59) h59)
/-- Piece 6: the sixteen floats at those codes' positions. -/
abbrev rowPiece6 : Vec F S16 .f32 :=
  loadIdx gB ![k0_pay19 k0_pay2 (rowCodes6 gI gC v59 h59)]
    (chk16_of (F := F) (rowCodes6 gI gC v59 h59) (fun x => loadIdx_le15 (F := F) gC hC _ _ x))
/-- Piece 6 is entries `96 ‥ 111` of the decoded row. -/
theorem rowPiece6_eq (r : Fin 128) (hv59 : ∀ x, v59 x = BitVec.ofNat 32 r.val) (l : Fin 16) :
    rowPiece6 gI gC gB v59 h59 hC (ix1 l) = rowGAt gI gC gB r ⟨16 * 6 + l.val, by have := l.isLt; omega⟩ :=
  piece6_eq gI gC gB r v59 hv59 hC _ _ _ l
/-- The sixteen codes piece 7 reads. -/
abbrev rowCodes7 : Vec F S16 .i32 := loadIdx gC ![v59, k0_pay12 k0_pay1 (k0_pay3 (rowWord gI v59 h59))] (chk9_of (F := F) v59 (rowWord gI v59 h59) h59)
/-- Piece 7: the sixteen floats at those codes' positions. -/
abbrev rowPiece7 : Vec F S16 .f32 :=
  loadIdx gB ![k0_pay20 k0_pay2 (rowCodes7 gI gC v59 h59)]
    (chk17_of (F := F) (rowCodes7 gI gC v59 h59) (fun x => loadIdx_le15 (F := F) gC hC _ _ x))
/-- Piece 7 is entries `112 ‥ 127` of the decoded row. -/
theorem rowPiece7_eq (r : Fin 128) (hv59 : ∀ x, v59 x = BitVec.ofNat 32 r.val) (l : Fin 16) :
    rowPiece7 gI gC gB v59 h59 hC (ix1 l) = rowGAt gI gC gB r ⟨16 * 7 + l.val, by have := l.isLt; omega⟩ :=
  piece7_eq gI gC gB r v59 hv59 hC _ _ _ l

/-- After trip `r` stores its eight pieces, the rows up to and including `r` are decoded. -/
theorem rows_after0 (fO : (Memref.whole cc0_scratch6 : Memref sig .scVector .vmem S128x128 .f32).view.ty.Contents (Elt F)) (r : Fin k0_t4_loop.trips)
    (hv59 : ∀ x, v59 x = BitVec.ofNat 32 (rowOf r).val)
    (hO : ∀ r' e : Fin 128, r'.val < r.val → fO (ix2 r' e) = rowGAt gI gC gB r' e) :
    ∀ r' e : Fin 128, r'.val < r.val + 1 → (Memref.whole cc0_scratch6 : Memref sig .scVector .vmem S128x128 .f32).view.writes (Elt F) fO
        [⟨Rect.unit (s := S128x128) (k0_off12 r) S1x16.size (k0_off12_inb r), shapeCast S1x16 (rowPiece7 gI gC gB v59 h59 hC) shapeCasts_S16_S1x16⟩,
        ⟨Rect.unit (s := S128x128) (k0_off11 r) S1x16.size (k0_off11_inb r), shapeCast S1x16 (rowPiece6 gI gC gB v59 h59 hC) shapeCasts_S16_S1x16⟩,
        ⟨Rect.unit (s := S128x128) (k0_off10 r) S1x16.size (k0_off10_inb r), shapeCast S1x16 (rowPiece5 gI gC gB v59 h59 hC) shapeCasts_S16_S1x16⟩,
        ⟨Rect.unit (s := S128x128) (k0_off9 r) S1x16.size (k0_off9_inb r), shapeCast S1x16 (rowPiece4 gI gC gB v59 h59 hC) shapeCasts_S16_S1x16⟩,
        ⟨Rect.unit (s := S128x128) (k0_off8 r) S1x16.size (k0_off8_inb r), shapeCast S1x16 (rowPiece3 gI gC gB v59 h59 hC) shapeCasts_S16_S1x16⟩,
        ⟨Rect.unit (s := S128x128) (k0_off7 r) S1x16.size (k0_off7_inb r), shapeCast S1x16 (rowPiece2 gI gC gB v59 h59 hC) shapeCasts_S16_S1x16⟩,
        ⟨Rect.unit (s := S128x128) (k0_off6 r) S1x16.size (k0_off6_inb r), shapeCast S1x16 (rowPiece1 gI gC gB v59 h59 hC) shapeCasts_S16_S1x16⟩,
        ⟨Rect.unit (s := S128x128) (k0_off5 r) S1x16.size (k0_off5_inb r), shapeCast S1x16 (rowPiece0 gI gC gB v59 h59 hC) shapeCasts_S16_S1x16⟩] (ix2 r' e) = rowGAt gI gC gB r' e := by
  have rs := row_stored (F := F) fO r _ _ _ _ _ _ _ _ (rowG gI gC gB)
    (fun l => rowPiece0_eq gI gC gB v59 h59 hC (rowOf r) hv59 l)
    (fun l => rowPiece1_eq gI gC gB v59 h59 hC (rowOf r) hv59 l)
    (fun l => rowPiece2_eq gI gC gB v59 h59 hC (rowOf r) hv59 l)
    (fun l => rowPiece3_eq gI gC gB v59 h59 hC (rowOf r) hv59 l)
    (fun l => rowPiece4_eq gI gC gB v59 h59 hC (rowOf r) hv59 l)
    (fun l => rowPiece5_eq gI gC gB v59 h59 hC (rowOf r) hv59 l)
    (fun l => rowPiece6_eq gI gC gB v59 h59 hC (rowOf r) hv59 l)
    (fun l => rowPiece7_eq gI gC gB v59 h59 hC (rowOf r) hv59 l)
  intro r' e hlt
  by_cases hr' : r'.val = r.val
  · obtain rfl : r' = rowOf r := Fin.ext hr'
    exact rs.1 e
  · exact (rs.2 r' e hr').trans (hO r' e (by omega))

end

/-! ## The pieces of a row as terms (second buffer)

  With the in-range conditions supplied from the two facts that make them true — every lane of the
  row vector is below 128, every code is at most 15 — the words, codes and floats a trip gathers are
  terms of the chunk's three arrays and the row vector alone. -/

section
variable (gI : Vec F S128 .i32) (gC : Vec F S128x128 .i32) (gB : Vec F S64 .f32) (v59 : IVec S16 32)
  (h59 : ∀ x, (v59 x).toNat < 128) (hC : ∀ j, (gC j).toNat ≤ 15)

/-- The query word of the row, in every lane. -/
abbrev rowWord' : Vec F S16 .i32 := loadIdx gI ![v59] (chk18_of v59 h59)
/-- The sixteen codes piece 0 reads. -/
abbrev rowCodes0' : Vec F S16 .i32 := loadIdx gC ![v59, k0_pay24 (rowWord' gI v59 h59)] (chk19_of (F := F) v59 (rowWord' gI v59 h59) h59)
/-- Piece 0: the sixteen floats at those codes' positions. -/
abbrev rowPiece0' : Vec F S16 .f32 :=
  loadIdx gB ![k0_pay33 k0_pay22 (rowCodes0' gI gC v59 h59)]
    (chk27_of (F := F) (rowCodes0' gI gC v59 h59) (fun x => loadIdx_le15 (F := F) gC hC _ _ x))
/-- Piece 0 is entries `0 ‥ 15` of the decoded row. -/
theorem rowPiece0'_eq (r : Fin 128) (hv59 : ∀ x, v59 x = BitVec.ofNat 32 r.val) (l : Fin 16) :
    rowPiece0' gI gC gB v59 h59 hC (ix1 l) = rowGAt gI gC gB r ⟨16 * 0 + l.val, by have := l.isLt; omega⟩ :=
  piece0'_eq gI gC gB r v59 hv59 hC _ _ _ l
/-- The sixteen codes piece 1 reads. -/
abbrev rowCodes1' : Vec F S16 .i32 := loadIdx gC ![v59, k0_pay25 (rowWord' gI v59 h59)] (chk20_of (F := F) v59 (rowWord' gI v59 h59) h59)
/-- Piece 1: the sixteen floats at those codes' positions. -/
abbrev rowPiece1' : Vec F S16 .f32 :=
  loadIdx gB ![k0_pay34 k0_pay22 (rowCodes1' gI gC v59 h59)]
    (chk28_of (F := F) (rowCodes1' gI gC v59 h59) (fun x => loadIdx_le15 (F := F) gC hC _ _ x))
/-- Piece 1 is entries `16 ‥ 31` of the decoded row. -/
theorem rowPiece1'_eq (r : Fin 128) (hv59 : ∀ x, v59 x = BitVec.ofNat 32 r.val) (l : Fin 16) :
    rowPiece1' gI gC gB v59 h59 hC (ix1 l) = rowGAt gI gC gB r ⟨16 * 1 + l.val, by have := l.isLt; omega⟩ :=
  piece1'_eq gI gC gB r v59 hv59 hC _ _ _ l
/-- The sixteen codes piece 2 reads. -/
abbrev rowCodes2' : Vec F S16 .i32 := loadIdx gC ![v59, k0_pay26 (rowWord' gI v59 h59)] (chk21_of (F := F) v59 (rowWord' gI v59 h59) h59)
/-- Piece 2: the sixteen floats at those codes' positions. -/
abbrev rowPiece2' : Vec F S16 .f32 :=
  loadIdx gB ![k0_pay35 k0_pay22 (rowCodes2' gI gC v59 h59)]
    (chk29_of (F := F) (rowCodes2' gI gC v59 h59) (fun x => loadIdx_le15 (F := F) gC hC _ _ x))
/-- Piece 2 is entries `32 ‥ 47` of the decoded row. -/
theorem rowPiece2'_eq (r : Fin 128) (hv59 : ∀ x, v59 x = BitVec.ofNat 32 r.val) (l : Fin 16) :
    rowPiece2' gI gC gB v59 h59 hC (ix1 l) = rowGAt gI gC gB r ⟨16 * 2 + l.val, by have := l.isLt; omega⟩ :=
  piece2'_eq gI gC gB r v59 hv59 hC _ _ _ l
/-- The sixteen codes piece 3 reads. -/
abbrev rowCodes3' : Vec F S16 .i32 := loadIdx gC ![v59, k0_pay27 (rowWord' gI v59 h59)] (chk22_of (F := F) v59 (rowWord' gI v59 h59) h59)
/-- Piece 3: the sixteen floats at those codes' positions. -/
abbrev rowPiece3' : Vec F S16 .f32 :=
  loadIdx gB ![k0_pay36 k0_pay22 (rowCodes3' gI gC v59 h59)]
    (chk30_of (F := F) (rowCodes3' gI gC v59 h59) (fun x => loadIdx_le15 (F := F) gC hC _ _ x))
/-- Piece 3 is entries `48 ‥ 63` of the decoded row. -/
theorem rowPiece3'_eq (r : Fin 128) (hv59 : ∀ x, v59 x = BitVec.ofNat 32 r.val) (l : Fin 16) :
    rowPiece3' gI gC gB v59 h59 hC (ix1 l) = rowGAt gI gC gB r ⟨16 * 3 + l.val, by have := l.isLt; omega⟩ :=
  piece3'_eq gI gC gB r v59 hv59 hC _ _ _ l
/-- The sixteen codes piece 4 reads. -/
abbrev rowCodes4' : Vec F S16 .i32 := loadIdx gC ![v59, k0_pay28 (rowWord' gI v59 h59)] (chk23_of (F := F) v59 (rowWord' gI v59 h59) h59)
/-- Piece 4: the sixteen floats at those codes' positions. -/
abbrev rowPiece4' : Vec F S16 .f32 :=
  loadIdx gB ![k0_pay37 k0_pay22 (rowCodes4' gI gC v59 h59)]
    (chk31_of (F := F) (rowCodes4' gI gC v59 h59) (fun x => loadIdx_le15 (F := F) gC hC _ _ x))
/-- Piece 4 is entries `64 ‥ 79` of the decoded row. -/
theorem rowPiece4'_eq (r : Fin 128) (hv59 : ∀ x, v59 x = BitVec.ofNat 32 r.val) (l : Fin 16) :
    rowPiece4' gI gC gB v59 h59 hC (ix1 l) = rowGAt gI gC gB r ⟨16 * 4 + l.val, by have := l.isLt; omega⟩ :=
  piece4'_eq gI gC gB r v59 hv59 hC _ _ _ l
/-- The sixteen codes piece 5 reads. -/
abbrev rowCodes5' : Vec F S16 .i32 := loadIdx gC ![v59, k0_pay29 (rowWord' gI v59 h59)] (chk24_of (F := F) v59 (rowWord' gI v59 h59) h59)
/-- Piece 5: the sixteen floats at those codes' positions. -/
abbrev rowPiece5' : Vec F S16 .f32 :=
  loadIdx gB ![k0_pay38 k0_pay22 (rowCodes5' gI gC v59 h59)]
    (chk32_of (F := F) (rowCodes5' gI gC v59 h59) (fun x => loadIdx_le15 (F := F) gC hC _ _ x))
/-- Piece 5 is entries `80 ‥ 95` of the decoded row. -/
theorem rowPiece5'_eq (r : Fin 128) (hv59 : ∀ x, v59 x = BitVec.ofNat 32 r.val) (l : Fin 16) :
    rowPiece5' gI gC gB v59 h59 hC (ix1 l) = rowGAt gI gC gB r ⟨16 * 5 + l.val, by have := l.isLt; omega⟩ :=
  piece5'_eq gI gC gB r v59 hv59 hC _ _ _ l
/-- The sixteen codes piece 6 reads. -/
abbrev rowCodes6' : Vec F S16 .i32 := loadIdx gC ![v59, k0_pay31 k0_pay21 (k0_pay23 (rowWord' gI v59 h59)) k0_pay30] (chk25_of (F := F) v59 (rowWord' gI v59 h59) h59)
/-- Piece 6: the sixteen floats at those codes' positions. -/
abbrev rowPiece6' : Vec F S16 .f32 :=
  loadIdx gB ![k0_pay39 k0_pay22 (rowCodes6' gI gC v59 h59)]
    (chk33_of (F := F) (rowCodes6' gI gC v59 h59) (fun x => loadIdx_le15 (F := F) gC hC _ _ x))
/-- Piece 6 is entries `96 ‥ 111` of the decoded row. -/
theorem rowPiece6'_eq (r : Fin 128) (hv59 : ∀ x, v59 x = BitVec.ofNat 32 r.val) (l : Fin 16) :
    rowPiece6' gI gC gB v59 h59 hC (ix1 l) = rowGAt gI gC gB r ⟨16 * 6 + l.val, by have := l.isLt; omega⟩ :=
  piece6'_eq gI gC gB r v59 hv59 hC _ _ _ l
/-- The sixteen codes piece 7 reads. -/
abbrev rowCodes7' : Vec F S16 .i32 := loadIdx gC ![v59, k0_pay32 k0_pay21 (k0_pay23 (rowWord' gI v59 h59))] (chk26_of (F := F) v59 (rowWord' gI v59 h59) h59)
/-- Piece 7: the sixteen floats at those codes' positions. -/
abbrev rowPiece7' : Vec F S16 .f32 :=
  loadIdx gB ![k0_pay40 k0_pay22 (rowCodes7' gI gC v59 h59)]
    (chk34_of (F := F) (rowCodes7' gI gC v59 h59) (fun x => loadIdx_le15 (F := F) gC hC _ _ x))
/-- Piece 7 is entries `112 ‥ 127` of the decoded row. -/
theorem rowPiece7'_eq (r : Fin 128) (hv59 : ∀ x, v59 x = BitVec.ofNat 32 r.val) (l : Fin 16) :
    rowPiece7' gI gC gB v59 h59 hC (ix1 l) = rowGAt gI gC gB r ⟨16 * 7 + l.val, by have := l.isLt; omega⟩ :=
  piece7'_eq gI gC gB r v59 hv59 hC _ _ _ l

/-- After trip `r` stores its eight pieces, the rows up to and including `r` are decoded. -/
theorem rows_after1 (fO : (Memref.whole cc0_scratch7 : Memref sig .scVector .vmem S128x128 .f32).view.ty.Contents (Elt F)) (r : Fin k0_t6_loop.trips)
    (hv59 : ∀ x, v59 x = BitVec.ofNat 32 (rowOf' r).val)
    (hO : ∀ r' e : Fin 128, r'.val < r.val → fO (ix2 r' e) = rowGAt gI gC gB r' e) :
    ∀ r' e : Fin 128, r'.val < r.val + 1 → (Memref.whole cc0_scratch7 : Memref sig .scVector .vmem S128x128 .f32).view.writes (Elt F) fO
        [⟨Rect.unit (s := S128x128) (k0_off24 r) S1x16.size (k0_off24_inb r), shapeCast S1x16 (rowPiece7' gI gC gB v59 h59 hC) shapeCasts_S16_S1x16⟩,
        ⟨Rect.unit (s := S128x128) (k0_off23 r) S1x16.size (k0_off23_inb r), shapeCast S1x16 (rowPiece6' gI gC gB v59 h59 hC) shapeCasts_S16_S1x16⟩,
        ⟨Rect.unit (s := S128x128) (k0_off22 r) S1x16.size (k0_off22_inb r), shapeCast S1x16 (rowPiece5' gI gC gB v59 h59 hC) shapeCasts_S16_S1x16⟩,
        ⟨Rect.unit (s := S128x128) (k0_off21 r) S1x16.size (k0_off21_inb r), shapeCast S1x16 (rowPiece4' gI gC gB v59 h59 hC) shapeCasts_S16_S1x16⟩,
        ⟨Rect.unit (s := S128x128) (k0_off20 r) S1x16.size (k0_off20_inb r), shapeCast S1x16 (rowPiece3' gI gC gB v59 h59 hC) shapeCasts_S16_S1x16⟩,
        ⟨Rect.unit (s := S128x128) (k0_off19 r) S1x16.size (k0_off19_inb r), shapeCast S1x16 (rowPiece2' gI gC gB v59 h59 hC) shapeCasts_S16_S1x16⟩,
        ⟨Rect.unit (s := S128x128) (k0_off18 r) S1x16.size (k0_off18_inb r), shapeCast S1x16 (rowPiece1' gI gC gB v59 h59 hC) shapeCasts_S16_S1x16⟩,
        ⟨Rect.unit (s := S128x128) (k0_off17 r) S1x16.size (k0_off17_inb r), shapeCast S1x16 (rowPiece0' gI gC gB v59 h59 hC) shapeCasts_S16_S1x16⟩] (ix2 r' e) = rowGAt gI gC gB r' e := by
  have rs := row_stored' (F := F) fO r _ _ _ _ _ _ _ _ (rowG gI gC gB)
    (fun l => rowPiece0'_eq gI gC gB v59 h59 hC (rowOf' r) hv59 l)
    (fun l => rowPiece1'_eq gI gC gB v59 h59 hC (rowOf' r) hv59 l)
    (fun l => rowPiece2'_eq gI gC gB v59 h59 hC (rowOf' r) hv59 l)
    (fun l => rowPiece3'_eq gI gC gB v59 h59 hC (rowOf' r) hv59 l)
    (fun l => rowPiece4'_eq gI gC gB v59 h59 hC (rowOf' r) hv59 l)
    (fun l => rowPiece5'_eq gI gC gB v59 h59 hC (rowOf' r) hv59 l)
    (fun l => rowPiece6'_eq gI gC gB v59 h59 hC (rowOf' r) hv59 l)
    (fun l => rowPiece7'_eq gI gC gB v59 h59 hC (rowOf' r) hv59 l)
  intro r' e hlt
  by_cases hr' : r'.val = r.val
  · obtain rfl : r' = rowOf' r := Fin.ext hr'
    exact rs.1 e
  · exact (rs.2 r' e hr').trans (hO r' e (by omega))

end

/-! ## The row counter -/

/-- The counter's vector held `r` in every lane; after the trip's store it holds `r + 1` in every lane. -/
theorem counter_after0 (fR : Vec F S16 .i32) (r : Nat) (hr : r < 128) (v59 : Vec F S16 .i32) (hv59 : ∀ x, v59 x = BitVec.ofNat 32 r) :
    ∀ x, (sR).view.writes (Elt F) fR [⟨Rect.unit (s := S16) ![0] S16.size inb_S16_S16_0, k0_pay42 v59⟩] x = BitVec.ofNat 32 (r + 1) :=
  fun x => (rsplat_stored fR _ x).trans (splat_succ r hr v59 hv59 x)
theorem counter_after1 (fR : Vec F S16 .i32) (r : Nat) (hr : r < 128) (v59 : Vec F S16 .i32) (hv59 : ∀ x, v59 x = BitVec.ofNat 32 r) :
    ∀ x, (sR).view.writes (Elt F) fR [⟨Rect.unit (s := S16) ![0] S16.size inb_S16_S16_0, k0_pay47 v59⟩] x = BitVec.ofNat 32 (r + 1) :=
  fun x => (rsplat_stored fR _ x).trans (splat_succ' r hr v59 hv59 x)

/-- The row loop's invariant (first buffer): the query words, the gathered code rows and the centroids untouched; the
    out scratch's rows below `r` decoded; the counter vector at `r` in every lane. -/
def rowInv0 (d : Dev nD) (L : grid0.Coords) (fI : Buf (Elt F) ((V d ((L 0).castLE hcore0) ((L 1).castLE hsub0)).loc cc0_scratch0)) (fC : Buf (Elt F) ((V d ((L 0).castLE hcore0) ((L 1).castLE hsub0)).loc cc0_scratch4))
    (fB : Buf (Elt F) ((V d ((L 0).castLE hcore0) ((L 1).castLE hsub0)).loc cc0_scratch8)) (r : Nat) (_ : PUnit) : sProp 𝕄 :=
  iprop(((sI0).view.loc (V d ((L 0).castLE hcore0) ((L 1).castLE hsub0)) ↦{fullShare} fI) ∗ ((sC0).view.loc (V d ((L 0).castLE hcore0) ((L 1).castLE hsub0)) ↦{fullShare} fC)
    ∗ ((sB).view.loc (V d ((L 0).castLE hcore0) ((L 1).castLE hsub0)) ↦{fullShare} fB)
    ∗ (∃ fO : Buf (Elt F) ((V d ((L 0).castLE hcore0) ((L 1).castLE hsub0)).loc cc0_scratch6), ((sO0).view.loc (V d ((L 0).castLE hcore0) ((L 1).castLE hsub0)) ↦{fullShare} fO)
        ∗ ⌜∀ r' e : Fin 128, r'.val < r → fO (ix2 r' e) = rowGAt fI fC fB r' e⌝)
    ∗ (∃ fR : Buf (Elt F) ((V d ((L 0).castLE hcore0) ((L 1).castLE hsub0)).loc cc0_scratch9), ((sR).view.loc (V d ((L 0).castLE hcore0) ((L 1).castLE hsub0)) ↦{fullShare} fR)
        ∗ ⌜∀ x, fR x = BitVec.ofNat 32 r⌝))

set_option maxHeartbeats 4000000 in
/-- One trip of the row loop (first buffer): it decodes row `r` and steps the counter. -/
theorem row_trip0 (d : Dev nD) (L : grid0.Coords) (fI : Buf (Elt F) ((V d ((L 0).castLE hcore0) ((L 1).castLE hsub0)).loc cc0_scratch0)) (fC : Buf (Elt F) ((V d ((L 0).castLE hcore0) ((L 1).castLE hsub0)).loc cc0_scratch4))
    (fB : Buf (Elt F) ((V d ((L 0).castLE hcore0) ((L 1).castLE hsub0)).loc cc0_scratch8)) (hC : ∀ j, (fC j).toNat ≤ 15) (v2 : BitVec 32) (k0_t3 : Fin k0_t3_loop.trips) (r : Fin k0_t4_loop.trips) :
    rowInv0 d L fI fC fB r.val ⟨⟩ ⊢ wp frame (wpE (defs₀ (F := F)) 𝒱₀ (V d ((L 0).castLE hcore0) ((L 1).castLE hsub0)) none) Set.univ
      (k0_t4_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 0#32 1#32 k0_t3 r ())
      (fun _ => rowInv0 d L fI fC fB (r.val + 1) ⟨⟩) := by
  unfold k0_t4_body
  simp only [k0_part1_eq_skeleton, k0_part2_eq_skeleton]; unfold k0_part1_skel k0_part2_skel
  unfold SparseCore.vectorLoadIdx
  unfold rowInv0
  iintro ⟨HI, HC, HB, ⟨%fO, HO, %hO⟩, ⟨%fR, HR, %hR⟩⟩
  -- the facts the in-range conditions rest on, over the values the trip reads
  have hv59 : ∀ x, (View.readAt (Elt F) (sR).view (Rect.unit (s := S16) ![0] S16.size inb_S16_S16_0).toLoadRect fR) x = BitVec.ofNat 32 (rowOf r).val := fun x => (rsplat_read fR x).trans (hR x)
  have h59 : ∀ x, ((View.readAt (Elt F) (sR).view (Rect.unit (s := S16) ![0] S16.size inb_S16_S16_0).toLoadRect fR) x).toNat < 128 := splat_lt (rowOf r) _ hv59
  have hC' : ∀ j, ((View.readAt (Elt F) (sC0).view (LoadRect.whole S128x128) fC) j).toNat ≤ 15 := by
    intro j; rw [readAt_whole_s4]; exact hC j
  have hO' : ∀ r' e : Fin 128, r'.val < r.val → fO (ix2 r' e) = rowGAt (View.readAt (Elt F) (sI0).view (LoadRect.whole S128) fI) (View.readAt (Elt F) (sC0).view (LoadRect.whole S128x128) fC) (View.readAt (Elt F) (sB).view (LoadRect.whole S64) fB) r' e := by
    intro r' e h; rw [readAt_whole_s0 fI, readAt_whole_s4 fC, readAt_whole_s8 fB]; exact hO r' e h
  sl_exec (disch := first
      | sl_exact (chk1_of _ h59)
      | sl_exact (chk2_of (F := F) _ _ h59)
      | sl_exact (chk3_of (F := F) _ _ h59)
      | sl_exact (chk4_of (F := F) _ _ h59)
      | sl_exact (chk5_of (F := F) _ _ h59)
      | sl_exact (chk6_of (F := F) _ _ h59)
      | sl_exact (chk7_of (F := F) _ _ h59)
      | sl_exact (chk8_of (F := F) _ _ h59)
      | sl_exact (chk9_of (F := F) _ _ h59)
      | sl_exact (chk10_of (F := F) _ (fun x => loadIdx_le15 (F := F) _ hC' _ _ x))
      | sl_exact (chk11_of (F := F) _ (fun x => loadIdx_le15 (F := F) _ hC' _ _ x))
      | sl_exact (chk12_of (F := F) _ (fun x => loadIdx_le15 (F := F) _ hC' _ _ x))
      | sl_exact (chk13_of (F := F) _ (fun x => loadIdx_le15 (F := F) _ hC' _ _ x))
      | sl_exact (chk14_of (F := F) _ (fun x => loadIdx_le15 (F := F) _ hC' _ _ x))
      | sl_exact (chk15_of (F := F) _ (fun x => loadIdx_le15 (F := F) _ hC' _ _ x))
      | sl_exact (chk16_of (F := F) _ (fun x => loadIdx_le15 (F := F) _ hC' _ _ x))
      | sl_exact (chk17_of (F := F) _ (fun x => loadIdx_le15 (F := F) _ hC' _ _ x)))
  sl_step
  isplitl [HI]; · iexact HI
  isplitl [HC]; · iexact HC
  isplitl [HB]; · iexact HB
  isplitl [HO]
  · -- the out scratch: row r is now decoded, the rows below it still are
    iexists _; isplitl [HO]; · iexact HO
    ipureintro
    intro r' e hlt
    refine (rows_after0 (View.readAt (Elt F) (sI0).view (LoadRect.whole S128) fI) (View.readAt (Elt F) (sC0).view (LoadRect.whole S128x128) fC) (View.readAt (Elt F) (sB).view (LoadRect.whole S64) fB) (View.readAt (Elt F) (sR).view (Rect.unit (s := S16) ![0] S16.size inb_S16_S16_0).toLoadRect fR) h59 hC' fO r hv59 hO' r' e hlt).trans ?_
    rw [readAt_whole_s0 fI, readAt_whole_s4 fC, readAt_whole_s8 fB]
  · -- the counter: every lane held r, so every lane now holds r + 1
    iexists _; isplitl [HR]; · iexact HR
    ipureintro
    exact counter_after0 fR r.val (rowOf r).isLt (View.readAt (Elt F) (sR).view (Rect.unit (s := S16) ![0] S16.size inb_S16_S16_0).toLoadRect fR) hv59

/-- The row loop's invariant (second buffer): the query words, the gathered code rows and the centroids untouched; the
    out scratch's rows below `r` decoded; the counter vector at `r` in every lane. -/
def rowInv1 (d : Dev nD) (L : grid0.Coords) (fI : Buf (Elt F) ((V d ((L 0).castLE hcore0) ((L 1).castLE hsub0)).loc cc0_scratch1)) (fC : Buf (Elt F) ((V d ((L 0).castLE hcore0) ((L 1).castLE hsub0)).loc cc0_scratch5))
    (fB : Buf (Elt F) ((V d ((L 0).castLE hcore0) ((L 1).castLE hsub0)).loc cc0_scratch8)) (r : Nat) (_ : PUnit) : sProp 𝕄 :=
  iprop(((sI1).view.loc (V d ((L 0).castLE hcore0) ((L 1).castLE hsub0)) ↦{fullShare} fI) ∗ ((sC1).view.loc (V d ((L 0).castLE hcore0) ((L 1).castLE hsub0)) ↦{fullShare} fC)
    ∗ ((sB).view.loc (V d ((L 0).castLE hcore0) ((L 1).castLE hsub0)) ↦{fullShare} fB)
    ∗ (∃ fO : Buf (Elt F) ((V d ((L 0).castLE hcore0) ((L 1).castLE hsub0)).loc cc0_scratch7), ((sO1).view.loc (V d ((L 0).castLE hcore0) ((L 1).castLE hsub0)) ↦{fullShare} fO)
        ∗ ⌜∀ r' e : Fin 128, r'.val < r → fO (ix2 r' e) = rowGAt fI fC fB r' e⌝)
    ∗ (∃ fR : Buf (Elt F) ((V d ((L 0).castLE hcore0) ((L 1).castLE hsub0)).loc cc0_scratch9), ((sR).view.loc (V d ((L 0).castLE hcore0) ((L 1).castLE hsub0)) ↦{fullShare} fR)
        ∗ ⌜∀ x, fR x = BitVec.ofNat 32 r⌝))

set_option maxHeartbeats 4000000 in
/-- One trip of the row loop (second buffer): it decodes row `r` and steps the counter. -/
theorem row_trip1 (d : Dev nD) (L : grid0.Coords) (fI : Buf (Elt F) ((V d ((L 0).castLE hcore0) ((L 1).castLE hsub0)).loc cc0_scratch1)) (fC : Buf (Elt F) ((V d ((L 0).castLE hcore0) ((L 1).castLE hsub0)).loc cc0_scratch5))
    (fB : Buf (Elt F) ((V d ((L 0).castLE hcore0) ((L 1).castLE hsub0)).loc cc0_scratch8)) (hC : ∀ j, (fC j).toNat ≤ 15) (r : Fin k0_t6_loop.trips) :
    rowInv1 d L fI fC fB r.val ⟨⟩ ⊢ wp frame (wpE (defs₀ (F := F)) 𝒱₀ (V d ((L 0).castLE hcore0) ((L 1).castLE hsub0)) none) Set.univ
      (k0_t6_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 r ())
      (fun _ => rowInv1 d L fI fC fB (r.val + 1) ⟨⟩) := by
  unfold k0_t6_body
  simp only [k0_part3_eq_skeleton, k0_part4_eq_skeleton]; unfold k0_part3_skel k0_part4_skel
  unfold SparseCore.vectorLoadIdx
  unfold rowInv1
  iintro ⟨HI, HC, HB, ⟨%fO, HO, %hO⟩, ⟨%fR, HR, %hR⟩⟩
  -- the facts the in-range conditions rest on, over the values the trip reads
  have hv59 : ∀ x, (View.readAt (Elt F) (sR).view (Rect.unit (s := S16) ![0] S16.size inb_S16_S16_0).toLoadRect fR) x = BitVec.ofNat 32 (rowOf' r).val := fun x => (rsplat_read fR x).trans (hR x)
  have h59 : ∀ x, ((View.readAt (Elt F) (sR).view (Rect.unit (s := S16) ![0] S16.size inb_S16_S16_0).toLoadRect fR) x).toNat < 128 := splat_lt (rowOf' r) _ hv59
  have hC' : ∀ j, ((View.readAt (Elt F) (sC1).view (LoadRect.whole S128x128) fC) j).toNat ≤ 15 := by
    intro j; rw [readAt_whole_s5]; exact hC j
  have hO' : ∀ r' e : Fin 128, r'.val < r.val → fO (ix2 r' e) = rowGAt (View.readAt (Elt F) (sI1).view (LoadRect.whole S128) fI) (View.readAt (Elt F) (sC1).view (LoadRect.whole S128x128) fC) (View.readAt (Elt F) (sB).view (LoadRect.whole S64) fB) r' e := by
    intro r' e h; rw [readAt_whole_s1 fI, readAt_whole_s5 fC, readAt_whole_s8 fB]; exact hO r' e h
  sl_exec (disch := first
      | sl_exact (chk18_of _ h59)
      | sl_exact (chk19_of (F := F) _ _ h59)
      | sl_exact (chk20_of (F := F) _ _ h59)
      | sl_exact (chk21_of (F := F) _ _ h59)
      | sl_exact (chk22_of (F := F) _ _ h59)
      | sl_exact (chk23_of (F := F) _ _ h59)
      | sl_exact (chk24_of (F := F) _ _ h59)
      | sl_exact (chk25_of (F := F) _ _ h59)
      | sl_exact (chk26_of (F := F) _ _ h59)
      | sl_exact (chk27_of (F := F) _ (fun x => loadIdx_le15 (F := F) _ hC' _ _ x))
      | sl_exact (chk28_of (F := F) _ (fun x => loadIdx_le15 (F := F) _ hC' _ _ x))
      | sl_exact (chk29_of (F := F) _ (fun x => loadIdx_le15 (F := F) _ hC' _ _ x))
      | sl_exact (chk30_of (F := F) _ (fun x => loadIdx_le15 (F := F) _ hC' _ _ x))
      | sl_exact (chk31_of (F := F) _ (fun x => loadIdx_le15 (F := F) _ hC' _ _ x))
      | sl_exact (chk32_of (F := F) _ (fun x => loadIdx_le15 (F := F) _ hC' _ _ x))
      | sl_exact (chk33_of (F := F) _ (fun x => loadIdx_le15 (F := F) _ hC' _ _ x))
      | sl_exact (chk34_of (F := F) _ (fun x => loadIdx_le15 (F := F) _ hC' _ _ x)))
  sl_step
  isplitl [HI]; · iexact HI
  isplitl [HC]; · iexact HC
  isplitl [HB]; · iexact HB
  isplitl [HO]
  · -- the out scratch: row r is now decoded, the rows below it still are
    iexists _; isplitl [HO]; · iexact HO
    ipureintro
    intro r' e hlt
    refine (rows_after1 (View.readAt (Elt F) (sI1).view (LoadRect.whole S128) fI) (View.readAt (Elt F) (sC1).view (LoadRect.whole S128x128) fC) (View.readAt (Elt F) (sB).view (LoadRect.whole S64) fB) (View.readAt (Elt F) (sR).view (Rect.unit (s := S16) ![0] S16.size inb_S16_S16_0).toLoadRect fR) h59 hC' fO r hv59 hO' r' e hlt).trans ?_
    rw [readAt_whole_s1 fI, readAt_whole_s5 fC, readAt_whole_s8 fB]
  · -- the counter: every lane held r, so every lane now holds r + 1
    iexists _; isplitl [HR]; · iexact HR
    ipureintro
    exact counter_after1 fR r.val (rowOf' r).isLt (View.readAt (Elt F) (sR).view (Rect.unit (s := S16) ![0] S16.size inb_S16_S16_0).toLoadRect fR) hv59

end Cert.Proof.KI

end
-- ==== Proof.KIBody.lean ====
import proofs.«215948_g88356067214102_cont_sun_c4_674_26_alg».proof.Proof.KISetup
import proofs.«215948_g88356067214102_cont_sun_c4_674_26_alg».proof.Proof.KIChunk
import proofs.«215948_g88356067214102_cont_sun_c4_674_26_alg».proof.Proof.KIOuterStmt
import proofs.«215948_g88356067214102_cont_sun_c4_674_26_alg».proof.Proof.KIGlue3
import proofs.«215948_g88356067214102_cont_sun_c4_674_26_alg».proof.Proof.KIQTrip
import proofs.«215948_g88356067214102_cont_sun_c4_674_26_alg».proof.Proof.KIRowTrip

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.KernelIdeal.cc0_scratch0 : Memref Cert.KernelIdeal.sig Kind.scVector Space.vmem Cert.KernelIdeal.S128 EltTy.i32)
local notation "sI1" => (Memref.whole Cert.KernelIdeal.cc0_scratch1 : Memref Cert.KernelIdeal.sig Kind.scVector Space.vmem Cert.KernelIdeal.S128 EltTy.i32)
local notation "sQ0" => (Memref.whole Cert.KernelIdeal.cc0_scratch2 : Memref Cert.KernelIdeal.sig Kind.scVector Space.vmem Cert.KernelIdeal.S128 EltTy.i32)
local notation "sQ1" => (Memref.whole Cert.KernelIdeal.cc0_scratch3 : Memref Cert.KernelIdeal.sig Kind.scVector Space.vmem Cert.KernelIdeal.S128 EltTy.i32)
local notation "sC0" => (Memref.whole Cert.KernelIdeal.cc0_scratch4 : Memref Cert.KernelIdeal.sig Kind.scVector Space.vmem Cert.KernelIdeal.S128x128 EltTy.i32)
local notation "sC1" => (Memref.whole Cert.KernelIdeal.cc0_scratch5 : Memref Cert.KernelIdeal.sig Kind.scVector Space.vmem Cert.KernelIdeal.S128x128 EltTy.i32)
local notation "sO0" => (Memref.whole Cert.KernelIdeal.cc0_scratch6 : Memref Cert.KernelIdeal.sig Kind.scVector Space.vmem Cert.KernelIdeal.S128x128 EltTy.f32)
local notation "sO1" => (Memref.whole Cert.KernelIdeal.cc0_scratch7 : Memref Cert.KernelIdeal.sig Kind.scVector Space.vmem Cert.KernelIdeal.S128x128 EltTy.f32)
local notation "sB" => (Memref.whole Cert.KernelIdeal.cc0_scratch8 : Memref Cert.KernelIdeal.sig Kind.scVector Space.vmem Cert.KernelIdeal.S64 EltTy.f32)
local notation "sR" => (Memref.whole Cert.KernelIdeal.cc0_scratch9 : Memref Cert.KernelIdeal.sig Kind.scVector Space.vmem Cert.KernelIdeal.S16 EltTy.i32)
local notation "qV" => (Memref.whole Cert.KernelIdeal.main_v0_scv : Memref Cert.KernelIdeal.sig Kind.scVector Space.hbm Cert.KernelIdeal.S204800 EltTy.i32)
local notation "cVm" => (Memref.whole Cert.KernelIdeal.main_v1_scv : Memref Cert.KernelIdeal.sig Kind.scVector Space.hbm Cert.KernelIdeal.S25000x128 EltTy.i32)
local notation "bV" => (Memref.whole Cert.KernelIdeal.main_v2_scv : Memref Cert.KernelIdeal.sig Kind.scVector Space.hbm Cert.KernelIdeal.S64 EltTy.f32)
local notation "oV" => (Memref.whole Cert.KernelIdeal.main_v3_scv : Memref Cert.KernelIdeal.sig Kind.scVector Space.hbm Cert.KernelIdeal.S204800x128 EltTy.f32)

variable [FloatOps F]

/-! The chunk loop's three kinds of trip, run.

    A trip decodes two chunks, one per slot. For a slot: wait for the chunk's gathered code rows; wait (but on the first
    trip) for the block written two chunks ago, which frees the out scratch; decode the chunk's 128 rows into the out
    scratch; fetch the query words of the chunk after next, shift them into the row list and start their gather (but
    on the last trip); start writing the decoded chunk out to its block. What the transfers in flight will deliver is
    kept in one form from trip to trip (`GD0`, `GD1`, `OD0`, `OD1`): a transfer's delivery as issued is weakened to that form
    where the transfer is handed on to the next trip, and waited for by the plain rule where it is taken up. -/

theorem cond1_iff : ∀ k : Fin k0_t3_loop.trips, k0_cond1 k = 1#1 ↔ 0 < k.val := by decide
theorem cond3_iff : ∀ k : Fin k0_t3_loop.trips, k0_cond3 k = 1#1 ↔ 0 < k.val := by decide
theorem cond2_iff : ∀ k : Fin k0_t3_loop.trips, k0_cond2 k = 1#1 ↔ k.val < 24 := by decide
theorem cond4_iff : ∀ k : Fin k0_t3_loop.trips, k0_cond4 k = 1#1 ↔ k.val < 24 := by decide

/-- A wait's record at the launch's index keeps the set of records within "old or at the launch's index". -/
theorem owes_mem {W W1 : Waits sig (HIx 1)} {sm : SemLoc sig} (h : ∀ p ∈ W1, p ∈ W ∨ p.2 = none) :
    ∀ p ∈ insert (sm, (default : HIx 1)) W1, p ∈ W ∨ p.2 = none :=
  fun p hp => (Finset.mem_insert.mp hp).elim (fun e => Or.inr (e ▸ rfl)) (h p)

/-- A block as a write-out addresses it, at contents that agree with the decoded rows on the block, is the block decoded. -/
theorem block_landed0 (d : Dev nD) (L : grid0.Coords) (go : Buf (Elt F) (oLoc d)) (k : Fin k0_t3_loop.trips) (f : Buf (Elt F) (oLoc d))
    (h : ∀ i ∈ blkSet (bk L (2 * k.val)), f i = go i) :
    ((((oV).slice (Rect.unit (s := S204800x128) (k0_off15 L k 0#32) S128x128.size (k0_off15_inb L k 0)) (fun _ => rfl)).view.loc (tth d L))
        ↦[((oV).slice (Rect.unit (s := S204800x128) (k0_off15 L k 0#32) S128x128.size (k0_off15_inb L k 0)) (fun _ => rfl)).view.set]{fullShare} f : sProp 𝕄)
      ⊢ (oLoc d ↦[blkSet (bk L (2 * k.val))]{fullShare} go) := by
  rw [oslice_set0 L k]
  exact Entails.of_eq (pointsTo_congr h)
theorem block_landed1 (d : Dev nD) (L : grid0.Coords) (go : Buf (Elt F) (oLoc d)) (k : Fin k0_t3_loop.trips) (f : Buf (Elt F) (oLoc d))
    (h : ∀ i ∈ blkSet (bk L (2 * k.val + 1)), f i = go i) :
    ((((oV).slice (Rect.unit (s := S204800x128) (k0_off15 L k 1#32) S128x128.size (k0_off15_inb L k 1)) (fun _ => rfl)).view.loc (tth d L))
        ↦[((oV).slice (Rect.unit (s := S204800x128) (k0_off15 L k 1#32) S128x128.size (k0_off15_inb L k 1)) (fun _ => rfl)).view.set]{fullShare} f : sProp 𝕄)
      ⊢ (oLoc d ↦[blkSet (bk L (2 * k.val + 1))]{fullShare} go) := by
  rw [oslice_set1 L k]
  exact Entails.of_eq (pointsTo_congr h)

set_option maxHeartbeats 8000000 in
theorem outer_first (d : Dev nD) (L : grid0.Coords) (xq : Buf (Elt F) (qLoc d)) (xc : Buf (Elt F) (cLoc d)) (xb : Buf (Elt F) (bLoc d)) (go : Buf (Elt F) (oLoc d))
    (qq qa qb : PosShare TreeShare) : OuterFirst d L xq xc xb go qq qa qb := by
  intro m0 O W hO hle hcl hgo k hk0 v2 fI0 hI0 fI1 hI1 fR fO0 fO1
  have k0_h1 : ¬ k0_cond1 k = 1#1 := fun h => absurd ((cond1_iff k).mp h) (by omega)
  have k0_h3 : ¬ k0_cond3 k = 1#1 := fun h => absurd ((cond3_iff k).mp h) (by omega)
  have k0_h2 : k0_cond2 k = 1#1 := (cond2_iff k).mpr (by omega)
  have k0_h4 : k0_cond4 k = 1#1 := (cond4_iff k).mpr (by omega)
  unfold k0_t3_body
  simp only [k0_part5_eq_skeleton]; unfold k0_part5_skel
  unfold SparseCore.waitIndirectGather
  simp only [bind_assoc, pure_bind, Prog.bind_op, Prog.bind_ret]
  iintro ⟨#Hlv, HO, Hq, H8, H9, Hr3, Hr4, H0, H1, Hg0, Hcr0, Hg1, Hcr1, H6, Ho0, H7, Ho1, B0, B1⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave H8 := (Entails.of_eq (rfl : ((sB).view.loc (tth d L) ↦{fullShare} xb : sProp 𝕄) = _)) $$ H8
  ihave H9 := (Entails.of_eq (rfl : ((sR).view.loc (tth d L) ↦{fullShare} fR : sProp 𝕄) = _)) $$ H9
  ihave H0 := (Entails.of_eq (rfl : ((sI0).view.loc (tth d L) ↦{fullShare} fI0 : sProp 𝕄) = _)) $$ H0
  ihave H1 := (Entails.of_eq (rfl : ((sI1).view.loc (tth d L) ↦{fullShare} fI1 : sProp 𝕄) = _)) $$ H1
  ihave H6 := (Entails.of_eq (rfl : ((sO0).view.loc (tth d L) ↦{fullShare} fO0 : sProp 𝕄) = _)) $$ H6
  ihave H7 := (Entails.of_eq (rfl : ((sO1).view.loc (tth d L) ↦{fullShare} fO1 : sProp 𝕄) = _)) $$ H7
  -- the two blocks this trip writes, as the write-outs address them
  ihave B0 := (Entails.of_eq (show (oLoc d ↦[blkSet (bk L (2 * k.val))]{fullShare} m0 : sProp 𝕄)
      = ((((oV).slice (Rect.unit (s := S204800x128) (k0_off15 L k 0#32) S128x128.size (k0_off15_inb L k 0)) (fun _ => rfl)).view.loc (tth d L)) ↦[((oV).slice (Rect.unit (s := S204800x128) (k0_off15 L k 0#32) S128x128.size (k0_off15_inb L k 0)) (fun _ => rfl)).view.set]{fullShare} m0) from by
        rw [oslice_set0 L k])) $$ B0
  ihave B1 := (Entails.of_eq (show (oLoc d ↦[blkSet (bk L (2 * k.val + 1))]{fullShare} m0 : sProp 𝕄)
      = ((((oV).slice (Rect.unit (s := S204800x128) (k0_off15 L k 1#32) S128x128.size (k0_off15_inb L k 1)) (fun _ => rfl)).view.loc (tth d L)) ↦[((oV).slice (Rect.unit (s := S204800x128) (k0_off15 L k 1#32) S128x128.size (k0_off15_inb L k 1)) (fun _ => rfl)).view.set]{fullShare} m0) from by
        rw [oslice_set1 L k])) $$ B1
  -- slot 0: the gathered rows of chunk 2 * k.val have landed
  iapply (Transfers.wp_waitLocalO countersEmb 𝒱₀ (tth d L) none (default : HIx 1) (N := 524288) rfl) $$ [Hg0 HO]
  · isplitl [Hg0]; · iexact Hg0
    isplitl [HO]; · iexact HO
    iapply ((K (F := F)).mayWait_none (SemLoc.dma cc0_scratch10.sem) hO); iexact Hlv
  iintro ⟨HD, Hg0, HO⟩
  unfold GD0
  icases HD with ⟨⟨%fC0, H4, %hC0⟩, ⟨%fQ0, H2⟩, Hc0⟩
  ihave Hc0 := ((pointsTo_split_subset (ℓ := (cVm).view.loc (tth d L)) (q := qa) (f := xc) (S := Finset.univ) (Finset.subset_univ (cAll).view.set)).2) $$ [Hc0 Hcr0]
  · isplitl [Hc0] <;> iassumption
  sl_exec
  try simp (config := {proj := false}) only [bind_assoc, pure_bind]
  have hCle0 : ∀ j, (fC0 j).toNat ≤ 15 := codes_le xq xc L (2 * k.val) fC0 hC0 hcl
  sl_for (rowInv0 d L fI0 fC0 xb) $$ [H0 H4 H8 H6 H9]
  case region =>
    intro r _
    exact row_trip0 d L fI0 fC0 xb hCle0 v2 k r
  · unfold rowInv0
    isplitl [H0]; · iexact H0
    isplitl [H4]; · iexact H4
    isplitl [H8]; · iexact H8
    isplitl [H6]
    · iexists _; isplitl [H6]; · iexact H6
      ipureintro; intro r' e h; omega
    · iexists _; isplitl [H9]; · iexact H9
      ipureintro; intro x; exact (rsplat_stored _ _ x).trans (splat_zero x)
  iintro %_ HI
  unfold rowInv0
  icases HI with ⟨H0, H4, H8, ⟨%fO0n, H6, %hO0n⟩, ⟨%fR0n, H9, -⟩⟩
  have hOut0 : ChunkO xq xc xb L (2 * k.val) fO0n := fun r e => (hO0n r e (lt_of_lt_of_eq r.isLt (show (128 : Nat) = Scf.trips k0_t4_loop.lb k0_t4_loop.ub k0_t4_loop.st from by decide))).trans (chunk_value xq xc xb L (2 * k.val) fI0 fC0 hI0 hC0 r e)
  sl_exec
  try simp (config := {proj := false}) only [bind_assoc, pure_bind]
  generalize hfI0n : View.write (Elt F) (Memref.whole cc0_scratch0).view fI0 _ Finset.univ = fI0n
  sl_for (qInv0 d L fI0n) $$ [H0 H2]
  case region =>
    intro j _
    exact q_trip0' d L fI0n v2 k k0_h2 j
  · unfold qInv0
    isplitl [H0]; · iexact H0
    iexists _; isplitl [H2]; · iexact H2
    ipureintro; intro j hj; omega
  iintro %_ HI
  unfold qInv0
  icases HI with ⟨H0, %fQ0n, H2, %hQ0n⟩
  have hI0n : ChunkI xq L (2 * k.val + 2) fI0n := by rw [← hfI0n]; exact chunkI_next0 xq L k k0_h2 fI0
  have hQ0n' : ChunkQ xq L (2 * k.val + 2) fQ0n := chunkQ_of xq L (2 * k.val + 2) fI0n fQ0n hI0n hQ0n
  have hin0 : ∀ x, ((Memref.whole cc0_scratch2).view.read (Elt F) fQ0n x).toNat < S25000x128.size gathers_S25000x128_S128x128.axis := hin_of_chunkQ0 xq L (2 * k.val + 2) fQ0n hQ0n' hle
  sl_exec
  -- slot 1: the gathered rows of chunk 2 * k.val + 1 have landed
  iapply (Transfers.wp_waitLocalO countersEmb 𝒱₀ (tth d L) none (default : HIx 1) (N := 524288) rfl) $$ [Hg1 HO]
  · isplitl [Hg1]; · iexact Hg1
    isplitl [HO]; · iexact HO
    iapply ((K (F := F)).mayWait_none (SemLoc.dma cc0_scratch11.sem) hO); iexact Hlv
  iintro ⟨HD, Hg1, HO⟩
  unfold GD1
  icases HD with ⟨⟨%fC1, H5, %hC1⟩, ⟨%fQ1, H3⟩, Hc1⟩
  ihave Hc1 := ((pointsTo_split_subset (ℓ := (cVm).view.loc (tth d L)) (q := qb) (f := xc) (S := Finset.univ) (Finset.subset_univ (cAll).view.set)).2) $$ [Hc1 Hcr1]
  · isplitl [Hc1] <;> iassumption
  sl_exec
  try simp (config := {proj := false}) only [bind_assoc, pure_bind]
  have hCle1 : ∀ j, (fC1 j).toNat ≤ 15 := codes_le xq xc L (2 * k.val + 1) fC1 hC1 hcl
  sl_for (rowInv1 d L fI1 fC1 xb) $$ [H1 H5 H8 H7 H9]
  case region =>
    intro r _
    exact row_trip1 d L fI1 fC1 xb hCle1 r
  · unfold rowInv1
    isplitl [H1]; · iexact H1
    isplitl [H5]; · iexact H5
    isplitl [H8]; · iexact H8
    isplitl [H7]
    · iexists _; isplitl [H7]; · iexact H7
      ipureintro; intro r' e h; omega
    · iexists _; isplitl [H9]; · iexact H9
      ipureintro; intro x; exact (rsplat_stored _ _ x).trans (splat_zero' x)
  iintro %_ HI
  unfold rowInv1
  icases HI with ⟨H1, H5, H8, ⟨%fO1n, H7, %hO1n⟩, ⟨%fR1n, H9, -⟩⟩
  have hOut1 : ChunkO xq xc xb L (2 * k.val + 1) fO1n := fun r e => (hO1n r e (lt_of_lt_of_eq r.isLt (show (128 : Nat) = Scf.trips k0_t6_loop.lb k0_t6_loop.ub k0_t6_loop.st from by decide))).trans (chunk_value xq xc xb L (2 * k.val + 1) fI1 fC1 hI1 hC1 r e)
  sl_exec
  try simp (config := {proj := false}) only [bind_assoc, pure_bind]
  generalize hfI1n : View.write (Elt F) (Memref.whole cc0_scratch1).view fI1 _ Finset.univ = fI1n
  sl_for (qInv1 d L fI1n) $$ [H1 H3]
  case region =>
    intro j _
    exact q_trip1' d L fI1n k k0_h4 j
  · unfold qInv1
    isplitl [H1]; · iexact H1
    iexists _; isplitl [H3]; · iexact H3
    ipureintro; intro j hj; omega
  iintro %_ HI
  unfold qInv1
  icases HI with ⟨H1, %fQ1n, H3, %hQ1n⟩
  have hI1n : ChunkI xq L (2 * k.val + 1 + 2) fI1n := by rw [← hfI1n]; exact chunkI_next1 xq L k k0_h4 fI1
  have hQ1n' : ChunkQ xq L (2 * k.val + 1 + 2) fQ1n := chunkQ_of xq L (2 * k.val + 1 + 2) fI1n fQ1n hI1n hQ1n
  have hin1 : ∀ x, ((Memref.whole cc0_scratch3).view.read (Elt F) fQ1n x).toNat < S25000x128.size gathers_S25000x128_S128x128.axis := hin_of_chunkQ1 xq L (2 * k.val + 1 + 2) fQ1n hQ1n' hle
  sl_exec
  sl_step
  isplitl [HO]
  · iexists _; isplitr
    rotate_left
    · iexact HO
    · ipureintro; exact (owes_mem (owes_mem (owes_mem (owes_mem (fun p hp => Or.inl hp)))))
  isplitl [Hq]
  · iexact Hq
  isplitl [H8]
  · iexact H8
  isplitl [H9]
  · iexists _; iexact H9
  isplitl [Hr3]
  · iexact Hr3
  isplitl [Hr4]
  · iexact Hr4
  isplitl [H0]
  · iexists _; isplitl [H0]; · iexact H0
    ipureintro; exact (by rw [show 2 * (k.val + 1) = 2 * k.val + 2 from by ring]; exact hI0n)
  isplitl [H1]
  · iexists _; isplitl [H1]; · iexact H1
    ipureintro; exact (by rw [show 2 * (k.val + 1) + 1 = 2 * k.val + 1 + 2 from by ring]; exact hI1n)
  isplitl [Hg0]
  · iapply (Transfers.Flight_mono countersEmb (tth d L) ?hg0) $$ Hg0
    iintro ⟨⟨H4, H2⟩, Hc⟩
    isplitl [H4]
    · iexists _; isplitl [H4]; · iexact H4
      ipureintro
      rw [show 2 * (k.val + 1) = 2 * k.val + 2 from by ring]
      exact chunkC_landed0 xq xc L (2 * k.val + 2) fQ0n hQ0n' hle _ hin0 fC0
    isplitl [H2]; · iexists _; iexact H2
    iexact Hc
  isplitl [Hc0]
  · iexact Hc0
  isplitl [Hg1]
  · iapply (Transfers.Flight_mono countersEmb (tth d L) ?hg1) $$ Hg1
    iintro ⟨⟨H5, H3⟩, Hc⟩
    isplitl [H5]
    · iexists _; isplitl [H5]; · iexact H5
      ipureintro
      rw [show 2 * (k.val + 1) + 1 = 2 * k.val + 1 + 2 from by ring]
      exact chunkC_landed1 xq xc L (2 * k.val + 1 + 2) fQ1n hQ1n' hle _ hin1 fC1
    isplitl [H3]; · iexists _; iexact H3
    iexact Hc
  isplitl [Hc1]
  · iexact Hc1
  isplitl [Ho0]
  · iapply (Transfers.Flight_mono countersEmb (tth d L) ?ho0) $$ Ho0
    try unfold OD0
    iintro ⟨Hd, Hs⟩
    isplitl [Hs]
    · iexists fO0n
      iapply (Entails.of_eq (show (((sO0).view.loc (tth d L) ↦[(sO0).view.set]{fullShare} fO0n : sProp 𝕄)) = ((sO0).view.loc (tth d L) ↦{fullShare} fO0n) from by rw [View.set_whole])) $$ Hs
    iapply (block_landed0 d L go k _ ?hb0) $$ Hd
    exact out_landed0' xq xc xb go hgo L k fO0n hOut0 m0
  iapply (Transfers.Flight_mono countersEmb (tth d L) ?ho1) $$ Ho1
  try unfold OD1
  iintro ⟨Hd, Hs⟩
  isplitl [Hs]
  · iexists fO1n
    iapply (Entails.of_eq (show (((sO1).view.loc (tth d L) ↦[(sO1).view.set]{fullShare} fO1n : sProp 𝕄)) = ((sO1).view.loc (tth d L) ↦{fullShare} fO1n) from by rw [View.set_whole])) $$ Hs
  iapply (block_landed1 d L go k _ ?hb1) $$ Hd
  exact out_landed1' xq xc xb go hgo L k fO1n hOut1 m0

set_option maxHeartbeats 8000000 in
theorem outer_mid (d : Dev nD) (L : grid0.Coords) (xq : Buf (Elt F) (qLoc d)) (xc : Buf (Elt F) (cLoc d)) (xb : Buf (Elt F) (bLoc d)) (go : Buf (Elt F) (oLoc d))
    (qq qa qb : PosShare TreeShare) : OuterMid d L xq xc xb go qq qa qb := by
  intro m0 O W hO hle hcl hgo k hk0 hk24 v2 fI0 hI0 fI1 hI1 fR
  have k0_h1 : k0_cond1 k = 1#1 := (cond1_iff k).mpr hk0
  have k0_h3 : k0_cond3 k = 1#1 := (cond3_iff k).mpr hk0
  have k0_h2 : k0_cond2 k = 1#1 := (cond2_iff k).mpr hk24
  have k0_h4 : k0_cond4 k = 1#1 := (cond4_iff k).mpr hk24
  unfold k0_t3_body
  simp only [k0_part5_eq_skeleton]; unfold k0_part5_skel
  unfold SparseCore.waitIndirectGather
  simp only [bind_assoc, pure_bind, Prog.bind_op, Prog.bind_ret]
  iintro ⟨#Hlv, HO, Hq, H8, H9, Hr3, Hr4, H0, H1, Hg0, Hcr0, Hg1, Hcr1, Ho0, Ho1, B0, B1⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave H8 := (Entails.of_eq (rfl : ((sB).view.loc (tth d L) ↦{fullShare} xb : sProp 𝕄) = _)) $$ H8
  ihave H9 := (Entails.of_eq (rfl : ((sR).view.loc (tth d L) ↦{fullShare} fR : sProp 𝕄) = _)) $$ H9
  ihave H0 := (Entails.of_eq (rfl : ((sI0).view.loc (tth d L) ↦{fullShare} fI0 : sProp 𝕄) = _)) $$ H0
  ihave H1 := (Entails.of_eq (rfl : ((sI1).view.loc (tth d L) ↦{fullShare} fI1 : sProp 𝕄) = _)) $$ H1
  -- the two blocks this trip writes, as the write-outs address them
  ihave B0 := (Entails.of_eq (show (oLoc d ↦[blkSet (bk L (2 * k.val))]{fullShare} m0 : sProp 𝕄)
      = ((((oV).slice (Rect.unit (s := S204800x128) (k0_off15 L k 0#32) S128x128.size (k0_off15_inb L k 0)) (fun _ => rfl)).view.loc (tth d L)) ↦[((oV).slice (Rect.unit (s := S204800x128) (k0_off15 L k 0#32) S128x128.size (k0_off15_inb L k 0)) (fun _ => rfl)).view.set]{fullShare} m0) from by
        rw [oslice_set0 L k])) $$ B0
  ihave B1 := (Entails.of_eq (show (oLoc d ↦[blkSet (bk L (2 * k.val + 1))]{fullShare} m0 : sProp 𝕄)
      = ((((oV).slice (Rect.unit (s := S204800x128) (k0_off15 L k 1#32) S128x128.size (k0_off15_inb L k 1)) (fun _ => rfl)).view.loc (tth d L)) ↦[((oV).slice (Rect.unit (s := S204800x128) (k0_off15 L k 1#32) S128x128.size (k0_off15_inb L k 1)) (fun _ => rfl)).view.set]{fullShare} m0) from by
        rw [oslice_set1 L k])) $$ B1
  -- slot 0: the gathered rows of chunk 2 * k.val have landed
  iapply (Transfers.wp_waitLocalO countersEmb 𝒱₀ (tth d L) none (default : HIx 1) (N := 524288) rfl) $$ [Hg0 HO]
  · isplitl [Hg0]; · iexact Hg0
    isplitl [HO]; · iexact HO
    iapply ((K (F := F)).mayWait_none (SemLoc.dma cc0_scratch10.sem) hO); iexact Hlv
  iintro ⟨HD, Hg0, HO⟩
  unfold GD0
  icases HD with ⟨⟨%fC0, H4, %hC0⟩, ⟨%fQ0, H2⟩, Hc0⟩
  ihave Hc0 := ((pointsTo_split_subset (ℓ := (cVm).view.loc (tth d L)) (q := qa) (f := xc) (S := Finset.univ) (Finset.subset_univ (cAll).view.set)).2) $$ [Hc0 Hcr0]
  · isplitl [Hc0] <;> iassumption
  sl_exec
  -- the block written two chunks ago has landed
  iapply (Transfers.wp_waitLocalO countersEmb 𝒱₀ (tth d L) none (default : HIx 1) (N := 524288) rfl) $$ [Ho0 HO]
  · isplitl [Ho0]; · iexact Ho0
    isplitl [HO]; · iexact HO
    iapply ((K (F := F)).mayWait_none (SemLoc.dma cc0_scratch12.sem) hO); iexact Hlv
  iintro ⟨HD, Ho0, HO⟩
  unfold OD0
  icases HD with ⟨⟨%fO0, H6⟩, Bd0⟩
  sl_exec
  try simp (config := {proj := false}) only [bind_assoc, pure_bind]
  have hCle0 : ∀ j, (fC0 j).toNat ≤ 15 := codes_le xq xc L (2 * k.val) fC0 hC0 hcl
  sl_for (rowInv0 d L fI0 fC0 xb) $$ [H0 H4 H8 H6 H9]
  case region =>
    intro r _
    exact row_trip0 d L fI0 fC0 xb hCle0 v2 k r
  · unfold rowInv0
    isplitl [H0]; · iexact H0
    isplitl [H4]; · iexact H4
    isplitl [H8]; · iexact H8
    isplitl [H6]
    · iexists _; isplitl [H6]; · iexact H6
      ipureintro; intro r' e h; omega
    · iexists _; isplitl [H9]; · iexact H9
      ipureintro; intro x; exact (rsplat_stored _ _ x).trans (splat_zero x)
  iintro %_ HI
  unfold rowInv0
  icases HI with ⟨H0, H4, H8, ⟨%fO0n, H6, %hO0n⟩, ⟨%fR0n, H9, -⟩⟩
  have hOut0 : ChunkO xq xc xb L (2 * k.val) fO0n := fun r e => (hO0n r e (lt_of_lt_of_eq r.isLt (show (128 : Nat) = Scf.trips k0_t4_loop.lb k0_t4_loop.ub k0_t4_loop.st from by decide))).trans (chunk_value xq xc xb L (2 * k.val) fI0 fC0 hI0 hC0 r e)
  sl_exec
  try simp (config := {proj := false}) only [bind_assoc, pure_bind]
  generalize hfI0n : View.write (Elt F) (Memref.whole cc0_scratch0).view fI0 _ Finset.univ = fI0n
  sl_for (qInv0 d L fI0n) $$ [H0 H2]
  case region =>
    intro j _
    exact q_trip0' d L fI0n v2 k k0_h2 j
  · unfold qInv0
    isplitl [H0]; · iexact H0
    iexists _; isplitl [H2]; · iexact H2
    ipureintro; intro j hj; omega
  iintro %_ HI
  unfold qInv0
  icases HI with ⟨H0, %fQ0n, H2, %hQ0n⟩
  have hI0n : ChunkI xq L (2 * k.val + 2) fI0n := by rw [← hfI0n]; exact chunkI_next0 xq L k k0_h2 fI0
  have hQ0n' : ChunkQ xq L (2 * k.val + 2) fQ0n := chunkQ_of xq L (2 * k.val + 2) fI0n fQ0n hI0n hQ0n
  have hin0 : ∀ x, ((Memref.whole cc0_scratch2).view.read (Elt F) fQ0n x).toNat < S25000x128.size gathers_S25000x128_S128x128.axis := hin_of_chunkQ0 xq L (2 * k.val + 2) fQ0n hQ0n' hle
  sl_exec
  -- slot 1: the gathered rows of chunk 2 * k.val + 1 have landed
  iapply (Transfers.wp_waitLocalO countersEmb 𝒱₀ (tth d L) none (default : HIx 1) (N := 524288) rfl) $$ [Hg1 HO]
  · isplitl [Hg1]; · iexact Hg1
    isplitl [HO]; · iexact HO
    iapply ((K (F := F)).mayWait_none (SemLoc.dma cc0_scratch11.sem) hO); iexact Hlv
  iintro ⟨HD, Hg1, HO⟩
  unfold GD1
  icases HD with ⟨⟨%fC1, H5, %hC1⟩, ⟨%fQ1, H3⟩, Hc1⟩
  ihave Hc1 := ((pointsTo_split_subset (ℓ := (cVm).view.loc (tth d L)) (q := qb) (f := xc) (S := Finset.univ) (Finset.subset_univ (cAll).view.set)).2) $$ [Hc1 Hcr1]
  · isplitl [Hc1] <;> iassumption
  sl_exec
  -- the block written two chunks ago has landed
  iapply (Transfers.wp_waitLocalO countersEmb 𝒱₀ (tth d L) none (default : HIx 1) (N := 524288) rfl) $$ [Ho1 HO]
  · isplitl [Ho1]; · iexact Ho1
    isplitl [HO]; · iexact HO
    iapply ((K (F := F)).mayWait_none (SemLoc.dma cc0_scratch13.sem) hO); iexact Hlv
  iintro ⟨HD, Ho1, HO⟩
  unfold OD1
  icases HD with ⟨⟨%fO1, H7⟩, Bd1⟩
  sl_exec
  try simp (config := {proj := false}) only [bind_assoc, pure_bind]
  have hCle1 : ∀ j, (fC1 j).toNat ≤ 15 := codes_le xq xc L (2 * k.val + 1) fC1 hC1 hcl
  sl_for (rowInv1 d L fI1 fC1 xb) $$ [H1 H5 H8 H7 H9]
  case region =>
    intro r _
    exact row_trip1 d L fI1 fC1 xb hCle1 r
  · unfold rowInv1
    isplitl [H1]; · iexact H1
    isplitl [H5]; · iexact H5
    isplitl [H8]; · iexact H8
    isplitl [H7]
    · iexists _; isplitl [H7]; · iexact H7
      ipureintro; intro r' e h; omega
    · iexists _; isplitl [H9]; · iexact H9
      ipureintro; intro x; exact (rsplat_stored _ _ x).trans (splat_zero' x)
  iintro %_ HI
  unfold rowInv1
  icases HI with ⟨H1, H5, H8, ⟨%fO1n, H7, %hO1n⟩, ⟨%fR1n, H9, -⟩⟩
  have hOut1 : ChunkO xq xc xb L (2 * k.val + 1) fO1n := fun r e => (hO1n r e (lt_of_lt_of_eq r.isLt (show (128 : Nat) = Scf.trips k0_t6_loop.lb k0_t6_loop.ub k0_t6_loop.st from by decide))).trans (chunk_value xq xc xb L (2 * k.val + 1) fI1 fC1 hI1 hC1 r e)
  sl_exec
  try simp (config := {proj := false}) only [bind_assoc, pure_bind]
  generalize hfI1n : View.write (Elt F) (Memref.whole cc0_scratch1).view fI1 _ Finset.univ = fI1n
  sl_for (qInv1 d L fI1n) $$ [H1 H3]
  case region =>
    intro j _
    exact q_trip1' d L fI1n k k0_h4 j
  · unfold qInv1
    isplitl [H1]; · iexact H1
    iexists _; isplitl [H3]; · iexact H3
    ipureintro; intro j hj; omega
  iintro %_ HI
  unfold qInv1
  icases HI with ⟨H1, %fQ1n, H3, %hQ1n⟩
  have hI1n : ChunkI xq L (2 * k.val + 1 + 2) fI1n := by rw [← hfI1n]; exact chunkI_next1 xq L k k0_h4 fI1
  have hQ1n' : ChunkQ xq L (2 * k.val + 1 + 2) fQ1n := chunkQ_of xq L (2 * k.val + 1 + 2) fI1n fQ1n hI1n hQ1n
  have hin1 : ∀ x, ((Memref.whole cc0_scratch3).view.read (Elt F) fQ1n x).toNat < S25000x128.size gathers_S25000x128_S128x128.axis := hin_of_chunkQ1 xq L (2 * k.val + 1 + 2) fQ1n hQ1n' hle
  sl_exec
  sl_step
  isplitl [HO]
  · iexists _; isplitr
    rotate_left
    · iexact HO
    · ipureintro; exact (owes_mem (owes_mem (owes_mem (owes_mem (owes_mem (owes_mem (fun p hp => Or.inl hp)))))))
  isplitl [Hq]
  · iexact Hq
  isplitl [H8]
  · iexact H8
  isplitl [H9]
  · iexists _; iexact H9
  isplitl [Hr3]
  · iexact Hr3
  isplitl [Hr4]
  · iexact Hr4
  isplitl [H0]
  · iexists _; isplitl [H0]; · iexact H0
    ipureintro; exact (by rw [show 2 * (k.val + 1) = 2 * k.val + 2 from by ring]; exact hI0n)
  isplitl [H1]
  · iexists _; isplitl [H1]; · iexact H1
    ipureintro; exact (by rw [show 2 * (k.val + 1) + 1 = 2 * k.val + 1 + 2 from by ring]; exact hI1n)
  isplitl [Hg0]
  · iapply (Transfers.Flight_mono countersEmb (tth d L) ?hg0) $$ Hg0
    iintro ⟨⟨H4, H2⟩, Hc⟩
    isplitl [H4]
    · iexists _; isplitl [H4]; · iexact H4
      ipureintro
      rw [show 2 * (k.val + 1) = 2 * k.val + 2 from by ring]
      exact chunkC_landed0 xq xc L (2 * k.val + 2) fQ0n hQ0n' hle _ hin0 fC0
    isplitl [H2]; · iexists _; iexact H2
    iexact Hc
  isplitl [Hc0]
  · iexact Hc0
  isplitl [Hg1]
  · iapply (Transfers.Flight_mono countersEmb (tth d L) ?hg1) $$ Hg1
    iintro ⟨⟨H5, H3⟩, Hc⟩
    isplitl [H5]
    · iexists _; isplitl [H5]; · iexact H5
      ipureintro
      rw [show 2 * (k.val + 1) + 1 = 2 * k.val + 1 + 2 from by ring]
      exact chunkC_landed1 xq xc L (2 * k.val + 1 + 2) fQ1n hQ1n' hle _ hin1 fC1
    isplitl [H3]; · iexists _; iexact H3
    iexact Hc
  isplitl [Hc1]
  · iexact Hc1
  isplitl [Ho0]
  · iapply (Transfers.Flight_mono countersEmb (tth d L) ?ho0) $$ Ho0
    try unfold OD0
    iintro ⟨Hd, Hs⟩
    isplitl [Hs]
    · iexists fO0n
      iapply (Entails.of_eq (show (((sO0).view.loc (tth d L) ↦[(sO0).view.set]{fullShare} fO0n : sProp 𝕄)) = ((sO0).view.loc (tth d L) ↦{fullShare} fO0n) from by rw [View.set_whole])) $$ Hs
    iapply (block_landed0 d L go k _ ?hb0) $$ Hd
    exact out_landed0' xq xc xb go hgo L k fO0n hOut0 m0
  isplitl [Ho1]
  · iapply (Transfers.Flight_mono countersEmb (tth d L) ?ho1) $$ Ho1
    try unfold OD1
    iintro ⟨Hd, Hs⟩
    isplitl [Hs]
    · iexists fO1n
      iapply (Entails.of_eq (show (((sO1).view.loc (tth d L) ↦[(sO1).view.set]{fullShare} fO1n : sProp 𝕄)) = ((sO1).view.loc (tth d L) ↦{fullShare} fO1n) from by rw [View.set_whole])) $$ Hs
    iapply (block_landed1 d L go k _ ?hb1) $$ Hd
    exact out_landed1' xq xc xb go hgo L k fO1n hOut1 m0
  isplitl [Bd0]
  · iexact Bd0
  iexact Bd1

set_option maxHeartbeats 8000000 in
theorem outer_last (d : Dev nD) (L : grid0.Coords) (xq : Buf (Elt F) (qLoc d)) (xc : Buf (Elt F) (cLoc d)) (xb : Buf (Elt F) (bLoc d)) (go : Buf (Elt F) (oLoc d))
    (qq qa qb : PosShare TreeShare) : OuterLast d L xq xc xb go qq qa qb := by
  intro m0 O W hO hle hcl hgo k hk24 v2 fI0 hI0 fI1 hI1 fR
  have k0_h1 : k0_cond1 k = 1#1 := (cond1_iff k).mpr (by omega)
  have k0_h3 : k0_cond3 k = 1#1 := (cond3_iff k).mpr (by omega)
  have k0_h2 : ¬ k0_cond2 k = 1#1 := fun h => absurd ((cond2_iff k).mp h) (by omega)
  have k0_h4 : ¬ k0_cond4 k = 1#1 := fun h => absurd ((cond4_iff k).mp h) (by omega)
  unfold k0_t3_body
  simp only [k0_part5_eq_skeleton]; unfold k0_part5_skel
  unfold SparseCore.waitIndirectGather
  simp only [bind_assoc, pure_bind, Prog.bind_op, Prog.bind_ret]
  iintro ⟨#Hlv, HO, Hq, H8, H9, Hr3, Hr4, H0, H1, Hg0, Hcr0, Hg1, Hcr1, Ho0, Ho1, B0, B1⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave H8 := (Entails.of_eq (rfl : ((sB).view.loc (tth d L) ↦{fullShare} xb : sProp 𝕄) = _)) $$ H8
  ihave H9 := (Entails.of_eq (rfl : ((sR).view.loc (tth d L) ↦{fullShare} fR : sProp 𝕄) = _)) $$ H9
  ihave H0 := (Entails.of_eq (rfl : ((sI0).view.loc (tth d L) ↦{fullShare} fI0 : sProp 𝕄) = _)) $$ H0
  ihave H1 := (Entails.of_eq (rfl : ((sI1).view.loc (tth d L) ↦{fullShare} fI1 : sProp 𝕄) = _)) $$ H1
  -- the two blocks this trip writes, as the write-outs address them
  ihave B0 := (Entails.of_eq (show (oLoc d ↦[blkSet (bk L (2 * k.val))]{fullShare} m0 : sProp 𝕄)
      = ((((oV).slice (Rect.unit (s := S204800x128) (k0_off15 L k 0#32) S128x128.size (k0_off15_inb L k 0)) (fun _ => rfl)).view.loc (tth d L)) ↦[((oV).slice (Rect.unit (s := S204800x128) (k0_off15 L k 0#32) S128x128.size (k0_off15_inb L k 0)) (fun _ => rfl)).view.set]{fullShare} m0) from by
        rw [oslice_set0 L k])) $$ B0
  ihave B1 := (Entails.of_eq (show (oLoc d ↦[blkSet (bk L (2 * k.val + 1))]{fullShare} m0 : sProp 𝕄)
      = ((((oV).slice (Rect.unit (s := S204800x128) (k0_off15 L k 1#32) S128x128.size (k0_off15_inb L k 1)) (fun _ => rfl)).view.loc (tth d L)) ↦[((oV).slice (Rect.unit (s := S204800x128) (k0_off15 L k 1#32) S128x128.size (k0_off15_inb L k 1)) (fun _ => rfl)).view.set]{fullShare} m0) from by
        rw [oslice_set1 L k])) $$ B1
  -- slot 0: the gathered rows of chunk 2 * k.val have landed
  iapply (Transfers.wp_waitLocalO countersEmb 𝒱₀ (tth d L) none (default : HIx 1) (N := 524288) rfl) $$ [Hg0 HO]
  · isplitl [Hg0]; · iexact Hg0
    isplitl [HO]; · iexact HO
    iapply ((K (F := F)).mayWait_none (SemLoc.dma cc0_scratch10.sem) hO); iexact Hlv
  iintro ⟨HD, Hg0, HO⟩
  unfold GD0
  icases HD with ⟨⟨%fC0, H4, %hC0⟩, ⟨%fQ0, H2⟩, Hc0⟩
  ihave Hc0 := ((pointsTo_split_subset (ℓ := (cVm).view.loc (tth d L)) (q := qa) (f := xc) (S := Finset.univ) (Finset.subset_univ (cAll).view.set)).2) $$ [Hc0 Hcr0]
  · isplitl [Hc0] <;> iassumption
  sl_exec
  -- the block written two chunks ago has landed
  iapply (Transfers.wp_waitLocalO countersEmb 𝒱₀ (tth d L) none (default : HIx 1) (N := 524288) rfl) $$ [Ho0 HO]
  · isplitl [Ho0]; · iexact Ho0
    isplitl [HO]; · iexact HO
    iapply ((K (F := F)).mayWait_none (SemLoc.dma cc0_scratch12.sem) hO); iexact Hlv
  iintro ⟨HD, Ho0, HO⟩
  unfold OD0
  icases HD with ⟨⟨%fO0, H6⟩, Bd0⟩
  sl_exec
  try simp (config := {proj := false}) only [bind_assoc, pure_bind]
  have hCle0 : ∀ j, (fC0 j).toNat ≤ 15 := codes_le xq xc L (2 * k.val) fC0 hC0 hcl
  sl_for (rowInv0 d L fI0 fC0 xb) $$ [H0 H4 H8 H6 H9]
  case region =>
    intro r _
    exact row_trip0 d L fI0 fC0 xb hCle0 v2 k r
  · unfold rowInv0
    isplitl [H0]; · iexact H0
    isplitl [H4]; · iexact H4
    isplitl [H8]; · iexact H8
    isplitl [H6]
    · iexists _; isplitl [H6]; · iexact H6
      ipureintro; intro r' e h; omega
    · iexists _; isplitl [H9]; · iexact H9
      ipureintro; intro x; exact (rsplat_stored _ _ x).trans (splat_zero x)
  iintro %_ HI
  unfold rowInv0
  icases HI with ⟨H0, H4, H8, ⟨%fO0n, H6, %hO0n⟩, ⟨%fR0n, H9, -⟩⟩
  have hOut0 : ChunkO xq xc xb L (2 * k.val) fO0n := fun r e => (hO0n r e (lt_of_lt_of_eq r.isLt (show (128 : Nat) = Scf.trips k0_t4_loop.lb k0_t4_loop.ub k0_t4_loop.st from by decide))).trans (chunk_value xq xc xb L (2 * k.val) fI0 fC0 hI0 hC0 r e)
  sl_exec
  -- slot 1: the gathered rows of chunk 2 * k.val + 1 have landed
  iapply (Transfers.wp_waitLocalO countersEmb 𝒱₀ (tth d L) none (default : HIx 1) (N := 524288) rfl) $$ [Hg1 HO]
  · isplitl [Hg1]; · iexact Hg1
    isplitl [HO]; · iexact HO
    iapply ((K (F := F)).mayWait_none (SemLoc.dma cc0_scratch11.sem) hO); iexact Hlv
  iintro ⟨HD, Hg1, HO⟩
  unfold GD1
  icases HD with ⟨⟨%fC1, H5, %hC1⟩, ⟨%fQ1, H3⟩, Hc1⟩
  ihave Hc1 := ((pointsTo_split_subset (ℓ := (cVm).view.loc (tth d L)) (q := qb) (f := xc) (S := Finset.univ) (Finset.subset_univ (cAll).view.set)).2) $$ [Hc1 Hcr1]
  · isplitl [Hc1] <;> iassumption
  sl_exec
  -- the block written two chunks ago has landed
  iapply (Transfers.wp_waitLocalO countersEmb 𝒱₀ (tth d L) none (default : HIx 1) (N := 524288) rfl) $$ [Ho1 HO]
  · isplitl [Ho1]; · iexact Ho1
    isplitl [HO]; · iexact HO
    iapply ((K (F := F)).mayWait_none (SemLoc.dma cc0_scratch13.sem) hO); iexact Hlv
  iintro ⟨HD, Ho1, HO⟩
  unfold OD1
  icases HD with ⟨⟨%fO1, H7⟩, Bd1⟩
  sl_exec
  try simp (config := {proj := false}) only [bind_assoc, pure_bind]
  have hCle1 : ∀ j, (fC1 j).toNat ≤ 15 := codes_le xq xc L (2 * k.val + 1) fC1 hC1 hcl
  sl_for (rowInv1 d L fI1 fC1 xb) $$ [H1 H5 H8 H7 H9]
  case region =>
    intro r _
    exact row_trip1 d L fI1 fC1 xb hCle1 r
  · unfold rowInv1
    isplitl [H1]; · iexact H1
    isplitl [H5]; · iexact H5
    isplitl [H8]; · iexact H8
    isplitl [H7]
    · iexists _; isplitl [H7]; · iexact H7
      ipureintro; intro r' e h; omega
    · iexists _; isplitl [H9]; · iexact H9
      ipureintro; intro x; exact (rsplat_stored _ _ x).trans (splat_zero' x)
  iintro %_ HI
  unfold rowInv1
  icases HI with ⟨H1, H5, H8, ⟨%fO1n, H7, %hO1n⟩, ⟨%fR1n, H9, -⟩⟩
  have hOut1 : ChunkO xq xc xb L (2 * k.val + 1) fO1n := fun r e => (hO1n r e (lt_of_lt_of_eq r.isLt (show (128 : Nat) = Scf.trips k0_t6_loop.lb k0_t6_loop.ub k0_t6_loop.st from by decide))).trans (chunk_value xq xc xb L (2 * k.val + 1) fI1 fC1 hI1 hC1 r e)
  sl_exec
  sl_step
  isplitl [HO]
  · iexists _; isplitr
    rotate_left
    · iexact HO
    · ipureintro; exact (owes_mem (owes_mem (owes_mem (owes_mem (fun p hp => Or.inl hp)))))
  isplitl [Hq]
  · iexact Hq
  isplitl [H8]
  · iexact H8
  isplitl [H9]
  · iexists _; iexact H9
  isplitl [Hr3]
  · iexact Hr3
  isplitl [Hr4]
  · iexact Hr4
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [Hg0]
  · iexact Hg0
  isplitl [Hg1]
  · iexact Hg1
  isplitl [Hc0]
  · iexact Hc0
  isplitl [Hc1]
  · iexact Hc1
  isplitl [Ho0]
  · iapply (Transfers.Flight_mono countersEmb (tth d L) ?ho0) $$ Ho0
    try unfold OD0
    iintro ⟨Hd, Hs⟩
    isplitl [Hs]
    · iexists fO0n
      iapply (Entails.of_eq (show (((sO0).view.loc (tth d L) ↦[(sO0).view.set]{fullShare} fO0n : sProp 𝕄)) = ((sO0).view.loc (tth d L) ↦{fullShare} fO0n) from by rw [View.set_whole])) $$ Hs
    iapply (block_landed0 d L go k _ ?hb0) $$ Hd
    exact out_landed0' xq xc xb go hgo L k fO0n hOut0 m0
  isplitl [Ho1]
  · iapply (Transfers.Flight_mono countersEmb (tth d L) ?ho1) $$ Ho1
    try unfold OD1
    iintro ⟨Hd, Hs⟩
    isplitl [Hs]
    · iexists fO1n
      iapply (Entails.of_eq (show (((sO1).view.loc (tth d L) ↦[(sO1).view.set]{fullShare} fO1n : sProp 𝕄)) = ((sO1).view.loc (tth d L) ↦{fullShare} fO1n) from by rw [View.set_whole])) $$ Hs
    iapply (block_landed1 d L go k _ ?hb1) $$ Hd
    exact out_landed1' xq xc xb go hgo L k fO1n hOut1 m0
  isplitl [Bd0]
  · iexact Bd0
  iexact Bd1

end Cert.Proof.KI

end
-- ==== Proof.KITileObl.lean ====
/-
  The tile obligation: every tile's task, run from what the launch hands it, hands back its fifty blocks decoded.
  It is the tile's run over its resources one by one (prologue, chunk loop, epilogue), whose chunk loop steps by the three
  kinds of trip, wrapped in the launch theorem's own shape.
-/
import proofs.«215948_g88356067214102_cont_sun_c4_674_26_alg».proof.Proof.KITile
import proofs.«215948_g88356067214102_cont_sun_c4_674_26_alg».proof.Proof.KITileCore
import proofs.«215948_g88356067214102_cont_sun_c4_674_26_alg».proof.Proof.KIBody

noncomputable section

namespace Cert.Proof.KI

open Cert.KernelIdeal Cert.KernelIdeal.Gen
open Idealize.ShloMosaic

variable {F : FTy → Type} [FloatOps F]

theorem tileObl (m : (ℓ : Loc nD τ sig) → Buf (Elt F) ℓ) (hpre : PreOK m) :
    (K (F := F)).TileObl (D (F := F)) 𝒱 (P m) v₀ 0 :=
  tileObl_of m hpre fun d L =>
    tile_core d L (Xq m d) (Xc m d) (Xb m d) (Go m d)
      (fun qq qa qb => outer_first d L (Xq m d) (Xc m d) (Xb m d) (Go m d) qq qa qb)
      (fun qq qa qb => outer_mid d L (Xq m d) (Xc m d) (Xb m d) (Go m d) qq qa qb)
      (fun qq qa qb => outer_last d L (Xq m d) (Xc m d) (Xb m d) (Go m d) qq qa qb)

end Cert.Proof.KI

end
-- ==== Proof.KBSetup.lean ====
/-
  What the tile proofs and the launch share: the program as the launch theorem sees it, the ghost state, the arrays'
  locations, the contents of the three flattened inputs, the result's flat contents, the tiles' shares of the inputs
  and their blocks of the result, and what the handshakes carry.

  The kernel decodes 204800 queries on 32 tiles. Tile `(c, s)` (SparseCore `c`, vector subcore `s`) has number
  `2 s + c` and decodes the 6400 queries `[6400 (2 s + c), 6400 (2 s + c) + 6400)`, in 50 chunks of 128. It only reads
  the three inputs, each held whole at a thirty-second share, and owns its 50 blocks of 128 rows of the result.
-/
import proofs.«215948_g88356067214102_cont_sun_c4_674_26_alg».proof.Kernel
import proofs.«215948_g88356067214102_cont_sun_c4_674_26_alg».proof.Proof.Gen.Kernel
import proofs.«215948_g88356067214102_cont_sun_c4_674_26_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«215948_g88356067214102_cont_sun_c4_674_26_alg».proof.Proof.Flat

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev qLoc (d : Dev nD) : Loc nD τ sig := (SparseCore.T d).loc main_v0
abbrev cLoc (d : Dev nD) : Loc nD τ sig := (SparseCore.T d).loc main_v1
abbrev bLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

/-! ## Contents: the flattened inputs, the flat result, the result -/

/-- The three inputs as the host reshapes leave them before the call: the queries as one list, the code table with
    four rows packed into one, the centroids as one list. -/
def Xq (d : Dev nD) : Buf (Elt F) (qLoc d) := fun i => shapeCast S204800 (m (a0Loc d)) shapeCasts_S4096x50_S204800 i
def Xc (d : Dev nD) : Buf (Elt F) (cLoc d) := fun i => shapeCast S25000x128 (m (a1Loc d)) shapeCasts_S100000x32_S25000x128 i
def Xb (d : Dev nD) : Buf (Elt F) (bLoc d) := fun i => shapeCast S64 (m (a2Loc d)) shapeCasts_S16x4_S64 i

/-- What the call leaves in the flat result: every query's decoded row. -/
def Go (d : Dev nD) : Buf (Elt F) (oLoc d) := Cert.Decode.flat (Xq m d) (Xc m d) (Xb m d)

/-- What @main leaves in its result: the flat result at the result's shape. -/
def Res (d : Dev nD) : Buf (Elt F) (rLoc d) := fun i => shapeCast S4096x50x128 (Go m d) shapeCasts_S204800x128_S4096x50x128 i

/-- What the proofs ask of the launch memory: every query names a row of the code table, every code a centroid. -/
def PreOK : Prop := ∀ d : Dev nD, Cert.Decode.InRange (m (a0Loc d)) (m (a1Loc d))

/-! ## The result's blocks and the inputs' read shares -/

/-- The flat result in 1600 blocks of 128 rows. Tile `(c, i)` writes blocks `100 i + 50 c + j`, `j < 50`. -/
theorem odiv : 1600 ∣ S204800x128.size 0 := ⟨128, rfl⟩
abbrev blk (b : Fin 1600) : Rect S204800x128 := Rect.part (s := S204800x128) (a₀ := 0) odiv b
abbrev blkSet (b : Fin 1600) : Finset S204800x128.Idx :=
  ((Memref.whole main_v3_scv : Memref sig .scVector .hbm S204800x128 .f32).view.slice (blk b)).set
def blkOf (c : Fin 2) (i : Fin 16) (j : Fin 50) : Fin 1600 := ⟨100 * i.val + 50 * c.val + j.val, by omega⟩

/-- The tiles numbered `16 c + i` for their read shares of the inputs: the full share is split into 32 read tokens and
    a remainder. -/
def tnum (c : Fin 2) (i : Fin 16) : Fin 32 := ⟨16 * c.val + i.val, by omega⟩
abbrev tok (c : Fin 2) (i : Fin 16) : PosShare TreeShare := Transfers.shareTok fullShare 32 (tnum c i)

/-! ## What the handshakes carry -/

/-- Tile `(c, i)`'s read shares of the three inputs, whole. -/
abbrev inPts (d : Dev nD) (c : Fin 2) (i : Fin 16) : sProp 𝕄 :=
  iprop((qLoc d ↦{tok c i} Xq m d) ∗ (cLoc d ↦{tok c i} Xc m d) ∗ (bLoc d ↦{tok c i} Xb m d))
/-- Tile `(c, i)`'s fifty blocks of the flat result, at contents `f`. -/
abbrev outPts (d : Dev nD) (c : Fin 2) (i : Fin 16) (f : Buf (Elt F) (oLoc d)) : sProp 𝕄 :=
  bigSep Finset.univ fun j : Fin 50 => oLoc d ↦[blkSet (blkOf c i j)]{fullShare} f

/-- What a tile is handed and what it hands back: its read shares; its blocks, first at what the launch memory holds,
    then at the decoded rows. -/
abbrev goRes (d : Dev nD) (c : Fin 2) (i : Fin 16) : sProp 𝕄 := iprop(inPts m d c i ∗ outPts d c i (m (oLoc d)))
abbrev tdRes (d : Dev nD) (c : Fin 2) (i : Fin 16) : sProp 𝕄 := iprop(inPts m d c i ∗ outPts d c i (Go m d))

/-- The one call: each SparseCore takes its sixteen tiles' shares and blocks and brings them back decoded. -/
def P : (K (F := F)).Pay (nD := nD) (Val := Elt F) (Name := ℕ) (U := UU) where
  st := fun q d c => match q with | 0 => bigSep Finset.univ fun i : Fin 16 => goRes m d (Fin.cast nCore_zero c) i
  dn := fun q d c => match q with | 0 => bigSep Finset.univ fun i : Fin 16 => tdRes m d (Fin.cast nCore_zero c) i
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goRes m d (Fin.cast nCore_zero c) i))
  dn q d c := match q with
    | 0 => (inferInstance : BI.Storable (upEmb : UEmb _ 𝕄) (bigSep Finset.univ fun i : Fin 16 => tdRes m d (Fin.cast nCore_zero c) i))
  go q d c i := match q with
    | 0 => (inferInstance : BI.Storable (upEmb : UEmb _ 𝕄) (goRes m d (Fin.cast nCore_zero c) (Fin.cast nSub_zero i)))
  td q d c i := match q with
    | 0 => (inferInstance : BI.Storable (upEmb : UEmb _ 𝕄) (tdRes m d (Fin.cast nCore_zero c) (Fin.cast nSub_zero i)))

end Cert.Proof.KB

end
-- ==== Proof.KBLaunchSplit.lean ====
/-
  The launch of the one SparseCore call, all but @main's own run: how a SparseCore's shares and blocks go to its
  sixteen tiles and come back, the launch element of the ghost state, how the final memory reads the claim, and the
  launch theorem applied, with @main's run on the TensorCore as a hypothesis.
-/
import proofs.«215948_g88356067214102_cont_sun_c4_674_26_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## What the call carries, as equations -/

theorem st0_eq (d : Dev nD) (c : Fin ((K (F := F)).nCore 0)) :
    (P m).st 0 d c = bigSep Finset.univ fun i : Fin 16 => goRes m d (Fin.cast nCore_zero c) i := rfl
theorem dn0_eq (d : Dev nD) (c : Fin ((K (F := F)).nCore 0)) :
    (P m).dn 0 d c = bigSep Finset.univ fun i : Fin 16 => tdRes m d (Fin.cast nCore_zero c) i := rfl
theorem go0_eq (d : Dev nD) (c : Fin ((K (F := F)).nCore 0)) (i : Fin ((K (F := F)).nSub 0)) :
    (P m).go 0 d c i = goRes m d (Fin.cast nCore_zero c) (Fin.cast nSub_zero i) := rfl
theorem td0_eq (d : Dev nD) (c : Fin ((K (F := F)).nCore 0)) (i : Fin ((K (F := F)).nSub 0)) :
    (P m).td 0 d c i = tdRes m d (Fin.cast nCore_zero c) (Fin.cast nSub_zero i) := rfl
theorem x_eq (q : Fin 1) (thr : Thread nD τ) : (P m).x q thr = iprop(emp) := rfl

/-! ## A SparseCore's operands are its tiles' -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a SparseCore is handed is already the sixteen tiles' shares and blocks side by side: they go out and come
    back as they are. -/
theorem vecSplit : (K (F := F)).VecSplit' (P m) 0 := by
  intro d c
  simp only [go0_eq, td0_eq]
  rw [st0_eq, dn0_eq, bigSep_tasks (F := F) (fun i => goRes m d (Fin.cast nCore_zero c) i),
    bigSep_tasks (F := F) (fun i => tdRes m d (Fin.cast nCore_zero c) i)]
  iintro H; imodintro
  isplitl [H]; · iexact H
  iintro H; iexact H

/-! ## The launch element: the handshakes' rounds; the counters are not used -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  simp only [x_eq]
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- The result whole at the decoded rows reshaped, the three arguments whole at their launch contents. -/
abbrev FIN (d : Dev nD) : sProp 𝕄 :=
  iprop((rLoc d ↦{fullShare} Res m d) ∗ (a0Loc d ↦{fullShare} m (a0Loc d)) ∗ (a1Loc d ↦{fullShare} m (a1Loc d)) ∗ a2Loc d ↦{fullShare} m (a2Loc d))

def fq (d : Dev nD) (s' : Phys nD τ sig (Elt F)) : Prop :=
  s'.mem.mem (rLoc d) = Res m d ∧ s'.mem.mem (a0Loc d) = m (a0Loc d) ∧ s'.mem.mem (a1Loc d) = m (a1Loc d) ∧ s'.mem.mem (a2Loc d) = m (a2Loc d)

theorem hfin (d : Dev nD) (s' : Phys nD τ sig (Elt F)) : iprop(FIN m d ∗ SI s') ⊢ (⌜fq m d s'⌝ : sProp 𝕄) := by
  iintro ⟨⟨Hr, H0, H1, H2⟩, HSI⟩
  ihave H := (persistent_entails_right (SI_pointsTo_agree (st := s') (ℓ := rLoc d) (I := Finset.univ) (q := fullShare) (f := Res m d))) $$ [HSI Hr]
  · isplitl [HSI] <;> iassumption
  icases H with ⟨%hr, HSI, -⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := a2Loc d) (I := Finset.univ) (q := fullShare) (f := m (a2Loc d))) $$ [HSI H2]
  · isplitl [HSI] <;> iassumption
  icases H with %h2
  ipureintro
  exact ⟨funext fun i => hr i (Finset.mem_univ i), funext fun i => h0 i (Finset.mem_univ i), funext fun i => h1 i (Finset.mem_univ i),
    funext fun i => h2 i (Finset.mem_univ i)⟩

/-! ## The program's run, from @main's on the TensorCore and a tile's task -/

def QC : PUnit × MemSt nD τ sig (Elt F) → Prop := fun r => ∀ c : Dev nD,
    r.2.mem (rLoc c) = Res m c ∧ r.2.mem (a0Loc c) = m (a0Loc c) ∧ r.2.mem (a1Loc c) = m (a1Loc c) ∧ r.2.mem (a2Loc c) = m (a2Loc c)

variable [FloatOps F]

/-- What is asked of @main's run on device `d`'s TensorCore. -/
def MainRun : Prop := ∀ (κ : GSem nD τ sig → ℕ) (d : Dev nD),
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d)

theorem run_main_of [∀ e, Nonempty (Elt F e)] (hmain : MainRun m ρ) (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) hmain (fq m) (hfin m) (QC m) (fun _ h => h)

end Cert.Proof.KB

end
-- ==== Proof.KBLaunchRegroup.lean ====
/-
  The two SparseCores' shares and blocks, regrouped: the thirty-two tiles' read tokens of an input are the input's
  thirty-two tokens, and the tiles' fifty blocks each of the flat result are its 1600 blocks, which are the result whole.
-/
import proofs.«215948_g88356067214102_cont_sun_c4_674_26_alg».proof.Proof.KBLaunchSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The thirty-two tiles and the 1600 blocks, renumbered -/

/-- Tile `(c, i)` has number `16 c + i`. -/
def tnumEquiv : Fin 2 × Fin 16 ≃ Fin 32 where
  toFun p := tnum p.1 p.2
  invFun t := (⟨t.val / 16, by have := t.isLt; omega⟩, ⟨t.val % 16, by omega⟩)
  left_inv := by
    rintro ⟨c, i⟩
    have hc := c.isLt; have hi := i.isLt
    refine Prod.ext (Fin.ext ?_) (Fin.ext ?_) <;> simp only [tnum] <;> omega
  right_inv := by
    intro t; have ht := t.isLt; apply Fin.ext; simp only [tnum]; omega

/-- Block `j` of tile `(c, i)` is block `100 i + 50 c + j` of the flat result. -/
def blkEquiv : Fin 2 × Fin 16 × Fin 50 ≃ Fin 1600 where
  toFun p := blkOf p.1 p.2.1 p.2.2
  invFun b := (⟨b.val % 100 / 50, by omega⟩, ⟨b.val / 100, by have := b.isLt; omega⟩, ⟨b.val % 50, by omega⟩)
  left_inv := by
    rintro ⟨c, i, j⟩
    have hc := c.isLt; have hi := i.isLt; have hj := j.isLt
    refine Prod.ext (Fin.ext ?_) (Prod.ext (Fin.ext ?_) (Fin.ext ?_)) <;> simp only [blkOf] <;> omega
  right_inv := by
    intro b; have hb := b.isLt; apply Fin.ext; simp only [blkOf]; omega

theorem bigSep_tiles (Ψ : Fin 32 → sProp 𝕄) :
    (bigSep Finset.univ fun c : Fin 2 => bigSep Finset.univ fun i : Fin 16 => Ψ (tnum c i)) = bigSep Finset.univ Ψ := by
  refine ((bigSep_univ_equiv tnumEquiv Ψ).trans ((bigSep_univ_prod _).trans ?_)).symm
  rfl

theorem bigSep_blocks (Ψ : Fin 1600 → sProp 𝕄) :
    (bigSep Finset.univ fun c : Fin 2 => bigSep Finset.univ fun i : Fin 16 => bigSep Finset.univ fun j : Fin 50 => Ψ (blkOf c i j))
      = bigSep Finset.univ Ψ := by
  refine ((bigSep_univ_equiv blkEquiv Ψ).trans ((bigSep_univ_prod _).trans ?_)).symm
  refine bigSep_congr fun c _ => ?_
  refine (bigSep_univ_prod _).trans ?_
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-! ## The flat result is its 1600 blocks -/

theorem blkSet_eq (b : Fin 1600) : blkSet b = (blk b).set := by
  show ((View.whole (main_v3_scv : Ref sig .scVector)).slice (blk b)).set = _
  rw [View.set_slice]; exact Finset.map_refl
theorem blks_disjoint : ∀ b ∈ (Finset.univ : Finset (Fin 1600)), ∀ b' ∈ (Finset.univ : Finset (Fin 1600)), b ≠ b' → Disjoint (blkSet b) (blkSet b') :=
  fun b _ b' _ h => by rw [blkSet_eq, blkSet_eq]; exact Rect.part_disjoint odiv h
theorem blks_cover : (Finset.univ : Finset (Fin 1600)).biUnion blkSet = Finset.univ :=
  (Finset.biUnion_congr rfl fun b _ => blkSet_eq b).trans (Rect.biUnion_part odiv)

theorem oPts_blocks (d : Dev nD) (f : Buf (Elt F) (oLoc d)) :
    (oLoc d ↦{fullShare} f : sProp 𝕄) = bigSep Finset.univ fun b : Fin 1600 => oLoc d ↦[blkSet b]{fullShare} f := by
  rw [← pointsTo_biUnion Finset.univ (ℓ := oLoc d) blkSet blks_disjoint, blks_cover]; try rfl

/-! ## What the two SparseCores take and bring back, regrouped -/

/-- An input's thirty-two read tokens. -/
abbrev toks {ℓ : Loc nD τ sig} (f : Buf (Elt F) ℓ) : sProp 𝕄 :=
  bigSep Finset.univ fun t : Fin 32 => ℓ ↦{Transfers.shareTok fullShare 32 t} f

/-- The thirty-two tiles' shares and blocks are the three inputs' tokens and the flat result whole. -/
theorem cores_eq (d : Dev nD) (f : Buf (Elt F) (oLoc d)) :
    (bigSep Finset.univ fun c : Fin 2 => bigSep Finset.univ fun i : Fin 16 => iprop(inPts m d c i ∗ outPts d c i f))
      = iprop((toks (Xq m d) ∗ toks (Xc m d) ∗ toks (Xb m d)) ∗ oLoc d ↦{fullShare} f) := by
  rw [oPts_blocks, ← bigSep_blocks (F := F) (fun b => oLoc d ↦[blkSet b]{fullShare} f)]
  unfold toks
  rw [← bigSep_tiles (F := F) (fun t => qLoc d ↦{Transfers.shareTok fullShare 32 t} Xq m d),
    ← bigSep_tiles (F := F) (fun t => cLoc d ↦{Transfers.shareTok fullShare 32 t} Xc m d),
    ← bigSep_tiles (F := F) (fun t => bLoc d ↦{Transfers.shareTok fullShare 32 t} Xb m d)]
  simp only [bigSep_sep']

theorem stAll_eq (d : Dev nD) :
    (bigSep Finset.univ fun c : Fin ((K (F := F)).nCore 0) => (P m).st 0 d c)
      = iprop((toks (Xq m d) ∗ toks (Xc m d) ∗ toks (Xb m d)) ∗ oLoc d ↦{fullShare} m (oLoc d)) := by
  simp only [st0_eq]
  rw [bigSep_cores (F := F) (fun c => bigSep Finset.univ fun i : Fin 16 => goRes m d c i)]
  exact cores_eq m d (m (oLoc d))
theorem dnAll_eq (d : Dev nD) :
    (bigSep Finset.univ fun c : Fin ((K (F := F)).nCore 0) => (P m).dn 0 d c)
      = iprop((toks (Xq m d) ∗ toks (Xc m d) ∗ toks (Xb m d)) ∗ oLoc d ↦{fullShare} Go m d) := by
  simp only [dn0_eq]
  rw [bigSep_cores (F := F) (fun c => bigSep Finset.univ fun i : Fin 16 => tdRes m d c i)]
  exact cores_eq m d (Go m d)

end Cert.Proof.KB

end
-- ==== Proof.KBLaunch.lean ====
/-
  @main on a device's TensorCore: the three host reshapes that flatten the inputs, the one SparseCore call — each
  input's full share cut into thirty-two read tokens, the flat result into its 1600 blocks, both regrouped by tile —,
  and the host reshape of the flat result; then the program's run.
-/
import proofs.«215948_g88356067214102_cont_sun_c4_674_26_alg».proof.Proof.KBLaunchRegroup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## @main's arrays and host operations -/

abbrev rA0 : DevRef τ sig := Proc.devRef .tc (main_arg0 : Ref sig .tc)
abbrev rA1 : DevRef τ sig := Proc.devRef .tc (main_arg1 : Ref sig .tc)
abbrev rA2 : DevRef τ sig := Proc.devRef .tc (main_arg2 : Ref sig .tc)
abbrev rQ : DevRef τ sig := Proc.devRef .tc (main_v0 : Ref sig .tc)
abbrev rC : DevRef τ sig := Proc.devRef .tc (main_v1 : Ref sig .tc)
abbrev rB : DevRef τ sig := Proc.devRef .tc (main_v2 : Ref sig .tc)
abbrev rO : DevRef τ sig := Proc.devRef .tc (main_v3 : Ref sig .tc)
abbrev rR : DevRef τ sig := Proc.devRef .tc (main_v4 : Ref sig .tc)

abbrev op0 : HloOp τ sig (Elt F) := StableHlo.reshape main_arg0 main_v0 rfl shapeCasts_S4096x50_S204800
abbrev op1 : HloOp τ sig (Elt F) := StableHlo.reshape main_arg1 main_v1 rfl shapeCasts_S100000x32_S25000x128
abbrev op2 : HloOp τ sig (Elt F) := StableHlo.reshape main_arg2 main_v2 rfl shapeCasts_S16x4_S64
abbrev op3 : HloOp τ sig (Elt F) := StableHlo.reshape main_v3 main_v4 rfl shapeCasts_S204800x128_S4096x50x128

theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (a2Loc d ↦{fullShare} W main_arg2)
          ∗ (qLoc d ↦{fullShare} W main_v0) ∗ (cLoc d ↦{fullShare} W main_v1) ∗ (bLoc d ↦{fullShare} W main_v2)
          ∗ (oLoc d ↦{fullShare} W main_v3) ∗ rLoc d ↦{fullShare} W main_v4) := by
  unfold unscopedBufs
  rw [show (Finset.univ.filter fun b : Ref sig .tc => ¬ b.isScoped)
      = {main_arg0, main_arg1, main_arg2, main_v0, main_v1, main_v2, main_v3, main_v4} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- Two of the device's arrays held whole. -/
theorem held_pair (d : Dev nD) {x y : DevRef τ sig} (h : x ≠ y) (W : Valuation τ sig (Elt F)) :
    (held (T d) {x, y} W : sProp 𝕄) = iprop((((d, x) : Loc nD τ sig) ↦{fullShare} W x) ∗ ((d, y) : Loc nD τ sig) ↦{fullShare} W y) := by
  unfold held
  rw [SparseCore.bigSep_insert' (by simpa using h), bigSep_singleton]

/-- The launch valuation; and with the flat result at the decoded rows. -/
def V0 (d : Dev nD) : Valuation τ sig (Elt F) := fun b => m (d, b)
def V4 (d : Dev nD) : Valuation τ sig (Elt F) := Function.update (V0 m d) rO (Go m d)

theorem V4_o (d : Dev nD) : V4 m d rO = Go m d := Function.update_self _ _ _
theorem V4_r (d : Dev nD) : V4 m d rR = m (rLoc d) := Function.update_of_ne (show rR ≠ rO by decide) _ _

theorem res0_a (d : Dev nD) : (op0 (F := F)).result (V0 m d) rA0 = m (a0Loc d) :=
  StableHlo.reshape_result_ne _ _ _ _ _ _ (V0 m d) (show (main_arg0 : Ref sig .tc) ≠ main_v0 by decide)
theorem res0_q (d : Dev nD) : (op0 (F := F)).result (V0 m d) rQ = Xq m d :=
  StableHlo.reshape_result _ _ _ _ _ _ (V0 m d)
theorem res1_a (d : Dev nD) : (op1 (F := F)).result (V0 m d) rA1 = m (a1Loc d) :=
  StableHlo.reshape_result_ne _ _ _ _ _ _ (V0 m d) (show (main_arg1 : Ref sig .tc) ≠ main_v1 by decide)
theorem res1_c (d : Dev nD) : (op1 (F := F)).result (V0 m d) rC = Xc m d :=
  StableHlo.reshape_result _ _ _ _ _ _ (V0 m d)
theorem res2_a (d : Dev nD) : (op2 (F := F)).result (V0 m d) rA2 = m (a2Loc d) :=
  StableHlo.reshape_result_ne _ _ _ _ _ _ (V0 m d) (show (main_arg2 : Ref sig .tc) ≠ main_v2 by decide)
theorem res2_b (d : Dev nD) : (op2 (F := F)).result (V0 m d) rB = Xb m d :=
  StableHlo.reshape_result _ _ _ _ _ _ (V0 m d)
theorem res3_o (d : Dev nD) : (op3 (F := F)).result (V4 m d) rO = Go m d :=
  (StableHlo.reshape_result_ne _ _ _ _ _ _ (V4 m d) (show (main_v3 : Ref sig .tc) ≠ main_v4 by decide)).trans (V4_o m d)
theorem res3_r (d : Dev nD) : (op3 (F := F)).result (V4 m d) rR = Res m d := by
  refine (StableHlo.reshape_result _ _ _ _ _ _ (V4 m d)).trans ?_
  show (fun i => shapeCast S4096x50x128 (V4 m d rO) shapeCasts_S204800x128_S4096x50x128 i) = Res m d
  rw [V4_o]; rfl

theorem before0 (d : Dev nD) : (held (T d) {rA0, rQ} (V0 m d) : sProp 𝕄) = iprop((a0Loc d ↦{fullShare} m (a0Loc d)) ∗ qLoc d ↦{fullShare} m (qLoc d)) :=
  held_pair d (show rA0 ≠ rQ by decide) _
theorem after0 (d : Dev nD) : (held (T d) {rA0, rQ} ((op0 (F := F)).result (V0 m d)) : sProp 𝕄) = iprop((a0Loc d ↦{fullShare} m (a0Loc d)) ∗ qLoc d ↦{fullShare} Xq m d) := by
  rw [held_pair d (show rA0 ≠ rQ by decide), res0_a, res0_q]
theorem before1 (d : Dev nD) : (held (T d) {rA1, rC} (V0 m d) : sProp 𝕄) = iprop((a1Loc d ↦{fullShare} m (a1Loc d)) ∗ cLoc d ↦{fullShare} m (cLoc d)) :=
  held_pair d (show rA1 ≠ rC by decide) _
theorem after1 (d : Dev nD) : (held (T d) {rA1, rC} ((op1 (F := F)).result (V0 m d)) : sProp 𝕄) = iprop((a1Loc d ↦{fullShare} m (a1Loc d)) ∗ cLoc d ↦{fullShare} Xc m d) := by
  rw [held_pair d (show rA1 ≠ rC by decide), res1_a, res1_c]
theorem before2 (d : Dev nD) : (held (T d) {rA2, rB} (V0 m d) : sProp 𝕄) = iprop((a2Loc d ↦{fullShare} m (a2Loc d)) ∗ bLoc d ↦{fullShare} m (bLoc d)) :=
  held_pair d (show rA2 ≠ rB by decide) _
theorem after2 (d : Dev nD) : (held (T d) {rA2, rB} ((op2 (F := F)).result (V0 m d)) : sProp 𝕄) = iprop((a2Loc d ↦{fullShare} m (a2Loc d)) ∗ bLoc d ↦{fullShare} Xb m d) := by
  rw [held_pair d (show rA2 ≠ rB by decide), res2_a, res2_b]
theorem before3 (d : Dev nD) : (held (T d) {rO, rR} (V4 m d) : sProp 𝕄) = iprop((oLoc d ↦{fullShare} Go m d) ∗ rLoc d ↦{fullShare} m (rLoc d)) := by
  rw [held_pair d (show rO ≠ rR by decide), V4_o, V4_r]
theorem after3 (d : Dev nD) : (held (T d) {rO, rR} ((op3 (F := F)).result (V4 m d)) : sProp 𝕄) = iprop((oLoc d ↦{fullShare} Go m d) ∗ rLoc d ↦{fullShare} Res m d) := by
  rw [held_pair d (show rO ≠ rR by decide), res3_o, res3_r]

variable [FloatOps F]

/-- @main on device `d`'s TensorCore. -/
theorem hmain : MainRun m ρ := by
  intro κ d
  unfold SparseCore.Cfg.tcRes
  rw [unscopedBufs_eq]
  simp only [main, wp_bind, wp_pure]
  iintro ⟨#Hctx, Hst, ⟨Hb, ⟨H0, H1, H2, Hq, Hc, Hbb, Ho, Hr⟩, -, -⟩, -⟩
  -- the queries flattened
  iapply (wp_hlo_within 𝒱 (SparseCore.T d) none Set.univ (op := op0) (S := {rA0, rQ}) (Finset.Subset.refl _) (V := V0 m d)) $$ [Hb H0 Hq]
  · isplitl [Hb]; · iexact Hb
    rw [before0]
    isplitl [H0]; · iexact H0
    iexact Hq
  iintro ⟨Hb, Hh⟩
  ihave Hh' := (Entails.of_eq (after0 (F := F) m d)) $$ Hh
  icases Hh' with ⟨H0, Hq⟩
  rw [wp_ret]; imodintro
  -- the code table flattened
  iapply (wp_hlo_within 𝒱 (SparseCore.T d) none Set.univ (op := op1) (S := {rA1, rC}) (Finset.Subset.refl _) (V := V0 m d)) $$ [Hb H1 Hc]
  · isplitl [Hb]; · iexact Hb
    rw [before1]
    isplitl [H1]; · iexact H1
    iexact Hc
  iintro ⟨Hb, Hh⟩
  ihave Hh' := (Entails.of_eq (after1 (F := F) m d)) $$ Hh
  icases Hh' with ⟨H1, Hc⟩
  rw [wp_ret]; imodintro
  -- the centroids flattened
  iapply (wp_hlo_within 𝒱 (SparseCore.T d) none Set.univ (op := op2) (S := {rA2, rB}) (Finset.Subset.refl _) (V := V0 m d)) $$ [Hb H2 Hbb]
  · isplitl [Hb]; · iexact Hb
    rw [before2]
    isplitl [H2]; · iexact H2
    iexact Hbb
  iintro ⟨Hb, Hh⟩
  ihave Hh' := (Entails.of_eq (after2 (F := F) m d)) $$ Hh
  icases Hh' with ⟨H2, Hbb⟩
  rw [wp_ret]; imodintro
  -- the call: each input's thirty-two read tokens and the flat result to the two SparseCores, and back
  ihave Hq' := (Transfers.pointsTo_toks_split fullShare 32) $$ Hq
  icases Hq' with ⟨-, Hqt⟩
  ihave Hc' := (Transfers.pointsTo_toks_split fullShare 32) $$ Hc
  icases Hc' with ⟨-, Hct⟩
  ihave Hb' := (Transfers.pointsTo_toks_split fullShare 32) $$ Hbb
  icases Hb' with ⟨-, Hbt⟩
  iapply ((K (F := F)).wp_run (D (F := F)) 𝒱 (EH := EH) (P := P m) κ d 0) $$ [Hst Hqt Hct Hbt Ho Hb H0 H1 H2 Hr]
  isplitr; · iexact Hctx
  isplitl [Hst]; · iexact Hst
  isplitl [Hqt Hct Hbt Ho]
  · rw [stAll_eq]
    isplitl [Hqt Hct Hbt]
    · isplitl [Hqt]; · iexact Hqt
      isplitl [Hct]; · iexact Hct
      iexact Hbt
    iexact Ho
  iintro ⟨Hst, Hdn⟩
  ihave Hdn' := (Entails.of_eq (dnAll_eq m d)) $$ Hdn
  icases Hdn' with ⟨-, Ho⟩
  -- the flat result reshaped
  iapply (wp_hlo_within 𝒱 (SparseCore.T d) none Set.univ (op := op3) (S := {rO, rR}) (Finset.Subset.refl _) (V := V4 m d)) $$ [Hb Ho Hr]
  · isplitl [Hb]; · iexact Hb
    rw [before3]
    isplitl [Ho]; · iexact Ho
    iexact Hr
  iintro ⟨Hb, Hh⟩
  ihave Hh' := (Entails.of_eq (after3 (F := F) m d)) $$ Hh
  icases Hh' with ⟨-, Hr⟩
  rw [wp_ret]; imodintro; imodintro
  isplitl [Hst]; · iexact Hst
  isplitl [Hr]; · iexact Hr
  isplitl [H0]; · iexact H0
  isplitl [H1]; · iexact H1
  iexact H2

/-! ## The program's run -/

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  run_main_of m ρ (hmain m ρ) hT

end Cert.Proof.KB

end
-- ==== Proof.KBFinal.lean ====
/-
  The kernel's result is the decoded array.

  The program flattens its three inputs, decodes every flat query over the flattened inputs, and gives the
  flat result the result's shape. Flattening keeps every element at its row-major position, so on inputs
  in range that is the decoded array of the inputs themselves. The precondition bounds the two integer
  inputs, which is what "in range" asks.
-/
import proofs.«215948_g88356067214102_cont_sun_c4_674_26_alg».proof.Proof.KBLaunch
import proofs.«215948_g88356067214102_cont_sun_c4_674_26_alg».proof.Proof.FlatDecode
import proofs.«215948_g88356067214102_cont_sun_c4_674_26_alg».proof.Proof.PreFacts

noncomputable section

namespace Cert.Proof.KB

open Cert.Kernel Cert.Kernel.Gen
open Idealize.ShloMosaic Idealize.SL.Sem

variable {F : FTy → Type}

/-- On inputs in range, what the program leaves in its result is the decoded array of its three inputs. -/
theorem res_eq_decode (m : (ℓ : Loc nD τ sig) → Buf (Elt F) ℓ) (hpre : PreOK m) (d : Dev nD) :
    Res m d = Cert.Decode.decode (m (a0Loc d)) (m (a1Loc d)) (m (a2Loc d)) := by
  unfold Res Go Xq Xc Xb
  exact Cert.Decode.flat_decode (m (a0Loc d)) (m (a1Loc d)) (m (a2Loc d)) (hpre d)
    shapeCasts_S4096x50_S204800 shapeCasts_S100000x32_S25000x128 shapeCasts_S16x4_S64 shapeCasts_S204800x128_S4096x50x128

/-- The precondition, holding on every device, puts the two integer inputs in range. -/
theorem preOK_of_pre [FloatOps F] [Cert.Pre_input_domain.Facts] (m : (ℓ : Loc nD τ sig) → Buf (Elt F) ℓ)
    (h : ∀ c : Dev nD, Cert.Pre_input_domain.fn (F := F) (m (a0Loc c)) (m (a1Loc c)) (m (a2Loc c)) = fun _ => 1#1) :
    PreOK m :=
  fun d => Cert.Proof.PreFacts.inRange (F := F) (m (a0Loc d)) (m (a1Loc d)) (m (a2Loc d)) (h d)

/-- The program's run with its result as the decoded array: from a memory whose integer inputs are in range,
    every weakly fair execution terminates with the result at the decoded array and the inputs unchanged. -/
theorem run_value [FloatOps F] [∀ e, Nonempty (Elt F e)] (m : (ℓ : Loc nD τ sig) → Buf (Elt F) ℓ) (ρ : Dev nD → PrngReg)
    (hpre : PreOK m) (hT : (K (F := F)).TileObl (D (F := F)) 𝒱 (P m) v₀ 0) :
    θ_run (Cert.Kernel.defs (F := F)) (Cert.Kernel.threads (F := F)) ⟨m, fun _ => 0, ρ⟩
      (fun r => ∀ c : Dev nD,
        r.2.mem (rLoc c) = Cert.Decode.decode (m (a0Loc c)) (m (a1Loc c)) (m (a2Loc c))
        ∧ r.2.mem (a0Loc c) = m (a0Loc c) ∧ r.2.mem (a1Loc c) = m (a1Loc c) ∧ r.2.mem (a2Loc c) = m (a2Loc c)) :=
  (θ_run (Cert.Kernel.defs (F := F)) _ _).mono
    (fun _ h c => ⟨(h c).1.trans (res_eq_decode m hpre c), (h c).2⟩) (run_main m ρ hT)

end Cert.Proof.KB

end
-- ==== Proof.KBChunk.lean ====
/-
  A tile's chunks, as pure statements about scratch contents.

  Tile `L` decodes the queries `base L + 128 n + r` (`n < 50` the chunk, `r < 128` the row inside it). For chunk `n`
  its scratches hold, in turn: the 128 query words; the words shifted right by two (the rows of the packed code table
  they name); those 128 rows of the packed table; and at last the 128 decoded rows.
-/
import proofs.«215948_g88356067214102_cont_sun_c4_674_26_alg».proof.Proof.KBSetup

noncomputable section

namespace Cert.Proof.KB

open Cert.Kernel Cert.Kernel.Gen
open Idealize.ShloMosaic Idealize.ShloMosaic.ValueIdx

variable {F : FTy → Type}

/-- The first query of tile `L`. -/
def base (L : grid0.Coords) : Nat := 12800 * (L 1).val + 6400 * (L 0).val

/-- Flat query `R`'s word (the index clamped into the list, so that the function is total). -/
def qAt (xq : Vec F S204800 .i32) (R : Nat) : BitVec 32 := xq (ix1 (⟨min R 204799, by omega⟩ : Fin 204800))

/-- Entry `e` of the decoded row of flat query `R` (clamped likewise). -/
def oAt (xq : Vec F S204800 .i32) (xc : Vec F S25000x128 .i32) (xb : Vec F S64 .f32) (R : Nat) (e : Fin 128) : Elt F .f32 :=
  Cert.Decode.flatAt xq xc xb (⟨min R 204799, by omega⟩ : Fin 204800) e

/-- The index scratch holds chunk `n`'s query words. -/
def ChunkI (xq : Vec F S204800 .i32) (L : grid0.Coords) (n : Nat) (fI : Vec F S128 .i32) : Prop :=
  ∀ j : Fin 128, fI (ix1 j) = qAt xq (base L + 128 * n + j.val)
/-- The list scratch holds chunk `n`'s words shifted right by two. -/
def ChunkQ (xq : Vec F S204800 .i32) (L : grid0.Coords) (n : Nat) (fQ : Vec F S128 .i32) : Prop :=
  ∀ j : Fin 128, fQ (ix1 j) = IntOp.shrsi .vector (qAt xq (base L + 128 * n + j.val)) 2#32
/-- The code scratch holds the packed table's rows chunk `n`'s words name. -/
def ChunkC (xq : Vec F S204800 .i32) (xc : Vec F S25000x128 .i32) (L : grid0.Coords) (n : Nat) (fC : Vec F S128x128 .i32) : Prop :=
  ∀ r col : Fin 128, fC (ix2 r col) = xc (ix2 (Cert.Decode.packRow (qAt xq (base L + 128 * n + r.val)).toNat) col)
/-- The out scratch holds chunk `n`'s decoded rows. -/
def ChunkO (xq : Vec F S204800 .i32) (xc : Vec F S25000x128 .i32) (xb : Vec F S64 .f32) (L : grid0.Coords) (n : Nat) (fO : Vec F S128x128 .f32) : Prop :=
  ∀ r e : Fin 128, fO (ix2 r e) = oAt xq xc xb (base L + 128 * n + r.val) e

theorem base_le (L : grid0.Coords) : base L + 6400 ≤ 204800 := by
  have h1 : (L 1).val < 16 := (L 1).isLt
  have h0 : (L 0).val < 2 := (L 0).isLt
  unfold base; omega

end Cert.Proof.KB

end
-- ==== Proof.KBCore.lean ====
import proofs.«215948_g88356067214102_cont_sun_c4_674_26_alg».proof.Proof.KBSetup
import proofs.«215948_g88356067214102_cont_sun_c4_674_26_alg».proof.Proof.KBChunk

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sQ0" => (Memref.whole Cert.Kernel.cc0_scratch2 : Memref Cert.Kernel.sig Kind.scVector Space.vmem Cert.Kernel.S128 EltTy.i32)
local notation "sQ1" => (Memref.whole Cert.Kernel.cc0_scratch3 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)
local notation "qV" => (Memref.whole Cert.Kernel.main_v0_scv : Memref Cert.Kernel.sig Kind.scVector Space.hbm Cert.Kernel.S204800 EltTy.i32)
local notation "cVm" => (Memref.whole Cert.Kernel.main_v1_scv : Memref Cert.Kernel.sig Kind.scVector Space.hbm Cert.Kernel.S25000x128 EltTy.i32)
local notation "bV" => (Memref.whole Cert.Kernel.main_v2_scv : Memref Cert.Kernel.sig Kind.scVector Space.hbm Cert.Kernel.S64 EltTy.f32)
local notation "oV" => (Memref.whole Cert.Kernel.main_v3_scv : Memref Cert.Kernel.sig Kind.scVector Space.hbm Cert.Kernel.S204800x128 EltTy.f32)

variable [FloatOps F]

/-! What the tile's run is stated over: its thread, its blocks of the flat result, what its transfers deliver, and the
    run itself as one statement over the tile's resources laid out one by one. -/

/-- The tile's thread. -/
abbrev tth (d : Dev nD) (L : grid0.Coords) : Thread nD τ := V d ((L 0).castLE hcore0) ((L 1).castLE hsub0)

/-- Block `n` of tile `L` in the flat result (`n < 50`). -/
def bk (L : grid0.Coords) (n : Nat) : Fin 1600 := ⟨(100 * (L 1).val + 50 * (L 0).val + n) % 1600, Nat.mod_lt _ (by decide)⟩

/-- All of the packed code table, as the gathers slice it. -/
abbrev cAll : Memref sig .scVector .hbm S25000x128 .i32 :=
  (cVm).slice (Rect.unit (s := S25000x128) ![0, 0] S25000x128.size inb_S25000x128_S25000x128_0_0) (fun _ => rfl)

variable (d : Dev nD) (L : grid0.Coords)
variable (xq : Buf (Elt F) (qLoc d)) (xc : Buf (Elt F) (cLoc d)) (xb : Buf (Elt F) (bLoc d)) (go : Buf (Elt F) (oLoc d))

/-- What a slot's gather delivers for chunk `n`: the gathered code rows, the row list back, the table's share back. -/
def GD0 (n : Nat) (qa : PosShare TreeShare) : sProp 𝕄 :=
  iprop((∃ fC : Buf (Elt F) ((tth d L).loc cc0_scratch4), ((sC0).view.loc (tth d L) ↦{fullShare} fC) ∗ ⌜ChunkC xq xc L n fC⌝)
    ∗ (∃ fQ : Buf (Elt F) ((tth d L).loc cc0_scratch2), (sQ0).view.loc (tth d L) ↦{fullShare} fQ)
    ∗ ((cVm).view.loc (tth d L) ↦[(cAll).view.set]{qa} xc))
def GD1 (n : Nat) (qb : PosShare TreeShare) : sProp 𝕄 :=
  iprop((∃ fC : Buf (Elt F) ((tth d L).loc cc0_scratch5), ((sC1).view.loc (tth d L) ↦{fullShare} fC) ∗ ⌜ChunkC xq xc L n fC⌝)
    ∗ (∃ fQ : Buf (Elt F) ((tth d L).loc cc0_scratch3), (sQ1).view.loc (tth d L) ↦{fullShare} fQ)
    ∗ ((cVm).view.loc (tth d L) ↦[(cAll).view.set]{qb} xc))
/-- What a slot's write-out delivers for chunk `n`: the out scratch back, the block decoded. -/
def OD0 (n : Nat) : sProp 𝕄 :=
  iprop((∃ fO : Buf (Elt F) ((tth d L).loc cc0_scratch6), (sO0).view.loc (tth d L) ↦{fullShare} fO) ∗ (oLoc d ↦[blkSet (bk L n)]{fullShare} go))
def OD1 (n : Nat) : sProp 𝕄 :=
  iprop((∃ fO : Buf (Elt F) ((tth d L).loc cc0_scratch7), (sO1).view.loc (tth d L) ↦{fullShare} fO) ∗ (oLoc d ↦[blkSet (bk L n)]{fullShare} go))

/-- The tile's run over its resources one by one: its shares of the three inputs (the packed table's in two halves, one
    per gather in flight), its fifty blocks, its ten scratch buffers and its nine semaphores at zero; the blocks come
    back decoded, everything else as it was handed in (the scratch at some contents). -/
def TileCore : Prop :=
  ∀ (m0 : Buf (Elt F) (oLoc d)) (qq qa qb : PosShare TreeShare) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (f0 : Buf (Elt F) ((tth d L).loc cc0_scratch0)) (f1 : Buf (Elt F) ((tth d L).loc cc0_scratch1)) (f2 : Buf (Elt F) ((tth d L).loc cc0_scratch2)) (f3 : Buf (Elt F) ((tth d L).loc cc0_scratch3)) (f4 : Buf (Elt F) ((tth d L).loc cc0_scratch4)) (f5 : Buf (Elt F) ((tth d L).loc cc0_scratch5)) (f6 : Buf (Elt F) ((tth d L).loc cc0_scratch6)) (f7 : Buf (Elt F) ((tth d L).loc cc0_scratch7)) (f8 : Buf (Elt F) ((tth d L).loc cc0_scratch8)) (f9 : Buf (Elt F) ((tth d L).loc cc0_scratch9)),
    iprop(levAts (K (F := F)).L (K (F := F)).lev ∗ owes (tth d L) O W
        ∗ (qLoc d ↦{qq} xq) ∗ (cLoc d ↦{qa} xc) ∗ (cLoc d ↦{qb} xc) ∗ (bLoc d ↦{qq} xb)
        ∗ (bigSep Finset.univ fun j : Fin 50 => oLoc d ↦[blkSet (bk L j.val)]{fullShare} m0)
        ∗ ((tth d L).loc cc0_scratch0 ↦{fullShare} f0)
        ∗ ((tth d L).loc cc0_scratch1 ↦{fullShare} f1)
        ∗ ((tth d L).loc cc0_scratch2 ↦{fullShare} f2)
        ∗ ((tth d L).loc cc0_scratch3 ↦{fullShare} f3)
        ∗ ((tth d L).loc cc0_scratch4 ↦{fullShare} f4)
        ∗ ((tth d L).loc cc0_scratch5 ↦{fullShare} f5)
        ∗ ((tth d L).loc cc0_scratch6 ↦{fullShare} f6)
        ∗ ((tth d L).loc cc0_scratch7 ↦{fullShare} f7)
        ∗ ((tth d L).loc cc0_scratch8 ↦{fullShare} f8)
        ∗ ((tth d L).loc cc0_scratch9 ↦{fullShare} f9)
        ∗ semVal (tth d L, .dma cc0_scratch10.sem) 0
        ∗ semVal (tth d L, .dma cc0_scratch11.sem) 0
        ∗ semVal (tth d L, .dma cc0_scratch12.sem) 0
        ∗ semVal (tth d L, .dma cc0_scratch13.sem) 0
        ∗ semVal (tth d L, .dma cc0_scoped0.sem) 0
        ∗ semVal (tth d L, .dma cc0_scoped1.sem) 0
        ∗ semVal (tth d L, .dma cc0_scoped2.sem) 0
        ∗ semVal (tth d L, .dma cc0_scoped3.sem) 0
        ∗ semVal (tth d L, .dma cc0_scoped4.sem) 0)
      ⊢ (wp frame (wpE (defs₀ (F := F)) 𝒱₀ (tth d L) none) Set.univ
          (cc0__decode_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4)
          fun _ => iprop((qLoc d ↦{qq} xq) ∗ (cLoc d ↦{qa} xc) ∗ (cLoc d ↦{qb} xc) ∗ (bLoc d ↦{qq} xb)
            ∗ (bigSep Finset.univ fun j : Fin 50 => oLoc d ↦[blkSet (bk L j.val)]{fullShare} go)
            ∗ (∃ f, (tth d L).loc cc0_scratch0 ↦{fullShare} f)
        ∗ (∃ f, (tth d L).loc cc0_scratch1 ↦{fullShare} f)
        ∗ (∃ f, (tth d L).loc cc0_scratch2 ↦{fullShare} f)
        ∗ (∃ f, (tth d L).loc cc0_scratch3 ↦{fullShare} f)
        ∗ (∃ f, (tth d L).loc cc0_scratch4 ↦{fullShare} f)
        ∗ (∃ f, (tth d L).loc cc0_scratch5 ↦{fullShare} f)
        ∗ (∃ f, (tth d L).loc cc0_scratch6 ↦{fullShare} f)
        ∗ (∃ f, (tth d L).loc cc0_scratch7 ↦{fullShare} f)
        ∗ (∃ f, (tth d L).loc cc0_scratch8 ↦{fullShare} f)
        ∗ (∃ f, (tth d L).loc cc0_scratch9 ↦{fullShare} f)
            ∗ semVal (tth d L, .dma cc0_scratch10.sem) 0
            ∗ semVal (tth d L, .dma cc0_scratch11.sem) 0
            ∗ semVal (tth d L, .dma cc0_scratch12.sem) 0
            ∗ semVal (tth d L, .dma cc0_scratch13.sem) 0
            ∗ semVal (tth d L, .dma cc0_scoped0.sem) 0
            ∗ semVal (tth d L, .dma cc0_scoped1.sem) 0
            ∗ semVal (tth d L, .dma cc0_scoped2.sem) 0
            ∗ semVal (tth d L, .dma cc0_scoped3.sem) 0
            ∗ semVal (tth d L, .dma cc0_scoped4.sem) 0
            ∗ ∃ W', ⌜∀ p ∈ W', p ∈ W ∨ p.2 = none⌝ ∗ owes (tth d L) O W') : sProp 𝕄)

end Cert.Proof.KB

end
-- ==== Proof.KBOwn.lean ====
/-
  What a tile owns, peeled open: its ten scratch buffers, each whole at some contents, and its nine DMA semaphores,
  each at zero, taken out of the big separating conjunctions over everything the tile owns.
-/
import proofs.«215948_g88356067214102_cont_sun_c4_674_26_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The SparseCore and the vector subcore that grid point `L` names. -/
abbrev cV (L : grid0.Coords) : Fin τ.nSC := (L 0).castLE hcore0
abbrev jV (L : grid0.Coords) : Fin τ.nSub := (L 1).castLE hsub0
/-- The tile at grid point `L`, as a processor. -/
abbrev pV (L : grid0.Coords) : Proc τ := .scVector (cV L) (jV L)

/-- One member taken out of a big separating conjunction: the member, and the rest over the set without it. -/
theorem peel {M : Type} [URA M] {I : Type} [DecidableEq I] {s : Finset I} (i : I) {Φ : I → sProp M} {A R : sProp M}
    (hi : i ∈ s) (hA : Φ i = A) (hR : bigSep (s.erase i) Φ = R) : bigSep s Φ = iprop(A ∗ R) := by
  rw [SparseCore.bigSep_erase' hi, hA, hR]

/-- Distinct references of one tile are distinct buffers of the device. -/
theorem ref_ne (c : Fin τ.nSC) (j : Fin τ.nSub) {r r' : Ref sig .scVector} (h : r ≠ r') :
    (Proc.scVector c j).devRef r ≠ (Proc.scVector c j).devRef r' :=
  fun e => h (Proc.devRef_injective (Proc.scVector c j) e)

/-- A DMA semaphore is, on a tile, one of the tile's own scoped cells: off the TensorCore every DMA semaphore is scoped. -/
theorem cell_mem (d : Dev nD) (c : Fin τ.nSC) (j : Fin τ.nSub) (a : DmaSem sig) :
    ((V d c j, .dma a) : GSem nD τ sig) ∈ ownCells (sig := sig) (V d c j) :=
  mem_ownCells.mpr ⟨rfl, sig.sc_scopedDmaSem .scVector a (by decide)⟩

/-- DMA semaphores of one thread with different numbers are distinct cells. -/
theorem cell_ne (thr : Thread nD τ) {a b : DmaSem sig} (h : a.val ≠ b.val) :
    ((thr, .dma a) : GSem nD τ sig) ≠ (thr, .dma b) :=
  fun e => h (congrArg Fin.val (SemLoc.dma.inj (Prod.mk.inj e).2))

/-- The one semaphore of a rank-zero array laid on the pool from `base` has number `base`. -/
theorem dmaSem_val (base : Nat) (h : base + S_.numel ≤ sig.nDmaSem) :
    ((SemArray.consecutive base S_ h : DmaSems sig S_).sem).val = base := by
  show base + (Shape.rowMajorPi S_.size _).val = base
  rw [Shape.rowMajorPi_zero]; rfl

/-- A reference of the tile is among its own buffers less some others, all different from it. -/
macro "own_ref_mem" : tactic => `(tactic|
  (repeat (with_reducible refine Finset.mem_erase.mpr ⟨ref_ne _ _ (by decide), ?_⟩)
   exact SparseCore.Cfg.mem_ownRefs_of_owner (by rfl)))

/-- A scoped semaphore of the tile is among its own cells less some others, all different from it. -/
macro "own_cell_mem" : tactic => `(tactic|
  (repeat (with_reducible refine Finset.mem_erase.mpr ⟨cell_ne _ (by simp only [dmaSem_val]; decide), ?_⟩)
   exact cell_mem _ _ _ _))

/-- The tile's own buffers other than the ten scratch buffers. -/
abbrev restRefs (L : grid0.Coords) : Finset (DevRef τ sig) :=
  (((((((((((ownRefs (τ := τ) (sig := sig) (pV L)).erase ((pV L).devRef cc0_scratch0)).erase ((pV L).devRef cc0_scratch1)).erase ((pV L).devRef cc0_scratch2)).erase ((pV L).devRef cc0_scratch3)).erase ((pV L).devRef cc0_scratch4)).erase ((pV L).devRef cc0_scratch5)).erase ((pV L).devRef cc0_scratch6)).erase ((pV L).devRef cc0_scratch7)).erase ((pV L).devRef cc0_scratch8)).erase ((pV L).devRef cc0_scratch9))

/-- The tile's own scoped semaphores other than the nine DMA semaphores. -/
abbrev restCells (d : Dev nD) (L : grid0.Coords) : Finset (GSem nD τ sig) :=
  ((((((((((ownCells (sig := sig) (V d (cV L) (jV L))).erase (V d (cV L) (jV L), .dma cc0_scratch10.sem)).erase (V d (cV L) (jV L), .dma cc0_scratch11.sem)).erase (V d (cV L) (jV L), .dma cc0_scratch12.sem)).erase (V d (cV L) (jV L), .dma cc0_scratch13.sem)).erase (V d (cV L) (jV L), .dma cc0_scoped0.sem)).erase (V d (cV L) (jV L), .dma cc0_scoped1.sem)).erase (V d (cV L) (jV L), .dma cc0_scoped2.sem)).erase (V d (cV L) (jV L), .dma cc0_scoped3.sem)).erase (V d (cV L) (jV L), .dma cc0_scoped4.sem))

variable (d : Dev nD) (L : grid0.Coords)

/-- The ten scratch buffers are among the tile's own: they are them, each at some contents, and the rest. -/
theorem ownBufs_V :
    (ownBufs (V d (cV L) (jV L)) : sProp 𝕄)
      = iprop((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ bigSep (restRefs L) fun b => iprop(∃ f, ((d, b) : Loc nD τ sig) ↦{fullShare} f)) := by
  unfold SparseCore.Cfg.ownBufs
  refine peel ((pV L).devRef cc0_scratch0) (by own_ref_mem) (by rfl) ?_
  refine peel ((pV L).devRef cc0_scratch1) (by own_ref_mem) (by rfl) ?_
  refine peel ((pV L).devRef cc0_scratch2) (by own_ref_mem) (by rfl) ?_
  refine peel ((pV L).devRef cc0_scratch3) (by own_ref_mem) (by rfl) ?_
  refine peel ((pV L).devRef cc0_scratch4) (by own_ref_mem) (by rfl) ?_
  refine peel ((pV L).devRef cc0_scratch5) (by own_ref_mem) (by rfl) ?_
  refine peel ((pV L).devRef cc0_scratch6) (by own_ref_mem) (by rfl) ?_
  refine peel ((pV L).devRef cc0_scratch7) (by own_ref_mem) (by rfl) ?_
  refine peel ((pV L).devRef cc0_scratch8) (by own_ref_mem) (by rfl) ?_
  refine peel ((pV L).devRef cc0_scratch9) (by own_ref_mem) (by rfl) ?_
  rfl

/-- The nine DMA semaphores are among the tile's own scoped cells: they are them, each at zero, and the rest. -/
theorem ownSems0_V :
    (ownSems0 (V d (cV L) (jV L)) : sProp 𝕄)
      = iprop(semVal (V d (cV L) (jV L), .dma cc0_scratch10.sem) 0
          ∗ semVal (V d (cV L) (jV L), .dma cc0_scratch11.sem) 0
          ∗ semVal (V d (cV L) (jV L), .dma cc0_scratch12.sem) 0
          ∗ semVal (V d (cV L) (jV L), .dma cc0_scratch13.sem) 0
          ∗ semVal (V d (cV L) (jV L), .dma cc0_scoped0.sem) 0
          ∗ semVal (V d (cV L) (jV L), .dma cc0_scoped1.sem) 0
          ∗ semVal (V d (cV L) (jV L), .dma cc0_scoped2.sem) 0
          ∗ semVal (V d (cV L) (jV L), .dma cc0_scoped3.sem) 0
          ∗ semVal (V d (cV L) (jV L), .dma cc0_scoped4.sem) 0
          ∗ bigSep (restCells d L) fun g => semVal g 0) := by
  unfold SparseCore.Cfg.ownSems0
  refine peel (V d (cV L) (jV L), .dma cc0_scratch10.sem) (by own_cell_mem) (by rfl) ?_
  refine peel (V d (cV L) (jV L), .dma cc0_scratch11.sem) (by own_cell_mem) (by rfl) ?_
  refine peel (V d (cV L) (jV L), .dma cc0_scratch12.sem) (by own_cell_mem) (by rfl) ?_
  refine peel (V d (cV L) (jV L), .dma cc0_scratch13.sem) (by own_cell_mem) (by rfl) ?_
  refine peel (V d (cV L) (jV L), .dma cc0_scoped0.sem) (by own_cell_mem) (by rfl) ?_
  refine peel (V d (cV L) (jV L), .dma cc0_scoped1.sem) (by own_cell_mem) (by rfl) ?_
  refine peel (V d (cV L) (jV L), .dma cc0_scoped2.sem) (by own_cell_mem) (by rfl) ?_
  refine peel (V d (cV L) (jV L), .dma cc0_scoped3.sem) (by own_cell_mem) (by rfl) ?_
  refine peel (V d (cV L) (jV L), .dma cc0_scoped4.sem) (by own_cell_mem) (by rfl) ?_
  rfl

end Cert.Proof.KB

end
-- ==== Proof.KBTile.lean ====
/-
  A tile's task as the launch theorem asks for it, from the tile's run stated over its resources one by one: the
  tile's scoped storage is opened into its ten scratch buffers and nine semaphores, its read share of the packed
  code table is halved (one half per gather in flight), its blocks are renumbered, and everything is put back at the end.
-/
import proofs.«215948_g88356067214102_cont_sun_c4_674_26_alg».proof.Proof.KBLaunchSplit
import proofs.«215948_g88356067214102_cont_sun_c4_674_26_alg».proof.Proof.KBCore
import proofs.«215948_g88356067214102_cont_sun_c4_674_26_alg».proof.Proof.KBOwn

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The tile at a grid point -/

theorem bound_zero : grid0.bound 0 = 2 := rfl
theorem bound_one : grid0.bound 1 = 16 := rfl
/-- The SparseCore and the vector subcore of grid point `L`, as the launch numbers them. -/
abbrev cL (L : grid0.Coords) : Fin 2 := Fin.cast bound_zero (L 0)
abbrev jL (L : grid0.Coords) : Fin 16 := Fin.cast bound_one (L 1)

/-- The kernel's body at grid point `L`, over the program's arrays, scratch buffers and semaphores. -/
abbrev tileProg (L : grid0.Coords) :=
  cc0__decode_body (F := F) L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4

/-- Block `j` of tile `L`, numbered both ways. -/
theorem blkOf_bk (L : grid0.Coords) (j : Fin 50) : blkOf (cL L) (jL L) j = bk L j.val := by
  have h0 : (L 0).val < 2 := (L 0).isLt
  have h1 : (L 1).val < 16 := (L 1).isLt
  have hj := j.isLt
  apply Fin.ext
  show 100 * (L 1).val + 50 * (L 0).val + j.val = (100 * (L 1).val + 50 * (L 0).val + j.val) % 1600
  omega

theorem outPts_bk (d : Dev nD) (L : grid0.Coords) (f : Buf (Elt F) (oLoc d)) :
    (outPts d (cL L) (jL L) f : sProp 𝕄) = bigSep Finset.univ fun j : Fin 50 => oLoc d ↦[blkSet (bk L j.val)]{fullShare} f :=
  bigSep_congr fun j _ => by rw [blkOf_bk]

/-! ## What the tile's run asks of the flattened inputs -/

theorem xq_le (hpre : PreOK m) (d : Dev nD) (j : Idx (qLoc d)) : (Xq m d j).toNat ≤ 99999 := (hpre d).inp_le _
theorem xc_le (hpre : PreOK m) (d : Dev nD) (j : Idx (cLoc d)) : (Xc m d j).toNat ≤ 15 := (hpre d).codes_le _

/-! ## The task -/

section Tile

variable (d : Dev nD) (L : grid0.Coords)

/-- What the tile's run hands back, with the rest of the tile's own storage, is what the task hands back. -/
theorem tile_post (O : CellTallies nD τ sig (HIx 1)) (W : Waits sig (HIx 1)) (q : PosShare TreeShare) :
    iprop(((qLoc d ↦{q} Xq m d) ∗ (cLoc d ↦{q.left} Xc m d) ∗ (cLoc d ↦{q.right} Xc m d) ∗ (bLoc d ↦{q} Xb m d)
          ∗ (bigSep Finset.univ fun j : Fin 50 => oLoc d ↦[blkSet (bk L j.val)]{fullShare} Go m d)
          ∗ (∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ semVal (V d (cV L) (jV L), .dma cc0_scratch10.sem) 0
          ∗ semVal (V d (cV L) (jV L), .dma cc0_scratch11.sem) 0
          ∗ semVal (V d (cV L) (jV L), .dma cc0_scratch12.sem) 0
          ∗ semVal (V d (cV L) (jV L), .dma cc0_scratch13.sem) 0
          ∗ semVal (V d (cV L) (jV L), .dma cc0_scoped0.sem) 0
          ∗ semVal (V d (cV L) (jV L), .dma cc0_scoped1.sem) 0
          ∗ semVal (V d (cV L) (jV L), .dma cc0_scoped2.sem) 0
          ∗ semVal (V d (cV L) (jV L), .dma cc0_scoped3.sem) 0
          ∗ semVal (V d (cV L) (jV L), .dma cc0_scoped4.sem) 0
          ∗ ∃ W', ⌜∀ p ∈ W', p ∈ W ∨ p.2 = none⌝ ∗ owes (V d (cV L) (jV L)) O W')
        ∗ (bigSep (restRefs L) fun b => iprop(∃ f, ((d, b) : Loc nD τ sig) ↦{fullShare} f))
        ∗ (bigSep (restCells d L) fun g => semVal g 0))
      ⊢ (iprop((((qLoc d ↦{q} Xq m d) ∗ (cLoc d ↦{q} Xc m d) ∗ (bLoc d ↦{q} Xb m d)) ∗ outPts d (cL L) (jL L) (Go m d))
          ∗ ((∃ f, (V d (cV L) (jV L)).loc cc0_scratch0 ↦{fullShare} f)
          ∗ (∃ f, (V d (cV L) (jV L)).loc cc0_scratch1 ↦{fullShare} f)
          ∗ (∃ f, (V d (cV L) (jV L)).loc cc0_scratch2 ↦{fullShare} f)
          ∗ (∃ f, (V d (cV L) (jV L)).loc cc0_scratch3 ↦{fullShare} f)
          ∗ (∃ f, (V d (cV L) (jV L)).loc cc0_scratch4 ↦{fullShare} f)
          ∗ (∃ f, (V d (cV L) (jV L)).loc cc0_scratch5 ↦{fullShare} f)
          ∗ (∃ f, (V d (cV L) (jV L)).loc cc0_scratch6 ↦{fullShare} f)
          ∗ (∃ f, (V d (cV L) (jV L)).loc cc0_scratch7 ↦{fullShare} f)
          ∗ (∃ f, (V d (cV L) (jV L)).loc cc0_scratch8 ↦{fullShare} f)
          ∗ (∃ f, (V d (cV L) (jV L)).loc cc0_scratch9 ↦{fullShare} f)
          ∗ bigSep (restRefs L) fun b => iprop(∃ f, ((d, b) : Loc nD τ sig) ↦{fullShare} f))
          ∗ (semVal (V d (cV L) (jV L), .dma cc0_scratch10.sem) 0
          ∗ semVal (V d (cV L) (jV L), .dma cc0_scratch11.sem) 0
          ∗ semVal (V d (cV L) (jV L), .dma cc0_scratch12.sem) 0
          ∗ semVal (V d (cV L) (jV L), .dma cc0_scratch13.sem) 0
          ∗ semVal (V d (cV L) (jV L), .dma cc0_scoped0.sem) 0
          ∗ semVal (V d (cV L) (jV L), .dma cc0_scoped1.sem) 0
          ∗ semVal (V d (cV L) (jV L), .dma cc0_scoped2.sem) 0
          ∗ semVal (V d (cV L) (jV L), .dma cc0_scoped3.sem) 0
          ∗ semVal (V d (cV L) (jV L), .dma cc0_scoped4.sem) 0
          ∗ bigSep (restCells d L) fun g => semVal g 0)
          ∗ ∃ W', ⌜∀ p ∈ W', p ∈ W ∨ p.2 = none⌝ ∗ owes (V d (cV L) (jV L)) O W') : sProp 𝕄) := by
  iintro ⟨⟨Hq, Hca, Hcb, Hb, Hout, Hs0, Hs1, Hs2, Hs3, Hs4, Hs5, Hs6, Hs7, Hs8, Hs9, Hm10, Hm11, Hm12, Hm13, Hp0, Hp1, Hp2, Hp3, Hp4, HW⟩, Hbufs, Hsems⟩
  ihave Hc := (pointsTo_share (PosShare.mem_left_op_right q)).2 $$ [Hca Hcb]
  · isplitl [Hca] <;> iassumption
  isplitl [Hq Hc Hb Hout]
  · isplitl [Hq Hc Hb]
    · isplitl [Hq]; · iexact Hq
      isplitl [Hc]; · iexact Hc
      iexact Hb
    · rw [outPts_bk]; iexact Hout
  isplitl [Hs0 Hs1 Hs2 Hs3 Hs4 Hs5 Hs6 Hs7 Hs8 Hs9 Hbufs]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    iexact Hbufs
  isplitl [Hm10 Hm11 Hm12 Hm13 Hp0 Hp1 Hp2 Hp3 Hp4 Hsems]
  · isplitl [Hm10]; · iexact Hm10
    isplitl [Hm11]; · iexact Hm11
    isplitl [Hm12]; · iexact Hm12
    isplitl [Hm13]; · iexact Hm13
    isplitl [Hp0]; · iexact Hp0
    isplitl [Hp1]; · iexact Hp1
    isplitl [Hp2]; · iexact Hp2
    isplitl [Hp3]; · iexact Hp3
    isplitl [Hp4]; · iexact Hp4
    iexact Hsems
  iexact HW

/-- The task on the vector subcore grid point `L` names, from the tile's run. -/
theorem tile_body (hF : (K (F := F)).Facts) (hpre : PreOK m) (hcore : TileCore d L (Xq m d) (Xc m d) (Xb m d) (Go m d))
    (O : CellTallies nD τ sig (HIx 1)) (W : Waits sig (HIx 1)) (hO : ∀ g, O g none = 0) :
    iprop(levAts (K (F := F)).L (K (F := F)).lev ∗ emp ∗ goRes m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(tdRes m d (cL L) (jL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hq, Hc, Hb⟩, Hout⟩, ⟨⟨%f0, Hs0⟩, ⟨%f1, Hs1⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, Hbufs⟩, ⟨Hm10, Hm11, Hm12, Hm13, Hp0, Hp1, Hp2, Hp3, Hp4, Hsems⟩, HO⟩
  ihave Hc' := (pointsTo_share (PosShare.mem_left_op_right (tok (cL L) (jL L)))).1 $$ Hc
  icases Hc' with ⟨Hca, Hcb⟩
  ihave Hout' := (Entails.of_eq (outPts_bk (F := F) d L (m (oLoc d)))) $$ Hout
  ihave Hwp := (hcore (m (oLoc d)) (tok (cL L) (jL L)) (tok (cL L) (jL L)).left (tok (cL L) (jL L)).right O W hO (xq_le m hpre d) (xc_le m hpre d)
      (fun _ _ => rfl) f0 f1 f2 f3 f4 f5 f6 f7 f8 f9) $$ [HO Hq Hca Hcb Hb Hout' Hs0 Hs1 Hs2 Hs3 Hs4 Hs5 Hs6 Hs7 Hs8 Hs9 Hm10 Hm11 Hm12 Hm13 Hp0 Hp1 Hp2 Hp3 Hp4]
  · isplitr; · iexact Hlv
    isplitl [HO]; · iexact HO
    isplitl [Hq]; · iexact Hq
    isplitl [Hca]; · iexact Hca
    isplitl [Hcb]; · iexact Hcb
    isplitl [Hb]; · iexact Hb
    isplitl [Hout']; · iexact Hout'
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hm10]; · iexact Hm10
    isplitl [Hm11]; · iexact Hm11
    isplitl [Hm12]; · iexact Hm12
    isplitl [Hm13]; · iexact Hm13
    isplitl [Hp0]; · iexact Hp0
    isplitl [Hp1]; · iexact Hp1
    isplitl [Hp2]; · iexact Hp2
    isplitl [Hp3]; · iexact Hp3
    iexact Hp4
  iapply (wp_mono frame _ Set.univ fun _ => tile_post m d L O W (tok (cL L) (jL L)))
  iapply (wp_frame_r frame _ Set.univ)
  isplitl [Hwp]; · iexact Hwp
  isplitl [Hbufs]; · iexact Hbufs
  iexact Hsems

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- A tile's task, from every tile's run. -/
theorem tileObl_of (hpre : PreOK m)
    (hcore : ∀ (d : Dev nD) (L : grid0.Coords), TileCore d L (Xq m d) (Xc m d) (Xb m d) (Go m d)) :
    (K (F := F)).TileObl (D (F := F)) 𝒱 (P m) v₀ 0 := by
  intro d c i O W hO _ _
  -- the kernel owes nothing for a protocol of its own
  simp only [show (P m).ox = fun _ _ => 0 from rfl, add_zero]
  rw [x_eq, go0_eq, td0_eq]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) facts hpre (hcore d _) O W hO).trans (wp_mono frame _ _ fun _ => obl_post)

end Cert.Proof.KB

end
-- ==== Proof.KBOuterStmt.lean ====
import proofs.«215948_g88356067214102_cont_sun_c4_674_26_alg».proof.Proof.KBSetup
import proofs.«215948_g88356067214102_cont_sun_c4_674_26_alg».proof.Proof.KBChunk
import proofs.«215948_g88356067214102_cont_sun_c4_674_26_alg».proof.Proof.KBCore

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sQ0" => (Memref.whole Cert.Kernel.cc0_scratch2 : Memref Cert.Kernel.sig Kind.scVector Space.vmem Cert.Kernel.S128 EltTy.i32)
local notation "sQ1" => (Memref.whole Cert.Kernel.cc0_scratch3 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)
local notation "qV" => (Memref.whole Cert.Kernel.main_v0_scv : Memref Cert.Kernel.sig Kind.scVector Space.hbm Cert.Kernel.S204800 EltTy.i32)
local notation "cVm" => (Memref.whole Cert.Kernel.main_v1_scv : Memref Cert.Kernel.sig Kind.scVector Space.hbm Cert.Kernel.S25000x128 EltTy.i32)
local notation "bV" => (Memref.whole Cert.Kernel.main_v2_scv : Memref Cert.Kernel.sig Kind.scVector Space.hbm Cert.Kernel.S64 EltTy.f32)
local notation "oV" => (Memref.whole Cert.Kernel.main_v3_scv : Memref Cert.Kernel.sig Kind.scVector Space.hbm Cert.Kernel.S204800x128 EltTy.f32)

variable [FloatOps F]

/-! The chunk loop's three kinds of trip, as statements: what each is handed and what it hands on. -/

/-- Trip `k` of the chunk loop at \`k = 0\` (nothing written out yet): from the two gathers in flight to the next two. -/
def OuterFirst (d : Dev nD) (L : grid0.Coords) (xq : Buf (Elt F) (qLoc d)) (xc : Buf (Elt F) (cLoc d)) (xb : Buf (Elt F) (bLoc d)) (go : Buf (Elt F) (oLoc d))
    (qq qa qb : PosShare TreeShare) : Prop :=
  ∀ (m0 : Buf (Elt F) (oLoc d)) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (k : Fin k0_t3_loop.trips) (_hk0 : k.val = 0) (v2 : BitVec 32)
    (fI0 : Buf (Elt F) ((tth d L).loc cc0_scratch0)) (_hI0 : ChunkI xq L (2 * k.val) fI0)
    (fI1 : Buf (Elt F) ((tth d L).loc cc0_scratch1)) (_hI1 : ChunkI xq L (2 * k.val + 1) fI1)
    (fR : Buf (Elt F) ((tth d L).loc cc0_scratch9)) (fO0 : Buf (Elt F) ((tth d L).loc cc0_scratch6)) (fO1 : Buf (Elt F) ((tth d L).loc cc0_scratch7)),
    iprop(levAts (K (F := F)).L (K (F := F)).lev
        ∗ owes (tth d L) O W
        ∗ (qLoc d ↦{qq} xq)
        ∗ ((tth d L).loc cc0_scratch8 ↦{fullShare} xb)
        ∗ ((tth d L).loc cc0_scratch9 ↦{fullShare} fR)
        ∗ semVal (tth d L, .dma cc0_scoped3.sem) 0
        ∗ semVal (tth d L, .dma cc0_scoped4.sem) 0
        ∗ ((tth d L).loc cc0_scratch0 ↦{fullShare} fI0)
        ∗ ((tth d L).loc cc0_scratch1 ↦{fullShare} fI1)
        ∗ Transfers.Flight countersEmb (tth d L) (.dma cc0_scratch10.sem) (default : HIx 1) 524288 (GD0 d L xq xc (2 * k.val) qa)
        ∗ ((cVm).view.loc (tth d L) ↦[Finset.univ \ (cAll).view.set]{qa} xc)
        ∗ Transfers.Flight countersEmb (tth d L) (.dma cc0_scratch11.sem) (default : HIx 1) 524288 (GD1 d L xq xc (2 * k.val + 1) qb)
        ∗ ((cVm).view.loc (tth d L) ↦[Finset.univ \ (cAll).view.set]{qb} xc)
        ∗ ((tth d L).loc cc0_scratch6 ↦{fullShare} fO0)
        ∗ semVal (tth d L, .dma cc0_scratch12.sem) 0
        ∗ ((tth d L).loc cc0_scratch7 ↦{fullShare} fO1)
        ∗ semVal (tth d L, .dma cc0_scratch13.sem) 0
        ∗ (oLoc d ↦[blkSet (bk L (2 * k.val))]{fullShare} m0)
        ∗ (oLoc d ↦[blkSet (bk L (2 * k.val + 1))]{fullShare} m0))
      ⊢ (wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          fun _ => iprop((∃ W', ⌜∀ p ∈ W', p ∈ W ∨ p.2 = none⌝ ∗ owes (tth d L) O W')
            ∗ (qLoc d ↦{qq} xq)
            ∗ ((tth d L).loc cc0_scratch8 ↦{fullShare} xb)
            ∗ (∃ fR', (tth d L).loc cc0_scratch9 ↦{fullShare} fR')
            ∗ semVal (tth d L, .dma cc0_scoped3.sem) 0
            ∗ semVal (tth d L, .dma cc0_scoped4.sem) 0
            ∗ (∃ fI0', ((tth d L).loc cc0_scratch0 ↦{fullShare} fI0') ∗ ⌜ChunkI xq L (2 * (k.val + 1)) fI0'⌝)
            ∗ (∃ fI1', ((tth d L).loc cc0_scratch1 ↦{fullShare} fI1') ∗ ⌜ChunkI xq L (2 * (k.val + 1) + 1) fI1'⌝)
            ∗ Transfers.Flight countersEmb (tth d L) (.dma cc0_scratch10.sem) (default : HIx 1) 524288 (GD0 d L xq xc (2 * (k.val + 1)) qa)
            ∗ ((cVm).view.loc (tth d L) ↦[Finset.univ \ (cAll).view.set]{qa} xc)
            ∗ Transfers.Flight countersEmb (tth d L) (.dma cc0_scratch11.sem) (default : HIx 1) 524288 (GD1 d L xq xc (2 * (k.val + 1) + 1) qb)
            ∗ ((cVm).view.loc (tth d L) ↦[Finset.univ \ (cAll).view.set]{qb} xc)
            ∗ Transfers.Flight countersEmb (tth d L) (.dma cc0_scratch12.sem) (default : HIx 1) 524288 (OD0 d L go (2 * k.val))
            ∗ Transfers.Flight countersEmb (tth d L) (.dma cc0_scratch13.sem) (default : HIx 1) 524288 (OD1 d L go (2 * k.val + 1))) : sProp 𝕄)

/-- Trip `k` of the chunk loop for \`0 < k < 24\`: from the two gathers in flight and the two write-outs in flight to the next two. -/
def OuterMid (d : Dev nD) (L : grid0.Coords) (xq : Buf (Elt F) (qLoc d)) (xc : Buf (Elt F) (cLoc d)) (xb : Buf (Elt F) (bLoc d)) (go : Buf (Elt F) (oLoc d))
    (qq qa qb : PosShare TreeShare) : Prop :=
  ∀ (m0 : Buf (Elt F) (oLoc d)) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (k : Fin k0_t3_loop.trips) (_hk0 : 0 < k.val) (_hk24 : k.val < 24) (v2 : BitVec 32)
    (fI0 : Buf (Elt F) ((tth d L).loc cc0_scratch0)) (_hI0 : ChunkI xq L (2 * k.val) fI0)
    (fI1 : Buf (Elt F) ((tth d L).loc cc0_scratch1)) (_hI1 : ChunkI xq L (2 * k.val + 1) fI1)
    (fR : Buf (Elt F) ((tth d L).loc cc0_scratch9)),
    iprop(levAts (K (F := F)).L (K (F := F)).lev
        ∗ owes (tth d L) O W
        ∗ (qLoc d ↦{qq} xq)
        ∗ ((tth d L).loc cc0_scratch8 ↦{fullShare} xb)
        ∗ ((tth d L).loc cc0_scratch9 ↦{fullShare} fR)
        ∗ semVal (tth d L, .dma cc0_scoped3.sem) 0
        ∗ semVal (tth d L, .dma cc0_scoped4.sem) 0
        ∗ ((tth d L).loc cc0_scratch0 ↦{fullShare} fI0)
        ∗ ((tth d L).loc cc0_scratch1 ↦{fullShare} fI1)
        ∗ Transfers.Flight countersEmb (tth d L) (.dma cc0_scratch10.sem) (default : HIx 1) 524288 (GD0 d L xq xc (2 * k.val) qa)
        ∗ ((cVm).view.loc (tth d L) ↦[Finset.univ \ (cAll).view.set]{qa} xc)
        ∗ Transfers.Flight countersEmb (tth d L) (.dma cc0_scratch11.sem) (default : HIx 1) 524288 (GD1 d L xq xc (2 * k.val + 1) qb)
        ∗ ((cVm).view.loc (tth d L) ↦[Finset.univ \ (cAll).view.set]{qb} xc)
        ∗ Transfers.Flight countersEmb (tth d L) (.dma cc0_scratch12.sem) (default : HIx 1) 524288 (OD0 d L go (2 * k.val - 2))
        ∗ Transfers.Flight countersEmb (tth d L) (.dma cc0_scratch13.sem) (default : HIx 1) 524288 (OD1 d L go (2 * k.val - 1))
        ∗ (oLoc d ↦[blkSet (bk L (2 * k.val))]{fullShare} m0)
        ∗ (oLoc d ↦[blkSet (bk L (2 * k.val + 1))]{fullShare} m0))
      ⊢ (wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          fun _ => iprop((∃ W', ⌜∀ p ∈ W', p ∈ W ∨ p.2 = none⌝ ∗ owes (tth d L) O W')
            ∗ (qLoc d ↦{qq} xq)
            ∗ ((tth d L).loc cc0_scratch8 ↦{fullShare} xb)
            ∗ (∃ fR', (tth d L).loc cc0_scratch9 ↦{fullShare} fR')
            ∗ semVal (tth d L, .dma cc0_scoped3.sem) 0
            ∗ semVal (tth d L, .dma cc0_scoped4.sem) 0
            ∗ (∃ fI0', ((tth d L).loc cc0_scratch0 ↦{fullShare} fI0') ∗ ⌜ChunkI xq L (2 * (k.val + 1)) fI0'⌝)
            ∗ (∃ fI1', ((tth d L).loc cc0_scratch1 ↦{fullShare} fI1') ∗ ⌜ChunkI xq L (2 * (k.val + 1) + 1) fI1'⌝)
            ∗ Transfers.Flight countersEmb (tth d L) (.dma cc0_scratch10.sem) (default : HIx 1) 524288 (GD0 d L xq xc (2 * (k.val + 1)) qa)
            ∗ ((cVm).view.loc (tth d L) ↦[Finset.univ \ (cAll).view.set]{qa} xc)
            ∗ Transfers.Flight countersEmb (tth d L) (.dma cc0_scratch11.sem) (default : HIx 1) 524288 (GD1 d L xq xc (2 * (k.val + 1) + 1) qb)
            ∗ ((cVm).view.loc (tth d L) ↦[Finset.univ \ (cAll).view.set]{qb} xc)
            ∗ Transfers.Flight countersEmb (tth d L) (.dma cc0_scratch12.sem) (default : HIx 1) 524288 (OD0 d L go (2 * k.val))
            ∗ Transfers.Flight countersEmb (tth d L) (.dma cc0_scratch13.sem) (default : HIx 1) 524288 (OD1 d L go (2 * k.val + 1))
            ∗ (oLoc d ↦[blkSet (bk L (2 * k.val - 2))]{fullShare} go)
            ∗ (oLoc d ↦[blkSet (bk L (2 * k.val - 1))]{fullShare} go)) : sProp 𝕄)

/-- Trip `k` of the chunk loop at \`k = 24\` (no chunk left to fetch): from the two gathers in flight and the two write-outs in flight to the next two write-outs. -/
def OuterLast (d : Dev nD) (L : grid0.Coords) (xq : Buf (Elt F) (qLoc d)) (xc : Buf (Elt F) (cLoc d)) (xb : Buf (Elt F) (bLoc d)) (go : Buf (Elt F) (oLoc d))
    (qq qa qb : PosShare TreeShare) : Prop :=
  ∀ (m0 : Buf (Elt F) (oLoc d)) (O : CellTallies nD τ sig (HIx 1)) (W : Waits sig (HIx 1)) (_hO : ∀ g, O g none = 0)
    (_hle : ∀ j, (xq j).toNat ≤ 99999) (_hcl : ∀ j, (xc j).toNat ≤ 15) (_hgo : ∀ R e, go (ix2 R e) = Cert.Decode.flatAt xq xc xb R e)
    (k : Fin k0_t3_loop.trips) (_hk24 : k.val = 24) (v2 : BitVec 32)
    (fI0 : Buf (Elt F) ((tth d L).loc cc0_scratch0)) (_hI0 : ChunkI xq L (2 * k.val) fI0)
    (fI1 : Buf (Elt F) ((tth d L).loc cc0_scratch1)) (_hI1 : ChunkI xq L (2 * k.val + 1) fI1)
    (fR : Buf (Elt F) ((tth d L).loc cc0_scratch9)),
    iprop(levAts (K (F := F)).L (K (F := F)).lev
        ∗ owes (tth d L) O W
        ∗ (qLoc d ↦{qq} xq)
        ∗ ((tth d L).loc cc0_scratch8 ↦{fullShare} xb)
        ∗ ((tth d L).loc cc0_scratch9 ↦{fullShare} fR)
        ∗ semVal (tth d L, .dma cc0_scoped3.sem) 0
        ∗ semVal (tth d L, .dma cc0_scoped4.sem) 0
        ∗ ((tth d L).loc cc0_scratch0 ↦{fullShare} fI0)
        ∗ ((tth d L).loc cc0_scratch1 ↦{fullShare} fI1)
        ∗ Transfers.Flight countersEmb (tth d L) (.dma cc0_scratch10.sem) (default : HIx 1) 524288 (GD0 d L xq xc (2 * k.val) qa)
        ∗ ((cVm).view.loc (tth d L) ↦[Finset.univ \ (cAll).view.set]{qa} xc)
        ∗ Transfers.Flight countersEmb (tth d L) (.dma cc0_scratch11.sem) (default : HIx 1) 524288 (GD1 d L xq xc (2 * k.val + 1) qb)
        ∗ ((cVm).view.loc (tth d L) ↦[Finset.univ \ (cAll).view.set]{qb} xc)
        ∗ Transfers.Flight countersEmb (tth d L) (.dma cc0_scratch12.sem) (default : HIx 1) 524288 (OD0 d L go (2 * k.val - 2))
        ∗ Transfers.Flight countersEmb (tth d L) (.dma cc0_scratch13.sem) (default : HIx 1) 524288 (OD1 d L go (2 * k.val - 1))
        ∗ (oLoc d ↦[blkSet (bk L (2 * k.val))]{fullShare} m0)
        ∗ (oLoc d ↦[blkSet (bk L (2 * k.val + 1))]{fullShare} m0))
      ⊢ (wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          fun _ => iprop((∃ W', ⌜∀ p ∈ W', p ∈ W ∨ p.2 = none⌝ ∗ owes (tth d L) O W')
            ∗ (qLoc d ↦{qq} xq)
            ∗ ((tth d L).loc cc0_scratch8 ↦{fullShare} xb)
            ∗ (∃ fR', (tth d L).loc cc0_scratch9 ↦{fullShare} fR')
            ∗ semVal (tth d L, .dma cc0_scoped3.sem) 0
            ∗ semVal (tth d L, .dma cc0_scoped4.sem) 0
            ∗ (∃ f, (tth d L).loc cc0_scratch0 ↦{fullShare} f)
            ∗ (∃ f, (tth d L).loc cc0_scratch1 ↦{fullShare} f)
            ∗ (∃ f, (tth d L).loc cc0_scratch2 ↦{fullShare} f)
            ∗ (∃ f, (tth d L).loc cc0_scratch3 ↦{fullShare} f)
            ∗ (∃ f, (tth d L).loc cc0_scratch4 ↦{fullShare} f)
            ∗ (∃ f, (tth d L).loc cc0_scratch5 ↦{fullShare} f)
            ∗ semVal (tth d L, .dma cc0_scratch10.sem) 0
            ∗ semVal (tth d L, .dma cc0_scratch11.sem) 0
            ∗ ((cVm).view.loc (tth d L) ↦{qa} xc)
            ∗ ((cVm).view.loc (tth d L) ↦{qb} xc)
            ∗ Transfers.Flight countersEmb (tth d L) (.dma cc0_scratch12.sem) (default : HIx 1) 524288 (OD0 d L go (2 * k.val))
            ∗ Transfers.Flight countersEmb (tth d L) (.dma cc0_scratch13.sem) (default : HIx 1) 524288 (OD1 d L go (2 * k.val + 1))
            ∗ (oLoc d ↦[blkSet (bk L (2 * k.val - 2))]{fullShare} go)
            ∗ (oLoc d ↦[blkSet (bk L (2 * k.val - 1))]{fullShare} go)) : sProp 𝕄)

end Cert.Proof.KB

end
-- ==== Proof.KBBlocks.lean ====
/-
  A tile's fifty blocks of the result through its loop.

  The tile writes its blocks two per trip of a 25-trip loop, and a block's write-out is only collected one
  trip later. So at the head of trip `k` the blocks fall in three runs: block `j` with `j + 2 < 2k` is written
  and back in hand at the decoded contents; blocks `2k - 2` and `2k - 1` (when `k ≥ 1`) are on their way out
  and in nobody's hand; block `j` with `2k ≤ j` is still in hand at what the launch memory held.

  A trip takes blocks `2k` and `2k + 1` out and, given back the two blocks of the trip before, is at the head
  of trip `k + 1`. Entry by entry: what trip `k` holds of block `j` is "the two it takes" times "the rest",
  and what trip `k + 1` holds is that same rest times "the two it is given"; a product over all fifty blocks of
  a product is the product of the products, and a product of fifty factors of which all but two are trivial
  is the product of those two.
-/
import proofs.«215948_g88356067214102_cont_sun_c4_674_26_alg».proof.Proof.KBCore

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Products with trivial factors -/

section Products

variable {M : Type} [URA M]

/-- The trivial assertion is a unit of the product, on the left … -/
theorem emp_sep_eq (P : sProp M) : iprop(emp ∗ P) = P := Idealize.SL.BI.equiv_iff.mp Idealize.SL.BI.emp_sep
/-- … and on the right. -/
theorem sep_emp_eq (P : sProp M) : iprop(P ∗ emp) = P := Idealize.SL.BI.equiv_iff.mp Idealize.SL.BI.sep_emp

/-- A product whose factors off a set are trivial is the product over the set. -/
theorem bigSep_ite_eq {I : Type} (s : Finset I) (p : I → Prop) [DecidablePred p] (Φ : I → sProp M) :
    (bigSep s fun i => if p i then Φ i else iprop(emp)) = bigSep (s.filter p) Φ :=
  (Idealize.SL.BI.bigSep_filter s p Φ).symm

/-- A product over `Fin n` whose factors are trivial except at two places `a ≠ b` is the product of those two. -/
theorem bigSep_fin_pair {n : Nat} (a b : Nat) (ha : a < n) (hb : b < n) (hab : a ≠ b) (p : Fin n → Prop) [DecidablePred p]
    (hp : ∀ j, p j ↔ (j.val = a ∨ j.val = b)) (Φ : Nat → sProp M) :
    (bigSep Finset.univ fun j : Fin n => if p j then Φ j.val else iprop(emp)) = iprop(Φ a ∗ Φ b) := by
  rw [bigSep_ite_eq Finset.univ p fun j : Fin n => Φ j.val]
  have hs : Finset.univ.filter p = {(⟨a, ha⟩ : Fin n), ⟨b, hb⟩} := by
    ext j
    simp only [Finset.mem_filter, Finset.mem_univ, true_and, Finset.mem_insert, Finset.mem_singleton, Fin.ext_iff, hp]
  rw [hs, SparseCore.bigSep_insert' (by simp only [Finset.mem_singleton, Fin.ext_iff]; exact hab), bigSep_singleton]

/-- A product all of whose factors are trivial is trivial. -/
theorem bigSep_ite_none {I : Type} (s : Finset I) (p : I → Prop) [DecidablePred p] (hp : ∀ j, ¬p j) (Φ : I → sProp M) :
    (bigSep s fun j => if p j then Φ j else iprop(emp)) = iprop(emp) := by
  rw [bigSep_congr (Ψ := fun _ => iprop(emp)) fun j _ => if_neg (hp j)]
  exact bigSep_emp_const s

/-! ## The three runs, for any two families of block assertions -/

variable (A G : Nat → sProp M)

/-- What is in hand of block `j` at the head of trip `k`: `G j` once written and collected, `A j` while untouched,
    nothing while on its way out. -/
def res (k : Nat) (j : Fin 50) : sProp M :=
  if j.val + 2 < 2 * k then G j.val else if 2 * k ≤ j.val then A j.val else iprop(emp)

/-- The two blocks trip `k` takes. -/
def resT (k : Nat) (j : Fin 50) : sProp M := if j.val = 2 * k ∨ j.val = 2 * k + 1 then A j.val else iprop(emp)
/-- What trip `k` holds besides them. -/
def resR (k : Nat) (j : Fin 50) : sProp M := if j.val = 2 * k ∨ j.val = 2 * k + 1 then iprop(emp) else res A G k j
/-- The two blocks trip `k` is given back: those of the trip before. -/
def resE (k : Nat) (j : Fin 50) : sProp M := if j.val + 2 = 2 * k ∨ j.val + 1 = 2 * k then G j.val else iprop(emp)

theorem res_eq_take (k : Nat) (j : Fin 50) : res A G k j = iprop(resT A k j ∗ resR A G k j) := by
  have := j.isLt
  unfold resT resR res
  split_ifs <;> first | rfl | omega | simp only [emp_sep_eq, sep_emp_eq]

theorem res_succ_eq (k : Nat) (j : Fin 50) : res A G (k + 1) j = iprop(resR A G k j ∗ resE G k j) := by
  have := j.isLt
  unfold resR resE res
  split_ifs <;> first | rfl | omega | simp only [emp_sep_eq, sep_emp_eq]

theorem bigSep_resT (k : Nat) (hk : k < 25) : bigSep Finset.univ (resT A k) = iprop(A (2 * k) ∗ A (2 * k + 1)) :=
  bigSep_fin_pair (2 * k) (2 * k + 1) (by omega) (by omega) (by omega) (fun j : Fin 50 => j.val = 2 * k ∨ j.val = 2 * k + 1)
    (fun _ => Iff.rfl) A

theorem bigSep_resE (k : Nat) (hk : k < 25) :
    bigSep Finset.univ (resE G k) = (if 0 < k then iprop(G (2 * k - 2) ∗ G (2 * k - 1)) else iprop(emp)) := by
  by_cases hk0 : 0 < k
  · rw [if_pos hk0]
    exact bigSep_fin_pair (2 * k - 2) (2 * k - 1) (by omega) (by omega) (by omega)
      (fun j : Fin 50 => j.val + 2 = 2 * k ∨ j.val + 1 = 2 * k) (fun j => by constructor <;> intro h <;> omega) G
  · rw [if_neg hk0]
    exact bigSep_ite_none Finset.univ (fun j : Fin 50 => j.val + 2 = 2 * k ∨ j.val + 1 = 2 * k) (fun j => by omega)
      fun j : Fin 50 => G j.val

/-- At the head of the first trip every block is untouched. -/
theorem res_init : (bigSep Finset.univ fun j : Fin 50 => A j.val) ⊢ bigSep Finset.univ (res A G 0) := by
  refine Entails.of_eq (bigSep_congr fun j _ => ?_)
  unfold res
  rw [if_neg (by omega), if_pos (by omega)]

/-- A trip takes its two blocks out, and given back the two of the trip before is at the head of the next trip. -/
theorem res_take (k : Nat) (hk : k < 25) :
    bigSep Finset.univ (res A G k)
      ⊢ iprop(A (2 * k) ∗ A (2 * k + 1)
          ∗ ((if 0 < k then iprop(G (2 * k - 2) ∗ G (2 * k - 1)) else iprop(emp)) -∗ bigSep Finset.univ (res A G (k + 1)))) := by
  have e1 : bigSep Finset.univ (res A G k) = iprop((A (2 * k) ∗ A (2 * k + 1)) ∗ bigSep Finset.univ (resR A G k)) :=
    (bigSep_congr fun j _ => res_eq_take A G k j).trans
      ((bigSep_sep' Finset.univ (resT A k) (resR A G k)).trans
        (congrArg (fun X => iprop(X ∗ bigSep Finset.univ (resR A G k))) (bigSep_resT A k hk)))
  have e2 : bigSep Finset.univ (res A G (k + 1))
      = iprop(bigSep Finset.univ (resR A G k) ∗ (if 0 < k then iprop(G (2 * k - 2) ∗ G (2 * k - 1)) else iprop(emp))) :=
    (bigSep_congr fun j _ => res_succ_eq A G k j).trans
      ((bigSep_sep' Finset.univ (resR A G k) (resE G k)).trans
        (congrArg (fun X => iprop(bigSep Finset.univ (resR A G k) ∗ X)) (bigSep_resE G k hk)))
  rw [e1, e2]
  exact Laws.sep_assoc.1.trans (Laws.sep_mono_right (Laws.sep_mono_right (Laws.wand_intro .rfl)))

/-- After the last trip, with its two blocks collected, every block is written. -/
theorem res_final : iprop(bigSep Finset.univ (res A G 25) ∗ G 48 ∗ G 49) ⊢ bigSep Finset.univ fun j : Fin 50 => G j.val := by
  have h : ∀ j : Fin 50, G j.val = iprop(res A G 25 j ∗ (if j.val = 48 ∨ j.val = 49 then G j.val else iprop(emp))) := by
    intro j
    have := j.isLt
    unfold res
    split_ifs <;> first | rfl | omega | simp only [emp_sep_eq, sep_emp_eq]
  refine Entails.of_eq (Eq.symm ?_)
  exact (bigSep_congr fun j _ => h j).trans
    ((bigSep_sep' Finset.univ (res A G 25) fun j : Fin 50 => if j.val = 48 ∨ j.val = 49 then G j.val else iprop(emp)).trans
      (congrArg (fun X => iprop(bigSep Finset.univ (res A G 25) ∗ X))
        (bigSep_fin_pair 48 49 (by omega) (by omega) (by omega) (fun j : Fin 50 => j.val = 48 ∨ j.val = 49) (fun _ => Iff.rfl) G)))

end Products

/-! ## The tile's blocks -/

variable (d : Dev nD) (L : grid0.Coords) (go m0 : Buf (Elt F) (oLoc d))

/-- What the tile owns of block j at the head of trip k. -/
def blockRes (k : Nat) (j : Fin 50) : sProp 𝕄 :=
  if j.val + 2 < 2 * k then (oLoc d ↦[blkSet (bk L j.val)]{fullShare} go)
  else if 2 * k ≤ j.val then (oLoc d ↦[blkSet (bk L j.val)]{fullShare} m0)
  else iprop(emp)

theorem blocks_init :
    (bigSep Finset.univ fun j : Fin 50 => oLoc d ↦[blkSet (bk L j.val)]{fullShare} m0)
      ⊢ (bigSep Finset.univ (blockRes d L go m0 0) : sProp 𝕄) :=
  res_init (fun n => oLoc d ↦[blkSet (bk L n)]{fullShare} m0) (fun n => oLoc d ↦[blkSet (bk L n)]{fullShare} go)

theorem blocks_take (k : Nat) (hk : k < 25) :
    (bigSep Finset.univ (blockRes d L go m0 k) : sProp 𝕄)
      ⊢ iprop((oLoc d ↦[blkSet (bk L (2 * k))]{fullShare} m0) ∗ (oLoc d ↦[blkSet (bk L (2 * k + 1))]{fullShare} m0)
          ∗ ((if 0 < k then iprop((oLoc d ↦[blkSet (bk L (2 * k - 2))]{fullShare} go) ∗ (oLoc d ↦[blkSet (bk L (2 * k - 1))]{fullShare} go)) else iprop(emp))
              -∗ bigSep Finset.univ (blockRes d L go m0 (k + 1)))) :=
  res_take (fun n => oLoc d ↦[blkSet (bk L n)]{fullShare} m0) (fun n => oLoc d ↦[blkSet (bk L n)]{fullShare} go) k hk

theorem blocks_final :
    iprop((bigSep Finset.univ (blockRes d L go m0 25) : sProp 𝕄) ∗ (oLoc d ↦[blkSet (bk L 48)]{fullShare} go) ∗ (oLoc d ↦[blkSet (bk L 49)]{fullShare} go))
      ⊢ (bigSep Finset.univ fun j : Fin 50 => oLoc d ↦[blkSet (bk L j.val)]{fullShare} go) :=
  res_final (fun n => oLoc d ↦[blkSet (bk L n)]{fullShare} m0) (fun n => oLoc d ↦[blkSet (bk L n)]{fullShare} go)

end Cert.Proof.KB

end
-- ==== Proof.KBOuter.lean ====
import proofs.«215948_g88356067214102_cont_sun_c4_674_26_alg».proof.Proof.KBOuterStmt
import proofs.«215948_g88356067214102_cont_sun_c4_674_26_alg».proof.Proof.KBBlocks

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sQ0" => (Memref.whole Cert.Kernel.cc0_scratch2 : Memref Cert.Kernel.sig Kind.scVector Space.vmem Cert.Kernel.S128 EltTy.i32)
local notation "sQ1" => (Memref.whole Cert.Kernel.cc0_scratch3 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)
local notation "qV" => (Memref.whole Cert.Kernel.main_v0_scv : Memref Cert.Kernel.sig Kind.scVector Space.hbm Cert.Kernel.S204800 EltTy.i32)
local notation "cVm" => (Memref.whole Cert.Kernel.main_v1_scv : Memref Cert.Kernel.sig Kind.scVector Space.hbm Cert.Kernel.S25000x128 EltTy.i32)
local notation "bV" => (Memref.whole Cert.Kernel.main_v2_scv : Memref Cert.Kernel.sig Kind.scVector Space.hbm Cert.Kernel.S64 EltTy.f32)
local notation "oV" => (Memref.whole Cert.Kernel.main_v3_scv : Memref Cert.Kernel.sig Kind.scVector Space.hbm Cert.Kernel.S204800x128 EltTy.f32)

variable [FloatOps F]

/-! The chunk loop's invariant, and that each of the three kinds of trip carries it from one trip's head to the next. -/

/-- The chunk loop's invariant at the head of trip `k` (`0 ≤ k ≤ 25`). -/
def oInv (d : Dev nD) (L : grid0.Coords) (xq : Buf (Elt F) (qLoc d)) (xc : Buf (Elt F) (cLoc d)) (xb : Buf (Elt F) (bLoc d)) (go m0 : Buf (Elt F) (oLoc d))
    (qq qa qb : PosShare TreeShare) (O : CellTallies nD τ sig (HIx 1)) (W : Waits sig (HIx 1)) (k : Nat) (_ : PUnit) : sProp 𝕄 :=
  iprop((∃ W', ⌜∀ p ∈ W', p ∈ W ∨ p.2 = none⌝ ∗ owes (tth d L) O W')
    ∗ (qLoc d ↦{qq} xq) ∗ ((tth d L).loc cc0_scratch8 ↦{fullShare} xb) ∗ (∃ fR, (tth d L).loc cc0_scratch9 ↦{fullShare} fR)
    ∗ semVal (tth d L, .dma cc0_scoped3.sem) 0 ∗ semVal (tth d L, .dma cc0_scoped4.sem) 0
    ∗ (if k < 25 then
        iprop((∃ fI0, ((tth d L).loc cc0_scratch0 ↦{fullShare} fI0) ∗ ⌜ChunkI xq L (2 * k) fI0⌝)
          ∗ (∃ fI1, ((tth d L).loc cc0_scratch1 ↦{fullShare} fI1) ∗ ⌜ChunkI xq L (2 * k + 1) fI1⌝)
          ∗ Transfers.Flight countersEmb (tth d L) (.dma cc0_scratch10.sem) (default : HIx 1) 524288 (GD0 d L xq xc (2 * k) qa)
          ∗ ((cVm).view.loc (tth d L) ↦[Finset.univ \ (cAll).view.set]{qa} xc)
          ∗ Transfers.Flight countersEmb (tth d L) (.dma cc0_scratch11.sem) (default : HIx 1) 524288 (GD1 d L xq xc (2 * k + 1) qb)
          ∗ ((cVm).view.loc (tth d L) ↦[Finset.univ \ (cAll).view.set]{qb} xc))
      else
        iprop((∃ f, (tth d L).loc cc0_scratch0 ↦{fullShare} f)
          ∗ (∃ f, (tth d L).loc cc0_scratch1 ↦{fullShare} f)
          ∗ (∃ f, (tth d L).loc cc0_scratch2 ↦{fullShare} f)
          ∗ (∃ f, (tth d L).loc cc0_scratch3 ↦{fullShare} f)
          ∗ (∃ f, (tth d L).loc cc0_scratch4 ↦{fullShare} f)
          ∗ (∃ f, (tth d L).loc cc0_scratch5 ↦{fullShare} f)
          ∗ semVal (tth d L, .dma cc0_scratch10.sem) 0
          ∗ semVal (tth d L, .dma cc0_scratch11.sem) 0
          ∗ ((cVm).view.loc (tth d L) ↦{qa} xc)
          ∗ ((cVm).view.loc (tth d L) ↦{qb} xc)))
    ∗ (if 0 < k then
        iprop(Transfers.Flight countersEmb (tth d L) (.dma cc0_scratch12.sem) (default : HIx 1) 524288 (OD0 d L go (2 * k - 2))
          ∗ Transfers.Flight countersEmb (tth d L) (.dma cc0_scratch13.sem) (default : HIx 1) 524288 (OD1 d L go (2 * k - 1)))
      else
        iprop((∃ fO0, (tth d L).loc cc0_scratch6 ↦{fullShare} fO0)
          ∗ semVal (tth d L, .dma cc0_scratch12.sem) 0
          ∗ (∃ fO1, (tth d L).loc cc0_scratch7 ↦{fullShare} fO1)
          ∗ semVal (tth d L, .dma cc0_scratch13.sem) 0))
    ∗ bigSep Finset.univ (blockRes d L go m0 k))

/-- The invariant with the level facts beside it: what the loop carries from trip to trip. -/
def oInvL (d : Dev nD) (L : grid0.Coords) (xq : Buf (Elt F) (qLoc d)) (xc : Buf (Elt F) (cLoc d)) (xb : Buf (Elt F) (bLoc d)) (go m0 : Buf (Elt F) (oLoc d))
    (qq qa qb : PosShare TreeShare) (O : CellTallies nD τ sig (HIx 1)) (W : Waits sig (HIx 1)) (k : Nat) (u : PUnit) : sProp 𝕄 :=
  iprop(levAts (K (F := F)).L (K (F := F)).lev ∗ oInv d L xq xc xb go m0 qq qa qb O W k u)

variable (d : Dev nD) (L : grid0.Coords) (xq : Buf (Elt F) (qLoc d)) (xc : Buf (Elt F) (cLoc d)) (xb : Buf (Elt F) (bLoc d)) (go m0 : Buf (Elt F) (oLoc d))
  (qq qa qb : PosShare TreeShare) (O : CellTallies nD τ sig (HIx 1)) (W : Waits sig (HIx 1))

theorem oInv_eq (k : Nat) :
    oInv d L xq xc xb go m0 qq qa qb O W k ⟨⟩
      = iprop((∃ W', ⌜∀ p ∈ W', p ∈ W ∨ p.2 = none⌝ ∗ owes (tth d L) O W')
        ∗ (qLoc d ↦{qq} xq) ∗ ((tth d L).loc cc0_scratch8 ↦{fullShare} xb) ∗ (∃ fR, (tth d L).loc cc0_scratch9 ↦{fullShare} fR)
        ∗ semVal (tth d L, .dma cc0_scoped3.sem) 0 ∗ semVal (tth d L, .dma cc0_scoped4.sem) 0
        ∗ (if k < 25 then
            iprop((∃ fI0, ((tth d L).loc cc0_scratch0 ↦{fullShare} fI0) ∗ ⌜ChunkI xq L (2 * k) fI0⌝)
              ∗ (∃ fI1, ((tth d L).loc cc0_scratch1 ↦{fullShare} fI1) ∗ ⌜ChunkI xq L (2 * k + 1) fI1⌝)
              ∗ Transfers.Flight countersEmb (tth d L) (.dma cc0_scratch10.sem) (default : HIx 1) 524288 (GD0 d L xq xc (2 * k) qa)
              ∗ ((cVm).view.loc (tth d L) ↦[Finset.univ \ (cAll).view.set]{qa} xc)
              ∗ Transfers.Flight countersEmb (tth d L) (.dma cc0_scratch11.sem) (default : HIx 1) 524288 (GD1 d L xq xc (2 * k + 1) qb)
              ∗ ((cVm).view.loc (tth d L) ↦[Finset.univ \ (cAll).view.set]{qb} xc))
          else
            iprop((∃ f, (tth d L).loc cc0_scratch0 ↦{fullShare} f)
              ∗ (∃ f, (tth d L).loc cc0_scratch1 ↦{fullShare} f)
              ∗ (∃ f, (tth d L).loc cc0_scratch2 ↦{fullShare} f)
              ∗ (∃ f, (tth d L).loc cc0_scratch3 ↦{fullShare} f)
              ∗ (∃ f, (tth d L).loc cc0_scratch4 ↦{fullShare} f)
              ∗ (∃ f, (tth d L).loc cc0_scratch5 ↦{fullShare} f)
              ∗ semVal (tth d L, .dma cc0_scratch10.sem) 0
              ∗ semVal (tth d L, .dma cc0_scratch11.sem) 0
              ∗ ((cVm).view.loc (tth d L) ↦{qa} xc)
              ∗ ((cVm).view.loc (tth d L) ↦{qb} xc)))
        ∗ (if 0 < k then
            iprop(Transfers.Flight countersEmb (tth d L) (.dma cc0_scratch12.sem) (default : HIx 1) 524288 (OD0 d L go (2 * k - 2))
              ∗ Transfers.Flight countersEmb (tth d L) (.dma cc0_scratch13.sem) (default : HIx 1) 524288 (OD1 d L go (2 * k - 1)))
          else
            iprop((∃ fO0, (tth d L).loc cc0_scratch6 ↦{fullShare} fO0)
              ∗ semVal (tth d L, .dma cc0_scratch12.sem) 0
              ∗ (∃ fO1, (tth d L).loc cc0_scratch7 ↦{fullShare} fO1)
              ∗ semVal (tth d L, .dma cc0_scratch13.sem) 0))
        ∗ bigSep Finset.univ (blockRes d L go m0 k)) := rfl

/-- What a trip that fetches again leaves, with the blocks of the next trip's head, is the invariant there. -/
theorem oInv_succ_lt (k : Nat) (hk : k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ fI0', ((tth d L).loc cc0_scratch0 ↦{fullShare} fI0') ∗ ⌜ChunkI xq L (2 * (k + 1)) fI0'⌝)
        ∗ (∃ fI1', ((tth d L).loc cc0_scratch1 ↦{fullShare} fI1') ∗ ⌜ChunkI xq L (2 * (k + 1) + 1) fI1'⌝)
        ∗ Transfers.Flight countersEmb (tth d L) (.dma cc0_scratch10.sem) (default : HIx 1) 524288 (GD0 d L xq xc (2 * (k + 1)) qa)
        ∗ ((cVm).view.loc (tth d L) ↦[Finset.univ \ (cAll).view.set]{qa} xc)
        ∗ Transfers.Flight countersEmb (tth d L) (.dma cc0_scratch11.sem) (default : HIx 1) 524288 (GD1 d L xq xc (2 * (k + 1) + 1) qb)
        ∗ ((cVm).view.loc (tth d L) ↦[Finset.univ \ (cAll).view.set]{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1)))
        ∗ bigSep Finset.univ (blockRes d L go m0 (k + 1)))
      ⊢ oInv d L xq xc xb go m0 qq qa qb O W (k + 1) ⟨⟩ := by
  rw [oInv_eq, if_pos hk, if_pos (by omega : 0 < k + 1), show 2 * (k + 1) - 2 = 2 * k from by omega, show 2 * (k + 1) - 1 = 2 * k + 1 from by omega]
  iintro ⟨⟨⟨%W', %hW', HO⟩, Hq, Hs8, HR, Hp3, Hp4, HI0, HI1, F10, Ca, F11, Cb, F12, F13⟩, Hblk⟩
  isplitl [HO]
  · iexists W'; isplitr
    · ipureintro; exact fun p hp => (hW' p hp).elim (hW'' p) Or.inr
    · iexact HO
  isplitl [Hq]; · iexact Hq
  isplitl [Hs8]; · iexact Hs8
  isplitl [HR]; · iexact HR
  isplitl [Hp3]; · iexact Hp3
  isplitl [Hp4]; · iexact Hp4
  isplitl [HI0 HI1 F10 Ca F11 Cb]
  · isplitl [HI0]; · iexact HI0
    isplitl [HI1]; · iexact HI1
    isplitl [F10]; · iexact F10
    isplitl [Ca]; · iexact Ca
    isplitl [F11]; · iexact F11
    iexact Cb
  isplitl [F12 F13]
  · isplitl [F12]; · iexact F12
    iexact F13
  iexact Hblk

/-- What the last trip leaves, with the blocks after it, is the invariant after the loop. -/
theorem oInv_succ_last (k : Nat) (hk : ¬ k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ f, (tth d L).loc cc0_scratch0 ↦{fullShare} f)
        ∗ (∃ f, (tth d L).loc cc0_scratch1 ↦{fullShare} f)
        ∗ (∃ f, (tth d L).loc cc0_scratch2 ↦{fullShare} f)
        ∗ (∃ f, (tth d L).loc cc0_scratch3 ↦{fullShare} f)
        ∗ (∃ f, (tth d L).loc cc0_scratch4 ↦{fullShare} f)
        ∗ (∃ f, (tth d L).loc cc0_scratch5 ↦{fullShare} f)
        ∗ semVal (tth d L, .dma cc0_scratch10.sem) 0
        ∗ semVal (tth d L, .dma cc0_scratch11.sem) 0
        ∗ ((cVm).view.loc (tth d L) ↦{qa} xc)
        ∗ ((cVm).view.loc (tth d L) ↦{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1)))
        ∗ bigSep Finset.univ (blockRes d L go m0 (k + 1)))
      ⊢ oInv d L xq xc xb go m0 qq qa qb O W (k + 1) ⟨⟩ := by
  rw [oInv_eq, if_neg hk, if_pos (by omega : 0 < k + 1), show 2 * (k + 1) - 2 = 2 * k from by omega, show 2 * (k + 1) - 1 = 2 * k + 1 from by omega]
  iintro ⟨⟨⟨%W', %hW', HO⟩, Hq, Hs8, HR, Hp3, Hp4, E0, E1, E2, E3, E4, E5, Hm10, Hm11, HcA, HcB, F12, F13⟩, Hblk⟩
  isplitl [HO]
  · iexists W'; isplitr
    · ipureintro; exact fun p hp => (hW' p hp).elim (hW'' p) Or.inr
    · iexact HO
  isplitl [Hq]; · iexact Hq
  isplitl [Hs8]; · iexact Hs8
  isplitl [HR]; · iexact HR
  isplitl [Hp3]; · iexact Hp3
  isplitl [Hp4]; · iexact Hp4
  isplitl [E0 E1 E2 E3 E4 E5 Hm10 Hm11 HcA HcB]
  · isplitl [E0]; · iexact E0
    isplitl [E1]; · iexact E1
    isplitl [E2]; · iexact E2
    isplitl [E3]; · iexact E3
    isplitl [E4]; · iexact E4
    isplitl [E5]; · iexact E5
    isplitl [Hm10]; · iexact Hm10
    isplitl [Hm11]; · iexact Hm11
    isplitl [HcA]; · iexact HcA
    iexact HcB
  isplitl [F12 F13]
  · isplitl [F12]; · iexact F12
    iexact F13
  iexact Hblk

/-- The first trip's post, and nothing owed for the blocks: the invariant at the second trip's head. -/
theorem post_first (k : Nat) (hk : k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ fI0', ((tth d L).loc cc0_scratch0 ↦{fullShare} fI0') ∗ ⌜ChunkI xq L (2 * (k + 1)) fI0'⌝)
        ∗ (∃ fI1', ((tth d L).loc cc0_scratch1 ↦{fullShare} fI1') ∗ ⌜ChunkI xq L (2 * (k + 1) + 1) fI1'⌝)
        ∗ Transfers.Flight countersEmb (tth d L) (.dma cc0_scratch10.sem) (default : HIx 1) 524288 (GD0 d L xq xc (2 * (k + 1)) qa)
        ∗ ((cVm).view.loc (tth d L) ↦[Finset.univ \ (cAll).view.set]{qa} xc)
        ∗ Transfers.Flight countersEmb (tth d L) (.dma cc0_scratch11.sem) (default : HIx 1) 524288 (GD1 d L xq xc (2 * (k + 1) + 1) qb)
        ∗ ((cVm).view.loc (tth d L) ↦[Finset.univ \ (cAll).view.set]{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1)))
        ∗ (iprop(emp) -∗ bigSep Finset.univ (blockRes d L go m0 (k + 1))))
      ⊢ oInv d L xq xc xb go m0 qq qa qb O W (k + 1) ⟨⟩ := by
  iintro ⟨H, Hwand⟩
  iapply (oInv_succ_lt d L xq xc xb go m0 qq qa qb O W k hk W'' hW'')
  isplitl [H]; · iexact H
  iapply Hwand; iempintro

/-- A middle trip's post, its two returned blocks paying for the next head's blocks. -/
theorem post_mid (k : Nat) (hk : k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ fI0', ((tth d L).loc cc0_scratch0 ↦{fullShare} fI0') ∗ ⌜ChunkI xq L (2 * (k + 1)) fI0'⌝)
        ∗ (∃ fI1', ((tth d L).loc cc0_scratch1 ↦{fullShare} fI1') ∗ ⌜ChunkI xq L (2 * (k + 1) + 1) fI1'⌝)
        ∗ Transfers.Flight countersEmb (tth d L) (.dma cc0_scratch10.sem) (default : HIx 1) 524288 (GD0 d L xq xc (2 * (k + 1)) qa)
        ∗ ((cVm).view.loc (tth d L) ↦[Finset.univ \ (cAll).view.set]{qa} xc)
        ∗ Transfers.Flight countersEmb (tth d L) (.dma cc0_scratch11.sem) (default : HIx 1) 524288 (GD1 d L xq xc (2 * (k + 1) + 1) qb)
        ∗ ((cVm).view.loc (tth d L) ↦[Finset.univ \ (cAll).view.set]{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1))
        ∗ (oLoc d ↦[blkSet (bk L (2 * k - 2))]{fullShare} go)
        ∗ (oLoc d ↦[blkSet (bk L (2 * k - 1))]{fullShare} go))
        ∗ (iprop((oLoc d ↦[blkSet (bk L (2 * k - 2))]{fullShare} go) ∗ (oLoc d ↦[blkSet (bk L (2 * k - 1))]{fullShare} go)) -∗ bigSep Finset.univ (blockRes d L go m0 (k + 1))))
      ⊢ oInv d L xq xc xb go m0 qq qa qb O W (k + 1) ⟨⟩ := by
  iintro ⟨⟨HA, Hq, Hs8, HR, Hp3, Hp4, HI0, HI1, F10, Ca, F11, Cb, F12, F13, Hg0, Hg1⟩, Hwand⟩
  iapply (oInv_succ_lt d L xq xc xb go m0 qq qa qb O W k hk W'' hW'')
  isplitl [HA Hq Hs8 HR Hp3 Hp4 HI0 HI1 F10 Ca F11 Cb F12 F13]
  · isplitl [HA]; · iexact HA
    isplitl [Hq]; · iexact Hq
    isplitl [Hs8]; · iexact Hs8
    isplitl [HR]; · iexact HR
    isplitl [Hp3]; · iexact Hp3
    isplitl [Hp4]; · iexact Hp4
    isplitl [HI0]; · iexact HI0
    isplitl [HI1]; · iexact HI1
    isplitl [F10]; · iexact F10
    isplitl [Ca]; · iexact Ca
    isplitl [F11]; · iexact F11
    isplitl [Cb]; · iexact Cb
    isplitl [F12]; · iexact F12
    iexact F13
  iapply Hwand
  isplitl [Hg0]; · iexact Hg0
  iexact Hg1

/-- The last trip's post, its two returned blocks paying for the blocks after the loop. -/
theorem post_last (k : Nat) (hk : ¬ k + 1 < 25) (W'' : Waits sig (HIx 1)) (hW'' : ∀ p ∈ W'', p ∈ W ∨ p.2 = none) :
    iprop(((∃ W', ⌜∀ p ∈ W', p ∈ W'' ∨ p.2 = none⌝ ∗ owes (tth d L) O W')
        ∗ (qLoc d ↦{qq} xq)
        ∗ ((tth d L).loc cc0_scratch8 ↦{fullShare} xb)
        ∗ (∃ fR', (tth d L).loc cc0_scratch9 ↦{fullShare} fR')
        ∗ semVal (tth d L, .dma cc0_scoped3.sem) 0
        ∗ semVal (tth d L, .dma cc0_scoped4.sem) 0
        ∗ (∃ f, (tth d L).loc cc0_scratch0 ↦{fullShare} f)
        ∗ (∃ f, (tth d L).loc cc0_scratch1 ↦{fullShare} f)
        ∗ (∃ f, (tth d L).loc cc0_scratch2 ↦{fullShare} f)
        ∗ (∃ f, (tth d L).loc cc0_scratch3 ↦{fullShare} f)
        ∗ (∃ f, (tth d L).loc cc0_scratch4 ↦{fullShare} f)
        ∗ (∃ f, (tth d L).loc cc0_scratch5 ↦{fullShare} f)
        ∗ semVal (tth d L, .dma cc0_scratch10.sem) 0
        ∗ semVal (tth d L, .dma cc0_scratch11.sem) 0
        ∗ ((cVm).view.loc (tth d L) ↦{qa} xc)
        ∗ ((cVm).view.loc (tth d L) ↦{qb} xc)
        ∗ Transfers.Flight countersEmb (tth d L) (.dma cc0_scratch12.sem) (default : HIx 1) 524288 (OD0 d L go (2 * k))
        ∗ Transfers.Flight countersEmb (tth d L) (.dma cc0_scratch13.sem) (default : HIx 1) 524288 (OD1 d L go (2 * k + 1))
        ∗ (oLoc d ↦[blkSet (bk L (2 * k - 2))]{fullShare} go)
        ∗ (oLoc d ↦[blkSet (bk L (2 * k - 1))]{fullShare} go))
        ∗ (iprop((oLoc d ↦[blkSet (bk L (2 * k - 2))]{fullShare} go) ∗ (oLoc d ↦[blkSet (bk L (2 * k - 1))]{fullShare} go)) -∗ bigSep Finset.univ (blockRes d L go m0 (k + 1))))
      ⊢ oInv d L xq xc xb go m0 qq qa qb O W (k + 1) ⟨⟩ := by
  iintro ⟨⟨HA, Hq, Hs8, HR, Hp3, Hp4, E0, E1, E2, E3, E4, E5, Hm10, Hm11, HcA, HcB, F12, F13, Hg0, Hg1⟩, Hwand⟩
  iapply (oInv_succ_last d L xq xc xb go m0 qq qa qb O W k hk W'' hW'')
  isplitl [HA Hq Hs8 HR Hp3 Hp4 E0 E1 E2 E3 E4 E5 Hm10 Hm11 HcA HcB F12 F13]
  · isplitl [HA]; · iexact HA
    isplitl [Hq]; · iexact Hq
    isplitl [Hs8]; · iexact Hs8
    isplitl [HR]; · iexact HR
    isplitl [Hp3]; · iexact Hp3
    isplitl [Hp4]; · iexact Hp4
    isplitl [E0]; · iexact E0
    isplitl [E1]; · iexact E1
    isplitl [E2]; · iexact E2
    isplitl [E3]; · iexact E3
    isplitl [E4]; · iexact E4
    isplitl [E5]; · iexact E5
    isplitl [Hm10]; · iexact Hm10
    isplitl [Hm11]; · iexact Hm11
    isplitl [HcA]; · iexact HcA
    isplitl [HcB]; · iexact HcB
    isplitl [F12]; · iexact F12
    iexact F13
  iapply Hwand
  isplitl [Hg0]; · iexact Hg0
  iexact Hg1

/-- A trip of the chunk loop carries the invariant from its head to the next trip's. -/
theorem outer_step (hO : ∀ g, O g none = 0) (hle : ∀ j, (xq j).toNat ≤ 99999) (hcl : ∀ j, (xc j).toNat ≤ 15)
    (hgo : ∀ R e, go (ix2 R e) = Cert.Decode.flatAt xq xc xb R e)
    (h1 : OuterFirst d L xq xc xb go qq qa qb) (h2 : OuterMid d L xq xc xb go qq qa qb) (h3 : OuterLast d L xq xc xb go qq qa qb)
    (v2 : BitVec 32) (k : Fin k0_t3_loop.trips) :
    iprop(levAts (K (F := F)).L (K (F := F)).lev ∗ oInv d L xq xc xb go m0 qq qa qb O W k.val ⟨⟩)
      ⊢ wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          (fun _ => oInv d L xq xc xb go m0 qq qa qb O W (k.val + 1) ⟨⟩) := by
  have hk25 : k.val < 25 := k.isLt
  have bt := blocks_take d L go m0 k.val hk25
  by_cases hk0 : k.val = 0
  · -- the first trip: nothing is on its way out yet
    have hn : ¬ 0 < k.val := by omega
    rw [if_neg hn] at bt
    rw [oInv_eq d L xq xc xb go m0 qq qa qb O W k.val, if_pos hk25, if_neg hn]
    iintro ⟨#Hlv, ⟨%W'', %hW'', HO⟩, Hq, Hs8, ⟨%fR, Hs9⟩, Hp3, Hp4, ⟨⟨%fI0, Hs0, %hI0⟩, ⟨%fI1, Hs1, %hI1⟩, F10, Ca, F11, Cb⟩, ⟨⟨%fO0, Hs6⟩, Hm12, ⟨%fO1, Hs7⟩, Hm13⟩, Hblk⟩
    ihave Hb := bt $$ Hblk
    icases Hb with ⟨Hb0, Hb1, Hwand⟩
    ihave Hwp := (h1 m0 O W'' hO hle hcl hgo k hk0 v2 fI0 hI0 fI1 hI1 fR fO0 fO1) $$ [HO Hq Hs8 Hs9 Hp3 Hp4 Hs0 Hs1 F10 Ca F11 Cb Hs6 Hm12 Hs7 Hm13 Hb0 Hb1]
    · isplitr; · iexact Hlv
      isplitl [HO]; · iexact HO
      isplitl [Hq]; · iexact Hq
      isplitl [Hs8]; · iexact Hs8
      isplitl [Hs9]; · iexact Hs9
      isplitl [Hp3]; · iexact Hp3
      isplitl [Hp4]; · iexact Hp4
      isplitl [Hs0]; · iexact Hs0
      isplitl [Hs1]; · iexact Hs1
      isplitl [F10]; · iexact F10
      isplitl [Ca]; · iexact Ca
      isplitl [F11]; · iexact F11
      isplitl [Cb]; · iexact Cb
      isplitl [Hs6]; · iexact Hs6
      isplitl [Hm12]; · iexact Hm12
      isplitl [Hs7]; · iexact Hs7
      isplitl [Hm13]; · iexact Hm13
      isplitl [Hb0]; · iexact Hb0
      iexact Hb1
    iapply (wp_mono frame _ Set.univ fun _ => post_first d L xq xc xb go m0 qq qa qb O W k.val (by omega) W'' hW'')
    iapply (wp_frame_r frame _ Set.univ)
    isplitl [Hwp]; · iexact Hwp
    iexact Hwand
  · have hp : 0 < k.val := by omega
    rw [if_pos hp] at bt
    rw [oInv_eq d L xq xc xb go m0 qq qa qb O W k.val, if_pos hk25, if_pos hp]
    iintro ⟨#Hlv, ⟨%W'', %hW'', HO⟩, Hq, Hs8, ⟨%fR, Hs9⟩, Hp3, Hp4, ⟨⟨%fI0, Hs0, %hI0⟩, ⟨%fI1, Hs1, %hI1⟩, F10, Ca, F11, Cb⟩, ⟨F12, F13⟩, Hblk⟩
    ihave Hb := bt $$ Hblk
    icases Hb with ⟨Hb0, Hb1, Hwand⟩
    by_cases hk24 : k.val = 24
    · -- the last trip: nothing left to fetch
      ihave Hwp := (h3 m0 O W'' hO hle hcl hgo k hk24 v2 fI0 hI0 fI1 hI1 fR) $$ [HO Hq Hs8 Hs9 Hp3 Hp4 Hs0 Hs1 F10 Ca F11 Cb F12 F13 Hb0 Hb1]
      · isplitr; · iexact Hlv
        isplitl [HO]; · iexact HO
        isplitl [Hq]; · iexact Hq
        isplitl [Hs8]; · iexact Hs8
        isplitl [Hs9]; · iexact Hs9
        isplitl [Hp3]; · iexact Hp3
        isplitl [Hp4]; · iexact Hp4
        isplitl [Hs0]; · iexact Hs0
        isplitl [Hs1]; · iexact Hs1
        isplitl [F10]; · iexact F10
        isplitl [Ca]; · iexact Ca
        isplitl [F11]; · iexact F11
        isplitl [Cb]; · iexact Cb
        isplitl [F12]; · iexact F12
        isplitl [F13]; · iexact F13
        isplitl [Hb0]; · iexact Hb0
        iexact Hb1
      iapply (wp_mono frame _ Set.univ fun _ => post_last d L xq xc xb go m0 qq qa qb O W k.val (by omega) W'' hW'')
      iapply (wp_frame_r frame _ Set.univ)
      isplitl [Hwp]; · iexact Hwp
      iexact Hwand
    · -- a middle trip
      ihave Hwp := (h2 m0 O W'' hO hle hcl hgo k hp (by omega) v2 fI0 hI0 fI1 hI1 fR) $$ [HO Hq Hs8 Hs9 Hp3 Hp4 Hs0 Hs1 F10 Ca F11 Cb F12 F13 Hb0 Hb1]
      · isplitr; · iexact Hlv
        isplitl [HO]; · iexact HO
        isplitl [Hq]; · iexact Hq
        isplitl [Hs8]; · iexact Hs8
        isplitl [Hs9]; · iexact Hs9
        isplitl [Hp3]; · iexact Hp3
        isplitl [Hp4]; · iexact Hp4
        isplitl [Hs0]; · iexact Hs0
        isplitl [Hs1]; · iexact Hs1
        isplitl [F10]; · iexact F10
        isplitl [Ca]; · iexact Ca
        isplitl [F11]; · iexact F11
        isplitl [Cb]; · iexact Cb
        isplitl [F12]; · iexact F12
        isplitl [F13]; · iexact F13
        isplitl [Hb0]; · iexact Hb0
        iexact Hb1
      iapply (wp_mono frame _ Set.univ fun _ => post_mid d L xq xc xb go m0 qq qa qb O W k.val (by omega) W'' hW'')
      iapply (wp_frame_r frame _ Set.univ)
      isplitl [Hwp]; · iexact Hwp
      iexact Hwand

/-- The same, the level facts carried along. -/
theorem outer_step' (hO : ∀ g, O g none = 0) (hle : ∀ j, (xq j).toNat ≤ 99999) (hcl : ∀ j, (xc j).toNat ≤ 15)
    (hgo : ∀ R e, go (ix2 R e) = Cert.Decode.flatAt xq xc xb R e)
    (h1 : OuterFirst d L xq xc xb go qq qa qb) (h2 : OuterMid d L xq xc xb go qq qa qb) (h3 : OuterLast d L xq xc xb go qq qa qb)
    (v2 : BitVec 32) (k : Fin k0_t3_loop.trips) :
    iprop(levAts (K (F := F)).L (K (F := F)).lev ∗ oInv d L xq xc xb go m0 qq qa qb O W k.val ⟨⟩)
      ⊢ wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          (fun _ => iprop(levAts (K (F := F)).L (K (F := F)).lev ∗ oInv d L xq xc xb go m0 qq qa qb O W (k.val + 1) ⟨⟩)) := by
  iintro ⟨#Hlv, H⟩
  iapply (wp_frame_l frame _ Set.univ)
  isplitr; · iexact Hlv
  iapply (outer_step d L xq xc xb go m0 qq qa qb O W hO hle hcl hgo h1 h2 h3 v2 k)
  isplitr; · iexact Hlv
  iexact H

/-- A trip of the chunk loop carries the loop's invariant, level facts and all, from its head to the next trip's. -/
theorem outer_stepL (hO : ∀ g, O g none = 0) (hle : ∀ j, (xq j).toNat ≤ 99999) (hcl : ∀ j, (xc j).toNat ≤ 15)
    (hgo : ∀ R e, go (ix2 R e) = Cert.Decode.flatAt xq xc xb R e)
    (h1 : OuterFirst d L xq xc xb go qq qa qb) (h2 : OuterMid d L xq xc xb go qq qa qb) (h3 : OuterLast d L xq xc xb go qq qa qb)
    (v2 : BitVec 32) (k : Fin k0_t3_loop.trips) :
    oInvL d L xq xc xb go m0 qq qa qb O W k.val ⟨⟩
      ⊢ wp frame (wpE (defs₀ (F := F)) 𝒱₀ (tth d L) none) Set.univ
          (k0_t3_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 k ())
          (fun _ => oInvL d L xq xc xb go m0 qq qa qb O W (k.val + 1) ⟨⟩) :=
  outer_step' d L xq xc xb go m0 qq qa qb O W hO hle hcl hgo h1 h2 h3 v2 k

end Cert.Proof.KB

end
-- ==== Proof.KBRow.lean ====
/-
  One row of a decoded chunk.

  A tile holds a chunk of 128 query words `gI`, the 128 rows `gC` of the packed code table those words
  name (row `r` of `gC` is row `gI[r] / 4` of the packed table, every entry a code `≤ 15`) and the flat
  list `gB` of 64 centroid floats. Entry `e` of the decoded vector of query `r` of the chunk is

      gB[4 * gC[r, 32 (gI[r] % 4) + e / 4] + e % 4].

  It is produced sixteen entries at a time. Piece `t < 8` covers entries `16 t ‥ 16 t + 15`; lane `l` of
  the piece is entry `e = 16 t + l`, for which `e / 4 = 4 t + l / 4` and `e % 4 = l % 4`. So lane `l`
  reads the code at column `32 (gI[r] % 4) + 4 t + l / 4` of row `r`, and then the centroid float at
  position `4 code + l % 4`. The column is computed as `((w & 3) << 5) + (4 t + (l >> 2))` and the
  position as `(code << 2) + (l & 3)` in 32-bit words; no operand is large enough for a sum to wrap.

  This file states what each index vector holds lane by lane, that every index is inside the array it
  reads, and that each piece is the sixteen entries of the decoded row it should be.
-/
import Idealize.ShloMosaic.Lib.Pipeline.Value
import proofs.«215948_g88356067214102_cont_sun_c4_674_26_alg».proof.Proof.KBSetup
import proofs.«215948_g88356067214102_cont_sun_c4_674_26_alg».proof.Proof.Words

noncomputable section

namespace Cert.Proof.KB

open Cert.Kernel Cert.Kernel.Gen Idealize.ShloMosaic Idealize.ShloMosaic.ValueIdx

variable {F : FTy → Type} [FloatOps F]

/-! ## The decoded row -/

/-- Entry `e` of the decoded vector of query `r` of a chunk. -/
def rowGAt (gI : Vec F S128 .i32) (gC : Vec F S128x128 .i32) (gB : Vec F S64 .f32) (r e : Fin 128) : Elt F .f32 :=
  gB (ix1 (Cert.Decode.bookPos (gC (ix2 r (Cert.Decode.packCol (gI (ix1 r)).toNat e))).toNat e))

/-- The decoded chunk, index by index. -/
def rowG (gI : Vec F S128 .i32) (gC : Vec F S128x128 .i32) (gB : Vec F S64 .f32) : S128x128.Idx → Elt F .f32 :=
  fun y => rowGAt gI gC gB (y 0) (y 1)

theorem rowG_ix2 (gI : Vec F S128 .i32) (gC : Vec F S128x128 .i32) (gB : Vec F S64 .f32) (r e : Fin 128) :
    rowG gI gC gB (ix2 r e) = rowGAt gI gC gB r e := rfl

/-! ## Lanes, and a gather read at a lane -/

/-- Every index of a sixteen-lane vector is the index of its lane. -/
theorem exists_lane (x : S16.Idx) : ∃ l : Fin 16, x = ix1 l := ⟨x 0, eq_ix1 (n := 16) x⟩

/-- A gather from a list, read at `x`: the list at the word the index vector holds at `x`. -/
theorem loadIdx1_eq {e : EltTy} {n : Nat} (f : Vec F ⟨1, ![n]⟩ e) (v : IVec S16 32)
    (h : ∀ a x, ((![v] : Fin 1 → IVec S16 32) a x).toNat < (⟨1, ![n]⟩ : Shape).size a) (x : S16.Idx) (p : Fin n)
    (hp : (v x).toNat = p.val) : loadIdx f ![v] h x = f (ix1 p) := by
  unfold loadIdx
  refine congrArg f (funext fun a => ?_)
  match a with
  | ⟨0, _⟩ => exact Fin.ext hp

/-- A gather from a table, read at `x`: the table at the row and column the two index vectors hold at `x`. -/
theorem loadIdx2_eq {e : EltTy} {n0 n1 : Nat} (f : Vec F ⟨2, ![n0, n1]⟩ e) (u v : IVec S16 32)
    (h : ∀ a x, ((![u, v] : Fin 2 → IVec S16 32) a x).toNat < (⟨2, ![n0, n1]⟩ : Shape).size a) (x : S16.Idx)
    (p : Fin n0) (q : Fin n1) (hp : (u x).toNat = p.val) (hq : (v x).toNat = q.val) :
    loadIdx f ![u, v] h x = f (ix2 p q) := by
  unfold loadIdx
  refine congrArg f (funext fun a => ?_)
  match a with
  | ⟨0, _⟩ => exact Fin.ext hp
  | ⟨1, _⟩ => exact Fin.ext hq

/-- A gather from an array of codes holds codes. -/
theorem loadIdx_le15 {s t : Shape} (f : Vec F s .i32) (hf : ∀ j, (f j).toNat ≤ 15) (idxs : Fin s.rank → IVec t 32)
    (h : ∀ a x, (idxs a x).toNat < s.size a) (x : t.Idx) : (loadIdx f idxs h x).toNat ≤ 15 := hf _

/-- A gather from the chunk's query words through an index vector whose every lane is `r` holds the
    query word `r` in every lane. -/
theorem loadIdx1_splat (f : Vec F S128 .i32) (r : Fin 128) (v59 : IVec S16 32) (h59 : ∀ x, v59 x = BitVec.ofNat 32 r.val)
    (h : ∀ a x, ((![v59] : Fin 1 → IVec S16 32) a x).toNat < S128.size a) (x : S16.Idx) :
    loadIdx f ![v59] h x = f (ix1 r) :=
  loadIdx1_eq f v59 h x r (by rw [h59 x]; exact Cert.Words.ofNat_toNat_lt r.val r.isLt)

/-- An index vector whose every lane is a row number `r < 128` is inside a 128-row array. -/
theorem splat_lt (r : Fin 128) (v59 : IVec S16 32) (h59 : ∀ x, v59 x = BitVec.ofNat 32 r.val) (x : S16.Idx) :
    (v59 x).toNat < 128 := by
  rw [h59 x, Cert.Words.ofNat_toNat_lt r.val r.isLt]; exact r.isLt

/-! ## The in-range conditions in general form -/

/-- One index vector into the 128 query words. -/
theorem chk_idx (v59 : IVec S16 32) (h59 : ∀ x, (v59 x).toNat < 128) :
    ∀ (a : Fin 1) (x : S16.Idx), ((![v59] : Fin 1 → IVec S16 32) a x).toNat < S128.size a := by
  intro a x
  match a with
  | ⟨0, _⟩ => exact h59 x

/-- A row vector and a column vector into the 128 × 128 codes. -/
theorem chk_col (v59 col : IVec S16 32) (h59 : ∀ x, (v59 x).toNat < 128) (hcol : ∀ x, (col x).toNat < 128) :
    ∀ (a : Fin 2) (x : S16.Idx), ((![v59, col] : Fin 2 → IVec S16 32) a x).toNat < S128x128.size a := by
  intro a x
  match a with
  | ⟨0, _⟩ => exact h59 x
  | ⟨1, _⟩ => exact hcol x

/-- One index vector into the 64 centroid floats. -/
theorem chk_pos (pos : IVec S16 32) (hpos : ∀ x, (pos x).toNat < 64) :
    ∀ (a : Fin 1) (x : S16.Idx), ((![pos] : Fin 1 → IVec S16 32) a x).toNat < S64.size a := by
  intro a x
  match a with
  | ⟨0, _⟩ => exact hpos x

/-! ## One piece, in general form -/

/-- Piece `t` of row `r`: if lane `l` of the column vector holds `32 (gI[r] % 4) + 4 t + l / 4` and lane
    `l` of the position vector is `(code << 2) + (l & 3)` of the code gathered at that column of row
    `r`, then lane `l` of the floats gathered at the positions is entry `16 t + l` of the decoded row. -/
theorem piece_generic (gI : Vec F S128 .i32) (gC : Vec F S128x128 .i32) (gB : Vec F S64 .f32) (r : Fin 128)
    (t : Nat) (ht : t < 8) (v59 col pos : IVec S16 32)
    (h59 : ∀ x, v59 x = BitVec.ofNat 32 r.val) (hC : ∀ j, (gC j).toNat ≤ 15)
    (h2 : ∀ a x, ((![v59, col] : Fin 2 → IVec S16 32) a x).toNat < S128x128.size a)
    (h3 : ∀ a x, ((![pos] : Fin 1 → IVec S16 32) a x).toNat < S64.size a)
    (hcol : ∀ l : Fin 16, (col (ix1 l)).toNat = 32 * ((gI (ix1 r)).toNat % 4) + 4 * t + l.val / 4)
    (hpos : ∀ l : Fin 16, pos (ix1 l)
      = IntOp.addi (IntOp.shli .vector (loadIdx gC ![v59, col] h2 (ix1 l)) 2#32) (IntOp.andi (BitVec.ofNat 32 l.val) 3#32))
    (l : Fin 16) (he : 16 * t + l.val < 128) :
    loadIdx gB ![pos] h3 (ix1 l) = rowGAt gI gC gB r ⟨16 * t + l.val, he⟩ := by
  have hl := l.isLt
  -- the code this lane reads: column 32 (w % 4) + (16 t + l) / 4 of row r
  have hc : loadIdx gC ![v59, col] h2 (ix1 l)
      = gC (ix2 r (Cert.Decode.packCol (gI (ix1 r)).toNat ⟨16 * t + l.val, he⟩)) :=
    loadIdx2_eq gC v59 col h2 (ix1 l) r _ (by rw [h59]; exact Cert.Words.ofNat_toNat_lt r.val r.isLt)
      (by rw [hcol l]
          show _ = 32 * ((gI (ix1 r)).toNat % 4) + (16 * t + l.val) / 4
          omega)
  have hle : (loadIdx gC ![v59, col] h2 (ix1 l)).toNat ≤ 15 := loadIdx_le15 gC hC _ h2 _
  unfold rowGAt
  rw [← hc]
  -- the float this lane reads: position 4 code + (16 t + l) % 4, below 64
  refine loadIdx1_eq gB pos h3 (ix1 l) _ ?_
  rw [hpos l, Cert.Words.pos_toNat _ hle l]
  show _ = min (4 * (loadIdx gC ![v59, col] h2 (ix1 l)).toNat + (16 * t + l.val) % 4) 63
  omega

/-! ## The index vectors lane by lane -/

/-- Lane `l` of the shifted lane numbers: `l >> 2`. -/
theorem laneQuarter_apply (l : Fin 16) : k0_pay1 (ix1 l) = IntOp.shrsi .vector (BitVec.ofNat 32 l.val) 2#32 := by
  show IntOp.shrsi .vector (BitVec.ofNat 32 (0 * 16 + l.val)) 2#32 = _
  rw [Nat.zero_mul, Nat.zero_add]

/-- Lane `l` of the masked lane numbers: `l & 3`. -/
theorem laneRem_apply (l : Fin 16) : k0_pay2 (ix1 l) = IntOp.andi (BitVec.ofNat 32 l.val) 3#32 := by
  show IntOp.andi (BitVec.ofNat 32 (0 * 16 + l.val)) 3#32 = _
  rw [Nat.zero_mul, Nat.zero_add]

/-- The column vector of piece 0, lane `l`: `32 (w % 4) + 0 + l / 4` for the query word `w` in that lane. -/
theorem col0_toNat (v60 : Vec F S16 .i32) (l : Fin 16) :
    ((k0_pay4 v60) (ix1 l)).toNat = 32 * ((v60 (ix1 l)).toNat % 4) + 4 * 0 + l.val / 4 := by
  show (IntOp.addi (IntOp.shli .vector (IntOp.andi (v60 (ix1 l)) 3#32) 5#32) (IntOp.addi 0#32 (k0_pay1 (ix1 l)))).toNat = _
  rw [laneQuarter_apply]
  exact Cert.Words.col_toNat' 0#32 0 (by omega) rfl (v60 (ix1 l)) l

theorem col0_lt (v60 : Vec F S16 .i32) (x : S16.Idx) : ((k0_pay4 v60) x).toNat < 128 := by
  obtain ⟨l, rfl⟩ := exists_lane x
  rw [col0_toNat]
  have := l.isLt
  omega

/-- The column vector of piece 1, lane `l`: `32 (w % 4) + 4 + l / 4` for the query word `w` in that lane. -/
theorem col1_toNat (v60 : Vec F S16 .i32) (l : Fin 16) :
    ((k0_pay5 v60) (ix1 l)).toNat = 32 * ((v60 (ix1 l)).toNat % 4) + 4 * 1 + l.val / 4 := by
  show (IntOp.addi (IntOp.shli .vector (IntOp.andi (v60 (ix1 l)) 3#32) 5#32) (IntOp.addi 4#32 (k0_pay1 (ix1 l)))).toNat = _
  rw [laneQuarter_apply]
  exact Cert.Words.col_toNat' 4#32 1 (by omega) rfl (v60 (ix1 l)) l

theorem col1_lt (v60 : Vec F S16 .i32) (x : S16.Idx) : ((k0_pay5 v60) x).toNat < 128 := by
  obtain ⟨l, rfl⟩ := exists_lane x
  rw [col1_toNat]
  have := l.isLt
  omega

/-- The column vector of piece 2, lane `l`: `32 (w % 4) + 8 + l / 4` for the query word `w` in that lane. -/
theorem col2_toNat (v60 : Vec F S16 .i32) (l : Fin 16) :
    ((k0_pay6 v60) (ix1 l)).toNat = 32 * ((v60 (ix1 l)).toNat % 4) + 4 * 2 + l.val / 4 := by
  show (IntOp.addi (IntOp.shli .vector (IntOp.andi (v60 (ix1 l)) 3#32) 5#32) (IntOp.addi 8#32 (k0_pay1 (ix1 l)))).toNat = _
  rw [laneQuarter_apply]
  exact Cert.Words.col_toNat' 8#32 2 (by omega) rfl (v60 (ix1 l)) l

theorem col2_lt (v60 : Vec F S16 .i32) (x : S16.Idx) : ((k0_pay6 v60) x).toNat < 128 := by
  obtain ⟨l, rfl⟩ := exists_lane x
  rw [col2_toNat]
  have := l.isLt
  omega

/-- The column vector of piece 3, lane `l`: `32 (w % 4) + 12 + l / 4` for the query word `w` in that lane. -/
theorem col3_toNat (v60 : Vec F S16 .i32) (l : Fin 16) :
    ((k0_pay7 v60) (ix1 l)).toNat = 32 * ((v60 (ix1 l)).toNat % 4) + 4 * 3 + l.val / 4 := by
  show (IntOp.addi (IntOp.shli .vector (IntOp.andi (v60 (ix1 l)) 3#32) 5#32) (IntOp.addi 12#32 (k0_pay1 (ix1 l)))).toNat = _
  rw [laneQuarter_apply]
  exact Cert.Words.col_toNat' 12#32 3 (by omega) rfl (v60 (ix1 l)) l

theorem col3_lt (v60 : Vec F S16 .i32) (x : S16.Idx) : ((k0_pay7 v60) x).toNat < 128 := by
  obtain ⟨l, rfl⟩ := exists_lane x
  rw [col3_toNat]
  have := l.isLt
  omega

/-- The column vector of piece 4, lane `l`: `32 (w % 4) + 16 + l / 4` for the query word `w` in that lane. -/
theorem col4_toNat (v60 : Vec F S16 .i32) (l : Fin 16) :
    ((k0_pay8 v60) (ix1 l)).toNat = 32 * ((v60 (ix1 l)).toNat % 4) + 4 * 4 + l.val / 4 := by
  show (IntOp.addi (IntOp.shli .vector (IntOp.andi (v60 (ix1 l)) 3#32) 5#32) (IntOp.addi 16#32 (k0_pay1 (ix1 l)))).toNat = _
  rw [laneQuarter_apply]
  exact Cert.Words.col_toNat' 16#32 4 (by omega) rfl (v60 (ix1 l)) l

theorem col4_lt (v60 : Vec F S16 .i32) (x : S16.Idx) : ((k0_pay8 v60) x).toNat < 128 := by
  obtain ⟨l, rfl⟩ := exists_lane x
  rw [col4_toNat]
  have := l.isLt
  omega

/-- The column vector of piece 5, lane `l`: `32 (w % 4) + 20 + l / 4` for the query word `w` in that lane. -/
theorem col5_toNat (v60 : Vec F S16 .i32) (l : Fin 16) :
    ((k0_pay9 v60) (ix1 l)).toNat = 32 * ((v60 (ix1 l)).toNat % 4) + 4 * 5 + l.val / 4 := by
  show (IntOp.addi (IntOp.shli .vector (IntOp.andi (v60 (ix1 l)) 3#32) 5#32) (IntOp.addi 20#32 (k0_pay1 (ix1 l)))).toNat = _
  rw [laneQuarter_apply]
  exact Cert.Words.col_toNat' 20#32 5 (by omega) rfl (v60 (ix1 l)) l

theorem col5_lt (v60 : Vec F S16 .i32) (x : S16.Idx) : ((k0_pay9 v60) x).toNat < 128 := by
  obtain ⟨l, rfl⟩ := exists_lane x
  rw [col5_toNat]
  have := l.isLt
  omega

/-- The column vector of piece 6, lane `l`: `32 (w % 4) + 24 + l / 4` for the query word `w` in that lane. -/
theorem col6_toNat (v60 : Vec F S16 .i32) (l : Fin 16) :
    ((k0_pay11 k0_pay1 (k0_pay3 v60) k0_pay10) (ix1 l)).toNat = 32 * ((v60 (ix1 l)).toNat % 4) + 4 * 6 + l.val / 4 := by
  show (IntOp.addi (IntOp.shli .vector (IntOp.andi (v60 (ix1 l)) 3#32) 5#32) (IntOp.addi 24#32 (k0_pay1 (ix1 l)))).toNat = _
  rw [laneQuarter_apply]
  exact Cert.Words.col_toNat' 24#32 6 (by omega) rfl (v60 (ix1 l)) l

theorem col6_lt (v60 : Vec F S16 .i32) (x : S16.Idx) : ((k0_pay11 k0_pay1 (k0_pay3 v60) k0_pay10) x).toNat < 128 := by
  obtain ⟨l, rfl⟩ := exists_lane x
  rw [col6_toNat]
  have := l.isLt
  omega

/-- The column vector of piece 7, lane `l`: `32 (w % 4) + 28 + l / 4` for the query word `w` in that lane. -/
theorem col7_toNat (v60 : Vec F S16 .i32) (l : Fin 16) :
    ((k0_pay12 k0_pay1 (k0_pay3 v60)) (ix1 l)).toNat = 32 * ((v60 (ix1 l)).toNat % 4) + 4 * 7 + l.val / 4 := by
  show (IntOp.addi (IntOp.shli .vector (IntOp.andi (v60 (ix1 l)) 3#32) 5#32) (IntOp.addi 28#32 (k0_pay1 (ix1 l)))).toNat = _
  rw [laneQuarter_apply]
  exact Cert.Words.col_toNat' 28#32 7 (by omega) rfl (v60 (ix1 l)) l

theorem col7_lt (v60 : Vec F S16 .i32) (x : S16.Idx) : ((k0_pay12 k0_pay1 (k0_pay3 v60)) x).toNat < 128 := by
  obtain ⟨l, rfl⟩ := exists_lane x
  rw [col7_toNat]
  have := l.isLt
  omega

/-- The position vector of piece 0, lane `l`: `(code << 2) + (l & 3)` for the code in that lane. -/
theorem pos0_apply (v68 : Vec F S16 .i32) (l : Fin 16) :
    k0_pay13 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos0_lt (v68 : Vec F S16 .i32) (h : ∀ x, (v68 x).toNat ≤ 15) (x : S16.Idx) : (k0_pay13 k0_pay2 v68 x).toNat < 64 := by
  obtain ⟨l, rfl⟩ := exists_lane x
  rw [pos0_apply]
  exact Cert.Words.pos_lt _ (h _) l

/-- The position vector of piece 1, lane `l`: `(code << 2) + (l & 3)` for the code in that lane. -/
theorem pos1_apply (v68 : Vec F S16 .i32) (l : Fin 16) :
    k0_pay14 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos1_lt (v68 : Vec F S16 .i32) (h : ∀ x, (v68 x).toNat ≤ 15) (x : S16.Idx) : (k0_pay14 k0_pay2 v68 x).toNat < 64 := by
  obtain ⟨l, rfl⟩ := exists_lane x
  rw [pos1_apply]
  exact Cert.Words.pos_lt _ (h _) l

/-- The position vector of piece 2, lane `l`: `(code << 2) + (l & 3)` for the code in that lane. -/
theorem pos2_apply (v68 : Vec F S16 .i32) (l : Fin 16) :
    k0_pay15 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos2_lt (v68 : Vec F S16 .i32) (h : ∀ x, (v68 x).toNat ≤ 15) (x : S16.Idx) : (k0_pay15 k0_pay2 v68 x).toNat < 64 := by
  obtain ⟨l, rfl⟩ := exists_lane x
  rw [pos2_apply]
  exact Cert.Words.pos_lt _ (h _) l

/-- The position vector of piece 3, lane `l`: `(code << 2) + (l & 3)` for the code in that lane. -/
theorem pos3_apply (v68 : Vec F S16 .i32) (l : Fin 16) :
    k0_pay16 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos3_lt (v68 : Vec F S16 .i32) (h : ∀ x, (v68 x).toNat ≤ 15) (x : S16.Idx) : (k0_pay16 k0_pay2 v68 x).toNat < 64 := by
  obtain ⟨l, rfl⟩ := exists_lane x
  rw [pos3_apply]
  exact Cert.Words.pos_lt _ (h _) l

/-- The position vector of piece 4, lane `l`: `(code << 2) + (l & 3)` for the code in that lane. -/
theorem pos4_apply (v68 : Vec F S16 .i32) (l : Fin 16) :
    k0_pay17 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos4_lt (v68 : Vec F S16 .i32) (h : ∀ x, (v68 x).toNat ≤ 15) (x : S16.Idx) : (k0_pay17 k0_pay2 v68 x).toNat < 64 := by
  obtain ⟨l, rfl⟩ := exists_lane x
  rw [pos4_apply]
  exact Cert.Words.pos_lt _ (h _) l

/-- The position vector of piece 5, lane `l`: `(code << 2) + (l & 3)` for the code in that lane. -/
theorem pos5_apply (v68 : Vec F S16 .i32) (l : Fin 16) :
    k0_pay18 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos5_lt (v68 : Vec F S16 .i32) (h : ∀ x, (v68 x).toNat ≤ 15) (x : S16.Idx) : (k0_pay18 k0_pay2 v68 x).toNat < 64 := by
  obtain ⟨l, rfl⟩ := exists_lane x
  rw [pos5_apply]
  exact Cert.Words.pos_lt _ (h _) l

/-- The position vector of piece 6, lane `l`: `(code << 2) + (l & 3)` for the code in that lane. -/
theorem pos6_apply (v68 : Vec F S16 .i32) (l : Fin 16) :
    k0_pay19 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos6_lt (v68 : Vec F S16 .i32) (h : ∀ x, (v68 x).toNat ≤ 15) (x : S16.Idx) : (k0_pay19 k0_pay2 v68 x).toNat < 64 := by
  obtain ⟨l, rfl⟩ := exists_lane x
  rw [pos6_apply]
  exact Cert.Words.pos_lt _ (h _) l

/-- The position vector of piece 7, lane `l`: `(code << 2) + (l & 3)` for the code in that lane. -/
theorem pos7_apply (v68 : Vec F S16 .i32) (l : Fin 16) :
    k0_pay20 k0_pay2 v68 (ix1 l) = IntOp.addi (IntOp.shli .vector (v68 (ix1 l)) 2#32) (IntOp.andi (BitVec.ofNat 32 l.val) 3#32) := by
  show IntOp.addi (IntOp.shli .vector (v68 (ix1 l)) 2#32) (k0_pay2 (ix1 l)) = _
  rw [laneRem_apply]

theorem pos7_lt (v68 : Vec F S16 .i32) (h : ∀ x, (v68 x).toNat ≤ 15) (x : S16.Idx) : (k0_pay20 k0_pay2 v68 x).toNat < 64 := by
  obtain ⟨l, rfl⟩ := exists_lane x
  rw [pos7_apply]
  exact Cert.Words.pos_lt _ (h _) l

/-! ## Every index is inside the array it reads -/

theorem chk1_of (v59 : IVec S16 32) (h : ∀ x, (v59 x).toNat < 128) : k0_chk1 v59 := chk_idx v59 h
theorem chk2_of (v59 : IVec S16 32) (v60 : Vec F S16 .i32) (h : ∀ x, (v59 x).toNat < 128) :
    k0_chk2 v59 (k0_pay4 v60) := chk_col v59 _ h (col0_lt v60)
theorem chk3_of (v59 : IVec S16 32) (v60 : Vec F S16 .i32) (h : ∀ x, (v59 x).toNat < 128) :
    k0_chk3 v59 (k0_pay5 v60) := chk_col v59 _ h (col1_lt v60)
theorem chk4_of (v59 : IVec S16 32) (v60 : Vec F S16 .i32) (h : ∀ x, (v59 x).toNat < 128) :
    k0_chk4 v59 (k0_pay6 v60) := chk_col v59 _ h (col2_lt v60)
theorem chk5_of (v59 : IVec S16 32) (v60 : Vec F S16 .i32) (h : ∀ x, (v59 x).toNat < 128) :
    k0_chk5 v59 (k0_pay7 v60) := chk_col v59 _ h (col3_lt v60)
theorem chk6_of (v59 : IVec S16 32) (v60 : Vec F S16 .i32) (h : ∀ x, (v59 x).toNat < 128) :
    k0_chk6 v59 (k0_pay8 v60) := chk_col v59 _ h (col4_lt v60)
theorem chk7_of (v59 : IVec S16 32) (v60 : Vec F S16 .i32) (h : ∀ x, (v59 x).toNat < 128) :
    k0_chk7 v59 (k0_pay9 v60) := chk_col v59 _ h (col5_lt v60)
theorem chk8_of (v59 : IVec S16 32) (v60 : Vec F S16 .i32) (h : ∀ x, (v59 x).toNat < 128) :
    k0_chk8 v59 (k0_pay11 k0_pay1 (k0_pay3 v60) k0_pay10) := chk_col v59 _ h (col6_lt v60)
theorem chk9_of (v59 : IVec S16 32) (v60 : Vec F S16 .i32) (h : ∀ x, (v59 x).toNat < 128) :
    k0_chk9 v59 (k0_pay12 k0_pay1 (k0_pay3 v60)) := chk_col v59 _ h (col7_lt v60)
theorem chk10_of (v68 : Vec F S16 .i32) (h : ∀ x, (v68 x).toNat ≤ 15) :
    k0_chk10 (k0_pay13 k0_pay2 v68) := chk_pos _ (pos0_lt v68 h)
theorem chk11_of (v68 : Vec F S16 .i32) (h : ∀ x, (v68 x).toNat ≤ 15) :
    k0_chk11 (k0_pay14 k0_pay2 v68) := chk_pos _ (pos1_lt v68 h)
theorem chk12_of (v68 : Vec F S16 .i32) (h : ∀ x, (v68 x).toNat ≤ 15) :
    k0_chk12 (k0_pay15 k0_pay2 v68) := chk_pos _ (pos2_lt v68 h)
theorem chk13_of (v68 : Vec F S16 .i32) (h : ∀ x, (v68 x).toNat ≤ 15) :
    k0_chk13 (k0_pay16 k0_pay2 v68) := chk_pos _ (pos3_lt v68 h)
theorem chk14_of (v68 : Vec F S16 .i32) (h : ∀ x, (v68 x).toNat ≤ 15) :
    k0_chk14 (k0_pay17 k0_pay2 v68) := chk_pos _ (pos4_lt v68 h)
theorem chk15_of (v68 : Vec F S16 .i32) (h : ∀ x, (v68 x).toNat ≤ 15) :
    k0_chk15 (k0_pay18 k0_pay2 v68) := chk_pos _ (pos5_lt v68 h)
theorem chk16_of (v68 : Vec F S16 .i32) (h : ∀ x, (v68 x).toNat ≤ 15) :
    k0_chk16 (k0_pay19 k0_pay2 v68) := chk_pos _ (pos6_lt v68 h)
theorem chk17_of (v68 : Vec F S16 .i32) (h : ∀ x, (v68 x).toNat ≤ 15) :
    k0_chk17 (k0_pay20 k0_pay2 v68) := chk_pos _ (pos7_lt v68 h)

/-! ## The eight pieces -/

/-- Piece 0 of row `r` is entries `0 ‥ 15` of the decoded row. -/
theorem piece0_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay4 (loadIdx gI ![v59] h1)] : Fin 2 → IVec S16 32) a x).toNat < S128x128.size a)
    (h3 : ∀ a x, ((![k0_pay13 k0_pay2 (loadIdx gC ![v59, k0_pay4 (loadIdx gI ![v59] h1)] h2)] : Fin 1 → IVec S16 32) a x).toNat < S64.size a)
    (l : Fin 16) :
    loadIdx gB ![k0_pay13 k0_pay2 (loadIdx gC ![v59, k0_pay4 (loadIdx gI ![v59] h1)] h2)] h3 (ix1 l)
      = rowGAt gI gC gB r ⟨16 * 0 + l.val, by have := l.isLt; omega⟩ :=
  piece_generic gI gC gB r 0 (by omega) v59 _ _ h59 hC h2 h3
    (fun l => by rw [col0_toNat, loadIdx1_splat gI r v59 h59 h1])
    (fun l => pos0_apply _ l) l _

/-- Piece 1 of row `r` is entries `16 ‥ 31` of the decoded row. -/
theorem piece1_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay5 (loadIdx gI ![v59] h1)] : Fin 2 → IVec S16 32) a x).toNat < S128x128.size a)
    (h3 : ∀ a x, ((![k0_pay14 k0_pay2 (loadIdx gC ![v59, k0_pay5 (loadIdx gI ![v59] h1)] h2)] : Fin 1 → IVec S16 32) a x).toNat < S64.size a)
    (l : Fin 16) :
    loadIdx gB ![k0_pay14 k0_pay2 (loadIdx gC ![v59, k0_pay5 (loadIdx gI ![v59] h1)] h2)] h3 (ix1 l)
      = rowGAt gI gC gB r ⟨16 * 1 + l.val, by have := l.isLt; omega⟩ :=
  piece_generic gI gC gB r 1 (by omega) v59 _ _ h59 hC h2 h3
    (fun l => by rw [col1_toNat, loadIdx1_splat gI r v59 h59 h1])
    (fun l => pos1_apply _ l) l _

/-- Piece 2 of row `r` is entries `32 ‥ 47` of the decoded row. -/
theorem piece2_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay6 (loadIdx gI ![v59] h1)] : Fin 2 → IVec S16 32) a x).toNat < S128x128.size a)
    (h3 : ∀ a x, ((![k0_pay15 k0_pay2 (loadIdx gC ![v59, k0_pay6 (loadIdx gI ![v59] h1)] h2)] : Fin 1 → IVec S16 32) a x).toNat < S64.size a)
    (l : Fin 16) :
    loadIdx gB ![k0_pay15 k0_pay2 (loadIdx gC ![v59, k0_pay6 (loadIdx gI ![v59] h1)] h2)] h3 (ix1 l)
      = rowGAt gI gC gB r ⟨16 * 2 + l.val, by have := l.isLt; omega⟩ :=
  piece_generic gI gC gB r 2 (by omega) v59 _ _ h59 hC h2 h3
    (fun l => by rw [col2_toNat, loadIdx1_splat gI r v59 h59 h1])
    (fun l => pos2_apply _ l) l _

/-- Piece 3 of row `r` is entries `48 ‥ 63` of the decoded row. -/
theorem piece3_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay7 (loadIdx gI ![v59] h1)] : Fin 2 → IVec S16 32) a x).toNat < S128x128.size a)
    (h3 : ∀ a x, ((![k0_pay16 k0_pay2 (loadIdx gC ![v59, k0_pay7 (loadIdx gI ![v59] h1)] h2)] : Fin 1 → IVec S16 32) a x).toNat < S64.size a)
    (l : Fin 16) :
    loadIdx gB ![k0_pay16 k0_pay2 (loadIdx gC ![v59, k0_pay7 (loadIdx gI ![v59] h1)] h2)] h3 (ix1 l)
      = rowGAt gI gC gB r ⟨16 * 3 + l.val, by have := l.isLt; omega⟩ :=
  piece_generic gI gC gB r 3 (by omega) v59 _ _ h59 hC h2 h3
    (fun l => by rw [col3_toNat, loadIdx1_splat gI r v59 h59 h1])
    (fun l => pos3_apply _ l) l _

/-- Piece 4 of row `r` is entries `64 ‥ 79` of the decoded row. -/
theorem piece4_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay8 (loadIdx gI ![v59] h1)] : Fin 2 → IVec S16 32) a x).toNat < S128x128.size a)
    (h3 : ∀ a x, ((![k0_pay17 k0_pay2 (loadIdx gC ![v59, k0_pay8 (loadIdx gI ![v59] h1)] h2)] : Fin 1 → IVec S16 32) a x).toNat < S64.size a)
    (l : Fin 16) :
    loadIdx gB ![k0_pay17 k0_pay2 (loadIdx gC ![v59, k0_pay8 (loadIdx gI ![v59] h1)] h2)] h3 (ix1 l)
      = rowGAt gI gC gB r ⟨16 * 4 + l.val, by have := l.isLt; omega⟩ :=
  piece_generic gI gC gB r 4 (by omega) v59 _ _ h59 hC h2 h3
    (fun l => by rw [col4_toNat, loadIdx1_splat gI r v59 h59 h1])
    (fun l => pos4_apply _ l) l _

/-- Piece 5 of row `r` is entries `80 ‥ 95` of the decoded row. -/
theorem piece5_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay9 (loadIdx gI ![v59] h1)] : Fin 2 → IVec S16 32) a x).toNat < S128x128.size a)
    (h3 : ∀ a x, ((![k0_pay18 k0_pay2 (loadIdx gC ![v59, k0_pay9 (loadIdx gI ![v59] h1)] h2)] : Fin 1 → IVec S16 32) a x).toNat < S64.size a)
    (l : Fin 16) :
    loadIdx gB ![k0_pay18 k0_pay2 (loadIdx gC ![v59, k0_pay9 (loadIdx gI ![v59] h1)] h2)] h3 (ix1 l)
      = rowGAt gI gC gB r ⟨16 * 5 + l.val, by have := l.isLt; omega⟩ :=
  piece_generic gI gC gB r 5 (by omega) v59 _ _ h59 hC h2 h3
    (fun l => by rw [col5_toNat, loadIdx1_splat gI r v59 h59 h1])
    (fun l => pos5_apply _ l) l _

/-- Piece 6 of row `r` is entries `96 ‥ 111` of the decoded row. -/
theorem piece6_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay11 k0_pay1 (k0_pay3 (loadIdx gI ![v59] h1)) k0_pay10] : Fin 2 → IVec S16 32) a x).toNat < S128x128.size a)
    (h3 : ∀ a x, ((![k0_pay19 k0_pay2 (loadIdx gC ![v59, k0_pay11 k0_pay1 (k0_pay3 (loadIdx gI ![v59] h1)) k0_pay10] h2)] : Fin 1 → IVec S16 32) a x).toNat < S64.size a)
    (l : Fin 16) :
    loadIdx gB ![k0_pay19 k0_pay2 (loadIdx gC ![v59, k0_pay11 k0_pay1 (k0_pay3 (loadIdx gI ![v59] h1)) k0_pay10] h2)] h3 (ix1 l)
      = rowGAt gI gC gB r ⟨16 * 6 + l.val, by have := l.isLt; omega⟩ :=
  piece_generic gI gC gB r 6 (by omega) v59 _ _ h59 hC h2 h3
    (fun l => by rw [col6_toNat, loadIdx1_splat gI r v59 h59 h1])
    (fun l => pos6_apply _ l) l _

/-- Piece 7 of row `r` is entries `112 ‥ 127` of the decoded row. -/
theorem piece7_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay12 k0_pay1 (k0_pay3 (loadIdx gI ![v59] h1))] : Fin 2 → IVec S16 32) a x).toNat < S128x128.size a)
    (h3 : ∀ a x, ((![k0_pay20 k0_pay2 (loadIdx gC ![v59, k0_pay12 k0_pay1 (k0_pay3 (loadIdx gI ![v59] h1))] h2)] : Fin 1 → IVec S16 32) a x).toNat < S64.size a)
    (l : Fin 16) :
    loadIdx gB ![k0_pay20 k0_pay2 (loadIdx gC ![v59, k0_pay12 k0_pay1 (k0_pay3 (loadIdx gI ![v59] h1))] h2)] h3 (ix1 l)
      = rowGAt gI gC gB r ⟨16 * 7 + l.val, by have := l.isLt; omega⟩ :=
  piece_generic gI gC gB r 7 (by omega) v59 _ _ h59 hC h2 h3
    (fun l => by rw [col7_toNat, loadIdx1_splat gI r v59 h59 h1])
    (fun l => pos7_apply _ l) l _

/-! ## The index vectors lane by lane (second buffer) -/

/-- Lane `l` of the shifted lane numbers: `l >> 2`. -/
theorem laneQuarter'_apply (l : Fin 16) : k0_pay21 (ix1 l) = IntOp.shrsi .vector (BitVec.ofNat 32 l.val) 2#32 := by
  show IntOp.shrsi .vector (BitVec.ofNat 32 (0 * 16 + l.val)) 2#32 = _
  rw [Nat.zero_mul, Nat.zero_add]

/-- Lane `l` of the masked lane numbers: `l & 3`. -/
theorem laneRem'_apply (l : Fin 16) : k0_pay22 (ix1 l) = IntOp.andi (BitVec.ofNat 32 l.val) 3#32 := by
  show IntOp.andi (BitVec.ofNat 32 (0 * 16 + l.val)) 3#32 = _
  rw [Nat.zero_mul, Nat.zero_add]

/-- The column vector of piece 0, lane `l`: `32 (w % 4) + 0 + l / 4` for the query word `w` in that lane. -/
theorem col0'_toNat (v60 : Vec F S16 .i32) (l : Fin 16) :
    ((k0_pay24 v60) (ix1 l)).toNat = 32 * ((v60 (ix1 l)).toNat % 4) + 4 * 0 + l.val / 4 := by
  show (IntOp.addi (IntOp.shli .vector (IntOp.andi (v60 (ix1 l)) 3#32) 5#32) (IntOp.addi 0#32 (k0_pay21 (ix1 l)))).toNat = _
  rw [laneQuarter'_apply]
  exact Cert.Words.col_toNat' 0#32 0 (by omega) rfl (v60 (ix1 l)) l

theorem col0'_lt (v60 : Vec F S16 .i32) (x : S16.Idx) : ((k0_pay24 v60) x).toNat < 128 := by
  obtain ⟨l, rfl⟩ := exists_lane x
  rw [col0'_toNat]
  have := l.isLt
  omega

/-- The column vector of piece 1, lane `l`: `32 (w % 4) + 4 + l / 4` for the query word `w` in that lane. -/
theorem col1'_toNat (v60 : Vec F S16 .i32) (l : Fin 16) :
    ((k0_pay25 v60) (ix1 l)).toNat = 32 * ((v60 (ix1 l)).toNat % 4) + 4 * 1 + l.val / 4 := by
  show (IntOp.addi (IntOp.shli .vector (IntOp.andi (v60 (ix1 l)) 3#32) 5#32) (IntOp.addi 4#32 (k0_pay21 (ix1 l)))).toNat = _
  rw [laneQuarter'_apply]
  exact Cert.Words.col_toNat' 4#32 1 (by omega) rfl (v60 (ix1 l)) l

theorem col1'_lt (v60 : Vec F S16 .i32) (x : S16.Idx) : ((k0_pay25 v60) x).toNat < 128 := by
  obtain ⟨l, rfl⟩ := exists_lane x
  rw [col1'_toNat]
  have := l.isLt
  omega

/-- The column vector of piece 2, lane `l`: `32 (w % 4) + 8 + l / 4` for the query word `w` in that lane. -/
theorem col2'_toNat (v60 : Vec F S16 .i32) (l : Fin 16) :
    ((k0_pay26 v60) (ix1 l)).toNat = 32 * ((v60 (ix1 l)).toNat % 4) + 4 * 2 + l.val / 4 := by
  show (IntOp.addi (IntOp.shli .vector (IntOp.andi (v60 (ix1 l)) 3#32) 5#32) (IntOp.addi 8#32 (k0_pay21 (ix1 l)))).toNat = _
  rw [laneQuarter'_apply]
  exact Cert.Words.col_toNat' 8#32 2 (by omega) rfl (v60 (ix1 l)) l

theorem col2'_lt (v60 : Vec F S16 .i32) (x : S16.Idx) : ((k0_pay26 v60) x).toNat < 128 := by
  obtain ⟨l, rfl⟩ := exists_lane x
  rw [col2'_toNat]
  have := l.isLt
  omega

/-- The column vector of piece 3, lane `l`: `32 (w % 4) + 12 + l / 4` for the query word `w` in that lane. -/
theorem col3'_toNat (v60 : Vec F S16 .i32) (l : Fin 16) :
    ((k0_pay27 v60) (ix1 l)).toNat = 32 * ((v60 (ix1 l)).toNat % 4) + 4 * 3 + l.val / 4 := by
  show (IntOp.addi (IntOp.shli .vector (IntOp.andi (v60 (ix1 l)) 3#32) 5#32) (IntOp.addi 12#32 (k0_pay21 (ix1 l)))).toNat = _
  rw [laneQuarter'_apply]
  exact Cert.Words.col_toNat' 12#32 3 (by omega) rfl (v60 (ix1 l)) l

theorem col3'_lt (v60 : Vec F S16 .i32) (x : S16.Idx) : ((k0_pay27 v60) x).toNat < 128 := by
  obtain ⟨l, rfl⟩ := exists_lane x
  rw [col3'_toNat]
  have := l.isLt
  omega

/-- The column vector of piece 4, lane `l`: `32 (w % 4) + 16 + l / 4` for the query word `w` in that lane. -/
theorem col4'_toNat (v60 : Vec F S16 .i32) (l : Fin 16) :
    ((k0_pay28 v60) (ix1 l)).toNat = 32 * ((v60 (ix1 l)).toNat % 4) + 4 * 4 + l.val / 4 := by
  show (IntOp.addi (IntOp.shli .vector (IntOp.andi (v60 (ix1 l)) 3#32) 5#32) (IntOp.addi 16#32 (k0_pay21 (ix1 l)))).toNat = _
  rw [laneQuarter'_apply]
  exact Cert.Words.col_toNat' 16#32 4 (by omega) rfl (v60 (ix1 l)) l

theorem col4'_lt (v60 : Vec F S16 .i32) (x : S16.Idx) : ((k0_pay28 v60) x).toNat < 128 := by
  obtain ⟨l, rfl⟩ := exists_lane x
  rw [col4'_toNat]
  have := l.isLt
  omega

/-- The column vector of piece 5, lane `l`: `32 (w % 4) + 20 + l / 4` for the query word `w` in that lane. -/
theorem col5'_toNat (v60 : Vec F S16 .i32) (l : Fin 16) :
    ((k0_pay29 v60) (ix1 l)).toNat = 32 * ((v60 (ix1 l)).toNat % 4) + 4 * 5 + l.val / 4 := by
  show (IntOp.addi (IntOp.shli .vector (IntOp.andi (v60 (ix1 l)) 3#32) 5#32) (IntOp.addi 20#32 (k0_pay21 (ix1 l)))).toNat = _
  rw [laneQuarter'_apply]
  exact Cert.Words.col_toNat' 20#32 5 (by omega) rfl (v60 (ix1 l)) l

theorem col5'_lt (v60 : Vec F S16 .i32) (x : S16.Idx) : ((k0_pay29 v60) x).toNat < 128 := by
  obtain ⟨l, rfl⟩ := exists_lane x
  rw [col5'_toNat]
  have := l.isLt
  omega

/-- The column vector of piece 6, lane `l`: `32 (w % 4) + 24 + l / 4` for the query word `w` in that lane. -/
theorem col6'_toNat (v60 : Vec F S16 .i32) (l : Fin 16) :
    ((k0_pay31 k0_pay21 (k0_pay23 v60) k0_pay30) (ix1 l)).toNat = 32 * ((v60 (ix1 l)).toNat % 4) + 4 * 6 + l.val / 4 := by
  show (IntOp.addi (IntOp.shli .vector (IntOp.andi (v60 (ix1 l)) 3#32) 5#32) (IntOp.addi 24#32 (k0_pay21 (ix1 l)))).toNat = _
  rw [laneQuarter'_apply]
  exact Cert.Words.col_toNat' 24#32 6 (by omega) rfl (v60 (ix1 l)) l

theorem col6'_lt (v60 : Vec F S16 .i32) (x : S16.Idx) : ((k0_pay31 k0_pay21 (k0_pay23 v60) k0_pay30) x).toNat < 128 := by
  obtain ⟨l, rfl⟩ := exists_lane x
  rw [col6'_toNat]
  have := l.isLt
  omega

/-- The column vector of piece 7, lane `l`: `32 (w % 4) + 28 + l / 4` for the query word `w` in that lane. -/
theorem col7'_toNat (v60 : Vec F S16 .i32) (l : Fin 16) :
    ((k0_pay32 k0_pay21 (k0_pay23 v60)) (ix1 l)).toNat = 32 * ((v60 (ix1 l)).toNat % 4) + 4 * 7 + l.val / 4 := by
  show (IntOp.addi (IntOp.shli .vector (IntOp.andi (v60 (ix1 l)) 3#32) 5#32) (IntOp.addi 28#32 (k0_pay21 (ix1 l)))).toNat = _
  rw [laneQuarter'_apply]
  exact Cert.Words.col_toNat' 28#32 7 (by omega) rfl (v60 (ix1 l)) l

theorem col7'_lt (v60 : Vec F S16 .i32) (x : S16.Idx) : ((k0_pay32 k0_pay21 (k0_pay23 v60)) x).toNat < 128 := by
  obtain ⟨l, rfl⟩ := exists_lane x
  rw [col7'_toNat]
  have := l.isLt
  omega

/-- The position vector of piece 0, lane `l`: `(code << 2) + (l & 3)` for the code in that lane. -/
theorem pos0'_apply (v68 : Vec F S16 .i32) (l : Fin 16) :
    k0_pay33 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos0'_lt (v68 : Vec F S16 .i32) (h : ∀ x, (v68 x).toNat ≤ 15) (x : S16.Idx) : (k0_pay33 k0_pay22 v68 x).toNat < 64 := by
  obtain ⟨l, rfl⟩ := exists_lane x
  rw [pos0'_apply]
  exact Cert.Words.pos_lt _ (h _) l

/-- The position vector of piece 1, lane `l`: `(code << 2) + (l & 3)` for the code in that lane. -/
theorem pos1'_apply (v68 : Vec F S16 .i32) (l : Fin 16) :
    k0_pay34 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos1'_lt (v68 : Vec F S16 .i32) (h : ∀ x, (v68 x).toNat ≤ 15) (x : S16.Idx) : (k0_pay34 k0_pay22 v68 x).toNat < 64 := by
  obtain ⟨l, rfl⟩ := exists_lane x
  rw [pos1'_apply]
  exact Cert.Words.pos_lt _ (h _) l

/-- The position vector of piece 2, lane `l`: `(code << 2) + (l & 3)` for the code in that lane. -/
theorem pos2'_apply (v68 : Vec F S16 .i32) (l : Fin 16) :
    k0_pay35 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos2'_lt (v68 : Vec F S16 .i32) (h : ∀ x, (v68 x).toNat ≤ 15) (x : S16.Idx) : (k0_pay35 k0_pay22 v68 x).toNat < 64 := by
  obtain ⟨l, rfl⟩ := exists_lane x
  rw [pos2'_apply]
  exact Cert.Words.pos_lt _ (h _) l

/-- The position vector of piece 3, lane `l`: `(code << 2) + (l & 3)` for the code in that lane. -/
theorem pos3'_apply (v68 : Vec F S16 .i32) (l : Fin 16) :
    k0_pay36 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos3'_lt (v68 : Vec F S16 .i32) (h : ∀ x, (v68 x).toNat ≤ 15) (x : S16.Idx) : (k0_pay36 k0_pay22 v68 x).toNat < 64 := by
  obtain ⟨l, rfl⟩ := exists_lane x
  rw [pos3'_apply]
  exact Cert.Words.pos_lt _ (h _) l

/-- The position vector of piece 4, lane `l`: `(code << 2) + (l & 3)` for the code in that lane. -/
theorem pos4'_apply (v68 : Vec F S16 .i32) (l : Fin 16) :
    k0_pay37 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos4'_lt (v68 : Vec F S16 .i32) (h : ∀ x, (v68 x).toNat ≤ 15) (x : S16.Idx) : (k0_pay37 k0_pay22 v68 x).toNat < 64 := by
  obtain ⟨l, rfl⟩ := exists_lane x
  rw [pos4'_apply]
  exact Cert.Words.pos_lt _ (h _) l

/-- The position vector of piece 5, lane `l`: `(code << 2) + (l & 3)` for the code in that lane. -/
theorem pos5'_apply (v68 : Vec F S16 .i32) (l : Fin 16) :
    k0_pay38 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos5'_lt (v68 : Vec F S16 .i32) (h : ∀ x, (v68 x).toNat ≤ 15) (x : S16.Idx) : (k0_pay38 k0_pay22 v68 x).toNat < 64 := by
  obtain ⟨l, rfl⟩ := exists_lane x
  rw [pos5'_apply]
  exact Cert.Words.pos_lt _ (h _) l

/-- The position vector of piece 6, lane `l`: `(code << 2) + (l & 3)` for the code in that lane. -/
theorem pos6'_apply (v68 : Vec F S16 .i32) (l : Fin 16) :
    k0_pay39 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos6'_lt (v68 : Vec F S16 .i32) (h : ∀ x, (v68 x).toNat ≤ 15) (x : S16.Idx) : (k0_pay39 k0_pay22 v68 x).toNat < 64 := by
  obtain ⟨l, rfl⟩ := exists_lane x
  rw [pos6'_apply]
  exact Cert.Words.pos_lt _ (h _) l

/-- The position vector of piece 7, lane `l`: `(code << 2) + (l & 3)` for the code in that lane. -/
theorem pos7'_apply (v68 : Vec F S16 .i32) (l : Fin 16) :
    k0_pay40 k0_pay22 v68 (ix1 l) = IntOp.addi (IntOp.shli .vector (v68 (ix1 l)) 2#32) (IntOp.andi (BitVec.ofNat 32 l.val) 3#32) := by
  show IntOp.addi (IntOp.shli .vector (v68 (ix1 l)) 2#32) (k0_pay22 (ix1 l)) = _
  rw [laneRem'_apply]

theorem pos7'_lt (v68 : Vec F S16 .i32) (h : ∀ x, (v68 x).toNat ≤ 15) (x : S16.Idx) : (k0_pay40 k0_pay22 v68 x).toNat < 64 := by
  obtain ⟨l, rfl⟩ := exists_lane x
  rw [pos7'_apply]
  exact Cert.Words.pos_lt _ (h _) l

/-! ## Every index is inside the array it reads (second buffer) -/

theorem chk18_of (v59 : IVec S16 32) (h : ∀ x, (v59 x).toNat < 128) : k0_chk18 v59 := chk_idx v59 h
theorem chk19_of (v59 : IVec S16 32) (v60 : Vec F S16 .i32) (h : ∀ x, (v59 x).toNat < 128) :
    k0_chk19 v59 (k0_pay24 v60) := chk_col v59 _ h (col0'_lt v60)
theorem chk20_of (v59 : IVec S16 32) (v60 : Vec F S16 .i32) (h : ∀ x, (v59 x).toNat < 128) :
    k0_chk20 v59 (k0_pay25 v60) := chk_col v59 _ h (col1'_lt v60)
theorem chk21_of (v59 : IVec S16 32) (v60 : Vec F S16 .i32) (h : ∀ x, (v59 x).toNat < 128) :
    k0_chk21 v59 (k0_pay26 v60) := chk_col v59 _ h (col2'_lt v60)
theorem chk22_of (v59 : IVec S16 32) (v60 : Vec F S16 .i32) (h : ∀ x, (v59 x).toNat < 128) :
    k0_chk22 v59 (k0_pay27 v60) := chk_col v59 _ h (col3'_lt v60)
theorem chk23_of (v59 : IVec S16 32) (v60 : Vec F S16 .i32) (h : ∀ x, (v59 x).toNat < 128) :
    k0_chk23 v59 (k0_pay28 v60) := chk_col v59 _ h (col4'_lt v60)
theorem chk24_of (v59 : IVec S16 32) (v60 : Vec F S16 .i32) (h : ∀ x, (v59 x).toNat < 128) :
    k0_chk24 v59 (k0_pay29 v60) := chk_col v59 _ h (col5'_lt v60)
theorem chk25_of (v59 : IVec S16 32) (v60 : Vec F S16 .i32) (h : ∀ x, (v59 x).toNat < 128) :
    k0_chk25 v59 (k0_pay31 k0_pay21 (k0_pay23 v60) k0_pay30) := chk_col v59 _ h (col6'_lt v60)
theorem chk26_of (v59 : IVec S16 32) (v60 : Vec F S16 .i32) (h : ∀ x, (v59 x).toNat < 128) :
    k0_chk26 v59 (k0_pay32 k0_pay21 (k0_pay23 v60)) := chk_col v59 _ h (col7'_lt v60)
theorem chk27_of (v68 : Vec F S16 .i32) (h : ∀ x, (v68 x).toNat ≤ 15) :
    k0_chk27 (k0_pay33 k0_pay22 v68) := chk_pos _ (pos0'_lt v68 h)
theorem chk28_of (v68 : Vec F S16 .i32) (h : ∀ x, (v68 x).toNat ≤ 15) :
    k0_chk28 (k0_pay34 k0_pay22 v68) := chk_pos _ (pos1'_lt v68 h)
theorem chk29_of (v68 : Vec F S16 .i32) (h : ∀ x, (v68 x).toNat ≤ 15) :
    k0_chk29 (k0_pay35 k0_pay22 v68) := chk_pos _ (pos2'_lt v68 h)
theorem chk30_of (v68 : Vec F S16 .i32) (h : ∀ x, (v68 x).toNat ≤ 15) :
    k0_chk30 (k0_pay36 k0_pay22 v68) := chk_pos _ (pos3'_lt v68 h)
theorem chk31_of (v68 : Vec F S16 .i32) (h : ∀ x, (v68 x).toNat ≤ 15) :
    k0_chk31 (k0_pay37 k0_pay22 v68) := chk_pos _ (pos4'_lt v68 h)
theorem chk32_of (v68 : Vec F S16 .i32) (h : ∀ x, (v68 x).toNat ≤ 15) :
    k0_chk32 (k0_pay38 k0_pay22 v68) := chk_pos _ (pos5'_lt v68 h)
theorem chk33_of (v68 : Vec F S16 .i32) (h : ∀ x, (v68 x).toNat ≤ 15) :
    k0_chk33 (k0_pay39 k0_pay22 v68) := chk_pos _ (pos6'_lt v68 h)
theorem chk34_of (v68 : Vec F S16 .i32) (h : ∀ x, (v68 x).toNat ≤ 15) :
    k0_chk34 (k0_pay40 k0_pay22 v68) := chk_pos _ (pos7'_lt v68 h)

/-! ## The eight pieces (second buffer) -/

/-- Piece 0 of row `r` is entries `0 ‥ 15` of the decoded row. -/
theorem piece0'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay24 (loadIdx gI ![v59] h1)] : Fin 2 → IVec S16 32) a x).toNat < S128x128.size a)
    (h3 : ∀ a x, ((![k0_pay33 k0_pay22 (loadIdx gC ![v59, k0_pay24 (loadIdx gI ![v59] h1)] h2)] : Fin 1 → IVec S16 32) a x).toNat < S64.size a)
    (l : Fin 16) :
    loadIdx gB ![k0_pay33 k0_pay22 (loadIdx gC ![v59, k0_pay24 (loadIdx gI ![v59] h1)] h2)] h3 (ix1 l)
      = rowGAt gI gC gB r ⟨16 * 0 + l.val, by have := l.isLt; omega⟩ :=
  piece_generic gI gC gB r 0 (by omega) v59 _ _ h59 hC h2 h3
    (fun l => by rw [col0'_toNat, loadIdx1_splat gI r v59 h59 h1])
    (fun l => pos0'_apply _ l) l _

/-- Piece 1 of row `r` is entries `16 ‥ 31` of the decoded row. -/
theorem piece1'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay25 (loadIdx gI ![v59] h1)] : Fin 2 → IVec S16 32) a x).toNat < S128x128.size a)
    (h3 : ∀ a x, ((![k0_pay34 k0_pay22 (loadIdx gC ![v59, k0_pay25 (loadIdx gI ![v59] h1)] h2)] : Fin 1 → IVec S16 32) a x).toNat < S64.size a)
    (l : Fin 16) :
    loadIdx gB ![k0_pay34 k0_pay22 (loadIdx gC ![v59, k0_pay25 (loadIdx gI ![v59] h1)] h2)] h3 (ix1 l)
      = rowGAt gI gC gB r ⟨16 * 1 + l.val, by have := l.isLt; omega⟩ :=
  piece_generic gI gC gB r 1 (by omega) v59 _ _ h59 hC h2 h3
    (fun l => by rw [col1'_toNat, loadIdx1_splat gI r v59 h59 h1])
    (fun l => pos1'_apply _ l) l _

/-- Piece 2 of row `r` is entries `32 ‥ 47` of the decoded row. -/
theorem piece2'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay26 (loadIdx gI ![v59] h1)] : Fin 2 → IVec S16 32) a x).toNat < S128x128.size a)
    (h3 : ∀ a x, ((![k0_pay35 k0_pay22 (loadIdx gC ![v59, k0_pay26 (loadIdx gI ![v59] h1)] h2)] : Fin 1 → IVec S16 32) a x).toNat < S64.size a)
    (l : Fin 16) :
    loadIdx gB ![k0_pay35 k0_pay22 (loadIdx gC ![v59, k0_pay26 (loadIdx gI ![v59] h1)] h2)] h3 (ix1 l)
      = rowGAt gI gC gB r ⟨16 * 2 + l.val, by have := l.isLt; omega⟩ :=
  piece_generic gI gC gB r 2 (by omega) v59 _ _ h59 hC h2 h3
    (fun l => by rw [col2'_toNat, loadIdx1_splat gI r v59 h59 h1])
    (fun l => pos2'_apply _ l) l _

/-- Piece 3 of row `r` is entries `48 ‥ 63` of the decoded row. -/
theorem piece3'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay27 (loadIdx gI ![v59] h1)] : Fin 2 → IVec S16 32) a x).toNat < S128x128.size a)
    (h3 : ∀ a x, ((![k0_pay36 k0_pay22 (loadIdx gC ![v59, k0_pay27 (loadIdx gI ![v59] h1)] h2)] : Fin 1 → IVec S16 32) a x).toNat < S64.size a)
    (l : Fin 16) :
    loadIdx gB ![k0_pay36 k0_pay22 (loadIdx gC ![v59, k0_pay27 (loadIdx gI ![v59] h1)] h2)] h3 (ix1 l)
      = rowGAt gI gC gB r ⟨16 * 3 + l.val, by have := l.isLt; omega⟩ :=
  piece_generic gI gC gB r 3 (by omega) v59 _ _ h59 hC h2 h3
    (fun l => by rw [col3'_toNat, loadIdx1_splat gI r v59 h59 h1])
    (fun l => pos3'_apply _ l) l _

/-- Piece 4 of row `r` is entries `64 ‥ 79` of the decoded row. -/
theorem piece4'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay28 (loadIdx gI ![v59] h1)] : Fin 2 → IVec S16 32) a x).toNat < S128x128.size a)
    (h3 : ∀ a x, ((![k0_pay37 k0_pay22 (loadIdx gC ![v59, k0_pay28 (loadIdx gI ![v59] h1)] h2)] : Fin 1 → IVec S16 32) a x).toNat < S64.size a)
    (l : Fin 16) :
    loadIdx gB ![k0_pay37 k0_pay22 (loadIdx gC ![v59, k0_pay28 (loadIdx gI ![v59] h1)] h2)] h3 (ix1 l)
      = rowGAt gI gC gB r ⟨16 * 4 + l.val, by have := l.isLt; omega⟩ :=
  piece_generic gI gC gB r 4 (by omega) v59 _ _ h59 hC h2 h3
    (fun l => by rw [col4'_toNat, loadIdx1_splat gI r v59 h59 h1])
    (fun l => pos4'_apply _ l) l _

/-- Piece 5 of row `r` is entries `80 ‥ 95` of the decoded row. -/
theorem piece5'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay29 (loadIdx gI ![v59] h1)] : Fin 2 → IVec S16 32) a x).toNat < S128x128.size a)
    (h3 : ∀ a x, ((![k0_pay38 k0_pay22 (loadIdx gC ![v59, k0_pay29 (loadIdx gI ![v59] h1)] h2)] : Fin 1 → IVec S16 32) a x).toNat < S64.size a)
    (l : Fin 16) :
    loadIdx gB ![k0_pay38 k0_pay22 (loadIdx gC ![v59, k0_pay29 (loadIdx gI ![v59] h1)] h2)] h3 (ix1 l)
      = rowGAt gI gC gB r ⟨16 * 5 + l.val, by have := l.isLt; omega⟩ :=
  piece_generic gI gC gB r 5 (by omega) v59 _ _ h59 hC h2 h3
    (fun l => by rw [col5'_toNat, loadIdx1_splat gI r v59 h59 h1])
    (fun l => pos5'_apply _ l) l _

/-- Piece 6 of row `r` is entries `96 ‥ 111` of the decoded row. -/
theorem piece6'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay31 k0_pay21 (k0_pay23 (loadIdx gI ![v59] h1)) k0_pay30] : Fin 2 → IVec S16 32) a x).toNat < S128x128.size a)
    (h3 : ∀ a x, ((![k0_pay39 k0_pay22 (loadIdx gC ![v59, k0_pay31 k0_pay21 (k0_pay23 (loadIdx gI ![v59] h1)) k0_pay30] h2)] : Fin 1 → IVec S16 32) a x).toNat < S64.size a)
    (l : Fin 16) :
    loadIdx gB ![k0_pay39 k0_pay22 (loadIdx gC ![v59, k0_pay31 k0_pay21 (k0_pay23 (loadIdx gI ![v59] h1)) k0_pay30] h2)] h3 (ix1 l)
      = rowGAt gI gC gB r ⟨16 * 6 + l.val, by have := l.isLt; omega⟩ :=
  piece_generic gI gC gB r 6 (by omega) v59 _ _ h59 hC h2 h3
    (fun l => by rw [col6'_toNat, loadIdx1_splat gI r v59 h59 h1])
    (fun l => pos6'_apply _ l) l _

/-- Piece 7 of row `r` is entries `112 ‥ 127` of the decoded row. -/
theorem piece7'_eq (gI : Vec F S128 .i32) (gC : Vec F S128x128 .i32) (gB : Vec F S64 .f32) (r : Fin 128)
    (v59 : IVec S16 32) (h59 : ∀ x, v59 x = BitVec.ofNat 32 r.val) (hC : ∀ j, (gC j).toNat ≤ 15)
    (h1 : ∀ a x, ((![v59] : Fin 1 → IVec S16 32) a x).toNat < S128.size a)
    (h2 : ∀ a x, ((![v59, k0_pay32 k0_pay21 (k0_pay23 (loadIdx gI ![v59] h1))] : Fin 2 → IVec S16 32) a x).toNat < S128x128.size a)
    (h3 : ∀ a x, ((![k0_pay40 k0_pay22 (loadIdx gC ![v59, k0_pay32 k0_pay21 (k0_pay23 (loadIdx gI ![v59] h1))] h2)] : Fin 1 → IVec S16 32) a x).toNat < S64.size a)
    (l : Fin 16) :
    loadIdx gB ![k0_pay40 k0_pay22 (loadIdx gC ![v59, k0_pay32 k0_pay21 (k0_pay23 (loadIdx gI ![v59] h1))] h2)] h3 (ix1 l)
      = rowGAt gI gC gB r ⟨16 * 7 + l.val, by have := l.isLt; omega⟩ :=
  piece_generic gI gC gB r 7 (by omega) v59 _ _ h59 hC h2 h3
    (fun l => by rw [col7'_toNat, loadIdx1_splat gI r v59 h59 h1])
    (fun l => pos7'_apply _ l) l _

/-! ## What the eight stores of a row leave

  The pieces of row `r` are stored through the sixteen-entry rectangles at `(r, 16 t)`, `t < 8`. An
  index is under the rectangle at `(r, c)` exactly when its row is `r` and its column lies in
  `[c, c + 16)`; the eight rectangles together are row `r`, and no other row is touched. -/

/-- The indices under the sixteen-entry rectangle at row `R`, column `c`. -/
theorem mem_rowRect (off : Fin 2 → Nat) (R c : Nat) (hoff : off = ![R, c])
    (inb : ∀ a, off a + S1x16.size a ≤ S128x128.size a) (y : S128x128.Idx) :
    y ∈ (Rect.unit (s := S128x128) off S1x16.size inb).set ↔ (y 0).val = R ∧ c ≤ (y 1).val ∧ (y 1).val < c + 16 := by
  subst hoff
  rw [Rect.mem_set_unit]
  constructor
  · intro h
    have h0 : R ≤ (y 0).val ∧ (y 0).val < R + 1 := h 0
    have h1 : c ≤ (y 1).val ∧ (y 1).val < c + 16 := h 1
    omega
  · rintro ⟨h0, h1, h2⟩ a
    match a with
    | ⟨0, _⟩ => show R ≤ (y 0).val ∧ (y 0).val < R + 1; omega
    | ⟨1, _⟩ => show c ≤ (y 1).val ∧ (y 1).val < c + 16; omega

/-- A piece whose lane `l` is entry `16 t + l` of row `R` of `G`, stored as a one-row block at
    `(R, 16 t)`, agrees with `G` at every index it is stored to. -/
theorem piece_agrees (G : S128x128.Idx → Elt F .f32) (R : Fin 128) (t : Nat) (ht : t < 8) (off : Fin 2 → Nat)
    (hoff : off = ![R.val, 16 * t]) (inb : ∀ a, off a + S1x16.size a ≤ S128x128.size a) (p : Vec F S16 .f32)
    (hp : ∀ l : Fin 16, p (ix1 l) = G (ix2 R ⟨16 * t + l.val, by have := l.isLt; omega⟩))
    (x : (Rect.unit (s := S128x128) off S1x16.size inb).shape.Idx) :
    shapeCast S1x16 p shapeCasts_S16_S1x16 x = G ((Rect.unit (s := S128x128) off S1x16.size inb).emb x) := by
  subst hoff
  have h0 : (x 0).val < 1 := (x 0).isLt
  have h1 : (x 1).val < 16 := (x 1).isLt
  -- the one-row block at (0, l) is lane l of the piece
  rw [shapeCast_apply p shapeCasts_S16_S1x16 x (ix1 ⟨(x 1).val, h1⟩) (by
    rw [Shape.rowMajor_val_one, Shape.rowMajor_val_two]
    show (x 1).val = (x 0).val * 16 + (x 1).val
    omega)]
  rw [hp ⟨(x 1).val, h1⟩]
  -- and it is stored at (R + 0, 16 t + l)
  congr 1
  funext a
  apply Fin.ext
  match a with
  | ⟨0, _⟩ => show R.val = R.val + 1 * (x 0).val; omega
  | ⟨1, _⟩ => show 16 * t + (x 1).val = 16 * t + 1 * (x 1).val; omega

/-- Eight pieces stored at `(R, 0), (R, 16), …, (R, 112)`, each sixteen entries of row `R` of `G`: after
    the stores row `R` reads `G`, and every other row reads what it read before. -/
theorem row_stored_gen {σ : RefSig} {κ : Kind} {sp : Space} (v : View σ κ sp S128x128 .f32) (fO : v.ty.Contents (Elt F))
    (R : Fin 128) (o0 o1 o2 o3 o4 o5 o6 o7 : Fin 2 → Nat)
    (ho0 : o0 = ![R.val, 16 * 0])
    (ho1 : o1 = ![R.val, 16 * 1])
    (ho2 : o2 = ![R.val, 16 * 2])
    (ho3 : o3 = ![R.val, 16 * 3])
    (ho4 : o4 = ![R.val, 16 * 4])
    (ho5 : o5 = ![R.val, 16 * 5])
    (ho6 : o6 = ![R.val, 16 * 6])
    (ho7 : o7 = ![R.val, 16 * 7])
    (i0 : ∀ a, o0 a + S1x16.size a ≤ S128x128.size a)
    (i1 : ∀ a, o1 a + S1x16.size a ≤ S128x128.size a)
    (i2 : ∀ a, o2 a + S1x16.size a ≤ S128x128.size a)
    (i3 : ∀ a, o3 a + S1x16.size a ≤ S128x128.size a)
    (i4 : ∀ a, o4 a + S1x16.size a ≤ S128x128.size a)
    (i5 : ∀ a, o5 a + S1x16.size a ≤ S128x128.size a)
    (i6 : ∀ a, o6 a + S1x16.size a ≤ S128x128.size a)
    (i7 : ∀ a, o7 a + S1x16.size a ≤ S128x128.size a)
    (p0 p1 p2 p3 p4 p5 p6 p7 : Vec F S16 .f32) (G : S128x128.Idx → Elt F .f32)
    (hp0 : ∀ l : Fin 16, p0 (ix1 l) = G (ix2 (R) ⟨16 * 0 + l.val, by have := l.isLt; omega⟩))
    (hp1 : ∀ l : Fin 16, p1 (ix1 l) = G (ix2 (R) ⟨16 * 1 + l.val, by have := l.isLt; omega⟩))
    (hp2 : ∀ l : Fin 16, p2 (ix1 l) = G (ix2 (R) ⟨16 * 2 + l.val, by have := l.isLt; omega⟩))
    (hp3 : ∀ l : Fin 16, p3 (ix1 l) = G (ix2 (R) ⟨16 * 3 + l.val, by have := l.isLt; omega⟩))
    (hp4 : ∀ l : Fin 16, p4 (ix1 l) = G (ix2 (R) ⟨16 * 4 + l.val, by have := l.isLt; omega⟩))
    (hp5 : ∀ l : Fin 16, p5 (ix1 l) = G (ix2 (R) ⟨16 * 5 + l.val, by have := l.isLt; omega⟩))
    (hp6 : ∀ l : Fin 16, p6 (ix1 l) = G (ix2 (R) ⟨16 * 6 + l.val, by have := l.isLt; omega⟩))
    (hp7 : ∀ l : Fin 16, p7 (ix1 l) = G (ix2 (R) ⟨16 * 7 + l.val, by have := l.isLt; omega⟩)) :
    (∀ e : Fin 128, v.read (Elt F) (v.writes (Elt F) fO
        [⟨Rect.unit (s := S128x128) (o7) S1x16.size (i7), shapeCast S1x16 p7 shapeCasts_S16_S1x16⟩,
        ⟨Rect.unit (s := S128x128) (o6) S1x16.size (i6), shapeCast S1x16 p6 shapeCasts_S16_S1x16⟩,
        ⟨Rect.unit (s := S128x128) (o5) S1x16.size (i5), shapeCast S1x16 p5 shapeCasts_S16_S1x16⟩,
        ⟨Rect.unit (s := S128x128) (o4) S1x16.size (i4), shapeCast S1x16 p4 shapeCasts_S16_S1x16⟩,
        ⟨Rect.unit (s := S128x128) (o3) S1x16.size (i3), shapeCast S1x16 p3 shapeCasts_S16_S1x16⟩,
        ⟨Rect.unit (s := S128x128) (o2) S1x16.size (i2), shapeCast S1x16 p2 shapeCasts_S16_S1x16⟩,
        ⟨Rect.unit (s := S128x128) (o1) S1x16.size (i1), shapeCast S1x16 p1 shapeCasts_S16_S1x16⟩,
        ⟨Rect.unit (s := S128x128) (o0) S1x16.size (i0), shapeCast S1x16 p0 shapeCasts_S16_S1x16⟩]) (ix2 R e) = G (ix2 R e))
    ∧ (∀ r' e : Fin 128, r'.val ≠ R.val → v.read (Elt F) (v.writes (Elt F) fO
        [⟨Rect.unit (s := S128x128) (o7) S1x16.size (i7), shapeCast S1x16 p7 shapeCasts_S16_S1x16⟩,
        ⟨Rect.unit (s := S128x128) (o6) S1x16.size (i6), shapeCast S1x16 p6 shapeCasts_S16_S1x16⟩,
        ⟨Rect.unit (s := S128x128) (o5) S1x16.size (i5), shapeCast S1x16 p5 shapeCasts_S16_S1x16⟩,
        ⟨Rect.unit (s := S128x128) (o4) S1x16.size (i4), shapeCast S1x16 p4 shapeCasts_S16_S1x16⟩,
        ⟨Rect.unit (s := S128x128) (o3) S1x16.size (i3), shapeCast S1x16 p3 shapeCasts_S16_S1x16⟩,
        ⟨Rect.unit (s := S128x128) (o2) S1x16.size (i2), shapeCast S1x16 p2 shapeCasts_S16_S1x16⟩,
        ⟨Rect.unit (s := S128x128) (o1) S1x16.size (i1), shapeCast S1x16 p1 shapeCasts_S16_S1x16⟩,
        ⟨Rect.unit (s := S128x128) (o0) S1x16.size (i0), shapeCast S1x16 p0 shapeCasts_S16_S1x16⟩]) (ix2 r' e) = v.read (Elt F) fO (ix2 r' e)) := by
  constructor
  · intro e
    refine View.read_writes_apply_of_pieces v fO G _ ?_ _ ?_
    · -- every piece agrees with G where it is stored
      intro p hp
      simp only [List.mem_cons, List.not_mem_nil, or_false] at hp
      rcases hp with rfl | rfl | rfl | rfl | rfl | rfl | rfl | rfl
      · exact piece_agrees G R 7 (by omega) o7 ho7 i7 p7 hp7
      · exact piece_agrees G R 6 (by omega) o6 ho6 i6 p6 hp6
      · exact piece_agrees G R 5 (by omega) o5 ho5 i5 p5 hp5
      · exact piece_agrees G R 4 (by omega) o4 ho4 i4 p4 hp4
      · exact piece_agrees G R 3 (by omega) o3 ho3 i3 p3 hp3
      · exact piece_agrees G R 2 (by omega) o2 ho2 i2 p2 hp2
      · exact piece_agrees G R 1 (by omega) o1 ho1 i1 p1 hp1
      · exact piece_agrees G R 0 (by omega) o0 ho0 i0 p0 hp0
    · -- column e lies under piece e / 16
      have he := e.isLt
      have hcases : e.val / 16 = 0 ∨ e.val / 16 = 1 ∨ e.val / 16 = 2 ∨ e.val / 16 = 3 ∨ e.val / 16 = 4 ∨ e.val / 16 = 5 ∨ e.val / 16 = 6 ∨ e.val / 16 = 7 := by omega
      rcases hcases with h | h | h | h | h | h | h | h
      · exact ⟨⟨Rect.unit (s := S128x128) o0 S1x16.size i0, shapeCast S1x16 p0 shapeCasts_S16_S1x16⟩, List.mem_cons_of_mem _ (List.mem_cons_of_mem _ (List.mem_cons_of_mem _ (List.mem_cons_of_mem _ (List.mem_cons_of_mem _ (List.mem_cons_of_mem _ (List.mem_cons_of_mem _ (List.mem_cons_self))))))),
          (mem_rowRect o0 R.val (16 * 0) ho0 i0 (ix2 R e)).mpr ⟨rfl, by show 16 * 0 ≤ e.val; omega, by show e.val < 16 * 0 + 16; omega⟩⟩
      · exact ⟨⟨Rect.unit (s := S128x128) o1 S1x16.size i1, shapeCast S1x16 p1 shapeCasts_S16_S1x16⟩, List.mem_cons_of_mem _ (List.mem_cons_of_mem _ (List.mem_cons_of_mem _ (List.mem_cons_of_mem _ (List.mem_cons_of_mem _ (List.mem_cons_of_mem _ (List.mem_cons_self)))))),
          (mem_rowRect o1 R.val (16 * 1) ho1 i1 (ix2 R e)).mpr ⟨rfl, by show 16 * 1 ≤ e.val; omega, by show e.val < 16 * 1 + 16; omega⟩⟩
      · exact ⟨⟨Rect.unit (s := S128x128) o2 S1x16.size i2, shapeCast S1x16 p2 shapeCasts_S16_S1x16⟩, List.mem_cons_of_mem _ (List.mem_cons_of_mem _ (List.mem_cons_of_mem _ (List.mem_cons_of_mem _ (List.mem_cons_of_mem _ (List.mem_cons_self))))),
          (mem_rowRect o2 R.val (16 * 2) ho2 i2 (ix2 R e)).mpr ⟨rfl, by show 16 * 2 ≤ e.val; omega, by show e.val < 16 * 2 + 16; omega⟩⟩
      · exact ⟨⟨Rect.unit (s := S128x128) o3 S1x16.size i3, shapeCast S1x16 p3 shapeCasts_S16_S1x16⟩, List.mem_cons_of_mem _ (List.mem_cons_of_mem _ (List.mem_cons_of_mem _ (List.mem_cons_of_mem _ (List.mem_cons_self)))),
          (mem_rowRect o3 R.val (16 * 3) ho3 i3 (ix2 R e)).mpr ⟨rfl, by show 16 * 3 ≤ e.val; omega, by show e.val < 16 * 3 + 16; omega⟩⟩
      · exact ⟨⟨Rect.unit (s := S128x128) o4 S1x16.size i4, shapeCast S1x16 p4 shapeCasts_S16_S1x16⟩, List.mem_cons_of_mem _ (List.mem_cons_of_mem _ (List.mem_cons_of_mem _ (List.mem_cons_self))),
          (mem_rowRect o4 R.val (16 * 4) ho4 i4 (ix2 R e)).mpr ⟨rfl, by show 16 * 4 ≤ e.val; omega, by show e.val < 16 * 4 + 16; omega⟩⟩
      · exact ⟨⟨Rect.unit (s := S128x128) o5 S1x16.size i5, shapeCast S1x16 p5 shapeCasts_S16_S1x16⟩, List.mem_cons_of_mem _ (List.mem_cons_of_mem _ (List.mem_cons_self)),
          (mem_rowRect o5 R.val (16 * 5) ho5 i5 (ix2 R e)).mpr ⟨rfl, by show 16 * 5 ≤ e.val; omega, by show e.val < 16 * 5 + 16; omega⟩⟩
      · exact ⟨⟨Rect.unit (s := S128x128) o6 S1x16.size i6, shapeCast S1x16 p6 shapeCasts_S16_S1x16⟩, List.mem_cons_of_mem _ (List.mem_cons_self),
          (mem_rowRect o6 R.val (16 * 6) ho6 i6 (ix2 R e)).mpr ⟨rfl, by show 16 * 6 ≤ e.val; omega, by show e.val < 16 * 6 + 16; omega⟩⟩
      · exact ⟨⟨Rect.unit (s := S128x128) o7 S1x16.size i7, shapeCast S1x16 p7 shapeCasts_S16_S1x16⟩, List.mem_cons_self,
          (mem_rowRect o7 R.val (16 * 7) ho7 i7 (ix2 R e)).mpr ⟨rfl, by show 16 * 7 ≤ e.val; omega, by show e.val < 16 * 7 + 16; omega⟩⟩
  · -- a different row is under no piece
    intro r' e hne
    refine View.read_writes_apply_of_forall_not_mem v fO _ _ ?_
    intro p hp
    simp only [List.mem_cons, List.not_mem_nil, or_false] at hp
    rcases hp with rfl | rfl | rfl | rfl | rfl | rfl | rfl | rfl
    · exact fun hm => hne ((mem_rowRect o7 R.val (16 * 7) ho7 i7 (ix2 r' e)).mp hm).1
    · exact fun hm => hne ((mem_rowRect o6 R.val (16 * 6) ho6 i6 (ix2 r' e)).mp hm).1
    · exact fun hm => hne ((mem_rowRect o5 R.val (16 * 5) ho5 i5 (ix2 r' e)).mp hm).1
    · exact fun hm => hne ((mem_rowRect o4 R.val (16 * 4) ho4 i4 (ix2 r' e)).mp hm).1
    · exact fun hm => hne ((mem_rowRect o3 R.val (16 * 3) ho3 i3 (ix2 r' e)).mp hm).1
    · exact fun hm => hne ((mem_rowRect o2 R.val (16 * 2) ho2 i2 (ix2 r' e)).mp hm).1
    · exact fun hm => hne ((mem_rowRect o1 R.val (16 * 1) ho1 i1 (ix2 r' e)).mp hm).1
    · exact fun hm => hne ((mem_rowRect o0 R.val (16 * 0) ho0 i0 (ix2 r' e)).mp hm).1

/-- The row a trip of the first buffer's row loop decodes. -/
abbrev rowOf (r : Fin k0_t4_loop.trips) : Fin 128 := ⟨r.val, Nat.lt_of_lt_of_le r.isLt k0_t4_abs.2.1⟩

/-- Trip `r` of the first buffer's row loop, read through any view of a 128 × 128 float array. -/
theorem row_stored_view {σ : RefSig} {κ : Kind} {sp : Space} (v : View σ κ sp S128x128 .f32) (fO : v.ty.Contents (Elt F))
    (r : Fin k0_t4_loop.trips) (p0 p1 p2 p3 p4 p5 p6 p7 : Vec F S16 .f32) (G : S128x128.Idx → Elt F .f32)
    (hp0 : ∀ l : Fin 16, p0 (ix1 l) = G (ix2 (rowOf r) ⟨16 * 0 + l.val, by have := l.isLt; omega⟩))
    (hp1 : ∀ l : Fin 16, p1 (ix1 l) = G (ix2 (rowOf r) ⟨16 * 1 + l.val, by have := l.isLt; omega⟩))
    (hp2 : ∀ l : Fin 16, p2 (ix1 l) = G (ix2 (rowOf r) ⟨16 * 2 + l.val, by have := l.isLt; omega⟩))
    (hp3 : ∀ l : Fin 16, p3 (ix1 l) = G (ix2 (rowOf r) ⟨16 * 3 + l.val, by have := l.isLt; omega⟩))
    (hp4 : ∀ l : Fin 16, p4 (ix1 l) = G (ix2 (rowOf r) ⟨16 * 4 + l.val, by have := l.isLt; omega⟩))
    (hp5 : ∀ l : Fin 16, p5 (ix1 l) = G (ix2 (rowOf r) ⟨16 * 5 + l.val, by have := l.isLt; omega⟩))
    (hp6 : ∀ l : Fin 16, p6 (ix1 l) = G (ix2 (rowOf r) ⟨16 * 6 + l.val, by have := l.isLt; omega⟩))
    (hp7 : ∀ l : Fin 16, p7 (ix1 l) = G (ix2 (rowOf r) ⟨16 * 7 + l.val, by have := l.isLt; omega⟩)) :
    (∀ e : Fin 128, v.read (Elt F) (v.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩]) (ix2 (rowOf r) e) = G (ix2 (rowOf r) e))
    ∧ (∀ r' e : Fin 128, r'.val ≠ r.val → v.read (Elt F) (v.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩]) (ix2 r' e) = v.read (Elt F) fO (ix2 r' e)) :=
  row_stored_gen v fO (rowOf r) _ _ _ _ _ _ _ _
    (k0_off5_eq r) (k0_off6_eq r) (k0_off7_eq r) (k0_off8_eq r) (k0_off9_eq r) (k0_off10_eq r) (k0_off11_eq r) (k0_off12_eq r)
    (k0_off5_inb r) (k0_off6_inb r) (k0_off7_inb r) (k0_off8_inb r) (k0_off9_inb r) (k0_off10_inb r) (k0_off11_inb r) (k0_off12_inb r)
    p0 p1 p2 p3 p4 p5 p6 p7 G hp0 hp1 hp2 hp3 hp4 hp5 hp6 hp7

/-- Trip `r` of the first buffer's row loop on the buffer itself: row `r` holds `G`, the other rows are unchanged. -/
theorem row_stored (fO : (Memref.whole cc0_scratch6 : Memref sig .scVector .vmem S128x128 .f32).view.ty.Contents (Elt F))
    (r : Fin k0_t4_loop.trips) (p0 p1 p2 p3 p4 p5 p6 p7 : Vec F S16 .f32) (G : S128x128.Idx → Elt F .f32)
    (hp0 : ∀ l : Fin 16, p0 (ix1 l) = G (ix2 (rowOf r) ⟨16 * 0 + l.val, by have := l.isLt; omega⟩))
    (hp1 : ∀ l : Fin 16, p1 (ix1 l) = G (ix2 (rowOf r) ⟨16 * 1 + l.val, by have := l.isLt; omega⟩))
    (hp2 : ∀ l : Fin 16, p2 (ix1 l) = G (ix2 (rowOf r) ⟨16 * 2 + l.val, by have := l.isLt; omega⟩))
    (hp3 : ∀ l : Fin 16, p3 (ix1 l) = G (ix2 (rowOf r) ⟨16 * 3 + l.val, by have := l.isLt; omega⟩))
    (hp4 : ∀ l : Fin 16, p4 (ix1 l) = G (ix2 (rowOf r) ⟨16 * 4 + l.val, by have := l.isLt; omega⟩))
    (hp5 : ∀ l : Fin 16, p5 (ix1 l) = G (ix2 (rowOf r) ⟨16 * 5 + l.val, by have := l.isLt; omega⟩))
    (hp6 : ∀ l : Fin 16, p6 (ix1 l) = G (ix2 (rowOf r) ⟨16 * 6 + l.val, by have := l.isLt; omega⟩))
    (hp7 : ∀ l : Fin 16, p7 (ix1 l) = G (ix2 (rowOf r) ⟨16 * 7 + l.val, by have := l.isLt; omega⟩)) :
    (∀ e : Fin 128, (Memref.whole cc0_scratch6 : Memref sig .scVector .vmem S128x128 .f32).view.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩] (ix2 (rowOf r) e) = G (ix2 (rowOf r) e))
    ∧ (∀ r' e : Fin 128, r'.val ≠ r.val → (Memref.whole cc0_scratch6 : Memref sig .scVector .vmem S128x128 .f32).view.writes (Elt F) fO
        [⟨Rect.unit (s := S128x128) (k0_off12 r) S1x16.size (k0_off12_inb r), shapeCast S1x16 p7 shapeCasts_S16_S1x16⟩,
        ⟨Rect.unit (s := S128x128) (k0_off11 r) S1x16.size (k0_off11_inb r), shapeCast S1x16 p6 shapeCasts_S16_S1x16⟩,
        ⟨Rect.unit (s := S128x128) (k0_off10 r) S1x16.size (k0_off10_inb r), shapeCast S1x16 p5 shapeCasts_S16_S1x16⟩,
        ⟨Rect.unit (s := S128x128) (k0_off9 r) S1x16.size (k0_off9_inb r), shapeCast S1x16 p4 shapeCasts_S16_S1x16⟩,
        ⟨Rect.unit (s := S128x128) (k0_off8 r) S1x16.size (k0_off8_inb r), shapeCast S1x16 p3 shapeCasts_S16_S1x16⟩,
        ⟨Rect.unit (s := S128x128) (k0_off7 r) S1x16.size (k0_off7_inb r), shapeCast S1x16 p2 shapeCasts_S16_S1x16⟩,
        ⟨Rect.unit (s := S128x128) (k0_off6 r) S1x16.size (k0_off6_inb r), shapeCast S1x16 p1 shapeCasts_S16_S1x16⟩,
        ⟨Rect.unit (s := S128x128) (k0_off5 r) S1x16.size (k0_off5_inb r), shapeCast S1x16 p0 shapeCasts_S16_S1x16⟩] (ix2 r' e) = fO (ix2 r' e)) :=
  row_stored_view (Memref.whole cc0_scratch6 : Memref sig .scVector .vmem S128x128 .f32).view fO r p0 p1 p2 p3 p4 p5 p6 p7 G hp0 hp1 hp2 hp3 hp4 hp5 hp6 hp7

/-- The row a trip of the second buffer's row loop decodes. -/
abbrev rowOf' (r : Fin k0_t6_loop.trips) : Fin 128 := ⟨r.val, Nat.lt_of_lt_of_le r.isLt k0_t6_abs.2.1⟩

/-- Trip `r` of the second buffer's row loop, read through any view of a 128 × 128 float array. -/
theorem row_stored'_view {σ : RefSig} {κ : Kind} {sp : Space} (v : View σ κ sp S128x128 .f32) (fO : v.ty.Contents (Elt F))
    (r : Fin k0_t6_loop.trips) (p0 p1 p2 p3 p4 p5 p6 p7 : Vec F S16 .f32) (G : S128x128.Idx → Elt F .f32)
    (hp0 : ∀ l : Fin 16, p0 (ix1 l) = G (ix2 (rowOf' r) ⟨16 * 0 + l.val, by have := l.isLt; omega⟩))
    (hp1 : ∀ l : Fin 16, p1 (ix1 l) = G (ix2 (rowOf' r) ⟨16 * 1 + l.val, by have := l.isLt; omega⟩))
    (hp2 : ∀ l : Fin 16, p2 (ix1 l) = G (ix2 (rowOf' r) ⟨16 * 2 + l.val, by have := l.isLt; omega⟩))
    (hp3 : ∀ l : Fin 16, p3 (ix1 l) = G (ix2 (rowOf' r) ⟨16 * 3 + l.val, by have := l.isLt; omega⟩))
    (hp4 : ∀ l : Fin 16, p4 (ix1 l) = G (ix2 (rowOf' r) ⟨16 * 4 + l.val, by have := l.isLt; omega⟩))
    (hp5 : ∀ l : Fin 16, p5 (ix1 l) = G (ix2 (rowOf' r) ⟨16 * 5 + l.val, by have := l.isLt; omega⟩))
    (hp6 : ∀ l : Fin 16, p6 (ix1 l) = G (ix2 (rowOf' r) ⟨16 * 6 + l.val, by have := l.isLt; omega⟩))
    (hp7 : ∀ l : Fin 16, p7 (ix1 l) = G (ix2 (rowOf' r) ⟨16 * 7 + l.val, by have := l.isLt; omega⟩)) :
    (∀ e : Fin 128, v.read (Elt F) (v.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩]) (ix2 (rowOf' r) e) = G (ix2 (rowOf' r) e))
    ∧ (∀ r' e : Fin 128, r'.val ≠ r.val → v.read (Elt F) (v.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩]) (ix2 r' e) = v.read (Elt F) fO (ix2 r' e)) :=
  row_stored_gen v fO (rowOf' r) _ _ _ _ _ _ _ _
    (k0_off17_eq r) (k0_off18_eq r) (k0_off19_eq r) (k0_off20_eq r) (k0_off21_eq r) (k0_off22_eq r) (k0_off23_eq r) (k0_off24_eq r)
    (k0_off17_inb r) (k0_off18_inb r) (k0_off19_inb r) (k0_off20_inb r) (k0_off21_inb r) (k0_off22_inb r) (k0_off23_inb r) (k0_off24_inb r)
    p0 p1 p2 p3 p4 p5 p6 p7 G hp0 hp1 hp2 hp3 hp4 hp5 hp6 hp7

/-- Trip `r` of the second buffer's row loop on the buffer itself: row `r` holds `G`, the other rows are unchanged. -/
theorem row_stored' (fO : (Memref.whole cc0_scratch7 : Memref sig .scVector .vmem S128x128 .f32).view.ty.Contents (Elt F))
    (r : Fin k0_t6_loop.trips) (p0 p1 p2 p3 p4 p5 p6 p7 : Vec F S16 .f32) (G : S128x128.Idx → Elt F .f32)
    (hp0 : ∀ l : Fin 16, p0 (ix1 l) = G (ix2 (rowOf' r) ⟨16 * 0 + l.val, by have := l.isLt; omega⟩))
    (hp1 : ∀ l : Fin 16, p1 (ix1 l) = G (ix2 (rowOf' r) ⟨16 * 1 + l.val, by have := l.isLt; omega⟩))
    (hp2 : ∀ l : Fin 16, p2 (ix1 l) = G (ix2 (rowOf' r) ⟨16 * 2 + l.val, by have := l.isLt; omega⟩))
    (hp3 : ∀ l : Fin 16, p3 (ix1 l) = G (ix2 (rowOf' r) ⟨16 * 3 + l.val, by have := l.isLt; omega⟩))
    (hp4 : ∀ l : Fin 16, p4 (ix1 l) = G (ix2 (rowOf' r) ⟨16 * 4 + l.val, by have := l.isLt; omega⟩))
    (hp5 : ∀ l : Fin 16, p5 (ix1 l) = G (ix2 (rowOf' r) ⟨16 * 5 + l.val, by have := l.isLt; omega⟩))
    (hp6 : ∀ l : Fin 16, p6 (ix1 l) = G (ix2 (rowOf' r) ⟨16 * 6 + l.val, by have := l.isLt; omega⟩))
    (hp7 : ∀ l : Fin 16, p7 (ix1 l) = G (ix2 (rowOf' r) ⟨16 * 7 + l.val, by have := l.isLt; omega⟩)) :
    (∀ e : Fin 128, (Memref.whole cc0_scratch7 : Memref sig .scVector .vmem S128x128 .f32).view.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩] (ix2 (rowOf' r) e) = G (ix2 (rowOf' r) e))
    ∧ (∀ r' e : Fin 128, r'.val ≠ r.val → (Memref.whole cc0_scratch7 : Memref sig .scVector .vmem S128x128 .f32).view.writes (Elt F) fO
        [⟨Rect.unit (s := S128x128) (k0_off24 r) S1x16.size (k0_off24_inb r), shapeCast S1x16 p7 shapeCasts_S16_S1x16⟩,
        ⟨Rect.unit (s := S128x128) (k0_off23 r) S1x16.size (k0_off23_inb r), shapeCast S1x16 p6 shapeCasts_S16_S1x16⟩,
        ⟨Rect.unit (s := S128x128) (k0_off22 r) S1x16.size (k0_off22_inb r), shapeCast S1x16 p5 shapeCasts_S16_S1x16⟩,
        ⟨Rect.unit (s := S128x128) (k0_off21 r) S1x16.size (k0_off21_inb r), shapeCast S1x16 p4 shapeCasts_S16_S1x16⟩,
        ⟨Rect.unit (s := S128x128) (k0_off20 r) S1x16.size (k0_off20_inb r), shapeCast S1x16 p3 shapeCasts_S16_S1x16⟩,
        ⟨Rect.unit (s := S128x128) (k0_off19 r) S1x16.size (k0_off19_inb r), shapeCast S1x16 p2 shapeCasts_S16_S1x16⟩,
        ⟨Rect.unit (s := S128x128) (k0_off18 r) S1x16.size (k0_off18_inb r), shapeCast S1x16 p1 shapeCasts_S16_S1x16⟩,
        ⟨Rect.unit (s := S128x128) (k0_off17 r) S1x16.size (k0_off17_inb r), shapeCast S1x16 p0 shapeCasts_S16_S1x16⟩] (ix2 r' e) = fO (ix2 r' e)) :=
  row_stored'_view (Memref.whole cc0_scratch7 : Memref sig .scVector .vmem S128x128 .f32).view fO r p0 p1 p2 p3 p4 p5 p6 p7 G hp0 hp1 hp2 hp3 hp4 hp5 hp6 hp7

end Cert.Proof.KB

end
-- ==== Proof.KBGather.lean ====
/-
  The indirect gather's payload read at an index: row `k` of the gathered block is the row of the packed table that
  word `k` of the offset list names, column by column.
-/
import proofs.«215948_g88356067214102_cont_sun_c4_674_26_alg».proof.Proof.KBSetup
import Idealize.ShloMosaic.Lib.SparseCore.Stream
import Idealize.ShloMosaic.Lib.ValueIdx

noncomputable section

namespace Cert.Proof.KB

open Cert.Kernel Cert.Kernel.Gen

open Idealize.ShloMosaic
open Idealize.ShloMosaic.ValueIdx

variable {F : FTy → Type}

/-- On a list of 128 words the row-major numbering is the coordinate itself: entry `k` is at index `k`. -/
theorem rowMajor_symm_S128 (k : Fin S128.numel) : S128.rowMajor.symm k = ix1 (⟨k.val, k.isLt⟩ : Fin 128) := by
  rw [Equiv.symm_apply_eq]
  apply Fin.ext
  rw [Shape.rowMajor_val_one]

/-- The gathered block at row `k`, column `col`, is the table at the row word `k` of the list names, same column:
    on the indexed axis the source index is the named row, off it the destination's own coordinate. -/
theorem gathered_apply' (hg : S25000x128.Gathers 0 S128x128) (g : Vec F S25000x128 .i32) (idx : Vec F S128 .i32)
    (hn : S128.numel = S128x128.size hg.axis') (hin : ∀ x, (idx x).toNat < S25000x128.size hg.axis) (k col : Fin 128) :
    SparseCore.gatherPayload hg g (SparseCore.rows idx hn hin) (ix2 k col)
      = g (ix2 (⟨(idx (ix1 k)).toNat, hin (ix1 k)⟩ : Fin 25000) col) := by
  unfold SparseCore.gatherPayload
  refine congrArg g ?_
  funext b
  match b with
  | ⟨0, h0⟩ =>
    refine (Shape.Gathers.idx_axis hg _ _).trans ?_
    apply Fin.ext
    show (idx (S128.rowMajor.symm _)).toNat = (idx (ix1 k)).toNat
    rw [rowMajor_symm_S128]
    rfl
  | ⟨1, h1⟩ =>
    apply Fin.ext
    rw [Shape.Gathers.idx_of_ne hg _ _ ⟨1, h1⟩ Nat.one_ne_zero]
    rfl

/-- The same, at the program's own evidence that the table gathers into the block. -/
theorem gathered_apply (g : Vec F S25000x128 .i32) (idx : Vec F S128 .i32)
    (hn : S128.numel = S128x128.size (gathers_S25000x128_S128x128).axis')
    (hin : ∀ x, (idx x).toNat < S25000x128.size (gathers_S25000x128_S128x128).axis) (k col : Fin 128) :
    SparseCore.gatherPayload gathers_S25000x128_S128x128 g (SparseCore.rows idx hn hin) (ix2 k col)
      = g (ix2 (⟨(idx (ix1 k)).toNat, hin (ix1 k)⟩ : Fin 25000) col) :=
  gathered_apply' _ g idx hn hin k col

end Cert.Proof.KB

end
-- ==== Proof.KBGlue.lean ====
/-
  Scratch contents, read and written: small pure facts.

  A tile's scratch buffers are rewritten whole (a transfer landing, a gather landing) or sixteen words at a time
  (a store of one lane vector). Each fact below reads such contents at one index: a whole buffer reads as itself;
  a block of sixteen words at offset `16 k` holds, at its lane `x`, the word `16 k + x` of the list; a chunk of the
  query list landed whole holds the chunk's words; the rows a gather landed are the table's rows the list names.
-/
import proofs.«215948_g88356067214102_cont_sun_c4_674_26_alg».proof.Proof.KBChunk
import proofs.«215948_g88356067214102_cont_sun_c4_674_26_alg».proof.Proof.KBRow
import proofs.«215948_g88356067214102_cont_sun_c4_674_26_alg».proof.Proof.Words
import proofs.«215948_g88356067214102_cont_sun_c4_674_26_alg».proof.Proof.Flat
import proofs.«215948_g88356067214102_cont_sun_c4_674_26_alg».proof.Proof.KBGather
import Idealize.ShloMosaic.Lib.SparseCore.Stream
import Idealize.ShloMosaic.Lib.Writes
import Idealize.ShloMosaic.Lib.ValueIdx

noncomputable section

namespace Cert.Proof.KB

open Cert.Kernel Cert.Kernel.Gen Idealize.ShloMosaic Idealize.ShloMosaic.ValueIdx

variable {F : FTy → Type} [FloatOps F]

/-! ## A whole scratch read whole -/

/-- A load through the whole of a buffer reads its contents. -/
theorem readAt_whole_ref (b : Ref sig .scVector) (f : b.ty.Contents (Elt F)) :
    View.readAt (Elt F) (Memref.whole b).view (LoadRect.whole _) f = f :=
  Memref.readAt_whole (Elt F) b f

theorem readAt_whole_s0 (f : Vec F S128 .i32) :
    View.readAt (Elt F) (Memref.whole cc0_scratch0).view (LoadRect.whole S128) f = f :=
  Memref.readAt_whole (Elt F) cc0_scratch0 f
theorem readAt_whole_s1 (f : Vec F S128 .i32) :
    View.readAt (Elt F) (Memref.whole cc0_scratch1).view (LoadRect.whole S128) f = f :=
  Memref.readAt_whole (Elt F) cc0_scratch1 f
theorem readAt_whole_s4 (f : Vec F S128x128 .i32) :
    View.readAt (Elt F) (Memref.whole cc0_scratch4).view (LoadRect.whole S128x128) f = f :=
  Memref.readAt_whole (Elt F) cc0_scratch4 f
theorem readAt_whole_s5 (f : Vec F S128x128 .i32) :
    View.readAt (Elt F) (Memref.whole cc0_scratch5).view (LoadRect.whole S128x128) f = f :=
  Memref.readAt_whole (Elt F) cc0_scratch5 f
theorem readAt_whole_s8 (f : Vec F S64 .f32) :
    View.readAt (Elt F) (Memref.whole cc0_scratch8).view (LoadRect.whole S64) f = f :=
  Memref.readAt_whole (Elt F) cc0_scratch8 f

/-! ## The lane vector that holds the row counter -/

/-- The sixteen-word rectangle at offset zero of a sixteen-word buffer places each index at itself. -/
theorem unit16_idx (x : S16.Idx) :
    (Rect.unit (s := S16) ![0] S16.size inb_S16_S16_0).toLoadRect.idx x = x := by
  funext a; apply Fin.ext
  rw [LoadRect.idx_apply, Subsingleton.elim a 0]
  show 0 + 1 * (x 0).val = (x 0).val
  omega

/-- A load of the counter's vector reads the buffer. -/
theorem rsplat_read (f : Vec F S16 .i32) (x : S16.Idx) :
    View.readAt (Elt F) (Memref.whole cc0_scratch9).view (Rect.unit ![0] S16.size inb_S16_S16_0).toLoadRect f x = f x := by
  show View.read (Elt F) (View.whole cc0_scratch9) f _ = f x
  rw [View.read_whole, unit16_idx]

/-- A store of the counter's vector replaces the buffer. -/
theorem rsplat_stored (f w : Vec F S16 .i32) (x : S16.Idx) :
    (Memref.whole cc0_scratch9).view.writes (Elt F) f [⟨Rect.unit ![0] S16.size inb_S16_S16_0, w⟩] x = w x := by
  have h := View.read_writes_cons_emb (View.whole cc0_scratch9) (Val := Elt F) f (Rect.unit ![0] S16.size inb_S16_S16_0) w [] x
  rw [View.read_whole] at h
  have e : (Rect.unit (s := S16) ![0] S16.size inb_S16_S16_0).emb x = x := unit16_idx x
  rw [e] at h
  exact h

/-- The counter's step: every lane holds `r`, so every lane of the sum holds `r + 1`. -/
theorem splat_succ (r : Nat) (hr : r < 128) (v59 : Vec F S16 .i32) (h : ∀ x, v59 x = BitVec.ofNat 32 r) (x : S16.Idx) :
    k0_pay42 v59 x = BitVec.ofNat 32 (r + 1) := by
  show IntOp.addi (v59 x) 1#32 = _
  rw [h x]; exact Cert.Words.succ_word r hr
theorem splat_succ' (r : Nat) (hr : r < 128) (v59 : Vec F S16 .i32) (h : ∀ x, v59 x = BitVec.ofNat 32 r) (x : S16.Idx) :
    k0_pay47 v59 x = BitVec.ofNat 32 (r + 1) := by
  show IntOp.addi (v59 x) 1#32 = _
  rw [h x]; exact Cert.Words.succ_word r hr

/-- The counter's start: every lane holds zero. -/
theorem splat_zero (x : S16.Idx) : (k0_pay41 : IVec S16 32) x = BitVec.ofNat 32 0 := rfl
theorem splat_zero' (x : S16.Idx) : (k0_pay46 : IVec S16 32) x = BitVec.ofNat 32 0 := rfl

/-! ## A block of sixteen words of a list of 128 -/

/-- The sixteen-word rectangle at offset `N` of a list of 128 places its lane `x` at word `N + x`. -/
theorem block16_idx (off : Fin 1 → Nat) (inb : ∀ a, off a + S16.size a ≤ S128.size a) (N : Nat) (hoff : off = ![N])
    (hN : N + 16 ≤ 128) (x : Fin 16) :
    (Rect.unit (s := S128) off S16.size inb).toLoadRect.idx (ix1 x) = ix1 (⟨N + x.val, by omega⟩ : Fin 128) := by
  subst hoff
  funext a; apply Fin.ext
  rw [LoadRect.idx_apply, Subsingleton.elim a 0]
  show N + 1 * x.val = N + x.val
  omega

/-- Word `j` of the list is in the block exactly when `N ≤ j < N + 16`. -/
theorem mem_block16 (off : Fin 1 → Nat) (inb : ∀ a, off a + S16.size a ≤ S128.size a) (N : Nat) (hoff : off = ![N])
    (j : Fin 128) : ix1 j ∈ (Rect.unit (s := S128) off S16.size inb).set ↔ N ≤ j.val ∧ j.val < N + 16 := by
  subst hoff
  rw [Rect.mem_set_unit]
  constructor
  · intro h; exact h 0
  · intro h a; rw [Subsingleton.elim a 0]; exact h

/-- A load of the block from the first index scratch reads the list's words `N ‥ N + 15`. -/
theorem block_read0 (fI : Vec F S128 .i32) (off : Fin 1 → Nat) (inb : ∀ a, off a + S16.size a ≤ S128.size a) (N : Nat)
    (hoff : off = ![N]) (hN : N + 16 ≤ 128) (x : Fin 16) :
    View.readAt (Elt F) (Memref.whole cc0_scratch0).view (Rect.unit (s := S128) off S16.size inb).toLoadRect fI (ix1 x)
      = fI (ix1 (⟨N + x.val, by omega⟩ : Fin 128)) := by
  show View.read (Elt F) (View.whole cc0_scratch0) fI _ = _
  rw [View.read_whole, block16_idx off inb N hoff hN x]
/-- The same from the second index scratch. -/
theorem block_read1 (fI : Vec F S128 .i32) (off : Fin 1 → Nat) (inb : ∀ a, off a + S16.size a ≤ S128.size a) (N : Nat)
    (hoff : off = ![N]) (hN : N + 16 ≤ 128) (x : Fin 16) :
    View.readAt (Elt F) (Memref.whole cc0_scratch1).view (Rect.unit (s := S128) off S16.size inb).toLoadRect fI (ix1 x)
      = fI (ix1 (⟨N + x.val, by omega⟩ : Fin 128)) := by
  show View.read (Elt F) (View.whole cc0_scratch1) fI _ = _
  rw [View.read_whole, block16_idx off inb N hoff hN x]

/-- A store of the block into the first list scratch: if the list agreed with `g` below `N` and the stored vector is
    `g` on `N ‥ N + 15`, the list agrees with `g` below `N + 16`. -/
theorem block_stored2 (fQ : Vec F S128 .i32) (off : Fin 1 → Nat) (inb : ∀ a, off a + S16.size a ≤ S128.size a) (N : Nat)
    (hoff : off = ![N]) (hN : N + 16 ≤ 128) (w : Vec F S16 .i32) (g : Fin 128 → BitVec 32)
    (hQ : ∀ j : Fin 128, j.val < N → fQ (ix1 j) = g j)
    (hw : ∀ x : Fin 16, w (ix1 x) = g (⟨N + x.val, by omega⟩ : Fin 128)) :
    ∀ j : Fin 128, j.val < N + 16 →
      (Memref.whole cc0_scratch2).view.writes (Elt F) fQ [⟨Rect.unit (s := S128) off S16.size inb, w⟩] (ix1 j) = g j := by
  intro j hj
  by_cases hlo : N ≤ j.val
  · have h := View.read_writes_cons_emb (View.whole cc0_scratch2) (Val := Elt F) fQ (Rect.unit (s := S128) off S16.size inb) w []
      (ix1 (⟨j.val - N, by omega⟩ : Fin 16))
    rw [View.read_whole] at h
    have e : (Rect.unit (s := S128) off S16.size inb).emb (ix1 (⟨j.val - N, by omega⟩ : Fin 16)) = ix1 j := by
      refine (block16_idx off inb N hoff hN _).trans ?_
      congr 1; apply Fin.ext; show N + (j.val - N) = j.val; omega
    rw [e] at h
    refine h.trans ((hw _).trans ?_)
    congr 1; apply Fin.ext; show N + (j.val - N) = j.val; omega
  · have h := View.read_writes_apply_of_forall_not_mem (View.whole cc0_scratch2) (Val := Elt F) fQ (ix1 j)
      [⟨Rect.unit (s := S128) off S16.size inb, w⟩] (by
        intro p hp
        rw [List.mem_singleton] at hp; subst hp
        rw [mem_block16 off inb N hoff j]; omega)
    rw [View.read_whole, View.read_whole] at h
    exact h.trans (hQ j (by omega))
/-- The same into the second list scratch. -/
theorem block_stored3 (fQ : Vec F S128 .i32) (off : Fin 1 → Nat) (inb : ∀ a, off a + S16.size a ≤ S128.size a) (N : Nat)
    (hoff : off = ![N]) (hN : N + 16 ≤ 128) (w : Vec F S16 .i32) (g : Fin 128 → BitVec 32)
    (hQ : ∀ j : Fin 128, j.val < N → fQ (ix1 j) = g j)
    (hw : ∀ x : Fin 16, w (ix1 x) = g (⟨N + x.val, by omega⟩ : Fin 128)) :
    ∀ j : Fin 128, j.val < N + 16 →
      (Memref.whole cc0_scratch3).view.writes (Elt F) fQ [⟨Rect.unit (s := S128) off S16.size inb, w⟩] (ix1 j) = g j := by
  intro j hj
  by_cases hlo : N ≤ j.val
  · have h := View.read_writes_cons_emb (View.whole cc0_scratch3) (Val := Elt F) fQ (Rect.unit (s := S128) off S16.size inb) w []
      (ix1 (⟨j.val - N, by omega⟩ : Fin 16))
    rw [View.read_whole] at h
    have e : (Rect.unit (s := S128) off S16.size inb).emb (ix1 (⟨j.val - N, by omega⟩ : Fin 16)) = ix1 j := by
      refine (block16_idx off inb N hoff hN _).trans ?_
      congr 1; apply Fin.ext; show N + (j.val - N) = j.val; omega
    rw [e] at h
    refine h.trans ((hw _).trans ?_)
    congr 1; apply Fin.ext; show N + (j.val - N) = j.val; omega
  · have h := View.read_writes_apply_of_forall_not_mem (View.whole cc0_scratch3) (Val := Elt F) fQ (ix1 j)
      [⟨Rect.unit (s := S128) off S16.size inb, w⟩] (by
        intro p hp
        rw [List.mem_singleton] at hp; subst hp
        rw [mem_block16 off inb N hoff j]; omega)
    rw [View.read_whole, View.read_whole] at h
    exact h.trans (hQ j (by omega))

/-! ## One trip of the loop that shifts the query words into the row list

Trip `k` of eight loads words `16 k ‥ 16 k + 15` of the index scratch, shifts each right by two and stores them
at the same places of the list scratch. -/

theorem trips1_lt (k : Fin k0_t1_loop.trips) : k.val < 8 := lt_of_lt_of_le k.isLt k0_t1_abs.2.1
theorem trips2_lt (k : Fin k0_t2_loop.trips) : k.val < 8 := lt_of_lt_of_le k.isLt k0_t2_abs.2.1
theorem trips5_lt (k : Fin k0_t5_loop.trips) : k.val < 8 := lt_of_lt_of_le k.isLt k0_t5_abs.2.1
theorem trips7_lt (k : Fin k0_t7_loop.trips) : k.val < 8 := lt_of_lt_of_le k.isLt k0_t7_abs.2.1

/-- The first slot's trip before the main loop. -/
theorem q_stored0 (fI fQ : Vec F S128 .i32) (k : Fin k0_t1_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch2).view.writes (Elt F) fQ
        [⟨Rect.unit (s := S128) (k0_off2 k) S16.size (k0_off2_inb k),
          k0_pay44 (View.readAt (Elt F) (Memref.whole cc0_scratch0).view (Rect.unit (s := S128) (k0_off2 k) S16.size (k0_off2_inb k)).toLoadRect fI)⟩] (ix1 j)
        = IntOp.shrsi .vector (fI (ix1 j)) 2#32 := by
  have hk := trips1_lt k
  intro j hj
  have h1 : 16 * k.val + 16 ≤ 128 := by omega
  have h2 : j.val < 16 * k.val + 16 := by omega
  refine block_stored2 fQ (k0_off2 k) (k0_off2_inb k) (16 * k.val) (k0_off2_eq k) h1 _
    (fun j => IntOp.shrsi .vector (fI (ix1 j)) 2#32) hQ (fun x => ?_) j h2
  have hb := block_read0 fI (k0_off2 k) (k0_off2_inb k) (16 * k.val) (k0_off2_eq k) h1 x
  exact congrArg (fun t => IntOp.shrsi .vector t 2#32) hb
/-- The second slot's trip before the main loop. -/
theorem q_stored1 (fI fQ : Vec F S128 .i32) (k : Fin k0_t2_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch3).view.writes (Elt F) fQ
        [⟨Rect.unit (s := S128) (k0_off3 k) S16.size (k0_off3_inb k),
          k0_pay45 (View.readAt (Elt F) (Memref.whole cc0_scratch1).view (Rect.unit (s := S128) (k0_off3 k) S16.size (k0_off3_inb k)).toLoadRect fI)⟩] (ix1 j)
        = IntOp.shrsi .vector (fI (ix1 j)) 2#32 := by
  have hk := trips2_lt k
  intro j hj
  have h1 : 16 * k.val + 16 ≤ 128 := by omega
  have h2 : j.val < 16 * k.val + 16 := by omega
  refine block_stored3 fQ (k0_off3 k) (k0_off3_inb k) (16 * k.val) (k0_off3_eq k) h1 _
    (fun j => IntOp.shrsi .vector (fI (ix1 j)) 2#32) hQ (fun x => ?_) j h2
  have hb := block_read1 fI (k0_off3 k) (k0_off3_inb k) (16 * k.val) (k0_off3_eq k) h1 x
  exact congrArg (fun t => IntOp.shrsi .vector t 2#32) hb
/-- The first slot's trip inside the main loop. -/
theorem q_stored0' (fI fQ : Vec F S128 .i32) (k0_t3 : Fin k0_t3_loop.trips) (k0_h2 : k0_cond2 k0_t3 = 1#1) (k : Fin k0_t5_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch2).view.writes (Elt F) fQ
        [⟨Rect.unit (s := S128) (k0_off14 k) S16.size (k0_off14_inb k0_t3 k k0_h2),
          k0_pay43 (View.readAt (Elt F) (Memref.whole cc0_scratch0).view (Rect.unit (s := S128) (k0_off14 k) S16.size (k0_off14_inb k0_t3 k k0_h2)).toLoadRect fI)⟩] (ix1 j)
        = IntOp.shrsi .vector (fI (ix1 j)) 2#32 := by
  have hk := trips5_lt k
  intro j hj
  have h1 : 16 * k.val + 16 ≤ 128 := by omega
  have h2 : j.val < 16 * k.val + 16 := by omega
  refine block_stored2 fQ (k0_off14 k) (k0_off14_inb k0_t3 k k0_h2) (16 * k.val) (k0_off14_eq k) h1 _
    (fun j => IntOp.shrsi .vector (fI (ix1 j)) 2#32) hQ (fun x => ?_) j h2
  have hb := block_read0 fI (k0_off14 k) (k0_off14_inb k0_t3 k k0_h2) (16 * k.val) (k0_off14_eq k) h1 x
  exact congrArg (fun t => IntOp.shrsi .vector t 2#32) hb
/-- The second slot's trip inside the main loop. -/
theorem q_stored1' (fI fQ : Vec F S128 .i32) (k0_t3 : Fin k0_t3_loop.trips) (k0_h4 : k0_cond4 k0_t3 = 1#1) (k : Fin k0_t7_loop.trips)
    (hQ : ∀ j : Fin 128, j.val < 16 * k.val → fQ (ix1 j) = IntOp.shrsi .vector (fI (ix1 j)) 2#32) :
    ∀ j : Fin 128, j.val < 16 * (k.val + 1) →
      (Memref.whole cc0_scratch3).view.writes (Elt F) fQ
        [⟨Rect.unit (s := S128) (k0_off26 k) S16.size (k0_off26_inb k0_t3 k k0_h4),
          k0_pay48 (View.readAt (Elt F) (Memref.whole cc0_scratch1).view (Rect.unit (s := S128) (k0_off26 k) S16.size (k0_off26_inb k0_t3 k k0_h4)).toLoadRect fI)⟩] (ix1 j)
        = IntOp.shrsi .vector (fI (ix1 j)) 2#32 := by
  have hk := trips7_lt k
  intro j hj
  have h1 : 16 * k.val + 16 ≤ 128 := by omega
  have h2 : j.val < 16 * k.val + 16 := by omega
  refine block_stored3 fQ (k0_off26 k) (k0_off26_inb k0_t3 k k0_h4) (16 * k.val) (k0_off26_eq k) h1 _
    (fun j => IntOp.shrsi .vector (fI (ix1 j)) 2#32) hQ (fun x => ?_) j h2
  have hb := block_read1 fI (k0_off26 k) (k0_off26_inb k0_t3 k k0_h4) (16 * k.val) (k0_off26_eq k) h1 x
  exact congrArg (fun t => IntOp.shrsi .vector t 2#32) hb

/-! ## A chunk of query words landed, and the centroids landed -/

/-- A rank-one array read through the 128-word window at offset `N`: lane `j` of the window is word `N + j`. -/
theorem window_read (xq : Vec F S204800 .i32) (off : Fin 1 → Nat) (h : ∀ a, off a + S128.size a ≤ S204800.size a) (N : Nat)
    (hoff : off = ![N]) (hN : N + 128 ≤ 204800) (j : Fin 128) :
    View.read (Elt F) ((Memref.whole main_v0_scv).slice (Rect.unit (s := S204800) off S128.size h) (fun _ => rfl)).view xq (ix1 j)
      = xq (ix1 (⟨N + j.val, by omega⟩ : Fin 204800)) := by
  subst hoff
  show _root_.cast rfl (xq ((Rect.unit (s := S204800) ![N] S128.size h).emb (ix1 j))) = _
  rw [cast_eq]
  refine congrArg xq ?_
  funext a; apply Fin.ext
  rw [Subsingleton.elim a 0]
  show N + 1 * j.val = N + j.val
  omega

/-- The transfer of the window into the first index scratch leaves the window's words there. -/
theorem chunk_landed0 (xq : Vec F S204800 .i32) (off : Fin 1 → Nat) (h : ∀ a, off a + S128.size a ≤ S204800.size a) (N : Nat)
    (hoff : off = ![N]) (hN : N + 128 ≤ 204800) (f0 : Vec F S128 .i32) (j : Fin 128) :
    View.write (Elt F) (Memref.whole cc0_scratch0).view f0
        (ReadAs.same.apply (View.read (Elt F) ((Memref.whole main_v0_scv).slice (Rect.unit (s := S204800) off S128.size h) (fun _ => rfl)).view xq))
        Finset.univ (ix1 j)
      = xq (ix1 (⟨N + j.val, by omega⟩ : Fin 204800)) :=
  (congrFun (View.write_whole_univ (Val := Elt F) cc0_scratch0 f0 _) (ix1 j)).trans (window_read xq off h N hoff hN j)
/-- The same into the second index scratch. -/
theorem chunk_landed1 (xq : Vec F S204800 .i32) (off : Fin 1 → Nat) (h : ∀ a, off a + S128.size a ≤ S204800.size a) (N : Nat)
    (hoff : off = ![N]) (hN : N + 128 ≤ 204800) (f0 : Vec F S128 .i32) (j : Fin 128) :
    View.write (Elt F) (Memref.whole cc0_scratch1).view f0
        (ReadAs.same.apply (View.read (Elt F) ((Memref.whole main_v0_scv).slice (Rect.unit (s := S204800) off S128.size h) (fun _ => rfl)).view xq))
        Finset.univ (ix1 j)
      = xq (ix1 (⟨N + j.val, by omega⟩ : Fin 204800)) :=
  (congrFun (View.write_whole_univ (Val := Elt F) cc0_scratch1 f0 _) (ix1 j)).trans (window_read xq off h N hoff hN j)

/-- Inside a tile's 6400 queries the clamp of `qAt` is vacuous. -/
theorem qAt_eq (xq : Vec F S204800 .i32) (R : Nat) (hR : R < 204800) : qAt xq R = xq (ix1 (⟨R, hR⟩ : Fin 204800)) := by
  unfold qAt
  congr 2; apply Fin.ext; show min R 204799 = R; omega

/-- Chunk `n` of tile `L` landed in the first index scratch. -/
theorem chunkI_landed0 (xq : Vec F S204800 .i32) (off : Fin 1 → Nat) (h : ∀ a, off a + S128.size a ≤ S204800.size a)
    (L : grid0.Coords) (n : Nat) (hn : n < 50) (hoff : off = ![base L + 128 * n]) (f0 : Vec F S128 .i32) :
    ChunkI xq L n (View.write (Elt F) (Memref.whole cc0_scratch0).view f0
        (ReadAs.same.apply (View.read (Elt F) ((Memref.whole main_v0_scv).slice (Rect.unit (s := S204800) off S128.size h) (fun _ => rfl)).view xq))
        Finset.univ) := by
  intro j
  have hb := base_le L
  have hj := j.isLt
  rw [chunk_landed0 xq off h (base L + 128 * n) hoff (by omega) f0 j, qAt_eq xq _ (by omega)]
/-- Chunk `n` of tile `L` landed in the second index scratch. -/
theorem chunkI_landed1 (xq : Vec F S204800 .i32) (off : Fin 1 → Nat) (h : ∀ a, off a + S128.size a ≤ S204800.size a)
    (L : grid0.Coords) (n : Nat) (hn : n < 50) (hoff : off = ![base L + 128 * n]) (f0 : Vec F S128 .i32) :
    ChunkI xq L n (View.write (Elt F) (Memref.whole cc0_scratch1).view f0
        (ReadAs.same.apply (View.read (Elt F) ((Memref.whole main_v0_scv).slice (Rect.unit (s := S204800) off S128.size h) (fun _ => rfl)).view xq))
        Finset.univ) := by
  intro j
  have hb := base_le L
  have hj := j.isLt
  rw [chunk_landed1 xq off h (base L + 128 * n) hoff (by omega) f0 j, qAt_eq xq _ (by omega)]

/-- The transfer of the whole centroid list into its scratch leaves the list there. -/
theorem book_landed (xb f8 : Vec F S64 .f32) :
    View.write (Elt F) (Memref.whole cc0_scratch8).view f8
        (ReadAs.same.apply (View.read (Elt F) (Memref.whole main_v2_scv).view xb)) Finset.univ = xb :=
  View.write_whole_univ (Val := Elt F) cc0_scratch8 f8 _

/-! ## From the scratches' contents to the decoded rows -/

/-- A chunk's decoded row computed from the scratches is the decoded row of the flat query it stands for. -/
theorem chunk_value (xq : Vec F S204800 .i32) (xc : Vec F S25000x128 .i32) (xb : Vec F S64 .f32) (L : grid0.Coords) (n : Nat)
    (fI : Vec F S128 .i32) (fC : Vec F S128x128 .i32) (hI : ChunkI xq L n fI) (hC : ChunkC xq xc L n fC) (r e : Fin 128) :
    rowGAt fI fC xb r e = oAt xq xc xb (base L + 128 * n + r.val) e := by
  unfold rowGAt oAt Cert.Decode.flatAt
  rw [hC r _, hI r]
  rfl

/-- The gathered rows hold codes when the table does. -/
theorem codes_le (xq : Vec F S204800 .i32) (xc : Vec F S25000x128 .i32) (L : grid0.Coords) (n : Nat) (fC : Vec F S128x128 .i32)
    (hC : ChunkC xq xc L n fC) (hle : ∀ j, (xc j).toNat ≤ 15) : ∀ j, (fC j).toNat ≤ 15 := by
  intro j
  obtain ⟨a, b, rfl⟩ : ∃ a b : Fin 128, j = ix2 a b := ⟨j 0, j 1, eq_ix2 (n0 := 128) (n1 := 128) j⟩
  rw [hC a b]
  exact hle _

/-- After the eight trips the list scratch holds the chunk's words shifted. -/
theorem chunkQ_of (xq : Vec F S204800 .i32) (L : grid0.Coords) (n : Nat) (fI fQ : Vec F S128 .i32) (hI : ChunkI xq L n fI)
    (hQ : ∀ j : Fin 128, j.val < 16 * 8 → fQ (ix1 j) = IntOp.shrsi .vector (fI (ix1 j)) 2#32) : ChunkQ xq L n fQ := by
  intro j
  rw [hQ j (by have := j.isLt; omega), hI j]

/-! ## The gathered rows landed -/

/-- The packed table read through the window that is all of it is the table. -/
theorem table_read (xc : Vec F S25000x128 .i32) :
    View.read (Elt F) ((Memref.whole main_v1_scv).slice (Rect.unit (s := S25000x128) ![0, 0] S25000x128.size inb_S25000x128_S25000x128_0_0) (fun _ => rfl)).view xc = xc :=
  Memref.read_access_unit_zero (Elt F) main_v1_scv (by funext a; match a with | ⟨0, _⟩ => rfl | ⟨1, _⟩ => rfl) _ xc

/-- The gather through the first row list landed: row `r` of the code scratch is the table's row that word `r` of the list names. -/
theorem gather_landed0 (xc : Vec F S25000x128 .i32) (fQ : Vec F S128 .i32)
    (hn : S128.numel = S128x128.size (gathers_S25000x128_S128x128).axis')
    (hin : ∀ x, (View.read (Elt F) (Memref.whole cc0_scratch2).view fQ x).toNat < S25000x128.size (gathers_S25000x128_S128x128).axis)
    (f4 : Vec F S128x128 .i32) (r col : Fin 128) (hr : (fQ (ix1 r)).toNat < 25000) :
    (Memref.whole cc0_scratch4).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch2).view fQ) hn hin)⟩] (ix2 r col)
      = xc (ix2 (⟨(fQ (ix1 r)).toNat, hr⟩ : Fin 25000) col) := by
  refine (congrFun (Memref.write_access_whole_univ (Elt F) cc0_scratch4 f4 _) (ix2 r col)).trans ?_
  rw [table_read xc]
  exact gathered_apply xc _ hn hin r col

/-- Every word of a shifted chunk names a row of the packed table. -/
theorem hin_of_chunkQ0 (xq : Vec F S204800 .i32) (L : grid0.Coords) (n : Nat) (fQ : Vec F S128 .i32) (hq : ChunkQ xq L n fQ)
    (hle : ∀ j, (xq j).toNat ≤ 99999) :
    ∀ x, (View.read (Elt F) (Memref.whole cc0_scratch2).view fQ x).toNat < S25000x128.size (gathers_S25000x128_S128x128).axis := by
  have key : ∀ y : S128.Idx, (fQ y).toNat < 25000 := by
    intro y
    obtain ⟨l, rfl⟩ : ∃ l : Fin 128, y = ix1 l := ⟨y 0, eq_ix1 (n := 128) y⟩
    rw [hq l]
    exact Cert.Words.row_lt _ (hle _)
  exact fun x => key x

/-- The gathered rows are the chunk's rows of the packed table. -/
theorem chunkC_landed0 (xq : Vec F S204800 .i32) (xc : Vec F S25000x128 .i32) (L : grid0.Coords) (n : Nat) (fQ : Vec F S128 .i32)
    (hq : ChunkQ xq L n fQ) (hle : ∀ j, (xq j).toNat ≤ 99999)
    (hn : S128.numel = S128x128.size (gathers_S25000x128_S128x128).axis')
    (hin : ∀ x, (View.read (Elt F) (Memref.whole cc0_scratch2).view fQ x).toNat < S25000x128.size (gathers_S25000x128_S128x128).axis)
    (f4 : Vec F S128x128 .i32) :
    ChunkC xq xc L n ((Memref.whole cc0_scratch4).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch2).view fQ) hn hin)⟩]) := by
  intro r col
  have hw : (qAt xq (base L + 128 * n + r.val)).toNat ≤ 99999 := hle _
  have hr : (fQ (ix1 r)).toNat < 25000 := by rw [hq r]; exact Cert.Words.row_lt _ hw
  rw [gather_landed0 xc fQ hn hin f4 r col hr]
  refine congrArg (fun t => xc (ix2 t col)) (Fin.ext ?_)
  show (fQ (ix1 r)).toNat = min ((qAt xq (base L + 128 * n + r.val)).toNat / 4) 24999
  rw [hq r, Cert.Words.row_toNat _ hw]
  omega

/-- The gather through the second row list landed: row `r` of the code scratch is the table's row that word `r` of the list names. -/
theorem gather_landed1 (xc : Vec F S25000x128 .i32) (fQ : Vec F S128 .i32)
    (hn : S128.numel = S128x128.size (gathers_S25000x128_S128x128).axis')
    (hin : ∀ x, (View.read (Elt F) (Memref.whole cc0_scratch3).view fQ x).toNat < S25000x128.size (gathers_S25000x128_S128x128).axis)
    (f4 : Vec F S128x128 .i32) (r col : Fin 128) (hr : (fQ (ix1 r)).toNat < 25000) :
    (Memref.whole cc0_scratch5).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch3).view fQ) hn hin)⟩] (ix2 r col)
      = xc (ix2 (⟨(fQ (ix1 r)).toNat, hr⟩ : Fin 25000) col) := by
  refine (congrFun (Memref.write_access_whole_univ (Elt F) cc0_scratch5 f4 _) (ix2 r col)).trans ?_
  rw [table_read xc]
  exact gathered_apply xc _ hn hin r col

/-- Every word of a shifted chunk names a row of the packed table. -/
theorem hin_of_chunkQ1 (xq : Vec F S204800 .i32) (L : grid0.Coords) (n : Nat) (fQ : Vec F S128 .i32) (hq : ChunkQ xq L n fQ)
    (hle : ∀ j, (xq j).toNat ≤ 99999) :
    ∀ x, (View.read (Elt F) (Memref.whole cc0_scratch3).view fQ x).toNat < S25000x128.size (gathers_S25000x128_S128x128).axis := by
  have key : ∀ y : S128.Idx, (fQ y).toNat < 25000 := by
    intro y
    obtain ⟨l, rfl⟩ : ∃ l : Fin 128, y = ix1 l := ⟨y 0, eq_ix1 (n := 128) y⟩
    rw [hq l]
    exact Cert.Words.row_lt _ (hle _)
  exact fun x => key x

/-- The gathered rows are the chunk's rows of the packed table. -/
theorem chunkC_landed1 (xq : Vec F S204800 .i32) (xc : Vec F S25000x128 .i32) (L : grid0.Coords) (n : Nat) (fQ : Vec F S128 .i32)
    (hq : ChunkQ xq L n fQ) (hle : ∀ j, (xq j).toNat ≤ 99999)
    (hn : S128.numel = S128x128.size (gathers_S25000x128_S128x128).axis')
    (hin : ∀ x, (View.read (Elt F) (Memref.whole cc0_scratch3).view fQ x).toNat < S25000x128.size (gathers_S25000x128_S128x128).axis)
    (f4 : Vec F S128x128 .i32) :
    ChunkC xq xc L n ((Memref.whole cc0_scratch5).view.writes (Elt F) f4
        [⟨Rect.whole S128x128, SparseCore.gatherPayload gathers_S25000x128_S128x128
          (View.read (Elt F) ((Memref.whole main_v1_scv).slice (Rect.unit (s := S25000x128) ![0, 0] S25000x128.size inb_S25000x128_S25000x128_0_0) (fun _ => rfl)).view xc)
          (SparseCore.rows (View.read (Elt F) (Memref.whole cc0_scratch3).view fQ) hn hin)⟩]) := by
  intro r col
  have hw : (qAt xq (base L + 128 * n + r.val)).toNat ≤ 99999 := hle _
  have hr : (fQ (ix1 r)).toNat < 25000 := by rw [hq r]; exact Cert.Words.row_lt _ hw
  rw [gather_landed1 xc fQ hn hin f4 r col hr]
  refine congrArg (fun t => xc (ix2 t col)) (Fin.ext ?_)
  show (fQ (ix1 r)).toNat = min ((qAt xq (base L + 128 * n + r.val)).toNat / 4) 24999
  rw [hq r, Cert.Words.row_toNat _ hw]
  omega

end Cert.Proof.KB

end
-- ==== Proof.KBQTrip.lean ====
/-
  One trip of the loops that turn a chunk's query words into its row list: the trip reads sixteen query words, shifts
  each right by two, and stores them at the same places of the list. Run against the invariant "the first 16 k
  entries of the list are the shifted words", a trip extends it to the first 16 (k + 1).
-/
import proofs.«215948_g88356067214102_cont_sun_c4_674_26_alg».proof.Proof.KBCore
import proofs.«215948_g88356067214102_cont_sun_c4_674_26_alg».proof.Proof.KBGlue

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sQ0" => (Memref.whole Cert.Kernel.cc0_scratch2 : Memref Cert.Kernel.sig Kind.scVector Space.vmem Cert.Kernel.S128 EltTy.i32)
local notation "sQ1" => (Memref.whole Cert.Kernel.cc0_scratch3 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)
local notation "qV" => (Memref.whole Cert.Kernel.main_v0_scv : Memref Cert.Kernel.sig Kind.scVector Space.hbm Cert.Kernel.S204800 EltTy.i32)
local notation "cVm" => (Memref.whole Cert.Kernel.main_v1_scv : Memref Cert.Kernel.sig Kind.scVector Space.hbm Cert.Kernel.S25000x128 EltTy.i32)
local notation "bV" => (Memref.whole Cert.Kernel.main_v2_scv : Memref Cert.Kernel.sig Kind.scVector Space.hbm Cert.Kernel.S64 EltTy.f32)
local notation "oV" => (Memref.whole Cert.Kernel.main_v3_scv : Memref Cert.Kernel.sig Kind.scVector Space.hbm Cert.Kernel.S204800x128 EltTy.f32)

variable [FloatOps F]

/-- The list loop's invariant (slot 0): the query words untouched; the first `16 k` list entries are the words shifted
    right by two. -/
def qInv0 (d : Dev nD) (L : grid0.Coords) (fI : Buf (Elt F) ((tth d L).loc cc0_scratch0)) (k : Nat) (_ : PUnit) : sProp 𝕄 :=
  iprop(((sI0).view.loc (tth d L) ↦{fullShare} fI)
    ∗ ∃ fQ : Buf (Elt F) ((tth d L).loc cc0_scratch2), ((sQ0).view.loc (tth d L) ↦{fullShare} fQ)
      ∗ ⌜∀ j : Fin 128, j.val < 16 * k → fQ (ix1 j) = IntOp.shrsi .vector (fI (ix1 j)) 2#32⌝)

/-- The list loop's invariant (slot 1): the same over the second query scratch and the second list. -/
def qInv1 (d : Dev nD) (L : grid0.Coords) (fI : Buf (Elt F) ((tth d L).loc cc0_scratch1)) (k : Nat) (_ : PUnit) : sProp 𝕄 :=
  iprop(((sI1).view.loc (tth d L) ↦{fullShare} fI)
    ∗ ∃ fQ : Buf (Elt F) ((tth d L).loc cc0_scratch3), ((sQ1).view.loc (tth d L) ↦{fullShare} fQ)
      ∗ ⌜∀ j : Fin 128, j.val < 16 * k → fQ (ix1 j) = IntOp.shrsi .vector (fI (ix1 j)) 2#32⌝)

set_option maxHeartbeats 1000000 in
/-- Slot 0's trip before the main loop. -/
theorem q_trip0 (d : Dev nD) (L : grid0.Coords) (fI : Buf (Elt F) ((tth d L).loc cc0_scratch0)) (k : Fin k0_t1_loop.trips) :
    qInv0 d L fI k.val ⟨⟩
      ⊢ wp frame (wpE (defs₀ (F := F)) 𝒱₀ (tth d L) none) Set.univ
          (k0_t1_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 k ())
          (fun _ => qInv0 d L fI (k.val + 1) ⟨⟩) := by
  unfold qInv0 k0_t1_body
  iintro ⟨HI, %fQ, HQ, %hQ⟩
  sl_exec
  sl_step
  isplitl [HI]; · iexact HI
  iexists _; isplitl [HQ]; · iexact HQ
  ipureintro
  exact q_stored0 fI fQ k hQ

set_option maxHeartbeats 1000000 in
/-- Slot 1's trip before the main loop. -/
theorem q_trip1 (d : Dev nD) (L : grid0.Coords) (fI : Buf (Elt F) ((tth d L).loc cc0_scratch1)) (k : Fin k0_t2_loop.trips) :
    qInv1 d L fI k.val ⟨⟩
      ⊢ wp frame (wpE (defs₀ (F := F)) 𝒱₀ (tth d L) none) Set.univ
          (k0_t2_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 k ())
          (fun _ => qInv1 d L fI (k.val + 1) ⟨⟩) := by
  unfold qInv1 k0_t2_body
  iintro ⟨HI, %fQ, HQ, %hQ⟩
  sl_exec
  sl_step
  isplitl [HI]; · iexact HI
  iexists _; isplitl [HQ]; · iexact HQ
  ipureintro
  exact q_stored1 fI fQ k hQ

set_option maxHeartbeats 1000000 in
/-- Slot 0's trip inside the main loop. -/
theorem q_trip0' (d : Dev nD) (L : grid0.Coords) (fI : Buf (Elt F) ((tth d L).loc cc0_scratch0)) (v2 : BitVec 32) (k0_t3 : Fin k0_t3_loop.trips) (k0_h2 : k0_cond2 k0_t3 = 1#1) (k : Fin k0_t5_loop.trips) :
    qInv0 d L fI k.val ⟨⟩
      ⊢ wp frame (wpE (defs₀ (F := F)) 𝒱₀ (tth d L) none) Set.univ
          (k0_t5_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 0#32 1#32 k0_t3 k0_h2 k ())
          (fun _ => qInv0 d L fI (k.val + 1) ⟨⟩) := by
  unfold qInv0 k0_t5_body
  iintro ⟨HI, %fQ, HQ, %hQ⟩
  sl_exec
  sl_step
  isplitl [HI]; · iexact HI
  iexists _; isplitl [HQ]; · iexact HQ
  ipureintro
  exact q_stored0' fI fQ k0_t3 k0_h2 k hQ

set_option maxHeartbeats 1000000 in
/-- Slot 1's trip inside the main loop. -/
theorem q_trip1' (d : Dev nD) (L : grid0.Coords) (fI : Buf (Elt F) ((tth d L).loc cc0_scratch1)) (k0_t3 : Fin k0_t3_loop.trips) (k0_h4 : k0_cond4 k0_t3 = 1#1) (k : Fin k0_t7_loop.trips) :
    qInv1 d L fI k.val ⟨⟩
      ⊢ wp frame (wpE (defs₀ (F := F)) 𝒱₀ (tth d L) none) Set.univ
          (k0_t7_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 k0_t3 k0_h4 k ())
          (fun _ => qInv1 d L fI (k.val + 1) ⟨⟩) := by
  unfold qInv1 k0_t7_body
  iintro ⟨HI, %fQ, HQ, %hQ⟩
  sl_exec
  sl_step
  isplitl [HI]; · iexact HI
  iexists _; isplitl [HQ]; · iexact HQ
  ipureintro
  exact q_stored1' fI fQ k0_t3 k0_h4 k hQ

end Cert.Proof.KB

end
-- ==== Proof.KBGlue2.lean ====
/-
  The write-out's block.

  Tile `L` writes chunk `n` of its decoded rows to rows `base L + 128 n ‥ base L + 128 n + 127` of the flat result.
  The flat result is cut into 1600 blocks of 128 rows, block `b` being rows `128 b ‥ 128 b + 127`; the tile's chunk
  `n` is block `100 (L 1) + 50 (L 0) + n`, since `base L = 128 (100 (L 1) + 50 (L 0))`. So the window a write-out goes
  through is one of these blocks, and what lands there is the decoded rows of the block's flat queries.
-/
import proofs.«215948_g88356067214102_cont_sun_c4_674_26_alg».proof.Proof.KBCore
import proofs.«215948_g88356067214102_cont_sun_c4_674_26_alg».proof.Proof.KBLaunchRegroup
import Idealize.ShloMosaic.Lib.ValueIdx

noncomputable section

namespace Cert.Proof.KB

open Cert.Kernel Cert.Kernel.Gen Idealize.ShloMosaic Idealize.ShloMosaic.ValueIdx

variable {F : FTy → Type} [FloatOps F]

/-! ## Blocks and windows as ranges of rows -/

theorem partIx_row (b : Nat) : Shape.partIx S204800x128 0 b 0 = b := rfl
theorem partSize_row : Shape.partSize S204800x128 0 1600 0 = 128 := rfl
theorem partIx_col (b : Nat) : Shape.partIx S204800x128 0 b 1 = 0 := rfl
theorem partSize_col : Shape.partSize S204800x128 0 1600 1 = 128 := rfl

/-- An index of the flat result is in block `b` exactly when its row is one of the block's 128. -/
theorem mem_blk (b : Fin 1600) (i : S204800x128.Idx) :
    i ∈ (blk b).set ↔ 128 * b.val ≤ (i 0).val ∧ (i 0).val < 128 * b.val + 128 := by
  rw [Rect.mem_set_unit]
  constructor
  · intro h
    have h0 : Shape.partIx S204800x128 0 b.val 0 * Shape.partSize S204800x128 0 1600 0 ≤ (i 0).val
        ∧ (i 0).val < Shape.partIx S204800x128 0 b.val 0 * Shape.partSize S204800x128 0 1600 0 + Shape.partSize S204800x128 0 1600 0 := h 0
    rw [partIx_row, partSize_row] at h0
    omega
  · intro h a
    match a with
    | ⟨0, _⟩ =>
      show Shape.partIx S204800x128 0 b.val 0 * Shape.partSize S204800x128 0 1600 0 ≤ (i 0).val
        ∧ (i 0).val < Shape.partIx S204800x128 0 b.val 0 * Shape.partSize S204800x128 0 1600 0 + Shape.partSize S204800x128 0 1600 0
      rw [partIx_row, partSize_row]
      omega
    | ⟨1, _⟩ =>
      show Shape.partIx S204800x128 0 b.val 1 * Shape.partSize S204800x128 0 1600 1 ≤ (i 1).val
        ∧ (i 1).val < Shape.partIx S204800x128 0 b.val 1 * Shape.partSize S204800x128 0 1600 1 + Shape.partSize S204800x128 0 1600 1
      rw [partIx_col, partSize_col]
      have hi : (i 1).val < 128 := (i 1).isLt
      omega

/-- An index of the flat result is under the 128-row window at row `N` exactly when its row is one of those 128. -/
theorem mem_window (off : Fin 2 → Nat) (inb : ∀ a, off a + S128x128.size a ≤ S204800x128.size a) (N : Nat) (hoff : off = ![N, 0])
    (i : S204800x128.Idx) :
    i ∈ (Rect.unit (s := S204800x128) off S128x128.size inb).set ↔ N ≤ (i 0).val ∧ (i 0).val < N + 128 := by
  subst hoff
  rw [Rect.mem_set_unit]
  constructor
  · intro h; exact h 0
  · intro h a
    match a with
    | ⟨0, _⟩ => exact h
    | ⟨1, _⟩ =>
      have hi : (i 1).val < 128 := (i 1).isLt
      show 0 ≤ (i 1).val ∧ (i 1).val < 0 + 128
      omega

/-- The window at the first row of block `b` is block `b`. -/
theorem window_set (off : Fin 2 → Nat) (inb : ∀ a, off a + S128x128.size a ≤ S204800x128.size a) (b : Fin 1600)
    (hoff : off = ![128 * b.val, 0]) :
    ((Memref.whole main_v3_scv : Memref sig .scVector .hbm S204800x128 .f32).slice (Rect.unit (s := S204800x128) off S128x128.size inb) (fun _ => rfl)).view.set
      = blkSet b := by
  rw [blkSet_eq]
  show ((View.whole (main_v3_scv : Ref sig .scVector)).slice (Rect.unit (s := S204800x128) off S128x128.size inb)).set = _
  rw [View.set_slice_whole]
  ext i
  rw [mem_window off inb (128 * b.val) hoff i, mem_blk b i]

/-! ## The tile's blocks -/

theorem trips3_lt (k : Fin k0_t3_loop.trips) : k.val < 25 := lt_of_lt_of_le k.isLt k0_t3_abs.2.1

/-- For `n < 50` the tile's block number does not wrap. -/
theorem bk_val (L : grid0.Coords) (n : Nat) (hn : n < 50) : (bk L n).val = 100 * (L 1).val + 50 * (L 0).val + n := by
  have h1 : (L 1).val < 16 := (L 1).isLt
  have h0 : (L 0).val < 2 := (L 0).isLt
  show (100 * (L 1).val + 50 * (L 0).val + n) % 1600 = _
  exact Nat.mod_eq_of_lt (by omega)

/-- Its first row is the first query of the tile's chunk `n`. -/
theorem bk_row (L : grid0.Coords) (n : Nat) (hn : n < 50) : 128 * (bk L n).val = base L + 128 * n := by
  rw [bk_val L n hn]; unfold base; omega

/-- The launch side numbers the same block by the tile's two coordinates. -/
theorem bk_eq_blkOf (L : grid0.Coords) (j : Fin 50) : bk L j.val = blkOf (Fin.cast rfl (L 0)) (Fin.cast rfl (L 1)) j := by
  apply Fin.ext
  rw [bk_val L j.val j.isLt]
  rfl

/-- The write-outs' offsets in closed form: trip `k` writes the tile's chunks `2 k` and `2 k + 1`. -/
theorem off15_eq0 (L : grid0.Coords) (k : Fin k0_t3_loop.trips) : k0_off15 L k 0#32 = ![base L + 128 * (2 * k.val), 0] := by
  have e : 12800 * (L 1).val + 6400 * (L 0).val + 256 * k.val + 128 * ((⟨0, by decide⟩ : Fin 2)).val = base L + 128 * (2 * k.val) := by
    show 12800 * (L 1).val + 6400 * (L 0).val + 256 * k.val + 128 * 0 = _
    unfold base; omega
  exact (k0_off15_eq L k ⟨0, by decide⟩).trans (congrArg (fun t => (![t, 0] : Fin 2 → Nat)) e)
theorem off15_eq1 (L : grid0.Coords) (k : Fin k0_t3_loop.trips) : k0_off15 L k 1#32 = ![base L + 128 * (2 * k.val + 1), 0] := by
  have e : 12800 * (L 1).val + 6400 * (L 0).val + 256 * k.val + 128 * ((⟨1, by decide⟩ : Fin 2)).val = base L + 128 * (2 * k.val + 1) := by
    show 12800 * (L 1).val + 6400 * (L 0).val + 256 * k.val + 128 * 1 = _
    unfold base; omega
  exact (k0_off15_eq L k ⟨1, by decide⟩).trans (congrArg (fun t => (![t, 0] : Fin 2 → Nat)) e)

/-! ## A write through a window -/

/-- An unmasked write of a 128 × 128 block through the window at row `N` leaves entry `(r, e)` of the block at `(N + r, e)`. -/
theorem window_write (off : Fin 2 → Nat) (inb : ∀ a, off a + S128x128.size a ≤ S204800x128.size a) (N : Nat) (hoff : off = ![N, 0])
    (hN : N + 128 ≤ 204800) (f0 : Vec F S204800x128 .f32) (w : Vec F S128x128 .f32) (r e : Fin 128) :
    View.write (Elt F) ((Memref.whole main_v3_scv).slice (Rect.unit (s := S204800x128) off S128x128.size inb) (fun _ => rfl)).view f0 w Finset.univ
        (ix2 (⟨N + r.val, by omega⟩ : Fin 204800) e) = w (ix2 r e) := by
  subst hoff
  have h := View.write_emb_of_mem (Val := Elt F)
    (v := ((Memref.whole main_v3_scv).slice (Rect.unit (s := S204800x128) ![N, 0] S128x128.size inb) (fun _ => rfl)).view) f0 w
    (M := Finset.univ) (x := ix2 r e) (Finset.mem_univ _)
  have he : ((Memref.whole main_v3_scv).slice (Rect.unit (s := S204800x128) ![N, 0] S128x128.size inb) (fun _ => rfl)).view.emb (ix2 r e)
      = ix2 (⟨N + r.val, by omega⟩ : Fin 204800) e := by
    funext a
    match a with
    | ⟨0, _⟩ => exact Fin.ext (show N + 1 * r.val = N + r.val by omega)
    | ⟨1, _⟩ => exact Fin.ext (show 0 + 1 * e.val = e.val by omega)
  rw [he] at h
  exact h.trans (cast_eq _ _)

/-! ## The two write-outs of a trip of the main loop -/

/-- The first slot's write-out of trip `k` goes through the tile's block `2 * k`. -/
theorem oslice_set0 (L : grid0.Coords) (k : Fin k0_t3_loop.trips) :
    ((Memref.whole main_v3_scv : Memref sig .scVector .hbm S204800x128 .f32).slice
        (Rect.unit (s := S204800x128) (k0_off15 L k 0#32) S128x128.size (k0_off15_inb L k 0)) (fun _ => rfl)).view.set
      = blkSet (bk L (2 * k.val)) := by
  have hk := trips3_lt k
  refine window_set _ _ (bk L (2 * k.val)) ?_
  rw [bk_row L _ (by omega)]
  exact off15_eq0 L k

/-- What it lands there is the decoded rows of the block's flat queries. -/
theorem out_landed0 (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val) fO) (f0 : Vec F S204800x128 .f32) :
    ∀ i ∈ blkSet (bk L (2 * k.val)),
      View.write (Elt F) ((Memref.whole main_v3_scv).slice
          (Rect.unit (s := S204800x128) (k0_off15 L k 0#32) S128x128.size (k0_off15_inb L k 0)) (fun _ => rfl)).view f0
        (ReadAs.same.apply (View.read (Elt F) (Memref.whole cc0_scratch6).view fO)) Finset.univ i = go i := by
  have hk := trips3_lt k
  have hb := base_le L
  intro i hi
  rw [blkSet_eq, mem_blk, bk_row L _ (by omega)] at hi
  have hN : base L + 128 * (2 * k.val) + 128 ≤ 204800 := by omega
  have hi' : i = ix2 (⟨base L + 128 * (2 * k.val) + ((i 0).val - (base L + 128 * (2 * k.val))), by omega⟩ : Fin 204800)
      (⟨(i 1).val, (i 1).isLt⟩ : Fin 128) := by
    funext a
    match a with
    | ⟨0, _⟩ => exact Fin.ext (show (i 0).val = base L + 128 * (2 * k.val) + ((i 0).val - (base L + 128 * (2 * k.val))) by omega)
    | ⟨1, _⟩ => rfl
  rw [hi']
  refine (window_write _ (k0_off15_inb L k 0) (base L + 128 * (2 * k.val)) (off15_eq0 L k) hN f0 _
    (⟨(i 0).val - (base L + 128 * (2 * k.val)), by omega⟩ : Fin 128) (⟨(i 1).val, (i 1).isLt⟩ : Fin 128)).trans ?_
  refine (hO _ _).trans ((congrArg (fun t => Cert.Decode.flatAt xq xc xb t (⟨(i 1).val, (i 1).isLt⟩ : Fin 128)) (Fin.ext ?_)).trans (hgo _ _).symm)
  show min (base L + 128 * (2 * k.val) + ((i 0).val - (base L + 128 * (2 * k.val)))) 204799 = base L + 128 * (2 * k.val) + ((i 0).val - (base L + 128 * (2 * k.val)))
  omega

/-- The second slot's write-out of trip `k` goes through the tile's block `2 * k + 1`. -/
theorem oslice_set1 (L : grid0.Coords) (k : Fin k0_t3_loop.trips) :
    ((Memref.whole main_v3_scv : Memref sig .scVector .hbm S204800x128 .f32).slice
        (Rect.unit (s := S204800x128) (k0_off15 L k 1#32) S128x128.size (k0_off15_inb L k 1)) (fun _ => rfl)).view.set
      = blkSet (bk L (2 * k.val + 1)) := by
  have hk := trips3_lt k
  refine window_set _ _ (bk L (2 * k.val + 1)) ?_
  rw [bk_row L _ (by omega)]
  exact off15_eq1 L k

/-- What it lands there is the decoded rows of the block's flat queries. -/
theorem out_landed1 (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val + 1) fO) (f0 : Vec F S204800x128 .f32) :
    ∀ i ∈ blkSet (bk L (2 * k.val + 1)),
      View.write (Elt F) ((Memref.whole main_v3_scv).slice
          (Rect.unit (s := S204800x128) (k0_off15 L k 1#32) S128x128.size (k0_off15_inb L k 1)) (fun _ => rfl)).view f0
        (ReadAs.same.apply (View.read (Elt F) (Memref.whole cc0_scratch7).view fO)) Finset.univ i = go i := by
  have hk := trips3_lt k
  have hb := base_le L
  intro i hi
  rw [blkSet_eq, mem_blk, bk_row L _ (by omega)] at hi
  have hN : base L + 128 * (2 * k.val + 1) + 128 ≤ 204800 := by omega
  have hi' : i = ix2 (⟨base L + 128 * (2 * k.val + 1) + ((i 0).val - (base L + 128 * (2 * k.val + 1))), by omega⟩ : Fin 204800)
      (⟨(i 1).val, (i 1).isLt⟩ : Fin 128) := by
    funext a
    match a with
    | ⟨0, _⟩ => exact Fin.ext (show (i 0).val = base L + 128 * (2 * k.val + 1) + ((i 0).val - (base L + 128 * (2 * k.val + 1))) by omega)
    | ⟨1, _⟩ => rfl
  rw [hi']
  refine (window_write _ (k0_off15_inb L k 1) (base L + 128 * (2 * k.val + 1)) (off15_eq1 L k) hN f0 _
    (⟨(i 0).val - (base L + 128 * (2 * k.val + 1)), by omega⟩ : Fin 128) (⟨(i 1).val, (i 1).isLt⟩ : Fin 128)).trans ?_
  refine (hO _ _).trans ((congrArg (fun t => Cert.Decode.flatAt xq xc xb t (⟨(i 1).val, (i 1).isLt⟩ : Fin 128)) (Fin.ext ?_)).trans (hgo _ _).symm)
  show min (base L + 128 * (2 * k.val + 1) + ((i 0).val - (base L + 128 * (2 * k.val + 1)))) 204799 = base L + 128 * (2 * k.val + 1) + ((i 0).val - (base L + 128 * (2 * k.val + 1)))
  omega

end Cert.Proof.KB

end
-- ==== Proof.KBGlue3.lean ====
/-
  Where each chunk of query words is fetched from.

  Tile `L` fetches its chunk `n` from words `base L + 128 n ‥ base L + 128 n + 127` of the query list. Before the
  main loop it fetches chunks `0` and `1`; trip `k` of the main loop fetches chunks `2 k + 2` and `2 k + 3` when
  they exist, that is when `k < 24`.
-/
import proofs.«215948_g88356067214102_cont_sun_c4_674_26_alg».proof.Proof.KBGlue
import proofs.«215948_g88356067214102_cont_sun_c4_674_26_alg».proof.Proof.KBGlue2

noncomputable section

namespace Cert.Proof.KB

open Cert.Kernel Cert.Kernel.Gen Idealize.ShloMosaic Idealize.ShloMosaic.ValueIdx

variable {F : FTy → Type} [FloatOps F]

/-! ## The fetches' offsets in closed form -/

theorem off1_eq0 (L : grid0.Coords) : k0_off1 L 0#32 = ![base L + 128 * 0] := by
  have e : 12800 * (L 1).val + 6400 * (L 0).val + 128 * ((⟨0, by decide⟩ : Fin 2)).val = base L + 128 * 0 := by
    show 12800 * (L 1).val + 6400 * (L 0).val + 128 * 0 = _
    unfold base; omega
  exact (k0_off1_eq L ⟨0, by decide⟩).trans (congrArg (fun t => (![t] : Fin 1 → Nat)) e)
theorem off1_eq1 (L : grid0.Coords) : k0_off1 L 128#32 = ![base L + 128 * 1] := by
  have e : 12800 * (L 1).val + 6400 * (L 0).val + 128 * ((⟨1, by decide⟩ : Fin 2)).val = base L + 128 * 1 := by
    show 12800 * (L 1).val + 6400 * (L 0).val + 128 * 1 = _
    unfold base; omega
  exact (k0_off1_eq L ⟨1, by decide⟩).trans (congrArg (fun t => (![t] : Fin 1 → Nat)) e)
theorem off13_eq (L : grid0.Coords) (k : Fin k0_t3_loop.trips) : k0_off13 L k = ![base L + 128 * (2 * k.val + 2)] :=
  (k0_off13_eq L k).trans (congrArg (fun t => (![t] : Fin 1 → Nat)) (by unfold base; omega))
theorem off25_eq (L : grid0.Coords) (k : Fin k0_t3_loop.trips) : k0_off25 L k = ![base L + 128 * (2 * k.val + 1 + 2)] :=
  (k0_off25_eq L k).trans (congrArg (fun t => (![t] : Fin 1 → Nat)) (by unfold base; omega))

/-! ## When the main loop fetches -/

/-- The first slot fetches in trip `k` only when chunk `2 k + 2` exists. -/
theorem cond2_lt : ∀ k : Fin k0_t3_loop.trips, k0_cond2 k = 1#1 → k.val < 24 := by decide +kernel
/-- The second slot fetches in trip `k` only when chunk `2 k + 3` exists. -/
theorem cond4_lt : ∀ k : Fin k0_t3_loop.trips, k0_cond4 k = 1#1 → k.val < 24 := by decide +kernel

/-! ## The chunks landed -/

/-- Chunk `0` landed in the first index scratch, -/
theorem chunkI_first0 (xq : Vec F S204800 .i32) (L : grid0.Coords) (f0 : Vec F S128 .i32) :
    ChunkI xq L 0 (View.write (Elt F) (Memref.whole cc0_scratch0).view f0
      (ReadAs.same.apply (View.read (Elt F) ((Memref.whole main_v0_scv).slice (Rect.unit (s := S204800) (k0_off1 L 0#32) S128.size (k0_off1_inb L 0)) (fun _ => rfl)).view xq))
      Finset.univ) :=
  chunkI_landed0 xq (k0_off1 L 0#32) (k0_off1_inb L 0) L 0 (by omega) (off1_eq0 L) f0
/-- and chunk `1` in the second. -/
theorem chunkI_first1 (xq : Vec F S204800 .i32) (L : grid0.Coords) (f0 : Vec F S128 .i32) :
    ChunkI xq L 1 (View.write (Elt F) (Memref.whole cc0_scratch1).view f0
      (ReadAs.same.apply (View.read (Elt F) ((Memref.whole main_v0_scv).slice (Rect.unit (s := S204800) (k0_off1 L 128#32) S128.size (k0_off1_inb L 1)) (fun _ => rfl)).view xq))
      Finset.univ) :=
  chunkI_landed1 xq (k0_off1 L 128#32) (k0_off1_inb L 1) L 1 (by omega) (off1_eq1 L) f0

/-- Trip `k`'s fetch into the first index scratch lands chunk `2 k + 2`, -/
theorem chunkI_next0 (xq : Vec F S204800 .i32) (L : grid0.Coords) (k : Fin k0_t3_loop.trips) (k0_h2 : k0_cond2 k = 1#1)
    (f0 : Vec F S128 .i32) :
    ChunkI xq L (2 * k.val + 2) (View.write (Elt F) (Memref.whole cc0_scratch0).view f0
      (ReadAs.same.apply (View.read (Elt F) ((Memref.whole main_v0_scv).slice (Rect.unit (s := S204800) (k0_off13 L k) S128.size (k0_off13_inb L k k0_h2)) (fun _ => rfl)).view xq))
      Finset.univ) :=
  chunkI_landed0 xq (k0_off13 L k) (k0_off13_inb L k k0_h2) L (2 * k.val + 2) (by have := cond2_lt k k0_h2; omega) (off13_eq L k) f0
/-- and its fetch into the second lands chunk `2 k + 3`. -/
theorem chunkI_next1 (xq : Vec F S204800 .i32) (L : grid0.Coords) (k : Fin k0_t3_loop.trips) (k0_h4 : k0_cond4 k = 1#1)
    (f0 : Vec F S128 .i32) :
    ChunkI xq L (2 * k.val + 1 + 2) (View.write (Elt F) (Memref.whole cc0_scratch1).view f0
      (ReadAs.same.apply (View.read (Elt F) ((Memref.whole main_v0_scv).slice (Rect.unit (s := S204800) (k0_off25 L k) S128.size (k0_off25_inb L k k0_h4)) (fun _ => rfl)).view xq))
      Finset.univ) :=
  chunkI_landed1 xq (k0_off25 L k) (k0_off25_inb L k k0_h4) L (2 * k.val + 1 + 2) (by have := cond4_lt k k0_h4; omega) (off25_eq L k) f0

/-! ## The write-out's landing as a one-piece list -/

/-- Contents that hold the chunk's decoded rows at the rows of the tile's block `n` agree with the flat result there. -/
theorem out_core (xq : Vec F S204800 .i32) (xc : Vec F S25000x128 .i32) (xb : Vec F S64 .f32) (go : Vec F S204800x128 .f32)
    (hgo : ∀ R e, go (ix2 R e) = Cert.Decode.flatAt xq xc xb R e) (L : grid0.Coords) (n : Nat) (hn : n < 50)
    (fO : Vec F S128x128 .f32) (hO : ChunkO xq xc xb L n fO) (W : Vec F S204800x128 .f32)
    (hW : ∀ r e : Fin 128, W (ix2 (⟨base L + 128 * n + r.val, by have := base_le L; have := r.isLt; omega⟩ : Fin 204800) e) = fO (ix2 r e)) :
    ∀ i ∈ blkSet (bk L n), W i = go i := by
  have hb := base_le L
  intro i hi
  rw [blkSet_eq, mem_blk, bk_row L n hn] at hi
  have hi' : i = ix2 (⟨base L + 128 * n + ((i 0).val - (base L + 128 * n)), by omega⟩ : Fin 204800)
      (⟨(i 1).val, (i 1).isLt⟩ : Fin 128) := by
    funext a
    match a with
    | ⟨0, _⟩ => exact Fin.ext (show (i 0).val = base L + 128 * n + ((i 0).val - (base L + 128 * n)) by omega)
    | ⟨1, _⟩ => rfl
  rw [hi']
  refine (hW (⟨(i 0).val - (base L + 128 * n), by omega⟩ : Fin 128) (⟨(i 1).val, (i 1).isLt⟩ : Fin 128)).trans ?_
  refine (hO _ _).trans ((congrArg (fun t => Cert.Decode.flatAt xq xc xb t (⟨(i 1).val, (i 1).isLt⟩ : Fin 128)) (Fin.ext ?_)).trans (hgo _ _).symm)
  show min (base L + 128 * n + ((i 0).val - (base L + 128 * n))) 204799 = base L + 128 * n + ((i 0).val - (base L + 128 * n))
  omega

/-- A one-piece list of writes through the whole rectangle of the window at row `N` leaves entry `(r, e)` of the
    piece at `(N + r, e)`. -/
theorem window_writes (off : Fin 2 → Nat) (inb : ∀ a, off a + S128x128.size a ≤ S204800x128.size a) (N : Nat) (hoff : off = ![N, 0])
    (hN : N + 128 ≤ 204800) (f0 : Vec F S204800x128 .f32) (w : Vec F S128x128 .f32) (r e : Fin 128) :
    ((Memref.whole main_v3_scv).slice (Rect.unit (s := S204800x128) off S128x128.size inb) (fun _ => rfl)).view.writes (Elt F) f0
        [⟨Rect.whole (Rect.unit (s := S204800x128) off S128x128.size inb).shape, w⟩]
        (ix2 (⟨N + r.val, by omega⟩ : Fin 204800) e) = w (ix2 r e) := by
  subst hoff
  have h := View.write_emb_of_mem (Val := Elt F)
    (v := (((Memref.whole main_v3_scv).slice (Rect.unit (s := S204800x128) ![N, 0] S128x128.size inb) (fun _ => rfl)).view.slice
      (Rect.whole (Rect.unit (s := S204800x128) ![N, 0] S128x128.size inb).shape))) f0 w
    (M := Finset.univ) (x := ix2 r e) (Finset.mem_univ _)
  have he : (((Memref.whole main_v3_scv).slice (Rect.unit (s := S204800x128) ![N, 0] S128x128.size inb) (fun _ => rfl)).view.slice
      (Rect.whole (Rect.unit (s := S204800x128) ![N, 0] S128x128.size inb).shape)).emb (ix2 r e)
      = ix2 (⟨N + r.val, by omega⟩ : Fin 204800) e := by
    funext a
    match a with
    | ⟨0, _⟩ => exact Fin.ext (show N + 1 * (0 + 1 * r.val) = N + r.val by omega)
    | ⟨1, _⟩ => exact Fin.ext (show 0 + 1 * (0 + 1 * e.val) = e.val by omega)
  rw [he] at h
  exact h.trans (cast_eq _ _)

/-- The first slot's write-out of trip `k`, the landing spelt as a one-piece list through the window's whole rectangle. -/
theorem out_landed0' (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val) fO) (f0 : Vec F S204800x128 .f32) :
    ∀ i ∈ blkSet (bk L (2 * k.val)),
      ((Memref.whole main_v3_scv).slice
          (Rect.unit (s := S204800x128) (k0_off15 L k 0#32) S128x128.size (k0_off15_inb L k 0)) (fun _ => rfl)).view.writes (Elt F) f0
        [⟨Rect.whole (Rect.unit (s := S204800x128) (k0_off15 L k 0#32) S128x128.size (k0_off15_inb L k 0)).shape,
          ReadAs.same.apply (View.read (Elt F) (Memref.whole cc0_scratch6).view fO)⟩] i = go i := by
  have hk := trips3_lt k
  have hb := base_le L
  refine out_core xq xc xb go hgo L (2 * k.val) (by omega) fO hO _ (fun r e => ?_)
  exact window_writes _ (k0_off15_inb L k 0) (base L + 128 * (2 * k.val)) (off15_eq0 L k) (by omega) f0 _ r e

/-- The second slot's write-out of trip `k`, the landing spelt as a one-piece list through the window's whole rectangle. -/
theorem out_landed1' (xq : Vec F S204800 .i32) (xc : Vec F S25000x128 .i32) (xb : Vec F S64 .f32) (go : Vec F S204800x128 .f32)
    (hgo : ∀ R e, go (ix2 R e) = Cert.Decode.flatAt xq xc xb R e) (L : grid0.Coords) (k : Fin k0_t3_loop.trips)
    (fO : Vec F S128x128 .f32) (hO : ChunkO xq xc xb L (2 * k.val + 1) fO) (f0 : Vec F S204800x128 .f32) :
    ∀ i ∈ blkSet (bk L (2 * k.val + 1)),
      ((Memref.whole main_v3_scv).slice
          (Rect.unit (s := S204800x128) (k0_off15 L k 1#32) S128x128.size (k0_off15_inb L k 1)) (fun _ => rfl)).view.writes (Elt F) f0
        [⟨Rect.whole (Rect.unit (s := S204800x128) (k0_off15 L k 1#32) S128x128.size (k0_off15_inb L k 1)).shape,
          ReadAs.same.apply (View.read (Elt F) (Memref.whole cc0_scratch7).view fO)⟩] i = go i := by
  have hk := trips3_lt k
  have hb := base_le L
  refine out_core xq xc xb go hgo L (2 * k.val + 1) (by omega) fO hO _ (fun r e => ?_)
  exact window_writes _ (k0_off15_inb L k 1) (base L + 128 * (2 * k.val + 1)) (off15_eq1 L k) (by omega) f0 _ r e

end Cert.Proof.KB

end
-- ==== Proof.KBTileCore.lean ====
/-
  The tile's run, assembled. The tile fetches its first two chunks of query words and the centroid list, turns each
  chunk into its row list, starts the two gathers, runs the 25 trips of the chunk loop under the loop's invariant,
  and collects the last two blocks it wrote out; every block has then been written at the decoded rows, and
  everything the tile was handed comes back.
-/
import proofs.«215948_g88356067214102_cont_sun_c4_674_26_alg».proof.Proof.KBOuter
import proofs.«215948_g88356067214102_cont_sun_c4_674_26_alg».proof.Proof.KBQTrip
import proofs.«215948_g88356067214102_cont_sun_c4_674_26_alg».proof.Proof.KBGlue3

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sQ0" => (Memref.whole Cert.Kernel.cc0_scratch2 : Memref Cert.Kernel.sig Kind.scVector Space.vmem Cert.Kernel.S128 EltTy.i32)
local notation "sQ1" => (Memref.whole Cert.Kernel.cc0_scratch3 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)
local notation "qV" => (Memref.whole Cert.Kernel.main_v0_scv : Memref Cert.Kernel.sig Kind.scVector Space.hbm Cert.Kernel.S204800 EltTy.i32)
local notation "cVm" => (Memref.whole Cert.Kernel.main_v1_scv : Memref Cert.Kernel.sig Kind.scVector Space.hbm Cert.Kernel.S25000x128 EltTy.i32)
local notation "bV" => (Memref.whole Cert.Kernel.main_v2_scv : Memref Cert.Kernel.sig Kind.scVector Space.hbm Cert.Kernel.S64 EltTy.f32)
local notation "oV" => (Memref.whole Cert.Kernel.main_v3_scv : Memref Cert.Kernel.sig Kind.scVector Space.hbm Cert.Kernel.S204800x128 EltTy.f32)

variable [FloatOps F]

set_option maxHeartbeats 4000000 in
/-- The tile's run, from the three kinds of trip of its chunk loop. -/
theorem tile_core (d : Dev nD) (L : grid0.Coords) (xq : Buf (Elt F) (qLoc d)) (xc : Buf (Elt F) (cLoc d)) (xb : Buf (Elt F) (bLoc d)) (go : Buf (Elt F) (oLoc d))
    (h1 : ∀ qq qa qb, OuterFirst d L xq xc xb go qq qa qb) (h2 : ∀ qq qa qb, OuterMid d L xq xc xb go qq qa qb)
    (h3 : ∀ qq qa qb, OuterLast d L xq xc xb go qq qa qb) : TileCore d L xq xc xb go := by
  intro m0 qq qa qb O W hO hle hcl hgo f0 f1 f2 f3 f4 f5 f6 f7 f8 f9
  simp only [cc0__decode_body_eq_skeleton]; unfold cc0__decode_body_skel
  simp only [k0_part6_eq_skeleton]; unfold k0_part6_skel
  simp only [bind_assoc, pure_bind]
  iintro ⟨#Hlv, HO, Hq, Hc, Hc', Hb, Hblk, H0, H1, H2, H3, H4, H5, H6, H7, H8, H9, Hg0, Hg1, Ho0, Ho1, Hr0, Hr1, Hr2, Hr3, Hr4⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave Hc := (Entails.of_eq (rfl : ((cVm).view.loc (tth d L) ↦{qa} xc : sProp 𝕄) = (cLoc d ↦{qa} xc))) $$ Hc
  ihave Hc' := (Entails.of_eq (rfl : ((cVm).view.loc (tth d L) ↦{qb} xc : sProp 𝕄) = (cLoc d ↦{qb} xc))) $$ Hc'
  ihave Hb := (Entails.of_eq (rfl : ((bV).view.loc (tth d L) ↦{qq} xb : sProp 𝕄) = (bLoc d ↦{qq} xb))) $$ Hb
  ihave H0 := (Entails.of_eq (rfl : ((sI0).view.loc (tth d L) ↦{fullShare} f0 : sProp 𝕄) = _)) $$ H0
  ihave H1 := (Entails.of_eq (rfl : ((sI1).view.loc (tth d L) ↦{fullShare} f1 : sProp 𝕄) = _)) $$ H1
  ihave H2 := (Entails.of_eq (rfl : ((sQ0).view.loc (tth d L) ↦{fullShare} f2 : sProp 𝕄) = _)) $$ H2
  ihave H3 := (Entails.of_eq (rfl : ((sQ1).view.loc (tth d L) ↦{fullShare} f3 : sProp 𝕄) = _)) $$ H3
  ihave H4 := (Entails.of_eq (rfl : ((sC0).view.loc (tth d L) ↦{fullShare} f4 : sProp 𝕄) = _)) $$ H4
  ihave H5 := (Entails.of_eq (rfl : ((sC1).view.loc (tth d L) ↦{fullShare} f5 : sProp 𝕄) = _)) $$ H5
  ihave H6 := (Entails.of_eq (rfl : ((sO0).view.loc (tth d L) ↦{fullShare} f6 : sProp 𝕄) = _)) $$ H6
  ihave H7 := (Entails.of_eq (rfl : ((sO1).view.loc (tth d L) ↦{fullShare} f7 : sProp 𝕄) = _)) $$ H7
  ihave H8 := (Entails.of_eq (rfl : ((sB).view.loc (tth d L) ↦{fullShare} f8 : sProp 𝕄) = _)) $$ H8
  ihave H9 := (Entails.of_eq (rfl : ((sR).view.loc (tth d L) ↦{fullShare} f9 : sProp 𝕄) = _)) $$ H9
  sl_exec
  generalize hfI : View.write (Elt F) (Memref.whole cc0_scratch0).view f0 _ Finset.univ = fI
  generalize hfB : View.write (Elt F) (Memref.whole cc0_scratch8).view f8 _ Finset.univ = fB
  have hI0 : ChunkI xq L 0 fI := by rw [← hfI]; exact chunkI_first0 xq L f0
  have hB : fB = xb := hfB.symm.trans (book_landed xb f8)
  rw [hB]
  sl_for (qInv0 d L fI) $$ [H0 H2]
  case region =>
    intro k _
    exact q_trip0 d L fI k
  · unfold qInv0
    isplitl [H0]; · iexact H0
    iexists _; isplitl [H2]; · iexact H2
    ipureintro; intro j hj; omega
  iintro %_ HI
  unfold qInv0
  icases HI with ⟨H0, %fQ, H2, %hQ⟩
  have hQ' : ChunkQ xq L 0 fQ := chunkQ_of xq L 0 fI fQ hI0 hQ
  have hin : ∀ x, ((Memref.whole cc0_scratch2).view.read (Elt F) fQ x).toNat < S25000x128.size gathers_S25000x128_S128x128.axis :=
    hin_of_chunkQ0 xq L 0 fQ hQ' hle
  sl_exec
  generalize hfI1 : View.write (Elt F) (Memref.whole cc0_scratch1).view f1 _ Finset.univ = fI1
  have hI1 : ChunkI xq L 1 fI1 := by rw [← hfI1]; exact chunkI_first1 xq L f1
  sl_for (qInv1 d L fI1) $$ [H1 H3]
  case region =>
    intro k _
    exact q_trip1 d L fI1 k
  · unfold qInv1
    isplitl [H1]; · iexact H1
    iexists _; isplitl [H3]; · iexact H3
    ipureintro; intro j hj; omega
  iintro %_ HI
  unfold qInv1
  icases HI with ⟨H1, %fQ1, H3, %hQ1⟩
  have hQ1' : ChunkQ xq L 1 fQ1 := chunkQ_of xq L 1 fI1 fQ1 hI1 hQ1
  have hin1 : ∀ x, ((Memref.whole cc0_scratch3).view.read (Elt F) fQ1 x).toNat < S25000x128.size gathers_S25000x128_S128x128.axis :=
    hin_of_chunkQ1 xq L 1 fQ1 hQ1' hle
  sl_exec
  -- the chunk loop
  sl_for (oInvL d L xq xc xb go m0 qq qa qb O W) $$ [HO Hq H8 H9 Hr3 Hr4 H0 H1 Hg0 Hc Hg1 Hc' H6 Ho0 H7 Ho1 Hblk]
  case region =>
    intro k _
    exact outer_stepL d L xq xc xb go m0 qq qa qb O W hO hle hcl hgo (h1 qq qa qb) (h2 qq qa qb) (h3 qq qa qb) _ k
  · unfold oInvL
    isplitr; · iexact Hlv
    rw [oInv_eq, if_pos (by decide : (0 : ℕ) < 25), if_neg (Nat.lt_irrefl 0)]
    isplitl [HO]
    · iexists _; isplitr
      rotate_left
      · iexact HO
      · ipureintro; intro p hp; simp only [Finset.mem_insert] at hp; casesm* _ ∨ _ <;> first | exact Or.inl ‹_› | (subst_vars; exact Or.inr rfl)
    isplitl [Hq]; · iexact Hq
    isplitl [H8]; · iexact H8
    isplitl [H9]; · iexists _; iexact H9
    isplitl [Hr3]; · iexact Hr3
    isplitl [Hr4]; · iexact Hr4
    isplitl [H0 H1 Hg0 Hc Hg1 Hc']
    · isplitl [H0]
      · iexists _; isplitl [H0]; · iexact H0
        ipureintro; exact hI0
      isplitl [H1]
      · iexists _; isplitl [H1]; · iexact H1
        ipureintro; exact hI1
      isplitl [Hg0]
      · iapply (Transfers.Flight_mono countersEmb (tth d L) ?hg0) $$ Hg0
        unfold GD0
        iintro ⟨⟨H4, H2⟩, Hc⟩
        isplitl [H4]
        · iexists _; isplitl [H4]; · iexact H4
          ipureintro; exact chunkC_landed0 xq xc L 0 fQ hQ' hle _ hin f4
        isplitl [H2]; · iexists _; iexact H2
        iexact Hc
      isplitl [Hc]; · iexact Hc
      isplitl [Hg1]
      · iapply (Transfers.Flight_mono countersEmb (tth d L) ?hg1) $$ Hg1
        unfold GD1
        iintro ⟨⟨H5, H3⟩, Hc⟩
        isplitl [H5]
        · iexists _; isplitl [H5]; · iexact H5
          ipureintro; exact chunkC_landed1 xq xc L 1 fQ1 hQ1' hle _ hin1 f5
        isplitl [H3]; · iexists _; iexact H3
        iexact Hc
      iexact Hc'
    isplitl [H6 Ho0 H7 Ho1]
    · isplitl [H6]; · iexists _; iexact H6
      isplitl [Ho0]; · iexact Ho0
      isplitl [H7]; · iexists _; iexact H7
      iexact Ho1
    iapply (blocks_init d L go m0); iexact Hblk
  iintro %_ HI
  have ht3 : Scf.trips k0_t3_loop.lb k0_t3_loop.ub k0_t3_loop.st = 25 := by decide
  unfold oInvL oInv
  rw [ht3, if_neg (by decide : ¬ (25 : ℕ) < 25), if_pos (by decide : (0 : ℕ) < 25)]
  icases HI with ⟨-, ⟨%W'', %hW'', HO⟩, Hq, H8, ⟨%fR, H9⟩, Hr3, Hr4, ⟨⟨%g0, H0⟩, ⟨%g1, H1⟩, ⟨%g2, H2⟩, ⟨%g3, H3⟩, ⟨%g4, H4⟩, ⟨%g5, H5⟩, Hg0, Hg1, Hc, Hc'⟩, ⟨Ho0, Ho1⟩, Hblk⟩
  unfold tile_core.sl.prog.cont_3
  simp (config := {proj := false}) only [bind_assoc, pure_bind, Prog.lift, Prog.bind_op, Prog.bind_ret]
  -- the last two blocks written out
  iapply (Transfers.wp_waitLocalO countersEmb 𝒱₀ (tth d L) none (default : HIx 1) (N := 524288) rfl) $$ [Ho0 HO]
  · isplitl [Ho0]; · iexact Ho0
    isplitl [HO]; · iexact HO
    iapply ((K (F := F)).mayWait_none (SemLoc.dma cc0_scratch12.sem) hO); iexact Hlv
  iintro ⟨HD, Ho0, HO⟩
  unfold OD0
  icases HD with ⟨⟨%fO0, H6⟩, B48⟩
  iapply (Transfers.wp_waitLocalO countersEmb 𝒱₀ (tth d L) none (default : HIx 1) (N := 524288) rfl) $$ [Ho1 HO]
  · isplitl [Ho1]; · iexact Ho1
    isplitl [HO]; · iexact HO
    iapply ((K (F := F)).mayWait_none (SemLoc.dma cc0_scratch13.sem) hO); iexact Hlv
  iintro ⟨HD, Ho1, HO⟩
  unfold OD1
  icases HD with ⟨⟨%fO1, H7⟩, B49⟩
  first | sl_step | (rw [wp_pure]; imodintro)
  isplitl [Hq]; · iexact Hq
  isplitl [Hc]; · iexact Hc
  isplitl [Hc']; · iexact Hc'
  isplitl [Hb]; · iexact Hb
  isplitl [Hblk B48 B49]
  · iapply (blocks_final d L go m0)
    isplitl [Hblk]; · iexact Hblk
    isplitl [B48]; · iexact B48
    iexact B49
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [Hg0]; · iexact Hg0
  isplitl [Hg1]; · iexact Hg1
  isplitl [Ho0]; · iexact Ho0
  isplitl [Ho1]; · iexact Ho1
  isplitl [Hr0]; · iexact Hr0
  isplitl [Hr1]; · iexact Hr1
  isplitl [Hr2]; · iexact Hr2
  isplitl [Hr3]; · iexact Hr3
  isplitl [Hr4]; · iexact Hr4
  iexists _; isplitr
  rotate_left
  · iexact HO
  · ipureintro; intro p hp
    simp only [Finset.mem_insert] at hp
    rcases hp with rfl | rfl | hp
    · exact Or.inr rfl
    · exact Or.inr rfl
    · exact hW'' p hp

end Cert.Proof.KB

end
-- ==== Proof.KBRowTrip.lean ====
/-
  One trip of a tile's row loop.

  A tile decodes a chunk of 128 queries one row per trip. At trip `r` a sixteen-lane vector that holds
  `r` in every lane is read back from scratch; through it the row's query word is gathered into every
  lane; for each of the eight pieces the sixteen codes of the piece are gathered from row `r` of the
  chunk's code rows, the sixteen floats at those codes' positions are gathered from the flat centroid
  list, and the piece is stored at row `r`, columns `16 t ‥ 16 t + 15` of the out scratch; last the
  counter vector is stored back with one added to every lane.

  The loop's invariant at `r`: the three inputs of the chunk are untouched, rows below `r` of the out
  scratch hold the decoded rows, and the counter vector holds `r` in every lane. Every index vector of
  the trip is inside the array it reads because the counter is below 128 and every code is at most 15;
  the eight stores leave row `r` decoded and no other row changed; and `r + 1` does not wrap.
-/
import proofs.«215948_g88356067214102_cont_sun_c4_674_26_alg».proof.Proof.KBGlue

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)

/-! ## The pieces of a row as terms

  With the in-range conditions supplied from the two facts that make them true — every lane of the
  row vector is below 128, every code is at most 15 — the words, codes and floats a trip gathers are
  terms of the chunk's three arrays and the row vector alone. -/

section
variable (gI : Vec F S128 .i32) (gC : Vec F S128x128 .i32) (gB : Vec F S64 .f32) (v59 : IVec S16 32)
  (h59 : ∀ x, (v59 x).toNat < 128) (hC : ∀ j, (gC j).toNat ≤ 15)

/-- The query word of the row, in every lane. -/
abbrev rowWord : Vec F S16 .i32 := loadIdx gI ![v59] (chk1_of v59 h59)
/-- The sixteen codes piece 0 reads. -/
abbrev rowCodes0 : Vec F S16 .i32 := loadIdx gC ![v59, k0_pay4 (rowWord gI v59 h59)] (chk2_of (F := F) v59 (rowWord gI v59 h59) h59)
/-- Piece 0: the sixteen floats at those codes' positions. -/
abbrev rowPiece0 : Vec F S16 .f32 :=
  loadIdx gB ![k0_pay13 k0_pay2 (rowCodes0 gI gC v59 h59)]
    (chk10_of (F := F) (rowCodes0 gI gC v59 h59) (fun x => loadIdx_le15 (F := F) gC hC _ _ x))
/-- Piece 0 is entries `0 ‥ 15` of the decoded row. -/
theorem rowPiece0_eq (r : Fin 128) (hv59 : ∀ x, v59 x = BitVec.ofNat 32 r.val) (l : Fin 16) :
    rowPiece0 gI gC gB v59 h59 hC (ix1 l) = rowGAt gI gC gB r ⟨16 * 0 + l.val, by have := l.isLt; omega⟩ :=
  piece0_eq gI gC gB r v59 hv59 hC _ _ _ l
/-- The sixteen codes piece 1 reads. -/
abbrev rowCodes1 : Vec F S16 .i32 := loadIdx gC ![v59, k0_pay5 (rowWord gI v59 h59)] (chk3_of (F := F) v59 (rowWord gI v59 h59) h59)
/-- Piece 1: the sixteen floats at those codes' positions. -/
abbrev rowPiece1 : Vec F S16 .f32 :=
  loadIdx gB ![k0_pay14 k0_pay2 (rowCodes1 gI gC v59 h59)]
    (chk11_of (F := F) (rowCodes1 gI gC v59 h59) (fun x => loadIdx_le15 (F := F) gC hC _ _ x))
/-- Piece 1 is entries `16 ‥ 31` of the decoded row. -/
theorem rowPiece1_eq (r : Fin 128) (hv59 : ∀ x, v59 x = BitVec.ofNat 32 r.val) (l : Fin 16) :
    rowPiece1 gI gC gB v59 h59 hC (ix1 l) = rowGAt gI gC gB r ⟨16 * 1 + l.val, by have := l.isLt; omega⟩ :=
  piece1_eq gI gC gB r v59 hv59 hC _ _ _ l
/-- The sixteen codes piece 2 reads. -/
abbrev rowCodes2 : Vec F S16 .i32 := loadIdx gC ![v59, k0_pay6 (rowWord gI v59 h59)] (chk4_of (F := F) v59 (rowWord gI v59 h59) h59)
/-- Piece 2: the sixteen floats at those codes' positions. -/
abbrev rowPiece2 : Vec F S16 .f32 :=
  loadIdx gB ![k0_pay15 k0_pay2 (rowCodes2 gI gC v59 h59)]
    (chk12_of (F := F) (rowCodes2 gI gC v59 h59) (fun x => loadIdx_le15 (F := F) gC hC _ _ x))
/-- Piece 2 is entries `32 ‥ 47` of the decoded row. -/
theorem rowPiece2_eq (r : Fin 128) (hv59 : ∀ x, v59 x = BitVec.ofNat 32 r.val) (l : Fin 16) :
    rowPiece2 gI gC gB v59 h59 hC (ix1 l) = rowGAt gI gC gB r ⟨16 * 2 + l.val, by have := l.isLt; omega⟩ :=
  piece2_eq gI gC gB r v59 hv59 hC _ _ _ l
/-- The sixteen codes piece 3 reads. -/
abbrev rowCodes3 : Vec F S16 .i32 := loadIdx gC ![v59, k0_pay7 (rowWord gI v59 h59)] (chk5_of (F := F) v59 (rowWord gI v59 h59) h59)
/-- Piece 3: the sixteen floats at those codes' positions. -/
abbrev rowPiece3 : Vec F S16 .f32 :=
  loadIdx gB ![k0_pay16 k0_pay2 (rowCodes3 gI gC v59 h59)]
    (chk13_of (F := F) (rowCodes3 gI gC v59 h59) (fun x => loadIdx_le15 (F := F) gC hC _ _ x))
/-- Piece 3 is entries `48 ‥ 63` of the decoded row. -/
theorem rowPiece3_eq (r : Fin 128) (hv59 : ∀ x, v59 x = BitVec.ofNat 32 r.val) (l : Fin 16) :
    rowPiece3 gI gC gB v59 h59 hC (ix1 l) = rowGAt gI gC gB r ⟨16 * 3 + l.val, by have := l.isLt; omega⟩ :=
  piece3_eq gI gC gB r v59 hv59 hC _ _ _ l
/-- The sixteen codes piece 4 reads. -/
abbrev rowCodes4 : Vec F S16 .i32 := loadIdx gC ![v59, k0_pay8 (rowWord gI v59 h59)] (chk6_of (F := F) v59 (rowWord gI v59 h59) h59)
/-- Piece 4: the sixteen floats at those codes' positions. -/
abbrev rowPiece4 : Vec F S16 .f32 :=
  loadIdx gB ![k0_pay17 k0_pay2 (rowCodes4 gI gC v59 h59)]
    (chk14_of (F := F) (rowCodes4 gI gC v59 h59) (fun x => loadIdx_le15 (F := F) gC hC _ _ x))
/-- Piece 4 is entries `64 ‥ 79` of the decoded row. -/
theorem rowPiece4_eq (r : Fin 128) (hv59 : ∀ x, v59 x = BitVec.ofNat 32 r.val) (l : Fin 16) :
    rowPiece4 gI gC gB v59 h59 hC (ix1 l) = rowGAt gI gC gB r ⟨16 * 4 + l.val, by have := l.isLt; omega⟩ :=
  piece4_eq gI gC gB r v59 hv59 hC _ _ _ l
/-- The sixteen codes piece 5 reads. -/
abbrev rowCodes5 : Vec F S16 .i32 := loadIdx gC ![v59, k0_pay9 (rowWord gI v59 h59)] (chk7_of (F := F) v59 (rowWord gI v59 h59) h59)
/-- Piece 5: the sixteen floats at those codes' positions. -/
abbrev rowPiece5 : Vec F S16 .f32 :=
  loadIdx gB ![k0_pay18 k0_pay2 (rowCodes5 gI gC v59 h59)]
    (chk15_of (F := F) (rowCodes5 gI gC v59 h59) (fun x => loadIdx_le15 (F := F) gC hC _ _ x))
/-- Piece 5 is entries `80 ‥ 95` of the decoded row. -/
theorem rowPiece5_eq (r : Fin 128) (hv59 : ∀ x, v59 x = BitVec.ofNat 32 r.val) (l : Fin 16) :
    rowPiece5 gI gC gB v59 h59 hC (ix1 l) = rowGAt gI gC gB r ⟨16 * 5 + l.val, by have := l.isLt; omega⟩ :=
  piece5_eq gI gC gB r v59 hv59 hC _ _ _ l
/-- The sixteen codes piece 6 reads. -/
abbrev rowCodes6 : Vec F S16 .i32 := loadIdx gC ![v59, k0_pay11 k0_pay1 (k0_pay3 (rowWord gI v59 h59)) k0_pay10] (chk8_of (F := F) v59 (rowWord gI v59 h59) h59)
/-- Piece 6: the sixteen floats at those codes' positions. -/
abbrev rowPiece6 : Vec F S16 .f32 :=
  loadIdx gB ![k0_pay19 k0_pay2 (rowCodes6 gI gC v59 h59)]
    (chk16_of (F := F) (rowCodes6 gI gC v59 h59) (fun x => loadIdx_le15 (F := F) gC hC _ _ x))
/-- Piece 6 is entries `96 ‥ 111` of the decoded row. -/
theorem rowPiece6_eq (r : Fin 128) (hv59 : ∀ x, v59 x = BitVec.ofNat 32 r.val) (l : Fin 16) :
    rowPiece6 gI gC gB v59 h59 hC (ix1 l) = rowGAt gI gC gB r ⟨16 * 6 + l.val, by have := l.isLt; omega⟩ :=
  piece6_eq gI gC gB r v59 hv59 hC _ _ _ l
/-- The sixteen codes piece 7 reads. -/
abbrev rowCodes7 : Vec F S16 .i32 := loadIdx gC ![v59, k0_pay12 k0_pay1 (k0_pay3 (rowWord gI v59 h59))] (chk9_of (F := F) v59 (rowWord gI v59 h59) h59)
/-- Piece 7: the sixteen floats at those codes' positions. -/
abbrev rowPiece7 : Vec F S16 .f32 :=
  loadIdx gB ![k0_pay20 k0_pay2 (rowCodes7 gI gC v59 h59)]
    (chk17_of (F := F) (rowCodes7 gI gC v59 h59) (fun x => loadIdx_le15 (F := F) gC hC _ _ x))
/-- Piece 7 is entries `112 ‥ 127` of the decoded row. -/
theorem rowPiece7_eq (r : Fin 128) (hv59 : ∀ x, v59 x = BitVec.ofNat 32 r.val) (l : Fin 16) :
    rowPiece7 gI gC gB v59 h59 hC (ix1 l) = rowGAt gI gC gB r ⟨16 * 7 + l.val, by have := l.isLt; omega⟩ :=
  piece7_eq gI gC gB r v59 hv59 hC _ _ _ l

/-- After trip `r` stores its eight pieces, the rows up to and including `r` are decoded. -/
theorem rows_after0 (fO : (Memref.whole cc0_scratch6 : Memref sig .scVector .vmem S128x128 .f32).view.ty.Contents (Elt F)) (r : Fin k0_t4_loop.trips)
    (hv59 : ∀ x, v59 x = BitVec.ofNat 32 (rowOf r).val)
    (hO : ∀ r' e : Fin 128, r'.val < r.val → fO (ix2 r' e) = rowGAt gI gC gB r' e) :
    ∀ r' e : Fin 128, r'.val < r.val + 1 → (Memref.whole cc0_scratch6 : Memref sig .scVector .vmem S128x128 .f32).view.writes (Elt F) fO
        [⟨Rect.unit (s := S128x128) (k0_off12 r) S1x16.size (k0_off12_inb r), shapeCast S1x16 (rowPiece7 gI gC gB v59 h59 hC) shapeCasts_S16_S1x16⟩,
        ⟨Rect.unit (s := S128x128) (k0_off11 r) S1x16.size (k0_off11_inb r), shapeCast S1x16 (rowPiece6 gI gC gB v59 h59 hC) shapeCasts_S16_S1x16⟩,
        ⟨Rect.unit (s := S128x128) (k0_off10 r) S1x16.size (k0_off10_inb r), shapeCast S1x16 (rowPiece5 gI gC gB v59 h59 hC) shapeCasts_S16_S1x16⟩,
        ⟨Rect.unit (s := S128x128) (k0_off9 r) S1x16.size (k0_off9_inb r), shapeCast S1x16 (rowPiece4 gI gC gB v59 h59 hC) shapeCasts_S16_S1x16⟩,
        ⟨Rect.unit (s := S128x128) (k0_off8 r) S1x16.size (k0_off8_inb r), shapeCast S1x16 (rowPiece3 gI gC gB v59 h59 hC) shapeCasts_S16_S1x16⟩,
        ⟨Rect.unit (s := S128x128) (k0_off7 r) S1x16.size (k0_off7_inb r), shapeCast S1x16 (rowPiece2 gI gC gB v59 h59 hC) shapeCasts_S16_S1x16⟩,
        ⟨Rect.unit (s := S128x128) (k0_off6 r) S1x16.size (k0_off6_inb r), shapeCast S1x16 (rowPiece1 gI gC gB v59 h59 hC) shapeCasts_S16_S1x16⟩,
        ⟨Rect.unit (s := S128x128) (k0_off5 r) S1x16.size (k0_off5_inb r), shapeCast S1x16 (rowPiece0 gI gC gB v59 h59 hC) shapeCasts_S16_S1x16⟩] (ix2 r' e) = rowGAt gI gC gB r' e := by
  have rs := row_stored (F := F) fO r _ _ _ _ _ _ _ _ (rowG gI gC gB)
    (fun l => rowPiece0_eq gI gC gB v59 h59 hC (rowOf r) hv59 l)
    (fun l => rowPiece1_eq gI gC gB v59 h59 hC (rowOf r) hv59 l)
    (fun l => rowPiece2_eq gI gC gB v59 h59 hC (rowOf r) hv59 l)
    (fun l => rowPiece3_eq gI gC gB v59 h59 hC (rowOf r) hv59 l)
    (fun l => rowPiece4_eq gI gC gB v59 h59 hC (rowOf r) hv59 l)
    (fun l => rowPiece5_eq gI gC gB v59 h59 hC (rowOf r) hv59 l)
    (fun l => rowPiece6_eq gI gC gB v59 h59 hC (rowOf r) hv59 l)
    (fun l => rowPiece7_eq gI gC gB v59 h59 hC (rowOf r) hv59 l)
  intro r' e hlt
  by_cases hr' : r'.val = r.val
  · obtain rfl : r' = rowOf r := Fin.ext hr'
    exact rs.1 e
  · exact (rs.2 r' e hr').trans (hO r' e (by omega))

end

/-! ## The pieces of a row as terms (second buffer)

  With the in-range conditions supplied from the two facts that make them true — every lane of the
  row vector is below 128, every code is at most 15 — the words, codes and floats a trip gathers are
  terms of the chunk's three arrays and the row vector alone. -/

section
variable (gI : Vec F S128 .i32) (gC : Vec F S128x128 .i32) (gB : Vec F S64 .f32) (v59 : IVec S16 32)
  (h59 : ∀ x, (v59 x).toNat < 128) (hC : ∀ j, (gC j).toNat ≤ 15)

/-- The query word of the row, in every lane. -/
abbrev rowWord' : Vec F S16 .i32 := loadIdx gI ![v59] (chk18_of v59 h59)
/-- The sixteen codes piece 0 reads. -/
abbrev rowCodes0' : Vec F S16 .i32 := loadIdx gC ![v59, k0_pay24 (rowWord' gI v59 h59)] (chk19_of (F := F) v59 (rowWord' gI v59 h59) h59)
/-- Piece 0: the sixteen floats at those codes' positions. -/
abbrev rowPiece0' : Vec F S16 .f32 :=
  loadIdx gB ![k0_pay33 k0_pay22 (rowCodes0' gI gC v59 h59)]
    (chk27_of (F := F) (rowCodes0' gI gC v59 h59) (fun x => loadIdx_le15 (F := F) gC hC _ _ x))
/-- Piece 0 is entries `0 ‥ 15` of the decoded row. -/
theorem rowPiece0'_eq (r : Fin 128) (hv59 : ∀ x, v59 x = BitVec.ofNat 32 r.val) (l : Fin 16) :
    rowPiece0' gI gC gB v59 h59 hC (ix1 l) = rowGAt gI gC gB r ⟨16 * 0 + l.val, by have := l.isLt; omega⟩ :=
  piece0'_eq gI gC gB r v59 hv59 hC _ _ _ l
/-- The sixteen codes piece 1 reads. -/
abbrev rowCodes1' : Vec F S16 .i32 := loadIdx gC ![v59, k0_pay25 (rowWord' gI v59 h59)] (chk20_of (F := F) v59 (rowWord' gI v59 h59) h59)
/-- Piece 1: the sixteen floats at those codes' positions. -/
abbrev rowPiece1' : Vec F S16 .f32 :=
  loadIdx gB ![k0_pay34 k0_pay22 (rowCodes1' gI gC v59 h59)]
    (chk28_of (F := F) (rowCodes1' gI gC v59 h59) (fun x => loadIdx_le15 (F := F) gC hC _ _ x))
/-- Piece 1 is entries `16 ‥ 31` of the decoded row. -/
theorem rowPiece1'_eq (r : Fin 128) (hv59 : ∀ x, v59 x = BitVec.ofNat 32 r.val) (l : Fin 16) :
    rowPiece1' gI gC gB v59 h59 hC (ix1 l) = rowGAt gI gC gB r ⟨16 * 1 + l.val, by have := l.isLt; omega⟩ :=
  piece1'_eq gI gC gB r v59 hv59 hC _ _ _ l
/-- The sixteen codes piece 2 reads. -/
abbrev rowCodes2' : Vec F S16 .i32 := loadIdx gC ![v59, k0_pay26 (rowWord' gI v59 h59)] (chk21_of (F := F) v59 (rowWord' gI v59 h59) h59)
/-- Piece 2: the sixteen floats at those codes' positions. -/
abbrev rowPiece2' : Vec F S16 .f32 :=
  loadIdx gB ![k0_pay35 k0_pay22 (rowCodes2' gI gC v59 h59)]
    (chk29_of (F := F) (rowCodes2' gI gC v59 h59) (fun x => loadIdx_le15 (F := F) gC hC _ _ x))
/-- Piece 2 is entries `32 ‥ 47` of the decoded row. -/
theorem rowPiece2'_eq (r : Fin 128) (hv59 : ∀ x, v59 x = BitVec.ofNat 32 r.val) (l : Fin 16) :
    rowPiece2' gI gC gB v59 h59 hC (ix1 l) = rowGAt gI gC gB r ⟨16 * 2 + l.val, by have := l.isLt; omega⟩ :=
  piece2'_eq gI gC gB r v59 hv59 hC _ _ _ l
/-- The sixteen codes piece 3 reads. -/
abbrev rowCodes3' : Vec F S16 .i32 := loadIdx gC ![v59, k0_pay27 (rowWord' gI v59 h59)] (chk22_of (F := F) v59 (rowWord' gI v59 h59) h59)
/-- Piece 3: the sixteen floats at those codes' positions. -/
abbrev rowPiece3' : Vec F S16 .f32 :=
  loadIdx gB ![k0_pay36 k0_pay22 (rowCodes3' gI gC v59 h59)]
    (chk30_of (F := F) (rowCodes3' gI gC v59 h59) (fun x => loadIdx_le15 (F := F) gC hC _ _ x))
/-- Piece 3 is entries `48 ‥ 63` of the decoded row. -/
theorem rowPiece3'_eq (r : Fin 128) (hv59 : ∀ x, v59 x = BitVec.ofNat 32 r.val) (l : Fin 16) :
    rowPiece3' gI gC gB v59 h59 hC (ix1 l) = rowGAt gI gC gB r ⟨16 * 3 + l.val, by have := l.isLt; omega⟩ :=
  piece3'_eq gI gC gB r v59 hv59 hC _ _ _ l
/-- The sixteen codes piece 4 reads. -/
abbrev rowCodes4' : Vec F S16 .i32 := loadIdx gC ![v59, k0_pay28 (rowWord' gI v59 h59)] (chk23_of (F := F) v59 (rowWord' gI v59 h59) h59)
/-- Piece 4: the sixteen floats at those codes' positions. -/
abbrev rowPiece4' : Vec F S16 .f32 :=
  loadIdx gB ![k0_pay37 k0_pay22 (rowCodes4' gI gC v59 h59)]
    (chk31_of (F := F) (rowCodes4' gI gC v59 h59) (fun x => loadIdx_le15 (F := F) gC hC _ _ x))
/-- Piece 4 is entries `64 ‥ 79` of the decoded row. -/
theorem rowPiece4'_eq (r : Fin 128) (hv59 : ∀ x, v59 x = BitVec.ofNat 32 r.val) (l : Fin 16) :
    rowPiece4' gI gC gB v59 h59 hC (ix1 l) = rowGAt gI gC gB r ⟨16 * 4 + l.val, by have := l.isLt; omega⟩ :=
  piece4'_eq gI gC gB r v59 hv59 hC _ _ _ l
/-- The sixteen codes piece 5 reads. -/
abbrev rowCodes5' : Vec F S16 .i32 := loadIdx gC ![v59, k0_pay29 (rowWord' gI v59 h59)] (chk24_of (F := F) v59 (rowWord' gI v59 h59) h59)
/-- Piece 5: the sixteen floats at those codes' positions. -/
abbrev rowPiece5' : Vec F S16 .f32 :=
  loadIdx gB ![k0_pay38 k0_pay22 (rowCodes5' gI gC v59 h59)]
    (chk32_of (F := F) (rowCodes5' gI gC v59 h59) (fun x => loadIdx_le15 (F := F) gC hC _ _ x))
/-- Piece 5 is entries `80 ‥ 95` of the decoded row. -/
theorem rowPiece5'_eq (r : Fin 128) (hv59 : ∀ x, v59 x = BitVec.ofNat 32 r.val) (l : Fin 16) :
    rowPiece5' gI gC gB v59 h59 hC (ix1 l) = rowGAt gI gC gB r ⟨16 * 5 + l.val, by have := l.isLt; omega⟩ :=
  piece5'_eq gI gC gB r v59 hv59 hC _ _ _ l
/-- The sixteen codes piece 6 reads. -/
abbrev rowCodes6' : Vec F S16 .i32 := loadIdx gC ![v59, k0_pay31 k0_pay21 (k0_pay23 (rowWord' gI v59 h59)) k0_pay30] (chk25_of (F := F) v59 (rowWord' gI v59 h59) h59)
/-- Piece 6: the sixteen floats at those codes' positions. -/
abbrev rowPiece6' : Vec F S16 .f32 :=
  loadIdx gB ![k0_pay39 k0_pay22 (rowCodes6' gI gC v59 h59)]
    (chk33_of (F := F) (rowCodes6' gI gC v59 h59) (fun x => loadIdx_le15 (F := F) gC hC _ _ x))
/-- Piece 6 is entries `96 ‥ 111` of the decoded row. -/
theorem rowPiece6'_eq (r : Fin 128) (hv59 : ∀ x, v59 x = BitVec.ofNat 32 r.val) (l : Fin 16) :
    rowPiece6' gI gC gB v59 h59 hC (ix1 l) = rowGAt gI gC gB r ⟨16 * 6 + l.val, by have := l.isLt; omega⟩ :=
  piece6'_eq gI gC gB r v59 hv59 hC _ _ _ l
/-- The sixteen codes piece 7 reads. -/
abbrev rowCodes7' : Vec F S16 .i32 := loadIdx gC ![v59, k0_pay32 k0_pay21 (k0_pay23 (rowWord' gI v59 h59))] (chk26_of (F := F) v59 (rowWord' gI v59 h59) h59)
/-- Piece 7: the sixteen floats at those codes' positions. -/
abbrev rowPiece7' : Vec F S16 .f32 :=
  loadIdx gB ![k0_pay40 k0_pay22 (rowCodes7' gI gC v59 h59)]
    (chk34_of (F := F) (rowCodes7' gI gC v59 h59) (fun x => loadIdx_le15 (F := F) gC hC _ _ x))
/-- Piece 7 is entries `112 ‥ 127` of the decoded row. -/
theorem rowPiece7'_eq (r : Fin 128) (hv59 : ∀ x, v59 x = BitVec.ofNat 32 r.val) (l : Fin 16) :
    rowPiece7' gI gC gB v59 h59 hC (ix1 l) = rowGAt gI gC gB r ⟨16 * 7 + l.val, by have := l.isLt; omega⟩ :=
  piece7'_eq gI gC gB r v59 hv59 hC _ _ _ l

/-- After trip `r` stores its eight pieces, the rows up to and including `r` are decoded. -/
theorem rows_after1 (fO : (Memref.whole cc0_scratch7 : Memref sig .scVector .vmem S128x128 .f32).view.ty.Contents (Elt F)) (r : Fin k0_t6_loop.trips)
    (hv59 : ∀ x, v59 x = BitVec.ofNat 32 (rowOf' r).val)
    (hO : ∀ r' e : Fin 128, r'.val < r.val → fO (ix2 r' e) = rowGAt gI gC gB r' e) :
    ∀ r' e : Fin 128, r'.val < r.val + 1 → (Memref.whole cc0_scratch7 : Memref sig .scVector .vmem S128x128 .f32).view.writes (Elt F) fO
        [⟨Rect.unit (s := S128x128) (k0_off24 r) S1x16.size (k0_off24_inb r), shapeCast S1x16 (rowPiece7' gI gC gB v59 h59 hC) shapeCasts_S16_S1x16⟩,
        ⟨Rect.unit (s := S128x128) (k0_off23 r) S1x16.size (k0_off23_inb r), shapeCast S1x16 (rowPiece6' gI gC gB v59 h59 hC) shapeCasts_S16_S1x16⟩,
        ⟨Rect.unit (s := S128x128) (k0_off22 r) S1x16.size (k0_off22_inb r), shapeCast S1x16 (rowPiece5' gI gC gB v59 h59 hC) shapeCasts_S16_S1x16⟩,
        ⟨Rect.unit (s := S128x128) (k0_off21 r) S1x16.size (k0_off21_inb r), shapeCast S1x16 (rowPiece4' gI gC gB v59 h59 hC) shapeCasts_S16_S1x16⟩,
        ⟨Rect.unit (s := S128x128) (k0_off20 r) S1x16.size (k0_off20_inb r), shapeCast S1x16 (rowPiece3' gI gC gB v59 h59 hC) shapeCasts_S16_S1x16⟩,
        ⟨Rect.unit (s := S128x128) (k0_off19 r) S1x16.size (k0_off19_inb r), shapeCast S1x16 (rowPiece2' gI gC gB v59 h59 hC) shapeCasts_S16_S1x16⟩,
        ⟨Rect.unit (s := S128x128) (k0_off18 r) S1x16.size (k0_off18_inb r), shapeCast S1x16 (rowPiece1' gI gC gB v59 h59 hC) shapeCasts_S16_S1x16⟩,
        ⟨Rect.unit (s := S128x128) (k0_off17 r) S1x16.size (k0_off17_inb r), shapeCast S1x16 (rowPiece0' gI gC gB v59 h59 hC) shapeCasts_S16_S1x16⟩] (ix2 r' e) = rowGAt gI gC gB r' e := by
  have rs := row_stored' (F := F) fO r _ _ _ _ _ _ _ _ (rowG gI gC gB)
    (fun l => rowPiece0'_eq gI gC gB v59 h59 hC (rowOf' r) hv59 l)
    (fun l => rowPiece1'_eq gI gC gB v59 h59 hC (rowOf' r) hv59 l)
    (fun l => rowPiece2'_eq gI gC gB v59 h59 hC (rowOf' r) hv59 l)
    (fun l => rowPiece3'_eq gI gC gB v59 h59 hC (rowOf' r) hv59 l)
    (fun l => rowPiece4'_eq gI gC gB v59 h59 hC (rowOf' r) hv59 l)
    (fun l => rowPiece5'_eq gI gC gB v59 h59 hC (rowOf' r) hv59 l)
    (fun l => rowPiece6'_eq gI gC gB v59 h59 hC (rowOf' r) hv59 l)
    (fun l => rowPiece7'_eq gI gC gB v59 h59 hC (rowOf' r) hv59 l)
  intro r' e hlt
  by_cases hr' : r'.val = r.val
  · obtain rfl : r' = rowOf' r := Fin.ext hr'
    exact rs.1 e
  · exact (rs.2 r' e hr').trans (hO r' e (by omega))

end

/-! ## The row counter -/

/-- The counter's vector held `r` in every lane; after the trip's store it holds `r + 1` in every lane. -/
theorem counter_after0 (fR : Vec F S16 .i32) (r : Nat) (hr : r < 128) (v59 : Vec F S16 .i32) (hv59 : ∀ x, v59 x = BitVec.ofNat 32 r) :
    ∀ x, (sR).view.writes (Elt F) fR [⟨Rect.unit (s := S16) ![0] S16.size inb_S16_S16_0, k0_pay42 v59⟩] x = BitVec.ofNat 32 (r + 1) :=
  fun x => (rsplat_stored fR _ x).trans (splat_succ r hr v59 hv59 x)
theorem counter_after1 (fR : Vec F S16 .i32) (r : Nat) (hr : r < 128) (v59 : Vec F S16 .i32) (hv59 : ∀ x, v59 x = BitVec.ofNat 32 r) :
    ∀ x, (sR).view.writes (Elt F) fR [⟨Rect.unit (s := S16) ![0] S16.size inb_S16_S16_0, k0_pay47 v59⟩] x = BitVec.ofNat 32 (r + 1) :=
  fun x => (rsplat_stored fR _ x).trans (splat_succ' r hr v59 hv59 x)

/-- The row loop's invariant (first buffer): the query words, the gathered code rows and the centroids untouched; the
    out scratch's rows below `r` decoded; the counter vector at `r` in every lane. -/
def rowInv0 (d : Dev nD) (L : grid0.Coords) (fI : Buf (Elt F) ((V d ((L 0).castLE hcore0) ((L 1).castLE hsub0)).loc cc0_scratch0)) (fC : Buf (Elt F) ((V d ((L 0).castLE hcore0) ((L 1).castLE hsub0)).loc cc0_scratch4))
    (fB : Buf (Elt F) ((V d ((L 0).castLE hcore0) ((L 1).castLE hsub0)).loc cc0_scratch8)) (r : Nat) (_ : PUnit) : sProp 𝕄 :=
  iprop(((sI0).view.loc (V d ((L 0).castLE hcore0) ((L 1).castLE hsub0)) ↦{fullShare} fI) ∗ ((sC0).view.loc (V d ((L 0).castLE hcore0) ((L 1).castLE hsub0)) ↦{fullShare} fC)
    ∗ ((sB).view.loc (V d ((L 0).castLE hcore0) ((L 1).castLE hsub0)) ↦{fullShare} fB)
    ∗ (∃ fO : Buf (Elt F) ((V d ((L 0).castLE hcore0) ((L 1).castLE hsub0)).loc cc0_scratch6), ((sO0).view.loc (V d ((L 0).castLE hcore0) ((L 1).castLE hsub0)) ↦{fullShare} fO)
        ∗ ⌜∀ r' e : Fin 128, r'.val < r → fO (ix2 r' e) = rowGAt fI fC fB r' e⌝)
    ∗ (∃ fR : Buf (Elt F) ((V d ((L 0).castLE hcore0) ((L 1).castLE hsub0)).loc cc0_scratch9), ((sR).view.loc (V d ((L 0).castLE hcore0) ((L 1).castLE hsub0)) ↦{fullShare} fR)
        ∗ ⌜∀ x, fR x = BitVec.ofNat 32 r⌝))

set_option maxHeartbeats 4000000 in
/-- One trip of the row loop (first buffer): it decodes row `r` and steps the counter. -/
theorem row_trip0 (d : Dev nD) (L : grid0.Coords) (fI : Buf (Elt F) ((V d ((L 0).castLE hcore0) ((L 1).castLE hsub0)).loc cc0_scratch0)) (fC : Buf (Elt F) ((V d ((L 0).castLE hcore0) ((L 1).castLE hsub0)).loc cc0_scratch4))
    (fB : Buf (Elt F) ((V d ((L 0).castLE hcore0) ((L 1).castLE hsub0)).loc cc0_scratch8)) (hC : ∀ j, (fC j).toNat ≤ 15) (v2 : BitVec 32) (k0_t3 : Fin k0_t3_loop.trips) (r : Fin k0_t4_loop.trips) :
    rowInv0 d L fI fC fB r.val ⟨⟩ ⊢ wp frame (wpE (defs₀ (F := F)) 𝒱₀ (V d ((L 0).castLE hcore0) ((L 1).castLE hsub0)) none) Set.univ
      (k0_t4_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 v2 0#32 1#32 k0_t3 r ())
      (fun _ => rowInv0 d L fI fC fB (r.val + 1) ⟨⟩) := by
  unfold k0_t4_body
  simp only [k0_part1_eq_skeleton, k0_part2_eq_skeleton]; unfold k0_part1_skel k0_part2_skel
  unfold SparseCore.vectorLoadIdx
  unfold rowInv0
  iintro ⟨HI, HC, HB, ⟨%fO, HO, %hO⟩, ⟨%fR, HR, %hR⟩⟩
  -- the facts the in-range conditions rest on, over the values the trip reads
  have hv59 : ∀ x, (View.readAt (Elt F) (sR).view (Rect.unit (s := S16) ![0] S16.size inb_S16_S16_0).toLoadRect fR) x = BitVec.ofNat 32 (rowOf r).val := fun x => (rsplat_read fR x).trans (hR x)
  have h59 : ∀ x, ((View.readAt (Elt F) (sR).view (Rect.unit (s := S16) ![0] S16.size inb_S16_S16_0).toLoadRect fR) x).toNat < 128 := splat_lt (rowOf r) _ hv59
  have hC' : ∀ j, ((View.readAt (Elt F) (sC0).view (LoadRect.whole S128x128) fC) j).toNat ≤ 15 := by
    intro j; rw [readAt_whole_s4]; exact hC j
  have hO' : ∀ r' e : Fin 128, r'.val < r.val → fO (ix2 r' e) = rowGAt (View.readAt (Elt F) (sI0).view (LoadRect.whole S128) fI) (View.readAt (Elt F) (sC0).view (LoadRect.whole S128x128) fC) (View.readAt (Elt F) (sB).view (LoadRect.whole S64) fB) r' e := by
    intro r' e h; rw [readAt_whole_s0 fI, readAt_whole_s4 fC, readAt_whole_s8 fB]; exact hO r' e h
  sl_exec (disch := first
      | sl_exact (chk1_of _ h59)
      | sl_exact (chk2_of (F := F) _ _ h59)
      | sl_exact (chk3_of (F := F) _ _ h59)
      | sl_exact (chk4_of (F := F) _ _ h59)
      | sl_exact (chk5_of (F := F) _ _ h59)
      | sl_exact (chk6_of (F := F) _ _ h59)
      | sl_exact (chk7_of (F := F) _ _ h59)
      | sl_exact (chk8_of (F := F) _ _ h59)
      | sl_exact (chk9_of (F := F) _ _ h59)
      | sl_exact (chk10_of (F := F) _ (fun x => loadIdx_le15 (F := F) _ hC' _ _ x))
      | sl_exact (chk11_of (F := F) _ (fun x => loadIdx_le15 (F := F) _ hC' _ _ x))
      | sl_exact (chk12_of (F := F) _ (fun x => loadIdx_le15 (F := F) _ hC' _ _ x))
      | sl_exact (chk13_of (F := F) _ (fun x => loadIdx_le15 (F := F) _ hC' _ _ x))
      | sl_exact (chk14_of (F := F) _ (fun x => loadIdx_le15 (F := F) _ hC' _ _ x))
      | sl_exact (chk15_of (F := F) _ (fun x => loadIdx_le15 (F := F) _ hC' _ _ x))
      | sl_exact (chk16_of (F := F) _ (fun x => loadIdx_le15 (F := F) _ hC' _ _ x))
      | sl_exact (chk17_of (F := F) _ (fun x => loadIdx_le15 (F := F) _ hC' _ _ x)))
  sl_step
  isplitl [HI]; · iexact HI
  isplitl [HC]; · iexact HC
  isplitl [HB]; · iexact HB
  isplitl [HO]
  · -- the out scratch: row r is now decoded, the rows below it still are
    iexists _; isplitl [HO]; · iexact HO
    ipureintro
    intro r' e hlt
    refine (rows_after0 (View.readAt (Elt F) (sI0).view (LoadRect.whole S128) fI) (View.readAt (Elt F) (sC0).view (LoadRect.whole S128x128) fC) (View.readAt (Elt F) (sB).view (LoadRect.whole S64) fB) (View.readAt (Elt F) (sR).view (Rect.unit (s := S16) ![0] S16.size inb_S16_S16_0).toLoadRect fR) h59 hC' fO r hv59 hO' r' e hlt).trans ?_
    rw [readAt_whole_s0 fI, readAt_whole_s4 fC, readAt_whole_s8 fB]
  · -- the counter: every lane held r, so every lane now holds r + 1
    iexists _; isplitl [HR]; · iexact HR
    ipureintro
    exact counter_after0 fR r.val (rowOf r).isLt (View.readAt (Elt F) (sR).view (Rect.unit (s := S16) ![0] S16.size inb_S16_S16_0).toLoadRect fR) hv59

/-- The row loop's invariant (second buffer): the query words, the gathered code rows and the centroids untouched; the
    out scratch's rows below `r` decoded; the counter vector at `r` in every lane. -/
def rowInv1 (d : Dev nD) (L : grid0.Coords) (fI : Buf (Elt F) ((V d ((L 0).castLE hcore0) ((L 1).castLE hsub0)).loc cc0_scratch1)) (fC : Buf (Elt F) ((V d ((L 0).castLE hcore0) ((L 1).castLE hsub0)).loc cc0_scratch5))
    (fB : Buf (Elt F) ((V d ((L 0).castLE hcore0) ((L 1).castLE hsub0)).loc cc0_scratch8)) (r : Nat) (_ : PUnit) : sProp 𝕄 :=
  iprop(((sI1).view.loc (V d ((L 0).castLE hcore0) ((L 1).castLE hsub0)) ↦{fullShare} fI) ∗ ((sC1).view.loc (V d ((L 0).castLE hcore0) ((L 1).castLE hsub0)) ↦{fullShare} fC)
    ∗ ((sB).view.loc (V d ((L 0).castLE hcore0) ((L 1).castLE hsub0)) ↦{fullShare} fB)
    ∗ (∃ fO : Buf (Elt F) ((V d ((L 0).castLE hcore0) ((L 1).castLE hsub0)).loc cc0_scratch7), ((sO1).view.loc (V d ((L 0).castLE hcore0) ((L 1).castLE hsub0)) ↦{fullShare} fO)
        ∗ ⌜∀ r' e : Fin 128, r'.val < r → fO (ix2 r' e) = rowGAt fI fC fB r' e⌝)
    ∗ (∃ fR : Buf (Elt F) ((V d ((L 0).castLE hcore0) ((L 1).castLE hsub0)).loc cc0_scratch9), ((sR).view.loc (V d ((L 0).castLE hcore0) ((L 1).castLE hsub0)) ↦{fullShare} fR)
        ∗ ⌜∀ x, fR x = BitVec.ofNat 32 r⌝))

set_option maxHeartbeats 4000000 in
/-- One trip of the row loop (second buffer): it decodes row `r` and steps the counter. -/
theorem row_trip1 (d : Dev nD) (L : grid0.Coords) (fI : Buf (Elt F) ((V d ((L 0).castLE hcore0) ((L 1).castLE hsub0)).loc cc0_scratch1)) (fC : Buf (Elt F) ((V d ((L 0).castLE hcore0) ((L 1).castLE hsub0)).loc cc0_scratch5))
    (fB : Buf (Elt F) ((V d ((L 0).castLE hcore0) ((L 1).castLE hsub0)).loc cc0_scratch8)) (hC : ∀ j, (fC j).toNat ≤ 15) (r : Fin k0_t6_loop.trips) :
    rowInv1 d L fI fC fB r.val ⟨⟩ ⊢ wp frame (wpE (defs₀ (F := F)) 𝒱₀ (V d ((L 0).castLE hcore0) ((L 1).castLE hsub0)) none) Set.univ
      (k0_t6_body L (Memref.whole main_v0_scv) (Memref.isWhole_whole _) (Memref.whole main_v1_scv) (Memref.isWhole_whole _) (Memref.whole main_v2_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scoped0 cc0_scoped1 cc0_scoped2 cc0_scoped3 cc0_scoped4 r ())
      (fun _ => rowInv1 d L fI fC fB (r.val + 1) ⟨⟩) := by
  unfold k0_t6_body
  simp only [k0_part3_eq_skeleton, k0_part4_eq_skeleton]; unfold k0_part3_skel k0_part4_skel
  unfold SparseCore.vectorLoadIdx
  unfold rowInv1
  iintro ⟨HI, HC, HB, ⟨%fO, HO, %hO⟩, ⟨%fR, HR, %hR⟩⟩
  -- the facts the in-range conditions rest on, over the values the trip reads
  have hv59 : ∀ x, (View.readAt (Elt F) (sR).view (Rect.unit (s := S16) ![0] S16.size inb_S16_S16_0).toLoadRect fR) x = BitVec.ofNat 32 (rowOf' r).val := fun x => (rsplat_read fR x).trans (hR x)
  have h59 : ∀ x, ((View.readAt (Elt F) (sR).view (Rect.unit (s := S16) ![0] S16.size inb_S16_S16_0).toLoadRect fR) x).toNat < 128 := splat_lt (rowOf' r) _ hv59
  have hC' : ∀ j, ((View.readAt (Elt F) (sC1).view (LoadRect.whole S128x128) fC) j).toNat ≤ 15 := by
    intro j; rw [readAt_whole_s5]; exact hC j
  have hO' : ∀ r' e : Fin 128, r'.val < r.val → fO (ix2 r' e) = rowGAt (View.readAt (Elt F) (sI1).view (LoadRect.whole S128) fI) (View.readAt (Elt F) (sC1).view (LoadRect.whole S128x128) fC) (View.readAt (Elt F) (sB).view (LoadRect.whole S64) fB) r' e := by
    intro r' e h; rw [readAt_whole_s1 fI, readAt_whole_s5 fC, readAt_whole_s8 fB]; exact hO r' e h
  sl_exec (disch := first
      | sl_exact (chk18_of _ h59)
      | sl_exact (chk19_of (F := F) _ _ h59)
      | sl_exact (chk20_of (F := F) _ _ h59)
      | sl_exact (chk21_of (F := F) _ _ h59)
      | sl_exact (chk22_of (F := F) _ _ h59)
      | sl_exact (chk23_of (F := F) _ _ h59)
      | sl_exact (chk24_of (F := F) _ _ h59)
      | sl_exact (chk25_of (F := F) _ _ h59)
      | sl_exact (chk26_of (F := F) _ _ h59)
      | sl_exact (chk27_of (F := F) _ (fun x => loadIdx_le15 (F := F) _ hC' _ _ x))
      | sl_exact (chk28_of (F := F) _ (fun x => loadIdx_le15 (F := F) _ hC' _ _ x))
      | sl_exact (chk29_of (F := F) _ (fun x => loadIdx_le15 (F := F) _ hC' _ _ x))
      | sl_exact (chk30_of (F := F) _ (fun x => loadIdx_le15 (F := F) _ hC' _ _ x))
      | sl_exact (chk31_of (F := F) _ (fun x => loadIdx_le15 (F := F) _ hC' _ _ x))
      | sl_exact (chk32_of (F := F) _ (fun x => loadIdx_le15 (F := F) _ hC' _ _ x))
      | sl_exact (chk33_of (F := F) _ (fun x => loadIdx_le15 (F := F) _ hC' _ _ x))
      | sl_exact (chk34_of (F := F) _ (fun x => loadIdx_le15 (F := F) _ hC' _ _ x)))
  sl_step
  isplitl [HI]; · iexact HI
  isplitl [HC]; · iexact HC
  isplitl [HB]; · iexact HB
  isplitl [HO]
  · -- the out scratch: row r is now decoded, the rows below it still are
    iexists _; isplitl [HO]; · iexact HO
    ipureintro
    intro r' e hlt
    refine (rows_after1 (View.readAt (Elt F) (sI1).view (LoadRect.whole S128) fI) (View.readAt (Elt F) (sC1).view (LoadRect.whole S128x128) fC) (View.readAt (Elt F) (sB).view (LoadRect.whole S64) fB) (View.readAt (Elt F) (sR).view (Rect.unit (s := S16) ![0] S16.size inb_S16_S16_0).toLoadRect fR) h59 hC' fO r hv59 hO' r' e hlt).trans ?_
    rw [readAt_whole_s1 fI, readAt_whole_s5 fC, readAt_whole_s8 fB]
  · -- the counter: every lane held r, so every lane now holds r + 1
    iexists _; isplitl [HR]; · iexact HR
    ipureintro
    exact counter_after1 fR r.val (rowOf' r).isLt (View.readAt (Elt F) (sR).view (Rect.unit (s := S16) ![0] S16.size inb_S16_S16_0).toLoadRect fR) hv59

end Cert.Proof.KB

end
-- ==== Proof.KBBody.lean ====
import proofs.«215948_g88356067214102_cont_sun_c4_674_26_alg».proof.Proof.KBSetup
import proofs.«215948_g88356067214102_cont_sun_c4_674_26_alg».proof.Proof.KBChunk
import proofs.«215948_g88356067214102_cont_sun_c4_674_26_alg».proof.Proof.KBOuterStmt
import proofs.«215948_g88356067214102_cont_sun_c4_674_26_alg».proof.Proof.KBGlue3
import proofs.«215948_g88356067214102_cont_sun_c4_674_26_alg».proof.Proof.KBQTrip
import proofs.«215948_g88356067214102_cont_sun_c4_674_26_alg».proof.Proof.KBRowTrip

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "sI0" => (Memref.whole Cert.Kernel.cc0_scratch0 : Memref Cert.Kernel.sig Kind.scVector Space.vmem Cert.Kernel.S128 EltTy.i32)
local notation "sI1" => (Memref.whole Cert.Kernel.cc0_scratch1 : Memref Cert.Kernel.sig Kind.scVector Space.vmem Cert.Kernel.S128 EltTy.i32)
local notation "sQ0" => (Memref.whole Cert.Kernel.cc0_scratch2 : Memref Cert.Kernel.sig Kind.scVector Space.vmem Cert.Kernel.S128 EltTy.i32)
local notation "sQ1" => (Memref.whole Cert.Kernel.cc0_scratch3 : Memref Cert.Kernel.sig Kind.scVector Space.vmem Cert.Kernel.S128 EltTy.i32)
local notation "sC0" => (Memref.whole Cert.Kernel.cc0_scratch4 : Memref Cert.Kernel.sig Kind.scVector Space.vmem Cert.Kernel.S128x128 EltTy.i32)
local notation "sC1" => (Memref.whole Cert.Kernel.cc0_scratch5 : Memref Cert.Kernel.sig Kind.scVector Space.vmem Cert.Kernel.S128x128 EltTy.i32)
local notation "sO0" => (Memref.whole Cert.Kernel.cc0_scratch6 : Memref Cert.Kernel.sig Kind.scVector Space.vmem Cert.Kernel.S128x128 EltTy.f32)
local notation "sO1" => (Memref.whole Cert.Kernel.cc0_scratch7 : Memref Cert.Kernel.sig Kind.scVector Space.vmem Cert.Kernel.S128x128 EltTy.f32)
local notation "sB" => (Memref.whole Cert.Kernel.cc0_scratch8 : Memref Cert.Kernel.sig Kind.scVector Space.vmem Cert.Kernel.S64 EltTy.f32)
local notation "sR" => (Memref.whole Cert.Kernel.cc0_scratch9 : Memref Cert.Kernel.sig Kind.scVector Space.vmem Cert.Kernel.S16 EltTy.i32)
local notation "qV" => (Memref.whole Cert.Kernel.main_v0_scv : Memref Cert.Kernel.sig Kind.scVector Space.hbm Cert.Kernel.S204800 EltTy.i32)
local notation "cVm" => (Memref.whole Cert.Kernel.main_v1_scv : Memref Cert.Kernel.sig Kind.scVector Space.hbm Cert.Kernel.S25000x128 EltTy.i32)
local notation "bV" => (Memref.whole Cert.Kernel.main_v2_scv : Memref Cert.Kernel.sig Kind.scVector Space.hbm Cert.Kernel.S64 EltTy.f32)
local notation "oV" => (Memref.whole Cert.Kernel.main_v3_scv : Memref Cert.Kernel.sig Kind.scVector Space.hbm Cert.Kernel.S204800x128 EltTy.f32)

variable [FloatOps F]

/-! The chunk loop's three kinds of trip, run.

    A trip decodes two chunks, one per slot. For a slot: wait for the chunk's gathered code rows; wait (but on the first
    trip) for the block written two chunks ago, which frees the out scratch; decode the chunk's 128 rows into the out
    scratch; fetch the query words of the chunk after next, shift them into the row list and start their gather (but
    on the last trip); start writing the decoded chunk out to its block. What the transfers in flight will deliver is
    kept in one form from trip to trip (`GD0`, `GD1`, `OD0`, `OD1`): a transfer's delivery as issued is weakened to that form
    where the transfer is handed on to the next trip, and waited for by the plain rule where it is taken up. -/

theorem cond1_iff : ∀ k : Fin k0_t3_loop.trips, k0_cond1 k = 1#1 ↔ 0 < k.val := by decide
theorem cond3_iff : ∀ k : Fin k0_t3_loop.trips, k0_cond3 k = 1#1 ↔ 0 < k.val := by decide
theorem cond2_iff : ∀ k : Fin k0_t3_loop.trips, k0_cond2 k = 1#1 ↔ k.val < 24 := by decide
theorem cond4_iff : ∀ k : Fin k0_t3_loop.trips, k0_cond4 k = 1#1 ↔ k.val < 24 := by decide

/-- A wait's record at the launch's index keeps the set of records within "old or at the launch's index". -/
theorem owes_mem {W W1 : Waits sig (HIx 1)} {sm : SemLoc sig} (h : ∀ p ∈ W1, p ∈ W ∨ p.2 = none) :
    ∀ p ∈ insert (sm, (default : HIx 1)) W1, p ∈ W ∨ p.2 = none :=
  fun p hp => (Finset.mem_insert.mp hp).elim (fun e => Or.inr (e ▸ rfl)) (h p)

/-- A block as a write-out addresses it, at contents that agree with the decoded rows on the block, is the block decoded. -/
theorem block_landed0 (d : Dev nD) (L : grid0.Coords) (go : Buf (Elt F) (oLoc d)) (k : Fin k0_t3_loop.trips) (f : Buf (Elt F) (oLoc d))
    (h : ∀ i ∈ blkSet (bk L (2 * k.val)), f i = go i) :
    ((((oV).slice (Rect.unit (s := S204800x128) (k0_off15 L k 0#32) S128x128.size (k0_off15_inb L k 0)) (fun _ => rfl)).view.loc (tth d L))
        ↦[((oV).slice (Rect.unit (s := S204800x128) (k0_off15 L k 0#32) S128x128.size (k0_off15_inb L k 0)) (fun _ => rfl)).view.set]{fullShare} f : sProp 𝕄)
      ⊢ (oLoc d ↦[blkSet (bk L (2 * k.val))]{fullShare} go) := by
  rw [oslice_set0 L k]
  exact Entails.of_eq (pointsTo_congr h)
theorem block_landed1 (d : Dev nD) (L : grid0.Coords) (go : Buf (Elt F) (oLoc d)) (k : Fin k0_t3_loop.trips) (f : Buf (Elt F) (oLoc d))
    (h : ∀ i ∈ blkSet (bk L (2 * k.val + 1)), f i = go i) :
    ((((oV).slice (Rect.unit (s := S204800x128) (k0_off15 L k 1#32) S128x128.size (k0_off15_inb L k 1)) (fun _ => rfl)).view.loc (tth d L))
        ↦[((oV).slice (Rect.unit (s := S204800x128) (k0_off15 L k 1#32) S128x128.size (k0_off15_inb L k 1)) (fun _ => rfl)).view.set]{fullShare} f : sProp 𝕄)
      ⊢ (oLoc d ↦[blkSet (bk L (2 * k.val + 1))]{fullShare} go) := by
  rw [oslice_set1 L k]
  exact Entails.of_eq (pointsTo_congr h)

set_option maxHeartbeats 8000000 in
theorem outer_first (d : Dev nD) (L : grid0.Coords) (xq : Buf (Elt F) (qLoc d)) (xc : Buf (Elt F) (cLoc d)) (xb : Buf (Elt F) (bLoc d)) (go : Buf (Elt F) (oLoc d))
    (qq qa qb : PosShare TreeShare) : OuterFirst d L xq xc xb go qq qa qb := by
  intro m0 O W hO hle hcl hgo k hk0 v2 fI0 hI0 fI1 hI1 fR fO0 fO1
  have k0_h1 : ¬ k0_cond1 k = 1#1 := fun h => absurd ((cond1_iff k).mp h) (by omega)
  have k0_h3 : ¬ k0_cond3 k = 1#1 := fun h => absurd ((cond3_iff k).mp h) (by omega)
  have k0_h2 : k0_cond2 k = 1#1 := (cond2_iff k).mpr (by omega)
  have k0_h4 : k0_cond4 k = 1#1 := (cond4_iff k).mpr (by omega)
  unfold k0_t3_body
  simp only [k0_part5_eq_skeleton]; unfold k0_part5_skel
  unfold SparseCore.waitIndirectGather
  simp only [bind_assoc, pure_bind, Prog.bind_op, Prog.bind_ret]
  iintro ⟨#Hlv, HO, Hq, H8, H9, Hr3, Hr4, H0, H1, Hg0, Hcr0, Hg1, Hcr1, H6, Ho0, H7, Ho1, B0, B1⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave H8 := (Entails.of_eq (rfl : ((sB).view.loc (tth d L) ↦{fullShare} xb : sProp 𝕄) = _)) $$ H8
  ihave H9 := (Entails.of_eq (rfl : ((sR).view.loc (tth d L) ↦{fullShare} fR : sProp 𝕄) = _)) $$ H9
  ihave H0 := (Entails.of_eq (rfl : ((sI0).view.loc (tth d L) ↦{fullShare} fI0 : sProp 𝕄) = _)) $$ H0
  ihave H1 := (Entails.of_eq (rfl : ((sI1).view.loc (tth d L) ↦{fullShare} fI1 : sProp 𝕄) = _)) $$ H1
  ihave H6 := (Entails.of_eq (rfl : ((sO0).view.loc (tth d L) ↦{fullShare} fO0 : sProp 𝕄) = _)) $$ H6
  ihave H7 := (Entails.of_eq (rfl : ((sO1).view.loc (tth d L) ↦{fullShare} fO1 : sProp 𝕄) = _)) $$ H7
  -- the two blocks this trip writes, as the write-outs address them
  ihave B0 := (Entails.of_eq (show (oLoc d ↦[blkSet (bk L (2 * k.val))]{fullShare} m0 : sProp 𝕄)
      = ((((oV).slice (Rect.unit (s := S204800x128) (k0_off15 L k 0#32) S128x128.size (k0_off15_inb L k 0)) (fun _ => rfl)).view.loc (tth d L)) ↦[((oV).slice (Rect.unit (s := S204800x128) (k0_off15 L k 0#32) S128x128.size (k0_off15_inb L k 0)) (fun _ => rfl)).view.set]{fullShare} m0) from by
        rw [oslice_set0 L k])) $$ B0
  ihave B1 := (Entails.of_eq (show (oLoc d ↦[blkSet (bk L (2 * k.val + 1))]{fullShare} m0 : sProp 𝕄)
      = ((((oV).slice (Rect.unit (s := S204800x128) (k0_off15 L k 1#32) S128x128.size (k0_off15_inb L k 1)) (fun _ => rfl)).view.loc (tth d L)) ↦[((oV).slice (Rect.unit (s := S204800x128) (k0_off15 L k 1#32) S128x128.size (k0_off15_inb L k 1)) (fun _ => rfl)).view.set]{fullShare} m0) from by
        rw [oslice_set1 L k])) $$ B1
  -- slot 0: the gathered rows of chunk 2 * k.val have landed
  iapply (Transfers.wp_waitLocalO countersEmb 𝒱₀ (tth d L) none (default : HIx 1) (N := 524288) rfl) $$ [Hg0 HO]
  · isplitl [Hg0]; · iexact Hg0
    isplitl [HO]; · iexact HO
    iapply ((K (F := F)).mayWait_none (SemLoc.dma cc0_scratch10.sem) hO); iexact Hlv
  iintro ⟨HD, Hg0, HO⟩
  unfold GD0
  icases HD with ⟨⟨%fC0, H4, %hC0⟩, ⟨%fQ0, H2⟩, Hc0⟩
  ihave Hc0 := ((pointsTo_split_subset (ℓ := (cVm).view.loc (tth d L)) (q := qa) (f := xc) (S := Finset.univ) (Finset.subset_univ (cAll).view.set)).2) $$ [Hc0 Hcr0]
  · isplitl [Hc0] <;> iassumption
  sl_exec
  try simp (config := {proj := false}) only [bind_assoc, pure_bind]
  have hCle0 : ∀ j, (fC0 j).toNat ≤ 15 := codes_le xq xc L (2 * k.val) fC0 hC0 hcl
  sl_for (rowInv0 d L fI0 fC0 xb) $$ [H0 H4 H8 H6 H9]
  case region =>
    intro r _
    exact row_trip0 d L fI0 fC0 xb hCle0 v2 k r
  · unfold rowInv0
    isplitl [H0]; · iexact H0
    isplitl [H4]; · iexact H4
    isplitl [H8]; · iexact H8
    isplitl [H6]
    · iexists _; isplitl [H6]; · iexact H6
      ipureintro; intro r' e h; omega
    · iexists _; isplitl [H9]; · iexact H9
      ipureintro; intro x; exact (rsplat_stored _ _ x).trans (splat_zero x)
  iintro %_ HI
  unfold rowInv0
  icases HI with ⟨H0, H4, H8, ⟨%fO0n, H6, %hO0n⟩, ⟨%fR0n, H9, -⟩⟩
  have hOut0 : ChunkO xq xc xb L (2 * k.val) fO0n := fun r e => (hO0n r e (lt_of_lt_of_eq r.isLt (show (128 : Nat) = Scf.trips k0_t4_loop.lb k0_t4_loop.ub k0_t4_loop.st from by decide))).trans (chunk_value xq xc xb L (2 * k.val) fI0 fC0 hI0 hC0 r e)
  sl_exec
  try simp (config := {proj := false}) only [bind_assoc, pure_bind]
  generalize hfI0n : View.write (Elt F) (Memref.whole cc0_scratch0).view fI0 _ Finset.univ = fI0n
  sl_for (qInv0 d L fI0n) $$ [H0 H2]
  case region =>
    intro j _
    exact q_trip0' d L fI0n v2 k k0_h2 j
  · unfold qInv0
    isplitl [H0]; · iexact H0
    iexists _; isplitl [H2]; · iexact H2
    ipureintro; intro j hj; omega
  iintro %_ HI
  unfold qInv0
  icases HI with ⟨H0, %fQ0n, H2, %hQ0n⟩
  have hI0n : ChunkI xq L (2 * k.val + 2) fI0n := by rw [← hfI0n]; exact chunkI_next0 xq L k k0_h2 fI0
  have hQ0n' : ChunkQ xq L (2 * k.val + 2) fQ0n := chunkQ_of xq L (2 * k.val + 2) fI0n fQ0n hI0n hQ0n
  have hin0 : ∀ x, ((Memref.whole cc0_scratch2).view.read (Elt F) fQ0n x).toNat < S25000x128.size gathers_S25000x128_S128x128.axis := hin_of_chunkQ0 xq L (2 * k.val + 2) fQ0n hQ0n' hle
  sl_exec
  -- slot 1: the gathered rows of chunk 2 * k.val + 1 have landed
  iapply (Transfers.wp_waitLocalO countersEmb 𝒱₀ (tth d L) none (default : HIx 1) (N := 524288) rfl) $$ [Hg1 HO]
  · isplitl [Hg1]; · iexact Hg1
    isplitl [HO]; · iexact HO
    iapply ((K (F := F)).mayWait_none (SemLoc.dma cc0_scratch11.sem) hO); iexact Hlv
  iintro ⟨HD, Hg1, HO⟩
  unfold GD1
  icases HD with ⟨⟨%fC1, H5, %hC1⟩, ⟨%fQ1, H3⟩, Hc1⟩
  ihave Hc1 := ((pointsTo_split_subset (ℓ := (cVm).view.loc (tth d L)) (q := qb) (f := xc) (S := Finset.univ) (Finset.subset_univ (cAll).view.set)).2) $$ [Hc1 Hcr1]
  · isplitl [Hc1] <;> iassumption
  sl_exec
  try simp (config := {proj := false}) only [bind_assoc, pure_bind]
  have hCle1 : ∀ j, (fC1 j).toNat ≤ 15 := codes_le xq xc L (2 * k.val + 1) fC1 hC1 hcl
  sl_for (rowInv1 d L fI1 fC1 xb) $$ [H1 H5 H8 H7 H9]
  case region =>
    intro r _
    exact row_trip1 d L fI1 fC1 xb hCle1 r
  · unfold rowInv1
    isplitl [H1]; · iexact H1
    isplitl [H5]; · iexact H5
    isplitl [H8]; · iexact H8
    isplitl [H7]
    · iexists _; isplitl [H7]; · iexact H7
      ipureintro; intro r' e h; omega
    · iexists _; isplitl [H9]; · iexact H9
      ipureintro; intro x; exact (rsplat_stored _ _ x).trans (splat_zero' x)
  iintro %_ HI
  unfold rowInv1
  icases HI with ⟨H1, H5, H8, ⟨%fO1n, H7, %hO1n⟩, ⟨%fR1n, H9, -⟩⟩
  have hOut1 : ChunkO xq xc xb L (2 * k.val + 1) fO1n := fun r e => (hO1n r e (lt_of_lt_of_eq r.isLt (show (128 : Nat) = Scf.trips k0_t6_loop.lb k0_t6_loop.ub k0_t6_loop.st from by decide))).trans (chunk_value xq xc xb L (2 * k.val + 1) fI1 fC1 hI1 hC1 r e)
  sl_exec
  try simp (config := {proj := false}) only [bind_assoc, pure_bind]
  generalize hfI1n : View.write (Elt F) (Memref.whole cc0_scratch1).view fI1 _ Finset.univ = fI1n
  sl_for (qInv1 d L fI1n) $$ [H1 H3]
  case region =>
    intro j _
    exact q_trip1' d L fI1n k k0_h4 j
  · unfold qInv1
    isplitl [H1]; · iexact H1
    iexists _; isplitl [H3]; · iexact H3
    ipureintro; intro j hj; omega
  iintro %_ HI
  unfold qInv1
  icases HI with ⟨H1, %fQ1n, H3, %hQ1n⟩
  have hI1n : ChunkI xq L (2 * k.val + 1 + 2) fI1n := by rw [← hfI1n]; exact chunkI_next1 xq L k k0_h4 fI1
  have hQ1n' : ChunkQ xq L (2 * k.val + 1 + 2) fQ1n := chunkQ_of xq L (2 * k.val + 1 + 2) fI1n fQ1n hI1n hQ1n
  have hin1 : ∀ x, ((Memref.whole cc0_scratch3).view.read (Elt F) fQ1n x).toNat < S25000x128.size gathers_S25000x128_S128x128.axis := hin_of_chunkQ1 xq L (2 * k.val + 1 + 2) fQ1n hQ1n' hle
  sl_exec
  sl_step
  isplitl [HO]
  · iexists _; isplitr
    rotate_left
    · iexact HO
    · ipureintro; exact (owes_mem (owes_mem (owes_mem (owes_mem (fun p hp => Or.inl hp)))))
  isplitl [Hq]
  · iexact Hq
  isplitl [H8]
  · iexact H8
  isplitl [H9]
  · iexists _; iexact H9
  isplitl [Hr3]
  · iexact Hr3
  isplitl [Hr4]
  · iexact Hr4
  isplitl [H0]
  · iexists _; isplitl [H0]; · iexact H0
    ipureintro; exact (by rw [show 2 * (k.val + 1) = 2 * k.val + 2 from by ring]; exact hI0n)
  isplitl [H1]
  · iexists _; isplitl [H1]; · iexact H1
    ipureintro; exact (by rw [show 2 * (k.val + 1) + 1 = 2 * k.val + 1 + 2 from by ring]; exact hI1n)
  isplitl [Hg0]
  · iapply (Transfers.Flight_mono countersEmb (tth d L) ?hg0) $$ Hg0
    iintro ⟨⟨H4, H2⟩, Hc⟩
    isplitl [H4]
    · iexists _; isplitl [H4]; · iexact H4
      ipureintro
      rw [show 2 * (k.val + 1) = 2 * k.val + 2 from by ring]
      exact chunkC_landed0 xq xc L (2 * k.val + 2) fQ0n hQ0n' hle _ hin0 fC0
    isplitl [H2]; · iexists _; iexact H2
    iexact Hc
  isplitl [Hc0]
  · iexact Hc0
  isplitl [Hg1]
  · iapply (Transfers.Flight_mono countersEmb (tth d L) ?hg1) $$ Hg1
    iintro ⟨⟨H5, H3⟩, Hc⟩
    isplitl [H5]
    · iexists _; isplitl [H5]; · iexact H5
      ipureintro
      rw [show 2 * (k.val + 1) + 1 = 2 * k.val + 1 + 2 from by ring]
      exact chunkC_landed1 xq xc L (2 * k.val + 1 + 2) fQ1n hQ1n' hle _ hin1 fC1
    isplitl [H3]; · iexists _; iexact H3
    iexact Hc
  isplitl [Hc1]
  · iexact Hc1
  isplitl [Ho0]
  · iapply (Transfers.Flight_mono countersEmb (tth d L) ?ho0) $$ Ho0
    try unfold OD0
    iintro ⟨Hd, Hs⟩
    isplitl [Hs]
    · iexists fO0n
      iapply (Entails.of_eq (show (((sO0).view.loc (tth d L) ↦[(sO0).view.set]{fullShare} fO0n : sProp 𝕄)) = ((sO0).view.loc (tth d L) ↦{fullShare} fO0n) from by rw [View.set_whole])) $$ Hs
    iapply (block_landed0 d L go k _ ?hb0) $$ Hd
    exact out_landed0' xq xc xb go hgo L k fO0n hOut0 m0
  iapply (Transfers.Flight_mono countersEmb (tth d L) ?ho1) $$ Ho1
  try unfold OD1
  iintro ⟨Hd, Hs⟩
  isplitl [Hs]
  · iexists fO1n
    iapply (Entails.of_eq (show (((sO1).view.loc (tth d L) ↦[(sO1).view.set]{fullShare} fO1n : sProp 𝕄)) = ((sO1).view.loc (tth d L) ↦{fullShare} fO1n) from by rw [View.set_whole])) $$ Hs
  iapply (block_landed1 d L go k _ ?hb1) $$ Hd
  exact out_landed1' xq xc xb go hgo L k fO1n hOut1 m0

set_option maxHeartbeats 8000000 in
theorem outer_mid (d : Dev nD) (L : grid0.Coords) (xq : Buf (Elt F) (qLoc d)) (xc : Buf (Elt F) (cLoc d)) (xb : Buf (Elt F) (bLoc d)) (go : Buf (Elt F) (oLoc d))
    (qq qa qb : PosShare TreeShare) : OuterMid d L xq xc xb go qq qa qb := by
  intro m0 O W hO hle hcl hgo k hk0 hk24 v2 fI0 hI0 fI1 hI1 fR
  have k0_h1 : k0_cond1 k = 1#1 := (cond1_iff k).mpr hk0
  have k0_h3 : k0_cond3 k = 1#1 := (cond3_iff k).mpr hk0
  have k0_h2 : k0_cond2 k = 1#1 := (cond2_iff k).mpr hk24
  have k0_h4 : k0_cond4 k = 1#1 := (cond4_iff k).mpr hk24
  unfold k0_t3_body
  simp only [k0_part5_eq_skeleton]; unfold k0_part5_skel
  unfold SparseCore.waitIndirectGather
  simp only [bind_assoc, pure_bind, Prog.bind_op, Prog.bind_ret]
  iintro ⟨#Hlv, HO, Hq, H8, H9, Hr3, Hr4, H0, H1, Hg0, Hcr0, Hg1, Hcr1, Ho0, Ho1, B0, B1⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave H8 := (Entails.of_eq (rfl : ((sB).view.loc (tth d L) ↦{fullShare} xb : sProp 𝕄) = _)) $$ H8
  ihave H9 := (Entails.of_eq (rfl : ((sR).view.loc (tth d L) ↦{fullShare} fR : sProp 𝕄) = _)) $$ H9
  ihave H0 := (Entails.of_eq (rfl : ((sI0).view.loc (tth d L) ↦{fullShare} fI0 : sProp 𝕄) = _)) $$ H0
  ihave H1 := (Entails.of_eq (rfl : ((sI1).view.loc (tth d L) ↦{fullShare} fI1 : sProp 𝕄) = _)) $$ H1
  -- the two blocks this trip writes, as the write-outs address them
  ihave B0 := (Entails.of_eq (show (oLoc d ↦[blkSet (bk L (2 * k.val))]{fullShare} m0 : sProp 𝕄)
      = ((((oV).slice (Rect.unit (s := S204800x128) (k0_off15 L k 0#32) S128x128.size (k0_off15_inb L k 0)) (fun _ => rfl)).view.loc (tth d L)) ↦[((oV).slice (Rect.unit (s := S204800x128) (k0_off15 L k 0#32) S128x128.size (k0_off15_inb L k 0)) (fun _ => rfl)).view.set]{fullShare} m0) from by
        rw [oslice_set0 L k])) $$ B0
  ihave B1 := (Entails.of_eq (show (oLoc d ↦[blkSet (bk L (2 * k.val + 1))]{fullShare} m0 : sProp 𝕄)
      = ((((oV).slice (Rect.unit (s := S204800x128) (k0_off15 L k 1#32) S128x128.size (k0_off15_inb L k 1)) (fun _ => rfl)).view.loc (tth d L)) ↦[((oV).slice (Rect.unit (s := S204800x128) (k0_off15 L k 1#32) S128x128.size (k0_off15_inb L k 1)) (fun _ => rfl)).view.set]{fullShare} m0) from by
        rw [oslice_set1 L k])) $$ B1
  -- slot 0: the gathered rows of chunk 2 * k.val have landed
  iapply (Transfers.wp_waitLocalO countersEmb 𝒱₀ (tth d L) none (default : HIx 1) (N := 524288) rfl) $$ [Hg0 HO]
  · isplitl [Hg0]; · iexact Hg0
    isplitl [HO]; · iexact HO
    iapply ((K (F := F)).mayWait_none (SemLoc.dma cc0_scratch10.sem) hO); iexact Hlv
  iintro ⟨HD, Hg0, HO⟩
  unfold GD0
  icases HD with ⟨⟨%fC0, H4, %hC0⟩, ⟨%fQ0, H2⟩, Hc0⟩
  ihave Hc0 := ((pointsTo_split_subset (ℓ := (cVm).view.loc (tth d L)) (q := qa) (f := xc) (S := Finset.univ) (Finset.subset_univ (cAll).view.set)).2) $$ [Hc0 Hcr0]
  · isplitl [Hc0] <;> iassumption
  sl_exec
  -- the block written two chunks ago has landed
  iapply (Transfers.wp_waitLocalO countersEmb 𝒱₀ (tth d L) none (default : HIx 1) (N := 524288) rfl) $$ [Ho0 HO]
  · isplitl [Ho0]; · iexact Ho0
    isplitl [HO]; · iexact HO
    iapply ((K (F := F)).mayWait_none (SemLoc.dma cc0_scratch12.sem) hO); iexact Hlv
  iintro ⟨HD, Ho0, HO⟩
  unfold OD0
  icases HD with ⟨⟨%fO0, H6⟩, Bd0⟩
  sl_exec
  try simp (config := {proj := false}) only [bind_assoc, pure_bind]
  have hCle0 : ∀ j, (fC0 j).toNat ≤ 15 := codes_le xq xc L (2 * k.val) fC0 hC0 hcl
  sl_for (rowInv0 d L fI0 fC0 xb) $$ [H0 H4 H8 H6 H9]
  case region =>
    intro r _
    exact row_trip0 d L fI0 fC0 xb hCle0 v2 k r
  · unfold rowInv0
    isplitl [H0]; · iexact H0
    isplitl [H4]; · iexact H4
    isplitl [H8]; · iexact H8
    isplitl [H6]
    · iexists _; isplitl [H6]; · iexact H6
      ipureintro; intro r' e h; omega
    · iexists _; isplitl [H9]; · iexact H9
      ipureintro; intro x; exact (rsplat_stored _ _ x).trans (splat_zero x)
  iintro %_ HI
  unfold rowInv0
  icases HI with ⟨H0, H4, H8, ⟨%fO0n, H6, %hO0n⟩, ⟨%fR0n, H9, -⟩⟩
  have hOut0 : ChunkO xq xc xb L (2 * k.val) fO0n := fun r e => (hO0n r e (lt_of_lt_of_eq r.isLt (show (128 : Nat) = Scf.trips k0_t4_loop.lb k0_t4_loop.ub k0_t4_loop.st from by decide))).trans (chunk_value xq xc xb L (2 * k.val) fI0 fC0 hI0 hC0 r e)
  sl_exec
  try simp (config := {proj := false}) only [bind_assoc, pure_bind]
  generalize hfI0n : View.write (Elt F) (Memref.whole cc0_scratch0).view fI0 _ Finset.univ = fI0n
  sl_for (qInv0 d L fI0n) $$ [H0 H2]
  case region =>
    intro j _
    exact q_trip0' d L fI0n v2 k k0_h2 j
  · unfold qInv0
    isplitl [H0]; · iexact H0
    iexists _; isplitl [H2]; · iexact H2
    ipureintro; intro j hj; omega
  iintro %_ HI
  unfold qInv0
  icases HI with ⟨H0, %fQ0n, H2, %hQ0n⟩
  have hI0n : ChunkI xq L (2 * k.val + 2) fI0n := by rw [← hfI0n]; exact chunkI_next0 xq L k k0_h2 fI0
  have hQ0n' : ChunkQ xq L (2 * k.val + 2) fQ0n := chunkQ_of xq L (2 * k.val + 2) fI0n fQ0n hI0n hQ0n
  have hin0 : ∀ x, ((Memref.whole cc0_scratch2).view.read (Elt F) fQ0n x).toNat < S25000x128.size gathers_S25000x128_S128x128.axis := hin_of_chunkQ0 xq L (2 * k.val + 2) fQ0n hQ0n' hle
  sl_exec
  -- slot 1: the gathered rows of chunk 2 * k.val + 1 have landed
  iapply (Transfers.wp_waitLocalO countersEmb 𝒱₀ (tth d L) none (default : HIx 1) (N := 524288) rfl) $$ [Hg1 HO]
  · isplitl [Hg1]; · iexact Hg1
    isplitl [HO]; · iexact HO
    iapply ((K (F := F)).mayWait_none (SemLoc.dma cc0_scratch11.sem) hO); iexact Hlv
  iintro ⟨HD, Hg1, HO⟩
  unfold GD1
  icases HD with ⟨⟨%fC1, H5, %hC1⟩, ⟨%fQ1, H3⟩, Hc1⟩
  ihave Hc1 := ((pointsTo_split_subset (ℓ := (cVm).view.loc (tth d L)) (q := qb) (f := xc) (S := Finset.univ) (Finset.subset_univ (cAll).view.set)).2) $$ [Hc1 Hcr1]
  · isplitl [Hc1] <;> iassumption
  sl_exec
  -- the block written two chunks ago has landed
  iapply (Transfers.wp_waitLocalO countersEmb 𝒱₀ (tth d L) none (default : HIx 1) (N := 524288) rfl) $$ [Ho1 HO]
  · isplitl [Ho1]; · iexact Ho1
    isplitl [HO]; · iexact HO
    iapply ((K (F := F)).mayWait_none (SemLoc.dma cc0_scratch13.sem) hO); iexact Hlv
  iintro ⟨HD, Ho1, HO⟩
  unfold OD1
  icases HD with ⟨⟨%fO1, H7⟩, Bd1⟩
  sl_exec
  try simp (config := {proj := false}) only [bind_assoc, pure_bind]
  have hCle1 : ∀ j, (fC1 j).toNat ≤ 15 := codes_le xq xc L (2 * k.val + 1) fC1 hC1 hcl
  sl_for (rowInv1 d L fI1 fC1 xb) $$ [H1 H5 H8 H7 H9]
  case region =>
    intro r _
    exact row_trip1 d L fI1 fC1 xb hCle1 r
  · unfold rowInv1
    isplitl [H1]; · iexact H1
    isplitl [H5]; · iexact H5
    isplitl [H8]; · iexact H8
    isplitl [H7]
    · iexists _; isplitl [H7]; · iexact H7
      ipureintro; intro r' e h; omega
    · iexists _; isplitl [H9]; · iexact H9
      ipureintro; intro x; exact (rsplat_stored _ _ x).trans (splat_zero' x)
  iintro %_ HI
  unfold rowInv1
  icases HI with ⟨H1, H5, H8, ⟨%fO1n, H7, %hO1n⟩, ⟨%fR1n, H9, -⟩⟩
  have hOut1 : ChunkO xq xc xb L (2 * k.val + 1) fO1n := fun r e => (hO1n r e (lt_of_lt_of_eq r.isLt (show (128 : Nat) = Scf.trips k0_t6_loop.lb k0_t6_loop.ub k0_t6_loop.st from by decide))).trans (chunk_value xq xc xb L (2 * k.val + 1) fI1 fC1 hI1 hC1 r e)
  sl_exec
  try simp (config := {proj := false}) only [bind_assoc, pure_bind]
  generalize hfI1n : View.write (Elt F) (Memref.whole cc0_scratch1).view fI1 _ Finset.univ = fI1n
  sl_for (qInv1 d L fI1n) $$ [H1 H3]
  case region =>
    intro j _
    exact q_trip1' d L fI1n k k0_h4 j
  · unfold qInv1
    isplitl [H1]; · iexact H1
    iexists _; isplitl [H3]; · iexact H3
    ipureintro; intro j hj; omega
  iintro %_ HI
  unfold qInv1
  icases HI with ⟨H1, %fQ1n, H3, %hQ1n⟩
  have hI1n : ChunkI xq L (2 * k.val + 1 + 2) fI1n := by rw [← hfI1n]; exact chunkI_next1 xq L k k0_h4 fI1
  have hQ1n' : ChunkQ xq L (2 * k.val + 1 + 2) fQ1n := chunkQ_of xq L (2 * k.val + 1 + 2) fI1n fQ1n hI1n hQ1n
  have hin1 : ∀ x, ((Memref.whole cc0_scratch3).view.read (Elt F) fQ1n x).toNat < S25000x128.size gathers_S25000x128_S128x128.axis := hin_of_chunkQ1 xq L (2 * k.val + 1 + 2) fQ1n hQ1n' hle
  sl_exec
  sl_step
  isplitl [HO]
  · iexists _; isplitr
    rotate_left
    · iexact HO
    · ipureintro; exact (owes_mem (owes_mem (owes_mem (owes_mem (owes_mem (owes_mem (fun p hp => Or.inl hp)))))))
  isplitl [Hq]
  · iexact Hq
  isplitl [H8]
  · iexact H8
  isplitl [H9]
  · iexists _; iexact H9
  isplitl [Hr3]
  · iexact Hr3
  isplitl [Hr4]
  · iexact Hr4
  isplitl [H0]
  · iexists _; isplitl [H0]; · iexact H0
    ipureintro; exact (by rw [show 2 * (k.val + 1) = 2 * k.val + 2 from by ring]; exact hI0n)
  isplitl [H1]
  · iexists _; isplitl [H1]; · iexact H1
    ipureintro; exact (by rw [show 2 * (k.val + 1) + 1 = 2 * k.val + 1 + 2 from by ring]; exact hI1n)
  isplitl [Hg0]
  · iapply (Transfers.Flight_mono countersEmb (tth d L) ?hg0) $$ Hg0
    iintro ⟨⟨H4, H2⟩, Hc⟩
    isplitl [H4]
    · iexists _; isplitl [H4]; · iexact H4
      ipureintro
      rw [show 2 * (k.val + 1) = 2 * k.val + 2 from by ring]
      exact chunkC_landed0 xq xc L (2 * k.val + 2) fQ0n hQ0n' hle _ hin0 fC0
    isplitl [H2]; · iexists _; iexact H2
    iexact Hc
  isplitl [Hc0]
  · iexact Hc0
  isplitl [Hg1]
  · iapply (Transfers.Flight_mono countersEmb (tth d L) ?hg1) $$ Hg1
    iintro ⟨⟨H5, H3⟩, Hc⟩
    isplitl [H5]
    · iexists _; isplitl [H5]; · iexact H5
      ipureintro
      rw [show 2 * (k.val + 1) + 1 = 2 * k.val + 1 + 2 from by ring]
      exact chunkC_landed1 xq xc L (2 * k.val + 1 + 2) fQ1n hQ1n' hle _ hin1 fC1
    isplitl [H3]; · iexists _; iexact H3
    iexact Hc
  isplitl [Hc1]
  · iexact Hc1
  isplitl [Ho0]
  · iapply (Transfers.Flight_mono countersEmb (tth d L) ?ho0) $$ Ho0
    try unfold OD0
    iintro ⟨Hd, Hs⟩
    isplitl [Hs]
    · iexists fO0n
      iapply (Entails.of_eq (show (((sO0).view.loc (tth d L) ↦[(sO0).view.set]{fullShare} fO0n : sProp 𝕄)) = ((sO0).view.loc (tth d L) ↦{fullShare} fO0n) from by rw [View.set_whole])) $$ Hs
    iapply (block_landed0 d L go k _ ?hb0) $$ Hd
    exact out_landed0' xq xc xb go hgo L k fO0n hOut0 m0
  isplitl [Ho1]
  · iapply (Transfers.Flight_mono countersEmb (tth d L) ?ho1) $$ Ho1
    try unfold OD1
    iintro ⟨Hd, Hs⟩
    isplitl [Hs]
    · iexists fO1n
      iapply (Entails.of_eq (show (((sO1).view.loc (tth d L) ↦[(sO1).view.set]{fullShare} fO1n : sProp 𝕄)) = ((sO1).view.loc (tth d L) ↦{fullShare} fO1n) from by rw [View.set_whole])) $$ Hs
    iapply (block_landed1 d L go k _ ?hb1) $$ Hd
    exact out_landed1' xq xc xb go hgo L k fO1n hOut1 m0
  isplitl [Bd0]
  · iexact Bd0
  iexact Bd1

set_option maxHeartbeats 8000000 in
theorem outer_last (d : Dev nD) (L : grid0.Coords) (xq : Buf (Elt F) (qLoc d)) (xc : Buf (Elt F) (cLoc d)) (xb : Buf (Elt F) (bLoc d)) (go : Buf (Elt F) (oLoc d))
    (qq qa qb : PosShare TreeShare) : OuterLast d L xq xc xb go qq qa qb := by
  intro m0 O W hO hle hcl hgo k hk24 v2 fI0 hI0 fI1 hI1 fR
  have k0_h1 : k0_cond1 k = 1#1 := (cond1_iff k).mpr (by omega)
  have k0_h3 : k0_cond3 k = 1#1 := (cond3_iff k).mpr (by omega)
  have k0_h2 : ¬ k0_cond2 k = 1#1 := fun h => absurd ((cond2_iff k).mp h) (by omega)
  have k0_h4 : ¬ k0_cond4 k = 1#1 := fun h => absurd ((cond4_iff k).mp h) (by omega)
  unfold k0_t3_body
  simp only [k0_part5_eq_skeleton]; unfold k0_part5_skel
  unfold SparseCore.waitIndirectGather
  simp only [bind_assoc, pure_bind, Prog.bind_op, Prog.bind_ret]
  iintro ⟨#Hlv, HO, Hq, H8, H9, Hr3, Hr4, H0, H1, Hg0, Hcr0, Hg1, Hcr1, Ho0, Ho1, B0, B1⟩
  ihave Hmw := ((K (F := F)).mayWaits_none (thr := tth d L) hO) $$ Hlv
  ihave Hq := (Entails.of_eq (rfl : ((qV).view.loc (tth d L) ↦{qq} xq : sProp 𝕄) = (qLoc d ↦{qq} xq))) $$ Hq
  ihave H8 := (Entails.of_eq (rfl : ((sB).view.loc (tth d L) ↦{fullShare} xb : sProp 𝕄) = _)) $$ H8
  ihave H9 := (Entails.of_eq (rfl : ((sR).view.loc (tth d L) ↦{fullShare} fR : sProp 𝕄) = _)) $$ H9
  ihave H0 := (Entails.of_eq (rfl : ((sI0).view.loc (tth d L) ↦{fullShare} fI0 : sProp 𝕄) = _)) $$ H0
  ihave H1 := (Entails.of_eq (rfl : ((sI1).view.loc (tth d L) ↦{fullShare} fI1 : sProp 𝕄) = _)) $$ H1
  -- the two blocks this trip writes, as the write-outs address them
  ihave B0 := (Entails.of_eq (show (oLoc d ↦[blkSet (bk L (2 * k.val))]{fullShare} m0 : sProp 𝕄)
      = ((((oV).slice (Rect.unit (s := S204800x128) (k0_off15 L k 0#32) S128x128.size (k0_off15_inb L k 0)) (fun _ => rfl)).view.loc (tth d L)) ↦[((oV).slice (Rect.unit (s := S204800x128) (k0_off15 L k 0#32) S128x128.size (k0_off15_inb L k 0)) (fun _ => rfl)).view.set]{fullShare} m0) from by
        rw [oslice_set0 L k])) $$ B0
  ihave B1 := (Entails.of_eq (show (oLoc d ↦[blkSet (bk L (2 * k.val + 1))]{fullShare} m0 : sProp 𝕄)
      = ((((oV).slice (Rect.unit (s := S204800x128) (k0_off15 L k 1#32) S128x128.size (k0_off15_inb L k 1)) (fun _ => rfl)).view.loc (tth d L)) ↦[((oV).slice (Rect.unit (s := S204800x128) (k0_off15 L k 1#32) S128x128.size (k0_off15_inb L k 1)) (fun _ => rfl)).view.set]{fullShare} m0) from by
        rw [oslice_set1 L k])) $$ B1
  -- slot 0: the gathered rows of chunk 2 * k.val have landed
  iapply (Transfers.wp_waitLocalO countersEmb 𝒱₀ (tth d L) none (default : HIx 1) (N := 524288) rfl) $$ [Hg0 HO]
  · isplitl [Hg0]; · iexact Hg0
    isplitl [HO]; · iexact HO
    iapply ((K (F := F)).mayWait_none (SemLoc.dma cc0_scratch10.sem) hO); iexact Hlv
  iintro ⟨HD, Hg0, HO⟩
  unfold GD0
  icases HD with ⟨⟨%fC0, H4, %hC0⟩, ⟨%fQ0, H2⟩, Hc0⟩
  ihave Hc0 := ((pointsTo_split_subset (ℓ := (cVm).view.loc (tth d L)) (q := qa) (f := xc) (S := Finset.univ) (Finset.subset_univ (cAll).view.set)).2) $$ [Hc0 Hcr0]
  · isplitl [Hc0] <;> iassumption
  sl_exec
  -- the block written two chunks ago has landed
  iapply (Transfers.wp_waitLocalO countersEmb 𝒱₀ (tth d L) none (default : HIx 1) (N := 524288) rfl) $$ [Ho0 HO]
  · isplitl [Ho0]; · iexact Ho0
    isplitl [HO]; · iexact HO
    iapply ((K (F := F)).mayWait_none (SemLoc.dma cc0_scratch12.sem) hO); iexact Hlv
  iintro ⟨HD, Ho0, HO⟩
  unfold OD0
  icases HD with ⟨⟨%fO0, H6⟩, Bd0⟩
  sl_exec
  try simp (config := {proj := false}) only [bind_assoc, pure_bind]
  have hCle0 : ∀ j, (fC0 j).toNat ≤ 15 := codes_le xq xc L (2 * k.val) fC0 hC0 hcl
  sl_for (rowInv0 d L fI0 fC0 xb) $$ [H0 H4 H8 H6 H9]
  case region =>
    intro r _
    exact row_trip0 d L fI0 fC0 xb hCle0 v2 k r
  · unfold rowInv0
    isplitl [H0]; · iexact H0
    isplitl [H4]; · iexact H4
    isplitl [H8]; · iexact H8
    isplitl [H6]
    · iexists _; isplitl [H6]; · iexact H6
      ipureintro; intro r' e h; omega
    · iexists _; isplitl [H9]; · iexact H9
      ipureintro; intro x; exact (rsplat_stored _ _ x).trans (splat_zero x)
  iintro %_ HI
  unfold rowInv0
  icases HI with ⟨H0, H4, H8, ⟨%fO0n, H6, %hO0n⟩, ⟨%fR0n, H9, -⟩⟩
  have hOut0 : ChunkO xq xc xb L (2 * k.val) fO0n := fun r e => (hO0n r e (lt_of_lt_of_eq r.isLt (show (128 : Nat) = Scf.trips k0_t4_loop.lb k0_t4_loop.ub k0_t4_loop.st from by decide))).trans (chunk_value xq xc xb L (2 * k.val) fI0 fC0 hI0 hC0 r e)
  sl_exec
  -- slot 1: the gathered rows of chunk 2 * k.val + 1 have landed
  iapply (Transfers.wp_waitLocalO countersEmb 𝒱₀ (tth d L) none (default : HIx 1) (N := 524288) rfl) $$ [Hg1 HO]
  · isplitl [Hg1]; · iexact Hg1
    isplitl [HO]; · iexact HO
    iapply ((K (F := F)).mayWait_none (SemLoc.dma cc0_scratch11.sem) hO); iexact Hlv
  iintro ⟨HD, Hg1, HO⟩
  unfold GD1
  icases HD with ⟨⟨%fC1, H5, %hC1⟩, ⟨%fQ1, H3⟩, Hc1⟩
  ihave Hc1 := ((pointsTo_split_subset (ℓ := (cVm).view.loc (tth d L)) (q := qb) (f := xc) (S := Finset.univ) (Finset.subset_univ (cAll).view.set)).2) $$ [Hc1 Hcr1]
  · isplitl [Hc1] <;> iassumption
  sl_exec
  -- the block written two chunks ago has landed
  iapply (Transfers.wp_waitLocalO countersEmb 𝒱₀ (tth d L) none (default : HIx 1) (N := 524288) rfl) $$ [Ho1 HO]
  · isplitl [Ho1]; · iexact Ho1
    isplitl [HO]; · iexact HO
    iapply ((K (F := F)).mayWait_none (SemLoc.dma cc0_scratch13.sem) hO); iexact Hlv
  iintro ⟨HD, Ho1, HO⟩
  unfold OD1
  icases HD with ⟨⟨%fO1, H7⟩, Bd1⟩
  sl_exec
  try simp (config := {proj := false}) only [bind_assoc, pure_bind]
  have hCle1 : ∀ j, (fC1 j).toNat ≤ 15 := codes_le xq xc L (2 * k.val + 1) fC1 hC1 hcl
  sl_for (rowInv1 d L fI1 fC1 xb) $$ [H1 H5 H8 H7 H9]
  case region =>
    intro r _
    exact row_trip1 d L fI1 fC1 xb hCle1 r
  · unfold rowInv1
    isplitl [H1]; · iexact H1
    isplitl [H5]; · iexact H5
    isplitl [H8]; · iexact H8
    isplitl [H7]
    · iexists _; isplitl [H7]; · iexact H7
      ipureintro; intro r' e h; omega
    · iexists _; isplitl [H9]; · iexact H9
      ipureintro; intro x; exact (rsplat_stored _ _ x).trans (splat_zero' x)
  iintro %_ HI
  unfold rowInv1
  icases HI with ⟨H1, H5, H8, ⟨%fO1n, H7, %hO1n⟩, ⟨%fR1n, H9, -⟩⟩
  have hOut1 : ChunkO xq xc xb L (2 * k.val + 1) fO1n := fun r e => (hO1n r e (lt_of_lt_of_eq r.isLt (show (128 : Nat) = Scf.trips k0_t6_loop.lb k0_t6_loop.ub k0_t6_loop.st from by decide))).trans (chunk_value xq xc xb L (2 * k.val + 1) fI1 fC1 hI1 hC1 r e)
  sl_exec
  sl_step
  isplitl [HO]
  · iexists _; isplitr
    rotate_left
    · iexact HO
    · ipureintro; exact (owes_mem (owes_mem (owes_mem (owes_mem (fun p hp => Or.inl hp)))))
  isplitl [Hq]
  · iexact Hq
  isplitl [H8]
  · iexact H8
  isplitl [H9]
  · iexists _; iexact H9
  isplitl [Hr3]
  · iexact Hr3
  isplitl [Hr4]
  · iexact Hr4
  isplitl [H0]
  · iexists _; iexact H0
  isplitl [H1]
  · iexists _; iexact H1
  isplitl [H2]
  · iexists _; iexact H2
  isplitl [H3]
  · iexists _; iexact H3
  isplitl [H4]
  · iexists _; iexact H4
  isplitl [H5]
  · iexists _; iexact H5
  isplitl [Hg0]
  · iexact Hg0
  isplitl [Hg1]
  · iexact Hg1
  isplitl [Hc0]
  · iexact Hc0
  isplitl [Hc1]
  · iexact Hc1
  isplitl [Ho0]
  · iapply (Transfers.Flight_mono countersEmb (tth d L) ?ho0) $$ Ho0
    try unfold OD0
    iintro ⟨Hd, Hs⟩
    isplitl [Hs]
    · iexists fO0n
      iapply (Entails.of_eq (show (((sO0).view.loc (tth d L) ↦[(sO0).view.set]{fullShare} fO0n : sProp 𝕄)) = ((sO0).view.loc (tth d L) ↦{fullShare} fO0n) from by rw [View.set_whole])) $$ Hs
    iapply (block_landed0 d L go k _ ?hb0) $$ Hd
    exact out_landed0' xq xc xb go hgo L k fO0n hOut0 m0
  isplitl [Ho1]
  · iapply (Transfers.Flight_mono countersEmb (tth d L) ?ho1) $$ Ho1
    try unfold OD1
    iintro ⟨Hd, Hs⟩
    isplitl [Hs]
    · iexists fO1n
      iapply (Entails.of_eq (show (((sO1).view.loc (tth d L) ↦[(sO1).view.set]{fullShare} fO1n : sProp 𝕄)) = ((sO1).view.loc (tth d L) ↦{fullShare} fO1n) from by rw [View.set_whole])) $$ Hs
    iapply (block_landed1 d L go k _ ?hb1) $$ Hd
    exact out_landed1' xq xc xb go hgo L k fO1n hOut1 m0
  isplitl [Bd0]
  · iexact Bd0
  iexact Bd1

end Cert.Proof.KB

end
-- ==== Proof.KBTileObl.lean ====
/-
  The tile obligation: every tile's task, run from what the launch hands it, hands back its fifty blocks decoded.
  It is the tile's run over its resources one by one (prologue, chunk loop, epilogue), whose chunk loop steps by the three
  kinds of trip, wrapped in the launch theorem's own shape.
-/
import proofs.«215948_g88356067214102_cont_sun_c4_674_26_alg».proof.Proof.KBTile
import proofs.«215948_g88356067214102_cont_sun_c4_674_26_alg».proof.Proof.KBTileCore
import proofs.«215948_g88356067214102_cont_sun_c4_674_26_alg».proof.Proof.KBBody

noncomputable section

namespace Cert.Proof.KB

open Cert.Kernel Cert.Kernel.Gen
open Idealize.ShloMosaic

variable {F : FTy → Type} [FloatOps F]

theorem tileObl (m : (ℓ : Loc nD τ sig) → Buf (Elt F) ℓ) (hpre : PreOK m) :
    (K (F := F)).TileObl (D (F := F)) 𝒱 (P m) v₀ 0 :=
  tileObl_of m hpre fun d L =>
    tile_core d L (Xq m d) (Xc m d) (Xb m d) (Go m d)
      (fun qq qa qb => outer_first d L (Xq m d) (Xc m d) (Xb m d) (Go m d) qq qa qb)
      (fun qq qa qb => outer_mid d L (Xq m d) (Xc m d) (Xb m d) (Go m d) qq qa qb)
      (fun qq qa qb => outer_last d L (Xq m d) (Xc m d) (Xb m d) (Go m d) qq qa qb)

end Cert.Proof.KB

end
-- ==== Proof.RefRun.lean ====
/-
  The reference as a straight line of array operations, and what it leaves in its result.

  The reference looks rows up twice. Each look-up first moves a negative row number up by the table's
  length, then gathers (a gather clamps the row number into the table), and finally keeps the gathered
  entry only where the moved row number was inside the table, putting a fill value elsewhere. The first
  look-up reads rows of the code table at the queries; the second reads rows of the centroid table at
  the codes just read. The last operation regroups the `32 × 4` trailing entries as `128`.

  Here the operations are listed in order, the two look-ups written out in place, and the result
  array is stated as the composition `refTerm` of those operations applied to the three arguments.
-/
import proofs.«215948_g88356067214102_cont_sun_c4_674_26_alg».proof.Proof.Gen.ReferenceIdeal
import Idealize.ShloMosaic.Lib.StableHlo.Run

noncomputable section

namespace Cert.Proof.RefRun

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀

/-! ## The composed term -/

/-- The queries, a negative one moved up by the code table's length. -/
def wrap0 (inp : IVec S4096x50 32) : IVec S4096x50 32 :=
  select (cmpi .slt inp (broadcastInDim S4096x50 ![] bcast_S_S4096x50 (constantI S_ 32 0#32)))
    (addi inp (broadcastInDim S4096x50 ![] bcast_S_S4096x50 (constantI S_ 32 100000#32))) inp

/-- The first gather's start indices: one row number per query. -/
def start0 (inp : IVec S4096x50 32) : IVec S4096x50x1 32 :=
  broadcastInDim S4096x50x1 ![0, 1] bcast_S4096x50_S4096x50x1_0_1 (wrap0 inp)

/-- Which queries name a row of the code table. -/
def mask0 (inp : IVec S4096x50 32) : IVec S4096x50 1 :=
  Host.reduce IntOp.andi
    (andi (cmpi .sge (start0 inp) (broadcastInDim S4096x50x1 ![] bcast_S_S4096x50x1 (constantI S_ 32 0#32)))
      (cmpi .sle (start0 inp)
        (broadcastInDim S4096x50x1 ![0, 1, 2] bcast_S1x1x1_S4096x50x1_0_1_2
          (broadcastInDim S1x1x1 ![2] bcast_S1_S1x1x1_2 (constantI S1 32 99999#32)))))
    (constantI S_ 1 1#1) reducesTo_S4096x50x1_S4096x50_d2 h_S_

/-- The first look-up: the code rows of the queries, a fill value where the query names no row. -/
def rows0 (inp : IVec S4096x50 32) (codes : IVec S100000x32 32) : IVec S4096x50x32 32 :=
  select (broadcastInDim S4096x50x32 ![0, 1] bcast_S4096x50_S4096x50x32_0_1 (mask0 inp))
    (Host.gather gather_S100000x32_S4096x50x1_S4096x50x32_2_0_n_n_0_2_132 codes (start0 inp))
    (broadcastInDim S4096x50x32 ![] bcast_S_S4096x50x32 (constantI S_ 32 2147483648#32))

/-- The codes, a negative one moved up by the number of centroids. -/
def wrap1 (q : IVec S4096x50x32 32) : IVec S4096x50x32 32 :=
  select (cmpi .slt q (broadcastInDim S4096x50x32 ![] bcast_S_S4096x50x32 (constantI S_ 32 0#32)))
    (addi q (broadcastInDim S4096x50x32 ![] bcast_S_S4096x50x32 (constantI S_ 32 16#32))) q

/-- The second gather's start indices: one centroid number per code. -/
def start1 (q : IVec S4096x50x32 32) : IVec S4096x50x32x1 32 :=
  broadcastInDim S4096x50x32x1 ![0, 1, 2] bcast_S4096x50x32_S4096x50x32x1_0_1_2 (wrap1 q)

/-- Which codes name a centroid. -/
def mask1 (q : IVec S4096x50x32 32) : IVec S4096x50x32 1 :=
  Host.reduce IntOp.andi
    (andi (cmpi .sge (start1 q) (broadcastInDim S4096x50x32x1 ![] bcast_S_S4096x50x32x1 (constantI S_ 32 0#32)))
      (cmpi .sle (start1 q)
        (broadcastInDim S4096x50x32x1 ![0, 1, 2, 3] bcast_S1x1x1x1_S4096x50x32x1_0_1_2_3
          (broadcastInDim S1x1x1x1 ![3] bcast_S1_S1x1x1x1_3 (constantI S1 32 15#32)))))
    (constantI S_ 1 1#1) reducesTo_S4096x50x32x1_S4096x50x32_d3 h_S_

/-- The second look-up: the centroids of the codes, a fill value where the code names no centroid. -/
def rows1 (q : IVec S4096x50x32 32) (book : FVec F S16x4 .f32) : FVec F S4096x50x32x4 .f32 :=
  select (broadcastInDim S4096x50x32x4 ![0, 1, 2] bcast_S4096x50x32_S4096x50x32x4_0_1_2 (mask1 q))
    (Host.gather gather_S16x4_S4096x50x32x1_S4096x50x32x4_3_0_n_n_0_3_14 book (start1 q))
    (broadcastInDim S4096x50x32x4 ![] bcast_S_S4096x50x32x4 (constant S_ .f32 0x7FC00000#32))

/-- The reference's result: both look-ups, the trailing `32 × 4` entries regrouped as `128`. -/
def refTerm (inp : IVec S4096x50 32) (codes : IVec S100000x32 32) (book : FVec F S16x4 .f32) : FVec F S4096x50x128 .f32 :=
  shapeCast S4096x50x128 (rows1 (rows0 inp codes) book) shapeCasts_S4096x50x32x4_S4096x50x128

/-! ## The operations -/

/-- The operations in order, each look-up's written out over its own buffers. -/
abbrev ops : List (HloOp τ sig (Elt F)) :=
  [
    nullary main_call0_c (constantI S_ 32 0#32),
    unary main_call0_c main_call0_v0 (broadcastInDim S4096x50 ![] bcast_S_S4096x50),
    binary main_arg0 main_call0_v0 main_call0_v1 (cmpi .slt),
    nullary main_call0_c_0 (constantI S_ 32 100000#32),
    unary main_call0_c_0 main_call0_v2 (broadcastInDim S4096x50 ![] bcast_S_S4096x50),
    binary main_arg0 main_call0_v2 main_call0_v3 addi,
    ternary main_call0_v1 main_call0_v3 main_arg0 main_call0_v4 select,
    unary main_call0_v4 main_call0_v5 (broadcastInDim S4096x50x1 ![0, 1] bcast_S4096x50_S4096x50x1_0_1),
    nullary main_call0_c_1 (constantI S1 32 99999#32),
    nullary main_call0_c_2 (constantI S_ 32 0#32),
    unary main_call0_c_2 main_call0_v6 (broadcastInDim S4096x50x1 ![] bcast_S_S4096x50x1),
    binary main_call0_v5 main_call0_v6 main_call0_v7 (cmpi .sge),
    unary main_call0_c_1 main_call0_v8 (broadcastInDim S1x1x1 ![2] bcast_S1_S1x1x1_2),
    unary main_call0_v8 main_call0_v9 (broadcastInDim S4096x50x1 ![0, 1, 2] bcast_S1x1x1_S4096x50x1_0_1_2),
    binary main_call0_v5 main_call0_v9 main_call0_v10 (cmpi .sle),
    binary main_call0_v7 main_call0_v10 main_call0_v11 andi,
    nullary main_call0_c_3 (constantI S_ 1 1#1),
    binary main_call0_v11 main_call0_c_3 main_call0_v12 (fun x v => Host.reduce IntOp.andi x v reducesTo_S4096x50x1_S4096x50_d2 h_S_),
    binary main_arg1 main_call0_v5 main_call0_v13 (fun x i => Host.gather gather_S100000x32_S4096x50x1_S4096x50x32_2_0_n_n_0_2_132 x i),
    unary main_call0_v12 main_call0_v14 (broadcastInDim S4096x50x32 ![0, 1] bcast_S4096x50_S4096x50x32_0_1),
    nullary main_call0_c_4 (constantI S_ 32 2147483648#32),
    unary main_call0_c_4 main_call0_v15 (broadcastInDim S4096x50x32 ![] bcast_S_S4096x50x32),
    ternary main_call0_v14 main_call0_v13 main_call0_v15 main_v0 select,
    nullary main_call1_c (constantI S_ 32 0#32),
    unary main_call1_c main_call1_v0 (broadcastInDim S4096x50x32 ![] bcast_S_S4096x50x32),
    binary main_v0 main_call1_v0 main_call1_v1 (cmpi .slt),
    nullary main_call1_c_0 (constantI S_ 32 16#32),
    unary main_call1_c_0 main_call1_v2 (broadcastInDim S4096x50x32 ![] bcast_S_S4096x50x32),
    binary main_v0 main_call1_v2 main_call1_v3 addi,
    ternary main_call1_v1 main_call1_v3 main_v0 main_call1_v4 select,
    unary main_call1_v4 main_call1_v5 (broadcastInDim S4096x50x32x1 ![0, 1, 2] bcast_S4096x50x32_S4096x50x32x1_0_1_2),
    nullary main_call1_c_1 (constantI S1 32 15#32),
    nullary main_call1_c_2 (constantI S_ 32 0#32),
    unary main_call1_c_2 main_call1_v6 (broadcastInDim S4096x50x32x1 ![] bcast_S_S4096x50x32x1),
    binary main_call1_v5 main_call1_v6 main_call1_v7 (cmpi .sge),
    unary main_call1_c_1 main_call1_v8 (broadcastInDim S1x1x1x1 ![3] bcast_S1_S1x1x1x1_3),
    unary main_call1_v8 main_call1_v9 (broadcastInDim S4096x50x32x1 ![0, 1, 2, 3] bcast_S1x1x1x1_S4096x50x32x1_0_1_2_3),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12 (fun x v => Host.reduce IntOp.andi x v reducesTo_S4096x50x32x1_S4096x50x32_d3 h_S_),
    binary main_arg2 main_call1_v5 main_call1_v13 (fun x i => Host.gather gather_S16x4_S4096x50x32x1_S4096x50x32x4_3_0_n_n_0_3_14 x i),
    unary main_call1_v12 main_call1_v14 (broadcastInDim S4096x50x32x4 ![0, 1, 2] bcast_S4096x50x32_S4096x50x32x4_0_1_2),
    nullary main_call1_cst (constant S_ .f32 0x7FC00000#32),
    unary main_call1_cst main_call1_v15 (broadcastInDim S4096x50x32x4 ![] bcast_S_S4096x50x32x4),
    ternary main_call1_v14 main_call1_v13 main_call1_v15 main_v1 select,
    reshape main_v1 main_v2 rfl shapeCasts_S4096x50x32x4_S4096x50x128 ]

/-! ## The two reductions, typed and untyped

An operation written over typed buffer names is the same operation over the buffers themselves: the
types agree by computation. For the two `and`-reductions the fold is kept closed while this is checked. -/

attribute [local irreducible] Host.reduce in
set_option maxRecDepth 4096 in
theorem reduce0_eq : (TRef.binary main_call0.v11 main_call0.c_3 main_call0.v12 (fun x v => Host.reduce IntOp.andi x v reducesTo_S4096x50x1_S4096x50_d2 h_S_) : HloOp τ sig (Elt F))
    = binary main_call0_v11 main_call0_c_3 main_call0_v12 (fun x v => Host.reduce IntOp.andi x v reducesTo_S4096x50x1_S4096x50_d2 h_S_) := rfl

attribute [local irreducible] Host.reduce in
set_option maxRecDepth 4096 in
theorem reduce1_eq : (TRef.binary main_call1.v11 main_call1.c_3 main_call1.v12 (fun x v => Host.reduce IntOp.andi x v reducesTo_S4096x50x32x1_S4096x50x32_d3 h_S_) : HloOp τ sig (Elt F))
    = binary main_call1_v11 main_call1_c_3 main_call1_v12 (fun x v => Host.reduce IntOp.andi x v reducesTo_S4096x50x32x1_S4096x50x32_d3 h_S_) := rfl

set_option maxRecDepth 16384 in
/-- The program is that straight line: the look-ups' definitions unfolded where they are called. -/
theorem main_eq (c : Dev nD) : main (F := F) c = seq ops := by
  simp only [main, fn_take.body, fn_take_0.body, fn_where.body, fn_where_1.body, seq, bind_assoc, pure_bind]
  rw [reduce0_eq, reduce1_eq]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., reshape_bufs_sub ..⟩

set_option maxRecDepth 8192 in
set_option maxHeartbeats 1000000 in
/-- The result buffer after the line holds the composed term of the arguments. -/
theorem out_eq (V : Valuation τ sig (Elt F)) :
    after ops V (main_v2 : DevRef τ sig)
      = refTerm (V (main_arg0 : DevRef τ sig)) (V (main_arg1 : DevRef τ sig)) (V (main_arg2 : DevRef τ sig)) := by
  after_results_simp
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- No operation writes the third argument. -/
theorem arg2_eq (V : Valuation τ sig (Elt F)) :
    after ops V (main_arg2 : DevRef τ sig) = V (main_arg2 : DevRef τ sig) := by
  after_results_simp

/-- On every device, for any float values, from any memory with zero counters: every weakly fair execution
    of the reference terminates with its result at the composed term of the arguments and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v2)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.Proof.RefRun

end
-- ==== Proof.RefRead.lean ====
/-
  The reference's result read at an index.

  Each look-up is a gather behind two guards. A gather clamps its row number into the table, which is
  the clamp the decoded array is stated with. The first guard moves a negative row number up by the
  table's length and the second replaces an entry whose row number is outside the table by a fill
  value; on a row number that already names a row neither does anything. So, with every query naming a
  row of the code table and every code naming a centroid, the first look-up at `(a, b, k)` is the code
  table at the clamped query `(a, b)` and block `k`, the second at `(a, b, k, p)` is the centroid table
  at that clamped code and place `p`, and the final regrouping sends `(a, b, e)` to block `e / 4` and
  place `e % 4`, since `((a·50 + b)·32 + e / 4)·4 + e % 4 = (a·50 + b)·128 + e`.
-/
import proofs.«215948_g88356067214102_cont_sun_c4_674_26_alg».proof.Proof.RefRun
import proofs.«215948_g88356067214102_cont_sun_c4_674_26_alg».proof.Proof.Spec
import Idealize.ShloMosaic.Lib.ValueIdx
import Idealize.ShloMosaic.Lib.Pipeline.Value
import Idealize.ShloMosaic.Lib.ReduceAll

noncomputable section

namespace Cert.Proof.RefRead

open Cert.ReferenceIdeal Idealize.ShloMosaic Idealize.ShloMosaic.ValueIdx Cert.Proof.RefRun Cert.Decode

variable {F : FTy → Type} [FloatOps F] [Cert.ReferenceIdeal.Facts]
open Cert.ReferenceIdeal.Facts₀

/-! ## Words -/

/-- A fold by `and` from 1 over entries that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a (List.mem_cons_self ..), show IntOp.andi 1#1 1#1 = 1#1 from by decide]
    exact ih fun n hn => h n (List.mem_cons_of_mem _ hn)

/-- An `and` over some axes of an array of ones, from 1, is 1 everywhere. -/
theorem reduce_andi_one {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x _ fun n _ => hx n

/-- A word whose unsigned value is at most `n < 2^31` is that number read signed. -/
theorem toInt_of_le {v : BitVec 32} {n : Nat} (hn : n < 2 ^ 31) (h : v.toNat ≤ n) : v.toInt = (v.toNat : Int) := by
  rw [BitVec.toInt_eq_toNat_cond]; split
  · rfl
  · omega

/-- Such a word is not negative … -/
theorem slt_zero {v : BitVec 32} {n : Nat} (hn : n < 2 ^ 31) (h : v.toNat ≤ n) : IntOp.cmpi .slt v 0#32 = 0#1 := by
  refine eq_zero_of_ne_one fun e => ?_
  rw [IntOp.cmpi_slt, toInt_of_le hn h, show (0#32 : BitVec 32).toInt = 0 from by decide] at e
  omega

/-- … and lies between `0` and any word that reads `n`. -/
theorem between {v N : BitVec 32} {n : Nat} (hn : n < 2 ^ 31) (hN : N.toInt = (n : Int)) (h : v.toNat ≤ n) :
    IntOp.andi (IntOp.cmpi .sge v 0#32) (IntOp.cmpi .sle v N) = 1#1 := by
  rw [IntOp.andi_eq_one, IntOp.cmpi_sge, IntOp.cmpi_sle, toInt_of_le hn h, hN,
    show (0#32 : BitVec 32).toInt = 0 from by decide]
  omega

/-! ## The two gathers at an index -/

/-- The first gather at `(a, b, k)`: the operand's row named by the start index at `(a, b, 0)`, clamped into the
    table, at column `k`. -/
theorem gather0_apply {α : Type} (x : S100000x32.Idx → α) (idx : IVec S4096x50x1 32) (a : Fin 4096) (b : Fin 50) (k : Fin 32) :
    Host.gather gather_S100000x32_S4096x50x1_S4096x50x32_2_0_n_n_0_2_132 x idx (ix3 a b k)
      = x (ix2 (clampRow 100000 (by decide) (idx (ix3 a b (0 : Fin 1)))) k) := by
  unfold Host.gather
  congr 1
  funext ax
  refine Fin.ext ?_
  match ax with
  | ⟨0, _⟩ =>
    show gather_S100000x32_S4096x50x1_S4096x50x32_2_0_n_n_0_2_132.start (ix3 a b k) idx 0 + gather_S100000x32_S4096x50x1_S4096x50x32_2_0_n_n_0_2_132.batchCoord (ix3 a b k) 0 + gather_S100000x32_S4096x50x1_S4096x50x32_2_0_n_n_0_2_132.offCoord (ix3 a b k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x32_S4096x50x1_S4096x50x32_2_0_n_n_0_2_132.startIndexMap from List.mem_singleton.mpr rfl)]
    have hsi : gather_S100000x32_S4096x50x1_S4096x50x32_2_0_n_n_0_2_132.siIdx (ix3 a b k) ⟨List.idxOf (0 : Fin 2) gather_S100000x32_S4096x50x1_S4096x50x32_2_0_n_n_0_2_132.startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S100000x32_S4096x50x1_S4096x50x32_2_0_n_n_0_2_132.start (ix3 a b k) idx 1 + gather_S100000x32_S4096x50x1_S4096x50x32_2_0_n_n_0_2_132.batchCoord (ix3 a b k) 1 + gather_S100000x32_S4096x50x1_S4096x50x32_2_0_n_n_0_2_132.offCoord (ix3 a b k) 1 = k.val
    rw [GatherDims.batchCoord_eq_zero _ _ _ List.not_mem_nil]
    unfold GatherDims.start
    rw [dif_neg (fun h : (1 : Fin 2) ∈ gather_S100000x32_S4096x50x1_S4096x50x32_2_0_n_n_0_2_132.startIndexMap => absurd (List.mem_singleton.mp h) (by decide))]
    unfold GatherDims.offCoord
    rw [dif_pos ((GatherDims.mem_sKept _ _).2
      ⟨fun h => absurd (List.mem_singleton.mp h) (by decide), List.not_mem_nil⟩)]
    simp only [Nat.zero_add]
    rfl

/-- The second gather at `(a, b, k, p)`: the operand's row named by the start index at `(a, b, k, 0)`, clamped into
    the table, at column `p`. -/
theorem gather1_apply {α : Type} (x : S16x4.Idx → α) (idx : IVec S4096x50x32x1 32) (a : Fin 4096) (b : Fin 50) (k : Fin 32)
    (p : Fin 4) :
    Host.gather gather_S16x4_S4096x50x32x1_S4096x50x32x4_3_0_n_n_0_3_14 x idx (ix4 a b k p)
      = x (ix2 (clampRow 16 (by decide) (idx (ix4 a b k (0 : Fin 1)))) p) := by
  unfold Host.gather
  congr 1
  funext ax
  refine Fin.ext ?_
  match ax with
  | ⟨0, _⟩ =>
    show gather_S16x4_S4096x50x32x1_S4096x50x32x4_3_0_n_n_0_3_14.start (ix4 a b k p) idx 0 + gather_S16x4_S4096x50x32x1_S4096x50x32x4_3_0_n_n_0_3_14.batchCoord (ix4 a b k p) 0 + gather_S16x4_S4096x50x32x1_S4096x50x32x4_3_0_n_n_0_3_14.offCoord (ix4 a b k p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x4_S4096x50x32x1_S4096x50x32x4_3_0_n_n_0_3_14.startIndexMap from List.mem_singleton.mpr rfl)]
    have hsi : gather_S16x4_S4096x50x32x1_S4096x50x32x4_3_0_n_n_0_3_14.siIdx (ix4 a b k p) ⟨List.idxOf (0 : Fin 2) gather_S16x4_S4096x50x32x1_S4096x50x32x4_3_0_n_n_0_3_14.startIndexMap,
        List.idxOf_lt_length_iff.2 (List.mem_singleton.mpr rfl)⟩ = ix4 a b k (0 : Fin 1) := by
      funext c; refine Fin.ext ?_
      match c with
      | ⟨0, _⟩ => rfl
      | ⟨1, _⟩ => rfl
      | ⟨2, _⟩ => rfl
      | ⟨3, _⟩ => rfl
    rw [hsi]
    rfl
  | ⟨1, _⟩ =>
    show gather_S16x4_S4096x50x32x1_S4096x50x32x4_3_0_n_n_0_3_14.start (ix4 a b k p) idx 1 + gather_S16x4_S4096x50x32x1_S4096x50x32x4_3_0_n_n_0_3_14.batchCoord (ix4 a b k p) 1 + gather_S16x4_S4096x50x32x1_S4096x50x32x4_3_0_n_n_0_3_14.offCoord (ix4 a b k p) 1 = p.val
    rw [GatherDims.batchCoord_eq_zero _ _ _ List.not_mem_nil]
    unfold GatherDims.start
    rw [dif_neg (fun h : (1 : Fin 2) ∈ gather_S16x4_S4096x50x32x1_S4096x50x32x4_3_0_n_n_0_3_14.startIndexMap => absurd (List.mem_singleton.mp h) (by decide))]
    unfold GatherDims.offCoord
    rw [dif_pos ((GatherDims.mem_sKept _ _).2
      ⟨fun h => absurd (List.mem_singleton.mp h) (by decide), List.not_mem_nil⟩)]
    simp only [Nat.zero_add]
    rfl

-- From here on the reduction and the gather stay closed: every fact about them used below is one of the lemmas above.
attribute [local irreducible] Host.reduce Host.gather

/-! ## The first look-up -/

section First
variable (inp : IVec S4096x50 32) (hin : ∀ j, (inp j).toNat ≤ 99999)
include hin

/-- A query that names a row is not moved. -/
theorem wrap0_apply (j : S4096x50.Idx) : wrap0 inp j = inp j := by
  show Scalar.select (IntOp.cmpi .slt (inp j) 0#32) _ (inp j) = inp j
  rw [slt_zero (n := 99999) (by decide) (hin j), select_zero]

/-- The start index at `(a, b, c)` is the query `(a, b)`. -/
theorem start0_apply (a : Fin 4096) (b : Fin 50) (c : Fin 1) : start0 inp (ix3 a b c) = inp (ix2 a b) := by
  unfold start0
  rw [broadcastInDim_apply _ _ _ (ix3 a b c) (ix2 a b) (fun ax => by match ax with | ⟨0, _⟩ => rfl | ⟨1, _⟩ => rfl)]
  exact wrap0_apply inp hin _

/-- Every query is inside the table. -/
theorem mask0_apply (j : S4096x50.Idx) : mask0 inp j = 1#1 := by
  unfold mask0
  refine reduce_andi_one _ _ _ _ _ (fun i => ?_) rfl
  obtain ⟨a, b, c, rfl⟩ : ∃ (a : Fin 4096) (b : Fin 50) (c : Fin 1), i = ix3 a b c := ⟨i 0, i 1, i 2, eq_ix3 i⟩
  show IntOp.andi (IntOp.cmpi .sge (start0 inp (ix3 a b c)) 0#32)
    (IntOp.cmpi .sle (start0 inp (ix3 a b c)) 99999#32) = 1#1
  rw [start0_apply inp hin]
  exact between (n := 99999) (by decide) (by decide) (hin _)

/-- The first look-up at `(a, b, k)`: the code table at the query's row and block `k`. -/
theorem rows0_apply (codes : IVec S100000x32 32) (a : Fin 4096) (b : Fin 50) (k : Fin 32) :
    rows0 inp codes (ix3 a b k) = codes (ix2 (clampRow 100000 (by decide) (inp (ix2 a b))) k) := by
  unfold rows0
  rw [select_apply, broadcastInDim_apply _ _ (mask0 inp) (ix3 a b k) (ix2 a b)
    (fun ax => by match ax with | ⟨0, _⟩ => rfl | ⟨1, _⟩ => rfl),
    mask0_apply inp hin, select_one, gather0_apply, start0_apply inp hin]

end First

/-! ## The second look-up -/

section Second
variable (q : IVec S4096x50x32 32) (hq : ∀ j, (q j).toNat ≤ 15)
include hq

/-- A code that names a centroid is not moved. -/
theorem wrap1_apply (j : S4096x50x32.Idx) : wrap1 q j = q j := by
  show Scalar.select (IntOp.cmpi .slt (q j) 0#32) _ (q j) = q j
  rw [slt_zero (n := 15) (by decide) (hq j), select_zero]

/-- The start index at `(a, b, k, c)` is the code `(a, b, k)`. -/
theorem start1_apply (a : Fin 4096) (b : Fin 50) (k : Fin 32) (c : Fin 1) : start1 q (ix4 a b k c) = q (ix3 a b k) := by
  unfold start1
  rw [broadcastInDim_apply _ _ _ (ix4 a b k c) (ix3 a b k)
    (fun ax => by match ax with | ⟨0, _⟩ => rfl | ⟨1, _⟩ => rfl | ⟨2, _⟩ => rfl)]
  exact wrap1_apply q hq _

/-- Every code is inside the table. -/
theorem mask1_apply (j : S4096x50x32.Idx) : mask1 q j = 1#1 := by
  unfold mask1
  refine reduce_andi_one _ _ _ _ _ (fun i => ?_) rfl
  obtain ⟨a, b, k, c, rfl⟩ : ∃ (a : Fin 4096) (b : Fin 50) (k : Fin 32) (c : Fin 1), i = ix4 a b k c :=
    ⟨i 0, i 1, i 2, i 3, eq_ix4 i⟩
  show IntOp.andi (IntOp.cmpi .sge (start1 q (ix4 a b k c)) 0#32)
    (IntOp.cmpi .sle (start1 q (ix4 a b k c)) 15#32) = 1#1
  rw [start1_apply q hq]
  exact between (n := 15) (by decide) (by decide) (hq _)

/-- The second look-up at `(a, b, k, p)`: the centroid table at the code's row and place `p`. -/
theorem rows1_apply (book : FVec F S16x4 .f32) (a : Fin 4096) (b : Fin 50) (k : Fin 32) (p : Fin 4) :
    rows1 q book (ix4 a b k p) = book (ix2 (clampRow 16 (by decide) (q (ix3 a b k))) p) := by
  unfold rows1
  rw [select_apply, broadcastInDim_apply _ _ (mask1 q) (ix4 a b k p) (ix3 a b k)
    (fun ax => by match ax with | ⟨0, _⟩ => rfl | ⟨1, _⟩ => rfl | ⟨2, _⟩ => rfl),
    mask1_apply q hq, select_one, gather1_apply, start1_apply q hq]

end Second

/-! ## The result -/

/-- With every query naming a row and every code naming a centroid, the reference's result at `(a, b, e)` is
    the decoded entry. -/
theorem refTerm_apply (inp : IVec S4096x50 32) (codes : IVec S100000x32 32) (book : FVec F S16x4 .f32)
    (hr : InRange inp codes) (a : Fin 4096) (b : Fin 50) (e : Fin 128) :
    refTerm inp codes book (ix3 a b e) = decodeAt inp codes book a b e := by
  have hq : ∀ j, (rows0 inp codes j).toNat ≤ 15 := fun j => by
    obtain ⟨a', b', k', rfl⟩ : ∃ (a' : Fin 4096) (b' : Fin 50) (k' : Fin 32), j = ix3 a' b' k' := ⟨j 0, j 1, j 2, eq_ix3 j⟩
    rw [rows0_apply inp hr.inp_le]; exact hr.codes_le _
  unfold refTerm
  rw [shapeCast_apply _ _ (ix3 a b e) (ix4 a b (blockOf e) (placeOf e)) (by
    rw [Shape.rowMajor_val_four, Shape.rowMajor_val_three]
    show ((a.val * 50 + b.val) * 32 + e.val / 4) * 4 + e.val % 4 = (a.val * 50 + b.val) * 128 + e.val
    omega)]
  rw [rows1_apply _ hq, rows0_apply inp hr.inp_le]
  rfl

/-- The reference's result is the decoded array. -/
theorem refTerm_eq (inp : IVec S4096x50 32) (codes : IVec S100000x32 32) (book : FVec F S16x4 .f32)
    (hr : InRange inp codes) : refTerm inp codes book = decode inp codes book := by
  funext i
  obtain ⟨a, b, e, rfl⟩ : ∃ (a : Fin 4096) (b : Fin 50) (e : Fin 128), i = ix3 a b e := ⟨i 0, i 1, i 2, eq_ix3 i⟩
  exact refTerm_apply inp codes book hr a b e

end Cert.Proof.RefRead

end
-- ==== Proof.RefSide.lean ====
/-
  The reference's run, with its result as the decoded array.

  The reference, run from any memory, ends with its result buffer at the composition of its operations
  applied to the three arguments and with the arguments untouched. When every query names a row of the code
  table and every code names a centroid, that composition is the decoded array, index by index.
-/
import proofs.«215948_g88356067214102_cont_sun_c4_674_26_alg».proof.Proof.RefRun
import proofs.«215948_g88356067214102_cont_sun_c4_674_26_alg».proof.Proof.RefRead
import proofs.«215948_g88356067214102_cont_sun_c4_674_26_alg».proof.Proof.Spec

noncomputable section

namespace Cert.Proof.RefSide

open Idealize.ShloMosaic Idealize.SL.Sem Cert.ReferenceIdeal

theorem run [Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg)
    (hr : ∀ c : Dev Cert.ReferenceIdeal.nD, Cert.Decode.InRange
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))) :
    θ_run (Cert.ReferenceIdeal.defs (F := Ideal)) (onTc (τ := Cert.ReferenceIdeal.τ) (Cert.ReferenceIdeal.main (F := Ideal))) ⟨m', fun _ => 0, g'⟩
      (fun r => ∀ c : Dev Cert.ReferenceIdeal.nD,
        r.2.mem ((c.tc : Thread Cert.ReferenceIdeal.nD Cert.ReferenceIdeal.τ).loc Cert.ReferenceIdeal.main_v2)
            = Cert.Decode.decode (m' ((c.tc : Thread _ _).loc Cert.ReferenceIdeal.main_arg0)) (m' ((c.tc : Thread _ _).loc Cert.ReferenceIdeal.main_arg1)) (m' ((c.tc : Thread _ _).loc Cert.ReferenceIdeal.main_arg2))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)
        ∧ r.2.mem ((c.tc : Thread _ _).loc Cert.ReferenceIdeal.main_arg2) = m' ((c.tc : Thread _ _).loc Cert.ReferenceIdeal.main_arg2)) :=
  (θ_run (Cert.ReferenceIdeal.defs (F := Ideal)) _ _).mono
    (fun _ h c => ⟨(h c).1.trans (Cert.Proof.RefRead.refTerm_eq _ _ _ (hr c)), (h c).2⟩)
    (Cert.Proof.RefRun.run (F := Ideal) m' g')

end Cert.Proof.RefSide

end
-- ==== Proof.lean ====
/- The proof of `Cert.Claim`.

   Both programs compute one function of the three inputs, the decoded array
   `out[a, b, e] = book[codes[inp[a, b], e / 4], e % 4]`, and neither does any float arithmetic: every float in the
   result is a centroid entry moved, so the two results are equal entry by entry as they stand.

   The kernel flattens its inputs, decodes each flat query on one of 32 tiles, and reshapes the flat result; on inputs in
   range that is the decoded array (flattening keeps row-major positions). The reference looks rows up twice, each
   look-up a gather behind two guards that do nothing on a row number naming a row; on inputs in range that is the
   decoded array too. The precondition bounds the two integer inputs, which is what "in range" asks. Each program
   only reads its inputs, so they end unchanged. The idealization rewrote nothing, so it preserves the kernel as it is. -/
import proofs.«215948_g88356067214102_cont_sun_c4_674_26_alg».proof.Defs
import proofs.«215948_g88356067214102_cont_sun_c4_674_26_alg».proof.Proof.Gen.Kernel
import proofs.«215948_g88356067214102_cont_sun_c4_674_26_alg».proof.Proof.Gen.Kernel.Skeleton
import proofs.«215948_g88356067214102_cont_sun_c4_674_26_alg».proof.Proof.Gen.KernelIdeal
import proofs.«215948_g88356067214102_cont_sun_c4_674_26_alg».proof.Proof.Gen.KernelIdeal.Skeleton
import proofs.«215948_g88356067214102_cont_sun_c4_674_26_alg».proof.Proof.Gen.ReferenceIdeal
import proofs.«215948_g88356067214102_cont_sun_c4_674_26_alg».proof.Proof.Gen.Pre_input_domain
import proofs.«215948_g88356067214102_cont_sun_c4_674_26_alg».proof.Proof.KIFinal
import proofs.«215948_g88356067214102_cont_sun_c4_674_26_alg».proof.Proof.KITileObl
import proofs.«215948_g88356067214102_cont_sun_c4_674_26_alg».proof.Proof.KBFinal
import proofs.«215948_g88356067214102_cont_sun_c4_674_26_alg».proof.Proof.KBTileObl
import proofs.«215948_g88356067214102_cont_sun_c4_674_26_alg».proof.Proof.RefSide
import proofs.«215948_g88356067214102_cont_sun_c4_674_26_alg».proof.Proof.PreFacts
import Idealize.ShloMosaic.Adequacy
import Idealize.ShloMosaic.Init

noncomputable section

namespace Cert.Proof

open Idealize.ShloMosaic Idealize.SL.Sem

/-- The kernel as printed runs and leaves its inputs unchanged. -/
theorem frame_Kernel : Cert.frame_Kernel := fun m ρ hpre =>
  (θ_run (Cert.Kernel.defs (F := Bits)) _ _).mono (fun _ h c => (h c).2) (KB.run_value (F := Bits) m ρ (KB.preOK_of_pre m hpre) (KB.tileObl m (KB.preOK_of_pre m hpre)))

/-- The idealized kernel runs and leaves its inputs unchanged. -/
theorem frame_KernelIdeal : Cert.frame_KernelIdeal := fun m ρ hpre =>
  (θ_run (Cert.KernelIdeal.defs (F := Ideal)) _ _).mono (fun _ h c => (h c).2)
    (KI.run_value (F := Ideal) m ρ (KI.preOK_of_pre m hpre) (KI.tileObl m (KI.preOK_of_pre m hpre)))

/-- The reference runs and leaves its inputs unchanged. -/
theorem frame_ReferenceIdeal : Cert.frame_ReferenceIdeal := fun m ρ hpre =>
  (θ_run (Cert.ReferenceIdeal.defs (F := Ideal)) _ _).mono (fun _ h c => (h c).2)
    (RefSide.run m ρ fun c => PreFacts.inRange (F := Ideal) _ _ _ (hpre c))

/-- From memories agreeing on the inputs, both programs end with the decoded array of those inputs. -/
theorem algebraic : Cert.algebraic_KernelIdeal_ReferenceIdeal := by
  intro m g m' g' hpre hagree
  have hok : KI.PreOK m := KI.preOK_of_pre m hpre
  refine ⟨fun c => Cert.Decode.decode (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    KI.run_value (F := Ideal) m g hok (KI.tileObl m hok), ?_⟩
  have hr : ∀ c : Dev Cert.ReferenceIdeal.nD, Cert.Decode.InRange (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1)) := fun c => by
    rw [(hagree c).1, (hagree c).2.1]; exact hok c
  refine (θ_run (Cert.ReferenceIdeal.defs (F := Ideal)) _ _).mono (fun _ h c => ⟨(h c).1.trans ?_, (h c).2⟩)
    (RefSide.run m' g' hr)
  rw [(hagree c).1, (hagree c).2.1, (hagree c).2.2]

theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial,
    algebraic⟩

end Cert.Proof

end
